-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v243)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v243) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v424) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x400000 : Shape := ⟨2, ![2, 400000]⟩
abbrev S128x128 : Shape := ⟨2, ![128, 128]⟩
abbrev S128 : Shape := ⟨1, ![128]⟩
abbrev S3x128x128 : Shape := ⟨3, ![3, 128, 128]⟩
abbrev S3x128x256 : Shape := ⟨3, ![3, 128, 256]⟩
abbrev S3x128 : Shape := ⟨2, ![3, 128]⟩
abbrev S3x1x128 : Shape := ⟨3, ![3, 1, 128]⟩
abbrev S3x1 : Shape := ⟨2, ![3, 1]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128x256 : S_.BroadcastsInDim S3x128x256 (![] : Fin 0 → Fin S3x128x256.rank)
  reducesTo_S3x128x256_S_d0_1_2 : S3x128x256.ReducesTo [0, 1, 2] S_
  bcast_S_S3x128 : S_.BroadcastsInDim S3x128 (![] : Fin 0 → Fin S3x128.rank)
  reducesTo_S3x128_S_d0_1 : S3x128.ReducesTo [0, 1] S_
  bcast_S_S3x1x128 : S_.BroadcastsInDim S3x1x128 (![] : Fin 0 → Fin S3x1x128.rank)
  reducesTo_S3x1x128_S_d0_1_2 : S3x1x128.ReducesTo [0, 1, 2] S_
  bcast_S_S3x1 : S_.BroadcastsInDim S3x1 (![] : Fin 0 → Fin S3x1.rank)
  reducesTo_S3x1_S_d0_1 : S3x1.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg15 : FVec F S64x128 .f32) (main_arg16 : FVec F S64 .f32) (main_v63 : IVec S_ 1) (main_v67 : IVec S_ 1) : IVec S_ 1 :=
  let main_v68 : IVec S_ 1 := andi main_v63 main_v67
  let main_v69 : FVec F S64x128 .f32 := Host.absf main_arg15
  let main_cst_26 : FVec F S_ .f32 := constant S_ .f32 0x7F800000#32
  let main_v70 : FVec F S64x128 .f32 := broadcastInDim S64x128 ![] bcast_S_S64x128 main_cst_26
  let main_v71 : IVec S64x128 1 := cmpf .olt main_v69 main_v70
  let main_c_27 : IVec S_ 1 := constantI S_ 1 1#1
  let main_v72 : IVec S_ 1 := (fun x v => Host.reduce IntOp.andi x v reducesTo_S64x128_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  main_v78

def fn_part3 {F : FTy → Type} [FloatOps F] (main_arg12 : FVec F S3x128 .f32) (main_arg13 : FVec F S3x128x128 .f32) (main_arg14 : FVec F S3x128 .f32) (main_arg15 : FVec F S64x128 .f32) (main_arg16 : FVec F S64 .f32) (main_v48 : IVec S_ 1) (main_v49 : FVec F S3x128x128 .f32) (main_v50 : FVec F S3x128x128 .f32) : IVec S_ 1 :=
  let main_v51 : IVec S3x128x128 1 := cmpf .olt main_v49 main_v50
  let main_c_19 : IVec S_ 1 := constantI S_ 1 1#1
  let main_v52 : IVec S_ 1 := (fun x v => Host.reduce IntOp.andi x v reducesTo_S3x128x128_S_d0_1_2 h_S_) main_v51 main_c_19
  let main_v53 : IVec S_ 1 := andi main_v48 main_v52
  let main_v54 : FVec F S3x128 .f32 := Host.absf main_arg12
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128x128 .f32 := Host.absf main_arg13
  let main_cst_22 : FVec F S_ .f32 := constant S_ .f32 0x7F800000#32
  let main_v60 : FVec F S3x128x128 .f32 := broadcastInDim S3x128x128 ![] bcast_S_S3x128x128 main_cst_22
  let main_v61 : IVec S3x128x128 1 := cmpf .olt main_v59 main_v60
  let main_c_23 : IVec S_ 1 := constantI S_ 1 1#1
  let main_v62 : IVec S_ 1 := (fun x v => Host.reduce IntOp.andi x v reducesTo_S3x128x128_S_d0_1_2 h_S_) main_v61 main_c_23
  let main_v63 : IVec S_ 1 := andi main_v58 main_v62
  let main_v64 : FVec F S3x128 .f32 := Host.absf main_arg14
  let main_cst_24 : FVec F S_ .f32 := constant S_ .f32 0x7F800000#32
  let main_v65 : FVec F S3x128 .f32 := broadcastInDim S3x128 ![] bcast_S_S3x128 main_cst_24
  let main_v66 : IVec S3x128 1 := cmpf .olt main_v64 main_v65
  let main_c_25 : IVec S_ 1 := constantI S_ 1 1#1
  let main_v67 : IVec S_ 1 := (fun x v => Host.reduce IntOp.andi x v reducesTo_S3x128_S_d0_1 h_S_) main_v66 main_c_25
  fn_part4 (F := F) main_arg15 main_arg16 main_v63 main_v67

def fn_part2 {F : FTy → Type} [FloatOps F] (main_arg8 : FVec F S3x1 .f32) (main_arg9 : FVec F S3x128x128 .f32) (main_arg10 : FVec F S3x128 .f32) (main_arg11 : FVec F S3x128x128 .f32) (main_arg12 : FVec F S3x128 .f32) (main_arg13 : FVec F S3x128x128 .f32) (main_arg14 : FVec F S3x128 .f32) (main_arg15 : FVec F S64x128 .f32) (main_arg16 : FVec F S64 .f32) (main_v33 : IVec S_ 1) : IVec S_ 1 :=
  let main_v34 : FVec F S3x1 .f32 := Host.absf main_arg8
  let main_cst_12 : FVec F S_ .f32 := constant S_ .f32 0x7F800000#32
  let main_v35 : FVec F S3x1 .f32 := broadcastInDim S3x1 ![] bcast_S_S3x1 main_cst_12
  let main_v36 : IVec S3x1 1 := cmpf .olt main_v34 main_v35
  let main_c_13 : IVec S_ 1 := constantI S_ 1 1#1
  let main_v37 : IVec S_ 1 := (fun x v => Host.reduce IntOp.andi x v reducesTo_S3x1_S_d0_1 h_S_) main_v36 main_c_13
  let main_v38 : IVec S_ 1 := andi main_v33 main_v37
  let main_v39 : FVec F S3x128x128 .f32 := Host.absf main_arg9
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128 .f32 := Host.absf main_arg10
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x128x128 .f32 := Host.absf main_arg11
  let main_cst_18 : FVec F S_ .f32 := constant S_ .f32 0x7F800000#32
  let main_v50 : FVec F S3x128x128 .f32 := broadcastInDim S3x128x128 ![] bcast_S_S3x128x128 main_cst_18
  fn_part3 (F := F) main_arg12 main_arg13 main_arg14 main_arg15 main_arg16 main_v48 main_v49 main_v50

def fn_part1 {F : FTy → Type} [FloatOps F] (main_arg5 : FVec F S3x128x256 .f32) (main_arg6 : FVec F S3x128 .f32) (main_arg7 : FVec F S3x1x128 .f32) (main_arg8 : FVec F S3x1 .f32) (main_arg9 : FVec F S3x128x128 .f32) (main_arg10 : FVec F S3x128 .f32) (main_arg11 : FVec F S3x128x128 .f32) (main_arg12 : FVec F S3x128 .f32) (main_arg13 : FVec F S3x128x128 .f32) (main_arg14 : FVec F S3x128 .f32) (main_arg15 : FVec F S64x128 .f32) (main_arg16 : FVec F S64 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128x256 .f32 := Host.absf main_arg5
  let main_cst_6 : FVec F S_ .f32 := constant S_ .f32 0x7F800000#32
  let main_v20 : FVec F S3x128x256 .f32 := broadcastInDim S3x128x256 ![] bcast_S_S3x128x256 main_cst_6
  let main_v21 : IVec S3x128x256 1 := cmpf .olt main_v19 main_v20
  let main_c_7 : IVec S_ 1 := constantI S_ 1 1#1
  let main_v22 : IVec S_ 1 := (fun x v => Host.reduce IntOp.andi x v reducesTo_S3x128x256_S_d0_1_2 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x1x128 .f32 := Host.absf main_arg7
  let main_cst_10 : FVec F S_ .f32 := constant S_ .f32 0x7F800000#32
  let main_v30 : FVec F S3x1x128 .f32 := broadcastInDim S3x1x128 ![] bcast_S_S3x1x128 main_cst_10
  let main_v31 : IVec S3x1x128 1 := cmpf .olt main_v29 main_v30
  let main_c_11 : IVec S_ 1 := constantI S_ 1 1#1
  let main_v32 : IVec S_ 1 := (fun x v => Host.reduce IntOp.andi x v reducesTo_S3x1x128_S_d0_1_2 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x128 .f32) (main_arg1 : IVec S2x400000 32) (main_arg2 : FVec F S128x128 .f32) (main_arg3 : FVec F S128 .f32) (main_arg4 : FVec F S3x128x128 .f32) (main_arg5 : FVec F S3x128x256 .f32) (main_arg6 : FVec F S3x128 .f32) (main_arg7 : FVec F S3x1x128 .f32) (main_arg8 : FVec F S3x1 .f32) (main_arg9 : FVec F S3x128x128 .f32) (main_arg10 : FVec F S3x128 .f32) (main_arg11 : FVec F S3x128x128 .f32) (main_arg12 : FVec F S3x128 .f32) (main_arg13 : FVec F S3x128x128 .f32) (main_arg14 : FVec F S3x128 .f32) (main_arg15 : FVec F S64x128 .f32) (main_arg16 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x400000 : Shape := ⟨2, ![2, 400000]⟩
abbrev S128x128 : Shape := ⟨2, ![128, 128]⟩
abbrev S128 : Shape := ⟨1, ![128]⟩
abbrev S3x128x128 : Shape := ⟨3, ![3, 128, 128]⟩
abbrev S3x128x256 : Shape := ⟨3, ![3, 128, 256]⟩
abbrev S3x128 : Shape := ⟨2, ![3, 128]⟩
abbrev S3x1x128 : Shape := ⟨3, ![3, 1, 128]⟩
abbrev S3x1 : Shape := ⟨2, ![3, 1]⟩
abbrev S64x128 : Shape := ⟨2, ![64, 128]⟩
abbrev S64 : Shape := ⟨1, ![64]⟩
abbrev S1x400000 : Shape := ⟨2, ![1, 400000]⟩
abbrev S400000 : Shape := ⟨1, ![400000]⟩
abbrev S_ : Shape := ⟨0, ![]⟩
abbrev S2000x128 : Shape := ⟨2, ![2000, 128]⟩
abbrev S1x128 : Shape := ⟨2, ![1, 128]⟩
abbrev S400000x1 : Shape := ⟨2, ![400000, 1]⟩
abbrev S400000x128 : Shape := ⟨2, ![400000, 128]⟩
abbrev S1x128x256 : Shape := ⟨3, ![1, 128, 256]⟩
abbrev S128x256 : Shape := ⟨2, ![128, 256]⟩
abbrev S1x1x128 : Shape := ⟨3, ![1, 1, 128]⟩
abbrev S1x1 : Shape := ⟨2, ![1, 1]⟩
abbrev S1 : Shape := ⟨1, ![1]⟩
abbrev S4000x128 : Shape := ⟨2, ![4000, 128]⟩
abbrev S4000x1 : Shape := ⟨2, ![4000, 1]⟩
abbrev S4000x256 : Shape := ⟨2, ![4000, 256]⟩
abbrev S256x128 : Shape := ⟨2, ![256, 128]⟩
abbrev S128x1 : Shape := ⟨2, ![128, 1]⟩
abbrev S50000x1 : Shape := ⟨2, ![50000, 1]⟩
abbrev S1x128x128 : Shape := ⟨3, ![1, 128, 128]⟩
abbrev S2000x1 : Shape := ⟨2, ![2000, 1]⟩
abbrev S50000x64 : Shape := ⟨2, ![50000, 64]⟩
abbrev S2000x64 : Shape := ⟨2, ![2000, 64]⟩
abbrev S128x64 : Shape := ⟨2, ![128, 64]⟩
abbrev S1x64 : Shape := ⟨2, ![1, 64]⟩

abbrev nBuf : Space → Nat
  | .hbm => 304
  | .vmem => 246
  | .smem => 0
  | _ => 0

abbrev hbmTy0_0 (i : Nat) : BufTy := match i % 128 with
  | 0 => ⟨S50000x128, .f32⟩
  | 1 => ⟨S2x400000, .i32⟩
  | 2 => ⟨S128x128, .f32⟩
  | 3 => ⟨S128, .f32⟩
  | 4 => ⟨S3x128x128, .f32⟩
  | 5 => ⟨S3x128x256, .f32⟩
  | 6 => ⟨S3x128, .f32⟩
  | 7 => ⟨S3x1x128, .f32⟩
  | 8 => ⟨S3x1, .f32⟩
  | 9 => ⟨S3x128x128, .f32⟩
  | 10 => ⟨S3x128, .f32⟩
  | 11 => ⟨S3x128x128, .f32⟩
  | 12 => ⟨S3x128, .f32⟩
  | 13 => ⟨S3x128x128, .f32⟩
  | 14 => ⟨S3x128, .f32⟩
  | 15 => ⟨S64x128, .f32⟩
  | 16 => ⟨S64, .f32⟩
  | 17 => ⟨S1x400000, .i32⟩
  | 18 => ⟨S400000, .i32⟩
  | 19 => ⟨S1x400000, .i32⟩
  | 20 => ⟨S400000, .i32⟩
  | 21 => ⟨S_, .f32⟩
  | 22 => ⟨S128, .f32⟩
  | 23 => ⟨S50000x128, .f32⟩
  | 24 => ⟨S_, .i32⟩
  | 25 => ⟨S400000, .i32⟩
  | 26 => ⟨S400000, .i1⟩
  | 27 => ⟨S_, .i32⟩
  | 28 => ⟨S400000, .i32⟩
  | 29 => ⟨S400000, .i32⟩
  | 30 => ⟨S400000, .i32⟩
  | 31 => ⟨S400000x1, .i32⟩
  | 32 => ⟨S400000x128, .f32⟩
  | 33 => ⟨S_, .i32⟩
  | 34 => ⟨S400000, .i32⟩
  | 35 => ⟨S400000, .i1⟩
  | 36 => ⟨S_, .i32⟩
  | 37 => ⟨S400000, .i32⟩
  | 38 => ⟨S400000, .i32⟩
  | 39 => ⟨S400000, .i32⟩
  | 40 => ⟨S400000x1, .i32⟩
  | 41 => ⟨S400000x128, .f32⟩
  | 42 => ⟨S1x128x256, .f32⟩
  | 43 => ⟨S128x256, .f32⟩
  | 44 => ⟨S1x128, .f32⟩
  | 45 => ⟨S128, .f32⟩
  | 46 => ⟨S1x1x128, .f32⟩
  | 47 => ⟨S1x128, .f32⟩
  | 48 => ⟨S1x1, .f32⟩
  | 49 => ⟨S1, .f32⟩
  | 50 => ⟨S400000x1, .f32⟩
  | 51 => ⟨S_, .f32⟩
  | 52 => ⟨S50000x1, .f32⟩
  | 53 => ⟨S400000x1, .i32⟩
  | 54 => ⟨S50000x1, .f32⟩
  | 55 => ⟨S_, .f32⟩
  | 56 => ⟨S50000x128, .f32⟩
  | 57 => ⟨S1x128x128, .f32⟩
  | 58 => ⟨S128x128, .f32⟩
  | 59 => ⟨S50000x128, .f32⟩
  | 60 => ⟨S1x128x128, .f32⟩
  | 61 => ⟨S128x128, .f32⟩
  | 62 => ⟨S1x128, .f32⟩
  | 63 => ⟨S128, .f32⟩
  | 64 => ⟨S50000x128, .f32⟩
  | 65 => ⟨S_, .i32⟩
  | 66 => ⟨S400000, .i32⟩
  | 67 => ⟨S400000, .i1⟩
  | 68 => ⟨S_, .i32⟩
  | 69 => ⟨S400000, .i32⟩
  | 70 => ⟨S400000, .i32⟩
  | 71 => ⟨S400000, .i32⟩
  | 72 => ⟨S400000x1, .i32⟩
  | 73 => ⟨S400000x128, .f32⟩
  | 74 => ⟨S400000x128, .f32⟩
  | 75 => ⟨S400000x128, .f32⟩
  | 76 => ⟨S_, .f32⟩
  | 77 => ⟨S50000x128, .f32⟩
  | 78 => ⟨S400000x1, .i32⟩
  | 79 => ⟨S50000x128, .f32⟩
  | 80 => ⟨S50000x128, .f32⟩
  | 81 => ⟨S50000x128, .f32⟩
  | 82 => ⟨S1x128x128, .f32⟩
  | 83 => ⟨S128x128, .f32⟩
  | 84 => ⟨S50000x128, .f32⟩
  | 85 => ⟨S1x128x128, .f32⟩
  | 86 => ⟨S128x128, .f32⟩
  | 87 => ⟨S1x128, .f32⟩
  | 88 => ⟨S128, .f32⟩
  | 89 => ⟨S50000x128, .f32⟩
  | 90 => ⟨S_, .i32⟩
  | 91 => ⟨S400000, .i32⟩
  | 92 => ⟨S400000, .i1⟩
  | 93 => ⟨S_, .i32⟩
  | 94 => ⟨S400000, .i32⟩
  | 95 => ⟨S400000, .i32⟩
  | 96 => ⟨S400000, .i32⟩
  | 97 => ⟨S400000x1, .i32⟩
  | 98 => ⟨S400000x128, .f32⟩
  | 99 => ⟨S400000x128, .f32⟩
  | 100 => ⟨S400000x128, .f32⟩
  | 101 => ⟨S_, .f32⟩
  | 102 => ⟨S50000x128, .f32⟩
  | 103 => ⟨S400000x1, .i32⟩
  | 104 => ⟨S50000x128, .f32⟩
  | 105 => ⟨S50000x128, .f32⟩
  | 106 => ⟨S50000x128, .f32⟩
  | 107 => ⟨S1x128x128, .f32⟩
  | 108 => ⟨S128x128, .f32⟩
  | 109 => ⟨S1x128, .f32⟩
  | 110 => ⟨S128, .f32⟩
  | 111 => ⟨S50000x128, .f32⟩
  | 112 => ⟨S1x128x128, .f32⟩
  | 113 => ⟨S128x128, .f32⟩
  | 114 => ⟨S1x128, .f32⟩
  | 115 => ⟨S128, .f32⟩
  | 116 => ⟨S50000x128, .f32⟩
  | 117 => ⟨S_, .i32⟩
  | 118 => ⟨S400000, .i32⟩
  | 119 => ⟨S400000, .i1⟩
  | 120 => ⟨S_, .i32⟩
  | 121 => ⟨S400000, .i32⟩
  | 122 => ⟨S400000, .i32⟩
  | 123 => ⟨S400000, .i32⟩
  | 124 => ⟨S400000x1, .i32⟩
  | 125 => ⟨S400000x128, .f32⟩
  | 126 => ⟨S_, .i32⟩
  | 127 => ⟨S400000, .i32⟩
  | _ => ⟨S50000x128, .f32⟩

abbrev hbmTy0_1 (i : Nat) : BufTy := match i % 128 with
  | 0 => ⟨S400000, .i1⟩
  | 1 => ⟨S_, .i32⟩
  | 2 => ⟨S400000, .i32⟩
  | 3 => ⟨S400000, .i32⟩
  | 4 => ⟨S400000, .i32⟩
  | 5 => ⟨S400000x1, .i32⟩
  | 6 => ⟨S400000x128, .f32⟩
  | 7 => ⟨S1x128x256, .f32⟩
  | 8 => ⟨S128x256, .f32⟩
  | 9 => ⟨S1x128, .f32⟩
  | 10 => ⟨S128, .f32⟩
  | 11 => ⟨S1x1x128, .f32⟩
  | 12 => ⟨S1x128, .f32⟩
  | 13 => ⟨S1x1, .f32⟩
  | 14 => ⟨S1, .f32⟩
  | 15 => ⟨S400000x1, .f32⟩
  | 16 => ⟨S_, .f32⟩
  | 17 => ⟨S50000x1, .f32⟩
  | 18 => ⟨S400000x1, .i32⟩
  | 19 => ⟨S50000x1, .f32⟩
  | 20 => ⟨S_, .f32⟩
  | 21 => ⟨S50000x128, .f32⟩
  | 22 => ⟨S1x128x128, .f32⟩
  | 23 => ⟨S128x128, .f32⟩
  | 24 => ⟨S50000x128, .f32⟩
  | 25 => ⟨S1x128x128, .f32⟩
  | 26 => ⟨S128x128, .f32⟩
  | 27 => ⟨S1x128, .f32⟩
  | 28 => ⟨S128, .f32⟩
  | 29 => ⟨S50000x128, .f32⟩
  | 30 => ⟨S_, .i32⟩
  | 31 => ⟨S400000, .i32⟩
  | 32 => ⟨S400000, .i1⟩
  | 33 => ⟨S_, .i32⟩
  | 34 => ⟨S400000, .i32⟩
  | 35 => ⟨S400000, .i32⟩
  | 36 => ⟨S400000, .i32⟩
  | 37 => ⟨S400000x1, .i32⟩
  | 38 => ⟨S400000x128, .f32⟩
  | 39 => ⟨S400000x128, .f32⟩
  | 40 => ⟨S400000x128, .f32⟩
  | 41 => ⟨S_, .f32⟩
  | 42 => ⟨S50000x128, .f32⟩
  | 43 => ⟨S400000x1, .i32⟩
  | 44 => ⟨S50000x128, .f32⟩
  | 45 => ⟨S50000x128, .f32⟩
  | 46 => ⟨S50000x128, .f32⟩
  | 47 => ⟨S1x128x128, .f32⟩
  | 48 => ⟨S128x128, .f32⟩
  | 49 => ⟨S50000x128, .f32⟩
  | 50 => ⟨S1x128x128, .f32⟩
  | 51 => ⟨S128x128, .f32⟩
  | 52 => ⟨S1x128, .f32⟩
  | 53 => ⟨S128, .f32⟩
  | 54 => ⟨S50000x128, .f32⟩
  | 55 => ⟨S_, .i32⟩
  | 56 => ⟨S400000, .i32⟩
  | 57 => ⟨S400000, .i1⟩
  | 58 => ⟨S_, .i32⟩
  | 59 => ⟨S400000, .i32⟩
  | 60 => ⟨S400000, .i32⟩
  | 61 => ⟨S400000, .i32⟩
  | 62 => ⟨S400000x1, .i32⟩
  | 63 => ⟨S400000x128, .f32⟩
  | 64 => ⟨S400000x128, .f32⟩
  | 65 => ⟨S400000x128, .f32⟩
  | 66 => ⟨S_, .f32⟩
  | 67 => ⟨S50000x128, .f32⟩
  | 68 => ⟨S400000x1, .i32⟩
  | 69 => ⟨S50000x128, .f32⟩
  | 70 => ⟨S50000x128, .f32⟩
  | 71 => ⟨S50000x128, .f32⟩
  | 72 => ⟨S1x128x128, .f32⟩
  | 73 => ⟨S128x128, .f32⟩
  | 74 => ⟨S1x128, .f32⟩
  | 75 => ⟨S128, .f32⟩
  | 76 => ⟨S50000x128, .f32⟩
  | 77 => ⟨S1x128x128, .f32⟩
  | 78 => ⟨S128x128, .f32⟩
  | 79 => ⟨S1x128, .f32⟩
  | 80 => ⟨S128, .f32⟩
  | 81 => ⟨S50000x128, .f32⟩
  | 82 => ⟨S_, .i32⟩
  | 83 => ⟨S400000, .i32⟩
  | 84 => ⟨S400000, .i1⟩
  | 85 => ⟨S_, .i32⟩
  | 86 => ⟨S400000, .i32⟩
  | 87 => ⟨S400000, .i32⟩
  | 88 => ⟨S400000, .i32⟩
  | 89 => ⟨S400000x1, .i32⟩
  | 90 => ⟨S400000x128, .f32⟩
  | 91 => ⟨S_, .i32⟩
  | 92 => ⟨S400000, .i32⟩
  | 93 => ⟨S400000, .i1⟩
  | 94 => ⟨S_, .i32⟩
  | 95 => ⟨S400000, .i32⟩
  | 96 => ⟨S400000, .i32⟩
  | 97 => ⟨S400000, .i32⟩
  | 98 => ⟨S400000x1, .i32⟩
  | 99 => ⟨S400000x128, .f32⟩
  | 100 => ⟨S1x128x256, .f32⟩
  | 101 => ⟨S128x256, .f32⟩
  | 102 => ⟨S1x128, .f32⟩
  | 103 => ⟨S128, .f32⟩
  | 104 => ⟨S1x1x128, .f32⟩
  | 105 => ⟨S1x128, .f32⟩
  | 106 => ⟨S1x1, .f32⟩
  | 107 => ⟨S1, .f32⟩
  | 108 => ⟨S400000x1, .f32⟩
  | 109 => ⟨S_, .f32⟩
  | 110 => ⟨S50000x1, .f32⟩
  | 111 => ⟨S400000x1, .i32⟩
  | 112 => ⟨S50000x1, .f32⟩
  | 113 => ⟨S_, .f32⟩
  | 114 => ⟨S50000x128, .f32⟩
  | 115 => ⟨S1x128x128, .f32⟩
  | 116 => ⟨S128x128, .f32⟩
  | 117 => ⟨S50000x128, .f32⟩
  | 118 => ⟨S1x128x128, .f32⟩
  | 119 => ⟨S128x128, .f32⟩
  | 120 => ⟨S1x128, .f32⟩
  | 121 => ⟨S128, .f32⟩
  | 122 => ⟨S50000x128, .f32⟩
  | 123 => ⟨S_, .i32⟩
  | 124 => ⟨S400000, .i32⟩
  | 125 => ⟨S400000, .i1⟩
  | 126 => ⟨S_, .i32⟩
  | 127 => ⟨S400000, .i32⟩
  | _ => ⟨S50000x128, .f32⟩

abbrev hbmTy0_2 (i : Nat) : BufTy := match i % 128 with
  | 0 => ⟨S400000, .i32⟩
  | 1 => ⟨S400000, .i32⟩
  | 2 => ⟨S400000x1, .i32⟩
  | 3 => ⟨S400000x128, .f32⟩
  | 4 => ⟨S400000x128, .f32⟩
  | 5 => ⟨S400000x128, .f32⟩
  | 6 => ⟨S_, .f32⟩
  | 7 => ⟨S50000x128, .f32⟩
  | 8 => ⟨S400000x1, .i32⟩
  | 9 => ⟨S50000x128, .f32⟩
  | 10 => ⟨S50000x128, .f32⟩
  | 11 => ⟨S50000x128, .f32⟩
  | 12 => ⟨S1x128x128, .f32⟩
  | 13 => ⟨S128x128, .f32⟩
  | 14 => ⟨S50000x128, .f32⟩
  | 15 => ⟨S1x128x128, .f32⟩
  | 16 => ⟨S128x128, .f32⟩
  | 17 => ⟨S1x128, .f32⟩
  | 18 => ⟨S128, .f32⟩
  | 19 => ⟨S50000x128, .f32⟩
  | 20 => ⟨S_, .i32⟩
  | 21 => ⟨S400000, .i32⟩
  | 22 => ⟨S400000, .i1⟩
  | 23 => ⟨S_, .i32⟩
  | 24 => ⟨S400000, .i32⟩
  | 25 => ⟨S400000, .i32⟩
  | 26 => ⟨S400000, .i32⟩
  | 27 => ⟨S400000x1, .i32⟩
  | 28 => ⟨S400000x128, .f32⟩
  | 29 => ⟨S400000x128, .f32⟩
  | 30 => ⟨S400000x128, .f32⟩
  | 31 => ⟨S_, .f32⟩
  | 32 => ⟨S50000x128, .f32⟩
  | 33 => ⟨S400000x1, .i32⟩
  | 34 => ⟨S50000x128, .f32⟩
  | 35 => ⟨S50000x128, .f32⟩
  | 36 => ⟨S50000x128, .f32⟩
  | 37 => ⟨S1x128x128, .f32⟩
  | 38 => ⟨S128x128, .f32⟩
  | 39 => ⟨S1x128, .f32⟩
  | 40 => ⟨S128, .f32⟩
  | 41 => ⟨S50000x128, .f32⟩
  | 42 => ⟨S1x128x128, .f32⟩
  | 43 => ⟨S128x128, .f32⟩
  | 44 => ⟨S1x128, .f32⟩
  | 45 => ⟨S128, .f32⟩
  | 46 => ⟨S50000x128, .f32⟩
  | 47 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev vmemTy0_0 (i : Nat) : BufTy := match i % 128 with
  | 0 => ⟨S2000x128, .f32⟩
  | 1 => ⟨S2000x128, .f32⟩
  | 2 => ⟨S128x128, .f32⟩
  | 3 => ⟨S128, .f32⟩
  | 4 => ⟨S2000x128, .f32⟩
  | 5 => ⟨S2000x128, .f32⟩
  | 6 => ⟨S4000x128, .f32⟩
  | 7 => ⟨S4000x128, .f32⟩
  | 8 => ⟨S4000x128, .f32⟩
  | 9 => ⟨S4000x128, .f32⟩
  | 10 => ⟨S128x256, .f32⟩
  | 11 => ⟨S128, .f32⟩
  | 12 => ⟨S1x128, .f32⟩
  | 13 => ⟨S1, .f32⟩
  | 14 => ⟨S4000x1, .f32⟩
  | 15 => ⟨S4000x1, .f32⟩
  | 16 => ⟨S2000x128, .f32⟩
  | 17 => ⟨S2000x128, .f32⟩
  | 18 => ⟨S128x128, .f32⟩
  | 19 => ⟨S128, .f32⟩
  | 20 => ⟨S2000x128, .f32⟩
  | 21 => ⟨S2000x128, .f32⟩
  | 22 => ⟨S2000x128, .f32⟩
  | 23 => ⟨S2000x128, .f32⟩
  | 24 => ⟨S128x128, .f32⟩
  | 25 => ⟨S128, .f32⟩
  | 26 => ⟨S2000x128, .f32⟩
  | 27 => ⟨S2000x128, .f32⟩
  | 28 => ⟨S2000x128, .f32⟩
  | 29 => ⟨S2000x128, .f32⟩
  | 30 => ⟨S2000x128, .f32⟩
  | 31 => ⟨S2000x128, .f32⟩
  | 32 => ⟨S2000x128, .f32⟩
  | 33 => ⟨S2000x128, .f32⟩
  | 34 => ⟨S2000x128, .f32⟩
  | 35 => ⟨S2000x128, .f32⟩
  | 36 => ⟨S2000x1, .f32⟩
  | 37 => ⟨S2000x1, .f32⟩
  | 38 => ⟨S2000x128, .f32⟩
  | 39 => ⟨S2000x128, .f32⟩
  | 40 => ⟨S2000x128, .f32⟩
  | 41 => ⟨S2000x128, .f32⟩
  | 42 => ⟨S2000x128, .f32⟩
  | 43 => ⟨S2000x128, .f32⟩
  | 44 => ⟨S2000x128, .f32⟩
  | 45 => ⟨S2000x128, .f32⟩
  | 46 => ⟨S128x128, .f32⟩
  | 47 => ⟨S128, .f32⟩
  | 48 => ⟨S2000x128, .f32⟩
  | 49 => ⟨S2000x128, .f32⟩
  | 50 => ⟨S2000x128, .f32⟩
  | 51 => ⟨S2000x128, .f32⟩
  | 52 => ⟨S128x128, .f32⟩
  | 53 => ⟨S128, .f32⟩
  | 54 => ⟨S2000x128, .f32⟩
  | 55 => ⟨S2000x128, .f32⟩
  | 56 => ⟨S2000x128, .f32⟩
  | 57 => ⟨S2000x128, .f32⟩
  | 58 => ⟨S2000x128, .f32⟩
  | 59 => ⟨S2000x128, .f32⟩
  | 60 => ⟨S2000x128, .f32⟩
  | 61 => ⟨S2000x128, .f32⟩
  | 62 => ⟨S2000x128, .f32⟩
  | 63 => ⟨S2000x128, .f32⟩
  | 64 => ⟨S2000x1, .f32⟩
  | 65 => ⟨S2000x1, .f32⟩
  | 66 => ⟨S2000x128, .f32⟩
  | 67 => ⟨S2000x128, .f32⟩
  | 68 => ⟨S2000x128, .f32⟩
  | 69 => ⟨S2000x128, .f32⟩
  | 70 => ⟨S2000x128, .f32⟩
  | 71 => ⟨S2000x128, .f32⟩
  | 72 => ⟨S2000x128, .f32⟩
  | 73 => ⟨S2000x128, .f32⟩
  | 74 => ⟨S128x128, .f32⟩
  | 75 => ⟨S128, .f32⟩
  | 76 => ⟨S2000x128, .f32⟩
  | 77 => ⟨S2000x128, .f32⟩
  | 78 => ⟨S2000x128, .f32⟩
  | 79 => ⟨S2000x128, .f32⟩
  | 80 => ⟨S128x128, .f32⟩
  | 81 => ⟨S128, .f32⟩
  | 82 => ⟨S2000x128, .f32⟩
  | 83 => ⟨S2000x128, .f32⟩
  | 84 => ⟨S4000x128, .f32⟩
  | 85 => ⟨S4000x128, .f32⟩
  | 86 => ⟨S4000x128, .f32⟩
  | 87 => ⟨S4000x128, .f32⟩
  | 88 => ⟨S128x256, .f32⟩
  | 89 => ⟨S128, .f32⟩
  | 90 => ⟨S1x128, .f32⟩
  | 91 => ⟨S1, .f32⟩
  | 92 => ⟨S4000x1, .f32⟩
  | 93 => ⟨S4000x1, .f32⟩
  | 94 => ⟨S2000x128, .f32⟩
  | 95 => ⟨S2000x128, .f32⟩
  | 96 => ⟨S128x128, .f32⟩
  | 97 => ⟨S128, .f32⟩
  | 98 => ⟨S2000x128, .f32⟩
  | 99 => ⟨S2000x128, .f32⟩
  | 100 => ⟨S2000x128, .f32⟩
  | 101 => ⟨S2000x128, .f32⟩
  | 102 => ⟨S128x128, .f32⟩
  | 103 => ⟨S128, .f32⟩
  | 104 => ⟨S2000x128, .f32⟩
  | 105 => ⟨S2000x128, .f32⟩
  | 106 => ⟨S2000x128, .f32⟩
  | 107 => ⟨S2000x128, .f32⟩
  | 108 => ⟨S2000x128, .f32⟩
  | 109 => ⟨S2000x128, .f32⟩
  | 110 => ⟨S2000x128, .f32⟩
  | 111 => ⟨S2000x128, .f32⟩
  | 112 => ⟨S2000x128, .f32⟩
  | 113 => ⟨S2000x128, .f32⟩
  | 114 => ⟨S2000x1, .f32⟩
  | 115 => ⟨S2000x1, .f32⟩
  | 116 => ⟨S2000x128, .f32⟩
  | 117 => ⟨S2000x128, .f32⟩
  | 118 => ⟨S2000x128, .f32⟩
  | 119 => ⟨S2000x128, .f32⟩
  | 120 => ⟨S2000x128, .f32⟩
  | 121 => ⟨S2000x128, .f32⟩
  | 122 => ⟨S2000x128, .f32⟩
  | 123 => ⟨S2000x128, .f32⟩
  | 124 => ⟨S128x128, .f32⟩
  | 125 => ⟨S128, .f32⟩
  | 126 => ⟨S2000x128, .f32⟩
  | 127 => ⟨S2000x128, .f32⟩
  | _ => ⟨S50000x128, .f32⟩

abbrev vmemTy0_1 (i : Nat) : BufTy := match i % 128 with
  | 0 => ⟨S2000x128, .f32⟩
  | 1 => ⟨S2000x128, .f32⟩
  | 2 => ⟨S128x128, .f32⟩
  | 3 => ⟨S128, .f32⟩
  | 4 => ⟨S2000x128, .f32⟩
  | 5 => ⟨S2000x128, .f32⟩
  | 6 => ⟨S2000x128, .f32⟩
  | 7 => ⟨S2000x128, .f32⟩
  | 8 => ⟨S2000x128, .f32⟩
  | 9 => ⟨S2000x128, .f32⟩
  | 10 => ⟨S2000x128, .f32⟩
  | 11 => ⟨S2000x128, .f32⟩
  | 12 => ⟨S2000x128, .f32⟩
  | 13 => ⟨S2000x128, .f32⟩
  | 14 => ⟨S2000x1, .f32⟩
  | 15 => ⟨S2000x1, .f32⟩
  | 16 => ⟨S2000x128, .f32⟩
  | 17 => ⟨S2000x128, .f32⟩
  | 18 => ⟨S2000x128, .f32⟩
  | 19 => ⟨S2000x128, .f32⟩
  | 20 => ⟨S2000x128, .f32⟩
  | 21 => ⟨S2000x128, .f32⟩
  | 22 => ⟨S2000x128, .f32⟩
  | 23 => ⟨S2000x128, .f32⟩
  | 24 => ⟨S128x128, .f32⟩
  | 25 => ⟨S128, .f32⟩
  | 26 => ⟨S2000x128, .f32⟩
  | 27 => ⟨S2000x128, .f32⟩
  | 28 => ⟨S2000x128, .f32⟩
  | 29 => ⟨S2000x128, .f32⟩
  | 30 => ⟨S128x128, .f32⟩
  | 31 => ⟨S128, .f32⟩
  | 32 => ⟨S2000x128, .f32⟩
  | 33 => ⟨S2000x128, .f32⟩
  | 34 => ⟨S4000x128, .f32⟩
  | 35 => ⟨S4000x128, .f32⟩
  | 36 => ⟨S4000x128, .f32⟩
  | 37 => ⟨S4000x128, .f32⟩
  | 38 => ⟨S128x256, .f32⟩
  | 39 => ⟨S128, .f32⟩
  | 40 => ⟨S1x128, .f32⟩
  | 41 => ⟨S1, .f32⟩
  | 42 => ⟨S4000x1, .f32⟩
  | 43 => ⟨S4000x1, .f32⟩
  | 44 => ⟨S2000x128, .f32⟩
  | 45 => ⟨S2000x128, .f32⟩
  | 46 => ⟨S128x128, .f32⟩
  | 47 => ⟨S128, .f32⟩
  | 48 => ⟨S2000x128, .f32⟩
  | 49 => ⟨S2000x128, .f32⟩
  | 50 => ⟨S2000x128, .f32⟩
  | 51 => ⟨S2000x128, .f32⟩
  | 52 => ⟨S128x128, .f32⟩
  | 53 => ⟨S128, .f32⟩
  | 54 => ⟨S2000x128, .f32⟩
  | 55 => ⟨S2000x128, .f32⟩
  | 56 => ⟨S2000x128, .f32⟩
  | 57 => ⟨S2000x128, .f32⟩
  | 58 => ⟨S2000x128, .f32⟩
  | 59 => ⟨S2000x128, .f32⟩
  | 60 => ⟨S2000x128, .f32⟩
  | 61 => ⟨S2000x128, .f32⟩
  | 62 => ⟨S2000x128, .f32⟩
  | 63 => ⟨S2000x128, .f32⟩
  | 64 => ⟨S2000x1, .f32⟩
  | 65 => ⟨S2000x1, .f32⟩
  | 66 => ⟨S2000x128, .f32⟩
  | 67 => ⟨S2000x128, .f32⟩
  | 68 => ⟨S2000x128, .f32⟩
  | 69 => ⟨S2000x128, .f32⟩
  | 70 => ⟨S2000x128, .f32⟩
  | 71 => ⟨S2000x128, .f32⟩
  | 72 => ⟨S2000x128, .f32⟩
  | 73 => ⟨S2000x128, .f32⟩
  | 74 => ⟨S128x128, .f32⟩
  | 75 => ⟨S128, .f32⟩
  | 76 => ⟨S2000x128, .f32⟩
  | 77 => ⟨S2000x128, .f32⟩
  | 78 => ⟨S2000x128, .f32⟩
  | 79 => ⟨S2000x128, .f32⟩
  | 80 => ⟨S128x128, .f32⟩
  | 81 => ⟨S128, .f32⟩
  | 82 => ⟨S2000x128, .f32⟩
  | 83 => ⟨S2000x128, .f32⟩
  | 84 => ⟨S2000x128, .f32⟩
  | 85 => ⟨S2000x128, .f32⟩
  | 86 => ⟨S2000x128, .f32⟩
  | 87 => ⟨S2000x128, .f32⟩
  | 88 => ⟨S2000x128, .f32⟩
  | 89 => ⟨S2000x128, .f32⟩
  | 90 => ⟨S2000x128, .f32⟩
  | 91 => ⟨S2000x128, .f32⟩
  | 92 => ⟨S2000x1, .f32⟩
  | 93 => ⟨S2000x1, .f32⟩
  | 94 => ⟨S2000x128, .f32⟩
  | 95 => ⟨S2000x128, .f32⟩
  | 96 => ⟨S2000x128, .f32⟩
  | 97 => ⟨S2000x128, .f32⟩
  | 98 => ⟨S2000x128, .f32⟩
  | 99 => ⟨S2000x128, .f32⟩
  | 100 => ⟨S2000x128, .f32⟩
  | 101 => ⟨S2000x128, .f32⟩
  | 102 => ⟨S128x128, .f32⟩
  | 103 => ⟨S128, .f32⟩
  | 104 => ⟨S2000x128, .f32⟩
  | 105 => ⟨S2000x128, .f32⟩
  | 106 => ⟨S2000x128, .f32⟩
  | 107 => ⟨S2000x128, .f32⟩
  | 108 => ⟨S128x128, .f32⟩
  | 109 => ⟨S128, .f32⟩
  | 110 => ⟨S2000x128, .f32⟩
  | 111 => ⟨S2000x128, .f32⟩
  | 112 => ⟨S2000x128, .f32⟩
  | 113 => ⟨S2000x128, .f32⟩
  | 114 => ⟨S64x128, .f32⟩
  | 115 => ⟨S64, .f32⟩
  | 116 => ⟨S2000x64, .f32⟩
  | 117 => ⟨S2000x64, .f32⟩
  | _ => ⟨S50000x128, .f32⟩

abbrev vmemTy (i : Nat) : BufTy := match i / 128 with
  | 0 => vmemTy0_0 i
  | 1 => vmemTy0_1 i
  | _ => ⟨S50000x128, .f32⟩

abbrev bufTy : (tb : Table) → Fin (tcTables nBuf tb) → BufTy
  | .hbm, ⟨i, _⟩ => hbmTy i
  | .local _ .vmem, ⟨i, _⟩ => vmemTy i
  | _, _ => ⟨S50000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 246 → Bool
  | ⟨i, _⟩ => dmaSemScopedAt i

abbrev sig : RefSig :=
  ofTc nBuf bufTy 0 246 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_v6 : Ref sig .tc := ⟨.hbm, 25, rfl⟩
abbrev main_v7 : Ref sig .tc := ⟨.hbm, 26, rfl⟩
abbrev main_c_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_1 : Ref sig .tc := ⟨.hbm, 33, rfl⟩
abbrev main_v13 : Ref sig .tc := ⟨.hbm, 34, rfl⟩
abbrev main_v14 : Ref sig .tc := ⟨.hbm, 35, rfl⟩
abbrev main_c_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_5 : Ref sig .tc := ⟨.hbm, 65, rfl⟩
abbrev main_v41 : Ref sig .tc := ⟨.hbm, 66, rfl⟩
abbrev main_v42 : Ref sig .tc := ⟨.hbm, 67, rfl⟩
abbrev main_c_6 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53_0 : Ref sig .tc := ⟨.hbm, 80, rfl⟩
abbrev main_v53_1 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_8 : Ref sig .tc := ⟨.hbm, 90, rfl⟩
abbrev main_v62 : Ref sig .tc := ⟨.hbm, 91, rfl⟩
abbrev main_v63 : Ref sig .tc := ⟨.hbm, 92, rfl⟩
abbrev main_c_9 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_10 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74_0 : Ref sig .tc := ⟨.hbm, 105, rfl⟩
abbrev main_v74_1 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_c_11 : Ref sig .tc := ⟨.hbm, 117, rfl⟩
abbrev main_v85 : Ref sig .tc := ⟨.hbm, 118, rfl⟩
abbrev main_v86 : Ref sig .tc := ⟨.hbm, 119, rfl⟩
abbrev main_c_12 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_13 : Ref sig .tc := ⟨.hbm, 126, rfl⟩
abbrev main_v92 : Ref sig .tc := ⟨.hbm, 127, rfl⟩
abbrev main_v93 : Ref sig .tc := ⟨.hbm, 128, rfl⟩
abbrev main_c_14 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_15 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_16 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_c_17 : Ref sig .tc := ⟨.hbm, 158, rfl⟩
abbrev main_v120 : Ref sig .tc := ⟨.hbm, 159, rfl⟩
abbrev main_v121 : Ref sig .tc := ⟨.hbm, 160, rfl⟩
abbrev main_c_18 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_cst_19 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132_0 : Ref sig .tc := ⟨.hbm, 173, rfl⟩
abbrev main_v132_1 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_c_20 : Ref sig .tc := ⟨.hbm, 183, rfl⟩
abbrev main_v141 : Ref sig .tc := ⟨.hbm, 184, rfl⟩
abbrev main_v142 : Ref sig .tc := ⟨.hbm, 185, rfl⟩
abbrev main_c_21 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_cst_22 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153_0 : Ref sig .tc := ⟨.hbm, 198, rfl⟩
abbrev main_v153_1 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_c_23 : Ref sig .tc := ⟨.hbm, 210, rfl⟩
abbrev main_v164 : Ref sig .tc := ⟨.hbm, 211, rfl⟩
abbrev main_v165 : Ref sig .tc := ⟨.hbm, 212, rfl⟩
abbrev main_c_24 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_c_25 : Ref sig .tc := ⟨.hbm, 219, rfl⟩
abbrev main_v171 : Ref sig .tc := ⟨.hbm, 220, rfl⟩
abbrev main_v172 : Ref sig .tc := ⟨.hbm, 221, rfl⟩
abbrev main_c_26 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_cst_27 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_cst_28 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_c_29 : Ref sig .tc := ⟨.hbm, 251, rfl⟩
abbrev main_v199 : Ref sig .tc := ⟨.hbm, 252, rfl⟩
abbrev main_v200 : Ref sig .tc := ⟨.hbm, 253, rfl⟩
abbrev main_c_30 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_cst_31 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211_0 : Ref sig .tc := ⟨.hbm, 266, rfl⟩
abbrev main_v211_1 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_c_32 : Ref sig .tc := ⟨.hbm, 276, rfl⟩
abbrev main_v220 : Ref sig .tc := ⟨.hbm, 277, rfl⟩
abbrev main_v221 : Ref sig .tc := ⟨.hbm, 278, rfl⟩
abbrev main_c_33 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_cst_34 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232_0 : Ref sig .tc := ⟨.hbm, 291, rfl⟩
abbrev main_v232_1 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg5_1 : Ref sig .tc := ⟨.vmem, 39, rfl⟩
abbrev cc4_stg6_0 : Ref sig .tc := ⟨.vmem, 40, rfl⟩
abbrev cc4_stg6_1 : Ref sig .tc := ⟨.vmem, 41, rfl⟩
abbrev cc4_stg7_0 : Ref sig .tc := ⟨.vmem, 42, rfl⟩
abbrev cc4_stg7_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg3_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg3_0 : Ref sig .tc := ⟨.vmem, 54, rfl⟩
abbrev cc6_stg3_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg2_1 : Ref sig .tc := ⟨.vmem, 61, rfl⟩
abbrev cc7_stg3_0 : Ref sig .tc := ⟨.vmem, 62, rfl⟩
abbrev cc7_stg3_1 : Ref sig .tc := ⟨.vmem, 63, rfl⟩
abbrev cc7_stg4_0 : Ref sig .tc := ⟨.vmem, 64, rfl⟩
abbrev cc7_stg4_1 : Ref sig .tc := ⟨.vmem, 65, rfl⟩
abbrev cc7_stg5_0 : Ref sig .tc := ⟨.vmem, 66, rfl⟩
abbrev cc7_stg5_1 : Ref sig .tc := ⟨.vmem, 67, rfl⟩
abbrev cc7_stg6_0 : Ref sig .tc := ⟨.vmem, 68, rfl⟩
abbrev cc7_stg6_1 : Ref sig .tc := ⟨.vmem, 69, rfl⟩
abbrev cc7_stg7_0 : Ref sig .tc := ⟨.vmem, 70, rfl⟩
abbrev cc7_stg7_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg2_0 : Ref sig .tc := ⟨.vmem, 75, rfl⟩
abbrev cc8_stg3_0 : Ref sig .tc := ⟨.vmem, 76, rfl⟩
abbrev cc8_stg3_1 : Ref sig .tc := ⟨.vmem, 77, rfl⟩
abbrev cc9_stg0_0 : Ref sig .tc := ⟨.vmem, 78, rfl⟩
abbrev cc9_stg0_1 : Ref sig .tc := ⟨.vmem, 79, rfl⟩
abbrev cc9_stg1_0 : Ref sig .tc := ⟨.vmem, 80, rfl⟩
abbrev cc9_stg2_0 : Ref sig .tc := ⟨.vmem, 81, rfl⟩
abbrev cc9_stg3_0 : Ref sig .tc := ⟨.vmem, 82, rfl⟩
abbrev cc9_stg3_1 : Ref sig .tc := ⟨.vmem, 83, rfl⟩
abbrev cc10_stg0_0 : Ref sig .tc := ⟨.vmem, 84, rfl⟩
abbrev cc10_stg0_1 : Ref sig .tc := ⟨.vmem, 85, rfl⟩
abbrev cc10_stg1_0 : Ref sig .tc := ⟨.vmem, 86, rfl⟩
abbrev cc10_stg1_1 : Ref sig .tc := ⟨.vmem, 87, rfl⟩
abbrev cc10_stg2_0 : Ref sig .tc := ⟨.vmem, 88, rfl⟩
abbrev cc10_stg3_0 : Ref sig .tc := ⟨.vmem, 89, rfl⟩
abbrev cc10_stg4_0 : Ref sig .tc := ⟨.vmem, 90, rfl⟩
abbrev cc10_stg5_0 : Ref sig .tc := ⟨.vmem, 91, rfl⟩
abbrev cc10_stg6_0 : Ref sig .tc := ⟨.vmem, 92, rfl⟩
abbrev cc10_stg6_1 : Ref sig .tc := ⟨.vmem, 93, rfl⟩
abbrev cc11_stg0_0 : Ref sig .tc := ⟨.vmem, 94, rfl⟩
abbrev cc11_stg0_1 : Ref sig .tc := ⟨.vmem, 95, rfl⟩
abbrev cc11_stg1_0 : Ref sig .tc := ⟨.vmem, 96, rfl⟩
abbrev cc11_stg2_0 : Ref sig .tc := ⟨.vmem, 97, rfl⟩
abbrev cc11_stg3_0 : Ref sig .tc := ⟨.vmem, 98, rfl⟩
abbrev cc11_stg3_1 : Ref sig .tc := ⟨.vmem, 99, rfl⟩
abbrev cc12_stg0_0 : Ref sig .tc := ⟨.vmem, 100, rfl⟩
abbrev cc12_stg0_1 : Ref sig .tc := ⟨.vmem, 101, rfl⟩
abbrev cc12_stg1_0 : Ref sig .tc := ⟨.vmem, 102, rfl⟩
abbrev cc12_stg2_0 : Ref sig .tc := ⟨.vmem, 103, rfl⟩
abbrev cc12_stg3_0 : Ref sig .tc := ⟨.vmem, 104, rfl⟩
abbrev cc12_stg3_1 : Ref sig .tc := ⟨.vmem, 105, rfl⟩
abbrev cc13_stg0_0 : Ref sig .tc := ⟨.vmem, 106, rfl⟩
abbrev cc13_stg0_1 : Ref sig .tc := ⟨.vmem, 107, rfl⟩
abbrev cc13_stg1_0 : Ref sig .tc := ⟨.vmem, 108, rfl⟩
abbrev cc13_stg1_1 : Ref sig .tc := ⟨.vmem, 109, rfl⟩
abbrev cc13_stg2_0 : Ref sig .tc := ⟨.vmem, 110, rfl⟩
abbrev cc13_stg2_1 : Ref sig .tc := ⟨.vmem, 111, rfl⟩
abbrev cc13_stg3_0 : Ref sig .tc := ⟨.vmem, 112, rfl⟩
abbrev cc13_stg3_1 : Ref sig .tc := ⟨.vmem, 113, rfl⟩
abbrev cc13_stg4_0 : Ref sig .tc := ⟨.vmem, 114, rfl⟩
abbrev cc13_stg4_1 : Ref sig .tc := ⟨.vmem, 115, rfl⟩
abbrev cc13_stg5_0 : Ref sig .tc := ⟨.vmem, 116, rfl⟩
abbrev cc13_stg5_1 : Ref sig .tc := ⟨.vmem, 117, rfl⟩
abbrev cc13_stg6_0 : Ref sig .tc := ⟨.vmem, 118, rfl⟩
abbrev cc13_stg6_1 : Ref sig .tc := ⟨.vmem, 119, rfl⟩
abbrev cc13_stg7_0 : Ref sig .tc := ⟨.vmem, 120, rfl⟩
abbrev cc13_stg7_1 : Ref sig .tc := ⟨.vmem, 121, rfl⟩
abbrev cc14_stg0_0 : Ref sig .tc := ⟨.vmem, 122, rfl⟩
abbrev cc14_stg0_1 : Ref sig .tc := ⟨.vmem, 123, rfl⟩
abbrev cc14_stg1_0 : Ref sig .tc := ⟨.vmem, 124, rfl⟩
abbrev cc14_stg2_0 : Ref sig .tc := ⟨.vmem, 125, rfl⟩
abbrev cc14_stg3_0 : Ref sig .tc := ⟨.vmem, 126, rfl⟩
abbrev cc14_stg3_1 : Ref sig .tc := ⟨.vmem, 127, rfl⟩
abbrev cc15_stg0_0 : Ref sig .tc := ⟨.vmem, 128, rfl⟩
abbrev cc15_stg0_1 : Ref sig .tc := ⟨.vmem, 129, rfl⟩
abbrev cc15_stg1_0 : Ref sig .tc := ⟨.vmem, 130, rfl⟩
abbrev cc15_stg2_0 : Ref sig .tc := ⟨.vmem, 131, rfl⟩
abbrev cc15_stg3_0 : Ref sig .tc := ⟨.vmem, 132, rfl⟩
abbrev cc15_stg3_1 : Ref sig .tc := ⟨.vmem, 133, rfl⟩
abbrev cc16_stg0_0 : Ref sig .tc := ⟨.vmem, 134, rfl⟩
abbrev cc16_stg0_1 : Ref sig .tc := ⟨.vmem, 135, rfl⟩
abbrev cc16_stg1_0 : Ref sig .tc := ⟨.vmem, 136, rfl⟩
abbrev cc16_stg1_1 : Ref sig .tc := ⟨.vmem, 137, rfl⟩
abbrev cc16_stg2_0 : Ref sig .tc := ⟨.vmem, 138, rfl⟩
abbrev cc16_stg2_1 : Ref sig .tc := ⟨.vmem, 139, rfl⟩
abbrev cc16_stg3_0 : Ref sig .tc := ⟨.vmem, 140, rfl⟩
abbrev cc16_stg3_1 : Ref sig .tc := ⟨.vmem, 141, rfl⟩
abbrev cc16_stg4_0 : Ref sig .tc := ⟨.vmem, 142, rfl⟩
abbrev cc16_stg4_1 : Ref sig .tc := ⟨.vmem, 143, rfl⟩
abbrev cc16_stg5_0 : Ref sig .tc := ⟨.vmem, 144, rfl⟩
abbrev cc16_stg5_1 : Ref sig .tc := ⟨.vmem, 145, rfl⟩
abbrev cc16_stg6_0 : Ref sig .tc := ⟨.vmem, 146, rfl⟩
abbrev cc16_stg6_1 : Ref sig .tc := ⟨.vmem, 147, rfl⟩
abbrev cc16_stg7_0 : Ref sig .tc := ⟨.vmem, 148, rfl⟩
abbrev cc16_stg7_1 : Ref sig .tc := ⟨.vmem, 149, rfl⟩
abbrev cc17_stg0_0 : Ref sig .tc := ⟨.vmem, 150, rfl⟩
abbrev cc17_stg0_1 : Ref sig .tc := ⟨.vmem, 151, rfl⟩
abbrev cc17_stg1_0 : Ref sig .tc := ⟨.vmem, 152, rfl⟩
abbrev cc17_stg2_0 : Ref sig .tc := ⟨.vmem, 153, rfl⟩
abbrev cc17_stg3_0 : Ref sig .tc := ⟨.vmem, 154, rfl⟩
abbrev cc17_stg3_1 : Ref sig .tc := ⟨.vmem, 155, rfl⟩
abbrev cc18_stg0_0 : Ref sig .tc := ⟨.vmem, 156, rfl⟩
abbrev cc18_stg0_1 : Ref sig .tc := ⟨.vmem, 157, rfl⟩
abbrev cc18_stg1_0 : Ref sig .tc := ⟨.vmem, 158, rfl⟩
abbrev cc18_stg2_0 : Ref sig .tc := ⟨.vmem, 159, rfl⟩
abbrev cc18_stg3_0 : Ref sig .tc := ⟨.vmem, 160, rfl⟩
abbrev cc18_stg3_1 : Ref sig .tc := ⟨.vmem, 161, rfl⟩
abbrev cc19_stg0_0 : Ref sig .tc := ⟨.vmem, 162, rfl⟩
abbrev cc19_stg0_1 : Ref sig .tc := ⟨.vmem, 163, rfl⟩
abbrev cc19_stg1_0 : Ref sig .tc := ⟨.vmem, 164, rfl⟩
abbrev cc19_stg1_1 : Ref sig .tc := ⟨.vmem, 165, rfl⟩
abbrev cc19_stg2_0 : Ref sig .tc := ⟨.vmem, 166, rfl⟩
abbrev cc19_stg3_0 : Ref sig .tc := ⟨.vmem, 167, rfl⟩
abbrev cc19_stg4_0 : Ref sig .tc := ⟨.vmem, 168, rfl⟩
abbrev cc19_stg5_0 : Ref sig .tc := ⟨.vmem, 169, rfl⟩
abbrev cc19_stg6_0 : Ref sig .tc := ⟨.vmem, 170, rfl⟩
abbrev cc19_stg6_1 : Ref sig .tc := ⟨.vmem, 171, rfl⟩
abbrev cc20_stg0_0 : Ref sig .tc := ⟨.vmem, 172, rfl⟩
abbrev cc20_stg0_1 : Ref sig .tc := ⟨.vmem, 173, rfl⟩
abbrev cc20_stg1_0 : Ref sig .tc := ⟨.vmem, 174, rfl⟩
abbrev cc20_stg2_0 : Ref sig .tc := ⟨.vmem, 175, rfl⟩
abbrev cc20_stg3_0 : Ref sig .tc := ⟨.vmem, 176, rfl⟩
abbrev cc20_stg3_1 : Ref sig .tc := ⟨.vmem, 177, rfl⟩
abbrev cc21_stg0_0 : Ref sig .tc := ⟨.vmem, 178, rfl⟩
abbrev cc21_stg0_1 : Ref sig .tc := ⟨.vmem, 179, rfl⟩
abbrev cc21_stg1_0 : Ref sig .tc := ⟨.vmem, 180, rfl⟩
abbrev cc21_stg2_0 : Ref sig .tc := ⟨.vmem, 181, rfl⟩
abbrev cc21_stg3_0 : Ref sig .tc := ⟨.vmem, 182, rfl⟩
abbrev cc21_stg3_1 : Ref sig .tc := ⟨.vmem, 183, rfl⟩
abbrev cc22_stg0_0 : Ref sig .tc := ⟨.vmem, 184, rfl⟩
abbrev cc22_stg0_1 : Ref sig .tc := ⟨.vmem, 185, rfl⟩
abbrev cc22_stg1_0 : Ref sig .tc := ⟨.vmem, 186, rfl⟩
abbrev cc22_stg1_1 : Ref sig .tc := ⟨.vmem, 187, rfl⟩
abbrev cc22_stg2_0 : Ref sig .tc := ⟨.vmem, 188, rfl⟩
abbrev cc22_stg2_1 : Ref sig .tc := ⟨.vmem, 189, rfl⟩
abbrev cc22_stg3_0 : Ref sig .tc := ⟨.vmem, 190, rfl⟩
abbrev cc22_stg3_1 : Ref sig .tc := ⟨.vmem, 191, rfl⟩
abbrev cc22_stg4_0 : Ref sig .tc := ⟨.vmem, 192, rfl⟩
abbrev cc22_stg4_1 : Ref sig .tc := ⟨.vmem, 193, rfl⟩
abbrev cc22_stg5_0 : Ref sig .tc := ⟨.vmem, 194, rfl⟩
abbrev cc22_stg5_1 : Ref sig .tc := ⟨.vmem, 195, rfl⟩
abbrev cc22_stg6_0 : Ref sig .tc := ⟨.vmem, 196, rfl⟩
abbrev cc22_stg6_1 : Ref sig .tc := ⟨.vmem, 197, rfl⟩
abbrev cc22_stg7_0 : Ref sig .tc := ⟨.vmem, 198, rfl⟩
abbrev cc22_stg7_1 : Ref sig .tc := ⟨.vmem, 199, rfl⟩
abbrev cc23_stg0_0 : Ref sig .tc := ⟨.vmem, 200, rfl⟩
abbrev cc23_stg0_1 : Ref sig .tc := ⟨.vmem, 201, rfl⟩
abbrev cc23_stg1_0 : Ref sig .tc := ⟨.vmem, 202, rfl⟩
abbrev cc23_stg2_0 : Ref sig .tc := ⟨.vmem, 203, rfl⟩
abbrev cc23_stg3_0 : Ref sig .tc := ⟨.vmem, 204, rfl⟩
abbrev cc23_stg3_1 : Ref sig .tc := ⟨.vmem, 205, rfl⟩
abbrev cc24_stg0_0 : Ref sig .tc := ⟨.vmem, 206, rfl⟩
abbrev cc24_stg0_1 : Ref sig .tc := ⟨.vmem, 207, rfl⟩
abbrev cc24_stg1_0 : Ref sig .tc := ⟨.vmem, 208, rfl⟩
abbrev cc24_stg2_0 : Ref sig .tc := ⟨.vmem, 209, rfl⟩
abbrev cc24_stg3_0 : Ref sig .tc := ⟨.vmem, 210, rfl⟩
abbrev cc24_stg3_1 : Ref sig .tc := ⟨.vmem, 211, rfl⟩
abbrev cc25_stg0_0 : Ref sig .tc := ⟨.vmem, 212, rfl⟩
abbrev cc25_stg0_1 : Ref sig .tc := ⟨.vmem, 213, rfl⟩
abbrev cc25_stg1_0 : Ref sig .tc := ⟨.vmem, 214, rfl⟩
abbrev cc25_stg1_1 : Ref sig .tc := ⟨.vmem, 215, rfl⟩
abbrev cc25_stg2_0 : Ref sig .tc := ⟨.vmem, 216, rfl⟩
abbrev cc25_stg2_1 : Ref sig .tc := ⟨.vmem, 217, rfl⟩
abbrev cc25_stg3_0 : Ref sig .tc := ⟨.vmem, 218, rfl⟩
abbrev cc25_stg3_1 : Ref sig .tc := ⟨.vmem, 219, rfl⟩
abbrev cc25_stg4_0 : Ref sig .tc := ⟨.vmem, 220, rfl⟩
abbrev cc25_stg4_1 : Ref sig .tc := ⟨.vmem, 221, rfl⟩
abbrev cc25_stg5_0 : Ref sig .tc := ⟨.vmem, 222, rfl⟩
abbrev cc25_stg5_1 : Ref sig .tc := ⟨.vmem, 223, rfl⟩
abbrev cc25_stg6_0 : Ref sig .tc := ⟨.vmem, 224, rfl⟩
abbrev cc25_stg6_1 : Ref sig .tc := ⟨.vmem, 225, rfl⟩
abbrev cc25_stg7_0 : Ref sig .tc := ⟨.vmem, 226, rfl⟩
abbrev cc25_stg7_1 : Ref sig .tc := ⟨.vmem, 227, rfl⟩
abbrev cc26_stg0_0 : Ref sig .tc := ⟨.vmem, 228, rfl⟩
abbrev cc26_stg0_1 : Ref sig .tc := ⟨.vmem, 229, rfl⟩
abbrev cc26_stg1_0 : Ref sig .tc := ⟨.vmem, 230, rfl⟩
abbrev cc26_stg2_0 : Ref sig .tc := ⟨.vmem, 231, rfl⟩
abbrev cc26_stg3_0 : Ref sig .tc := ⟨.vmem, 232, rfl⟩
abbrev cc26_stg3_1 : Ref sig .tc := ⟨.vmem, 233, rfl⟩
abbrev cc27_stg0_0 : Ref sig .tc := ⟨.vmem, 234, rfl⟩
abbrev cc27_stg0_1 : Ref sig .tc := ⟨.vmem, 235, rfl⟩
abbrev cc27_stg1_0 : Ref sig .tc := ⟨.vmem, 236, rfl⟩
abbrev cc27_stg2_0 : Ref sig .tc := ⟨.vmem, 237, rfl⟩
abbrev cc27_stg3_0 : Ref sig .tc := ⟨.vmem, 238, rfl⟩
abbrev cc27_stg3_1 : Ref sig .tc := ⟨.vmem, 239, rfl⟩
abbrev cc28_stg0_0 : Ref sig .tc := ⟨.vmem, 240, rfl⟩
abbrev cc28_stg0_1 : Ref sig .tc := ⟨.vmem, 241, rfl⟩
abbrev cc28_stg1_0 : Ref sig .tc := ⟨.vmem, 242, rfl⟩
abbrev cc28_stg2_0 : Ref sig .tc := ⟨.vmem, 243, rfl⟩
abbrev cc28_stg3_0 : Ref sig .tc := ⟨.vmem, 244, rfl⟩
abbrev cc28_stg3_1 : Ref sig .tc := ⟨.vmem, 245, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc4_sem4_0 : DmaSem sig := 36
abbrev cc4_sem4_1 : DmaSem sig := 37
abbrev cc4_sem5_0 : DmaSem sig := 38
abbrev cc4_sem5_1 : DmaSem sig := 39
abbrev cc4_sem6_0 : DmaSem sig := 40
abbrev cc4_sem6_1 : DmaSem sig := 41
abbrev cc4_sem7_0 : DmaSem sig := 42
abbrev cc4_sem7_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem3_1 : DmaSem sig := 49
abbrev cc6_sem0_0 : DmaSem sig := 50
abbrev cc6_sem0_1 : DmaSem sig := 51
abbrev cc6_sem1_0 : DmaSem sig := 52
abbrev cc6_sem2_0 : DmaSem sig := 53
abbrev cc6_sem3_0 : DmaSem sig := 54
abbrev cc6_sem3_1 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem2_1 : DmaSem sig := 61
abbrev cc7_sem3_0 : DmaSem sig := 62
abbrev cc7_sem3_1 : DmaSem sig := 63
abbrev cc7_sem4_0 : DmaSem sig := 64
abbrev cc7_sem4_1 : DmaSem sig := 65
abbrev cc7_sem5_0 : DmaSem sig := 66
abbrev cc7_sem5_1 : DmaSem sig := 67
abbrev cc7_sem6_0 : DmaSem sig := 68
abbrev cc7_sem6_1 : DmaSem sig := 69
abbrev cc7_sem7_0 : DmaSem sig := 70
abbrev cc7_sem7_1 : DmaSem sig := 71
abbrev cc8_sem0_0 : DmaSem sig := 72
abbrev cc8_sem0_1 : DmaSem sig := 73
abbrev cc8_sem1_0 : DmaSem sig := 74
abbrev cc8_sem2_0 : DmaSem sig := 75
abbrev cc8_sem3_0 : DmaSem sig := 76
abbrev cc8_sem3_1 : DmaSem sig := 77
abbrev cc9_sem0_0 : DmaSem sig := 78
abbrev cc9_sem0_1 : DmaSem sig := 79
abbrev cc9_sem1_0 : DmaSem sig := 80
abbrev cc9_sem2_0 : DmaSem sig := 81
abbrev cc9_sem3_0 : DmaSem sig := 82
abbrev cc9_sem3_1 : DmaSem sig := 83
abbrev cc10_sem0_0 : DmaSem sig := 84
abbrev cc10_sem0_1 : DmaSem sig := 85
abbrev cc10_sem1_0 : DmaSem sig := 86
abbrev cc10_sem1_1 : DmaSem sig := 87
abbrev cc10_sem2_0 : DmaSem sig := 88
abbrev cc10_sem3_0 : DmaSem sig := 89
abbrev cc10_sem4_0 : DmaSem sig := 90
abbrev cc10_sem5_0 : DmaSem sig := 91
abbrev cc10_sem6_0 : DmaSem sig := 92
abbrev cc10_sem6_1 : DmaSem sig := 93
abbrev cc11_sem0_0 : DmaSem sig := 94
abbrev cc11_sem0_1 : DmaSem sig := 95
abbrev cc11_sem1_0 : DmaSem sig := 96
abbrev cc11_sem2_0 : DmaSem sig := 97
abbrev cc11_sem3_0 : DmaSem sig := 98
abbrev cc11_sem3_1 : DmaSem sig := 99
abbrev cc12_sem0_0 : DmaSem sig := 100
abbrev cc12_sem0_1 : DmaSem sig := 101
abbrev cc12_sem1_0 : DmaSem sig := 102
abbrev cc12_sem2_0 : DmaSem sig := 103
abbrev cc12_sem3_0 : DmaSem sig := 104
abbrev cc12_sem3_1 : DmaSem sig := 105
abbrev cc13_sem0_0 : DmaSem sig := 106
abbrev cc13_sem0_1 : DmaSem sig := 107
abbrev cc13_sem1_0 : DmaSem sig := 108
abbrev cc13_sem1_1 : DmaSem sig := 109
abbrev cc13_sem2_0 : DmaSem sig := 110
abbrev cc13_sem2_1 : DmaSem sig := 111
abbrev cc13_sem3_0 : DmaSem sig := 112
abbrev cc13_sem3_1 : DmaSem sig := 113
abbrev cc13_sem4_0 : DmaSem sig := 114
abbrev cc13_sem4_1 : DmaSem sig := 115
abbrev cc13_sem5_0 : DmaSem sig := 116
abbrev cc13_sem5_1 : DmaSem sig := 117
abbrev cc13_sem6_0 : DmaSem sig := 118
abbrev cc13_sem6_1 : DmaSem sig := 119
abbrev cc13_sem7_0 : DmaSem sig := 120
abbrev cc13_sem7_1 : DmaSem sig := 121
abbrev cc14_sem0_0 : DmaSem sig := 122
abbrev cc14_sem0_1 : DmaSem sig := 123
abbrev cc14_sem1_0 : DmaSem sig := 124
abbrev cc14_sem2_0 : DmaSem sig := 125
abbrev cc14_sem3_0 : DmaSem sig := 126
abbrev cc14_sem3_1 : DmaSem sig := 127
abbrev cc15_sem0_0 : DmaSem sig := 128
abbrev cc15_sem0_1 : DmaSem sig := 129
abbrev cc15_sem1_0 : DmaSem sig := 130
abbrev cc15_sem2_0 : DmaSem sig := 131
abbrev cc15_sem3_0 : DmaSem sig := 132
abbrev cc15_sem3_1 : DmaSem sig := 133
abbrev cc16_sem0_0 : DmaSem sig := 134
abbrev cc16_sem0_1 : DmaSem sig := 135
abbrev cc16_sem1_0 : DmaSem sig := 136
abbrev cc16_sem1_1 : DmaSem sig := 137
abbrev cc16_sem2_0 : DmaSem sig := 138
abbrev cc16_sem2_1 : DmaSem sig := 139
abbrev cc16_sem3_0 : DmaSem sig := 140
abbrev cc16_sem3_1 : DmaSem sig := 141
abbrev cc16_sem4_0 : DmaSem sig := 142
abbrev cc16_sem4_1 : DmaSem sig := 143
abbrev cc16_sem5_0 : DmaSem sig := 144
abbrev cc16_sem5_1 : DmaSem sig := 145
abbrev cc16_sem6_0 : DmaSem sig := 146
abbrev cc16_sem6_1 : DmaSem sig := 147
abbrev cc16_sem7_0 : DmaSem sig := 148
abbrev cc16_sem7_1 : DmaSem sig := 149
abbrev cc17_sem0_0 : DmaSem sig := 150
abbrev cc17_sem0_1 : DmaSem sig := 151
abbrev cc17_sem1_0 : DmaSem sig := 152
abbrev cc17_sem2_0 : DmaSem sig := 153
abbrev cc17_sem3_0 : DmaSem sig := 154
abbrev cc17_sem3_1 : DmaSem sig := 155
abbrev cc18_sem0_0 : DmaSem sig := 156
abbrev cc18_sem0_1 : DmaSem sig := 157
abbrev cc18_sem1_0 : DmaSem sig := 158
abbrev cc18_sem2_0 : DmaSem sig := 159
abbrev cc18_sem3_0 : DmaSem sig := 160
abbrev cc18_sem3_1 : DmaSem sig := 161
abbrev cc19_sem0_0 : DmaSem sig := 162
abbrev cc19_sem0_1 : DmaSem sig := 163
abbrev cc19_sem1_0 : DmaSem sig := 164
abbrev cc19_sem1_1 : DmaSem sig := 165
abbrev cc19_sem2_0 : DmaSem sig := 166
abbrev cc19_sem3_0 : DmaSem sig := 167
abbrev cc19_sem4_0 : DmaSem sig := 168
abbrev cc19_sem5_0 : DmaSem sig := 169
abbrev cc19_sem6_0 : DmaSem sig := 170
abbrev cc19_sem6_1 : DmaSem sig := 171
abbrev cc20_sem0_0 : DmaSem sig := 172
abbrev cc20_sem0_1 : DmaSem sig := 173
abbrev cc20_sem1_0 : DmaSem sig := 174
abbrev cc20_sem2_0 : DmaSem sig := 175
abbrev cc20_sem3_0 : DmaSem sig := 176
abbrev cc20_sem3_1 : DmaSem sig := 177
abbrev cc21_sem0_0 : DmaSem sig := 178
abbrev cc21_sem0_1 : DmaSem sig := 179
abbrev cc21_sem1_0 : DmaSem sig := 180
abbrev cc21_sem2_0 : DmaSem sig := 181
abbrev cc21_sem3_0 : DmaSem sig := 182
abbrev cc21_sem3_1 : DmaSem sig := 183
abbrev cc22_sem0_0 : DmaSem sig := 184
abbrev cc22_sem0_1 : DmaSem sig := 185
abbrev cc22_sem1_0 : DmaSem sig := 186
abbrev cc22_sem1_1 : DmaSem sig := 187
abbrev cc22_sem2_0 : DmaSem sig := 188
abbrev cc22_sem2_1 : DmaSem sig := 189
abbrev cc22_sem3_0 : DmaSem sig := 190
abbrev cc22_sem3_1 : DmaSem sig := 191
abbrev cc22_sem4_0 : DmaSem sig := 192
abbrev cc22_sem4_1 : DmaSem sig := 193
abbrev cc22_sem5_0 : DmaSem sig := 194
abbrev cc22_sem5_1 : DmaSem sig := 195
abbrev cc22_sem6_0 : DmaSem sig := 196
abbrev cc22_sem6_1 : DmaSem sig := 197
abbrev cc22_sem7_0 : DmaSem sig := 198
abbrev cc22_sem7_1 : DmaSem sig := 199
abbrev cc23_sem0_0 : DmaSem sig := 200
abbrev cc23_sem0_1 : DmaSem sig := 201
abbrev cc23_sem1_0 : DmaSem sig := 202
abbrev cc23_sem2_0 : DmaSem sig := 203
abbrev cc23_sem3_0 : DmaSem sig := 204
abbrev cc23_sem3_1 : DmaSem sig := 205
abbrev cc24_sem0_0 : DmaSem sig := 206
abbrev cc24_sem0_1 : DmaSem sig := 207
abbrev cc24_sem1_0 : DmaSem sig := 208
abbrev cc24_sem2_0 : DmaSem sig := 209
abbrev cc24_sem3_0 : DmaSem sig := 210
abbrev cc24_sem3_1 : DmaSem sig := 211
abbrev cc25_sem0_0 : DmaSem sig := 212
abbrev cc25_sem0_1 : DmaSem sig := 213
abbrev cc25_sem1_0 : DmaSem sig := 214
abbrev cc25_sem1_1 : DmaSem sig := 215
abbrev cc25_sem2_0 : DmaSem sig := 216
abbrev cc25_sem2_1 : DmaSem sig := 217
abbrev cc25_sem3_0 : DmaSem sig := 218
abbrev cc25_sem3_1 : DmaSem sig := 219
abbrev cc25_sem4_0 : DmaSem sig := 220
abbrev cc25_sem4_1 : DmaSem sig := 221
abbrev cc25_sem5_0 : DmaSem sig := 222
abbrev cc25_sem5_1 : DmaSem sig := 223
abbrev cc25_sem6_0 : DmaSem sig := 224
abbrev cc25_sem6_1 : DmaSem sig := 225
abbrev cc25_sem7_0 : DmaSem sig := 226
abbrev cc25_sem7_1 : DmaSem sig := 227
abbrev cc26_sem0_0 : DmaSem sig := 228
abbrev cc26_sem0_1 : DmaSem sig := 229
abbrev cc26_sem1_0 : DmaSem sig := 230
abbrev cc26_sem2_0 : DmaSem sig := 231
abbrev cc26_sem3_0 : DmaSem sig := 232
abbrev cc26_sem3_1 : DmaSem sig := 233
abbrev cc27_sem0_0 : DmaSem sig := 234
abbrev cc27_sem0_1 : DmaSem sig := 235
abbrev cc27_sem1_0 : DmaSem sig := 236
abbrev cc27_sem2_0 : DmaSem sig := 237
abbrev cc27_sem3_0 : DmaSem sig := 238
abbrev cc27_sem3_1 : DmaSem sig := 239
abbrev cc28_sem0_0 : DmaSem sig := 240
abbrev cc28_sem0_1 : DmaSem sig := 241
abbrev cc28_sem1_0 : DmaSem sig := 242
abbrev cc28_sem2_0 : DmaSem sig := 243
abbrev cc28_sem3_0 : DmaSem sig := 244
abbrev cc28_sem3_1 : DmaSem sig := 245

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S2000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S2000x1 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S2000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S2000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S2000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![100], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S4000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S4000x1 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S2000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S2000x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_6 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_7 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S2000x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S2000x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 2 → Memref sig .tc .vmem S2000x128 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev stage13_4 : Fin 2 → Memref sig .tc .vmem S2000x1 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev stage13_5 : Fin 2 → Memref sig .tc .vmem S2000x128 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev stage13_6 : Fin 2 → Memref sig .tc .vmem S2000x128 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev stage13_7 : Fin 2 → Memref sig .tc .vmem S2000x128 .f32 := fun | 0 => Memref.whole cc13_stg7_0 | 1 => Memref.whole cc13_stg7_1 | ⟨_ + 2, h⟩ => absurd h (Nat.not_lt.2 (Nat.le_add_left _ _))
abbrev sem13_7 : Fin 2 → DmaSem sig := fun | 0 => cc13_sem7_0 | 1 => cc13_sem7_1 | ⟨_ + 2, h⟩ => absurd h (Nat.not_lt.2 (Nat.le_add_left _ _))
abbrev reads13_7 : Fin grid13.rank → Bool := ![true]

abbrev grid14 : Pipeline.Grid := ⟨1, ![25], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 1 → Nat :=
  let arg0 : BitVec 32 := BitVec.ofNat 32 (i 0).val
  let c0_i32 : BitVec 32 := 0#32
  let c0_i32_0 : BitVec 32 := 0#32
  ![c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S128x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S2000x128 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![25], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 1 → Nat :=
  let arg0 : BitVec 32 := BitVec.ofNat 32 (i 0).val
  let c0_i32 : BitVec 32 := 0#32
  let c0_i32_0 : BitVec 32 := 0#32
  ![c0_i32.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S2000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S128x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S2000x128 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev grid16 : Pipeline.Grid := ⟨1, ![25], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_4 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_5 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_6 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_7 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S2000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S2000x128 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S2000x128 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev stage16_3 : Fin 2 → Memref sig .tc .vmem S2000x128 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev stage16_4 : Fin 2 → Memref sig .tc .vmem S2000x1 .f32 := fun | 0 => Memref.whole cc16_stg4_0 | 1 => Memref.whole cc16_stg4_1 | ⟨_ + 2, h⟩ => absurd h (Nat.not_lt.2 (Nat.le_add_left _ _))
abbrev sem16_4 : Fin 2 → DmaSem sig := fun | 0 => cc16_sem4_0 | 1 => cc16_sem4_1 | ⟨_ + 2, h⟩ => absurd h (Nat.not_lt.2 (Nat.le_add_left _ _))
abbrev reads16_4 : Fin grid16.rank → Bool := ![true]

abbrev stage16_5 : Fin 2 → Memref sig .tc .vmem S2000x128 .f32 := fun | 0 => Memref.whole cc16_stg5_0 | 1 => Memref.whole cc16_stg5_1 | ⟨_ + 2, h⟩ => absurd h (Nat.not_lt.2 (Nat.le_add_left _ _))
abbrev sem16_5 : Fin 2 → DmaSem sig := fun | 0 => cc16_sem5_0 | 1 => cc16_sem5_1 | ⟨_ + 2, h⟩ => absurd h (Nat.not_lt.2 (Nat.le_add_left _ _))
abbrev reads16_5 : Fin grid16.rank → Bool := ![true]

abbrev stage16_6 : Fin 2 → Memref sig .tc .vmem S2000x128 .f32 := fun | 0 => Memref.whole cc16_stg6_0 | 1 => Memref.whole cc16_stg6_1 | ⟨_ + 2, h⟩ => absurd h (Nat.not_lt.2 (Nat.le_add_left _ _))
abbrev sem16_6 : Fin 2 → DmaSem sig := fun | 0 => cc16_sem6_0 | 1 => cc16_sem6_1 | ⟨_ + 2, h⟩ => absurd h (Nat.not_lt.2 (Nat.le_add_left _ _))
abbrev reads16_6 : Fin grid16.rank → Bool := ![true]

abbrev stage16_7 : Fin 2 → Memref sig .tc .vmem S2000x128 .f32 := fun | 0 => Memref.whole cc16_stg7_0 | 1 => Memref.whole cc16_stg7_1 | ⟨_ + 2, h⟩ => absurd h (Nat.not_lt.2 (Nat.le_add_left _ _))
abbrev sem16_7 : Fin 2 → DmaSem sig := fun | 0 => cc16_sem7_0 | 1 => cc16_sem7_1 | ⟨_ + 2, h⟩ => absurd h (Nat.not_lt.2 (Nat.le_add_left _ _))
abbrev reads16_7 : Fin grid16.rank → Bool := ![true]

abbrev grid17 : Pipeline.Grid := ⟨1, ![25], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 1 → Nat :=
  let arg0 : BitVec 32 := BitVec.ofNat 32 (i 0).val
  let c0_i32 : BitVec 32 := 0#32
  let c0_i32_0 : BitVec 32 := 0#32
  ![c0_i32.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S2000x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S128x128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 2 → Memref sig .tc .vmem S2000x128 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev grid18 : Pipeline.Grid := ⟨1, ![25], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 1 → Nat :=
  let arg0 : BitVec 32 := BitVec.ofNat 32 (i 0).val
  let c0_i32 : BitVec 32 := 0#32
  let c0_i32_0 : BitVec 32 := 0#32
  ![c0_i32.toNat]

def cc18_transform_3 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S2000x128 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S128x128 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S128 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 2 → Memref sig .tc .vmem S2000x128 .f32 := fun | 0 => Memref.whole cc18_stg3_0 | 1 => Memref.whole cc18_stg3_1 | ⟨_ + 2, h⟩ => absurd h (Nat.not_lt.2 (Nat.le_add_left _ _))
abbrev sem18_3 : Fin 2 → DmaSem sig := fun | 0 => cc18_sem3_0 | 1 => cc18_sem3_1 | ⟨_ + 2, h⟩ => absurd h (Nat.not_lt.2 (Nat.le_add_left _ _))
abbrev reads18_3 : Fin grid18.rank → Bool := ![true]

abbrev grid19 : Pipeline.Grid := ⟨1, ![100], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 1 → Nat :=
  let arg0 : BitVec 32 := BitVec.ofNat 32 (i 0).val
  let c0_i32 : BitVec 32 := 0#32
  let c0_i32_0 : BitVec 32 := 0#32
  ![c0_i32.toNat]

def cc19_transform_4 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_5 (i : grid19.Coords) : Fin 1 → Nat :=
  let arg0 : BitVec 32 := BitVec.ofNat 32 (i 0).val
  let c0_i32 : BitVec 32 := 0#32
  let c0_i32_0 : BitVec 32 := 0#32
  ![c0_i32.toNat]

def cc19_transform_6 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S4000x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S4000x128 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 1 → Memref sig .tc .vmem S128x256 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S128 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 1 → Memref sig .tc .vmem S1x128 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))
abbrev reads19_4 : Fin grid19.rank → Bool := ![false]

abbrev stage19_5 : Fin 1 → Memref sig .tc .vmem S1 .f32 := fun | 0 => Memref.whole cc19_stg5_0 | ⟨_ + 1, h⟩ => absurd h (Nat.not_lt.2 (Nat.le_add_left _ _))
abbrev sem19_5 : Fin 1 → DmaSem sig := fun | 0 => cc19_sem5_0 | ⟨_ + 1, h⟩ => absurd h (Nat.not_lt.2 (Nat.le_add_left _ _))
abbrev reads19_5 : Fin grid19.rank → Bool := ![false]

abbrev stage19_6 : Fin 2 → Memref sig .tc .vmem S4000x1 .f32 := fun | 0 => Memref.whole cc19_stg6_0 | 1 => Memref.whole cc19_stg6_1 | ⟨_ + 2, h⟩ => absurd h (Nat.not_lt.2 (Nat.le_add_left _ _))
abbrev sem19_6 : Fin 2 → DmaSem sig := fun | 0 => cc19_sem6_0 | 1 => cc19_sem6_1 | ⟨_ + 2, h⟩ => absurd h (Nat.not_lt.2 (Nat.le_add_left _ _))
abbrev reads19_6 : Fin grid19.rank → Bool := ![true]

abbrev grid20 : Pipeline.Grid := ⟨1, ![25], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 1 → Nat :=
  let arg0 : BitVec 32 := BitVec.ofNat 32 (i 0).val
  let c0_i32 : BitVec 32 := 0#32
  let c0_i32_0 : BitVec 32 := 0#32
  ![c0_i32.toNat]

def cc20_transform_3 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S2000x128 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 1 → Memref sig .tc .vmem S128x128 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 1 → Memref sig .tc .vmem S128 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 2 → Memref sig .tc .vmem S2000x128 .f32 := fun | 0 => Memref.whole cc20_stg3_0 | 1 => Memref.whole cc20_stg3_1 | ⟨_ + 2, h⟩ => absurd h (Nat.not_lt.2 (Nat.le_add_left _ _))
abbrev sem20_3 : Fin 2 → DmaSem sig := fun | 0 => cc20_sem3_0 | 1 => cc20_sem3_1 | ⟨_ + 2, h⟩ => absurd h (Nat.not_lt.2 (Nat.le_add_left _ _))
abbrev reads20_3 : Fin grid20.rank → Bool := ![true]

abbrev grid21 : Pipeline.Grid := ⟨1, ![25], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 1 → Nat :=
  let arg0 : BitVec 32 := BitVec.ofNat 32 (i 0).val
  let c0_i32 : BitVec 32 := 0#32
  let c0_i32_0 : BitVec 32 := 0#32
  ![c0_i32.toNat]

def cc21_transform_3 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S2000x128 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S128x128 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 1 → Memref sig .tc .vmem S128 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 2 → Memref sig .tc .vmem S2000x128 .f32 := fun | 0 => Memref.whole cc21_stg3_0 | 1 => Memref.whole cc21_stg3_1 | ⟨_ + 2, h⟩ => absurd h (Nat.not_lt.2 (Nat.le_add_left _ _))
abbrev sem21_3 : Fin 2 → DmaSem sig := fun | 0 => cc21_sem3_0 | 1 => cc21_sem3_1 | ⟨_ + 2, h⟩ => absurd h (Nat.not_lt.2 (Nat.le_add_left _ _))
abbrev reads21_3 : Fin grid21.rank → Bool := ![true]

abbrev grid22 : Pipeline.Grid := ⟨1, ![25], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_2 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_3 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_4 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_5 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_6 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_7 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S2000x128 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 2 → Memref sig .tc .vmem S2000x128 .f32 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![true]

abbrev stage22_2 : Fin 2 → Memref sig .tc .vmem S2000x128 .f32 := fun | 0 => Memref.whole cc22_stg2_0 | 1 => Memref.whole cc22_stg2_1 | ⟨_ + 2, h⟩ => absurd h (Nat.not_lt.2 (Nat.le_add_left _ _))
abbrev sem22_2 : Fin 2 → DmaSem sig := fun | 0 => cc22_sem2_0 | 1 => cc22_sem2_1 | ⟨_ + 2, h⟩ => absurd h (Nat.not_lt.2 (Nat.le_add_left _ _))
abbrev reads22_2 : Fin grid22.rank → Bool := ![true]

abbrev stage22_3 : Fin 2 → Memref sig .tc .vmem S2000x128 .f32 := fun | 0 => Memref.whole cc22_stg3_0 | 1 => Memref.whole cc22_stg3_1 | ⟨_ + 2, h⟩ => absurd h (Nat.not_lt.2 (Nat.le_add_left _ _))
abbrev sem22_3 : Fin 2 → DmaSem sig := fun | 0 => cc22_sem3_0 | 1 => cc22_sem3_1 | ⟨_ + 2, h⟩ => absurd h (Nat.not_lt.2 (Nat.le_add_left _ _))
abbrev reads22_3 : Fin grid22.rank → Bool := ![true]

abbrev stage22_4 : Fin 2 → Memref sig .tc .vmem S2000x1 .f32 := fun | 0 => Memref.whole cc22_stg4_0 | 1 => Memref.whole cc22_stg4_1 | ⟨_ + 2, h⟩ => absurd h (Nat.not_lt.2 (Nat.le_add_left _ _))
abbrev sem22_4 : Fin 2 → DmaSem sig := fun | 0 => cc22_sem4_0 | 1 => cc22_sem4_1 | ⟨_ + 2, h⟩ => absurd h (Nat.not_lt.2 (Nat.le_add_left _ _))
abbrev reads22_4 : Fin grid22.rank → Bool := ![true]

abbrev stage22_5 : Fin 2 → Memref sig .tc .vmem S2000x128 .f32 := fun | 0 => Memref.whole cc22_stg5_0 | 1 => Memref.whole cc22_stg5_1 | ⟨_ + 2, h⟩ => absurd h (Nat.not_lt.2 (Nat.le_add_left _ _))
abbrev sem22_5 : Fin 2 → DmaSem sig := fun | 0 => cc22_sem5_0 | 1 => cc22_sem5_1 | ⟨_ + 2, h⟩ => absurd h (Nat.not_lt.2 (Nat.le_add_left _ _))
abbrev reads22_5 : Fin grid22.rank → Bool := ![true]

abbrev stage22_6 : Fin 2 → Memref sig .tc .vmem S2000x128 .f32 := fun | 0 => Memref.whole cc22_stg6_0 | 1 => Memref.whole cc22_stg6_1 | ⟨_ + 2, h⟩ => absurd h (Nat.not_lt.2 (Nat.le_add_left _ _))
abbrev sem22_6 : Fin 2 → DmaSem sig := fun | 0 => cc22_sem6_0 | 1 => cc22_sem6_1 | ⟨_ + 2, h⟩ => absurd h (Nat.not_lt.2 (Nat.le_add_left _ _))
abbrev reads22_6 : Fin grid22.rank → Bool := ![true]

abbrev stage22_7 : Fin 2 → Memref sig .tc .vmem S2000x128 .f32 := fun | 0 => Memref.whole cc22_stg7_0 | 1 => Memref.whole cc22_stg7_1 | ⟨_ + 2, h⟩ => absurd h (Nat.not_lt.2 (Nat.le_add_left _ _))
abbrev sem22_7 : Fin 2 → DmaSem sig := fun | 0 => cc22_sem7_0 | 1 => cc22_sem7_1 | ⟨_ + 2, h⟩ => absurd h (Nat.not_lt.2 (Nat.le_add_left _ _))
abbrev reads22_7 : Fin grid22.rank → Bool := ![true]

abbrev grid23 : Pipeline.Grid := ⟨1, ![25], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_2 (i : grid23.Coords) : Fin 1 → Nat :=
  let arg0 : BitVec 32 := BitVec.ofNat 32 (i 0).val
  let c0_i32 : BitVec 32 := 0#32
  let c0_i32_0 : BitVec 32 := 0#32
  ![c0_i32.toNat]

def cc23_transform_3 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage23_0 : Fin 2 → Memref sig .tc .vmem S2000x128 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 1 → Memref sig .tc .vmem S128x128 .f32 := fun | 0 => Memref.whole cc23_stg1_0 | ⟨_ + 1, h⟩ => absurd h (Nat.not_lt.2 (Nat.le_add_left _ _))
abbrev sem23_1 : Fin 1 → DmaSem sig := fun | 0 => cc23_sem1_0 | ⟨_ + 1, h⟩ => absurd h (Nat.not_lt.2 (Nat.le_add_left _ _))
abbrev reads23_1 : Fin grid23.rank → Bool := ![false]

abbrev stage23_2 : Fin 1 → Memref sig .tc .vmem S128 .f32 := fun | 0 => Memref.whole cc23_stg2_0 | ⟨_ + 1, h⟩ => absurd h (Nat.not_lt.2 (Nat.le_add_left _ _))
abbrev sem23_2 : Fin 1 → DmaSem sig := fun | 0 => cc23_sem2_0 | ⟨_ + 1, h⟩ => absurd h (Nat.not_lt.2 (Nat.le_add_left _ _))
abbrev reads23_2 : Fin grid23.rank → Bool := ![false]

abbrev stage23_3 : Fin 2 → Memref sig .tc .vmem S2000x128 .f32 := fun | 0 => Memref.whole cc23_stg3_0 | 1 => Memref.whole cc23_stg3_1 | ⟨_ + 2, h⟩ => absurd h (Nat.not_lt.2 (Nat.le_add_left _ _))
abbrev sem23_3 : Fin 2 → DmaSem sig := fun | 0 => cc23_sem3_0 | 1 => cc23_sem3_1 | ⟨_ + 2, h⟩ => absurd h (Nat.not_lt.2 (Nat.le_add_left _ _))
abbrev reads23_3 : Fin grid23.rank → Bool := ![true]

abbrev grid24 : Pipeline.Grid := ⟨1, ![25], ![false]⟩

def cc24_transform_0 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_1 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_2 (i : grid24.Coords) : Fin 1 → Nat :=
  let arg0 : BitVec 32 := BitVec.ofNat 32 (i 0).val
  let c0_i32 : BitVec 32 := 0#32
  let c0_i32_0 : BitVec 32 := 0#32
  ![c0_i32.toNat]

def cc24_transform_3 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage24_0 : Fin 2 → Memref sig .tc .vmem S2000x128 .f32 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true]

abbrev stage24_1 : Fin 1 → Memref sig .tc .vmem S128x128 .f32 := fun | 0 => Memref.whole cc24_stg1_0 | ⟨_ + 1, h⟩ => absurd h (Nat.not_lt.2 (Nat.le_add_left _ _))
abbrev sem24_1 : Fin 1 → DmaSem sig := fun | 0 => cc24_sem1_0 | ⟨_ + 1, h⟩ => absurd h (Nat.not_lt.2 (Nat.le_add_left _ _))
abbrev reads24_1 : Fin grid24.rank → Bool := ![false]

abbrev stage24_2 : Fin 1 → Memref sig .tc .vmem S128 .f32 := fun | 0 => Memref.whole cc24_stg2_0 | ⟨_ + 1, h⟩ => absurd h (Nat.not_lt.2 (Nat.le_add_left _ _))
abbrev sem24_2 : Fin 1 → DmaSem sig := fun | 0 => cc24_sem2_0 | ⟨_ + 1, h⟩ => absurd h (Nat.not_lt.2 (Nat.le_add_left _ _))
abbrev reads24_2 : Fin grid24.rank → Bool := ![false]

abbrev stage24_3 : Fin 2 → Memref sig .tc .vmem S2000x128 .f32 := fun | 0 => Memref.whole cc24_stg3_0 | 1 => Memref.whole cc24_stg3_1 | ⟨_ + 2, h⟩ => absurd h (Nat.not_lt.2 (Nat.le_add_left _ _))
abbrev sem24_3 : Fin 2 → DmaSem sig := fun | 0 => cc24_sem3_0 | 1 => cc24_sem3_1 | ⟨_ + 2, h⟩ => absurd h (Nat.not_lt.2 (Nat.le_add_left _ _))
abbrev reads24_3 : Fin grid24.rank → Bool := ![true]

abbrev grid25 : Pipeline.Grid := ⟨1, ![25], ![false]⟩

def cc25_transform_0 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_1 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_2 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_3 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_4 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_5 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_6 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_7 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage25_0 : Fin 2 → Memref sig .tc .vmem S2000x128 .f32 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true]

abbrev stage25_1 : Fin 2 → Memref sig .tc .vmem S2000x128 .f32 := fun | 0 => Memref.whole cc25_stg1_0 | 1 => Memref.whole cc25_stg1_1 | ⟨_ + 2, h⟩ => absurd h (Nat.not_lt.2 (Nat.le_add_left _ _))
abbrev sem25_1 : Fin 2 → DmaSem sig := fun | 0 => cc25_sem1_0 | 1 => cc25_sem1_1 | ⟨_ + 2, h⟩ => absurd h (Nat.not_lt.2 (Nat.le_add_left _ _))
abbrev reads25_1 : Fin grid25.rank → Bool := ![true]

abbrev stage25_2 : Fin 2 → Memref sig .tc .vmem S2000x128 .f32 := fun | 0 => Memref.whole cc25_stg2_0 | 1 => Memref.whole cc25_stg2_1 | ⟨_ + 2, h⟩ => absurd h (Nat.not_lt.2 (Nat.le_add_left _ _))
abbrev sem25_2 : Fin 2 → DmaSem sig := fun | 0 => cc25_sem2_0 | 1 => cc25_sem2_1 | ⟨_ + 2, h⟩ => absurd h (Nat.not_lt.2 (Nat.le_add_left _ _))
abbrev reads25_2 : Fin grid25.rank → Bool := ![true]

abbrev stage25_3 : Fin 2 → Memref sig .tc .vmem S2000x128 .f32 := fun | 0 => Memref.whole cc25_stg3_0 | 1 => Memref.whole cc25_stg3_1 | ⟨_ + 2, h⟩ => absurd h (Nat.not_lt.2 (Nat.le_add_left _ _))
abbrev sem25_3 : Fin 2 → DmaSem sig := fun | 0 => cc25_sem3_0 | 1 => cc25_sem3_1 | ⟨_ + 2, h⟩ => absurd h (Nat.not_lt.2 (Nat.le_add_left _ _))
abbrev reads25_3 : Fin grid25.rank → Bool := ![true]

abbrev stage25_4 : Fin 2 → Memref sig .tc .vmem S2000x1 .f32 := fun | 0 => Memref.whole cc25_stg4_0 | 1 => Memref.whole cc25_stg4_1 | ⟨_ + 2, h⟩ => absurd h (Nat.not_lt.2 (Nat.le_add_left _ _))
abbrev sem25_4 : Fin 2 → DmaSem sig := fun | 0 => cc25_sem4_0 | 1 => cc25_sem4_1 | ⟨_ + 2, h⟩ => absurd h (Nat.not_lt.2 (Nat.le_add_left _ _))
abbrev reads25_4 : Fin grid25.rank → Bool := ![true]

abbrev stage25_5 : Fin 2 → Memref sig .tc .vmem S2000x128 .f32 := fun | 0 => Memref.whole cc25_stg5_0 | 1 => Memref.whole cc25_stg5_1 | ⟨_ + 2, h⟩ => absurd h (Nat.not_lt.2 (Nat.le_add_left _ _))
abbrev sem25_5 : Fin 2 → DmaSem sig := fun | 0 => cc25_sem5_0 | 1 => cc25_sem5_1 | ⟨_ + 2, h⟩ => absurd h (Nat.not_lt.2 (Nat.le_add_left _ _))
abbrev reads25_5 : Fin grid25.rank → Bool := ![true]

abbrev stage25_6 : Fin 2 → Memref sig .tc .vmem S2000x128 .f32 := fun | 0 => Memref.whole cc25_stg6_0 | 1 => Memref.whole cc25_stg6_1 | ⟨_ + 2, h⟩ => absurd h (Nat.not_lt.2 (Nat.le_add_left _ _))
abbrev sem25_6 : Fin 2 → DmaSem sig := fun | 0 => cc25_sem6_0 | 1 => cc25_sem6_1 | ⟨_ + 2, h⟩ => absurd h (Nat.not_lt.2 (Nat.le_add_left _ _))
abbrev reads25_6 : Fin grid25.rank → Bool := ![true]

abbrev stage25_7 : Fin 2 → Memref sig .tc .vmem S2000x128 .f32 := fun | 0 => Memref.whole cc25_stg7_0 | 1 => Memref.whole cc25_stg7_1 | ⟨_ + 2, h⟩ => absurd h (Nat.not_lt.2 (Nat.le_add_left _ _))
abbrev sem25_7 : Fin 2 → DmaSem sig := fun | 0 => cc25_sem7_0 | 1 => cc25_sem7_1 | ⟨_ + 2, h⟩ => absurd h (Nat.not_lt.2 (Nat.le_add_left _ _))
abbrev reads25_7 : Fin grid25.rank → Bool := ![true]

abbrev grid26 : Pipeline.Grid := ⟨1, ![25], ![false]⟩

def cc26_transform_0 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_1 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_2 (i : grid26.Coords) : Fin 1 → Nat :=
  let arg0 : BitVec 32 := BitVec.ofNat 32 (i 0).val
  let c0_i32 : BitVec 32 := 0#32
  let c0_i32_0 : BitVec 32 := 0#32
  ![c0_i32.toNat]

def cc26_transform_3 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage26_0 : Fin 2 → Memref sig .tc .vmem S2000x128 .f32 := fun | 0 => Memref.whole cc26_stg0_0 | 1 => Memref.whole cc26_stg0_1 | ⟨_ + 2, h⟩ => absurd h (Nat.not_lt.2 (Nat.le_add_left _ _))
abbrev sem26_0 : Fin 2 → DmaSem sig := fun | 0 => cc26_sem0_0 | 1 => cc26_sem0_1 | ⟨_ + 2, h⟩ => absurd h (Nat.not_lt.2 (Nat.le_add_left _ _))
abbrev reads26_0 : Fin grid26.rank → Bool := ![true]

abbrev stage26_1 : Fin 1 → Memref sig .tc .vmem S128x128 .f32 := fun | 0 => Memref.whole cc26_stg1_0 | ⟨_ + 1, h⟩ => absurd h (Nat.not_lt.2 (Nat.le_add_left _ _))
abbrev sem26_1 : Fin 1 → DmaSem sig := fun | 0 => cc26_sem1_0 | ⟨_ + 1, h⟩ => absurd h (Nat.not_lt.2 (Nat.le_add_left _ _))
abbrev reads26_1 : Fin grid26.rank → Bool := ![false]

abbrev stage26_2 : Fin 1 → Memref sig .tc .vmem S128 .f32 := fun | 0 => Memref.whole cc26_stg2_0 | ⟨_ + 1, h⟩ => absurd h (Nat.not_lt.2 (Nat.le_add_left _ _))
abbrev sem26_2 : Fin 1 → DmaSem sig := fun | 0 => cc26_sem2_0 | ⟨_ + 1, h⟩ => absurd h (Nat.not_lt.2 (Nat.le_add_left _ _))
abbrev reads26_2 : Fin grid26.rank → Bool := ![false]

abbrev stage26_3 : Fin 2 → Memref sig .tc .vmem S2000x128 .f32 := fun | 0 => Memref.whole cc26_stg3_0 | 1 => Memref.whole cc26_stg3_1 | ⟨_ + 2, h⟩ => absurd h (Nat.not_lt.2 (Nat.le_add_left _ _))
abbrev sem26_3 : Fin 2 → DmaSem sig := fun | 0 => cc26_sem3_0 | 1 => cc26_sem3_1 | ⟨_ + 2, h⟩ => absurd h (Nat.not_lt.2 (Nat.le_add_left _ _))
abbrev reads26_3 : Fin grid26.rank → Bool := ![true]

abbrev grid27 : Pipeline.Grid := ⟨1, ![25], ![false]⟩

def cc27_transform_0 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

def cc27_transform_1 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc27_transform_2 (i : grid27.Coords) : Fin 1 → Nat :=
  let arg0 : BitVec 32 := BitVec.ofNat 32 (i 0).val
  let c0_i32 : BitVec 32 := 0#32
  let c0_i32_0 : BitVec 32 := 0#32
  ![c0_i32.toNat]

def cc27_transform_3 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage27_0 : Fin 2 → Memref sig .tc .vmem S2000x128 .f32 := fun | 0 => Memref.whole cc27_stg0_0 | 1 => Memref.whole cc27_stg0_1 | ⟨_ + 2, h⟩ => absurd h (Nat.not_lt.2 (Nat.le_add_left _ _))
abbrev sem27_0 : Fin 2 → DmaSem sig := fun | 0 => cc27_sem0_0 | 1 => cc27_sem0_1 | ⟨_ + 2, h⟩ => absurd h (Nat.not_lt.2 (Nat.le_add_left _ _))
abbrev reads27_0 : Fin grid27.rank → Bool := ![true]

abbrev stage27_1 : Fin 1 → Memref sig .tc .vmem S128x128 .f32 := fun | 0 => Memref.whole cc27_stg1_0 | ⟨_ + 1, h⟩ => absurd h (Nat.not_lt.2 (Nat.le_add_left _ _))
abbrev sem27_1 : Fin 1 → DmaSem sig := fun | 0 => cc27_sem1_0 | ⟨_ + 1, h⟩ => absurd h (Nat.not_lt.2 (Nat.le_add_left _ _))
abbrev reads27_1 : Fin grid27.rank → Bool := ![false]

abbrev stage27_2 : Fin 1 → Memref sig .tc .vmem S128 .f32 := fun | 0 => Memref.whole cc27_stg2_0 | ⟨_ + 1, h⟩ => absurd h (Nat.not_lt.2 (Nat.le_add_left _ _))
abbrev sem27_2 : Fin 1 → DmaSem sig := fun | 0 => cc27_sem2_0 | ⟨_ + 1, h⟩ => absurd h (Nat.not_lt.2 (Nat.le_add_left _ _))
abbrev reads27_2 : Fin grid27.rank → Bool := ![false]

abbrev stage27_3 : Fin 2 → Memref sig .tc .vmem S2000x128 .f32 := fun | 0 => Memref.whole cc27_stg3_0 | 1 => Memref.whole cc27_stg3_1 | ⟨_ + 2, h⟩ => absurd h (Nat.not_lt.2 (Nat.le_add_left _ _))
abbrev sem27_3 : Fin 2 → DmaSem sig := fun | 0 => cc27_sem3_0 | 1 => cc27_sem3_1 | ⟨_ + 2, h⟩ => absurd h (Nat.not_lt.2 (Nat.le_add_left _ _))
abbrev reads27_3 : Fin grid27.rank → Bool := ![true]

abbrev grid28 : Pipeline.Grid := ⟨1, ![25], ![false]⟩

def cc28_transform_0 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

def cc28_transform_1 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc28_transform_2 (i : grid28.Coords) : Fin 1 → Nat :=
  let arg0 : BitVec 32 := BitVec.ofNat 32 (i 0).val
  let c0_i32 : BitVec 32 := 0#32
  let c0_i32_0 : BitVec 32 := 0#32
  ![c0_i32.toNat]

def cc28_transform_3 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage28_0 : Fin 2 → Memref sig .tc .vmem S2000x128 .f32 := fun | 0 => Memref.whole cc28_stg0_0 | 1 => Memref.whole cc28_stg0_1 | ⟨_ + 2, h⟩ => absurd h (Nat.not_lt.2 (Nat.le_add_left _ _))
abbrev sem28_0 : Fin 2 → DmaSem sig := fun | 0 => cc28_sem0_0 | 1 => cc28_sem0_1 | ⟨_ + 2, h⟩ => absurd h (Nat.not_lt.2 (Nat.le_add_left _ _))
abbrev reads28_0 : Fin grid28.rank → Bool := ![true]

abbrev stage28_1 : Fin 1 → Memref sig .tc .vmem S64x128 .f32 := fun | 0 => Memref.whole cc28_stg1_0 | ⟨_ + 1, h⟩ => absurd h (Nat.not_lt.2 (Nat.le_add_left _ _))
abbrev sem28_1 : Fin 1 → DmaSem sig := fun | 0 => cc28_sem1_0 | ⟨_ + 1, h⟩ => absurd h (Nat.not_lt.2 (Nat.le_add_left _ _))
abbrev reads28_1 : Fin grid28.rank → Bool := ![false]

abbrev stage28_2 : Fin 1 → Memref sig .tc .vmem S64 .f32 := fun | 0 => Memref.whole cc28_stg2_0 | ⟨_ + 1, h⟩ => absurd h (Nat.not_lt.2 (Nat.le_add_left _ _))
abbrev sem28_2 : Fin 1 → DmaSem sig := fun | 0 => cc28_sem2_0 | ⟨_ + 1, h⟩ => absurd h (Nat.not_lt.2 (Nat.le_add_left _ _))
abbrev reads28_2 : Fin grid28.rank → Bool := ![false]

abbrev stage28_3 : Fin 2 → Memref sig .tc .vmem S2000x64 .f32 := fun | 0 => Memref.whole cc28_stg3_0 | 1 => Memref.whole cc28_stg3_1 | ⟨_ + 2, h⟩ => absurd h (Nat.not_lt.2 (Nat.le_add_left _ _))
abbrev sem28_3 : Fin 2 → DmaSem sig := fun | 0 => cc28_sem3_0 | 1 => cc28_sem3_1 | ⟨_ + 2, h⟩ => absurd h (Nat.not_lt.2 (Nat.le_add_left _ _))
abbrev reads28_3 : Fin grid28.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S128 : S_.BroadcastsInDim S128 (![] : Fin 0 → Fin S128.rank)
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S400000 : S_.BroadcastsInDim S400000 (![] : Fin 0 → Fin S400000.rank)
  bcast_S400000_S400000x1_0 : S400000.BroadcastsInDim S400000x1 (![0] : Fin 1 → Fin S400000x1.rank)
  slices_S3x128x256_S1x128x256_0_0_0 : S3x128x256.Slices ![0, 0, 0] S1x128x256
  shapeCasts_S1x128x256_S128x256 : S1x128x256.ShapeCasts S128x256
  slices_S3x128_S1x128_0_0 : S3x128.Slices ![0, 0] S1x128
  shapeCasts_S1x128_S128 : S1x128.ShapeCasts S128
  slices_S3x1x128_S1x1x128_0_0_0 : S3x1x128.Slices ![0, 0, 0] S1x1x128
  shapeCasts_S1x1x128_S1x128 : S1x1x128.ShapeCasts S1x128
  slices_S3x1_S1x1_0_0 : S3x1.Slices ![0, 0] S1x1
  shapeCasts_S1x1_S1 : S1x1.ShapeCasts S1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  concatenates_S4000x128_S4000x128_S4000x256_d1 : Shape.Concatenates [S4000x128, S4000x128] S4000x256 1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  transposes_S128x256_p1_0_S256x128 : S128x256.Transposes [1, 0] S256x128
  shapeCasts_S128_S128 : S128.ShapeCasts S128
  broadcasts_S1x128_S4000x128 : S1x128.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  transposes_S1x128_p1_0_S128x1 : S1x128.Transposes [1, 0] S128x1
  inb_S1_S1_0 : ∀ a, (![0] : Fin 1 → Nat) a + S1.size a ≤ S1.size a
  h_S1 : 0 < S1.numel
  shapeCasts_S1_S1 : S1.ShapeCasts S1
  shapeCasts_S1_S1x1 : S1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  bcast_S_S50000x1 : S_.BroadcastsInDim S50000x1 (![] : Fin 0 → Fin S50000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  shapeCasts_S2000x128_S2000x128 : S2000x128.ShapeCasts S2000x128
  shapeCasts_S128x128_S128x128 : S128x128.ShapeCasts S128x128
  bcast_S400000x1_S400000x128_0_1 : S400000x1.BroadcastsInDim S400000x128 (![0, 1] : Fin 2 → Fin S400000x128.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  slices_S3x128x256_S1x128x256_1_0_0 : S3x128x256.Slices ![1, 0, 0] S1x128x256
  slices_S3x128_S1x128_1_0 : S3x128.Slices ![1, 0] S1x128
  slices_S3x1x128_S1x1x128_1_0_0 : S3x1x128.Slices ![1, 0, 0] S1x1x128
  slices_S3x1_S1x1_1_0 : S3x1.Slices ![1, 0] S1x1
  slices_S3x128x128_S1x128x128_1_0_0 : S3x128x128.Slices ![1, 0, 0] S1x128x128
  slices_S3x128x256_S1x128x256_2_0_0 : S3x128x256.Slices ![2, 0, 0] S1x128x256
  slices_S3x128_S1x128_2_0 : S3x128.Slices ![2, 0] S1x128
  slices_S3x1x128_S1x1x128_2_0_0 : S3x1x128.Slices ![2, 0, 0] S1x1x128
  slices_S3x1_S1x1_2_0 : S3x1.Slices ![2, 0] S1x1
  slices_S3x128x128_S1x128x128_2_0_0 : S3x128x128.Slices ![2, 0, 0] S1x128x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  dot_S2000x128_S128x128_S2000x128_1_0_0_1_n_n_wf : DotDims.WF S2000x128 S128x128 S2000x128 [1] [0] [0] [1] [] []
  gather_S50000x128_S400000x1_S400000x128_1_0_n_n_0_1_1128_wf : GatherDims.WF S50000x128 S400000x1 S400000x128 [1] [0] [] [0] [] 1 ![1, 128]
  dot_S4000x256_S256x128_S4000x128_1_0_0_1_n_n_wf : DotDims.WF S4000x256 S256x128 S4000x128 [1] [0] [0] [1] [] []
  dot_S4000x128_S128x1_S4000x1_1_0_0_1_n_n_wf : DotDims.WF S4000x128 S128x1 S4000x1 [1] [0] [0] [1] [] []
  scatter_S50000x1_S400000x1_S400000x1_1_0_0_1_wf : ScatterDims.WF S50000x1 S400000x1 S400000x1 [1] [0] [0] 1
  scatter_S50000x128_S400000x1_S400000x128_1_0_0_1_wf : ScatterDims.WF S50000x128 S400000x1 S400000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S400000x128.size a
  hwx1_0 : ∀ i : grid1.Coords, EltTy.bits .f32 = 32 ∨ (Rect.block (s := S400000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S400000x128.size a
  hwx1_1 : ∀ i : grid1.Coords, EltTy.bits .f32 = 32 ∨ (Rect.block (s := S400000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1.size a ≤ S1.size a
  hwx1_5 : ∀ i : grid1.Coords, EltTy.bits .f32 = 32 ∨ (Rect.block (s := S1) S1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x1.size a ≤ S400000x1.size a
  hwx1_6 : ∀ i : grid1.Coords, EltTy.bits .f32 = 32 ∨ (Rect.block (s := S400000x1) S4000x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x1.size a ≤ S50000x1.size a
  hwx4_4 : ∀ i : grid4.Coords, EltTy.bits .f32 = 32 ∨ (Rect.block (s := S50000x1) S2000x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .f32 = 32 ∨ (Rect.block (s := S50000x128) S2000x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S50000x128.size a
  hwx4_6 : ∀ i : grid4.Coords, EltTy.bits .f32 = 32 ∨ (Rect.block (s := S50000x128) S2000x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x128.size a ≤ S50000x128.size a
  hwx4_7 : ∀ i : grid4.Coords, EltTy.bits .f32 = 32 ∨ (Rect.block (s := S50000x128) S2000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S50000x128.size a
  hwx6_3 : ∀ i : grid6.Coords, EltTy.bits .f32 = 32 ∨ (Rect.block (s := S50000x128) S2000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S50000x128.size a
  hwx7_1 : ∀ i : grid7.Coords, EltTy.bits .f32 = 32 ∨ (Rect.block (s := S50000x128) S2000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S50000x128.size a
  hwx7_2 : ∀ i : grid7.Coords, EltTy.bits .f32 = 32 ∨ (Rect.block (s := S50000x128) S2000x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S50000x128.size a
  hwx7_3 : ∀ i : grid7.Coords, EltTy.bits .f32 = 32 ∨ (Rect.block (s := S50000x128) S2000x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x1.size a ≤ S50000x1.size a
  hwx7_4 : ∀ i : grid7.Coords, EltTy.bits .f32 = 32 ∨ (Rect.block (s := S50000x1) S2000x1.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x128.size a ≤ S50000x128.size a
  hwx7_5 : ∀ i : grid7.Coords, EltTy.bits .f32 = 32 ∨ (Rect.block (s := S50000x128) S2000x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x128.size a ≤ S50000x128.size a
  hwx7_6 : ∀ i : grid7.Coords, EltTy.bits .f32 = 32 ∨ (Rect.block (s := S50000x128) S2000x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S2000x128.size a ≤ S50000x128.size a
  hwx7_7 : ∀ i : grid7.Coords, EltTy.bits .f32 = 32 ∨ (Rect.block (s := S50000x128) S2000x128.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128.size a ≤ S128.size a
  hwx8_2 : ∀ i : grid8.Coords, EltTy.bits .f32 = 32 ∨ (Rect.block (s := S128) S128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x128.size a ≤ S50000x128.size a
  hwx8_3 : ∀ i : grid8.Coords, EltTy.bits .f32 = 32 ∨ (Rect.block (s := S50000x128) S2000x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128.size a ≤ S128.size a
  hwx9_2 : ∀ i : grid9.Coords, EltTy.bits .f32 = 32 ∨ (Rect.block (s := S128) S128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x128.size a ≤ S50000x128.size a
  hwx9_3 : ∀ i : grid9.Coords, EltTy.bits .f32 = 32 ∨ (Rect.block (s := S50000x128) S2000x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4000x128.size a ≤ S400000x128.size a
  hwx10_0 : ∀ i : grid10.Coords, EltTy.bits .f32 = 32 ∨ (Rect.block (s := S400000x128) S4000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S4000x128.size a ≤ S400000x128.size a
  hwx10_1 : ∀ i : grid10.Coords, EltTy.bits .f32 = 32 ∨ (Rect.block (s := S400000x128) S4000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x256.size a ≤ S128x256.size a
  hwx10_2 : ∀ i : grid10.Coords, EltTy.bits .f32 = 32 ∨ (Rect.block (s := S128x256) S128x256.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128.size a ≤ S128.size a
  hwx10_3 : ∀ i : grid10.Coords, EltTy.bits .f32 = 32 ∨ (Rect.block (s := S128) S128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1.size a ≤ S1.size a
  hwx10_5 : ∀ i : grid10.Coords, EltTy.bits .f32 = 32 ∨ (Rect.block (s := S1) S1.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S4000x1.size a ≤ S400000x1.size a
  hwx10_6 : ∀ i : grid10.Coords, EltTy.bits .f32 = 32 ∨ (Rect.block (s := S400000x1) S4000x1.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S50000x128.size a
  hwx11_0 : ∀ i : grid11.Coords, EltTy.bits .f32 = 32 ∨ (Rect.block (s := S50000x128) S2000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128.size a ≤ S128.size a
  hwx11_2 : ∀ i : grid11.Coords, EltTy.bits .f32 = 32 ∨ (Rect.block (s := S128) S128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S2000x128.size a ≤ S50000x128.size a
  hwx11_3 : ∀ i : grid11.Coords, EltTy.bits .f32 = 32 ∨ (Rect.block (s := S50000x128) S2000x128.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S50000x128.size a
  hwx12_0 : ∀ i : grid12.Coords, EltTy.bits .f32 = 32 ∨ (Rect.block (s := S50000x128) S2000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S128.size a ≤ S128.size a
  hwx12_2 : ∀ i : grid12.Coords, EltTy.bits .f32 = 32 ∨ (Rect.block (s := S128) S128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S2000x128.size a ≤ S50000x128.size a
  hwx12_3 : ∀ i : grid12.Coords, EltTy.bits .f32 = 32 ∨ (Rect.block (s := S50000x128) S2000x128.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x128.size a ≤ S50000x128.size a
  hwx13_0 : ∀ i : grid13.Coords, EltTy.bits .f32 = 32 ∨ (Rect.block (s := S50000x128) S2000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S2000x128.size a ≤ S50000x128.size a
  hwx13_1 : ∀ i : grid13.Coords, EltTy.bits .f32 = 32 ∨ (Rect.block (s := S50000x128) S2000x128.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S2000x128.size a ≤ S50000x128.size a
  hwx13_2 : ∀ i : grid13.Coords, EltTy.bits .f32 = 32 ∨ (Rect.block (s := S50000x128) S2000x128.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S2000x128.size a ≤ S50000x128.size a
  hwx13_3 : ∀ i : grid13.Coords, EltTy.bits .f32 = 32 ∨ (Rect.block (s := S50000x128) S2000x128.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S2000x1.size a ≤ S50000x1.size a
  hwx13_4 : ∀ i : grid13.Coords, EltTy.bits .f32 = 32 ∨ (Rect.block (s := S50000x1) S2000x1.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S2000x128.size a ≤ S50000x128.size a
  hwx13_5 : ∀ i : grid13.Coords, EltTy.bits .f32 = 32 ∨ (Rect.block (s := S50000x128) S2000x128.size (cc13_transform_5 i) (hinb13_5 i)).WholeWords (EltTy.packing .f32)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S2000x128.size a ≤ S50000x128.size a
  hwx13_6 : ∀ i : grid13.Coords, EltTy.bits .f32 = 32 ∨ (Rect.block (s := S50000x128) S2000x128.size (cc13_transform_6 i) (hinb13_6 i)).WholeWords (EltTy.packing .f32)
  hstage13_7 : ∀ j, (stage13_7 j).IsWhole
  nbuf13_7 : grid13.bufCount reads13_7 false = 2
  hreads13_7 : ∀ i i' : grid13.Coords, (∀ a, reads13_7 a = true → i a = i' a) → cc13_transform_7 i = cc13_transform_7 i'
  hinb13_7 : ∀ (i : grid13.Coords) a, (cc13_transform_7 i a + 1) * S2000x128.size a ≤ S50000x128.size a
  hwx13_7 : ∀ i : grid13.Coords, EltTy.bits .f32 = 32 ∨ (Rect.block (s := S50000x128) S2000x128.size (cc13_transform_7 i) (hinb13_7 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x128.size a ≤ S50000x128.size a
  hwx14_0 : ∀ i : grid14.Coords, EltTy.bits .f32 = 32 ∨ (Rect.block (s := S50000x128) S2000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S128x128.size a ≤ S128x128.size a
  hwx14_1 : ∀ i : grid14.Coords, EltTy.bits .f32 = 32 ∨ (Rect.block (s := S128x128) S128x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S128.size a ≤ S128.size a
  hwx14_2 : ∀ i : grid14.Coords, EltTy.bits .f32 = 32 ∨ (Rect.block (s := S128) S128.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S2000x128.size a ≤ S50000x128.size a
  hwx14_3 : ∀ i : grid14.Coords, EltTy.bits .f32 = 32 ∨ (Rect.block (s := S50000x128) S2000x128.size (cc14_transform_3 i) (hinb14_3 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2000x128.size a ≤ S50000x128.size a
  hwx15_0 : ∀ i : grid15.Coords, EltTy.bits .f32 = 32 ∨ (Rect.block (s := S50000x128) S2000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S128x128.size a ≤ S128x128.size a
  hwx15_1 : ∀ i : grid15.Coords, EltTy.bits .f32 = 32 ∨ (Rect.block (s := S128x128) S128x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S128.size a ≤ S128.size a
  hwx15_2 : ∀ i : grid15.Coords, EltTy.bits .f32 = 32 ∨ (Rect.block (s := S128) S128.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S2000x128.size a ≤ S50000x128.size a
  hwx15_3 : ∀ i : grid15.Coords, EltTy.bits .f32 = 32 ∨ (Rect.block (s := S50000x128) S2000x128.size (cc15_transform_3 i) (hinb15_3 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S2000x128.size a ≤ S50000x128.size a
  hwx16_0 : ∀ i : grid16.Coords, EltTy.bits .f32 = 32 ∨ (Rect.block (s := S50000x128) S2000x128.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S2000x128.size a ≤ S50000x128.size a
  hwx16_1 : ∀ i : grid16.Coords, EltTy.bits .f32 = 32 ∨ (Rect.block (s := S50000x128) S2000x128.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S2000x128.size a ≤ S50000x128.size a
  hwx16_2 : ∀ i : grid16.Coords, EltTy.bits .f32 = 32 ∨ (Rect.block (s := S50000x128) S2000x128.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S2000x128.size a ≤ S50000x128.size a
  hwx16_3 : ∀ i : grid16.Coords, EltTy.bits .f32 = 32 ∨ (Rect.block (s := S50000x128) S2000x128.size (cc16_transform_3 i) (hinb16_3 i)).WholeWords (EltTy.packing .f32)
  hstage16_4 : ∀ j, (stage16_4 j).IsWhole
  nbuf16_4 : grid16.bufCount reads16_4 false = 2
  hreads16_4 : ∀ i i' : grid16.Coords, (∀ a, reads16_4 a = true → i a = i' a) → cc16_transform_4 i = cc16_transform_4 i'
  hinb16_4 : ∀ (i : grid16.Coords) a, (cc16_transform_4 i a + 1) * S2000x1.size a ≤ S50000x1.size a
  hwx16_4 : ∀ i : grid16.Coords, EltTy.bits .f32 = 32 ∨ (Rect.block (s := S50000x1) S2000x1.size (cc16_transform_4 i) (hinb16_4 i)).WholeWords (EltTy.packing .f32)
  hstage16_5 : ∀ j, (stage16_5 j).IsWhole
  nbuf16_5 : grid16.bufCount reads16_5 false = 2
  hreads16_5 : ∀ i i' : grid16.Coords, (∀ a, reads16_5 a = true → i a = i' a) → cc16_transform_5 i = cc16_transform_5 i'
  hinb16_5 : ∀ (i : grid16.Coords) a, (cc16_transform_5 i a + 1) * S2000x128.size a ≤ S50000x128.size a
  hwx16_5 : ∀ i : grid16.Coords, EltTy.bits .f32 = 32 ∨ (Rect.block (s := S50000x128) S2000x128.size (cc16_transform_5 i) (hinb16_5 i)).WholeWords (EltTy.packing .f32)
  hstage16_6 : ∀ j, (stage16_6 j).IsWhole
  nbuf16_6 : grid16.bufCount reads16_6 false = 2
  hreads16_6 : ∀ i i' : grid16.Coords, (∀ a, reads16_6 a = true → i a = i' a) → cc16_transform_6 i = cc16_transform_6 i'
  hinb16_6 : ∀ (i : grid16.Coords) a, (cc16_transform_6 i a + 1) * S2000x128.size a ≤ S50000x128.size a
  hwx16_6 : ∀ i : grid16.Coords, EltTy.bits .f32 = 32 ∨ (Rect.block (s := S50000x128) S2000x128.size (cc16_transform_6 i) (hinb16_6 i)).WholeWords (EltTy.packing .f32)
  hstage16_7 : ∀ j, (stage16_7 j).IsWhole
  nbuf16_7 : grid16.bufCount reads16_7 false = 2
  hreads16_7 : ∀ i i' : grid16.Coords, (∀ a, reads16_7 a = true → i a = i' a) → cc16_transform_7 i = cc16_transform_7 i'
  hinb16_7 : ∀ (i : grid16.Coords) a, (cc16_transform_7 i a + 1) * S2000x128.size a ≤ S50000x128.size a
  hwx16_7 : ∀ i : grid16.Coords, EltTy.bits .f32 = 32 ∨ (Rect.block (s := S50000x128) S2000x128.size (cc16_transform_7 i) (hinb16_7 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S2000x128.size a ≤ S50000x128.size a
  hwx17_0 : ∀ i : grid17.Coords, EltTy.bits .f32 = 32 ∨ (Rect.block (s := S50000x128) S2000x128.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S128x128.size a ≤ S128x128.size a
  hwx17_1 : ∀ i : grid17.Coords, EltTy.bits .f32 = 32 ∨ (Rect.block (s := S128x128) S128x128.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S128.size a ≤ S128.size a
  hwx17_2 : ∀ i : grid17.Coords, EltTy.bits .f32 = 32 ∨ (Rect.block (s := S128) S128.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S2000x128.size a ≤ S50000x128.size a
  hwx17_3 : ∀ i : grid17.Coords, EltTy.bits .f32 = 32 ∨ (Rect.block (s := S50000x128) S2000x128.size (cc17_transform_3 i) (hinb17_3 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S2000x128.size a ≤ S50000x128.size a
  hwx18_0 : ∀ i : grid18.Coords, EltTy.bits .f32 = 32 ∨ (Rect.block (s := S50000x128) S2000x128.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S128x128.size a ≤ S128x128.size a
  hwx18_1 : ∀ i : grid18.Coords, EltTy.bits .f32 = 32 ∨ (Rect.block (s := S128x128) S128x128.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S128.size a ≤ S128.size a
  hwx18_2 : ∀ i : grid18.Coords, EltTy.bits .f32 = 32 ∨ (Rect.block (s := S128) S128.size (cc18_transform_2 i) (hinb18_2 i)).WholeWords (EltTy.packing .f32)
  hstage18_3 : ∀ j, (stage18_3 j).IsWhole
  nbuf18_3 : grid18.bufCount reads18_3 false = 2
  hreads18_3 : ∀ i i' : grid18.Coords, (∀ a, reads18_3 a = true → i a = i' a) → cc18_transform_3 i = cc18_transform_3 i'
  hinb18_3 : ∀ (i : grid18.Coords) a, (cc18_transform_3 i a + 1) * S2000x128.size a ≤ S50000x128.size a
  hwx18_3 : ∀ i : grid18.Coords, EltTy.bits .f32 = 32 ∨ (Rect.block (s := S50000x128) S2000x128.size (cc18_transform_3 i) (hinb18_3 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S4000x128.size a ≤ S400000x128.size a
  hwx19_0 : ∀ i : grid19.Coords, EltTy.bits .f32 = 32 ∨ (Rect.block (s := S400000x128) S4000x128.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S4000x128.size a ≤ S400000x128.size a
  hwx19_1 : ∀ i : grid19.Coords, EltTy.bits .f32 = 32 ∨ (Rect.block (s := S400000x128) S4000x128.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S128x256.size a ≤ S128x256.size a
  hwx19_2 : ∀ i : grid19.Coords, EltTy.bits .f32 = 32 ∨ (Rect.block (s := S128x256) S128x256.size (cc19_transform_2 i) (hinb19_2 i)).WholeWords (EltTy.packing .f32)
  hstage19_3 : ∀ j, (stage19_3 j).IsWhole
  nbuf19_3 : grid19.bufCount reads19_3 true = 1
  hreads19_3 : ∀ i i' : grid19.Coords, (∀ a, reads19_3 a = true → i a = i' a) → cc19_transform_3 i = cc19_transform_3 i'
  hinb19_3 : ∀ (i : grid19.Coords) a, (cc19_transform_3 i a + 1) * S128.size a ≤ S128.size a
  hwx19_3 : ∀ i : grid19.Coords, EltTy.bits .f32 = 32 ∨ (Rect.block (s := S128) S128.size (cc19_transform_3 i) (hinb19_3 i)).WholeWords (EltTy.packing .f32)
  hstage19_4 : ∀ j, (stage19_4 j).IsWhole
  nbuf19_4 : grid19.bufCount reads19_4 true = 1
  hreads19_4 : ∀ i i' : grid19.Coords, (∀ a, reads19_4 a = true → i a = i' a) → cc19_transform_4 i = cc19_transform_4 i'
  hinb19_4 : ∀ (i : grid19.Coords) a, (cc19_transform_4 i a + 1) * S1x128.size a ≤ S1x128.size a
  hwx19_4 : ∀ i : grid19.Coords, EltTy.bits .f32 = 32 ∨ (Rect.block (s := S1x128) S1x128.size (cc19_transform_4 i) (hinb19_4 i)).WholeWords (EltTy.packing .f32)
  hstage19_5 : ∀ j, (stage19_5 j).IsWhole
  nbuf19_5 : grid19.bufCount reads19_5 true = 1
  hreads19_5 : ∀ i i' : grid19.Coords, (∀ a, reads19_5 a = true → i a = i' a) → cc19_transform_5 i = cc19_transform_5 i'
  hinb19_5 : ∀ (i : grid19.Coords) a, (cc19_transform_5 i a + 1) * S1.size a ≤ S1.size a
  hwx19_5 : ∀ i : grid19.Coords, EltTy.bits .f32 = 32 ∨ (Rect.block (s := S1) S1.size (cc19_transform_5 i) (hinb19_5 i)).WholeWords (EltTy.packing .f32)
  hstage19_6 : ∀ j, (stage19_6 j).IsWhole
  nbuf19_6 : grid19.bufCount reads19_6 false = 2
  hreads19_6 : ∀ i i' : grid19.Coords, (∀ a, reads19_6 a = true → i a = i' a) → cc19_transform_6 i = cc19_transform_6 i'
  hinb19_6 : ∀ (i : grid19.Coords) a, (cc19_transform_6 i a + 1) * S4000x1.size a ≤ S400000x1.size a
  hwx19_6 : ∀ i : grid19.Coords, EltTy.bits .f32 = 32 ∨ (Rect.block (s := S400000x1) S4000x1.size (cc19_transform_6 i) (hinb19_6 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S2000x128.size a ≤ S50000x128.size a
  hwx20_0 : ∀ i : grid20.Coords, EltTy.bits .f32 = 32 ∨ (Rect.block (s := S50000x128) S2000x128.size (cc20_transform_0 i) (hinb20_0 i)).WholeWords (EltTy.packing .f32)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S128x128.size a ≤ S128x128.size a
  hwx20_1 : ∀ i : grid20.Coords, EltTy.bits .f32 = 32 ∨ (Rect.block (s := S128x128) S128x128.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S128.size a ≤ S128.size a
  hwx20_2 : ∀ i : grid20.Coords, EltTy.bits .f32 = 32 ∨ (Rect.block (s := S128) S128.size (cc20_transform_2 i) (hinb20_2 i)).WholeWords (EltTy.packing .f32)
  hstage20_3 : ∀ j, (stage20_3 j).IsWhole
  nbuf20_3 : grid20.bufCount reads20_3 false = 2
  hreads20_3 : ∀ i i' : grid20.Coords, (∀ a, reads20_3 a = true → i a = i' a) → cc20_transform_3 i = cc20_transform_3 i'
  hinb20_3 : ∀ (i : grid20.Coords) a, (cc20_transform_3 i a + 1) * S2000x128.size a ≤ S50000x128.size a
  hwx20_3 : ∀ i : grid20.Coords, EltTy.bits .f32 = 32 ∨ (Rect.block (s := S50000x128) S2000x128.size (cc20_transform_3 i) (hinb20_3 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S2000x128.size a ≤ S50000x128.size a
  hwx21_0 : ∀ i : grid21.Coords, EltTy.bits .f32 = 32 ∨ (Rect.block (s := S50000x128) S2000x128.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S128x128.size a ≤ S128x128.size a
  hwx21_1 : ∀ i : grid21.Coords, EltTy.bits .f32 = 32 ∨ (Rect.block (s := S128x128) S128x128.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S128.size a ≤ S128.size a
  hwx21_2 : ∀ i : grid21.Coords, EltTy.bits .f32 = 32 ∨ (Rect.block (s := S128) S128.size (cc21_transform_2 i) (hinb21_2 i)).WholeWords (EltTy.packing .f32)
  hstage21_3 : ∀ j, (stage21_3 j).IsWhole
  nbuf21_3 : grid21.bufCount reads21_3 false = 2
  hreads21_3 : ∀ i i' : grid21.Coords, (∀ a, reads21_3 a = true → i a = i' a) → cc21_transform_3 i = cc21_transform_3 i'
  hinb21_3 : ∀ (i : grid21.Coords) a, (cc21_transform_3 i a + 1) * S2000x128.size a ≤ S50000x128.size a
  hwx21_3 : ∀ i : grid21.Coords, EltTy.bits .f32 = 32 ∨ (Rect.block (s := S50000x128) S2000x128.size (cc21_transform_3 i) (hinb21_3 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S2000x128.size a ≤ S50000x128.size a
  hwx22_0 : ∀ i : grid22.Coords, EltTy.bits .f32 = 32 ∨ (Rect.block (s := S50000x128) S2000x128.size (cc22_transform_0 i) (hinb22_0 i)).WholeWords (EltTy.packing .f32)
  hstage22_1 : ∀ j, (stage22_1 j).IsWhole
  nbuf22_1 : grid22.bufCount reads22_1 false = 2
  hreads22_1 : ∀ i i' : grid22.Coords, (∀ a, reads22_1 a = true → i a = i' a) → cc22_transform_1 i = cc22_transform_1 i'
  hinb22_1 : ∀ (i : grid22.Coords) a, (cc22_transform_1 i a + 1) * S2000x128.size a ≤ S50000x128.size a
  hwx22_1 : ∀ i : grid22.Coords, EltTy.bits .f32 = 32 ∨ (Rect.block (s := S50000x128) S2000x128.size (cc22_transform_1 i) (hinb22_1 i)).WholeWords (EltTy.packing .f32)
  hstage22_2 : ∀ j, (stage22_2 j).IsWhole
  nbuf22_2 : grid22.bufCount reads22_2 false = 2
  hreads22_2 : ∀ i i' : grid22.Coords, (∀ a, reads22_2 a = true → i a = i' a) → cc22_transform_2 i = cc22_transform_2 i'
  hinb22_2 : ∀ (i : grid22.Coords) a, (cc22_transform_2 i a + 1) * S2000x128.size a ≤ S50000x128.size a
  hwx22_2 : ∀ i : grid22.Coords, EltTy.bits .f32 = 32 ∨ (Rect.block (s := S50000x128) S2000x128.size (cc22_transform_2 i) (hinb22_2 i)).WholeWords (EltTy.packing .f32)
  hstage22_3 : ∀ j, (stage22_3 j).IsWhole
  nbuf22_3 : grid22.bufCount reads22_3 false = 2
  hreads22_3 : ∀ i i' : grid22.Coords, (∀ a, reads22_3 a = true → i a = i' a) → cc22_transform_3 i = cc22_transform_3 i'
  hinb22_3 : ∀ (i : grid22.Coords) a, (cc22_transform_3 i a + 1) * S2000x128.size a ≤ S50000x128.size a
  hwx22_3 : ∀ i : grid22.Coords, EltTy.bits .f32 = 32 ∨ (Rect.block (s := S50000x128) S2000x128.size (cc22_transform_3 i) (hinb22_3 i)).WholeWords (EltTy.packing .f32)
  hstage22_4 : ∀ j, (stage22_4 j).IsWhole
  nbuf22_4 : grid22.bufCount reads22_4 false = 2
  hreads22_4 : ∀ i i' : grid22.Coords, (∀ a, reads22_4 a = true → i a = i' a) → cc22_transform_4 i = cc22_transform_4 i'
  hinb22_4 : ∀ (i : grid22.Coords) a, (cc22_transform_4 i a + 1) * S2000x1.size a ≤ S50000x1.size a
  hwx22_4 : ∀ i : grid22.Coords, EltTy.bits .f32 = 32 ∨ (Rect.block (s := S50000x1) S2000x1.size (cc22_transform_4 i) (hinb22_4 i)).WholeWords (EltTy.packing .f32)
  hstage22_5 : ∀ j, (stage22_5 j).IsWhole
  nbuf22_5 : grid22.bufCount reads22_5 false = 2
  hreads22_5 : ∀ i i' : grid22.Coords, (∀ a, reads22_5 a = true → i a = i' a) → cc22_transform_5 i = cc22_transform_5 i'
  hinb22_5 : ∀ (i : grid22.Coords) a, (cc22_transform_5 i a + 1) * S2000x128.size a ≤ S50000x128.size a
  hwx22_5 : ∀ i : grid22.Coords, EltTy.bits .f32 = 32 ∨ (Rect.block (s := S50000x128) S2000x128.size (cc22_transform_5 i) (hinb22_5 i)).WholeWords (EltTy.packing .f32)
  hstage22_6 : ∀ j, (stage22_6 j).IsWhole
  nbuf22_6 : grid22.bufCount reads22_6 false = 2
  hreads22_6 : ∀ i i' : grid22.Coords, (∀ a, reads22_6 a = true → i a = i' a) → cc22_transform_6 i = cc22_transform_6 i'
  hinb22_6 : ∀ (i : grid22.Coords) a, (cc22_transform_6 i a + 1) * S2000x128.size a ≤ S50000x128.size a
  hwx22_6 : ∀ i : grid22.Coords, EltTy.bits .f32 = 32 ∨ (Rect.block (s := S50000x128) S2000x128.size (cc22_transform_6 i) (hinb22_6 i)).WholeWords (EltTy.packing .f32)
  hstage22_7 : ∀ j, (stage22_7 j).IsWhole
  nbuf22_7 : grid22.bufCount reads22_7 false = 2
  hreads22_7 : ∀ i i' : grid22.Coords, (∀ a, reads22_7 a = true → i a = i' a) → cc22_transform_7 i = cc22_transform_7 i'
  hinb22_7 : ∀ (i : grid22.Coords) a, (cc22_transform_7 i a + 1) * S2000x128.size a ≤ S50000x128.size a
  hwx22_7 : ∀ i : grid22.Coords, EltTy.bits .f32 = 32 ∨ (Rect.block (s := S50000x128) S2000x128.size (cc22_transform_7 i) (hinb22_7 i)).WholeWords (EltTy.packing .f32)
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S2000x128.size a ≤ S50000x128.size a
  hwx23_0 : ∀ i : grid23.Coords, EltTy.bits .f32 = 32 ∨ (Rect.block (s := S50000x128) S2000x128.size (cc23_transform_0 i) (hinb23_0 i)).WholeWords (EltTy.packing .f32)
  hstage23_1 : ∀ j, (stage23_1 j).IsWhole
  nbuf23_1 : grid23.bufCount reads23_1 true = 1
  hreads23_1 : ∀ i i' : grid23.Coords, (∀ a, reads23_1 a = true → i a = i' a) → cc23_transform_1 i = cc23_transform_1 i'
  hinb23_1 : ∀ (i : grid23.Coords) a, (cc23_transform_1 i a + 1) * S128x128.size a ≤ S128x128.size a
  hwx23_1 : ∀ i : grid23.Coords, EltTy.bits .f32 = 32 ∨ (Rect.block (s := S128x128) S128x128.size (cc23_transform_1 i) (hinb23_1 i)).WholeWords (EltTy.packing .f32)
  hstage23_2 : ∀ j, (stage23_2 j).IsWhole
  nbuf23_2 : grid23.bufCount reads23_2 true = 1
  hreads23_2 : ∀ i i' : grid23.Coords, (∀ a, reads23_2 a = true → i a = i' a) → cc23_transform_2 i = cc23_transform_2 i'
  hinb23_2 : ∀ (i : grid23.Coords) a, (cc23_transform_2 i a + 1) * S128.size a ≤ S128.size a
  hwx23_2 : ∀ i : grid23.Coords, EltTy.bits .f32 = 32 ∨ (Rect.block (s := S128) S128.size (cc23_transform_2 i) (hinb23_2 i)).WholeWords (EltTy.packing .f32)
  hstage23_3 : ∀ j, (stage23_3 j).IsWhole
  nbuf23_3 : grid23.bufCount reads23_3 false = 2
  hreads23_3 : ∀ i i' : grid23.Coords, (∀ a, reads23_3 a = true → i a = i' a) → cc23_transform_3 i = cc23_transform_3 i'
  hinb23_3 : ∀ (i : grid23.Coords) a, (cc23_transform_3 i a + 1) * S2000x128.size a ≤ S50000x128.size a
  hwx23_3 : ∀ i : grid23.Coords, EltTy.bits .f32 = 32 ∨ (Rect.block (s := S50000x128) S2000x128.size (cc23_transform_3 i) (hinb23_3 i)).WholeWords (EltTy.packing .f32)
  hrank24 : 0 < grid24.rank
  hstage24_0 : ∀ j, (stage24_0 j).IsWhole
  nbuf24_0 : grid24.bufCount reads24_0 false = 2
  hreads24_0 : ∀ i i' : grid24.Coords, (∀ a, reads24_0 a = true → i a = i' a) → cc24_transform_0 i = cc24_transform_0 i'
  hinb24_0 : ∀ (i : grid24.Coords) a, (cc24_transform_0 i a + 1) * S2000x128.size a ≤ S50000x128.size a
  hwx24_0 : ∀ i : grid24.Coords, EltTy.bits .f32 = 32 ∨ (Rect.block (s := S50000x128) S2000x128.size (cc24_transform_0 i) (hinb24_0 i)).WholeWords (EltTy.packing .f32)
  hstage24_1 : ∀ j, (stage24_1 j).IsWhole
  nbuf24_1 : grid24.bufCount reads24_1 true = 1
  hreads24_1 : ∀ i i' : grid24.Coords, (∀ a, reads24_1 a = true → i a = i' a) → cc24_transform_1 i = cc24_transform_1 i'
  hinb24_1 : ∀ (i : grid24.Coords) a, (cc24_transform_1 i a + 1) * S128x128.size a ≤ S128x128.size a
  hwx24_1 : ∀ i : grid24.Coords, EltTy.bits .f32 = 32 ∨ (Rect.block (s := S128x128) S128x128.size (cc24_transform_1 i) (hinb24_1 i)).WholeWords (EltTy.packing .f32)
  hstage24_2 : ∀ j, (stage24_2 j).IsWhole
  nbuf24_2 : grid24.bufCount reads24_2 true = 1
  hreads24_2 : ∀ i i' : grid24.Coords, (∀ a, reads24_2 a = true → i a = i' a) → cc24_transform_2 i = cc24_transform_2 i'
  hinb24_2 : ∀ (i : grid24.Coords) a, (cc24_transform_2 i a + 1) * S128.size a ≤ S128.size a
  hwx24_2 : ∀ i : grid24.Coords, EltTy.bits .f32 = 32 ∨ (Rect.block (s := S128) S128.size (cc24_transform_2 i) (hinb24_2 i)).WholeWords (EltTy.packing .f32)
  hstage24_3 : ∀ j, (stage24_3 j).IsWhole
  nbuf24_3 : grid24.bufCount reads24_3 false = 2
  hreads24_3 : ∀ i i' : grid24.Coords, (∀ a, reads24_3 a = true → i a = i' a) → cc24_transform_3 i = cc24_transform_3 i'
  hinb24_3 : ∀ (i : grid24.Coords) a, (cc24_transform_3 i a + 1) * S2000x128.size a ≤ S50000x128.size a
  hwx24_3 : ∀ i : grid24.Coords, EltTy.bits .f32 = 32 ∨ (Rect.block (s := S50000x128) S2000x128.size (cc24_transform_3 i) (hinb24_3 i)).WholeWords (EltTy.packing .f32)
  hrank25 : 0 < grid25.rank
  hstage25_0 : ∀ j, (stage25_0 j).IsWhole
  nbuf25_0 : grid25.bufCount reads25_0 false = 2
  hreads25_0 : ∀ i i' : grid25.Coords, (∀ a, reads25_0 a = true → i a = i' a) → cc25_transform_0 i = cc25_transform_0 i'
  hinb25_0 : ∀ (i : grid25.Coords) a, (cc25_transform_0 i a + 1) * S2000x128.size a ≤ S50000x128.size a
  hwx25_0 : ∀ i : grid25.Coords, EltTy.bits .f32 = 32 ∨ (Rect.block (s := S50000x128) S2000x128.size (cc25_transform_0 i) (hinb25_0 i)).WholeWords (EltTy.packing .f32)
  hstage25_1 : ∀ j, (stage25_1 j).IsWhole
  nbuf25_1 : grid25.bufCount reads25_1 false = 2
  hreads25_1 : ∀ i i' : grid25.Coords, (∀ a, reads25_1 a = true → i a = i' a) → cc25_transform_1 i = cc25_transform_1 i'
  hinb25_1 : ∀ (i : grid25.Coords) a, (cc25_transform_1 i a + 1) * S2000x128.size a ≤ S50000x128.size a
  hwx25_1 : ∀ i : grid25.Coords, EltTy.bits .f32 = 32 ∨ (Rect.block (s := S50000x128) S2000x128.size (cc25_transform_1 i) (hinb25_1 i)).WholeWords (EltTy.packing .f32)
  hstage25_2 : ∀ j, (stage25_2 j).IsWhole
  nbuf25_2 : grid25.bufCount reads25_2 false = 2
  hreads25_2 : ∀ i i' : grid25.Coords, (∀ a, reads25_2 a = true → i a = i' a) → cc25_transform_2 i = cc25_transform_2 i'
  hinb25_2 : ∀ (i : grid25.Coords) a, (cc25_transform_2 i a + 1) * S2000x128.size a ≤ S50000x128.size a
  hwx25_2 : ∀ i : grid25.Coords, EltTy.bits .f32 = 32 ∨ (Rect.block (s := S50000x128) S2000x128.size (cc25_transform_2 i) (hinb25_2 i)).WholeWords (EltTy.packing .f32)
  hstage25_3 : ∀ j, (stage25_3 j).IsWhole
  nbuf25_3 : grid25.bufCount reads25_3 false = 2
  hreads25_3 : ∀ i i' : grid25.Coords, (∀ a, reads25_3 a = true → i a = i' a) → cc25_transform_3 i = cc25_transform_3 i'
  hinb25_3 : ∀ (i : grid25.Coords) a, (cc25_transform_3 i a + 1) * S2000x128.size a ≤ S50000x128.size a
  hwx25_3 : ∀ i : grid25.Coords, EltTy.bits .f32 = 32 ∨ (Rect.block (s := S50000x128) S2000x128.size (cc25_transform_3 i) (hinb25_3 i)).WholeWords (EltTy.packing .f32)
  hstage25_4 : ∀ j, (stage25_4 j).IsWhole
  nbuf25_4 : grid25.bufCount reads25_4 false = 2
  hreads25_4 : ∀ i i' : grid25.Coords, (∀ a, reads25_4 a = true → i a = i' a) → cc25_transform_4 i = cc25_transform_4 i'
  hinb25_4 : ∀ (i : grid25.Coords) a, (cc25_transform_4 i a + 1) * S2000x1.size a ≤ S50000x1.size a
  hwx25_4 : ∀ i : grid25.Coords, EltTy.bits .f32 = 32 ∨ (Rect.block (s := S50000x1) S2000x1.size (cc25_transform_4 i) (hinb25_4 i)).WholeWords (EltTy.packing .f32)
  hstage25_5 : ∀ j, (stage25_5 j).IsWhole
  nbuf25_5 : grid25.bufCount reads25_5 false = 2
  hreads25_5 : ∀ i i' : grid25.Coords, (∀ a, reads25_5 a = true → i a = i' a) → cc25_transform_5 i = cc25_transform_5 i'
  hinb25_5 : ∀ (i : grid25.Coords) a, (cc25_transform_5 i a + 1) * S2000x128.size a ≤ S50000x128.size a
  hwx25_5 : ∀ i : grid25.Coords, EltTy.bits .f32 = 32 ∨ (Rect.block (s := S50000x128) S2000x128.size (cc25_transform_5 i) (hinb25_5 i)).WholeWords (EltTy.packing .f32)
  hstage25_6 : ∀ j, (stage25_6 j).IsWhole
  nbuf25_6 : grid25.bufCount reads25_6 false = 2
  hreads25_6 : ∀ i i' : grid25.Coords, (∀ a, reads25_6 a = true → i a = i' a) → cc25_transform_6 i = cc25_transform_6 i'
  hinb25_6 : ∀ (i : grid25.Coords) a, (cc25_transform_6 i a + 1) * S2000x128.size a ≤ S50000x128.size a
  hwx25_6 : ∀ i : grid25.Coords, EltTy.bits .f32 = 32 ∨ (Rect.block (s := S50000x128) S2000x128.size (cc25_transform_6 i) (hinb25_6 i)).WholeWords (EltTy.packing .f32)
  hstage25_7 : ∀ j, (stage25_7 j).IsWhole
  nbuf25_7 : grid25.bufCount reads25_7 false = 2
  hreads25_7 : ∀ i i' : grid25.Coords, (∀ a, reads25_7 a = true → i a = i' a) → cc25_transform_7 i = cc25_transform_7 i'
  hinb25_7 : ∀ (i : grid25.Coords) a, (cc25_transform_7 i a + 1) * S2000x128.size a ≤ S50000x128.size a
  hwx25_7 : ∀ i : grid25.Coords, EltTy.bits .f32 = 32 ∨ (Rect.block (s := S50000x128) S2000x128.size (cc25_transform_7 i) (hinb25_7 i)).WholeWords (EltTy.packing .f32)
  hrank26 : 0 < grid26.rank
  hstage26_0 : ∀ j, (stage26_0 j).IsWhole
  nbuf26_0 : grid26.bufCount reads26_0 false = 2
  hreads26_0 : ∀ i i' : grid26.Coords, (∀ a, reads26_0 a = true → i a = i' a) → cc26_transform_0 i = cc26_transform_0 i'
  hinb26_0 : ∀ (i : grid26.Coords) a, (cc26_transform_0 i a + 1) * S2000x128.size a ≤ S50000x128.size a
  hwx26_0 : ∀ i : grid26.Coords, EltTy.bits .f32 = 32 ∨ (Rect.block (s := S50000x128) S2000x128.size (cc26_transform_0 i) (hinb26_0 i)).WholeWords (EltTy.packing .f32)
  hstage26_1 : ∀ j, (stage26_1 j).IsWhole
  nbuf26_1 : grid26.bufCount reads26_1 true = 1
  hreads26_1 : ∀ i i' : grid26.Coords, (∀ a, reads26_1 a = true → i a = i' a) → cc26_transform_1 i = cc26_transform_1 i'
  hinb26_1 : ∀ (i : grid26.Coords) a, (cc26_transform_1 i a + 1) * S128x128.size a ≤ S128x128.size a
  hwx26_1 : ∀ i : grid26.Coords, EltTy.bits .f32 = 32 ∨ (Rect.block (s := S128x128) S128x128.size (cc26_transform_1 i) (hinb26_1 i)).WholeWords (EltTy.packing .f32)
  hstage26_2 : ∀ j, (stage26_2 j).IsWhole
  nbuf26_2 : grid26.bufCount reads26_2 true = 1
  hreads26_2 : ∀ i i' : grid26.Coords, (∀ a, reads26_2 a = true → i a = i' a) → cc26_transform_2 i = cc26_transform_2 i'
  hinb26_2 : ∀ (i : grid26.Coords) a, (cc26_transform_2 i a + 1) * S128.size a ≤ S128.size a
  hwx26_2 : ∀ i : grid26.Coords, EltTy.bits .f32 = 32 ∨ (Rect.block (s := S128) S128.size (cc26_transform_2 i) (hinb26_2 i)).WholeWords (EltTy.packing .f32)
  hstage26_3 : ∀ j, (stage26_3 j).IsWhole
  nbuf26_3 : grid26.bufCount reads26_3 false = 2
  hreads26_3 : ∀ i i' : grid26.Coords, (∀ a, reads26_3 a = true → i a = i' a) → cc26_transform_3 i = cc26_transform_3 i'
  hinb26_3 : ∀ (i : grid26.Coords) a, (cc26_transform_3 i a + 1) * S2000x128.size a ≤ S50000x128.size a
  hwx26_3 : ∀ i : grid26.Coords, EltTy.bits .f32 = 32 ∨ (Rect.block (s := S50000x128) S2000x128.size (cc26_transform_3 i) (hinb26_3 i)).WholeWords (EltTy.packing .f32)
  hrank27 : 0 < grid27.rank
  hstage27_0 : ∀ j, (stage27_0 j).IsWhole
  nbuf27_0 : grid27.bufCount reads27_0 false = 2
  hreads27_0 : ∀ i i' : grid27.Coords, (∀ a, reads27_0 a = true → i a = i' a) → cc27_transform_0 i = cc27_transform_0 i'
  hinb27_0 : ∀ (i : grid27.Coords) a, (cc27_transform_0 i a + 1) * S2000x128.size a ≤ S50000x128.size a
  hwx27_0 : ∀ i : grid27.Coords, EltTy.bits .f32 = 32 ∨ (Rect.block (s := S50000x128) S2000x128.size (cc27_transform_0 i) (hinb27_0 i)).WholeWords (EltTy.packing .f32)
  hstage27_1 : ∀ j, (stage27_1 j).IsWhole
  nbuf27_1 : grid27.bufCount reads27_1 true = 1
  hreads27_1 : ∀ i i' : grid27.Coords, (∀ a, reads27_1 a = true → i a = i' a) → cc27_transform_1 i = cc27_transform_1 i'
  hinb27_1 : ∀ (i : grid27.Coords) a, (cc27_transform_1 i a + 1) * S128x128.size a ≤ S128x128.size a
  hwx27_1 : ∀ i : grid27.Coords, EltTy.bits .f32 = 32 ∨ (Rect.block (s := S128x128) S128x128.size (cc27_transform_1 i) (hinb27_1 i)).WholeWords (EltTy.packing .f32)
  hstage27_2 : ∀ j, (stage27_2 j).IsWhole
  nbuf27_2 : grid27.bufCount reads27_2 true = 1
  hreads27_2 : ∀ i i' : grid27.Coords, (∀ a, reads27_2 a = true → i a = i' a) → cc27_transform_2 i = cc27_transform_2 i'
  hinb27_2 : ∀ (i : grid27.Coords) a, (cc27_transform_2 i a + 1) * S128.size a ≤ S128.size a
  hwx27_2 : ∀ i : grid27.Coords, EltTy.bits .f32 = 32 ∨ (Rect.block (s := S128) S128.size (cc27_transform_2 i) (hinb27_2 i)).WholeWords (EltTy.packing .f32)
  hstage27_3 : ∀ j, (stage27_3 j).IsWhole
  nbuf27_3 : grid27.bufCount reads27_3 false = 2
  hreads27_3 : ∀ i i' : grid27.Coords, (∀ a, reads27_3 a = true → i a = i' a) → cc27_transform_3 i = cc27_transform_3 i'
  hinb27_3 : ∀ (i : grid27.Coords) a, (cc27_transform_3 i a + 1) * S2000x128.size a ≤ S50000x128.size a
  hwx27_3 : ∀ i : grid27.Coords, EltTy.bits .f32 = 32 ∨ (Rect.block (s := S50000x128) S2000x128.size (cc27_transform_3 i) (hinb27_3 i)).WholeWords (EltTy.packing .f32)
  hrank28 : 0 < grid28.rank
  hstage28_0 : ∀ j, (stage28_0 j).IsWhole
  nbuf28_0 : grid28.bufCount reads28_0 false = 2
  hreads28_0 : ∀ i i' : grid28.Coords, (∀ a, reads28_0 a = true → i a = i' a) → cc28_transform_0 i = cc28_transform_0 i'
  hinb28_0 : ∀ (i : grid28.Coords) a, (cc28_transform_0 i a + 1) * S2000x128.size a ≤ S50000x128.size a
  hwx28_0 : ∀ i : grid28.Coords, EltTy.bits .f32 = 32 ∨ (Rect.block (s := S50000x128) S2000x128.size (cc28_transform_0 i) (hinb28_0 i)).WholeWords (EltTy.packing .f32)
  hstage28_1 : ∀ j, (stage28_1 j).IsWhole
  nbuf28_1 : grid28.bufCount reads28_1 true = 1
  hreads28_1 : ∀ i i' : grid28.Coords, (∀ a, reads28_1 a = true → i a = i' a) → cc28_transform_1 i = cc28_transform_1 i'
  hinb28_1 : ∀ (i : grid28.Coords) a, (cc28_transform_1 i a + 1) * S64x128.size a ≤ S64x128.size a
  hwx28_1 : ∀ i : grid28.Coords, EltTy.bits .f32 = 32 ∨ (Rect.block (s := S64x128) S64x128.size (cc28_transform_1 i) (hinb28_1 i)).WholeWords (EltTy.packing .f32)
  hstage28_2 : ∀ j, (stage28_2 j).IsWhole
  nbuf28_2 : grid28.bufCount reads28_2 true = 1
  hreads28_2 : ∀ i i' : grid28.Coords, (∀ a, reads28_2 a = true → i a = i' a) → cc28_transform_2 i = cc28_transform_2 i'
  hinb28_2 : ∀ (i : grid28.Coords) a, (cc28_transform_2 i a + 1) * S64.size a ≤ S64.size a
  hwx28_2 : ∀ i : grid28.Coords, EltTy.bits .f32 = 32 ∨ (Rect.block (s := S64) S64.size (cc28_transform_2 i) (hinb28_2 i)).WholeWords (EltTy.packing .f32)
  hstage28_3 : ∀ j, (stage28_3 j).IsWhole
  nbuf28_3 : grid28.bufCount reads28_3 false = 2
  hreads28_3 : ∀ i i' : grid28.Coords, (∀ a, reads28_3 a = true → i a = i' a) → cc28_transform_3 i = cc28_transform_3 i'
  hinb28_3 : ∀ (i : grid28.Coords) a, (cc28_transform_3 i a + 1) * S2000x64.size a ≤ S50000x64.size a
  hwx28_3 : ∀ i : grid28.Coords, EltTy.bits .f32 = 32 ∨ (Rect.block (s := S50000x64) S2000x64.size (cc28_transform_3 i) (hinb28_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S4000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v5) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v5) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v5) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v35) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v40) S2000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v31) S2000x1.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v52) S2000x128.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v53_0) S2000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v53_1) S2000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v53_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v4) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v56) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v53_0) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v58) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v60) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v61) S2000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v53_0) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v53_1) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v56) S2000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v61) S2000x128.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v31) S2000x1.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v73) S2000x128.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v74_0) S2000x128.size cc7_transform_6 reads7_6 true false 2 stage7_6 sem7_6
    hrank7 hreads7_6 hinb7_6 nbuf7_6 (Memref.isWhole_whole _) hwx7_6 hstage7_6

abbrev win7_7 : Pipeline.Window sig grid7 :=
  Pipeline.Window.ofSpec (Memref.whole main_v74_1) S2000x128.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v74_0) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v76) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v78) S128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v79) S2000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v79) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v81) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v83) S128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v84) S2000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v91) S4000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v98) S4000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v100) S128x256.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v102) S128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v104) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v106) S1.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v107) S4000x1.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v84) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v113) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v4) S128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v114) S2000x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v84) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v116) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v118) S128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v119) S2000x128.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v84) S2000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v111) S2000x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v114) S2000x128.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_v119) S2000x128.size cc13_transform_3 reads13_3 false false 2 stage13_3 sem13_3
    hrank13 hreads13_3 hinb13_3 nbuf13_3 (Memref.isWhole_whole _) hwx13_3 hstage13_3

abbrev win13_4 : Pipeline.Window sig grid13 :=
  Pipeline.Window.ofSpec (Memref.whole main_v110) S2000x1.size cc13_transform_4 reads13_4 false false 2 stage13_4 sem13_4
    hrank13 hreads13_4 hinb13_4 nbuf13_4 (Memref.isWhole_whole _) hwx13_4 hstage13_4

abbrev win13_5 : Pipeline.Window sig grid13 :=
  Pipeline.Window.ofSpec (Memref.whole main_v131) S2000x128.size cc13_transform_5 reads13_5 false false 2 stage13_5 sem13_5
    hrank13 hreads13_5 hinb13_5 nbuf13_5 (Memref.isWhole_whole _) hwx13_5 hstage13_5

abbrev win13_6 : Pipeline.Window sig grid13 :=
  Pipeline.Window.ofSpec (Memref.whole main_v132_0) S2000x128.size cc13_transform_6 reads13_6 true false 2 stage13_6 sem13_6
    hrank13 hreads13_6 hinb13_6 nbuf13_6 (Memref.isWhole_whole _) hwx13_6 hstage13_6

abbrev win13_7 : Pipeline.Window sig grid13 :=
  Pipeline.Window.ofSpec (Memref.whole main_v132_1) S2000x128.size cc13_transform_7 reads13_7 true false 2 stage13_7 sem13_7
    hrank13 hreads13_7 hinb13_7 nbuf13_7 (Memref.isWhole_whole _) hwx13_7 hstage13_7

abbrev win13 : Fin 8 → Pipeline.Window sig grid13 := fun | 0 => win13_0 | 1 => win13_1 | 2 => win13_2 | 3 => win13_3 | 4 => win13_4 | 5 => win13_5 | 6 => win13_6 | 7 => win13_7 | ⟨_ + 8, h⟩ => absurd h (Nat.not_lt.2 (Nat.le_add_left _ _))
abbrev spec13 : Fin 8 → Pipeline.WinSpec sig grid13.rank := fun w => (win13 w).toWinSpec

abbrev win14_0 : Pipeline.Window sig grid14 :=
  Pipeline.Window.ofSpec (Memref.whole main_v132_0) S2000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v134) S128x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v4) S128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v135) S2000x128.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v132_0) S2000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v137) S128x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v139) S128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v140) S2000x128.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v132_0) S2000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v132_1) S2000x128.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v135) S2000x128.size cc16_transform_2 reads16_2 false false 2 stage16_2 sem16_2
    hrank16 hreads16_2 hinb16_2 nbuf16_2 (Memref.isWhole_whole _) hwx16_2 hstage16_2

abbrev win16_3 : Pipeline.Window sig grid16 :=
  Pipeline.Window.ofSpec (Memref.whole main_v140) S2000x128.size cc16_transform_3 reads16_3 false false 2 stage16_3 sem16_3
    hrank16 hreads16_3 hinb16_3 nbuf16_3 (Memref.isWhole_whole _) hwx16_3 hstage16_3

abbrev win16_4 : Pipeline.Window sig grid16 :=
  Pipeline.Window.ofSpec (Memref.whole main_v110) S2000x1.size cc16_transform_4 reads16_4 false false 2 stage16_4 sem16_4
    hrank16 hreads16_4 hinb16_4 nbuf16_4 (Memref.isWhole_whole _) hwx16_4 hstage16_4

abbrev win16_5 : Pipeline.Window sig grid16 :=
  Pipeline.Window.ofSpec (Memref.whole main_v152) S2000x128.size cc16_transform_5 reads16_5 false false 2 stage16_5 sem16_5
    hrank16 hreads16_5 hinb16_5 nbuf16_5 (Memref.isWhole_whole _) hwx16_5 hstage16_5

abbrev win16_6 : Pipeline.Window sig grid16 :=
  Pipeline.Window.ofSpec (Memref.whole main_v153_0) S2000x128.size cc16_transform_6 reads16_6 true false 2 stage16_6 sem16_6
    hrank16 hreads16_6 hinb16_6 nbuf16_6 (Memref.isWhole_whole _) hwx16_6 hstage16_6

abbrev win16_7 : Pipeline.Window sig grid16 :=
  Pipeline.Window.ofSpec (Memref.whole main_v153_1) S2000x128.size cc16_transform_7 reads16_7 true false 2 stage16_7 sem16_7
    hrank16 hreads16_7 hinb16_7 nbuf16_7 (Memref.isWhole_whole _) hwx16_7 hstage16_7

abbrev win16 : Fin 8 → Pipeline.Window sig grid16 := fun | 0 => win16_0 | 1 => win16_1 | 2 => win16_2 | 3 => win16_3 | 4 => win16_4 | 5 => win16_5 | 6 => win16_6 | 7 => win16_7 | ⟨_ + 8, h⟩ => absurd h (Nat.not_lt.2 (Nat.le_add_left _ _))
abbrev spec16 : Fin 8 → Pipeline.WinSpec sig grid16.rank := fun w => (win16 w).toWinSpec

abbrev win17_0 : Pipeline.Window sig grid17 :=
  Pipeline.Window.ofSpec (Memref.whole main_v153_0) S2000x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v155) S128x128.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v157) S128.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v158) S2000x128.size cc17_transform_3 reads17_3 true false 2 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

abbrev win18_0 : Pipeline.Window sig grid18 :=
  Pipeline.Window.ofSpec (Memref.whole main_v158) S2000x128.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v160) S128x128.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v162) S128.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v163) S2000x128.size cc18_transform_3 reads18_3 true false 2 stage18_3 sem18_3
    hrank18 hreads18_3 hinb18_3 nbuf18_3 (Memref.isWhole_whole _) hwx18_3 hstage18_3

abbrev win18 : Fin 4 → Pipeline.Window sig grid18 := fun | 0 => win18_0 | 1 => win18_1 | 2 => win18_2 | 3 => win18_3 | ⟨_ + 4, h⟩ => absurd h (Nat.not_lt.2 (Nat.le_add_left _ _))
abbrev spec18 : Fin 4 → Pipeline.WinSpec sig grid18.rank := fun w => (win18 w).toWinSpec

abbrev win19_0 : Pipeline.Window sig grid19 :=
  Pipeline.Window.ofSpec (Memref.whole main_v170) S4000x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v177) S4000x128.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v179) S128x256.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v181) S128.size cc19_transform_3 reads19_3 false true 1 stage19_3 sem19_3
    hrank19 hreads19_3 hinb19_3 nbuf19_3 (Memref.isWhole_whole _) hwx19_3 hstage19_3

abbrev win19_4 : Pipeline.Window sig grid19 :=
  Pipeline.Window.ofSpec (Memref.whole main_v183) S1x128.size cc19_transform_4 reads19_4 false true 1 stage19_4 sem19_4
    hrank19 hreads19_4 hinb19_4 nbuf19_4 (Memref.isWhole_whole _) hwx19_4 hstage19_4

abbrev win19_5 : Pipeline.Window sig grid19 :=
  Pipeline.Window.ofSpec (Memref.whole main_v185) S1.size cc19_transform_5 reads19_5 false true 1 stage19_5 sem19_5
    hrank19 hreads19_5 hinb19_5 nbuf19_5 (Memref.isWhole_whole _) hwx19_5 hstage19_5

abbrev win19_6 : Pipeline.Window sig grid19 :=
  Pipeline.Window.ofSpec (Memref.whole main_v186) S4000x1.size cc19_transform_6 reads19_6 true false 2 stage19_6 sem19_6
    hrank19 hreads19_6 hinb19_6 nbuf19_6 (Memref.isWhole_whole _) hwx19_6 hstage19_6

abbrev win19 : Fin 7 → Pipeline.Window sig grid19 := fun | 0 => win19_0 | 1 => win19_1 | 2 => win19_2 | 3 => win19_3 | 4 => win19_4 | 5 => win19_5 | 6 => win19_6 | ⟨_ + 7, h⟩ => absurd h (Nat.not_lt.2 (Nat.le_add_left _ _))
abbrev spec19 : Fin 7 → Pipeline.WinSpec sig grid19.rank := fun w => (win19 w).toWinSpec

abbrev win20_0 : Pipeline.Window sig grid20 :=
  Pipeline.Window.ofSpec (Memref.whole main_v163) S2000x128.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v192) S128x128.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_v4) S128.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_v193) S2000x128.size cc20_transform_3 reads20_3 true false 2 stage20_3 sem20_3
    hrank20 hreads20_3 hinb20_3 nbuf20_3 (Memref.isWhole_whole _) hwx20_3 hstage20_3

abbrev win20 : Fin 4 → Pipeline.Window sig grid20 := fun | 0 => win20_0 | 1 => win20_1 | 2 => win20_2 | 3 => win20_3 | ⟨_ + 4, h⟩ => absurd h (Nat.not_lt.2 (Nat.le_add_left _ _))
abbrev spec20 : Fin 4 → Pipeline.WinSpec sig grid20.rank := fun w => (win20 w).toWinSpec

abbrev win21_0 : Pipeline.Window sig grid21 :=
  Pipeline.Window.ofSpec (Memref.whole main_v163) S2000x128.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v195) S128x128.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_v197) S128.size cc21_transform_2 reads21_2 false true 1 stage21_2 sem21_2
    hrank21 hreads21_2 hinb21_2 nbuf21_2 (Memref.isWhole_whole _) hwx21_2 hstage21_2

abbrev win21_3 : Pipeline.Window sig grid21 :=
  Pipeline.Window.ofSpec (Memref.whole main_v198) S2000x128.size cc21_transform_3 reads21_3 true false 2 stage21_3 sem21_3
    hrank21 hreads21_3 hinb21_3 nbuf21_3 (Memref.isWhole_whole _) hwx21_3 hstage21_3

abbrev win21 : Fin 4 → Pipeline.Window sig grid21 := fun | 0 => win21_0 | 1 => win21_1 | 2 => win21_2 | 3 => win21_3 | ⟨_ + 4, h⟩ => absurd h (Nat.not_lt.2 (Nat.le_add_left _ _))
abbrev spec21 : Fin 4 → Pipeline.WinSpec sig grid21.rank := fun w => (win21 w).toWinSpec

abbrev win22_0 : Pipeline.Window sig grid22 :=
  Pipeline.Window.ofSpec (Memref.whole main_v163) S2000x128.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v190) S2000x128.size cc22_transform_1 reads22_1 false false 2 stage22_1 sem22_1
    hrank22 hreads22_1 hinb22_1 nbuf22_1 (Memref.isWhole_whole _) hwx22_1 hstage22_1

abbrev win22_2 : Pipeline.Window sig grid22 :=
  Pipeline.Window.ofSpec (Memref.whole main_v193) S2000x128.size cc22_transform_2 reads22_2 false false 2 stage22_2 sem22_2
    hrank22 hreads22_2 hinb22_2 nbuf22_2 (Memref.isWhole_whole _) hwx22_2 hstage22_2

abbrev win22_3 : Pipeline.Window sig grid22 :=
  Pipeline.Window.ofSpec (Memref.whole main_v198) S2000x128.size cc22_transform_3 reads22_3 false false 2 stage22_3 sem22_3
    hrank22 hreads22_3 hinb22_3 nbuf22_3 (Memref.isWhole_whole _) hwx22_3 hstage22_3

abbrev win22_4 : Pipeline.Window sig grid22 :=
  Pipeline.Window.ofSpec (Memref.whole main_v189) S2000x1.size cc22_transform_4 reads22_4 false false 2 stage22_4 sem22_4
    hrank22 hreads22_4 hinb22_4 nbuf22_4 (Memref.isWhole_whole _) hwx22_4 hstage22_4

abbrev win22_5 : Pipeline.Window sig grid22 :=
  Pipeline.Window.ofSpec (Memref.whole main_v210) S2000x128.size cc22_transform_5 reads22_5 false false 2 stage22_5 sem22_5
    hrank22 hreads22_5 hinb22_5 nbuf22_5 (Memref.isWhole_whole _) hwx22_5 hstage22_5

abbrev win22_6 : Pipeline.Window sig grid22 :=
  Pipeline.Window.ofSpec (Memref.whole main_v211_0) S2000x128.size cc22_transform_6 reads22_6 true false 2 stage22_6 sem22_6
    hrank22 hreads22_6 hinb22_6 nbuf22_6 (Memref.isWhole_whole _) hwx22_6 hstage22_6

abbrev win22_7 : Pipeline.Window sig grid22 :=
  Pipeline.Window.ofSpec (Memref.whole main_v211_1) S2000x128.size cc22_transform_7 reads22_7 true false 2 stage22_7 sem22_7
    hrank22 hreads22_7 hinb22_7 nbuf22_7 (Memref.isWhole_whole _) hwx22_7 hstage22_7

abbrev win22 : Fin 8 → Pipeline.Window sig grid22 := fun | 0 => win22_0 | 1 => win22_1 | 2 => win22_2 | 3 => win22_3 | 4 => win22_4 | 5 => win22_5 | 6 => win22_6 | 7 => win22_7 | ⟨_ + 8, h⟩ => absurd h (Nat.not_lt.2 (Nat.le_add_left _ _))
abbrev spec22 : Fin 8 → Pipeline.WinSpec sig grid22.rank := fun w => (win22 w).toWinSpec

abbrev win23_0 : Pipeline.Window sig grid23 :=
  Pipeline.Window.ofSpec (Memref.whole main_v211_0) S2000x128.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v213) S128x128.size cc23_transform_1 reads23_1 false true 1 stage23_1 sem23_1
    hrank23 hreads23_1 hinb23_1 nbuf23_1 (Memref.isWhole_whole _) hwx23_1 hstage23_1

abbrev win23_2 : Pipeline.Window sig grid23 :=
  Pipeline.Window.ofSpec (Memref.whole main_v4) S128.size cc23_transform_2 reads23_2 false true 1 stage23_2 sem23_2
    hrank23 hreads23_2 hinb23_2 nbuf23_2 (Memref.isWhole_whole _) hwx23_2 hstage23_2

abbrev win23_3 : Pipeline.Window sig grid23 :=
  Pipeline.Window.ofSpec (Memref.whole main_v214) S2000x128.size cc23_transform_3 reads23_3 true false 2 stage23_3 sem23_3
    hrank23 hreads23_3 hinb23_3 nbuf23_3 (Memref.isWhole_whole _) hwx23_3 hstage23_3

abbrev win23 : Fin 4 → Pipeline.Window sig grid23 := fun | 0 => win23_0 | 1 => win23_1 | 2 => win23_2 | 3 => win23_3 | ⟨_ + 4, h⟩ => absurd h (Nat.not_lt.2 (Nat.le_add_left _ _))
abbrev spec23 : Fin 4 → Pipeline.WinSpec sig grid23.rank := fun w => (win23 w).toWinSpec

abbrev win24_0 : Pipeline.Window sig grid24 :=
  Pipeline.Window.ofSpec (Memref.whole main_v211_0) S2000x128.size cc24_transform_0 reads24_0 false false 2 stage24_0 sem24_0
    hrank24 hreads24_0 hinb24_0 nbuf24_0 (Memref.isWhole_whole _) hwx24_0 hstage24_0

abbrev win24_1 : Pipeline.Window sig grid24 :=
  Pipeline.Window.ofSpec (Memref.whole main_v216) S128x128.size cc24_transform_1 reads24_1 false true 1 stage24_1 sem24_1
    hrank24 hreads24_1 hinb24_1 nbuf24_1 (Memref.isWhole_whole _) hwx24_1 hstage24_1

abbrev win24_2 : Pipeline.Window sig grid24 :=
  Pipeline.Window.ofSpec (Memref.whole main_v218) S128.size cc24_transform_2 reads24_2 false true 1 stage24_2 sem24_2
    hrank24 hreads24_2 hinb24_2 nbuf24_2 (Memref.isWhole_whole _) hwx24_2 hstage24_2

abbrev win24_3 : Pipeline.Window sig grid24 :=
  Pipeline.Window.ofSpec (Memref.whole main_v219) S2000x128.size cc24_transform_3 reads24_3 true false 2 stage24_3 sem24_3
    hrank24 hreads24_3 hinb24_3 nbuf24_3 (Memref.isWhole_whole _) hwx24_3 hstage24_3

abbrev win24 : Fin 4 → Pipeline.Window sig grid24 := fun | 0 => win24_0 | 1 => win24_1 | 2 => win24_2 | 3 => win24_3 | ⟨_ + 4, h⟩ => absurd h (Nat.not_lt.2 (Nat.le_add_left _ _))
abbrev spec24 : Fin 4 → Pipeline.WinSpec sig grid24.rank := fun w => (win24 w).toWinSpec

abbrev win25_0 : Pipeline.Window sig grid25 :=
  Pipeline.Window.ofSpec (Memref.whole main_v211_0) S2000x128.size cc25_transform_0 reads25_0 false false 2 stage25_0 sem25_0
    hrank25 hreads25_0 hinb25_0 nbuf25_0 (Memref.isWhole_whole _) hwx25_0 hstage25_0

abbrev win25_1 : Pipeline.Window sig grid25 :=
  Pipeline.Window.ofSpec (Memref.whole main_v211_1) S2000x128.size cc25_transform_1 reads25_1 false false 2 stage25_1 sem25_1
    hrank25 hreads25_1 hinb25_1 nbuf25_1 (Memref.isWhole_whole _) hwx25_1 hstage25_1

abbrev win25_2 : Pipeline.Window sig grid25 :=
  Pipeline.Window.ofSpec (Memref.whole main_v214) S2000x128.size cc25_transform_2 reads25_2 false false 2 stage25_2 sem25_2
    hrank25 hreads25_2 hinb25_2 nbuf25_2 (Memref.isWhole_whole _) hwx25_2 hstage25_2

abbrev win25_3 : Pipeline.Window sig grid25 :=
  Pipeline.Window.ofSpec (Memref.whole main_v219) S2000x128.size cc25_transform_3 reads25_3 false false 2 stage25_3 sem25_3
    hrank25 hreads25_3 hinb25_3 nbuf25_3 (Memref.isWhole_whole _) hwx25_3 hstage25_3

abbrev win25_4 : Pipeline.Window sig grid25 :=
  Pipeline.Window.ofSpec (Memref.whole main_v189) S2000x1.size cc25_transform_4 reads25_4 false false 2 stage25_4 sem25_4
    hrank25 hreads25_4 hinb25_4 nbuf25_4 (Memref.isWhole_whole _) hwx25_4 hstage25_4

abbrev win25_5 : Pipeline.Window sig grid25 :=
  Pipeline.Window.ofSpec (Memref.whole main_v231) S2000x128.size cc25_transform_5 reads25_5 false false 2 stage25_5 sem25_5
    hrank25 hreads25_5 hinb25_5 nbuf25_5 (Memref.isWhole_whole _) hwx25_5 hstage25_5

abbrev win25_6 : Pipeline.Window sig grid25 :=
  Pipeline.Window.ofSpec (Memref.whole main_v232_0) S2000x128.size cc25_transform_6 reads25_6 true false 2 stage25_6 sem25_6
    hrank25 hreads25_6 hinb25_6 nbuf25_6 (Memref.isWhole_whole _) hwx25_6 hstage25_6

abbrev win25_7 : Pipeline.Window sig grid25 :=
  Pipeline.Window.ofSpec (Memref.whole main_v232_1) S2000x128.size cc25_transform_7 reads25_7 true false 2 stage25_7 sem25_7
    hrank25 hreads25_7 hinb25_7 nbuf25_7 (Memref.isWhole_whole _) hwx25_7 hstage25_7

abbrev win25 : Fin 8 → Pipeline.Window sig grid25 := fun | 0 => win25_0 | 1 => win25_1 | 2 => win25_2 | 3 => win25_3 | 4 => win25_4 | 5 => win25_5 | 6 => win25_6 | 7 => win25_7 | ⟨_ + 8, h⟩ => absurd h (Nat.not_lt.2 (Nat.le_add_left _ _))
abbrev spec25 : Fin 8 → Pipeline.WinSpec sig grid25.rank := fun w => (win25 w).toWinSpec

abbrev win26_0 : Pipeline.Window sig grid26 :=
  Pipeline.Window.ofSpec (Memref.whole main_v232_0) S2000x128.size cc26_transform_0 reads26_0 false false 2 stage26_0 sem26_0
    hrank26 hreads26_0 hinb26_0 nbuf26_0 (Memref.isWhole_whole _) hwx26_0 hstage26_0

abbrev win26_1 : Pipeline.Window sig grid26 :=
  Pipeline.Window.ofSpec (Memref.whole main_v234) S128x128.size cc26_transform_1 reads26_1 false true 1 stage26_1 sem26_1
    hrank26 hreads26_1 hinb26_1 nbuf26_1 (Memref.isWhole_whole _) hwx26_1 hstage26_1

abbrev win26_2 : Pipeline.Window sig grid26 :=
  Pipeline.Window.ofSpec (Memref.whole main_v236) S128.size cc26_transform_2 reads26_2 false true 1 stage26_2 sem26_2
    hrank26 hreads26_2 hinb26_2 nbuf26_2 (Memref.isWhole_whole _) hwx26_2 hstage26_2

abbrev win26_3 : Pipeline.Window sig grid26 :=
  Pipeline.Window.ofSpec (Memref.whole main_v237) S2000x128.size cc26_transform_3 reads26_3 true false 2 stage26_3 sem26_3
    hrank26 hreads26_3 hinb26_3 nbuf26_3 (Memref.isWhole_whole _) hwx26_3 hstage26_3

abbrev win26 : Fin 4 → Pipeline.Window sig grid26 := fun | 0 => win26_0 | 1 => win26_1 | 2 => win26_2 | 3 => win26_3 | ⟨_ + 4, h⟩ => absurd h (Nat.not_lt.2 (Nat.le_add_left _ _))
abbrev spec26 : Fin 4 → Pipeline.WinSpec sig grid26.rank := fun w => (win26 w).toWinSpec

abbrev win27_0 : Pipeline.Window sig grid27 :=
  Pipeline.Window.ofSpec (Memref.whole main_v237) S2000x128.size cc27_transform_0 reads27_0 false false 2 stage27_0 sem27_0
    hrank27 hreads27_0 hinb27_0 nbuf27_0 (Memref.isWhole_whole _) hwx27_0 hstage27_0

abbrev win27_1 : Pipeline.Window sig grid27 :=
  Pipeline.Window.ofSpec (Memref.whole main_v239) S128x128.size cc27_transform_1 reads27_1 false true 1 stage27_1 sem27_1
    hrank27 hreads27_1 hinb27_1 nbuf27_1 (Memref.isWhole_whole _) hwx27_1 hstage27_1

abbrev win27_2 : Pipeline.Window sig grid27 :=
  Pipeline.Window.ofSpec (Memref.whole main_v241) S128.size cc27_transform_2 reads27_2 false true 1 stage27_2 sem27_2
    hrank27 hreads27_2 hinb27_2 nbuf27_2 (Memref.isWhole_whole _) hwx27_2 hstage27_2

abbrev win27_3 : Pipeline.Window sig grid27 :=
  Pipeline.Window.ofSpec (Memref.whole main_v242) S2000x128.size cc27_transform_3 reads27_3 true false 2 stage27_3 sem27_3
    hrank27 hreads27_3 hinb27_3 nbuf27_3 (Memref.isWhole_whole _) hwx27_3 hstage27_3

abbrev win27 : Fin 4 → Pipeline.Window sig grid27 := fun | 0 => win27_0 | 1 => win27_1 | 2 => win27_2 | 3 => win27_3 | ⟨_ + 4, h⟩ => absurd h (Nat.not_lt.2 (Nat.le_add_left _ _))
abbrev spec27 : Fin 4 → Pipeline.WinSpec sig grid27.rank := fun w => (win27 w).toWinSpec

abbrev win28_0 : Pipeline.Window sig grid28 :=
  Pipeline.Window.ofSpec (Memref.whole main_v242) S2000x128.size cc28_transform_0 reads28_0 false false 2 stage28_0 sem28_0
    hrank28 hreads28_0 hinb28_0 nbuf28_0 (Memref.isWhole_whole _) hwx28_0 hstage28_0

abbrev win28_1 : Pipeline.Window sig grid28 :=
  Pipeline.Window.ofSpec (Memref.whole main_arg15) S64x128.size cc28_transform_1 reads28_1 false true 1 stage28_1 sem28_1
    hrank28 hreads28_1 hinb28_1 nbuf28_1 (Memref.isWhole_whole _) hwx28_1 hstage28_1

abbrev win28_2 : Pipeline.Window sig grid28 :=
  Pipeline.Window.ofSpec (Memref.whole main_arg16) S64.size cc28_transform_2 reads28_2 false true 1 stage28_2 sem28_2
    hrank28 hreads28_2 hinb28_2 nbuf28_2 (Memref.isWhole_whole _) hwx28_2 hstage28_2

abbrev win28_3 : Pipeline.Window sig grid28 :=
  Pipeline.Window.ofSpec (Memref.whole main_v243) S2000x64.size cc28_transform_3 reads28_3 true false 2 stage28_3 sem28_3
    hrank28 hreads28_3 hinb28_3 nbuf28_3 (Memref.isWhole_whole _) hwx28_3 hstage28_3

abbrev win28 : Fin 4 → Pipeline.Window sig grid28 := fun | 0 => win28_0 | 1 => win28_1 | 2 => win28_2 | 3 => win28_3 | ⟨_ + 4, h⟩ => absurd h (Nat.not_lt.2 (Nat.le_add_left _ _))
abbrev spec28 : Fin 4 → Pipeline.WinSpec sig grid28.rank := fun w => (win28 w).toWinSpec

class Facts : Prop extends Facts₀ where

variable [Facts]
-- ==== ReferenceIdeal.lean ====
abbrev S50000x128 : Shape := ⟨2, ![50000, 128]⟩
abbrev S2x400000 : Shape := ⟨2, ![2, 400000]⟩
abbrev S128x128 : Shape := ⟨2, ![128, 128]⟩
abbrev S128 : Shape := ⟨1, ![128]⟩
abbrev S3x128x128 : Shape := ⟨3, ![3, 128, 128]⟩
abbrev S3x128x256 : Shape := ⟨3, ![3, 128, 256]⟩
abbrev S3x128 : Shape := ⟨2, ![3, 128]⟩
abbrev S3x1x128 : Shape := ⟨3, ![3, 1, 128]⟩
abbrev S3x1 : Shape := ⟨2, ![3, 1]⟩
abbrev S64x128 : Shape := ⟨2, ![64, 128]⟩
abbrev S64 : Shape := ⟨1, ![64]⟩
abbrev S1x400000 : Shape := ⟨2, ![1, 400000]⟩
abbrev S400000 : Shape := ⟨1, ![400000]⟩
abbrev S1x128 : Shape := ⟨2, ![1, 128]⟩
abbrev S_ : Shape := ⟨0, ![]⟩
abbrev S400000x1 : Shape := ⟨2, ![400000, 1]⟩
abbrev S400000x128 : Shape := ⟨2, ![400000, 128]⟩
abbrev S400000x256 : Shape := ⟨2, ![400000, 256]⟩
abbrev S1x128x256 : Shape := ⟨3, ![1, 128, 256]⟩
abbrev S128x256 : Shape := ⟨2, ![128, 256]⟩
abbrev S256x128 : Shape := ⟨2, ![256, 128]⟩
abbrev S1x1x128 : Shape := ⟨3, ![1, 1, 128]⟩
abbrev S128x1 : Shape := ⟨2, ![128, 1]⟩
abbrev S1x1 : Shape := ⟨2, ![1, 1]⟩
abbrev S1 : Shape := ⟨1, ![1]⟩
abbrev S50000 : Shape := ⟨1, ![50000]⟩
abbrev S1x128x128 : Shape := ⟨3, ![1, 128, 128]⟩
abbrev S50000x1 : Shape := ⟨2, ![50000, 1]⟩
abbrev S128x64 : Shape := ⟨2, ![128, 64]⟩
abbrev S50000x64 : Shape := ⟨2, ![50000, 64]⟩
abbrev S1x64 : Shape := ⟨2, ![1, 64]⟩

abbrev nBuf : Space → Nat
  | .hbm => 508
  | .vmem => 0
  | .smem => 0
  | _ => 0

abbrev hbmTy0_0 (i : Nat) : BufTy := match i % 128 with
  | 0 => ⟨S50000x128, .f32⟩
  | 1 => ⟨S2x400000, .i32⟩
  | 2 => ⟨S128x128, .f32⟩
  | 3 => ⟨S128, .f32⟩
  | 4 => ⟨S3x128x128, .f32⟩
  | 5 => ⟨S3x128x256, .f32⟩
  | 6 => ⟨S3x128, .f32⟩
  | 7 => ⟨S3x1x128, .f32⟩
  | 8 => ⟨S3x1, .f32⟩
  | 9 => ⟨S3x128x128, .f32⟩
  | 10 => ⟨S3x128, .f32⟩
  | 11 => ⟨S3x128x128, .f32⟩
  | 12 => ⟨S3x128, .f32⟩
  | 13 => ⟨S3x128x128, .f32⟩
  | 14 => ⟨S3x128, .f32⟩
  | 15 => ⟨S64x128, .f32⟩
  | 16 => ⟨S64, .f32⟩
  | 17 => ⟨S1x400000, .i32⟩
  | 18 => ⟨S400000, .i32⟩
  | 19 => ⟨S1x400000, .i32⟩
  | 20 => ⟨S400000, .i32⟩
  | 21 => ⟨S128x128, .f32⟩
  | 22 => ⟨S50000x128, .f32⟩
  | 23 => ⟨S1x128, .f32⟩
  | 24 => ⟨S50000x128, .f32⟩
  | 25 => ⟨S50000x128, .f32⟩
  | 26 => ⟨S_, .i32⟩
  | 27 => ⟨S400000, .i32⟩
  | 28 => ⟨S400000, .i1⟩
  | 29 => ⟨S_, .i32⟩
  | 30 => ⟨S400000, .i32⟩
  | 31 => ⟨S400000, .i32⟩
  | 32 => ⟨S400000, .i32⟩
  | 33 => ⟨S400000x1, .i32⟩
  | 34 => ⟨S400000x128, .f32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S400000x128, .f32⟩
  | 44 => ⟨S400000x256, .f32⟩
  | 45 => ⟨S1x128x256, .f32⟩
  | 46 => ⟨S128x256, .f32⟩
  | 47 => ⟨S256x128, .f32⟩
  | 48 => ⟨S400000x128, .f32⟩
  | 49 => ⟨S1x128, .f32⟩
  | 50 => ⟨S128, .f32⟩
  | 51 => ⟨S1x128, .f32⟩
  | 52 => ⟨S400000x128, .f32⟩
  | 53 => ⟨S400000x128, .f32⟩
  | 54 => ⟨S_, .f32⟩
  | 55 => ⟨S400000x128, .f32⟩
  | 56 => ⟨S400000x128, .f32⟩
  | 57 => ⟨S1x1x128, .f32⟩
  | 58 => ⟨S1x128, .f32⟩
  | 59 => ⟨S128x1, .f32⟩
  | 60 => ⟨S400000x1, .f32⟩
  | 61 => ⟨S1x1, .f32⟩
  | 62 => ⟨S1, .f32⟩
  | 63 => ⟨S1x1, .f32⟩
  | 64 => ⟨S400000x1, .f32⟩
  | 65 => ⟨S400000x1, .f32⟩
  | 66 => ⟨S400000, .f32⟩
  | 67 => ⟨S400000, .f32⟩
  | 68 => ⟨S_, .f32⟩
  | 69 => ⟨S50000, .f32⟩
  | 70 => ⟨S400000x1, .i32⟩
  | 71 => ⟨S50000, .f32⟩
  | 72 => ⟨S_, .f32⟩
  | 73 => ⟨S50000x128, .f32⟩
  | 74 => ⟨S1x128x128, .f32⟩
  | 75 => ⟨S128x128, .f32⟩
  | 76 => ⟨S128x128, .f32⟩
  | 77 => ⟨S50000x128, .f32⟩
  | 78 => ⟨S50000x1, .f32⟩
  | 79 => ⟨S50000x128, .f32⟩
  | 80 => ⟨S50000x128, .f32⟩
  | 81 => ⟨S400000x1, .f32⟩
  | 82 => ⟨S_, .i32⟩
  | 83 => ⟨S400000, .i32⟩
  | 84 => ⟨S400000, .i1⟩
  | 85 => ⟨S_, .i32⟩
  | 86 => ⟨S400000, .i32⟩
  | 87 => ⟨S400000, .i32⟩
  | 88 => ⟨S400000, .i32⟩
  | 89 => ⟨S400000x1, .i32⟩
  | 90 => ⟨S400000x128, .f32⟩
  | 91 => ⟨S400000x128, .f32⟩
  | 92 => ⟨S400000x128, .f32⟩
  | 93 => ⟨S_, .f32⟩
  | 94 => ⟨S50000x128, .f32⟩
  | 95 => ⟨S400000x1, .i32⟩
  | 96 => ⟨S50000x128, .f32⟩
  | 97 => ⟨S50000x128, .f32⟩
  | 98 => ⟨S1x128x128, .f32⟩
  | 99 => ⟨S128x128, .f32⟩
  | 100 => ⟨S128x128, .f32⟩
  | 101 => ⟨S50000x128, .f32⟩
  | 102 => ⟨S1x128, .f32⟩
  | 103 => ⟨S128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S50000x128, .f32⟩
  | 120 => ⟨S1x128x128, .f32⟩
  | 121 => ⟨S128x128, .f32⟩
  | 122 => ⟨S128x128, .f32⟩
  | 123 => ⟨S50000x128, .f32⟩
  | 124 => ⟨S50000x1, .f32⟩
  | 125 => ⟨S50000x128, .f32⟩
  | 126 => ⟨S50000x128, .f32⟩
  | 127 => ⟨S400000x1, .f32⟩
  | _ => ⟨S50000x128, .f32⟩

abbrev hbmTy0_1 (i : Nat) : BufTy := match i % 128 with
  | 0 => ⟨S_, .i32⟩
  | 1 => ⟨S400000, .i32⟩
  | 2 => ⟨S400000, .i1⟩
  | 3 => ⟨S_, .i32⟩
  | 4 => ⟨S400000, .i32⟩
  | 5 => ⟨S400000, .i32⟩
  | 6 => ⟨S400000, .i32⟩
  | 7 => ⟨S400000x1, .i32⟩
  | 8 => ⟨S400000x128, .f32⟩
  | 9 => ⟨S400000x128, .f32⟩
  | 10 => ⟨S400000x128, .f32⟩
  | 11 => ⟨S_, .f32⟩
  | 12 => ⟨S50000x128, .f32⟩
  | 13 => ⟨S400000x1, .i32⟩
  | 14 => ⟨S50000x128, .f32⟩
  | 15 => ⟨S50000x128, .f32⟩
  | 16 => ⟨S1x128x128, .f32⟩
  | 17 => ⟨S128x128, .f32⟩
  | 18 => ⟨S128x128, .f32⟩
  | 19 => ⟨S50000x128, .f32⟩
  | 20 => ⟨S1x128, .f32⟩
  | 21 => ⟨S128, .f32⟩
  | 22 => ⟨S1x128, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S50000x128, .f32⟩
  | 38 => ⟨S1x128x128, .f32⟩
  | 39 => ⟨S128x128, .f32⟩
  | 40 => ⟨S128x128, .f32⟩
  | 41 => ⟨S50000x128, .f32⟩
  | 42 => ⟨S1x128, .f32⟩
  | 43 => ⟨S128, .f32⟩
  | 44 => ⟨S1x128, .f32⟩
  | 45 => ⟨S50000x128, .f32⟩
  | 46 => ⟨S50000x128, .f32⟩
  | 47 => ⟨S50000x128, .f32⟩
  | 48 => ⟨S1x128x128, .f32⟩
  | 49 => ⟨S128x128, .f32⟩
  | 50 => ⟨S128x128, .f32⟩
  | 51 => ⟨S50000x128, .f32⟩
  | 52 => ⟨S1x128, .f32⟩
  | 53 => ⟨S128, .f32⟩
  | 54 => ⟨S1x128, .f32⟩
  | 55 => ⟨S50000x128, .f32⟩
  | 56 => ⟨S50000x128, .f32⟩
  | 57 => ⟨S_, .i32⟩
  | 58 => ⟨S400000, .i32⟩
  | 59 => ⟨S400000, .i1⟩
  | 60 => ⟨S_, .i32⟩
  | 61 => ⟨S400000, .i32⟩
  | 62 => ⟨S400000, .i32⟩
  | 63 => ⟨S400000, .i32⟩
  | 64 => ⟨S400000x1, .i32⟩
  | 65 => ⟨S400000x128, .f32⟩
  | 66 => ⟨S_, .i32⟩
  | 67 => ⟨S400000, .i32⟩
  | 68 => ⟨S400000, .i1⟩
  | 69 => ⟨S_, .i32⟩
  | 70 => ⟨S400000, .i32⟩
  | 71 => ⟨S400000, .i32⟩
  | 72 => ⟨S400000, .i32⟩
  | 73 => ⟨S400000x1, .i32⟩
  | 74 => ⟨S400000x128, .f32⟩
  | 75 => ⟨S400000x256, .f32⟩
  | 76 => ⟨S1x128x256, .f32⟩
  | 77 => ⟨S128x256, .f32⟩
  | 78 => ⟨S256x128, .f32⟩
  | 79 => ⟨S400000x128, .f32⟩
  | 80 => ⟨S1x128, .f32⟩
  | 81 => ⟨S128, .f32⟩
  | 82 => ⟨S1x128, .f32⟩
  | 83 => ⟨S400000x128, .f32⟩
  | 84 => ⟨S400000x128, .f32⟩
  | 85 => ⟨S_, .f32⟩
  | 86 => ⟨S400000x128, .f32⟩
  | 87 => ⟨S400000x128, .f32⟩
  | 88 => ⟨S1x1x128, .f32⟩
  | 89 => ⟨S1x128, .f32⟩
  | 90 => ⟨S128x1, .f32⟩
  | 91 => ⟨S400000x1, .f32⟩
  | 92 => ⟨S1x1, .f32⟩
  | 93 => ⟨S1, .f32⟩
  | 94 => ⟨S1x1, .f32⟩
  | 95 => ⟨S400000x1, .f32⟩
  | 96 => ⟨S400000x1, .f32⟩
  | 97 => ⟨S400000, .f32⟩
  | 98 => ⟨S400000, .f32⟩
  | 99 => ⟨S_, .f32⟩
  | 100 => ⟨S50000, .f32⟩
  | 101 => ⟨S400000x1, .i32⟩
  | 102 => ⟨S50000, .f32⟩
  | 103 => ⟨S_, .f32⟩
  | 104 => ⟨S50000x128, .f32⟩
  | 105 => ⟨S1x128x128, .f32⟩
  | 106 => ⟨S128x128, .f32⟩
  | 107 => ⟨S128x128, .f32⟩
  | 108 => ⟨S50000x128, .f32⟩
  | 109 => ⟨S50000x1, .f32⟩
  | 110 => ⟨S50000x128, .f32⟩
  | 111 => ⟨S50000x128, .f32⟩
  | 112 => ⟨S400000x1, .f32⟩
  | 113 => ⟨S_, .i32⟩
  | 114 => ⟨S400000, .i32⟩
  | 115 => ⟨S400000, .i1⟩
  | 116 => ⟨S_, .i32⟩
  | 117 => ⟨S400000, .i32⟩
  | 118 => ⟨S400000, .i32⟩
  | 119 => ⟨S400000, .i32⟩
  | 120 => ⟨S400000x1, .i32⟩
  | 121 => ⟨S400000x128, .f32⟩
  | 122 => ⟨S400000x128, .f32⟩
  | 123 => ⟨S400000x128, .f32⟩
  | 124 => ⟨S_, .f32⟩
  | 125 => ⟨S50000x128, .f32⟩
  | 126 => ⟨S400000x1, .i32⟩
  | 127 => ⟨S50000x128, .f32⟩
  | _ => ⟨S50000x128, .f32⟩

abbrev hbmTy0_2 (i : Nat) : BufTy := match i % 128 with
  | 0 => ⟨S50000x128, .f32⟩
  | 1 => ⟨S1x128x128, .f32⟩
  | 2 => ⟨S128x128, .f32⟩
  | 3 => ⟨S128x128, .f32⟩
  | 4 => ⟨S50000x128, .f32⟩
  | 5 => ⟨S1x128, .f32⟩
  | 6 => ⟨S128, .f32⟩
  | 7 => ⟨S1x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S50000x128, .f32⟩
  | 23 => ⟨S1x128x128, .f32⟩
  | 24 => ⟨S128x128, .f32⟩
  | 25 => ⟨S128x128, .f32⟩
  | 26 => ⟨S50000x128, .f32⟩
  | 27 => ⟨S50000x1, .f32⟩
  | 28 => ⟨S50000x128, .f32⟩
  | 29 => ⟨S50000x128, .f32⟩
  | 30 => ⟨S400000x1, .f32⟩
  | 31 => ⟨S_, .i32⟩
  | 32 => ⟨S400000, .i32⟩
  | 33 => ⟨S400000, .i1⟩
  | 34 => ⟨S_, .i32⟩
  | 35 => ⟨S400000, .i32⟩
  | 36 => ⟨S400000, .i32⟩
  | 37 => ⟨S400000, .i32⟩
  | 38 => ⟨S400000x1, .i32⟩
  | 39 => ⟨S400000x128, .f32⟩
  | 40 => ⟨S400000x128, .f32⟩
  | 41 => ⟨S400000x128, .f32⟩
  | 42 => ⟨S_, .f32⟩
  | 43 => ⟨S50000x128, .f32⟩
  | 44 => ⟨S400000x1, .i32⟩
  | 45 => ⟨S50000x128, .f32⟩
  | 46 => ⟨S50000x128, .f32⟩
  | 47 => ⟨S1x128x128, .f32⟩
  | 48 => ⟨S128x128, .f32⟩
  | 49 => ⟨S128x128, .f32⟩
  | 50 => ⟨S50000x128, .f32⟩
  | 51 => ⟨S1x128, .f32⟩
  | 52 => ⟨S128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S50000x128, .f32⟩
  | 69 => ⟨S1x128x128, .f32⟩
  | 70 => ⟨S128x128, .f32⟩
  | 71 => ⟨S128x128, .f32⟩
  | 72 => ⟨S50000x128, .f32⟩
  | 73 => ⟨S1x128, .f32⟩
  | 74 => ⟨S128, .f32⟩
  | 75 => ⟨S1x128, .f32⟩
  | 76 => ⟨S50000x128, .f32⟩
  | 77 => ⟨S50000x128, .f32⟩
  | 78 => ⟨S50000x128, .f32⟩
  | 79 => ⟨S1x128x128, .f32⟩
  | 80 => ⟨S128x128, .f32⟩
  | 81 => ⟨S128x128, .f32⟩
  | 82 => ⟨S50000x128, .f32⟩
  | 83 => ⟨S1x128, .f32⟩
  | 84 => ⟨S128, .f32⟩
  | 85 => ⟨S1x128, .f32⟩
  | 86 => ⟨S50000x128, .f32⟩
  | 87 => ⟨S50000x128, .f32⟩
  | 88 => ⟨S_, .i32⟩
  | 89 => ⟨S400000, .i32⟩
  | 90 => ⟨S400000, .i1⟩
  | 91 => ⟨S_, .i32⟩
  | 92 => ⟨S400000, .i32⟩
  | 93 => ⟨S400000, .i32⟩
  | 94 => ⟨S400000, .i32⟩
  | 95 => ⟨S400000x1, .i32⟩
  | 96 => ⟨S400000x128, .f32⟩
  | 97 => ⟨S_, .i32⟩
  | 98 => ⟨S400000, .i32⟩
  | 99 => ⟨S400000, .i1⟩
  | 100 => ⟨S_, .i32⟩
  | 101 => ⟨S400000, .i32⟩
  | 102 => ⟨S400000, .i32⟩
  | 103 => ⟨S400000, .i32⟩
  | 104 => ⟨S400000x1, .i32⟩
  | 105 => ⟨S400000x128, .f32⟩
  | 106 => ⟨S400000x256, .f32⟩
  | 107 => ⟨S1x128x256, .f32⟩
  | 108 => ⟨S128x256, .f32⟩
  | 109 => ⟨S256x128, .f32⟩
  | 110 => ⟨S400000x128, .f32⟩
  | 111 => ⟨S1x128, .f32⟩
  | 112 => ⟨S128, .f32⟩
  | 113 => ⟨S1x128, .f32⟩
  | 114 => ⟨S400000x128, .f32⟩
  | 115 => ⟨S400000x128, .f32⟩
  | 116 => ⟨S_, .f32⟩
  | 117 => ⟨S400000x128, .f32⟩
  | 118 => ⟨S400000x128, .f32⟩
  | 119 => ⟨S1x1x128, .f32⟩
  | 120 => ⟨S1x128, .f32⟩
  | 121 => ⟨S128x1, .f32⟩
  | 122 => ⟨S400000x1, .f32⟩
  | 123 => ⟨S1x1, .f32⟩
  | 124 => ⟨S1, .f32⟩
  | 125 => ⟨S1x1, .f32⟩
  | 126 => ⟨S400000x1, .f32⟩
  | 127 => ⟨S400000x1, .f32⟩
  | _ => ⟨S50000x128, .f32⟩

abbrev hbmTy0_3 (i : Nat) : BufTy := match i % 128 with
  | 0 => ⟨S400000, .f32⟩
  | 1 => ⟨S400000, .f32⟩
  | 2 => ⟨S_, .f32⟩
  | 3 => ⟨S50000, .f32⟩
  | 4 => ⟨S400000x1, .i32⟩
  | 5 => ⟨S50000, .f32⟩
  | 6 => ⟨S_, .f32⟩
  | 7 => ⟨S50000x128, .f32⟩
  | 8 => ⟨S1x128x128, .f32⟩
  | 9 => ⟨S128x128, .f32⟩
  | 10 => ⟨S128x128, .f32⟩
  | 11 => ⟨S50000x128, .f32⟩
  | 12 => ⟨S50000x1, .f32⟩
  | 13 => ⟨S50000x128, .f32⟩
  | 14 => ⟨S50000x128, .f32⟩
  | 15 => ⟨S400000x1, .f32⟩
  | 16 => ⟨S_, .i32⟩
  | 17 => ⟨S400000, .i32⟩
  | 18 => ⟨S400000, .i1⟩
  | 19 => ⟨S_, .i32⟩
  | 20 => ⟨S400000, .i32⟩
  | 21 => ⟨S400000, .i32⟩
  | 22 => ⟨S400000, .i32⟩
  | 23 => ⟨S400000x1, .i32⟩
  | 24 => ⟨S400000x128, .f32⟩
  | 25 => ⟨S400000x128, .f32⟩
  | 26 => ⟨S400000x128, .f32⟩
  | 27 => ⟨S_, .f32⟩
  | 28 => ⟨S50000x128, .f32⟩
  | 29 => ⟨S400000x1, .i32⟩
  | 30 => ⟨S50000x128, .f32⟩
  | 31 => ⟨S50000x128, .f32⟩
  | 32 => ⟨S1x128x128, .f32⟩
  | 33 => ⟨S128x128, .f32⟩
  | 34 => ⟨S128x128, .f32⟩
  | 35 => ⟨S50000x128, .f32⟩
  | 36 => ⟨S1x128, .f32⟩
  | 37 => ⟨S128, .f32⟩
  | 38 => ⟨S1x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S50000x128, .f32⟩
  | 54 => ⟨S1x128x128, .f32⟩
  | 55 => ⟨S128x128, .f32⟩
  | 56 => ⟨S128x128, .f32⟩
  | 57 => ⟨S50000x128, .f32⟩
  | 58 => ⟨S50000x1, .f32⟩
  | 59 => ⟨S50000x128, .f32⟩
  | 60 => ⟨S50000x128, .f32⟩
  | 61 => ⟨S400000x1, .f32⟩
  | 62 => ⟨S_, .i32⟩
  | 63 => ⟨S400000, .i32⟩
  | 64 => ⟨S400000, .i1⟩
  | 65 => ⟨S_, .i32⟩
  | 66 => ⟨S400000, .i32⟩
  | 67 => ⟨S400000, .i32⟩
  | 68 => ⟨S400000, .i32⟩
  | 69 => ⟨S400000x1, .i32⟩
  | 70 => ⟨S400000x128, .f32⟩
  | 71 => ⟨S400000x128, .f32⟩
  | 72 => ⟨S400000x128, .f32⟩
  | 73 => ⟨S_, .f32⟩
  | 74 => ⟨S50000x128, .f32⟩
  | 75 => ⟨S400000x1, .i32⟩
  | 76 => ⟨S50000x128, .f32⟩
  | 77 => ⟨S50000x128, .f32⟩
  | 78 => ⟨S1x128x128, .f32⟩
  | 79 => ⟨S128x128, .f32⟩
  | 80 => ⟨S128x128, .f32⟩
  | 81 => ⟨S50000x128, .f32⟩
  | 82 => ⟨S1x128, .f32⟩
  | 83 => ⟨S128, .f32⟩
  | 84 => ⟨S1x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S50000x128, .f32⟩
  | 100 => ⟨S1x128x128, .f32⟩
  | 101 => ⟨S128x128, .f32⟩
  | 102 => ⟨S128x128, .f32⟩
  | 103 => ⟨S50000x128, .f32⟩
  | 104 => ⟨S1x128, .f32⟩
  | 105 => ⟨S128, .f32⟩
  | 106 => ⟨S1x128, .f32⟩
  | 107 => ⟨S50000x128, .f32⟩
  | 108 => ⟨S50000x128, .f32⟩
  | 109 => ⟨S50000x128, .f32⟩
  | 110 => ⟨S1x128x128, .f32⟩
  | 111 => ⟨S128x128, .f32⟩
  | 112 => ⟨S128x128, .f32⟩
  | 113 => ⟨S50000x128, .f32⟩
  | 114 => ⟨S1x128, .f32⟩
  | 115 => ⟨S128, .f32⟩
  | 116 => ⟨S1x128, .f32⟩
  | 117 => ⟨S50000x128, .f32⟩
  | 118 => ⟨S50000x128, .f32⟩
  | 119 => ⟨S128x64, .f32⟩
  | 120 => ⟨S50000x64, .f32⟩
  | 121 => ⟨S1x64, .f32⟩
  | 122 => ⟨S50000x64, .f32⟩
  | 123 => ⟨S50000x64, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_1 : Ref sig .tc := ⟨.hbm, 35, rfl⟩
abbrev main_v16 : Ref sig .tc := ⟨.hbm, 36, rfl⟩
abbrev main_v17 : Ref sig .tc := ⟨.hbm, 37, rfl⟩
abbrev main_c_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call0_cst : Ref sig .tc := ⟨.hbm, 54, rfl⟩
abbrev main_call0_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_3 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_4 : Ref sig .tc := ⟨.hbm, 82, rfl⟩
abbrev main_v57 : Ref sig .tc := ⟨.hbm, 83, rfl⟩
abbrev main_v58 : Ref sig .tc := ⟨.hbm, 84, rfl⟩
abbrev main_c_5 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_6 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_call1_cst : Ref sig .tc := ⟨.hbm, 107, rfl⟩
abbrev main_call1_v0 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_7 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_8 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_c_9 : Ref sig .tc := ⟨.hbm, 128, rfl⟩
abbrev main_v96 : Ref sig .tc := ⟨.hbm, 129, rfl⟩
abbrev main_v97 : Ref sig .tc := ⟨.hbm, 130, rfl⟩
abbrev main_c_10 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_11 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_call2_cst : Ref sig .tc := ⟨.hbm, 153, rfl⟩
abbrev main_call2_v0 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_12 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_cst_13 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_c_14 : Ref sig .tc := ⟨.hbm, 185, rfl⟩
abbrev main_v146 : Ref sig .tc := ⟨.hbm, 186, rfl⟩
abbrev main_v147 : Ref sig .tc := ⟨.hbm, 187, rfl⟩
abbrev main_c_15 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_c_16 : Ref sig .tc := ⟨.hbm, 194, rfl⟩
abbrev main_v153 : Ref sig .tc := ⟨.hbm, 195, rfl⟩
abbrev main_v154 : Ref sig .tc := ⟨.hbm, 196, rfl⟩
abbrev main_c_17 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_call3_cst : Ref sig .tc := ⟨.hbm, 213, rfl⟩
abbrev main_call3_v0 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_cst_18 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_cst_19 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_c_20 : Ref sig .tc := ⟨.hbm, 241, rfl⟩
abbrev main_v194 : Ref sig .tc := ⟨.hbm, 242, rfl⟩
abbrev main_v195 : Ref sig .tc := ⟨.hbm, 243, rfl⟩
abbrev main_c_21 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_cst_22 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_call4_cst : Ref sig .tc := ⟨.hbm, 266, rfl⟩
abbrev main_call4_v0 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_cst_23 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_cst_24 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_c_25 : Ref sig .tc := ⟨.hbm, 287, rfl⟩
abbrev main_v233 : Ref sig .tc := ⟨.hbm, 288, rfl⟩
abbrev main_v234 : Ref sig .tc := ⟨.hbm, 289, rfl⟩
abbrev main_c_26 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_v238 : Ref sig .tc := ⟨.hbm, 294, rfl⟩
abbrev main_v239 : Ref sig .tc := ⟨.hbm, 295, rfl⟩
abbrev main_v240 : Ref sig .tc := ⟨.hbm, 296, rfl⟩
abbrev main_v241 : Ref sig .tc := ⟨.hbm, 297, rfl⟩
abbrev main_cst_27 : Ref sig .tc := ⟨.hbm, 298, rfl⟩
abbrev main_v242 : Ref sig .tc := ⟨.hbm, 299, rfl⟩
abbrev main_v243 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_call5_cst : Ref sig .tc := ⟨.hbm, 312, rfl⟩
abbrev main_call5_v0 : Ref sig .tc := ⟨.hbm, 313, rfl⟩
abbrev main_v255 : Ref sig .tc := ⟨.hbm, 314, rfl⟩
abbrev main_v256 : Ref sig .tc := ⟨.hbm, 315, rfl⟩
abbrev main_v257 : Ref sig .tc := ⟨.hbm, 316, rfl⟩
abbrev main_cst_28 : Ref sig .tc := ⟨.hbm, 317, rfl⟩
abbrev main_v258 : Ref sig .tc := ⟨.hbm, 318, rfl⟩
abbrev main_v259 : Ref sig .tc := ⟨.hbm, 319, rfl⟩
abbrev main_v260 : Ref sig .tc := ⟨.hbm, 320, rfl⟩
abbrev main_cst_29 : Ref sig .tc := ⟨.hbm, 321, rfl⟩
abbrev main_v261 : Ref sig .tc := ⟨.hbm, 322, rfl⟩
abbrev main_v262 : Ref sig .tc := ⟨.hbm, 323, rfl⟩
abbrev main_v263 : Ref sig .tc := ⟨.hbm, 324, rfl⟩
abbrev main_v264 : Ref sig .tc := ⟨.hbm, 325, rfl⟩
abbrev main_v265 : Ref sig .tc := ⟨.hbm, 326, rfl⟩
abbrev main_v266 : Ref sig .tc := ⟨.hbm, 327, rfl⟩
abbrev main_v267 : Ref sig .tc := ⟨.hbm, 328, rfl⟩
abbrev main_v268 : Ref sig .tc := ⟨.hbm, 329, rfl⟩
abbrev main_v269 : Ref sig .tc := ⟨.hbm, 330, rfl⟩
abbrev main_v270 : Ref sig .tc := ⟨.hbm, 331, rfl⟩
abbrev main_v271 : Ref sig .tc := ⟨.hbm, 332, rfl⟩
abbrev main_v272 : Ref sig .tc := ⟨.hbm, 333, rfl⟩
abbrev main_v273 : Ref sig .tc := ⟨.hbm, 334, rfl⟩
abbrev main_v274 : Ref sig .tc := ⟨.hbm, 335, rfl⟩
abbrev main_v275 : Ref sig .tc := ⟨.hbm, 336, rfl⟩
abbrev main_v276 : Ref sig .tc := ⟨.hbm, 337, rfl⟩
abbrev main_v277 : Ref sig .tc := ⟨.hbm, 338, rfl⟩
abbrev main_v278 : Ref sig .tc := ⟨.hbm, 339, rfl⟩
abbrev main_v279 : Ref sig .tc := ⟨.hbm, 340, rfl⟩
abbrev main_v280 : Ref sig .tc := ⟨.hbm, 341, rfl⟩
abbrev main_v281 : Ref sig .tc := ⟨.hbm, 342, rfl⟩
abbrev main_v282 : Ref sig .tc := ⟨.hbm, 343, rfl⟩
abbrev main_c_30 : Ref sig .tc := ⟨.hbm, 344, rfl⟩
abbrev main_v283 : Ref sig .tc := ⟨.hbm, 345, rfl⟩
abbrev main_v284 : Ref sig .tc := ⟨.hbm, 346, rfl⟩
abbrev main_c_31 : Ref sig .tc := ⟨.hbm, 347, rfl⟩
abbrev main_v285 : Ref sig .tc := ⟨.hbm, 348, rfl⟩
abbrev main_v286 : Ref sig .tc := ⟨.hbm, 349, rfl⟩
abbrev main_v287 : Ref sig .tc := ⟨.hbm, 350, rfl⟩
abbrev main_v288 : Ref sig .tc := ⟨.hbm, 351, rfl⟩
abbrev main_v289 : Ref sig .tc := ⟨.hbm, 352, rfl⟩
abbrev main_c_32 : Ref sig .tc := ⟨.hbm, 353, rfl⟩
abbrev main_v290 : Ref sig .tc := ⟨.hbm, 354, rfl⟩
abbrev main_v291 : Ref sig .tc := ⟨.hbm, 355, rfl⟩
abbrev main_c_33 : Ref sig .tc := ⟨.hbm, 356, rfl⟩
abbrev main_v292 : Ref sig .tc := ⟨.hbm, 357, rfl⟩
abbrev main_v293 : Ref sig .tc := ⟨.hbm, 358, rfl⟩
abbrev main_v294 : Ref sig .tc := ⟨.hbm, 359, rfl⟩
abbrev main_v295 : Ref sig .tc := ⟨.hbm, 360, rfl⟩
abbrev main_v296 : Ref sig .tc := ⟨.hbm, 361, rfl⟩
abbrev main_v297 : Ref sig .tc := ⟨.hbm, 362, rfl⟩
abbrev main_v298 : Ref sig .tc := ⟨.hbm, 363, rfl⟩
abbrev main_v299 : Ref sig .tc := ⟨.hbm, 364, rfl⟩
abbrev main_v300 : Ref sig .tc := ⟨.hbm, 365, rfl⟩
abbrev main_v301 : Ref sig .tc := ⟨.hbm, 366, rfl⟩
abbrev main_v302 : Ref sig .tc := ⟨.hbm, 367, rfl⟩
abbrev main_v303 : Ref sig .tc := ⟨.hbm, 368, rfl⟩
abbrev main_v304 : Ref sig .tc := ⟨.hbm, 369, rfl⟩
abbrev main_v305 : Ref sig .tc := ⟨.hbm, 370, rfl⟩
abbrev main_v306 : Ref sig .tc := ⟨.hbm, 371, rfl⟩
abbrev main_call6_cst : Ref sig .tc := ⟨.hbm, 372, rfl⟩
abbrev main_call6_v0 : Ref sig .tc := ⟨.hbm, 373, rfl⟩
abbrev main_v307 : Ref sig .tc := ⟨.hbm, 374, rfl⟩
abbrev main_v308 : Ref sig .tc := ⟨.hbm, 375, rfl⟩
abbrev main_v309 : Ref sig .tc := ⟨.hbm, 376, rfl⟩
abbrev main_v310 : Ref sig .tc := ⟨.hbm, 377, rfl⟩
abbrev main_v311 : Ref sig .tc := ⟨.hbm, 378, rfl⟩
abbrev main_v312 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_v318 : Ref sig .tc := ⟨.hbm, 385, rfl⟩
abbrev main_cst_34 : Ref sig .tc := ⟨.hbm, 386, rfl⟩
abbrev main_v319 : Ref sig .tc := ⟨.hbm, 387, rfl⟩
abbrev main_v320 : Ref sig .tc := ⟨.hbm, 388, rfl⟩
abbrev main_v321 : Ref sig .tc := ⟨.hbm, 389, rfl⟩
abbrev main_cst_35 : Ref sig .tc := ⟨.hbm, 390, rfl⟩
abbrev main_v322 : Ref sig .tc := ⟨.hbm, 391, rfl⟩
abbrev main_v323 : Ref sig .tc := ⟨.hbm, 392, rfl⟩
abbrev main_v324 : Ref sig .tc := ⟨.hbm, 393, rfl⟩
abbrev main_v325 : Ref sig .tc := ⟨.hbm, 394, rfl⟩
abbrev main_v326 : Ref sig .tc := ⟨.hbm, 395, rfl⟩
abbrev main_v327 : Ref sig .tc := ⟨.hbm, 396, rfl⟩
abbrev main_v328 : Ref sig .tc := ⟨.hbm, 397, rfl⟩
abbrev main_v329 : Ref sig .tc := ⟨.hbm, 398, rfl⟩
abbrev main_v330 : Ref sig .tc := ⟨.hbm, 399, rfl⟩
abbrev main_c_36 : Ref sig .tc := ⟨.hbm, 400, rfl⟩
abbrev main_v331 : Ref sig .tc := ⟨.hbm, 401, rfl⟩
abbrev main_v332 : Ref sig .tc := ⟨.hbm, 402, rfl⟩
abbrev main_c_37 : Ref sig .tc := ⟨.hbm, 403, rfl⟩
abbrev main_v333 : Ref sig .tc := ⟨.hbm, 404, rfl⟩
abbrev main_v334 : Ref sig .tc := ⟨.hbm, 405, rfl⟩
abbrev main_v335 : Ref sig .tc := ⟨.hbm, 406, rfl⟩
abbrev main_v336 : Ref sig .tc := ⟨.hbm, 407, rfl⟩
abbrev main_v337 : Ref sig .tc := ⟨.hbm, 408, rfl⟩
abbrev main_v338 : Ref sig .tc := ⟨.hbm, 409, rfl⟩
abbrev main_v339 : Ref sig .tc := ⟨.hbm, 410, rfl⟩
abbrev main_cst_38 : Ref sig .tc := ⟨.hbm, 411, rfl⟩
abbrev main_v340 : Ref sig .tc := ⟨.hbm, 412, rfl⟩
abbrev main_v341 : Ref sig .tc := ⟨.hbm, 413, rfl⟩
abbrev main_v342 : Ref sig .tc := ⟨.hbm, 414, rfl⟩
abbrev main_v343 : Ref sig .tc := ⟨.hbm, 415, rfl⟩
abbrev main_v344 : Ref sig .tc := ⟨.hbm, 416, rfl⟩
abbrev main_v345 : Ref sig .tc := ⟨.hbm, 417, rfl⟩
abbrev main_v346 : Ref sig .tc := ⟨.hbm, 418, rfl⟩
abbrev main_v347 : Ref sig .tc := ⟨.hbm, 419, rfl⟩
abbrev main_v348 : Ref sig .tc := ⟨.hbm, 420, rfl⟩
abbrev main_v349 : Ref sig .tc := ⟨.hbm, 421, rfl⟩
abbrev main_v350 : Ref sig .tc := ⟨.hbm, 422, rfl⟩
abbrev main_v351 : Ref sig .tc := ⟨.hbm, 423, rfl⟩
abbrev main_v352 : Ref sig .tc := ⟨.hbm, 424, rfl⟩
abbrev main_call7_cst : Ref sig .tc := ⟨.hbm, 425, rfl⟩
abbrev main_call7_v0 : Ref sig .tc := ⟨.hbm, 426, rfl⟩
abbrev main_v353 : Ref sig .tc := ⟨.hbm, 427, rfl⟩
abbrev main_v354 : Ref sig .tc := ⟨.hbm, 428, rfl⟩
abbrev main_v355 : Ref sig .tc := ⟨.hbm, 429, rfl⟩
abbrev main_cst_39 : Ref sig .tc := ⟨.hbm, 430, rfl⟩
abbrev main_v356 : Ref sig .tc := ⟨.hbm, 431, rfl⟩
abbrev main_v357 : Ref sig .tc := ⟨.hbm, 432, rfl⟩
abbrev main_v358 : Ref sig .tc := ⟨.hbm, 433, rfl⟩
abbrev main_cst_40 : Ref sig .tc := ⟨.hbm, 434, rfl⟩
abbrev main_v359 : Ref sig .tc := ⟨.hbm, 435, rfl⟩
abbrev main_v360 : Ref sig .tc := ⟨.hbm, 436, rfl⟩
abbrev main_v361 : Ref sig .tc := ⟨.hbm, 437, rfl⟩
abbrev main_v362 : Ref sig .tc := ⟨.hbm, 438, rfl⟩
abbrev main_v363 : Ref sig .tc := ⟨.hbm, 439, rfl⟩
abbrev main_v364 : Ref sig .tc := ⟨.hbm, 440, rfl⟩
abbrev main_v365 : Ref sig .tc := ⟨.hbm, 441, rfl⟩
abbrev main_v366 : Ref sig .tc := ⟨.hbm, 442, rfl⟩
abbrev main_v367 : Ref sig .tc := ⟨.hbm, 443, rfl⟩
abbrev main_v368 : Ref sig .tc := ⟨.hbm, 444, rfl⟩
abbrev main_v369 : Ref sig .tc := ⟨.hbm, 445, rfl⟩
abbrev main_c_41 : Ref sig .tc := ⟨.hbm, 446, rfl⟩
abbrev main_v370 : Ref sig .tc := ⟨.hbm, 447, rfl⟩
abbrev main_v371 : Ref sig .tc := ⟨.hbm, 448, rfl⟩
abbrev main_c_42 : Ref sig .tc := ⟨.hbm, 449, rfl⟩
abbrev main_v372 : Ref sig .tc := ⟨.hbm, 450, rfl⟩
abbrev main_v373 : Ref sig .tc := ⟨.hbm, 451, rfl⟩
abbrev main_v374 : Ref sig .tc := ⟨.hbm, 452, rfl⟩
abbrev main_v375 : Ref sig .tc := ⟨.hbm, 453, rfl⟩
abbrev main_v376 : Ref sig .tc := ⟨.hbm, 454, rfl⟩
abbrev main_v377 : Ref sig .tc := ⟨.hbm, 455, rfl⟩
abbrev main_v378 : Ref sig .tc := ⟨.hbm, 456, rfl⟩
abbrev main_cst_43 : Ref sig .tc := ⟨.hbm, 457, rfl⟩
abbrev main_v379 : Ref sig .tc := ⟨.hbm, 458, rfl⟩
abbrev main_v380 : Ref sig .tc := ⟨.hbm, 459, rfl⟩
abbrev main_v381 : Ref sig .tc := ⟨.hbm, 460, rfl⟩
abbrev main_v382 : Ref sig .tc := ⟨.hbm, 461, rfl⟩
abbrev main_v383 : Ref sig .tc := ⟨.hbm, 462, rfl⟩
abbrev main_v384 : Ref sig .tc := ⟨.hbm, 463, rfl⟩
abbrev main_v385 : Ref sig .tc := ⟨.hbm, 464, rfl⟩
abbrev main_v386 : Ref sig .tc := ⟨.hbm, 465, rfl⟩
abbrev main_v387 : Ref sig .tc := ⟨.hbm, 466, rfl⟩
abbrev main_v388 : Ref sig .tc := ⟨.hbm, 467, rfl⟩
abbrev main_v389 : Ref sig .tc := ⟨.hbm, 468, rfl⟩
abbrev main_v390 : Ref sig .tc := ⟨.hbm, 469, rfl⟩
abbrev main_v391 : Ref sig .tc := ⟨.hbm, 470, rfl⟩
abbrev main_call8_cst : Ref sig .tc := ⟨.hbm, 471, rfl⟩
abbrev main_call8_v0 : Ref sig .tc := ⟨.hbm, 472, rfl⟩
abbrev main_v392 : Ref sig .tc := ⟨.hbm, 473, rfl⟩
abbrev main_v393 : Ref sig .tc := ⟨.hbm, 474, rfl⟩
abbrev main_v394 : Ref sig .tc := ⟨.hbm, 475, rfl⟩
abbrev main_cst_44 : Ref sig .tc := ⟨.hbm, 476, rfl⟩
abbrev main_v395 : Ref sig .tc := ⟨.hbm, 477, rfl⟩
abbrev main_v396 : Ref sig .tc := ⟨.hbm, 478, rfl⟩
abbrev main_v397 : Ref sig .tc := ⟨.hbm, 479, rfl⟩
abbrev main_cst_45 : Ref sig .tc := ⟨.hbm, 480, rfl⟩
abbrev main_v398 : Ref sig .tc := ⟨.hbm, 481, rfl⟩
abbrev main_v399 : Ref sig .tc := ⟨.hbm, 482, rfl⟩
abbrev main_v400 : Ref sig .tc := ⟨.hbm, 483, rfl⟩
abbrev main_v401 : Ref sig .tc := ⟨.hbm, 484, rfl⟩
abbrev main_v402 : Ref sig .tc := ⟨.hbm, 485, rfl⟩
abbrev main_v403 : Ref sig .tc := ⟨.hbm, 486, rfl⟩
abbrev main_v404 : Ref sig .tc := ⟨.hbm, 487, rfl⟩
abbrev main_v405 : Ref sig .tc := ⟨.hbm, 488, rfl⟩
abbrev main_v406 : Ref sig .tc := ⟨.hbm, 489, rfl⟩
abbrev main_v407 : Ref sig .tc := ⟨.hbm, 490, rfl⟩
abbrev main_v408 : Ref sig .tc := ⟨.hbm, 491, rfl⟩
abbrev main_v409 : Ref sig .tc := ⟨.hbm, 492, rfl⟩
abbrev main_v410 : Ref sig .tc := ⟨.hbm, 493, rfl⟩
abbrev main_v411 : Ref sig .tc := ⟨.hbm, 494, rfl⟩
abbrev main_v412 : Ref sig .tc := ⟨.hbm, 495, rfl⟩
abbrev main_v413 : Ref sig .tc := ⟨.hbm, 496, rfl⟩
abbrev main_v414 : Ref sig .tc := ⟨.hbm, 497, rfl⟩
abbrev main_v415 : Ref sig .tc := ⟨.hbm, 498, rfl⟩
abbrev main_v416 : Ref sig .tc := ⟨.hbm, 499, rfl⟩
abbrev main_v417 : Ref sig .tc := ⟨.hbm, 500, rfl⟩
abbrev main_v418 : Ref sig .tc := ⟨.hbm, 501, rfl⟩
abbrev main_v419 : Ref sig .tc := ⟨.hbm, 502, rfl⟩
abbrev main_v420 : Ref sig .tc := ⟨.hbm, 503, rfl⟩
abbrev main_v421 : Ref sig .tc := ⟨.hbm, 504, rfl⟩
abbrev main_v422 : Ref sig .tc := ⟨.hbm, 505, rfl⟩
abbrev main_v423 : Ref sig .tc := ⟨.hbm, 506, rfl⟩
abbrev main_v424 : Ref sig .tc := ⟨.hbm, 507, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x256_d1 : Shape.Concatenates [S400000x128, S400000x128] S400000x256 1
  slices_S3x128x256_S1x128x256_0_0_0 : S3x128x256.Slices ![0, 0, 0] S1x128x256
  shapeCasts_S1x128x256_S128x256 : S1x128x256.ShapeCasts S128x256
  transposes_S128x256_S256x128_1_0 : S128x256.Transposes [1, 0] S256x128
  slices_S3x128_S1x128_0_0 : S3x128.Slices ![0, 0] S1x128
  shapeCasts_S1x128_S128 : S1x128.ShapeCasts S128
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  slices_S3x1x128_S1x1x128_0_0_0 : S3x1x128.Slices ![0, 0, 0] S1x1x128
  shapeCasts_S1x1x128_S1x128 : S1x1x128.ShapeCasts S1x128
  transposes_S1x128_S128x1_1_0 : S1x128.Transposes [1, 0] S128x1
  slices_S3x1_S1x1_0_0 : S3x1.Slices ![0, 0] S1x1
  shapeCasts_S1x1_S1 : S1x1.ShapeCasts S1
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  shapeCasts_S400000x1_S400000 : S400000x1.ShapeCasts S400000
  bcast_S_S50000 : S_.BroadcastsInDim S50000 (![] : Fin 0 → Fin S50000.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S400000x1_S400000x128_0_1 : S400000x1.BroadcastsInDim S400000x128 (![0, 1] : Fin 2 → Fin S400000x128.rank)
  slices_S3x128x256_S1x128x256_1_0_0 : S3x128x256.Slices ![1, 0, 0] S1x128x256
  slices_S3x128_S1x128_1_0 : S3x128.Slices ![1, 0] S1x128
  slices_S3x1x128_S1x1x128_1_0_0 : S3x1x128.Slices ![1, 0, 0] S1x1x128
  slices_S3x1_S1x1_1_0 : S3x1.Slices ![1, 0] S1x1
  slices_S3x128x128_S1x128x128_1_0_0 : S3x128x128.Slices ![1, 0, 0] S1x128x128
  slices_S3x128x256_S1x128x256_2_0_0 : S3x128x256.Slices ![2, 0, 0] S1x128x256
  slices_S3x128_S1x128_2_0 : S3x128.Slices ![2, 0] S1x128
  slices_S3x1x128_S1x1x128_2_0_0 : S3x1x128.Slices ![2, 0, 0] S1x1x128
  slices_S3x1_S1x1_2_0 : S3x1.Slices ![2, 0] S1x1
  slices_S3x128x128_S1x128x128_2_0_0 : S3x128x128.Slices ![2, 0, 0] S1x128x128
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  gather_S50000x128_S400000x1_S400000x128_1_0_n_n_0_1_1128_wf : GatherDims.WF S50000x128 S400000x1 S400000x128 [1] [0] [] [0] [] 1 ![1, 128]
  dot_S400000x256_S256x128_S400000x128_1_0_0_1_n_n_wf : DotDims.WF S400000x256 S256x128 S400000x128 [1] [0] [0] [1] [] []
  dot_S400000x128_S128x1_S400000x1_1_0_0_1_n_n_wf : DotDims.WF S400000x128 S128x1 S400000x1 [1] [0] [0] [1] [] []
  scatter_S50000_S400000x1_S400000_n_0_0_1_wf : ScatterDims.WF S50000 S400000x1 S400000 [] [0] [0] 1
  scatter_S50000x128_S400000x1_S400000x128_1_0_0_1_wf : ScatterDims.WF S50000x128 S400000x1 S400000x128 [1] [0] [0] 1
  dot_S50000x128_S128x64_S50000x64_1_0_0_1_n_n_wf : DotDims.WF S50000x128 S128x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x256_S256x128_S400000x128_1_0_0_1_n_n : DotDims S400000x256 S256x128 S400000x128 where
  lhsContracting := [1]
  rhsContracting := [0]
  lhsNonContracting := [0]
  rhsNonContracting := [1]
  lhsBatch := []
  rhsBatch := []
  wf := dot_S400000x256_S256x128_S400000x128_1_0_0_1_n_n_wf
def dot_S400000x128_S128x1_S400000x1_1_0_0_1_n_n : DotDims S400000x128 S128x1 S400000x1 where
  lhsContracting := [1]
  rhsContracting := [0]
  lhsNonContracting := [0]
  rhsNonContracting := [1]
  lhsBatch := []
  rhsBatch := []
  wf := dot_S400000x128_S128x1_S400000x1_1_0_0_1_n_n_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The mathematics of the three kinds of kernel of this network, as functions of whole arrays at the
  extended reals, index by index.

  * a linear layer: row `n` of the result is `x[n,:] · w[o,:] + b[o]` for every output feature `o`
    (the weight is stored output-major, so no transpose appears), optionally followed by `max · 0` or `tanh`;
  * the edge resistance: for edge `e`, with the two gathered endpoint rows laid side by side,
    the absolute value of `Σ_j max(Σ_k [xs[e,:], xd[e,:]](k) · w1[j,k] + b1[j], 0) · w2[0,j] + b2[0]`;
  * the node update: `v' = v − ε·((deg·f − scat) + diss·v)` and `x' = x + ε·v'`, elementwise, the degree
    a column broadcast along the features, `ε` the binary32 number nearest one hundredth.
-/
import Idealize.ShloMosaic.PureOps.Ideal
import Idealize.ShloMosaic.Lib.ValueIdx

noncomputable section

namespace Cert.Spec

open Idealize.ShloMosaic Idealize.ShloMosaic.ValueIdx

/-- Arrays of extended reals over a literal shape. -/
abbrev Arr (s : Shape) : Type := s.Idx → EReal

abbrev N128 : Shape := ⟨2, ![50000, 128]⟩
abbrev N64 : Shape := ⟨2, ![50000, 64]⟩
abbrev N1 : Shape := ⟨2, ![50000, 1]⟩
abbrev E128 : Shape := ⟨2, ![400000, 128]⟩
abbrev E1 : Shape := ⟨2, ![400000, 1]⟩
abbrev W128 : Shape := ⟨2, ![128, 128]⟩
abbrev W256 : Shape := ⟨2, ![128, 256]⟩
abbrev W64 : Shape := ⟨2, ![64, 128]⟩
abbrev R128 : Shape := ⟨2, ![1, 128]⟩
abbrev B128 : Shape := ⟨1, ![128]⟩
abbrev B64 : Shape := ⟨1, ![64]⟩
abbrev B1 : Shape := ⟨1, ![1]⟩

/-- The step size of the update: the binary32 number nearest 0.01, read exactly. -/
def eps : EReal := Ideal.ofBits .f32 0x3C23D70A#32

/-- A linear layer with output-major weights: `y[n,o] = Σ_k x[n,k]·w[o,k] + b[o]`. -/
def lin (x : Arr N128) (w : Arr W128) (b : Arr B128) : Arr N128 :=
  fun i => (∑ k : Fin 128, x (ix2 (i 0 : Fin 50000) k) * w (ix2 (i 1 : Fin 128) k)) + b (ix1 (i 1 : Fin 128))

/-- The linear layer followed by `max · 0`. -/
def linRelu (x : Arr N128) (w : Arr W128) (b : Arr B128) : Arr N128 :=
  fun i => max (lin x w b i) 0

/-- The linear layer followed by the hyperbolic tangent. -/
def linTanh (x : Arr N128) (w : Arr W128) (b : Arr B128) : Arr N128 :=
  fun i => Ideal.tanh (lin x w b i)

/-- The read-out layer, 128 features to 64: `y[n,o] = Σ_k x[n,k]·w[o,k] + b[o]`. -/
def lin64 (x : Arr N128) (w : Arr W64) (b : Arr B64) : Arr N64 :=
  fun i => (∑ k : Fin 128, x (ix2 (i 0 : Fin 50000) k) * w (ix2 (i 1 : Fin 64) k)) + b (ix1 (i 1 : Fin 64))

/-- The hidden layer of the edge network at edge `e`, feature `j`: the two endpoint rows side by side against
    row `j` of the 128×256 weight, plus the bias, clipped below at zero. -/
def edgeHidden (xs xd : Arr E128) (w1 : Arr W256) (b1 : Arr B128) (e : Fin 400000) (j : Fin 128) : EReal :=
  max (((∑ k : Fin 128, xs (ix2 e k) * w1 (ix2 j (Fin.castLE (by decide : 128 ≤ 256) k)))
        + ∑ k : Fin 128, xd (ix2 e k) * w1 (ix2 j ⟨128 + k.val, by omega⟩)) + b1 (ix1 j)) 0

/-- The edge resistance, a column: the absolute value `max s (−s)` of `s = Σ_j hidden[e,j]·w2[0,j] + b2[0]`. -/
def edge (xs xd : Arr E128) (w1 : Arr W256) (b1 : Arr B128) (w2 : Arr R128) (b2 : Arr B1) : Arr E1 :=
  fun i =>
    let s := (∑ j : Fin 128, edgeHidden xs xd w1 b1 (i 0 : Fin 400000) j * w2 (ix2 (0 : Fin 1) j)) + b2 (ix1 (0 : Fin 1))
    max s (-s)

/-- The velocity update: `v − ε·((deg·f − scat) + diss·v)`. -/
def nodeV (v f diss : Arr N128) (deg : Arr N1) (scat : Arr N128) : Arr N128 :=
  fun i => v i - eps * ((deg (ix2 (i 0 : Fin 50000) (0 : Fin 1)) * f i - scat i) + diss i * v i)

/-- The position update: `x + ε·v'`. -/
def nodeX (x v f diss : Arr N128) (deg : Arr N1) (scat : Arr N128) : Arr N128 :=
  fun i => x i + eps * nodeV v f diss deg scat i

end Cert.Spec

end
-- ==== Proof.Model.lean ====
/-
  The network as ONE straight-line sequence of named array values of the seventeen argument arrays, at the
  extended reals: the embedding; then three blocks, each computing the edge resistances from the gathered
  endpoint features, the weighted degrees (a scatter-add of the resistances at the source nodes), two
  Laplacian/dissipation updates of (features, velocity) starting from zero velocity — each update a linear
  map of the features, a clipped linear map, a scatter-add at the destination nodes of the gathered rows
  scaled by the resistances, and the elementwise update —, and a two-layer perceptron; then the read-out.
  The gathers and scatter-adds are the host operations themselves, applied to the same index columns in both
  programs; the dense pieces are the functions of Spec.lean. Both programs are shown to end at `OUT`.
-/
import proofs.«107783_j24189255811079_1_alg».proof.KernelIdeal
import proofs.«107783_j24189255811079_1_alg».proof.Proof.Spec

noncomputable section

namespace Cert.Model

open Idealize.ShloMosaic Cert.KernelIdeal Cert.Spec

variable [Cert.KernelIdeal.Facts]
open Cert.KernelIdeal.Facts₀ Cert.KernelIdeal.Facts

/-- The seventeen argument arrays. -/
structure Args where
  a0 : (⟨S50000x128, .f32⟩ : BufTy).Contents (Elt Ideal)
  a1 : (⟨S2x400000, .i32⟩ : BufTy).Contents (Elt Ideal)
  a2 : (⟨S128x128, .f32⟩ : BufTy).Contents (Elt Ideal)
  a3 : (⟨S128, .f32⟩ : BufTy).Contents (Elt Ideal)
  a4 : (⟨S3x128x128, .f32⟩ : BufTy).Contents (Elt Ideal)
  a5 : (⟨S3x128x256, .f32⟩ : BufTy).Contents (Elt Ideal)
  a6 : (⟨S3x128, .f32⟩ : BufTy).Contents (Elt Ideal)
  a7 : (⟨S3x1x128, .f32⟩ : BufTy).Contents (Elt Ideal)
  a8 : (⟨S3x1, .f32⟩ : BufTy).Contents (Elt Ideal)
  a9 : (⟨S3x128x128, .f32⟩ : BufTy).Contents (Elt Ideal)
  a10 : (⟨S3x128, .f32⟩ : BufTy).Contents (Elt Ideal)
  a11 : (⟨S3x128x128, .f32⟩ : BufTy).Contents (Elt Ideal)
  a12 : (⟨S3x128, .f32⟩ : BufTy).Contents (Elt Ideal)
  a13 : (⟨S3x128x128, .f32⟩ : BufTy).Contents (Elt Ideal)
  a14 : (⟨S3x128, .f32⟩ : BufTy).Contents (Elt Ideal)
  a15 : (⟨S64x128, .f32⟩ : BufTy).Contents (Elt Ideal)
  a16 : (⟨S64, .f32⟩ : BufTy).Contents (Elt Ideal)

/-- A row of edge endpoints: 400000 node numbers. -/
abbrev IdxE : Type := (⟨S400000, .i32⟩ : BufTy).Contents (Elt Ideal)
abbrev IdxE1 : Type := (⟨S400000x1, .i32⟩ : BufTy).Contents (Elt Ideal)

/-- The source nodes: row 0 of the edge list. -/
def src (A : Args) : IdxE := fun i => shapeCast S400000 (extractStridedSlice S1x400000 ![0, 0] A.a1 slices_S2x400000_S1x400000_0_0) shapeCasts_S1x400000_S400000 i
/-- The destination nodes: row 1 of the edge list. -/
def dst (A : Args) : IdxE := fun i => shapeCast S400000 (extractStridedSlice S1x400000 ![1, 0] A.a1 slices_S2x400000_S1x400000_1_0) shapeCasts_S1x400000_S400000 i

/-- Node numbers as a gather's index column: a negative number counts from the end (50000 is added). -/
def normIdx (s : IdxE) : IdxE1 :=
  broadcastInDim S400000x1 ![0] bcast_S400000_S400000x1_0
    (select (cmpi .slt s (broadcastInDim S400000 ![] bcast_S_S400000 (constantI S_ 32 0#32)))
      (addi s (broadcastInDim S400000 ![] bcast_S_S400000 (constantI S_ 32 50000#32))) s)
/-- Node numbers as a scatter's index column. -/
def colIdx (s : IdxE) : IdxE1 := broadcastInDim S400000x1 ![0] bcast_S400000_S400000x1_0 s

/-- The rows of a node array at the given nodes, one per edge. -/
def gatherRows (x : Arr N128) (s : IdxE) : Arr E128 :=
  Host.gather (α := EReal) gather_S50000x128_S400000x1_S400000x128_1_0_n_n_0_1_1128 x (normIdx s)

def zerosB128 : Arr B128 := broadcastInDim (α := EReal) S128 ![] bcast_S_S128 (constant (F := Ideal) S_ .f32 0x00000000#32 : FVec Ideal S_ .f32)
def zerosN1 : Arr N1 := broadcastInDim (α := EReal) S50000x1 ![] bcast_S_S50000x1 (constant (F := Ideal) S_ .f32 0x00000000#32 : FVec Ideal S_ .f32)
def zerosN128 : Arr N128 := broadcastInDim (α := EReal) S50000x128 ![] bcast_S_S50000x128 (constant (F := Ideal) S_ .f32 0x00000000#32 : FVec Ideal S_ .f32)

/-- The weighted degree column: every edge's resistance added at its source node. -/
def degOf (r : Arr E1) (s : IdxE) : Arr N1 :=
  Host.scatterAdd (F := Ideal) (φ := .f32) scatter_S50000x1_S400000x1_S400000x1_1_0_0_1 zerosN1 (colIdx s) r
/-- The neighbour sum: every edge's source row of `f`, scaled by the edge's resistance, added at its destination node. -/
def scatOf (f : Arr N128) (r : Arr E1) (s d : IdxE) : Arr N128 :=
  Host.scatterAdd (F := Ideal) (φ := .f32) scatter_S50000x128_S400000x1_S400000x128_1_0_0_1 zerosN128 (colIdx d)
    (mulf (F := Ideal) (φ := .f32) (gatherRows f s) (broadcastInDim (α := EReal) S400000x128 ![0, 1] bcast_S400000x1_S400000x128_0_1 r))

/-- One update's new velocity. -/
def stepV (x v : Arr N128) (r : Arr E1) (dg : Arr N1) (s d : IdxE) (lapw dissw : Arr W128) (dissb : Arr B128) : Arr N128 :=
  nodeV v (lin x lapw zerosB128) (linRelu x dissw dissb) dg (scatOf (lin x lapw zerosB128) r s d)
/-- One update's new features. -/
def stepX (x v : Arr N128) (r : Arr E1) (dg : Arr N1) (s d : IdxE) (lapw dissw : Arr W128) (dissb : Arr B128) : Arr N128 :=
  nodeX x v (lin x lapw zerosB128) (linRelu x dissw dissb) dg (scatOf (lin x lapw zerosB128) r s d)

/-- The embedding. -/
def XIN_0 (A : Args) : Arr N128 := lin A.a0 A.a2 A.a3

/-! ### Block 0 -/

def w1_0 (A : Args) : Arr W256 := fun i => shapeCast S128x256 (extractStridedSlice S1x128x256 ![0, 0, 0] A.a5 slices_S3x128x256_S1x128x256_0_0_0) shapeCasts_S1x128x256_S128x256 i
def b1_0 (A : Args) : Arr B128 := fun i => shapeCast S128 (extractStridedSlice S1x128 ![0, 0] A.a6 slices_S3x128_S1x128_0_0) shapeCasts_S1x128_S128 i
def w2_0 (A : Args) : Arr R128 := fun i => shapeCast S1x128 (extractStridedSlice S1x1x128 ![0, 0, 0] A.a7 slices_S3x1x128_S1x1x128_0_0_0) shapeCasts_S1x1x128_S1x128 i
def b2_0 (A : Args) : Arr B1 := fun i => shapeCast S1 (extractStridedSlice S1x1 ![0, 0] A.a8 slices_S3x1_S1x1_0_0) shapeCasts_S1x1_S1 i
def lapw_0 (A : Args) : Arr W128 := fun i => shapeCast S128x128 (extractStridedSlice S1x128x128 ![0, 0, 0] A.a4 slices_S3x128x128_S1x128x128_0_0_0) shapeCasts_S1x128x128_S128x128 i
def dissw_0 (A : Args) : Arr W128 := fun i => shapeCast S128x128 (extractStridedSlice S1x128x128 ![0, 0, 0] A.a9 slices_S3x128x128_S1x128x128_0_0_0) shapeCasts_S1x128x128_S128x128 i
def dissb_0 (A : Args) : Arr B128 := fun i => shapeCast S128 (extractStridedSlice S1x128 ![0, 0] A.a10 slices_S3x128_S1x128_0_0) shapeCasts_S1x128_S128 i
def m1w_0 (A : Args) : Arr W128 := fun i => shapeCast S128x128 (extractStridedSlice S1x128x128 ![0, 0, 0] A.a11 slices_S3x128x128_S1x128x128_0_0_0) shapeCasts_S1x128x128_S128x128 i
def m1b_0 (A : Args) : Arr B128 := fun i => shapeCast S128 (extractStridedSlice S1x128 ![0, 0] A.a12 slices_S3x128_S1x128_0_0) shapeCasts_S1x128_S128 i
def m2w_0 (A : Args) : Arr W128 := fun i => shapeCast S128x128 (extractStridedSlice S1x128x128 ![0, 0, 0] A.a13 slices_S3x128x128_S1x128x128_0_0_0) shapeCasts_S1x128x128_S128x128 i
def m2b_0 (A : Args) : Arr B128 := fun i => shapeCast S128 (extractStridedSlice S1x128 ![0, 0] A.a14 slices_S3x128_S1x128_0_0) shapeCasts_S1x128_S128 i

/-- The edge resistances of block 0, from the features the block starts with. -/
def R_0 (A : Args) : Arr E1 := edge (gatherRows (XIN_0 A) (src A)) (gatherRows (XIN_0 A) (dst A)) (w1_0 A) (b1_0 A) (w2_0 A) (b2_0 A)
/-- The weighted degrees of block 0. -/
def D_0 (A : Args) : Arr N1 := degOf (R_0 A) (src A)
/-- After the first update of block 0 (the velocity starts at zero). -/
def X1_0 (A : Args) : Arr N128 := stepX (XIN_0 A) zerosN128 (R_0 A) (D_0 A) (src A) (dst A) (lapw_0 A) (dissw_0 A) (dissb_0 A)
def V1_0 (A : Args) : Arr N128 := stepV (XIN_0 A) zerosN128 (R_0 A) (D_0 A) (src A) (dst A) (lapw_0 A) (dissw_0 A) (dissb_0 A)
/-- After the second update of block 0. -/
def X2_0 (A : Args) : Arr N128 := stepX (X1_0 A) (V1_0 A) (R_0 A) (D_0 A) (src A) (dst A) (lapw_0 A) (dissw_0 A) (dissb_0 A)
def V2_0 (A : Args) : Arr N128 := stepV (X1_0 A) (V1_0 A) (R_0 A) (D_0 A) (src A) (dst A) (lapw_0 A) (dissw_0 A) (dissb_0 A)
/-- The block's two-layer perceptron. -/
def H_0 (A : Args) : Arr N128 := linTanh (X2_0 A) (m1w_0 A) (m1b_0 A)
def XOUT_0 (A : Args) : Arr N128 := lin (H_0 A) (m2w_0 A) (m2b_0 A)

def XIN_1 (A : Args) : Arr N128 := XOUT_0 A

/-! ### Block 1 -/

def w1_1 (A : Args) : Arr W256 := fun i => shapeCast S128x256 (extractStridedSlice S1x128x256 ![1, 0, 0] A.a5 slices_S3x128x256_S1x128x256_1_0_0) shapeCasts_S1x128x256_S128x256 i
def b1_1 (A : Args) : Arr B128 := fun i => shapeCast S128 (extractStridedSlice S1x128 ![1, 0] A.a6 slices_S3x128_S1x128_1_0) shapeCasts_S1x128_S128 i
def w2_1 (A : Args) : Arr R128 := fun i => shapeCast S1x128 (extractStridedSlice S1x1x128 ![1, 0, 0] A.a7 slices_S3x1x128_S1x1x128_1_0_0) shapeCasts_S1x1x128_S1x128 i
def b2_1 (A : Args) : Arr B1 := fun i => shapeCast S1 (extractStridedSlice S1x1 ![1, 0] A.a8 slices_S3x1_S1x1_1_0) shapeCasts_S1x1_S1 i
def lapw_1 (A : Args) : Arr W128 := fun i => shapeCast S128x128 (extractStridedSlice S1x128x128 ![1, 0, 0] A.a4 slices_S3x128x128_S1x128x128_1_0_0) shapeCasts_S1x128x128_S128x128 i
def dissw_1 (A : Args) : Arr W128 := fun i => shapeCast S128x128 (extractStridedSlice S1x128x128 ![1, 0, 0] A.a9 slices_S3x128x128_S1x128x128_1_0_0) shapeCasts_S1x128x128_S128x128 i
def dissb_1 (A : Args) : Arr B128 := fun i => shapeCast S128 (extractStridedSlice S1x128 ![1, 0] A.a10 slices_S3x128_S1x128_1_0) shapeCasts_S1x128_S128 i
def m1w_1 (A : Args) : Arr W128 := fun i => shapeCast S128x128 (extractStridedSlice S1x128x128 ![1, 0, 0] A.a11 slices_S3x128x128_S1x128x128_1_0_0) shapeCasts_S1x128x128_S128x128 i
def m1b_1 (A : Args) : Arr B128 := fun i => shapeCast S128 (extractStridedSlice S1x128 ![1, 0] A.a12 slices_S3x128_S1x128_1_0) shapeCasts_S1x128_S128 i
def m2w_1 (A : Args) : Arr W128 := fun i => shapeCast S128x128 (extractStridedSlice S1x128x128 ![1, 0, 0] A.a13 slices_S3x128x128_S1x128x128_1_0_0) shapeCasts_S1x128x128_S128x128 i
def m2b_1 (A : Args) : Arr B128 := fun i => shapeCast S128 (extractStridedSlice S1x128 ![1, 0] A.a14 slices_S3x128_S1x128_1_0) shapeCasts_S1x128_S128 i

/-- The edge resistances of block 1, from the features the block starts with. -/
def R_1 (A : Args) : Arr E1 := edge (gatherRows (XIN_1 A) (src A)) (gatherRows (XIN_1 A) (dst A)) (w1_1 A) (b1_1 A) (w2_1 A) (b2_1 A)
/-- The weighted degrees of block 1. -/
def D_1 (A : Args) : Arr N1 := degOf (R_1 A) (src A)
/-- After the first update of block 1 (the velocity starts at zero). -/
def X1_1 (A : Args) : Arr N128 := stepX (XIN_1 A) zerosN128 (R_1 A) (D_1 A) (src A) (dst A) (lapw_1 A) (dissw_1 A) (dissb_1 A)
def V1_1 (A : Args) : Arr N128 := stepV (XIN_1 A) zerosN128 (R_1 A) (D_1 A) (src A) (dst A) (lapw_1 A) (dissw_1 A) (dissb_1 A)
/-- After the second update of block 1. -/
def X2_1 (A : Args) : Arr N128 := stepX (X1_1 A) (V1_1 A) (R_1 A) (D_1 A) (src A) (dst A) (lapw_1 A) (dissw_1 A) (dissb_1 A)
def V2_1 (A : Args) : Arr N128 := stepV (X1_1 A) (V1_1 A) (R_1 A) (D_1 A) (src A) (dst A) (lapw_1 A) (dissw_1 A) (dissb_1 A)
/-- The block's two-layer perceptron. -/
def H_1 (A : Args) : Arr N128 := linTanh (X2_1 A) (m1w_1 A) (m1b_1 A)
def XOUT_1 (A : Args) : Arr N128 := lin (H_1 A) (m2w_1 A) (m2b_1 A)

def XIN_2 (A : Args) : Arr N128 := XOUT_1 A

/-! ### Block 2 -/

def w1_2 (A : Args) : Arr W256 := fun i => shapeCast S128x256 (extractStridedSlice S1x128x256 ![2, 0, 0] A.a5 slices_S3x128x256_S1x128x256_2_0_0) shapeCasts_S1x128x256_S128x256 i
def b1_2 (A : Args) : Arr B128 := fun i => shapeCast S128 (extractStridedSlice S1x128 ![2, 0] A.a6 slices_S3x128_S1x128_2_0) shapeCasts_S1x128_S128 i
def w2_2 (A : Args) : Arr R128 := fun i => shapeCast S1x128 (extractStridedSlice S1x1x128 ![2, 0, 0] A.a7 slices_S3x1x128_S1x1x128_2_0_0) shapeCasts_S1x1x128_S1x128 i
def b2_2 (A : Args) : Arr B1 := fun i => shapeCast S1 (extractStridedSlice S1x1 ![2, 0] A.a8 slices_S3x1_S1x1_2_0) shapeCasts_S1x1_S1 i
def lapw_2 (A : Args) : Arr W128 := fun i => shapeCast S128x128 (extractStridedSlice S1x128x128 ![2, 0, 0] A.a4 slices_S3x128x128_S1x128x128_2_0_0) shapeCasts_S1x128x128_S128x128 i
def dissw_2 (A : Args) : Arr W128 := fun i => shapeCast S128x128 (extractStridedSlice S1x128x128 ![2, 0, 0] A.a9 slices_S3x128x128_S1x128x128_2_0_0) shapeCasts_S1x128x128_S128x128 i
def dissb_2 (A : Args) : Arr B128 := fun i => shapeCast S128 (extractStridedSlice S1x128 ![2, 0] A.a10 slices_S3x128_S1x128_2_0) shapeCasts_S1x128_S128 i
def m1w_2 (A : Args) : Arr W128 := fun i => shapeCast S128x128 (extractStridedSlice S1x128x128 ![2, 0, 0] A.a11 slices_S3x128x128_S1x128x128_2_0_0) shapeCasts_S1x128x128_S128x128 i
def m1b_2 (A : Args) : Arr B128 := fun i => shapeCast S128 (extractStridedSlice S1x128 ![2, 0] A.a12 slices_S3x128_S1x128_2_0) shapeCasts_S1x128_S128 i
def m2w_2 (A : Args) : Arr W128 := fun i => shapeCast S128x128 (extractStridedSlice S1x128x128 ![2, 0, 0] A.a13 slices_S3x128x128_S1x128x128_2_0_0) shapeCasts_S1x128x128_S128x128 i
def m2b_2 (A : Args) : Arr B128 := fun i => shapeCast S128 (extractStridedSlice S1x128 ![2, 0] A.a14 slices_S3x128_S1x128_2_0) shapeCasts_S1x128_S128 i

/-- The edge resistances of block 2, from the features the block starts with. -/
def R_2 (A : Args) : Arr E1 := edge (gatherRows (XIN_2 A) (src A)) (gatherRows (XIN_2 A) (dst A)) (w1_2 A) (b1_2 A) (w2_2 A) (b2_2 A)
/-- The weighted degrees of block 2. -/
def D_2 (A : Args) : Arr N1 := degOf (R_2 A) (src A)
/-- After the first update of block 2 (the velocity starts at zero). -/
def X1_2 (A : Args) : Arr N128 := stepX (XIN_2 A) zerosN128 (R_2 A) (D_2 A) (src A) (dst A) (lapw_2 A) (dissw_2 A) (dissb_2 A)
def V1_2 (A : Args) : Arr N128 := stepV (XIN_2 A) zerosN128 (R_2 A) (D_2 A) (src A) (dst A) (lapw_2 A) (dissw_2 A) (dissb_2 A)
/-- After the second update of block 2. -/
def X2_2 (A : Args) : Arr N128 := stepX (X1_2 A) (V1_2 A) (R_2 A) (D_2 A) (src A) (dst A) (lapw_2 A) (dissw_2 A) (dissb_2 A)
def V2_2 (A : Args) : Arr N128 := stepV (X1_2 A) (V1_2 A) (R_2 A) (D_2 A) (src A) (dst A) (lapw_2 A) (dissw_2 A) (dissb_2 A)
/-- The block's two-layer perceptron. -/
def H_2 (A : Args) : Arr N128 := linTanh (X2_2 A) (m1w_2 A) (m1b_2 A)
def XOUT_2 (A : Args) : Arr N128 := lin (H_2 A) (m2w_2 A) (m2b_2 A)

/-- The read-out: what both programs return. -/
def OUT (A : Args) : Arr N64 := lin64 (XOUT_2 A) A.a15 A.a16

end Cert.Model

end
-- ==== Proof.LinPay.lean ====
/-
  The arithmetic of a linear kernel's body at one element of its output block.

  The body transposes the weight block, multiplies the row block by it into a zero accumulator, and adds
  the bias laid along every row; so at row `p`, feature `q` it holds `Σ_k x[p,k]·w[q,k] + b[q]`: the weight is
  read at `(q,k)` because the transposed weight at `(k,q)` is the weight at `(q,k)`. Some bodies then take the
  maximum with zero or the hyperbolic tangent, elementwise. Shape casts of a block to its own shape change
  nothing. The last kernel has 64 output features instead of 128; its arithmetic is the same.
-/
import proofs.«107783_j24189255811079_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.Lin

open Idealize.ShloMosaic Idealize.ShloMosaic.ValueIdx Cert.KernelIdeal Cert.KernelIdeal.Gen

/-! ## Small facts shared by the modules about the linear kernels -/

/-- The zero offsets of a rank-2 block, however they are spelt. -/
theorem hz2 : (![0, 0] : Fin 2 → Nat) = fun _ => 0 := funext fun a => by fin_cases a <;> rfl

/-- The zero offset of a rank-1 block. -/
theorem hz1 : (![0] : Fin 1 → Nat) = fun _ => 0 := funext fun a => by fin_cases a; rfl

/-- The zero bias array the program builds on the host (a scalar zero broadcast to 128 features) reads `0`
    everywhere. -/
theorem lin_zero_bias :
    (broadcastInDim S128 ![] bcast_S_S128 (constant (F := Ideal) S_ .f32 0x00000000#32) : FVec Ideal S128 .f32)
      = fun _ => 0 :=
  funext fun _ => Ideal.ofBits_zero_f32

/-! ## 128 output features -/

/-- The transposed weight at `(k, q)` is the weight at `(q, k)`. -/
theorem transpose_w (w : Vec Ideal S128x128 .f32) (k q : Fin 128) :
    transpose S128x128 [1, 0] w transposes_S128x128_p1_0_S128x128 (ix2 k q) = w (ix2 q k) :=
  transpose_apply [1, 0] w transposes_S128x128_p1_0_S128x128 (ix2 k q) (ix2 q k)
    (fun b => match b with | ⟨0, _⟩ => rfl | ⟨1, _⟩ => rfl)

/-- The block product into the zero accumulator at `(p, q)`: the sum over the shared axis of the products. -/
theorem matmul_at (x : FVec Ideal S2000x128 .f32) (wt : FVec Ideal S128x128 .f32) (p : Fin 2000) (q : Fin 128) :
    matmul dot_S2000x128_S128x128_S2000x128_1_0_0_1_n_n none x wt (constant S2000x128 .f32 0x00000000#32) (ix2 p q)
      = ∑ k : Fin 128, x (ix2 p k) * wt (ix2 k q) := by
  simp only [matmul]
  rw [Ideal.matmul_constant_zero_apply]
  rw [← Equiv.sum_comp (contrEquiv1 dot_S2000x128_S128x128_S2000x128_1_0_0_1_n_n 128 rfl rfl).symm]
  refine Finset.sum_congr rfl fun k _ => ?_
  have hl : dot_S2000x128_S128x128_S2000x128_1_0_0_1_n_n.lhsIdx (ix2 p q)
      ((contrEquiv1 dot_S2000x128_S128x128_S2000x128_1_0_0_1_n_n 128 rfl rfl).symm k) = ix2 p k := by
    funext a; apply Fin.ext
    match a with
    | ⟨0, _⟩ => rfl
    | ⟨1, _⟩ =>
      exact (DotDims.lhsIdx_val_of_single _ (cl := (1 : Fin 2)) rfl _ _).trans
        (contrEquiv1_symm_val dot_S2000x128_S128x128_S2000x128_1_0_0_1_n_n 128 rfl rfl k)
  have hr : dot_S2000x128_S128x128_S2000x128_1_0_0_1_n_n.rhsIdx (ix2 p q)
      ((contrEquiv1 dot_S2000x128_S128x128_S2000x128_1_0_0_1_n_n 128 rfl rfl).symm k) = ix2 k q := by
    funext a; apply Fin.ext
    match a with
    | ⟨0, _⟩ =>
      exact (DotDims.rhsIdx_val_of_single _ (cr := (0 : Fin 2)) rfl _ _).trans
        (contrEquiv1_symm_val dot_S2000x128_S128x128_S2000x128_1_0_0_1_n_n 128 rfl rfl k)
    | ⟨1, _⟩ => rfl
  rw [hl, hr]

/-- The bias laid along every row, at `(p, q)`, is the bias at `q`. -/
theorem bias_at (b : Vec Ideal S128 .f32) (p : Fin 2000) (q : Fin 128) :
    broadcastTo S2000x128 (shapeCast S1x128 b shapeCasts_S128_S1x128) broadcasts_S1x128_S2000x128 (ix2 p q) = b (ix1 q) := by
  refine (broadcastTo_apply _ broadcasts_S1x128_S2000x128 (ix2 p q) (ix2 (0 : Fin 1) q)
    (fun a => match a with | ⟨0, _⟩ => rfl | ⟨1, _⟩ => rfl)).trans ?_
  refine shapeCast_apply b shapeCasts_S128_S1x128 (ix2 (0 : Fin 1) q) (ix1 q) ?_
  rw [Shape.rowMajor_val_one, Shape.rowMajor_val_two]
  show q.val = 0 * 128 + q.val
  omega

/-- The common core of the bodies: product with the transposed weight plus the bias, at `(p, q)`. -/
theorem core_at (x : FVec Ideal S2000x128 .f32) (w : FVec Ideal S128x128 .f32) (b : FVec Ideal S128 .f32)
    (p : Fin 2000) (q : Fin 128) :
    (addf (matmul dot_S2000x128_S128x128_S2000x128_1_0_0_1_n_n none x
        (transpose S128x128 [1, 0] w transposes_S128x128_p1_0_S128x128) (constant S2000x128 .f32 0x00000000#32))
      (broadcastTo S2000x128 (shapeCast S1x128 b shapeCasts_S128_S1x128) broadcasts_S1x128_S2000x128)
        : FVec Ideal S2000x128 .f32) (ix2 p q)
      = (∑ k : Fin 128, x (ix2 p k) * w (ix2 q k)) + b (ix1 q) := by
  rw [addf_apply, matmul_at, bias_at]
  exact congrArg (· + b (ix1 q)) (Finset.sum_congr rfl fun k _ => by rw [transpose_w])

/-- Region 0's payload at `(p, q)`. -/
theorem k0_pay1_at (v0 : Vec Ideal S2000x128 .f32) (v1 : Vec Ideal S128x128 .f32) (v4 : Vec Ideal S128 .f32)
    (p : Fin 2000) (q : Fin 128) :
    k0_pay1 v0 v1 v4 (ix2 p q) = (∑ k : Fin 128, v0 (ix2 p k) * v1 (ix2 q k)) + v4 (ix1 q) := by
  unfold k0_pay1
  exact core_at v0 v1 v4 p q

/-! ### The plain bodies (with shape casts of each block to its own shape) -/

/-- Region 2's payload at `(p, q)`. -/
theorem k2_pay1_at (v0 : Vec Ideal S2000x128 .f32) (v2 : Vec Ideal S128x128 .f32) (v6 : Vec Ideal S128 .f32)
    (p : Fin 2000) (q : Fin 128) :
    k2_pay1 v0 v2 v6 (ix2 p q) = (∑ k : Fin 128, v0 (ix2 p k) * v2 (ix2 q k)) + v6 (ix1 q) := by
  unfold k2_pay1
  simp only [shapeCast_self]
  exact core_at v0 v2 v6 p q

/-- Region 5's payload at `(p, q)`. -/
theorem k5_pay1_at (v0 : Vec Ideal S2000x128 .f32) (v2 : Vec Ideal S128x128 .f32) (v6 : Vec Ideal S128 .f32)
    (p : Fin 2000) (q : Fin 128) :
    k5_pay1 v0 v2 v6 (ix2 p q) = (∑ k : Fin 128, v0 (ix2 p k) * v2 (ix2 q k)) + v6 (ix1 q) := by
  unfold k5_pay1
  simp only [shapeCast_self]
  exact core_at v0 v2 v6 p q

/-- Region 9's payload at `(p, q)`. -/
theorem k9_pay1_at (v0 : Vec Ideal S2000x128 .f32) (v2 : Vec Ideal S128x128 .f32) (v6 : Vec Ideal S128 .f32)
    (p : Fin 2000) (q : Fin 128) :
    k9_pay1 v0 v2 v6 (ix2 p q) = (∑ k : Fin 128, v0 (ix2 p k) * v2 (ix2 q k)) + v6 (ix1 q) := by
  unfold k9_pay1
  simp only [shapeCast_self]
  exact core_at v0 v2 v6 p q

/-- Region 11's payload at `(p, q)`. -/
theorem k11_pay1_at (v0 : Vec Ideal S2000x128 .f32) (v2 : Vec Ideal S128x128 .f32) (v6 : Vec Ideal S128 .f32)
    (p : Fin 2000) (q : Fin 128) :
    k11_pay1 v0 v2 v6 (ix2 p q) = (∑ k : Fin 128, v0 (ix2 p k) * v2 (ix2 q k)) + v6 (ix1 q) := by
  unfold k11_pay1
  simp only [shapeCast_self]
  exact core_at v0 v2 v6 p q

/-- Region 14's payload at `(p, q)`. -/
theorem k14_pay1_at (v0 : Vec Ideal S2000x128 .f32) (v2 : Vec Ideal S128x128 .f32) (v6 : Vec Ideal S128 .f32)
    (p : Fin 2000) (q : Fin 128) :
    k14_pay1 v0 v2 v6 (ix2 p q) = (∑ k : Fin 128, v0 (ix2 p k) * v2 (ix2 q k)) + v6 (ix1 q) := by
  unfold k14_pay1
  simp only [shapeCast_self]
  exact core_at v0 v2 v6 p q

/-- Region 18's payload at `(p, q)`. -/
theorem k18_pay1_at (v0 : Vec Ideal S2000x128 .f32) (v2 : Vec Ideal S128x128 .f32) (v6 : Vec Ideal S128 .f32)
    (p : Fin 2000) (q : Fin 128) :
    k18_pay1 v0 v2 v6 (ix2 p q) = (∑ k : Fin 128, v0 (ix2 p k) * v2 (ix2 q k)) + v6 (ix1 q) := by
  unfold k18_pay1
  simp only [shapeCast_self]
  exact core_at v0 v2 v6 p q

/-- Region 20's payload at `(p, q)`. -/
theorem k20_pay1_at (v0 : Vec Ideal S2000x128 .f32) (v2 : Vec Ideal S128x128 .f32) (v6 : Vec Ideal S128 .f32)
    (p : Fin 2000) (q : Fin 128) :
    k20_pay1 v0 v2 v6 (ix2 p q) = (∑ k : Fin 128, v0 (ix2 p k) * v2 (ix2 q k)) + v6 (ix1 q) := by
  unfold k20_pay1
  simp only [shapeCast_self]
  exact core_at v0 v2 v6 p q

/-- Region 23's payload at `(p, q)`. -/
theorem k23_pay1_at (v0 : Vec Ideal S2000x128 .f32) (v2 : Vec Ideal S128x128 .f32) (v6 : Vec Ideal S128 .f32)
    (p : Fin 2000) (q : Fin 128) :
    k23_pay1 v0 v2 v6 (ix2 p q) = (∑ k : Fin 128, v0 (ix2 p k) * v2 (ix2 q k)) + v6 (ix1 q) := by
  unfold k23_pay1
  simp only [shapeCast_self]
  exact core_at v0 v2 v6 p q

/-- Region 27's payload at `(p, q)`. -/
theorem k27_pay1_at (v0 : Vec Ideal S2000x128 .f32) (v2 : Vec Ideal S128x128 .f32) (v6 : Vec Ideal S128 .f32)
    (p : Fin 2000) (q : Fin 128) :
    k27_pay1 v0 v2 v6 (ix2 p q) = (∑ k : Fin 128, v0 (ix2 p k) * v2 (ix2 q k)) + v6 (ix1 q) := by
  unfold k27_pay1
  simp only [shapeCast_self]
  exact core_at v0 v2 v6 p q

/-! ### The bodies ending in a maximum with zero -/

/-- Region 3's payload at `(p, q)`. -/
theorem k3_pay1_at (v0 : Vec Ideal S2000x128 .f32) (v2 : Vec Ideal S128x128 .f32) (v6 : Vec Ideal S128 .f32)
    (p : Fin 2000) (q : Fin 128) :
    k3_pay1 v0 v2 v6 (ix2 p q) = max ((∑ k : Fin 128, v0 (ix2 p k) * v2 (ix2 q k)) + v6 (ix1 q)) 0 := by
  unfold k3_pay1
  simp only [shapeCast_self]
  rw [maximumf_apply]
  exact congrArg₂ max (core_at v0 v2 v6 p q) Ideal.ofBits_zero_f32

/-- Region 6's payload at `(p, q)`. -/
theorem k6_pay1_at (v0 : Vec Ideal S2000x128 .f32) (v2 : Vec Ideal S128x128 .f32) (v6 : Vec Ideal S128 .f32)
    (p : Fin 2000) (q : Fin 128) :
    k6_pay1 v0 v2 v6 (ix2 p q) = max ((∑ k : Fin 128, v0 (ix2 p k) * v2 (ix2 q k)) + v6 (ix1 q)) 0 := by
  unfold k6_pay1
  simp only [shapeCast_self]
  rw [maximumf_apply]
  exact congrArg₂ max (core_at v0 v2 v6 p q) Ideal.ofBits_zero_f32

/-- Region 12's payload at `(p, q)`. -/
theorem k12_pay1_at (v0 : Vec Ideal S2000x128 .f32) (v2 : Vec Ideal S128x128 .f32) (v6 : Vec Ideal S128 .f32)
    (p : Fin 2000) (q : Fin 128) :
    k12_pay1 v0 v2 v6 (ix2 p q) = max ((∑ k : Fin 128, v0 (ix2 p k) * v2 (ix2 q k)) + v6 (ix1 q)) 0 := by
  unfold k12_pay1
  simp only [shapeCast_self]
  rw [maximumf_apply]
  exact congrArg₂ max (core_at v0 v2 v6 p q) Ideal.ofBits_zero_f32

/-- Region 15's payload at `(p, q)`. -/
theorem k15_pay1_at (v0 : Vec Ideal S2000x128 .f32) (v2 : Vec Ideal S128x128 .f32) (v6 : Vec Ideal S128 .f32)
    (p : Fin 2000) (q : Fin 128) :
    k15_pay1 v0 v2 v6 (ix2 p q) = max ((∑ k : Fin 128, v0 (ix2 p k) * v2 (ix2 q k)) + v6 (ix1 q)) 0 := by
  unfold k15_pay1
  simp only [shapeCast_self]
  rw [maximumf_apply]
  exact congrArg₂ max (core_at v0 v2 v6 p q) Ideal.ofBits_zero_f32

/-- Region 21's payload at `(p, q)`. -/
theorem k21_pay1_at (v0 : Vec Ideal S2000x128 .f32) (v2 : Vec Ideal S128x128 .f32) (v6 : Vec Ideal S128 .f32)
    (p : Fin 2000) (q : Fin 128) :
    k21_pay1 v0 v2 v6 (ix2 p q) = max ((∑ k : Fin 128, v0 (ix2 p k) * v2 (ix2 q k)) + v6 (ix1 q)) 0 := by
  unfold k21_pay1
  simp only [shapeCast_self]
  rw [maximumf_apply]
  exact congrArg₂ max (core_at v0 v2 v6 p q) Ideal.ofBits_zero_f32

/-- Region 24's payload at `(p, q)`. -/
theorem k24_pay1_at (v0 : Vec Ideal S2000x128 .f32) (v2 : Vec Ideal S128x128 .f32) (v6 : Vec Ideal S128 .f32)
    (p : Fin 2000) (q : Fin 128) :
    k24_pay1 v0 v2 v6 (ix2 p q) = max ((∑ k : Fin 128, v0 (ix2 p k) * v2 (ix2 q k)) + v6 (ix1 q)) 0 := by
  unfold k24_pay1
  simp only [shapeCast_self]
  rw [maximumf_apply]
  exact congrArg₂ max (core_at v0 v2 v6 p q) Ideal.ofBits_zero_f32

/-! ### The bodies ending in a hyperbolic tangent -/

/-- Region 8's payload at `(p, q)`. -/
theorem k8_pay1_at (v0 : Vec Ideal S2000x128 .f32) (v2 : Vec Ideal S128x128 .f32) (v6 : Vec Ideal S128 .f32)
    (p : Fin 2000) (q : Fin 128) :
    k8_pay1 v0 v2 v6 (ix2 p q) = Ideal.tanh ((∑ k : Fin 128, v0 (ix2 p k) * v2 (ix2 q k)) + v6 (ix1 q)) := by
  unfold k8_pay1
  simp only [shapeCast_self]
  exact congrArg Ideal.tanh (core_at v0 v2 v6 p q)

/-- Region 17's payload at `(p, q)`. -/
theorem k17_pay1_at (v0 : Vec Ideal S2000x128 .f32) (v2 : Vec Ideal S128x128 .f32) (v6 : Vec Ideal S128 .f32)
    (p : Fin 2000) (q : Fin 128) :
    k17_pay1 v0 v2 v6 (ix2 p q) = Ideal.tanh ((∑ k : Fin 128, v0 (ix2 p k) * v2 (ix2 q k)) + v6 (ix1 q)) := by
  unfold k17_pay1
  simp only [shapeCast_self]
  exact congrArg Ideal.tanh (core_at v0 v2 v6 p q)

/-- Region 26's payload at `(p, q)`. -/
theorem k26_pay1_at (v0 : Vec Ideal S2000x128 .f32) (v2 : Vec Ideal S128x128 .f32) (v6 : Vec Ideal S128 .f32)
    (p : Fin 2000) (q : Fin 128) :
    k26_pay1 v0 v2 v6 (ix2 p q) = Ideal.tanh ((∑ k : Fin 128, v0 (ix2 p k) * v2 (ix2 q k)) + v6 (ix1 q)) := by
  unfold k26_pay1
  simp only [shapeCast_self]
  exact congrArg Ideal.tanh (core_at v0 v2 v6 p q)

/-! ## 64 output features -/

/-- The transposed 64×128 weight at `(k, q)` is the weight at `(q, k)`. -/
theorem transpose_w64 (w : Vec Ideal S64x128 .f32) (k : Fin 128) (q : Fin 64) :
    transpose S128x64 [1, 0] w transposes_S64x128_p1_0_S128x64 (ix2 k q) = w (ix2 q k) :=
  transpose_apply [1, 0] w transposes_S64x128_p1_0_S128x64 (ix2 k q) (ix2 q k)
    (fun b => match b with | ⟨0, _⟩ => rfl | ⟨1, _⟩ => rfl)

/-- The block product into the zero accumulator at `(p, q)`, 64 output features. -/
theorem matmul64_at (x : FVec Ideal S2000x128 .f32) (wt : FVec Ideal S128x64 .f32) (p : Fin 2000) (q : Fin 64) :
    matmul dot_S2000x128_S128x64_S2000x64_1_0_0_1_n_n none x wt (constant S2000x64 .f32 0x00000000#32) (ix2 p q)
      = ∑ k : Fin 128, x (ix2 p k) * wt (ix2 k q) := by
  simp only [matmul]
  rw [Ideal.matmul_constant_zero_apply]
  rw [← Equiv.sum_comp (contrEquiv1 dot_S2000x128_S128x64_S2000x64_1_0_0_1_n_n 128 rfl rfl).symm]
  refine Finset.sum_congr rfl fun k _ => ?_
  have hl : dot_S2000x128_S128x64_S2000x64_1_0_0_1_n_n.lhsIdx (ix2 p q)
      ((contrEquiv1 dot_S2000x128_S128x64_S2000x64_1_0_0_1_n_n 128 rfl rfl).symm k) = ix2 p k := by
    funext a; apply Fin.ext
    match a with
    | ⟨0, _⟩ => rfl
    | ⟨1, _⟩ =>
      exact (DotDims.lhsIdx_val_of_single _ (cl := (1 : Fin 2)) rfl _ _).trans
        (contrEquiv1_symm_val dot_S2000x128_S128x64_S2000x64_1_0_0_1_n_n 128 rfl rfl k)
  have hr : dot_S2000x128_S128x64_S2000x64_1_0_0_1_n_n.rhsIdx (ix2 p q)
      ((contrEquiv1 dot_S2000x128_S128x64_S2000x64_1_0_0_1_n_n 128 rfl rfl).symm k) = ix2 k q := by
    funext a; apply Fin.ext
    match a with
    | ⟨0, _⟩ =>
      exact (DotDims.rhsIdx_val_of_single _ (cr := (0 : Fin 2)) rfl _ _).trans
        (contrEquiv1_symm_val dot_S2000x128_S128x64_S2000x64_1_0_0_1_n_n 128 rfl rfl k)
    | ⟨1, _⟩ => rfl
  rw [hl, hr]

/-- The 64-feature bias laid along every row, at `(p, q)`, is the bias at `q`. -/
theorem bias64_at (b : Vec Ideal S64 .f32) (p : Fin 2000) (q : Fin 64) :
    broadcastTo S2000x64 (shapeCast S1x64 b shapeCasts_S64_S1x64) broadcasts_S1x64_S2000x64 (ix2 p q) = b (ix1 q) := by
  refine (broadcastTo_apply _ broadcasts_S1x64_S2000x64 (ix2 p q) (ix2 (0 : Fin 1) q)
    (fun a => match a with | ⟨0, _⟩ => rfl | ⟨1, _⟩ => rfl)).trans ?_
  refine shapeCast_apply b shapeCasts_S64_S1x64 (ix2 (0 : Fin 1) q) (ix1 q) ?_
  rw [Shape.rowMajor_val_one, Shape.rowMajor_val_two]
  show q.val = 0 * 64 + q.val
  omega

/-- Region 28's payload at `(p, q)`. -/
theorem k28_pay1_at (v0 : Vec Ideal S2000x128 .f32) (v2 : Vec Ideal S64x128 .f32) (v5 : Vec Ideal S64 .f32)
    (p : Fin 2000) (q : Fin 64) :
    k28_pay1 v0 v2 v5 (ix2 p q) = (∑ k : Fin 128, v0 (ix2 p k) * v2 (ix2 q k)) + v5 (ix1 q) := by
  unfold k28_pay1
  simp only [shapeCast_self]
  rw [addf_apply, matmul64_at, bias64_at]
  exact congrArg (· + v5 (ix1 q)) (Finset.sum_congr rfl fun k _ => by rw [transpose_w64])

end Cert.Lin

end
-- ==== Proof.LinBlocksA.lean ====
/-
  Linear kernels 0, 2, 3, 5: what one grid point computes, as a block of the layer's whole-array value, and
  how the blocks tile the result array.

  Each grid point `t` of a linear kernel reads rows `2000·t … 2000·t+1999` of the input, the whole weight and the
  whole bias, and writes the same rows of the result. The body's arithmetic at row `p` of the block, feature `q`,
  is `Σ_k x[2000·t+p, k]·w[q,k] + b[q]` (then a maximum with zero or a hyperbolic tangent where the body has
  one): the layer's whole-array value at `(2000·t+p, q)`, because element `(p, k)` of the row block is element
  `(2000·t+p, k)` of the input array and the weight and bias blocks are the whole arrays. The 25 blocks tile the
  50000 rows: row `r` lies in block `r / 2000`.
-/
import proofs.«107783_j24189255811079_1_alg».proof.Proof.Gen.KernelIdeal.Launch
import proofs.«107783_j24189255811079_1_alg».proof.Proof.Gen.KernelIdeal.Points
import proofs.«107783_j24189255811079_1_alg».proof.Proof.Gen.KernelIdeal.Skeleton
import proofs.«107783_j24189255811079_1_alg».proof.Proof.Spec
import proofs.«107783_j24189255811079_1_alg».proof.Proof.LinPay
import Idealize.ShloMosaic.Lib.Pipeline.Value
import Idealize.ShloMosaic.Lib.ValueIdx

noncomputable section

namespace Cert.Lin

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 0: rows from `main_arg0`, weight `main_arg2`, bias `main_arg3`, result `main_v5` -/

/-- The printed index maps over the grid: the row block and the result block sit at block row `t`, every
    other block index is zero. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The body's arithmetic on the three blocks point `t` reads, at element `(p, q)` of the block, is the layer's
    whole-array value at the element of the result array that `(p, q)` of block `t` is. -/
theorem blockval0 (c : Dev nD) (t : Fin cfg0.N) (p : Fin 2000) (q : Fin 128) :
    k0_pay1 (((cfg0.win 0).blk t).view.read (Elt Ideal) (V c (Pipeline.arrRef spec0 0)))
        (((cfg0.win 1).blk t).view.read (Elt Ideal) (V c (Pipeline.arrRef spec0 1)))
        (((cfg0.win 2).blk t).view.read (Elt Ideal) (V c (Pipeline.arrRef spec0 2))) (ix2 p q)
      = Cert.Spec.lin (V c main_arg0) (V c main_arg2) (V c main_arg3) (((cfg0.win 3).blk t).view.emb (ix2 p q)) := by
  obtain ⟨e00, e01, e10, e11, e20, e30, e31⟩ := idx0 t
  refine (k0_pay1_at _ _ _ p q).trans ?_
  have hx : ∀ k : Fin 128, (((cfg0.win 0).blk t).view.read (Elt Ideal) (V c (Pipeline.arrRef spec0 0))) (ix2 p k)
      = V c main_arg0 (ix2 ((((cfg0.win 3).blk t).view.emb (ix2 p q)) 0 : Fin 50000) k) := fun k => by
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_3.index t (0 : Fin 2) * 2000 + 1 * p.val; omega
    | ⟨1, _⟩ => show win0_0.index t (1 : Fin 2) * 128 + 1 * k.val = k.val; omega
  have hw : ∀ k : Fin 128, (((cfg0.win 1).blk t).view.read (Elt Ideal) (V c (Pipeline.arrRef spec0 1))) (ix2 q k)
      = V c main_arg2 (ix2 ((((cfg0.win 3).blk t).view.emb (ix2 p q)) 1 : Fin 128) k) := fun k => by
    show V c main_arg2 (((cfg0.win 1).blk t).view.emb (ix2 q k)) = _
    refine congrArg (V c main_arg2) (funext fun a => Fin.ext ?_)
    match a with
    | ⟨0, _⟩ => show win0_1.index t (0 : Fin 2) * 128 + 1 * q.val = win0_3.index t (1 : Fin 2) * 128 + 1 * q.val; omega
    | ⟨1, _⟩ => show win0_1.index t (1 : Fin 2) * 128 + 1 * k.val = k.val; omega
  have hb : (((cfg0.win 2).blk t).view.read (Elt Ideal) (V c (Pipeline.arrRef spec0 2))) (ix1 q)
      = V c main_arg3 (ix1 ((((cfg0.win 3).blk t).view.emb (ix2 p q)) 1 : Fin 128)) := by
    show V c main_arg3 (((cfg0.win 2).blk t).view.emb (ix1 q)) = _
    refine congrArg (V c main_arg3) (funext fun a => Fin.ext ?_)
    match a with
    | ⟨0, _⟩ => show win0_2.index t (0 : Fin 1) * 128 + 1 * q.val = win0_3.index t (1 : Fin 2) * 128 + 1 * q.val; omega
  rw [hb, Finset.sum_congr rfl fun k _ => by rw [hx k, hw k]]
  rfl

/-- An index of the result array is in point `t`'s block iff each coordinate is in the block's range. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v5).slice (win0_3.rect t)).set ↔ _
  rw [View.set_slice_whole, Rect.mem_set_unit]
  exact Iff.rfl

/-- The blocks tile the result array: row `r` is in the block of point `r / 2000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  have ht : (i 0).val / 2000 < cfg0.N := by rw [hN]; omega
  refine ⟨⟨(i 0).val / 2000, ht⟩, flush0_3 _, ?_⟩
  rw [mem_blk0]
  obtain ⟨-, -, -, -, -, e30, e31⟩ := idx0 ⟨(i 0).val / 2000, ht⟩
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win0_3.index ⟨(i 0).val / 2000, ht⟩ (1 : Fin 2) * 128 ≤ (i 1).val ∧ (i 1).val < win0_3.index ⟨(i 0).val / 2000, ht⟩ (1 : Fin 2) * 128 + 128
    rw [e31]
    omega

/-! ## Region 2: rows from `main_v5`, weight `main_v34`, bias `main_v4`, result `main_v35` -/

/-- The printed index maps over the grid: the row block and the result block sit at block row `t`, every
    other block index is zero. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- The body's arithmetic on the three blocks point `t` reads, at element `(p, q)` of the block, is the layer's
    whole-array value at the element of the result array that `(p, q)` of block `t` is. -/
theorem blockval2 (c : Dev nD) (t : Fin cfg2.N) (p : Fin 2000) (q : Fin 128) :
    k2_pay1 (((cfg2.win 0).blk t).view.read (Elt Ideal) (V c (Pipeline.arrRef spec2 0)))
        (((cfg2.win 1).blk t).view.read (Elt Ideal) (V c (Pipeline.arrRef spec2 1)))
        (((cfg2.win 2).blk t).view.read (Elt Ideal) (V c (Pipeline.arrRef spec2 2))) (ix2 p q)
      = Cert.Spec.lin (V c main_v5) (V c main_v34) (V c main_v4) (((cfg2.win 3).blk t).view.emb (ix2 p q)) := by
  obtain ⟨e00, e01, e10, e11, e20, e30, e31⟩ := idx2 t
  refine (k2_pay1_at _ _ _ p q).trans ?_
  have hx : ∀ k : Fin 128, (((cfg2.win 0).blk t).view.read (Elt Ideal) (V c (Pipeline.arrRef spec2 0))) (ix2 p k)
      = V c main_v5 (ix2 ((((cfg2.win 3).blk t).view.emb (ix2 p q)) 0 : Fin 50000) k) := fun k => by
    show V c main_v5 (((cfg2.win 0).blk t).view.emb (ix2 p k)) = _
    refine congrArg (V c main_v5) (funext fun a => Fin.ext ?_)
    match a with
    | ⟨0, _⟩ => show win2_0.index t (0 : Fin 2) * 2000 + 1 * p.val = win2_3.index t (0 : Fin 2) * 2000 + 1 * p.val; omega
    | ⟨1, _⟩ => show win2_0.index t (1 : Fin 2) * 128 + 1 * k.val = k.val; omega
  have hw : ∀ k : Fin 128, (((cfg2.win 1).blk t).view.read (Elt Ideal) (V c (Pipeline.arrRef spec2 1))) (ix2 q k)
      = V c main_v34 (ix2 ((((cfg2.win 3).blk t).view.emb (ix2 p q)) 1 : Fin 128) k) := fun k => by
    show V c main_v34 (((cfg2.win 1).blk t).view.emb (ix2 q k)) = _
    refine congrArg (V c main_v34) (funext fun a => Fin.ext ?_)
    match a with
    | ⟨0, _⟩ => show win2_1.index t (0 : Fin 2) * 128 + 1 * q.val = win2_3.index t (1 : Fin 2) * 128 + 1 * q.val; omega
    | ⟨1, _⟩ => show win2_1.index t (1 : Fin 2) * 128 + 1 * k.val = k.val; omega
  have hb : (((cfg2.win 2).blk t).view.read (Elt Ideal) (V c (Pipeline.arrRef spec2 2))) (ix1 q)
      = V c main_v4 (ix1 ((((cfg2.win 3).blk t).view.emb (ix2 p q)) 1 : Fin 128)) := by
    show V c main_v4 (((cfg2.win 2).blk t).view.emb (ix1 q)) = _
    refine congrArg (V c main_v4) (funext fun a => Fin.ext ?_)
    match a with
    | ⟨0, _⟩ => show win2_2.index t (0 : Fin 1) * 128 + 1 * q.val = win2_3.index t (1 : Fin 2) * 128 + 1 * q.val; omega
  rw [hb, Finset.sum_congr rfl fun k _ => by rw [hx k, hw k]]
  rfl

/-- An index of the result array is in point `t`'s block iff each coordinate is in the block's range. -/
theorem mem_blk2 (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v35).slice (win2_3.rect t)).set ↔ _
  rw [View.set_slice_whole, Rect.mem_set_unit]
  exact Iff.rfl

/-- The blocks tile the result array: row `r` is in the block of point `r / 2000`. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 25 := N_2
  have ht : (i 0).val / 2000 < cfg2.N := by rw [hN]; omega
  refine ⟨⟨(i 0).val / 2000, ht⟩, flush2_3 _, ?_⟩
  rw [mem_blk2]
  obtain ⟨-, -, -, -, -, e30, e31⟩ := idx2 ⟨(i 0).val / 2000, ht⟩
  intro a
  match a with
  | ⟨0, _⟩ =>
    show win2_3.index ⟨(i 0).val / 2000, ht⟩ (0 : Fin 2) * 2000 ≤ (i 0).val ∧ (i 0).val < win2_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win2_3.index ⟨(i 0).val / 2000, ht⟩ (1 : Fin 2) * 128 ≤ (i 1).val ∧ (i 1).val < win2_3.index ⟨(i 0).val / 2000, ht⟩ (1 : Fin 2) * 128 + 128
    rw [e31]
    omega

/-! ## Region 3: rows from `main_v5`, weight `main_v37`, bias `main_v39`, result `main_v40` -/

/-- The printed index maps over the grid: the row block and the result block sit at block row `t`, every
    other block index is zero. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- The body's arithmetic on the three blocks point `t` reads, at element `(p, q)` of the block, is the layer's
    whole-array value at the element of the result array that `(p, q)` of block `t` is. -/
theorem blockval3 (c : Dev nD) (t : Fin cfg3.N) (p : Fin 2000) (q : Fin 128) :
    k3_pay1 (((cfg3.win 0).blk t).view.read (Elt Ideal) (V c (Pipeline.arrRef spec3 0)))
        (((cfg3.win 1).blk t).view.read (Elt Ideal) (V c (Pipeline.arrRef spec3 1)))
        (((cfg3.win 2).blk t).view.read (Elt Ideal) (V c (Pipeline.arrRef spec3 2))) (ix2 p q)
      = Cert.Spec.linRelu (V c main_v5) (V c main_v37) (V c main_v39) (((cfg3.win 3).blk t).view.emb (ix2 p q)) := by
  obtain ⟨e00, e01, e10, e11, e20, e30, e31⟩ := idx3 t
  refine (k3_pay1_at _ _ _ p q).trans ?_
  have hx : ∀ k : Fin 128, (((cfg3.win 0).blk t).view.read (Elt Ideal) (V c (Pipeline.arrRef spec3 0))) (ix2 p k)
      = V c main_v5 (ix2 ((((cfg3.win 3).blk t).view.emb (ix2 p q)) 0 : Fin 50000) k) := fun k => by
    show V c main_v5 (((cfg3.win 0).blk t).view.emb (ix2 p k)) = _
    refine congrArg (V c main_v5) (funext fun a => Fin.ext ?_)
    match a with
    | ⟨0, _⟩ => show win3_0.index t (0 : Fin 2) * 2000 + 1 * p.val = win3_3.index t (0 : Fin 2) * 2000 + 1 * p.val; omega
    | ⟨1, _⟩ => show win3_0.index t (1 : Fin 2) * 128 + 1 * k.val = k.val; omega
  have hw : ∀ k : Fin 128, (((cfg3.win 1).blk t).view.read (Elt Ideal) (V c (Pipeline.arrRef spec3 1))) (ix2 q k)
      = V c main_v37 (ix2 ((((cfg3.win 3).blk t).view.emb (ix2 p q)) 1 : Fin 128) k) := fun k => by
    show V c main_v37 (((cfg3.win 1).blk t).view.emb (ix2 q k)) = _
    refine congrArg (V c main_v37) (funext fun a => Fin.ext ?_)
    match a with
    | ⟨0, _⟩ => show win3_1.index t (0 : Fin 2) * 128 + 1 * q.val = win3_3.index t (1 : Fin 2) * 128 + 1 * q.val; omega
    | ⟨1, _⟩ => show win3_1.index t (1 : Fin 2) * 128 + 1 * k.val = k.val; omega
  have hb : (((cfg3.win 2).blk t).view.read (Elt Ideal) (V c (Pipeline.arrRef spec3 2))) (ix1 q)
      = V c main_v39 (ix1 ((((cfg3.win 3).blk t).view.emb (ix2 p q)) 1 : Fin 128)) := by
    show V c main_v39 (((cfg3.win 2).blk t).view.emb (ix1 q)) = _
    refine congrArg (V c main_v39) (funext fun a => Fin.ext ?_)
    match a with
    | ⟨0, _⟩ => show win3_2.index t (0 : Fin 1) * 128 + 1 * q.val = win3_3.index t (1 : Fin 2) * 128 + 1 * q.val; omega
  rw [hb, Finset.sum_congr rfl fun k _ => by rw [hx k, hw k]]
  rfl

/-- An index of the result array is in point `t`'s block iff each coordinate is in the block's range. -/
theorem mem_blk3 (t : Fin cfg3.N) (i : S50000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v40).slice (win3_3.rect t)).set ↔ _
  rw [View.set_slice_whole, Rect.mem_set_unit]
  exact Iff.rfl

/-- The blocks tile the result array: row `r` is in the block of point `r / 2000`. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 25 := N_3
  have ht : (i 0).val / 2000 < cfg3.N := by rw [hN]; omega
  refine ⟨⟨(i 0).val / 2000, ht⟩, flush3_3 _, ?_⟩
  rw [mem_blk3]
  obtain ⟨-, -, -, -, -, e30, e31⟩ := idx3 ⟨(i 0).val / 2000, ht⟩
  intro a
  match a with
  | ⟨0, _⟩ =>
    show win3_3.index ⟨(i 0).val / 2000, ht⟩ (0 : Fin 2) * 2000 ≤ (i 0).val ∧ (i 0).val < win3_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win3_3.index ⟨(i 0).val / 2000, ht⟩ (1 : Fin 2) * 128 ≤ (i 1).val ∧ (i 1).val < win3_3.index ⟨(i 0).val / 2000, ht⟩ (1 : Fin 2) * 128 + 128
    rw [e31]
    omega

/-! ## Region 5: rows from `main_v53_0`, weight `main_v55`, bias `main_v4`, result `main_v56` -/

/-- The printed index maps over the grid: the row block and the result block sit at block row `t`, every
    other block index is zero. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

/-- The body's arithmetic on the three blocks point `t` reads, at element `(p, q)` of the block, is the layer's
    whole-array value at the element of the result array that `(p, q)` of block `t` is. -/
theorem blockval5 (c : Dev nD) (t : Fin cfg5.N) (p : Fin 2000) (q : Fin 128) :
    k5_pay1 (((cfg5.win 0).blk t).view.read (Elt Ideal) (V c (Pipeline.arrRef spec5 0)))
        (((cfg5.win 1).blk t).view.read (Elt Ideal) (V c (Pipeline.arrRef spec5 1)))
        (((cfg5.win 2).blk t).view.read (Elt Ideal) (V c (Pipeline.arrRef spec5 2))) (ix2 p q)
      = Cert.Spec.lin (V c main_v53_0) (V c main_v55) (V c main_v4) (((cfg5.win 3).blk t).view.emb (ix2 p q)) := by
  obtain ⟨e00, e01, e10, e11, e20, e30, e31⟩ := idx5 t
  refine (k5_pay1_at _ _ _ p q).trans ?_
  have hx : ∀ k : Fin 128, (((cfg5.win 0).blk t).view.read (Elt Ideal) (V c (Pipeline.arrRef spec5 0))) (ix2 p k)
      = V c main_v53_0 (ix2 ((((cfg5.win 3).blk t).view.emb (ix2 p q)) 0 : Fin 50000) k) := fun k => by
    show V c main_v53_0 (((cfg5.win 0).blk t).view.emb (ix2 p k)) = _
    refine congrArg (V c main_v53_0) (funext fun a => Fin.ext ?_)
    match a with
    | ⟨0, _⟩ => show win5_0.index t (0 : Fin 2) * 2000 + 1 * p.val = win5_3.index t (0 : Fin 2) * 2000 + 1 * p.val; omega
    | ⟨1, _⟩ => show win5_0.index t (1 : Fin 2) * 128 + 1 * k.val = k.val; omega
  have hw : ∀ k : Fin 128, (((cfg5.win 1).blk t).view.read (Elt Ideal) (V c (Pipeline.arrRef spec5 1))) (ix2 q k)
      = V c main_v55 (ix2 ((((cfg5.win 3).blk t).view.emb (ix2 p q)) 1 : Fin 128) k) := fun k => by
    show V c main_v55 (((cfg5.win 1).blk t).view.emb (ix2 q k)) = _
    refine congrArg (V c main_v55) (funext fun a => Fin.ext ?_)
    match a with
    | ⟨0, _⟩ => show win5_1.index t (0 : Fin 2) * 128 + 1 * q.val = win5_3.index t (1 : Fin 2) * 128 + 1 * q.val; omega
    | ⟨1, _⟩ => show win5_1.index t (1 : Fin 2) * 128 + 1 * k.val = k.val; omega
  have hb : (((cfg5.win 2).blk t).view.read (Elt Ideal) (V c (Pipeline.arrRef spec5 2))) (ix1 q)
      = V c main_v4 (ix1 ((((cfg5.win 3).blk t).view.emb (ix2 p q)) 1 : Fin 128)) := by
    show V c main_v4 (((cfg5.win 2).blk t).view.emb (ix1 q)) = _
    refine congrArg (V c main_v4) (funext fun a => Fin.ext ?_)
    match a with
    | ⟨0, _⟩ => show win5_2.index t (0 : Fin 1) * 128 + 1 * q.val = win5_3.index t (1 : Fin 2) * 128 + 1 * q.val; omega
  rw [hb, Finset.sum_congr rfl fun k _ => by rw [hx k, hw k]]
  rfl

/-- An index of the result array is in point `t`'s block iff each coordinate is in the block's range. -/
theorem mem_blk5 (t : Fin cfg5.N) (i : S50000x128.Idx) :
    i ∈ ((cfg5.win 3).blk t).view.set ↔ ∀ a : Fin 2, win5_3.index t a * S2000x128.size a ≤ (i a).val ∧ (i a).val < win5_3.index t a * S2000x128.size a + S2000x128.size a := by
  show i ∈ ((View.whole main_v56).slice (win5_3.rect t)).set ↔ _
  rw [View.set_slice_whole, Rect.mem_set_unit]
  exact Iff.rfl

/-- The blocks tile the result array: row `r` is in the block of point `r / 2000`. -/
theorem cover5 (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  have hN : cfg5.N = 25 := N_5
  have ht : (i 0).val / 2000 < cfg5.N := by rw [hN]; omega
  refine ⟨⟨(i 0).val / 2000, ht⟩, flush5_3 _, ?_⟩
  rw [mem_blk5]
  obtain ⟨-, -, -, -, -, e30, e31⟩ := idx5 ⟨(i 0).val / 2000, ht⟩
  intro a
  match a with
  | ⟨0, _⟩ =>
    show win5_3.index ⟨(i 0).val / 2000, ht⟩ (0 : Fin 2) * 2000 ≤ (i 0).val ∧ (i 0).val < win5_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win5_3.index ⟨(i 0).val / 2000, ht⟩ (1 : Fin 2) * 128 ≤ (i 1).val ∧ (i 1).val < win5_3.index ⟨(i 0).val / 2000, ht⟩ (1 : Fin 2) * 128 + 128
    rw [e31]
    omega

end Cert.Lin

end
-- ==== Proof.LinFinalA.lean ====
/-
  Linear kernels 0, 2, 3, 5: the whole result array after the region.

  Every grid point writes back block `t` of the layer's whole-array value (the body's arithmetic on the blocks
  it reads is that value at the block's elements), and the blocks tile the result array; so after the region
  the result array holds the layer's value of the three input arrays everywhere.
-/
import proofs.«107783_j24189255811079_1_alg».proof.Proof.Gen.KernelIdeal.Frame
import proofs.«107783_j24189255811079_1_alg».proof.Proof.LinBlocksA

noncomputable section

namespace Cert.Lin

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 0 -/

/-- What point `t` writes back is block `t` of the layer's whole-array value. -/
theorem flushed0 (c : Dev nD) (t : Fin cfg0.N) :
    (dat0 V c).flushed 3 t = ((cfg0.win 3).blk t).view.read (Elt Ideal) (Cert.Spec.lin (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  exact blockval0 V c t p q

/-- The result array after region 0: the layer's value of the three input arrays as the region finds them. -/
theorem final0 (c : Dev nD) :
    (dat0 V c).arrAt 3 cfg0.N = Cert.Spec.lin (V c main_arg0) (V c main_arg2) (V c main_arg3) :=
  (dat0 V c).arrAt_eq_of_cover 3 (Cert.Spec.lin (V c main_arg0) (V c main_arg2) (V c main_arg3)) (fun t _ => flushed0 V c t) cover0

/-! ## Region 2 -/

/-- What point `t` writes back is block `t` of the layer's whole-array value. -/
theorem flushed2 (c : Dev nD) (t : Fin cfg2.N) :
    (dat2 V c).flushed 3 t = ((cfg2.win 3).blk t).view.read (Elt Ideal) (Cert.Spec.lin (V c main_v5) (V c main_v34) (V c main_v4)) := by
  show (cfg2.win 3).cut (grid2.coords t) ((dat2 V c).after 3 t) = _
  rw [after2_3]
  unfold out2_3
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  exact blockval2 V c t p q

/-- The result array after region 2: the layer's value of the three input arrays as the region finds them. -/
theorem final2 (c : Dev nD) :
    (dat2 V c).arrAt 3 cfg2.N = Cert.Spec.lin (V c main_v5) (V c main_v34) (V c main_v4) :=
  (dat2 V c).arrAt_eq_of_cover 3 (Cert.Spec.lin (V c main_v5) (V c main_v34) (V c main_v4)) (fun t _ => flushed2 V c t) cover2

/-! ## Region 3 -/

/-- What point `t` writes back is block `t` of the layer's whole-array value. -/
theorem flushed3 (c : Dev nD) (t : Fin cfg3.N) :
    (dat3 V c).flushed 3 t = ((cfg3.win 3).blk t).view.read (Elt Ideal) (Cert.Spec.linRelu (V c main_v5) (V c main_v37) (V c main_v39)) := by
  show (cfg3.win 3).cut (grid3.coords t) ((dat3 V c).after 3 t) = _
  rw [after3_3]
  unfold out3_3
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  exact blockval3 V c t p q

/-- The result array after region 3: the layer's value of the three input arrays as the region finds them. -/
theorem final3 (c : Dev nD) :
    (dat3 V c).arrAt 3 cfg3.N = Cert.Spec.linRelu (V c main_v5) (V c main_v37) (V c main_v39) :=
  (dat3 V c).arrAt_eq_of_cover 3 (Cert.Spec.linRelu (V c main_v5) (V c main_v37) (V c main_v39)) (fun t _ => flushed3 V c t) cover3

/-! ## Region 5 -/

/-- What point `t` writes back is block `t` of the layer's whole-array value. -/
theorem flushed5 (c : Dev nD) (t : Fin cfg5.N) :
    (dat5 V c).flushed 3 t = ((cfg5.win 3).blk t).view.read (Elt Ideal) (Cert.Spec.lin (V c main_v53_0) (V c main_v55) (V c main_v4)) := by
  show (cfg5.win 3).cut (grid5.coords t) ((dat5 V c).after 3 t) = _
  rw [after5_3]
  unfold out5_3
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  exact blockval5 V c t p q

/-- The result array after region 5: the layer's value of the three input arrays as the region finds them. -/
theorem final5 (c : Dev nD) :
    (dat5 V c).arrAt 3 cfg5.N = Cert.Spec.lin (V c main_v53_0) (V c main_v55) (V c main_v4) :=
  (dat5 V c).arrAt_eq_of_cover 3 (Cert.Spec.lin (V c main_v53_0) (V c main_v55) (V c main_v4)) (fun t _ => flushed5 V c t) cover5

end Cert.Lin

end
-- ==== Proof.LinBlocksB.lean ====
/-
  Linear kernels 6, 8, 9, 11: what one grid point computes, as a block of the layer's whole-array value, and
  how the blocks tile the result array.

  Each grid point `t` of a linear kernel reads rows `2000·t … 2000·t+1999` of the input, the whole weight and the
  whole bias, and writes the same rows of the result. The body's arithmetic at row `p` of the block, feature `q`,
  is `Σ_k x[2000·t+p, k]·w[q,k] + b[q]` (then a maximum with zero or a hyperbolic tangent where the body has
  one): the layer's whole-array value at `(2000·t+p, q)`, because element `(p, k)` of the row block is element
  `(2000·t+p, k)` of the input array and the weight and bias blocks are the whole arrays. The 25 blocks tile the
  50000 rows: row `r` lies in block `r / 2000`.
-/
import proofs.«107783_j24189255811079_1_alg».proof.Proof.Gen.KernelIdeal.Launch
import proofs.«107783_j24189255811079_1_alg».proof.Proof.Gen.KernelIdeal.Points
import proofs.«107783_j24189255811079_1_alg».proof.Proof.Gen.KernelIdeal.Skeleton
import proofs.«107783_j24189255811079_1_alg».proof.Proof.Spec
import proofs.«107783_j24189255811079_1_alg».proof.Proof.LinPay
import Idealize.ShloMosaic.Lib.Pipeline.Value
import Idealize.ShloMosaic.Lib.ValueIdx

noncomputable section

namespace Cert.Lin

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 6: rows from `main_v53_0`, weight `main_v58`, bias `main_v60`, result `main_v61` -/

/-- The printed index maps over the grid: the row block and the result block sit at block row `t`, every
    other block index is zero. -/
theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = t.val ∧ win6_3.index t (1 : Fin 2) = 0 :=
  (by decide +kernel : ∀ t : Fin grid6.N, _)

/-- The body's arithmetic on the three blocks point `t` reads, at element `(p, q)` of the block, is the layer's
    whole-array value at the element of the result array that `(p, q)` of block `t` is. -/
theorem blockval6 (c : Dev nD) (t : Fin cfg6.N) (p : Fin 2000) (q : Fin 128) :
    k6_pay1 (((cfg6.win 0).blk t).view.read (Elt Ideal) (V c (Pipeline.arrRef spec6 0)))
        (((cfg6.win 1).blk t).view.read (Elt Ideal) (V c (Pipeline.arrRef spec6 1)))
        (((cfg6.win 2).blk t).view.read (Elt Ideal) (V c (Pipeline.arrRef spec6 2))) (ix2 p q)
      = Cert.Spec.linRelu (V c main_v53_0) (V c main_v58) (V c main_v60) (((cfg6.win 3).blk t).view.emb (ix2 p q)) := by
  obtain ⟨e00, e01, e10, e11, e20, e30, e31⟩ := idx6 t
  refine (k6_pay1_at _ _ _ p q).trans ?_
  have hx : ∀ k : Fin 128, (((cfg6.win 0).blk t).view.read (Elt Ideal) (V c (Pipeline.arrRef spec6 0))) (ix2 p k)
      = V c main_v53_0 (ix2 ((((cfg6.win 3).blk t).view.emb (ix2 p q)) 0 : Fin 50000) k) := fun k => by
    show V c main_v53_0 (((cfg6.win 0).blk t).view.emb (ix2 p k)) = _
    refine congrArg (V c main_v53_0) (funext fun a => Fin.ext ?_)
    match a with
    | ⟨0, _⟩ => show win6_0.index t (0 : Fin 2) * 2000 + 1 * p.val = win6_3.index t (0 : Fin 2) * 2000 + 1 * p.val; omega
    | ⟨1, _⟩ => show win6_0.index t (1 : Fin 2) * 128 + 1 * k.val = k.val; omega
  have hw : ∀ k : Fin 128, (((cfg6.win 1).blk t).view.read (Elt Ideal) (V c (Pipeline.arrRef spec6 1))) (ix2 q k)
      = V c main_v58 (ix2 ((((cfg6.win 3).blk t).view.emb (ix2 p q)) 1 : Fin 128) k) := fun k => by
    show V c main_v58 (((cfg6.win 1).blk t).view.emb (ix2 q k)) = _
    refine congrArg (V c main_v58) (funext fun a => Fin.ext ?_)
    match a with
    | ⟨0, _⟩ => show win6_1.index t (0 : Fin 2) * 128 + 1 * q.val = win6_3.index t (1 : Fin 2) * 128 + 1 * q.val; omega
    | ⟨1, _⟩ => show win6_1.index t (1 : Fin 2) * 128 + 1 * k.val = k.val; omega
  have hb : (((cfg6.win 2).blk t).view.read (Elt Ideal) (V c (Pipeline.arrRef spec6 2))) (ix1 q)
      = V c main_v60 (ix1 ((((cfg6.win 3).blk t).view.emb (ix2 p q)) 1 : Fin 128)) := by
    show V c main_v60 (((cfg6.win 2).blk t).view.emb (ix1 q)) = _
    refine congrArg (V c main_v60) (funext fun a => Fin.ext ?_)
    match a with
    | ⟨0, _⟩ => show win6_2.index t (0 : Fin 1) * 128 + 1 * q.val = win6_3.index t (1 : Fin 2) * 128 + 1 * q.val; omega
  rw [hb, Finset.sum_congr rfl fun k _ => by rw [hx k, hw k]]
  rfl

/-- An index of the result array is in point `t`'s block iff each coordinate is in the block's range. -/
theorem mem_blk6 (t : Fin cfg6.N) (i : S50000x128.Idx) :
    i ∈ ((cfg6.win 3).blk t).view.set ↔ ∀ a : Fin 2, win6_3.index t a * S2000x128.size a ≤ (i a).val ∧ (i a).val < win6_3.index t a * S2000x128.size a + S2000x128.size a := by
  show i ∈ ((View.whole main_v61).slice (win6_3.rect t)).set ↔ _
  rw [View.set_slice_whole, Rect.mem_set_unit]
  exact Iff.rfl

/-- The blocks tile the result array: row `r` is in the block of point `r / 2000`. -/
theorem cover6 (i : S50000x128.Idx) :
    ∃ t : Fin cfg6.N, (cfg6.win 3).flush t = true ∧ i ∈ ((cfg6.win 3).blk t).view.set := by
  have hi0 : (i 0).val < 50000 := (i 0).isLt
  have hi1 : (i 1).val < 128 := (i 1).isLt
  have hN : cfg6.N = 25 := N_6
  have ht : (i 0).val / 2000 < cfg6.N := by rw [hN]; omega
  refine ⟨⟨(i 0).val / 2000, ht⟩, flush6_3 _, ?_⟩
  rw [mem_blk6]
  obtain ⟨-, -, -, -, -, e30, e31⟩ := idx6 ⟨(i 0).val / 2000, ht⟩
  intro a
  match a with
  | ⟨0, _⟩ =>
    show win6_3.index ⟨(i 0).val / 2000, ht⟩ (0 : Fin 2) * 2000 ≤ (i 0).val ∧ (i 0).val < win6_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win6_3.index ⟨(i 0).val / 2000, ht⟩ (1 : Fin 2) * 128 ≤ (i 1).val ∧ (i 1).val < win6_3.index ⟨(i 0).val / 2000, ht⟩ (1 : Fin 2) * 128 + 128
    rw [e31]
    omega

/-! ## Region 8: rows from `main_v74_0`, weight `main_v76`, bias `main_v78`, result `main_v79` -/

/-- The printed index maps over the grid: the row block and the result block sit at block row `t`, every
    other block index is zero. -/
theorem idx8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 1) = 0
    ∧ win8_3.index t (0 : Fin 2) = t.val ∧ win8_3.index t (1 : Fin 2) = 0 :=
  (by decide +kernel : ∀ t : Fin grid8.N, _)

/-- The body's arithmetic on the three blocks point `t` reads, at element `(p, q)` of the block, is the layer's
    whole-array value at the element of the result array that `(p, q)` of block `t` is. -/
theorem blockval8 (c : Dev nD) (t : Fin cfg8.N) (p : Fin 2000) (q : Fin 128) :
    k8_pay1 (((cfg8.win 0).blk t).view.read (Elt Ideal) (V c (Pipeline.arrRef spec8 0)))
        (((cfg8.win 1).blk t).view.read (Elt Ideal) (V c (Pipeline.arrRef spec8 1)))
        (((cfg8.win 2).blk t).view.read (Elt Ideal) (V c (Pipeline.arrRef spec8 2))) (ix2 p q)
      = Cert.Spec.linTanh (V c main_v74_0) (V c main_v76) (V c main_v78) (((cfg8.win 3).blk t).view.emb (ix2 p q)) := by
  obtain ⟨e00, e01, e10, e11, e20, e30, e31⟩ := idx8 t
  refine (k8_pay1_at _ _ _ p q).trans ?_
  have hx : ∀ k : Fin 128, (((cfg8.win 0).blk t).view.read (Elt Ideal) (V c (Pipeline.arrRef spec8 0))) (ix2 p k)
      = V c main_v74_0 (ix2 ((((cfg8.win 3).blk t).view.emb (ix2 p q)) 0 : Fin 50000) k) := fun k => by
    show V c main_v74_0 (((cfg8.win 0).blk t).view.emb (ix2 p k)) = _
    refine congrArg (V c main_v74_0) (funext fun a => Fin.ext ?_)
    match a with
    | ⟨0, _⟩ => show win8_0.index t (0 : Fin 2) * 2000 + 1 * p.val = win8_3.index t (0 : Fin 2) * 2000 + 1 * p.val; omega
    | ⟨1, _⟩ => show win8_0.index t (1 : Fin 2) * 128 + 1 * k.val = k.val; omega
  have hw : ∀ k : Fin 128, (((cfg8.win 1).blk t).view.read (Elt Ideal) (V c (Pipeline.arrRef spec8 1))) (ix2 q k)
      = V c main_v76 (ix2 ((((cfg8.win 3).blk t).view.emb (ix2 p q)) 1 : Fin 128) k) := fun k => by
    show V c main_v76 (((cfg8.win 1).blk t).view.emb (ix2 q k)) = _
    refine congrArg (V c main_v76) (funext fun a => Fin.ext ?_)
    match a with
    | ⟨0, _⟩ => show win8_1.index t (0 : Fin 2) * 128 + 1 * q.val = win8_3.index t (1 : Fin 2) * 128 + 1 * q.val; omega
    | ⟨1, _⟩ => show win8_1.index t (1 : Fin 2) * 128 + 1 * k.val = k.val; omega
  have hb : (((cfg8.win 2).blk t).view.read (Elt Ideal) (V c (Pipeline.arrRef spec8 2))) (ix1 q)
      = V c main_v78 (ix1 ((((cfg8.win 3).blk t).view.emb (ix2 p q)) 1 : Fin 128)) := by
    show V c main_v78 (((cfg8.win 2).blk t).view.emb (ix1 q)) = _
    refine congrArg (V c main_v78) (funext fun a => Fin.ext ?_)
    match a with
    | ⟨0, _⟩ => show win8_2.index t (0 : Fin 1) * 128 + 1 * q.val = win8_3.index t (1 : Fin 2) * 128 + 1 * q.val; omega
  rw [hb, Finset.sum_congr rfl fun k _ => by rw [hx k, hw k]]
  rfl

/-- An index of the result array is in point `t`'s block iff each coordinate is in the block's range. -/
theorem mem_blk8 (t : Fin cfg8.N) (i : S50000x128.Idx) :
    i ∈ ((cfg8.win 3).blk t).view.set ↔ ∀ a : Fin 2, win8_3.index t a * S2000x128.size a ≤ (i a).val ∧ (i a).val < win8_3.index t a * S2000x128.size a + S2000x128.size a := by
  show i ∈ ((View.whole main_v79).slice (win8_3.rect t)).set ↔ _
  rw [View.set_slice_whole, Rect.mem_set_unit]
  exact Iff.rfl

/-- The blocks tile the result array: row `r` is in the block of point `r / 2000`. -/
theorem cover8 (i : S50000x128.Idx) :
    ∃ t : Fin cfg8.N, (cfg8.win 3).flush t = true ∧ i ∈ ((cfg8.win 3).blk t).view.set := by
  have hi0 : (i 0).val < 50000 := (i 0).isLt
  have hi1 : (i 1).val < 128 := (i 1).isLt
  have hN : cfg8.N = 25 := N_8
  have ht : (i 0).val / 2000 < cfg8.N := by rw [hN]; omega
  refine ⟨⟨(i 0).val / 2000, ht⟩, flush8_3 _, ?_⟩
  rw [mem_blk8]
  obtain ⟨-, -, -, -, -, e30, e31⟩ := idx8 ⟨(i 0).val / 2000, ht⟩
  intro a
  match a with
  | ⟨0, _⟩ =>
    show win8_3.index ⟨(i 0).val / 2000, ht⟩ (0 : Fin 2) * 2000 ≤ (i 0).val ∧ (i 0).val < win8_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win8_3.index ⟨(i 0).val / 2000, ht⟩ (1 : Fin 2) * 128 ≤ (i 1).val ∧ (i 1).val < win8_3.index ⟨(i 0).val / 2000, ht⟩ (1 : Fin 2) * 128 + 128
    rw [e31]
    omega

/-! ## Region 9: rows from `main_v79`, weight `main_v81`, bias `main_v83`, result `main_v84` -/

/-- The printed index maps over the grid: the row block and the result block sit at block row `t`, every
    other block index is zero. -/
theorem idx9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 1) = 0
    ∧ win9_3.index t (0 : Fin 2) = t.val ∧ win9_3.index t (1 : Fin 2) = 0 :=
  (by decide +kernel : ∀ t : Fin grid9.N, _)

/-- The body's arithmetic on the three blocks point `t` reads, at element `(p, q)` of the block, is the layer's
    whole-array value at the element of the result array that `(p, q)` of block `t` is. -/
theorem blockval9 (c : Dev nD) (t : Fin cfg9.N) (p : Fin 2000) (q : Fin 128) :
    k9_pay1 (((cfg9.win 0).blk t).view.read (Elt Ideal) (V c (Pipeline.arrRef spec9 0)))
        (((cfg9.win 1).blk t).view.read (Elt Ideal) (V c (Pipeline.arrRef spec9 1)))
        (((cfg9.win 2).blk t).view.read (Elt Ideal) (V c (Pipeline.arrRef spec9 2))) (ix2 p q)
      = Cert.Spec.lin (V c main_v79) (V c main_v81) (V c main_v83) (((cfg9.win 3).blk t).view.emb (ix2 p q)) := by
  obtain ⟨e00, e01, e10, e11, e20, e30, e31⟩ := idx9 t
  refine (k9_pay1_at _ _ _ p q).trans ?_
  have hx : ∀ k : Fin 128, (((cfg9.win 0).blk t).view.read (Elt Ideal) (V c (Pipeline.arrRef spec9 0))) (ix2 p k)
      = V c main_v79 (ix2 ((((cfg9.win 3).blk t).view.emb (ix2 p q)) 0 : Fin 50000) k) := fun k => by
    show V c main_v79 (((cfg9.win 0).blk t).view.emb (ix2 p k)) = _
    refine congrArg (V c main_v79) (funext fun a => Fin.ext ?_)
    match a with
    | ⟨0, _⟩ => show win9_0.index t (0 : Fin 2) * 2000 + 1 * p.val = win9_3.index t (0 : Fin 2) * 2000 + 1 * p.val; omega
    | ⟨1, _⟩ => show win9_0.index t (1 : Fin 2) * 128 + 1 * k.val = k.val; omega
  have hw : ∀ k : Fin 128, (((cfg9.win 1).blk t).view.read (Elt Ideal) (V c (Pipeline.arrRef spec9 1))) (ix2 q k)
      = V c main_v81 (ix2 ((((cfg9.win 3).blk t).view.emb (ix2 p q)) 1 : Fin 128) k) := fun k => by
    show V c main_v81 (((cfg9.win 1).blk t).view.emb (ix2 q k)) = _
    refine congrArg (V c main_v81) (funext fun a => Fin.ext ?_)
    match a with
    | ⟨0, _⟩ => show win9_1.index t (0 : Fin 2) * 128 + 1 * q.val = win9_3.index t (1 : Fin 2) * 128 + 1 * q.val; omega
    | ⟨1, _⟩ => show win9_1.index t (1 : Fin 2) * 128 + 1 * k.val = k.val; omega
  have hb : (((cfg9.win 2).blk t).view.read (Elt Ideal) (V c (Pipeline.arrRef spec9 2))) (ix1 q)
      = V c main_v83 (ix1 ((((cfg9.win 3).blk t).view.emb (ix2 p q)) 1 : Fin 128)) := by
    show V c main_v83 (((cfg9.win 2).blk t).view.emb (ix1 q)) = _
    refine congrArg (V c main_v83) (funext fun a => Fin.ext ?_)
    match a with
    | ⟨0, _⟩ => show win9_2.index t (0 : Fin 1) * 128 + 1 * q.val = win9_3.index t (1 : Fin 2) * 128 + 1 * q.val; omega
  rw [hb, Finset.sum_congr rfl fun k _ => by rw [hx k, hw k]]
  rfl

/-- An index of the result array is in point `t`'s block iff each coordinate is in the block's range. -/
theorem mem_blk9 (t : Fin cfg9.N) (i : S50000x128.Idx) :
    i ∈ ((cfg9.win 3).blk t).view.set ↔ ∀ a : Fin 2, win9_3.index t a * S2000x128.size a ≤ (i a).val ∧ (i a).val < win9_3.index t a * S2000x128.size a + S2000x128.size a := by
  show i ∈ ((View.whole main_v84).slice (win9_3.rect t)).set ↔ _
  rw [View.set_slice_whole, Rect.mem_set_unit]
  exact Iff.rfl

/-- The blocks tile the result array: row `r` is in the block of point `r / 2000`. -/
theorem cover9 (i : S50000x128.Idx) :
    ∃ t : Fin cfg9.N, (cfg9.win 3).flush t = true ∧ i ∈ ((cfg9.win 3).blk t).view.set := by
  have hi0 : (i 0).val < 50000 := (i 0).isLt
  have hi1 : (i 1).val < 128 := (i 1).isLt
  have hN : cfg9.N = 25 := N_9
  have ht : (i 0).val / 2000 < cfg9.N := by rw [hN]; omega
  refine ⟨⟨(i 0).val / 2000, ht⟩, flush9_3 _, ?_⟩
  rw [mem_blk9]
  obtain ⟨-, -, -, -, -, e30, e31⟩ := idx9 ⟨(i 0).val / 2000, ht⟩
  intro a
  match a with
  | ⟨0, _⟩ =>
    show win9_3.index ⟨(i 0).val / 2000, ht⟩ (0 : Fin 2) * 2000 ≤ (i 0).val ∧ (i 0).val < win9_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win9_3.index ⟨(i 0).val / 2000, ht⟩ (1 : Fin 2) * 128 ≤ (i 1).val ∧ (i 1).val < win9_3.index ⟨(i 0).val / 2000, ht⟩ (1 : Fin 2) * 128 + 128
    rw [e31]
    omega

/-! ## Region 11: rows from `main_v84`, weight `main_v113`, bias `main_v4`, result `main_v114` -/

/-- The printed index maps over the grid: the row block and the result block sit at block row `t`, every
    other block index is zero. -/
theorem idx11 : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 1) = 0
    ∧ win11_3.index t (0 : Fin 2) = t.val ∧ win11_3.index t (1 : Fin 2) = 0 :=
  (by decide +kernel : ∀ t : Fin grid11.N, _)

/-- The body's arithmetic on the three blocks point `t` reads, at element `(p, q)` of the block, is the layer's
    whole-array value at the element of the result array that `(p, q)` of block `t` is. -/
theorem blockval11 (c : Dev nD) (t : Fin cfg11.N) (p : Fin 2000) (q : Fin 128) :
    k11_pay1 (((cfg11.win 0).blk t).view.read (Elt Ideal) (V c (Pipeline.arrRef spec11 0)))
        (((cfg11.win 1).blk t).view.read (Elt Ideal) (V c (Pipeline.arrRef spec11 1)))
        (((cfg11.win 2).blk t).view.read (Elt Ideal) (V c (Pipeline.arrRef spec11 2))) (ix2 p q)
      = Cert.Spec.lin (V c main_v84) (V c main_v113) (V c main_v4) (((cfg11.win 3).blk t).view.emb (ix2 p q)) := by
  obtain ⟨e00, e01, e10, e11, e20, e30, e31⟩ := idx11 t
  refine (k11_pay1_at _ _ _ p q).trans ?_
  have hx : ∀ k : Fin 128, (((cfg11.win 0).blk t).view.read (Elt Ideal) (V c (Pipeline.arrRef spec11 0))) (ix2 p k)
      = V c main_v84 (ix2 ((((cfg11.win 3).blk t).view.emb (ix2 p q)) 0 : Fin 50000) k) := fun k => by
    show V c main_v84 (((cfg11.win 0).blk t).view.emb (ix2 p k)) = _
    refine congrArg (V c main_v84) (funext fun a => Fin.ext ?_)
    match a with
    | ⟨0, _⟩ => show win11_0.index t (0 : Fin 2) * 2000 + 1 * p.val = win11_3.index t (0 : Fin 2) * 2000 + 1 * p.val; omega
    | ⟨1, _⟩ => show win11_0.index t (1 : Fin 2) * 128 + 1 * k.val = k.val; omega
  have hw : ∀ k : Fin 128, (((cfg11.win 1).blk t).view.read (Elt Ideal) (V c (Pipeline.arrRef spec11 1))) (ix2 q k)
      = V c main_v113 (ix2 ((((cfg11.win 3).blk t).view.emb (ix2 p q)) 1 : Fin 128) k) := fun k => by
    show V c main_v113 (((cfg11.win 1).blk t).view.emb (ix2 q k)) = _
    refine congrArg (V c main_v113) (funext fun a => Fin.ext ?_)
    match a with
    | ⟨0, _⟩ => show win11_1.index t (0 : Fin 2) * 128 + 1 * q.val = win11_3.index t (1 : Fin 2) * 128 + 1 * q.val; omega
    | ⟨1, _⟩ => show win11_1.index t (1 : Fin 2) * 128 + 1 * k.val = k.val; omega
  have hb : (((cfg11.win 2).blk t).view.read (Elt Ideal) (V c (Pipeline.arrRef spec11 2))) (ix1 q)
      = V c main_v4 (ix1 ((((cfg11.win 3).blk t).view.emb (ix2 p q)) 1 : Fin 128)) := by
    show V c main_v4 (((cfg11.win 2).blk t).view.emb (ix1 q)) = _
    refine congrArg (V c main_v4) (funext fun a => Fin.ext ?_)
    match a with
    | ⟨0, _⟩ => show win11_2.index t (0 : Fin 1) * 128 + 1 * q.val = win11_3.index t (1 : Fin 2) * 128 + 1 * q.val; omega
  rw [hb, Finset.sum_congr rfl fun k _ => by rw [hx k, hw k]]
  rfl

/-- An index of the result array is in point `t`'s block iff each coordinate is in the block's range. -/
theorem mem_blk11 (t : Fin cfg11.N) (i : S50000x128.Idx) :
    i ∈ ((cfg11.win 3).blk t).view.set ↔ ∀ a : Fin 2, win11_3.index t a * S2000x128.size a ≤ (i a).val ∧ (i a).val < win11_3.index t a * S2000x128.size a + S2000x128.size a := by
  show i ∈ ((View.whole main_v114).slice (win11_3.rect t)).set ↔ _
  rw [View.set_slice_whole, Rect.mem_set_unit]
  exact Iff.rfl

/-- The blocks tile the result array: row `r` is in the block of point `r / 2000`. -/
theorem cover11 (i : S50000x128.Idx) :
    ∃ t : Fin cfg11.N, (cfg11.win 3).flush t = true ∧ i ∈ ((cfg11.win 3).blk t).view.set := by
  have hi0 : (i 0).val < 50000 := (i 0).isLt
  have hi1 : (i 1).val < 128 := (i 1).isLt
  have hN : cfg11.N = 25 := N_11
  have ht : (i 0).val / 2000 < cfg11.N := by rw [hN]; omega
  refine ⟨⟨(i 0).val / 2000, ht⟩, flush11_3 _, ?_⟩
  rw [mem_blk11]
  obtain ⟨-, -, -, -, -, e30, e31⟩ := idx11 ⟨(i 0).val / 2000, ht⟩
  intro a
  match a with
  | ⟨0, _⟩ =>
    show win11_3.index ⟨(i 0).val / 2000, ht⟩ (0 : Fin 2) * 2000 ≤ (i 0).val ∧ (i 0).val < win11_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win11_3.index ⟨(i 0).val / 2000, ht⟩ (1 : Fin 2) * 128 ≤ (i 1).val ∧ (i 1).val < win11_3.index ⟨(i 0).val / 2000, ht⟩ (1 : Fin 2) * 128 + 128
    rw [e31]
    omega

end Cert.Lin

end
-- ==== Proof.LinFinalB.lean ====
/-
  Linear kernels 6, 8, 9, 11: the whole result array after the region.

  Every grid point writes back block `t` of the layer's whole-array value (the body's arithmetic on the blocks
  it reads is that value at the block's elements), and the blocks tile the result array; so after the region
  the result array holds the layer's value of the three input arrays everywhere.
-/
import proofs.«107783_j24189255811079_1_alg».proof.Proof.Gen.KernelIdeal.Frame
import proofs.«107783_j24189255811079_1_alg».proof.Proof.LinBlocksB

noncomputable section

namespace Cert.Lin

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 6 -/

/-- What point `t` writes back is block `t` of the layer's whole-array value. -/
theorem flushed6 (c : Dev nD) (t : Fin cfg6.N) :
    (dat6 V c).flushed 3 t = ((cfg6.win 3).blk t).view.read (Elt Ideal) (Cert.Spec.linRelu (V c main_v53_0) (V c main_v58) (V c main_v60)) := by
  show (cfg6.win 3).cut (grid6.coords t) ((dat6 V c).after 3 t) = _
  rw [after6_3]
  unfold out6_3
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  exact blockval6 V c t p q

/-- The result array after region 6: the layer's value of the three input arrays as the region finds them. -/
theorem final6 (c : Dev nD) :
    (dat6 V c).arrAt 3 cfg6.N = Cert.Spec.linRelu (V c main_v53_0) (V c main_v58) (V c main_v60) :=
  (dat6 V c).arrAt_eq_of_cover 3 (Cert.Spec.linRelu (V c main_v53_0) (V c main_v58) (V c main_v60)) (fun t _ => flushed6 V c t) cover6

/-! ## Region 8 -/

/-- What point `t` writes back is block `t` of the layer's whole-array value. -/
theorem flushed8 (c : Dev nD) (t : Fin cfg8.N) :
    (dat8 V c).flushed 3 t = ((cfg8.win 3).blk t).view.read (Elt Ideal) (Cert.Spec.linTanh (V c main_v74_0) (V c main_v76) (V c main_v78)) := by
  show (cfg8.win 3).cut (grid8.coords t) ((dat8 V c).after 3 t) = _
  rw [after8_3]
  unfold out8_3
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  exact blockval8 V c t p q

/-- The result array after region 8: the layer's value of the three input arrays as the region finds them. -/
theorem final8 (c : Dev nD) :
    (dat8 V c).arrAt 3 cfg8.N = Cert.Spec.linTanh (V c main_v74_0) (V c main_v76) (V c main_v78) :=
  (dat8 V c).arrAt_eq_of_cover 3 (Cert.Spec.linTanh (V c main_v74_0) (V c main_v76) (V c main_v78)) (fun t _ => flushed8 V c t) cover8

/-! ## Region 9 -/

/-- What point `t` writes back is block `t` of the layer's whole-array value. -/
theorem flushed9 (c : Dev nD) (t : Fin cfg9.N) :
    (dat9 V c).flushed 3 t = ((cfg9.win 3).blk t).view.read (Elt Ideal) (Cert.Spec.lin (V c main_v79) (V c main_v81) (V c main_v83)) := by
  show (cfg9.win 3).cut (grid9.coords t) ((dat9 V c).after 3 t) = _
  rw [after9_3]
  unfold out9_3
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  exact blockval9 V c t p q

/-- The result array after region 9: the layer's value of the three input arrays as the region finds them. -/
theorem final9 (c : Dev nD) :
    (dat9 V c).arrAt 3 cfg9.N = Cert.Spec.lin (V c main_v79) (V c main_v81) (V c main_v83) :=
  (dat9 V c).arrAt_eq_of_cover 3 (Cert.Spec.lin (V c main_v79) (V c main_v81) (V c main_v83)) (fun t _ => flushed9 V c t) cover9

/-! ## Region 11 -/

/-- What point `t` writes back is block `t` of the layer's whole-array value. -/
theorem flushed11 (c : Dev nD) (t : Fin cfg11.N) :
    (dat11 V c).flushed 3 t = ((cfg11.win 3).blk t).view.read (Elt Ideal) (Cert.Spec.lin (V c main_v84) (V c main_v113) (V c main_v4)) := by
  show (cfg11.win 3).cut (grid11.coords t) ((dat11 V c).after 3 t) = _
  rw [after11_3]
  unfold out11_3
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  exact blockval11 V c t p q

/-- The result array after region 11: the layer's value of the three input arrays as the region finds them. -/
theorem final11 (c : Dev nD) :
    (dat11 V c).arrAt 3 cfg11.N = Cert.Spec.lin (V c main_v84) (V c main_v113) (V c main_v4) :=
  (dat11 V c).arrAt_eq_of_cover 3 (Cert.Spec.lin (V c main_v84) (V c main_v113) (V c main_v4)) (fun t _ => flushed11 V c t) cover11

end Cert.Lin

end
-- ==== Proof.LinBlocksC.lean ====
/-
  Linear kernels 12, 14, 15, 17: what one grid point computes, as a block of the layer's whole-array value, and
  how the blocks tile the result array.

  Each grid point `t` of a linear kernel reads rows `2000·t … 2000·t+1999` of the input, the whole weight and the
  whole bias, and writes the same rows of the result. The body's arithmetic at row `p` of the block, feature `q`,
  is `Σ_k x[2000·t+p, k]·w[q,k] + b[q]` (then a maximum with zero or a hyperbolic tangent where the body has
  one): the layer's whole-array value at `(2000·t+p, q)`, because element `(p, k)` of the row block is element
  `(2000·t+p, k)` of the input array and the weight and bias blocks are the whole arrays. The 25 blocks tile the
  50000 rows: row `r` lies in block `r / 2000`.
-/
import proofs.«107783_j24189255811079_1_alg».proof.Proof.Gen.KernelIdeal.Launch
import proofs.«107783_j24189255811079_1_alg».proof.Proof.Gen.KernelIdeal.Points
import proofs.«107783_j24189255811079_1_alg».proof.Proof.Gen.KernelIdeal.Skeleton
import proofs.«107783_j24189255811079_1_alg».proof.Proof.Spec
import proofs.«107783_j24189255811079_1_alg».proof.Proof.LinPay
import Idealize.ShloMosaic.Lib.Pipeline.Value
import Idealize.ShloMosaic.Lib.ValueIdx

noncomputable section

namespace Cert.Lin

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 12: rows from `main_v84`, weight `main_v116`, bias `main_v118`, result `main_v119` -/

/-- The printed index maps over the grid: the row block and the result block sit at block row `t`, every
    other block index is zero. -/
theorem idx12 : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 1) = 0
    ∧ win12_3.index t (0 : Fin 2) = t.val ∧ win12_3.index t (1 : Fin 2) = 0 :=
  (by decide +kernel : ∀ t : Fin grid12.N, _)

/-- The body's arithmetic on the three blocks point `t` reads, at element `(p, q)` of the block, is the layer's
    whole-array value at the element of the result array that `(p, q)` of block `t` is. -/
theorem blockval12 (c : Dev nD) (t : Fin cfg12.N) (p : Fin 2000) (q : Fin 128) :
    k12_pay1 (((cfg12.win 0).blk t).view.read (Elt Ideal) (V c (Pipeline.arrRef spec12 0)))
        (((cfg12.win 1).blk t).view.read (Elt Ideal) (V c (Pipeline.arrRef spec12 1)))
        (((cfg12.win 2).blk t).view.read (Elt Ideal) (V c (Pipeline.arrRef spec12 2))) (ix2 p q)
      = Cert.Spec.linRelu (V c main_v84) (V c main_v116) (V c main_v118) (((cfg12.win 3).blk t).view.emb (ix2 p q)) := by
  obtain ⟨e00, e01, e10, e11, e20, e30, e31⟩ := idx12 t
  refine (k12_pay1_at _ _ _ p q).trans ?_
  have hx : ∀ k : Fin 128, (((cfg12.win 0).blk t).view.read (Elt Ideal) (V c (Pipeline.arrRef spec12 0))) (ix2 p k)
      = V c main_v84 (ix2 ((((cfg12.win 3).blk t).view.emb (ix2 p q)) 0 : Fin 50000) k) := fun k => by
    show V c main_v84 (((cfg12.win 0).blk t).view.emb (ix2 p k)) = _
    refine congrArg (V c main_v84) (funext fun a => Fin.ext ?_)
    match a with
    | ⟨0, _⟩ => show win12_0.index t (0 : Fin 2) * 2000 + 1 * p.val = win12_3.index t (0 : Fin 2) * 2000 + 1 * p.val; omega
    | ⟨1, _⟩ => show win12_0.index t (1 : Fin 2) * 128 + 1 * k.val = k.val; omega
  have hw : ∀ k : Fin 128, (((cfg12.win 1).blk t).view.read (Elt Ideal) (V c (Pipeline.arrRef spec12 1))) (ix2 q k)
      = V c main_v116 (ix2 ((((cfg12.win 3).blk t).view.emb (ix2 p q)) 1 : Fin 128) k) := fun k => by
    show V c main_v116 (((cfg12.win 1).blk t).view.emb (ix2 q k)) = _
    refine congrArg (V c main_v116) (funext fun a => Fin.ext ?_)
    match a with
    | ⟨0, _⟩ => show win12_1.index t (0 : Fin 2) * 128 + 1 * q.val = win12_3.index t (1 : Fin 2) * 128 + 1 * q.val; omega
    | ⟨1, _⟩ => show win12_1.index t (1 : Fin 2) * 128 + 1 * k.val = k.val; omega
  have hb : (((cfg12.win 2).blk t).view.read (Elt Ideal) (V c (Pipeline.arrRef spec12 2))) (ix1 q)
      = V c main_v118 (ix1 ((((cfg12.win 3).blk t).view.emb (ix2 p q)) 1 : Fin 128)) := by
    show V c main_v118 (((cfg12.win 2).blk t).view.emb (ix1 q)) = _
    refine congrArg (V c main_v118) (funext fun a => Fin.ext ?_)
    match a with
    | ⟨0, _⟩ => show win12_2.index t (0 : Fin 1) * 128 + 1 * q.val = win12_3.index t (1 : Fin 2) * 128 + 1 * q.val; omega
  rw [hb, Finset.sum_congr rfl fun k _ => by rw [hx k, hw k]]
  rfl

/-- An index of the result array is in point `t`'s block iff each coordinate is in the block's range. -/
theorem mem_blk12 (t : Fin cfg12.N) (i : S50000x128.Idx) :
    i ∈ ((cfg12.win 3).blk t).view.set ↔ ∀ a : Fin 2, win12_3.index t a * S2000x128.size a ≤ (i a).val ∧ (i a).val < win12_3.index t a * S2000x128.size a + S2000x128.size a := by
  show i ∈ ((View.whole main_v119).slice (win12_3.rect t)).set ↔ _
  rw [View.set_slice_whole, Rect.mem_set_unit]
  exact Iff.rfl

/-- The blocks tile the result array: row `r` is in the block of point `r / 2000`. -/
theorem cover12 (i : S50000x128.Idx) :
    ∃ t : Fin cfg12.N, (cfg12.win 3).flush t = true ∧ i ∈ ((cfg12.win 3).blk t).view.set := by
  have hi0 : (i 0).val < 50000 := (i 0).isLt
  have hi1 : (i 1).val < 128 := (i 1).isLt
  have hN : cfg12.N = 25 := N_12
  have ht : (i 0).val / 2000 < cfg12.N := by rw [hN]; omega
  refine ⟨⟨(i 0).val / 2000, ht⟩, flush12_3 _, ?_⟩
  rw [mem_blk12]
  obtain ⟨-, -, -, -, -, e30, e31⟩ := idx12 ⟨(i 0).val / 2000, ht⟩
  intro a
  match a with
  | ⟨0, _⟩ =>
    show win12_3.index ⟨(i 0).val / 2000, ht⟩ (0 : Fin 2) * 2000 ≤ (i 0).val ∧ (i 0).val < win12_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win12_3.index ⟨(i 0).val / 2000, ht⟩ (1 : Fin 2) * 128 ≤ (i 1).val ∧ (i 1).val < win12_3.index ⟨(i 0).val / 2000, ht⟩ (1 : Fin 2) * 128 + 128
    rw [e31]
    omega

/-! ## Region 14: rows from `main_v132_0`, weight `main_v134`, bias `main_v4`, result `main_v135` -/

/-- The printed index maps over the grid: the row block and the result block sit at block row `t`, every
    other block index is zero. -/
theorem idx14 : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 1) = 0
    ∧ win14_3.index t (0 : Fin 2) = t.val ∧ win14_3.index t (1 : Fin 2) = 0 :=
  (by decide +kernel : ∀ t : Fin grid14.N, _)

/-- The body's arithmetic on the three blocks point `t` reads, at element `(p, q)` of the block, is the layer's
    whole-array value at the element of the result array that `(p, q)` of block `t` is. -/
theorem blockval14 (c : Dev nD) (t : Fin cfg14.N) (p : Fin 2000) (q : Fin 128) :
    k14_pay1 (((cfg14.win 0).blk t).view.read (Elt Ideal) (V c (Pipeline.arrRef spec14 0)))
        (((cfg14.win 1).blk t).view.read (Elt Ideal) (V c (Pipeline.arrRef spec14 1)))
        (((cfg14.win 2).blk t).view.read (Elt Ideal) (V c (Pipeline.arrRef spec14 2))) (ix2 p q)
      = Cert.Spec.lin (V c main_v132_0) (V c main_v134) (V c main_v4) (((cfg14.win 3).blk t).view.emb (ix2 p q)) := by
  obtain ⟨e00, e01, e10, e11, e20, e30, e31⟩ := idx14 t
  refine (k14_pay1_at _ _ _ p q).trans ?_
  have hx : ∀ k : Fin 128, (((cfg14.win 0).blk t).view.read (Elt Ideal) (V c (Pipeline.arrRef spec14 0))) (ix2 p k)
      = V c main_v132_0 (ix2 ((((cfg14.win 3).blk t).view.emb (ix2 p q)) 0 : Fin 50000) k) := fun k => by
    show V c main_v132_0 (((cfg14.win 0).blk t).view.emb (ix2 p k)) = _
    refine congrArg (V c main_v132_0) (funext fun a => Fin.ext ?_)
    match a with
    | ⟨0, _⟩ => show win14_0.index t (0 : Fin 2) * 2000 + 1 * p.val = win14_3.index t (0 : Fin 2) * 2000 + 1 * p.val; omega
    | ⟨1, _⟩ => show win14_0.index t (1 : Fin 2) * 128 + 1 * k.val = k.val; omega
  have hw : ∀ k : Fin 128, (((cfg14.win 1).blk t).view.read (Elt Ideal) (V c (Pipeline.arrRef spec14 1))) (ix2 q k)
      = V c main_v134 (ix2 ((((cfg14.win 3).blk t).view.emb (ix2 p q)) 1 : Fin 128) k) := fun k => by
    show V c main_v134 (((cfg14.win 1).blk t).view.emb (ix2 q k)) = _
    refine congrArg (V c main_v134) (funext fun a => Fin.ext ?_)
    match a with
    | ⟨0, _⟩ => show win14_1.index t (0 : Fin 2) * 128 + 1 * q.val = win14_3.index t (1 : Fin 2) * 128 + 1 * q.val; omega
    | ⟨1, _⟩ => show win14_1.index t (1 : Fin 2) * 128 + 1 * k.val = k.val; omega
  have hb : (((cfg14.win 2).blk t).view.read (Elt Ideal) (V c (Pipeline.arrRef spec14 2))) (ix1 q)
      = V c main_v4 (ix1 ((((cfg14.win 3).blk t).view.emb (ix2 p q)) 1 : Fin 128)) := by
    show V c main_v4 (((cfg14.win 2).blk t).view.emb (ix1 q)) = _
    refine congrArg (V c main_v4) (funext fun a => Fin.ext ?_)
    match a with
    | ⟨0, _⟩ => show win14_2.index t (0 : Fin 1) * 128 + 1 * q.val = win14_3.index t (1 : Fin 2) * 128 + 1 * q.val; omega
  rw [hb, Finset.sum_congr rfl fun k _ => by rw [hx k, hw k]]
  rfl

/-- An index of the result array is in point `t`'s block iff each coordinate is in the block's range. -/
theorem mem_blk14 (t : Fin cfg14.N) (i : S50000x128.Idx) :
    i ∈ ((cfg14.win 3).blk t).view.set ↔ ∀ a : Fin 2, win14_3.index t a * S2000x128.size a ≤ (i a).val ∧ (i a).val < win14_3.index t a * S2000x128.size a + S2000x128.size a := by
  show i ∈ ((View.whole main_v135).slice (win14_3.rect t)).set ↔ _
  rw [View.set_slice_whole, Rect.mem_set_unit]
  exact Iff.rfl

/-- The blocks tile the result array: row `r` is in the block of point `r / 2000`. -/
theorem cover14 (i : S50000x128.Idx) :
    ∃ t : Fin cfg14.N, (cfg14.win 3).flush t = true ∧ i ∈ ((cfg14.win 3).blk t).view.set := by
  have hi0 : (i 0).val < 50000 := (i 0).isLt
  have hi1 : (i 1).val < 128 := (i 1).isLt
  have hN : cfg14.N = 25 := N_14
  have ht : (i 0).val / 2000 < cfg14.N := by rw [hN]; omega
  refine ⟨⟨(i 0).val / 2000, ht⟩, flush14_3 _, ?_⟩
  rw [mem_blk14]
  obtain ⟨-, -, -, -, -, e30, e31⟩ := idx14 ⟨(i 0).val / 2000, ht⟩
  intro a
  match a with
  | ⟨0, _⟩ =>
    show win14_3.index ⟨(i 0).val / 2000, ht⟩ (0 : Fin 2) * 2000 ≤ (i 0).val ∧ (i 0).val < win14_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win14_3.index ⟨(i 0).val / 2000, ht⟩ (1 : Fin 2) * 128 ≤ (i 1).val ∧ (i 1).val < win14_3.index ⟨(i 0).val / 2000, ht⟩ (1 : Fin 2) * 128 + 128
    rw [e31]
    omega

/-! ## Region 15: rows from `main_v132_0`, weight `main_v137`, bias `main_v139`, result `main_v140` -/

/-- The printed index maps over the grid: the row block and the result block sit at block row `t`, every
    other block index is zero. -/
theorem idx15 : ∀ t : Fin cfg15.N,
    win15_0.index t (0 : Fin 2) = t.val ∧ win15_0.index t (1 : Fin 2) = 0
    ∧ win15_1.index t (0 : Fin 2) = 0 ∧ win15_1.index t (1 : Fin 2) = 0
    ∧ win15_2.index t (0 : Fin 1) = 0
    ∧ win15_3.index t (0 : Fin 2) = t.val ∧ win15_3.index t (1 : Fin 2) = 0 :=
  (by decide +kernel : ∀ t : Fin grid15.N, _)

/-- The body's arithmetic on the three blocks point `t` reads, at element `(p, q)` of the block, is the layer's
    whole-array value at the element of the result array that `(p, q)` of block `t` is. -/
theorem blockval15 (c : Dev nD) (t : Fin cfg15.N) (p : Fin 2000) (q : Fin 128) :
    k15_pay1 (((cfg15.win 0).blk t).view.read (Elt Ideal) (V c (Pipeline.arrRef spec15 0)))
        (((cfg15.win 1).blk t).view.read (Elt Ideal) (V c (Pipeline.arrRef spec15 1)))
        (((cfg15.win 2).blk t).view.read (Elt Ideal) (V c (Pipeline.arrRef spec15 2))) (ix2 p q)
      = Cert.Spec.linRelu (V c main_v132_0) (V c main_v137) (V c main_v139) (((cfg15.win 3).blk t).view.emb (ix2 p q)) := by
  obtain ⟨e00, e01, e10, e11, e20, e30, e31⟩ := idx15 t
  refine (k15_pay1_at _ _ _ p q).trans ?_
  have hx : ∀ k : Fin 128, (((cfg15.win 0).blk t).view.read (Elt Ideal) (V c (Pipeline.arrRef spec15 0))) (ix2 p k)
      = V c main_v132_0 (ix2 ((((cfg15.win 3).blk t).view.emb (ix2 p q)) 0 : Fin 50000) k) := fun k => by
    show V c main_v132_0 (((cfg15.win 0).blk t).view.emb (ix2 p k)) = _
    refine congrArg (V c main_v132_0) (funext fun a => Fin.ext ?_)
    match a with
    | ⟨0, _⟩ => show win15_0.index t (0 : Fin 2) * 2000 + 1 * p.val = win15_3.index t (0 : Fin 2) * 2000 + 1 * p.val; omega
    | ⟨1, _⟩ => show win15_0.index t (1 : Fin 2) * 128 + 1 * k.val = k.val; omega
  have hw : ∀ k : Fin 128, (((cfg15.win 1).blk t).view.read (Elt Ideal) (V c (Pipeline.arrRef spec15 1))) (ix2 q k)
      = V c main_v137 (ix2 ((((cfg15.win 3).blk t).view.emb (ix2 p q)) 1 : Fin 128) k) := fun k => by
    show V c main_v137 (((cfg15.win 1).blk t).view.emb (ix2 q k)) = _
    refine congrArg (V c main_v137) (funext fun a => Fin.ext ?_)
    match a with
    | ⟨0, _⟩ => show win15_1.index t (0 : Fin 2) * 128 + 1 * q.val = win15_3.index t (1 : Fin 2) * 128 + 1 * q.val; omega
    | ⟨1, _⟩ => show win15_1.index t (1 : Fin 2) * 128 + 1 * k.val = k.val; omega
  have hb : (((cfg15.win 2).blk t).view.read (Elt Ideal) (V c (Pipeline.arrRef spec15 2))) (ix1 q)
      = V c main_v139 (ix1 ((((cfg15.win 3).blk t).view.emb (ix2 p q)) 1 : Fin 128)) := by
    show V c main_v139 (((cfg15.win 2).blk t).view.emb (ix1 q)) = _
    refine congrArg (V c main_v139) (funext fun a => Fin.ext ?_)
    match a with
    | ⟨0, _⟩ => show win15_2.index t (0 : Fin 1) * 128 + 1 * q.val = win15_3.index t (1 : Fin 2) * 128 + 1 * q.val; omega
  rw [hb, Finset.sum_congr rfl fun k _ => by rw [hx k, hw k]]
  rfl

/-- An index of the result array is in point `t`'s block iff each coordinate is in the block's range. -/
theorem mem_blk15 (t : Fin cfg15.N) (i : S50000x128.Idx) :
    i ∈ ((cfg15.win 3).blk t).view.set ↔ ∀ a : Fin 2, win15_3.index t a * S2000x128.size a ≤ (i a).val ∧ (i a).val < win15_3.index t a * S2000x128.size a + S2000x128.size a := by
  show i ∈ ((View.whole main_v140).slice (win15_3.rect t)).set ↔ _
  rw [View.set_slice_whole, Rect.mem_set_unit]
  exact Iff.rfl

/-- The blocks tile the result array: row `r` is in the block of point `r / 2000`. -/
theorem cover15 (i : S50000x128.Idx) :
    ∃ t : Fin cfg15.N, (cfg15.win 3).flush t = true ∧ i ∈ ((cfg15.win 3).blk t).view.set := by
  have hi0 : (i 0).val < 50000 := (i 0).isLt
  have hi1 : (i 1).val < 128 := (i 1).isLt
  have hN : cfg15.N = 25 := N_15
  have ht : (i 0).val / 2000 < cfg15.N := by rw [hN]; omega
  refine ⟨⟨(i 0).val / 2000, ht⟩, flush15_3 _, ?_⟩
  rw [mem_blk15]
  obtain ⟨-, -, -, -, -, e30, e31⟩ := idx15 ⟨(i 0).val / 2000, ht⟩
  intro a
  match a with
  | ⟨0, _⟩ =>
    show win15_3.index ⟨(i 0).val / 2000, ht⟩ (0 : Fin 2) * 2000 ≤ (i 0).val ∧ (i 0).val < win15_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win15_3.index ⟨(i 0).val / 2000, ht⟩ (1 : Fin 2) * 128 ≤ (i 1).val ∧ (i 1).val < win15_3.index ⟨(i 0).val / 2000, ht⟩ (1 : Fin 2) * 128 + 128
    rw [e31]
    omega

/-! ## Region 17: rows from `main_v153_0`, weight `main_v155`, bias `main_v157`, result `main_v158` -/

/-- The printed index maps over the grid: the row block and the result block sit at block row `t`, every
    other block index is zero. -/
theorem idx17 : ∀ t : Fin cfg17.N,
    win17_0.index t (0 : Fin 2) = t.val ∧ win17_0.index t (1 : Fin 2) = 0
    ∧ win17_1.index t (0 : Fin 2) = 0 ∧ win17_1.index t (1 : Fin 2) = 0
    ∧ win17_2.index t (0 : Fin 1) = 0
    ∧ win17_3.index t (0 : Fin 2) = t.val ∧ win17_3.index t (1 : Fin 2) = 0 :=
  (by decide +kernel : ∀ t : Fin grid17.N, _)

/-- The body's arithmetic on the three blocks point `t` reads, at element `(p, q)` of the block, is the layer's
    whole-array value at the element of the result array that `(p, q)` of block `t` is. -/
theorem blockval17 (c : Dev nD) (t : Fin cfg17.N) (p : Fin 2000) (q : Fin 128) :
    k17_pay1 (((cfg17.win 0).blk t).view.read (Elt Ideal) (V c (Pipeline.arrRef spec17 0)))
        (((cfg17.win 1).blk t).view.read (Elt Ideal) (V c (Pipeline.arrRef spec17 1)))
        (((cfg17.win 2).blk t).view.read (Elt Ideal) (V c (Pipeline.arrRef spec17 2))) (ix2 p q)
      = Cert.Spec.linTanh (V c main_v153_0) (V c main_v155) (V c main_v157) (((cfg17.win 3).blk t).view.emb (ix2 p q)) := by
  obtain ⟨e00, e01, e10, e11, e20, e30, e31⟩ := idx17 t
  refine (k17_pay1_at _ _ _ p q).trans ?_
  have hx : ∀ k : Fin 128, (((cfg17.win 0).blk t).view.read (Elt Ideal) (V c (Pipeline.arrRef spec17 0))) (ix2 p k)
      = V c main_v153_0 (ix2 ((((cfg17.win 3).blk t).view.emb (ix2 p q)) 0 : Fin 50000) k) := fun k => by
    show V c main_v153_0 (((cfg17.win 0).blk t).view.emb (ix2 p k)) = _
    refine congrArg (V c main_v153_0) (funext fun a => Fin.ext ?_)
    match a with
    | ⟨0, _⟩ => show win17_0.index t (0 : Fin 2) * 2000 + 1 * p.val = win17_3.index t (0 : Fin 2) * 2000 + 1 * p.val; omega
    | ⟨1, _⟩ => show win17_0.index t (1 : Fin 2) * 128 + 1 * k.val = k.val; omega
  have hw : ∀ k : Fin 128, (((cfg17.win 1).blk t).view.read (Elt Ideal) (V c (Pipeline.arrRef spec17 1))) (ix2 q k)
      = V c main_v155 (ix2 ((((cfg17.win 3).blk t).view.emb (ix2 p q)) 1 : Fin 128) k) := fun k => by
    show V c main_v155 (((cfg17.win 1).blk t).view.emb (ix2 q k)) = _
    refine congrArg (V c main_v155) (funext fun a => Fin.ext ?_)
    match a with
    | ⟨0, _⟩ => show win17_1.index t (0 : Fin 2) * 128 + 1 * q.val = win17_3.index t (1 : Fin 2) * 128 + 1 * q.val; omega
    | ⟨1, _⟩ => show win17_1.index t (1 : Fin 2) * 128 + 1 * k.val = k.val; omega
  have hb : (((cfg17.win 2).blk t).view.read (Elt Ideal) (V c (Pipeline.arrRef spec17 2))) (ix1 q)
      = V c main_v157 (ix1 ((((cfg17.win 3).blk t).view.emb (ix2 p q)) 1 : Fin 128)) := by
    show V c main_v157 (((cfg17.win 2).blk t).view.emb (ix1 q)) = _
    refine congrArg (V c main_v157) (funext fun a => Fin.ext ?_)
    match a with
    | ⟨0, _⟩ => show win17_2.index t (0 : Fin 1) * 128 + 1 * q.val = win17_3.index t (1 : Fin 2) * 128 + 1 * q.val; omega
  rw [hb, Finset.sum_congr rfl fun k _ => by rw [hx k, hw k]]
  rfl

/-- An index of the result array is in point `t`'s block iff each coordinate is in the block's range. -/
theorem mem_blk17 (t : Fin cfg17.N) (i : S50000x128.Idx) :
    i ∈ ((cfg17.win 3).blk t).view.set ↔ ∀ a : Fin 2, win17_3.index t a * S2000x128.size a ≤ (i a).val ∧ (i a).val < win17_3.index t a * S2000x128.size a + S2000x128.size a := by
  show i ∈ ((View.whole main_v158).slice (win17_3.rect t)).set ↔ _
  rw [View.set_slice_whole, Rect.mem_set_unit]
  exact Iff.rfl

/-- The blocks tile the result array: row `r` is in the block of point `r / 2000`. -/
theorem cover17 (i : S50000x128.Idx) :
    ∃ t : Fin cfg17.N, (cfg17.win 3).flush t = true ∧ i ∈ ((cfg17.win 3).blk t).view.set := by
  have hi0 : (i 0).val < 50000 := (i 0).isLt
  have hi1 : (i 1).val < 128 := (i 1).isLt
  have hN : cfg17.N = 25 := N_17
  have ht : (i 0).val / 2000 < cfg17.N := by rw [hN]; omega
  refine ⟨⟨(i 0).val / 2000, ht⟩, flush17_3 _, ?_⟩
  rw [mem_blk17]
  obtain ⟨-, -, -, -, -, e30, e31⟩ := idx17 ⟨(i 0).val / 2000, ht⟩
  intro a
  match a with
  | ⟨0, _⟩ =>
    show win17_3.index ⟨(i 0).val / 2000, ht⟩ (0 : Fin 2) * 2000 ≤ (i 0).val ∧ (i 0).val < win17_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win17_3.index ⟨(i 0).val / 2000, ht⟩ (1 : Fin 2) * 128 ≤ (i 1).val ∧ (i 1).val < win17_3.index ⟨(i 0).val / 2000, ht⟩ (1 : Fin 2) * 128 + 128
    rw [e31]
    omega

end Cert.Lin

end
-- ==== Proof.LinFinalC.lean ====
/-
  Linear kernels 12, 14, 15, 17: the whole result array after the region.

  Every grid point writes back block `t` of the layer's whole-array value (the body's arithmetic on the blocks
  it reads is that value at the block's elements), and the blocks tile the result array; so after the region
  the result array holds the layer's value of the three input arrays everywhere.
-/
import proofs.«107783_j24189255811079_1_alg».proof.Proof.Gen.KernelIdeal.Frame
import proofs.«107783_j24189255811079_1_alg».proof.Proof.LinBlocksC

noncomputable section

namespace Cert.Lin

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 12 -/

/-- What point `t` writes back is block `t` of the layer's whole-array value. -/
theorem flushed12 (c : Dev nD) (t : Fin cfg12.N) :
    (dat12 V c).flushed 3 t = ((cfg12.win 3).blk t).view.read (Elt Ideal) (Cert.Spec.linRelu (V c main_v84) (V c main_v116) (V c main_v118)) := by
  show (cfg12.win 3).cut (grid12.coords t) ((dat12 V c).after 3 t) = _
  rw [after12_3]
  unfold out12_3
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  exact blockval12 V c t p q

/-- The result array after region 12: the layer's value of the three input arrays as the region finds them. -/
theorem final12 (c : Dev nD) :
    (dat12 V c).arrAt 3 cfg12.N = Cert.Spec.linRelu (V c main_v84) (V c main_v116) (V c main_v118) :=
  (dat12 V c).arrAt_eq_of_cover 3 (Cert.Spec.linRelu (V c main_v84) (V c main_v116) (V c main_v118)) (fun t _ => flushed12 V c t) cover12

/-! ## Region 14 -/

/-- What point `t` writes back is block `t` of the layer's whole-array value. -/
theorem flushed14 (c : Dev nD) (t : Fin cfg14.N) :
    (dat14 V c).flushed 3 t = ((cfg14.win 3).blk t).view.read (Elt Ideal) (Cert.Spec.lin (V c main_v132_0) (V c main_v134) (V c main_v4)) := by
  show (cfg14.win 3).cut (grid14.coords t) ((dat14 V c).after 3 t) = _
  rw [after14_3]
  unfold out14_3
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  exact blockval14 V c t p q

/-- The result array after region 14: the layer's value of the three input arrays as the region finds them. -/
theorem final14 (c : Dev nD) :
    (dat14 V c).arrAt 3 cfg14.N = Cert.Spec.lin (V c main_v132_0) (V c main_v134) (V c main_v4) :=
  (dat14 V c).arrAt_eq_of_cover 3 (Cert.Spec.lin (V c main_v132_0) (V c main_v134) (V c main_v4)) (fun t _ => flushed14 V c t) cover14

/-! ## Region 15 -/

/-- What point `t` writes back is block `t` of the layer's whole-array value. -/
theorem flushed15 (c : Dev nD) (t : Fin cfg15.N) :
    (dat15 V c).flushed 3 t = ((cfg15.win 3).blk t).view.read (Elt Ideal) (Cert.Spec.linRelu (V c main_v132_0) (V c main_v137) (V c main_v139)) := by
  show (cfg15.win 3).cut (grid15.coords t) ((dat15 V c).after 3 t) = _
  rw [after15_3]
  unfold out15_3
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  exact blockval15 V c t p q

/-- The result array after region 15: the layer's value of the three input arrays as the region finds them. -/
theorem final15 (c : Dev nD) :
    (dat15 V c).arrAt 3 cfg15.N = Cert.Spec.linRelu (V c main_v132_0) (V c main_v137) (V c main_v139) :=
  (dat15 V c).arrAt_eq_of_cover 3 (Cert.Spec.linRelu (V c main_v132_0) (V c main_v137) (V c main_v139)) (fun t _ => flushed15 V c t) cover15

/-! ## Region 17 -/

/-- What point `t` writes back is block `t` of the layer's whole-array value. -/
theorem flushed17 (c : Dev nD) (t : Fin cfg17.N) :
    (dat17 V c).flushed 3 t = ((cfg17.win 3).blk t).view.read (Elt Ideal) (Cert.Spec.linTanh (V c main_v153_0) (V c main_v155) (V c main_v157)) := by
  show (cfg17.win 3).cut (grid17.coords t) ((dat17 V c).after 3 t) = _
  rw [after17_3]
  unfold out17_3
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  exact blockval17 V c t p q

/-- The result array after region 17: the layer's value of the three input arrays as the region finds them. -/
theorem final17 (c : Dev nD) :
    (dat17 V c).arrAt 3 cfg17.N = Cert.Spec.linTanh (V c main_v153_0) (V c main_v155) (V c main_v157) :=
  (dat17 V c).arrAt_eq_of_cover 3 (Cert.Spec.linTanh (V c main_v153_0) (V c main_v155) (V c main_v157)) (fun t _ => flushed17 V c t) cover17

end Cert.Lin

end
-- ==== Proof.LinBlocksD.lean ====
/-
  Linear kernels 18, 20, 21, 23: what one grid point computes, as a block of the layer's whole-array value, and
  how the blocks tile the result array.

  Each grid point `t` of a linear kernel reads rows `2000·t … 2000·t+1999` of the input, the whole weight and the
  whole bias, and writes the same rows of the result. The body's arithmetic at row `p` of the block, feature `q`,
  is `Σ_k x[2000·t+p, k]·w[q,k] + b[q]` (then a maximum with zero or a hyperbolic tangent where the body has
  one): the layer's whole-array value at `(2000·t+p, q)`, because element `(p, k)` of the row block is element
  `(2000·t+p, k)` of the input array and the weight and bias blocks are the whole arrays. The 25 blocks tile the
  50000 rows: row `r` lies in block `r / 2000`.
-/
import proofs.«107783_j24189255811079_1_alg».proof.Proof.Gen.KernelIdeal.Launch
import proofs.«107783_j24189255811079_1_alg».proof.Proof.Gen.KernelIdeal.Points
import proofs.«107783_j24189255811079_1_alg».proof.Proof.Gen.KernelIdeal.Skeleton
import proofs.«107783_j24189255811079_1_alg».proof.Proof.Spec
import proofs.«107783_j24189255811079_1_alg».proof.Proof.LinPay
import Idealize.ShloMosaic.Lib.Pipeline.Value
import Idealize.ShloMosaic.Lib.ValueIdx

noncomputable section

namespace Cert.Lin

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 18: rows from `main_v158`, weight `main_v160`, bias `main_v162`, result `main_v163` -/

/-- The printed index maps over the grid: the row block and the result block sit at block row `t`, every
    other block index is zero. -/
theorem idx18 : ∀ t : Fin cfg18.N,
    win18_0.index t (0 : Fin 2) = t.val ∧ win18_0.index t (1 : Fin 2) = 0
    ∧ win18_1.index t (0 : Fin 2) = 0 ∧ win18_1.index t (1 : Fin 2) = 0
    ∧ win18_2.index t (0 : Fin 1) = 0
    ∧ win18_3.index t (0 : Fin 2) = t.val ∧ win18_3.index t (1 : Fin 2) = 0 :=
  (by decide +kernel : ∀ t : Fin grid18.N, _)

/-- The body's arithmetic on the three blocks point `t` reads, at element `(p, q)` of the block, is the layer's
    whole-array value at the element of the result array that `(p, q)` of block `t` is. -/
theorem blockval18 (c : Dev nD) (t : Fin cfg18.N) (p : Fin 2000) (q : Fin 128) :
    k18_pay1 (((cfg18.win 0).blk t).view.read (Elt Ideal) (V c (Pipeline.arrRef spec18 0)))
        (((cfg18.win 1).blk t).view.read (Elt Ideal) (V c (Pipeline.arrRef spec18 1)))
        (((cfg18.win 2).blk t).view.read (Elt Ideal) (V c (Pipeline.arrRef spec18 2))) (ix2 p q)
      = Cert.Spec.lin (V c main_v158) (V c main_v160) (V c main_v162) (((cfg18.win 3).blk t).view.emb (ix2 p q)) := by
  obtain ⟨e00, e01, e10, e11, e20, e30, e31⟩ := idx18 t
  refine (k18_pay1_at _ _ _ p q).trans ?_
  have hx : ∀ k : Fin 128, (((cfg18.win 0).blk t).view.read (Elt Ideal) (V c (Pipeline.arrRef spec18 0))) (ix2 p k)
      = V c main_v158 (ix2 ((((cfg18.win 3).blk t).view.emb (ix2 p q)) 0 : Fin 50000) k) := fun k => by
    show V c main_v158 (((cfg18.win 0).blk t).view.emb (ix2 p k)) = _
    refine congrArg (V c main_v158) (funext fun a => Fin.ext ?_)
    match a with
    | ⟨0, _⟩ => show win18_0.index t (0 : Fin 2) * 2000 + 1 * p.val = win18_3.index t (0 : Fin 2) * 2000 + 1 * p.val; omega
    | ⟨1, _⟩ => show win18_0.index t (1 : Fin 2) * 128 + 1 * k.val = k.val; omega
  have hw : ∀ k : Fin 128, (((cfg18.win 1).blk t).view.read (Elt Ideal) (V c (Pipeline.arrRef spec18 1))) (ix2 q k)
      = V c main_v160 (ix2 ((((cfg18.win 3).blk t).view.emb (ix2 p q)) 1 : Fin 128) k) := fun k => by
    show V c main_v160 (((cfg18.win 1).blk t).view.emb (ix2 q k)) = _
    refine congrArg (V c main_v160) (funext fun a => Fin.ext ?_)
    match a with
    | ⟨0, _⟩ => show win18_1.index t (0 : Fin 2) * 128 + 1 * q.val = win18_3.index t (1 : Fin 2) * 128 + 1 * q.val; omega
    | ⟨1, _⟩ => show win18_1.index t (1 : Fin 2) * 128 + 1 * k.val = k.val; omega
  have hb : (((cfg18.win 2).blk t).view.read (Elt Ideal) (V c (Pipeline.arrRef spec18 2))) (ix1 q)
      = V c main_v162 (ix1 ((((cfg18.win 3).blk t).view.emb (ix2 p q)) 1 : Fin 128)) := by
    show V c main_v162 (((cfg18.win 2).blk t).view.emb (ix1 q)) = _
    refine congrArg (V c main_v162) (funext fun a => Fin.ext ?_)
    match a with
    | ⟨0, _⟩ => show win18_2.index t (0 : Fin 1) * 128 + 1 * q.val = win18_3.index t (1 : Fin 2) * 128 + 1 * q.val; omega
  rw [hb, Finset.sum_congr rfl fun k _ => by rw [hx k, hw k]]
  rfl

/-- An index of the result array is in point `t`'s block iff each coordinate is in the block's range. -/
theorem mem_blk18 (t : Fin cfg18.N) (i : S50000x128.Idx) :
    i ∈ ((cfg18.win 3).blk t).view.set ↔ ∀ a : Fin 2, win18_3.index t a * S2000x128.size a ≤ (i a).val ∧ (i a).val < win18_3.index t a * S2000x128.size a + S2000x128.size a := by
  show i ∈ ((View.whole main_v163).slice (win18_3.rect t)).set ↔ _
  rw [View.set_slice_whole, Rect.mem_set_unit]
  exact Iff.rfl

/-- The blocks tile the result array: row `r` is in the block of point `r / 2000`. -/
theorem cover18 (i : S50000x128.Idx) :
    ∃ t : Fin cfg18.N, (cfg18.win 3).flush t = true ∧ i ∈ ((cfg18.win 3).blk t).view.set := by
  have hi0 : (i 0).val < 50000 := (i 0).isLt
  have hi1 : (i 1).val < 128 := (i 1).isLt
  have hN : cfg18.N = 25 := N_18
  have ht : (i 0).val / 2000 < cfg18.N := by rw [hN]; omega
  refine ⟨⟨(i 0).val / 2000, ht⟩, flush18_3 _, ?_⟩
  rw [mem_blk18]
  obtain ⟨-, -, -, -, -, e30, e31⟩ := idx18 ⟨(i 0).val / 2000, ht⟩
  intro a
  match a with
  | ⟨0, _⟩ =>
    show win18_3.index ⟨(i 0).val / 2000, ht⟩ (0 : Fin 2) * 2000 ≤ (i 0).val ∧ (i 0).val < win18_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win18_3.index ⟨(i 0).val / 2000, ht⟩ (1 : Fin 2) * 128 ≤ (i 1).val ∧ (i 1).val < win18_3.index ⟨(i 0).val / 2000, ht⟩ (1 : Fin 2) * 128 + 128
    rw [e31]
    omega

/-! ## Region 20: rows from `main_v163`, weight `main_v192`, bias `main_v4`, result `main_v193` -/

/-- The printed index maps over the grid: the row block and the result block sit at block row `t`, every
    other block index is zero. -/
theorem idx20 : ∀ t : Fin cfg20.N,
    win20_0.index t (0 : Fin 2) = t.val ∧ win20_0.index t (1 : Fin 2) = 0
    ∧ win20_1.index t (0 : Fin 2) = 0 ∧ win20_1.index t (1 : Fin 2) = 0
    ∧ win20_2.index t (0 : Fin 1) = 0
    ∧ win20_3.index t (0 : Fin 2) = t.val ∧ win20_3.index t (1 : Fin 2) = 0 :=
  (by decide +kernel : ∀ t : Fin grid20.N, _)

/-- The body's arithmetic on the three blocks point `t` reads, at element `(p, q)` of the block, is the layer's
    whole-array value at the element of the result array that `(p, q)` of block `t` is. -/
theorem blockval20 (c : Dev nD) (t : Fin cfg20.N) (p : Fin 2000) (q : Fin 128) :
    k20_pay1 (((cfg20.win 0).blk t).view.read (Elt Ideal) (V c (Pipeline.arrRef spec20 0)))
        (((cfg20.win 1).blk t).view.read (Elt Ideal) (V c (Pipeline.arrRef spec20 1)))
        (((cfg20.win 2).blk t).view.read (Elt Ideal) (V c (Pipeline.arrRef spec20 2))) (ix2 p q)
      = Cert.Spec.lin (V c main_v163) (V c main_v192) (V c main_v4) (((cfg20.win 3).blk t).view.emb (ix2 p q)) := by
  obtain ⟨e00, e01, e10, e11, e20, e30, e31⟩ := idx20 t
  refine (k20_pay1_at _ _ _ p q).trans ?_
  have hx : ∀ k : Fin 128, (((cfg20.win 0).blk t).view.read (Elt Ideal) (V c (Pipeline.arrRef spec20 0))) (ix2 p k)
      = V c main_v163 (ix2 ((((cfg20.win 3).blk t).view.emb (ix2 p q)) 0 : Fin 50000) k) := fun k => by
    show V c main_v163 (((cfg20.win 0).blk t).view.emb (ix2 p k)) = _
    refine congrArg (V c main_v163) (funext fun a => Fin.ext ?_)
    match a with
    | ⟨0, _⟩ => show win20_0.index t (0 : Fin 2) * 2000 + 1 * p.val = win20_3.index t (0 : Fin 2) * 2000 + 1 * p.val; omega
    | ⟨1, _⟩ => show win20_0.index t (1 : Fin 2) * 128 + 1 * k.val = k.val; omega
  have hw : ∀ k : Fin 128, (((cfg20.win 1).blk t).view.read (Elt Ideal) (V c (Pipeline.arrRef spec20 1))) (ix2 q k)
      = V c main_v192 (ix2 ((((cfg20.win 3).blk t).view.emb (ix2 p q)) 1 : Fin 128) k) := fun k => by
    show V c main_v192 (((cfg20.win 1).blk t).view.emb (ix2 q k)) = _
    refine congrArg (V c main_v192) (funext fun a => Fin.ext ?_)
    match a with
    | ⟨0, _⟩ => show win20_1.index t (0 : Fin 2) * 128 + 1 * q.val = win20_3.index t (1 : Fin 2) * 128 + 1 * q.val; omega
    | ⟨1, _⟩ => show win20_1.index t (1 : Fin 2) * 128 + 1 * k.val = k.val; omega
  have hb : (((cfg20.win 2).blk t).view.read (Elt Ideal) (V c (Pipeline.arrRef spec20 2))) (ix1 q)
      = V c main_v4 (ix1 ((((cfg20.win 3).blk t).view.emb (ix2 p q)) 1 : Fin 128)) := by
    show V c main_v4 (((cfg20.win 2).blk t).view.emb (ix1 q)) = _
    refine congrArg (V c main_v4) (funext fun a => Fin.ext ?_)
    match a with
    | ⟨0, _⟩ => show win20_2.index t (0 : Fin 1) * 128 + 1 * q.val = win20_3.index t (1 : Fin 2) * 128 + 1 * q.val; omega
  rw [hb, Finset.sum_congr rfl fun k _ => by rw [hx k, hw k]]
  rfl

/-- An index of the result array is in point `t`'s block iff each coordinate is in the block's range. -/
theorem mem_blk20 (t : Fin cfg20.N) (i : S50000x128.Idx) :
    i ∈ ((cfg20.win 3).blk t).view.set ↔ ∀ a : Fin 2, win20_3.index t a * S2000x128.size a ≤ (i a).val ∧ (i a).val < win20_3.index t a * S2000x128.size a + S2000x128.size a := by
  show i ∈ ((View.whole main_v193).slice (win20_3.rect t)).set ↔ _
  rw [View.set_slice_whole, Rect.mem_set_unit]
  exact Iff.rfl

/-- The blocks tile the result array: row `r` is in the block of point `r / 2000`. -/
theorem cover20 (i : S50000x128.Idx) :
    ∃ t : Fin cfg20.N, (cfg20.win 3).flush t = true ∧ i ∈ ((cfg20.win 3).blk t).view.set := by
  have hi0 : (i 0).val < 50000 := (i 0).isLt
  have hi1 : (i 1).val < 128 := (i 1).isLt
  have hN : cfg20.N = 25 := N_20
  have ht : (i 0).val / 2000 < cfg20.N := by rw [hN]; omega
  refine ⟨⟨(i 0).val / 2000, ht⟩, flush20_3 _, ?_⟩
  rw [mem_blk20]
  obtain ⟨-, -, -, -, -, e30, e31⟩ := idx20 ⟨(i 0).val / 2000, ht⟩
  intro a
  match a with
  | ⟨0, _⟩ =>
    show win20_3.index ⟨(i 0).val / 2000, ht⟩ (0 : Fin 2) * 2000 ≤ (i 0).val ∧ (i 0).val < win20_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win20_3.index ⟨(i 0).val / 2000, ht⟩ (1 : Fin 2) * 128 ≤ (i 1).val ∧ (i 1).val < win20_3.index ⟨(i 0).val / 2000, ht⟩ (1 : Fin 2) * 128 + 128
    rw [e31]
    omega

/-! ## Region 21: rows from `main_v163`, weight `main_v195`, bias `main_v197`, result `main_v198` -/

/-- The printed index maps over the grid: the row block and the result block sit at block row `t`, every
    other block index is zero. -/
theorem idx21 : ∀ t : Fin cfg21.N,
    win21_0.index t (0 : Fin 2) = t.val ∧ win21_0.index t (1 : Fin 2) = 0
    ∧ win21_1.index t (0 : Fin 2) = 0 ∧ win21_1.index t (1 : Fin 2) = 0
    ∧ win21_2.index t (0 : Fin 1) = 0
    ∧ win21_3.index t (0 : Fin 2) = t.val ∧ win21_3.index t (1 : Fin 2) = 0 :=
  (by decide +kernel : ∀ t : Fin grid21.N, _)

/-- The body's arithmetic on the three blocks point `t` reads, at element `(p, q)` of the block, is the layer's
    whole-array value at the element of the result array that `(p, q)` of block `t` is. -/
theorem blockval21 (c : Dev nD) (t : Fin cfg21.N) (p : Fin 2000) (q : Fin 128) :
    k21_pay1 (((cfg21.win 0).blk t).view.read (Elt Ideal) (V c (Pipeline.arrRef spec21 0)))
        (((cfg21.win 1).blk t).view.read (Elt Ideal) (V c (Pipeline.arrRef spec21 1)))
        (((cfg21.win 2).blk t).view.read (Elt Ideal) (V c (Pipeline.arrRef spec21 2))) (ix2 p q)
      = Cert.Spec.linRelu (V c main_v163) (V c main_v195) (V c main_v197) (((cfg21.win 3).blk t).view.emb (ix2 p q)) := by
  obtain ⟨e00, e01, e10, e11, e20, e30, e31⟩ := idx21 t
  refine (k21_pay1_at _ _ _ p q).trans ?_
  have hx : ∀ k : Fin 128, (((cfg21.win 0).blk t).view.read (Elt Ideal) (V c (Pipeline.arrRef spec21 0))) (ix2 p k)
      = V c main_v163 (ix2 ((((cfg21.win 3).blk t).view.emb (ix2 p q)) 0 : Fin 50000) k) := fun k => by
    show V c main_v163 (((cfg21.win 0).blk t).view.emb (ix2 p k)) = _
    refine congrArg (V c main_v163) (funext fun a => Fin.ext ?_)
    match a with
    | ⟨0, _⟩ => show win21_0.index t (0 : Fin 2) * 2000 + 1 * p.val = win21_3.index t (0 : Fin 2) * 2000 + 1 * p.val; omega
    | ⟨1, _⟩ => show win21_0.index t (1 : Fin 2) * 128 + 1 * k.val = k.val; omega
  have hw : ∀ k : Fin 128, (((cfg21.win 1).blk t).view.read (Elt Ideal) (V c (Pipeline.arrRef spec21 1))) (ix2 q k)
      = V c main_v195 (ix2 ((((cfg21.win 3).blk t).view.emb (ix2 p q)) 1 : Fin 128) k) := fun k => by
    show V c main_v195 (((cfg21.win 1).blk t).view.emb (ix2 q k)) = _
    refine congrArg (V c main_v195) (funext fun a => Fin.ext ?_)
    match a with
    | ⟨0, _⟩ => show win21_1.index t (0 : Fin 2) * 128 + 1 * q.val = win21_3.index t (1 : Fin 2) * 128 + 1 * q.val; omega
    | ⟨1, _⟩ => show win21_1.index t (1 : Fin 2) * 128 + 1 * k.val = k.val; omega
  have hb : (((cfg21.win 2).blk t).view.read (Elt Ideal) (V c (Pipeline.arrRef spec21 2))) (ix1 q)
      = V c main_v197 (ix1 ((((cfg21.win 3).blk t).view.emb (ix2 p q)) 1 : Fin 128)) := by
    show V c main_v197 (((cfg21.win 2).blk t).view.emb (ix1 q)) = _
    refine congrArg (V c main_v197) (funext fun a => Fin.ext ?_)
    match a with
    | ⟨0, _⟩ => show win21_2.index t (0 : Fin 1) * 128 + 1 * q.val = win21_3.index t (1 : Fin 2) * 128 + 1 * q.val; omega
  rw [hb, Finset.sum_congr rfl fun k _ => by rw [hx k, hw k]]
  rfl

/-- An index of the result array is in point `t`'s block iff each coordinate is in the block's range. -/
theorem mem_blk21 (t : Fin cfg21.N) (i : S50000x128.Idx) :
    i ∈ ((cfg21.win 3).blk t).view.set ↔ ∀ a : Fin 2, win21_3.index t a * S2000x128.size a ≤ (i a).val ∧ (i a).val < win21_3.index t a * S2000x128.size a + S2000x128.size a := by
  show i ∈ ((View.whole main_v198).slice (win21_3.rect t)).set ↔ _
  rw [View.set_slice_whole, Rect.mem_set_unit]
  exact Iff.rfl

/-- The blocks tile the result array: row `r` is in the block of point `r / 2000`. -/
theorem cover21 (i : S50000x128.Idx) :
    ∃ t : Fin cfg21.N, (cfg21.win 3).flush t = true ∧ i ∈ ((cfg21.win 3).blk t).view.set := by
  have hi0 : (i 0).val < 50000 := (i 0).isLt
  have hi1 : (i 1).val < 128 := (i 1).isLt
  have hN : cfg21.N = 25 := N_21
  have ht : (i 0).val / 2000 < cfg21.N := by rw [hN]; omega
  refine ⟨⟨(i 0).val / 2000, ht⟩, flush21_3 _, ?_⟩
  rw [mem_blk21]
  obtain ⟨-, -, -, -, -, e30, e31⟩ := idx21 ⟨(i 0).val / 2000, ht⟩
  intro a
  match a with
  | ⟨0, _⟩ =>
    show win21_3.index ⟨(i 0).val / 2000, ht⟩ (0 : Fin 2) * 2000 ≤ (i 0).val ∧ (i 0).val < win21_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win21_3.index ⟨(i 0).val / 2000, ht⟩ (1 : Fin 2) * 128 ≤ (i 1).val ∧ (i 1).val < win21_3.index ⟨(i 0).val / 2000, ht⟩ (1 : Fin 2) * 128 + 128
    rw [e31]
    omega

/-! ## Region 23: rows from `main_v211_0`, weight `main_v213`, bias `main_v4`, result `main_v214` -/

/-- The printed index maps over the grid: the row block and the result block sit at block row `t`, every
    other block index is zero. -/
theorem idx23 : ∀ t : Fin cfg23.N,
    win23_0.index t (0 : Fin 2) = t.val ∧ win23_0.index t (1 : Fin 2) = 0
    ∧ win23_1.index t (0 : Fin 2) = 0 ∧ win23_1.index t (1 : Fin 2) = 0
    ∧ win23_2.index t (0 : Fin 1) = 0
    ∧ win23_3.index t (0 : Fin 2) = t.val ∧ win23_3.index t (1 : Fin 2) = 0 :=
  (by decide +kernel : ∀ t : Fin grid23.N, _)

/-- The body's arithmetic on the three blocks point `t` reads, at element `(p, q)` of the block, is the layer's
    whole-array value at the element of the result array that `(p, q)` of block `t` is. -/
theorem blockval23 (c : Dev nD) (t : Fin cfg23.N) (p : Fin 2000) (q : Fin 128) :
    k23_pay1 (((cfg23.win 0).blk t).view.read (Elt Ideal) (V c (Pipeline.arrRef spec23 0)))
        (((cfg23.win 1).blk t).view.read (Elt Ideal) (V c (Pipeline.arrRef spec23 1)))
        (((cfg23.win 2).blk t).view.read (Elt Ideal) (V c (Pipeline.arrRef spec23 2))) (ix2 p q)
      = Cert.Spec.lin (V c main_v211_0) (V c main_v213) (V c main_v4) (((cfg23.win 3).blk t).view.emb (ix2 p q)) := by
  obtain ⟨e00, e01, e10, e11, e20, e30, e31⟩ := idx23 t
  refine (k23_pay1_at _ _ _ p q).trans ?_
  have hx : ∀ k : Fin 128, (((cfg23.win 0).blk t).view.read (Elt Ideal) (V c (Pipeline.arrRef spec23 0))) (ix2 p k)
      = V c main_v211_0 (ix2 ((((cfg23.win 3).blk t).view.emb (ix2 p q)) 0 : Fin 50000) k) := fun k => by
    show V c main_v211_0 (((cfg23.win 0).blk t).view.emb (ix2 p k)) = _
    refine congrArg (V c main_v211_0) (funext fun a => Fin.ext ?_)
    match a with
    | ⟨0, _⟩ => show win23_0.index t (0 : Fin 2) * 2000 + 1 * p.val = win23_3.index t (0 : Fin 2) * 2000 + 1 * p.val; omega
    | ⟨1, _⟩ => show win23_0.index t (1 : Fin 2) * 128 + 1 * k.val = k.val; omega
  have hw : ∀ k : Fin 128, (((cfg23.win 1).blk t).view.read (Elt Ideal) (V c (Pipeline.arrRef spec23 1))) (ix2 q k)
      = V c main_v213 (ix2 ((((cfg23.win 3).blk t).view.emb (ix2 p q)) 1 : Fin 128) k) := fun k => by
    show V c main_v213 (((cfg23.win 1).blk t).view.emb (ix2 q k)) = _
    refine congrArg (V c main_v213) (funext fun a => Fin.ext ?_)
    match a with
    | ⟨0, _⟩ => show win23_1.index t (0 : Fin 2) * 128 + 1 * q.val = win23_3.index t (1 : Fin 2) * 128 + 1 * q.val; omega
    | ⟨1, _⟩ => show win23_1.index t (1 : Fin 2) * 128 + 1 * k.val = k.val; omega
  have hb : (((cfg23.win 2).blk t).view.read (Elt Ideal) (V c (Pipeline.arrRef spec23 2))) (ix1 q)
      = V c main_v4 (ix1 ((((cfg23.win 3).blk t).view.emb (ix2 p q)) 1 : Fin 128)) := by
    show V c main_v4 (((cfg23.win 2).blk t).view.emb (ix1 q)) = _
    refine congrArg (V c main_v4) (funext fun a => Fin.ext ?_)
    match a with
    | ⟨0, _⟩ => show win23_2.index t (0 : Fin 1) * 128 + 1 * q.val = win23_3.index t (1 : Fin 2) * 128 + 1 * q.val; omega
  rw [hb, Finset.sum_congr rfl fun k _ => by rw [hx k, hw k]]
  rfl

/-- An index of the result array is in point `t`'s block iff each coordinate is in the block's range. -/
theorem mem_blk23 (t : Fin cfg23.N) (i : S50000x128.Idx) :
    i ∈ ((cfg23.win 3).blk t).view.set ↔ ∀ a : Fin 2, win23_3.index t a * S2000x128.size a ≤ (i a).val ∧ (i a).val < win23_3.index t a * S2000x128.size a + S2000x128.size a := by
  show i ∈ ((View.whole main_v214).slice (win23_3.rect t)).set ↔ _
  rw [View.set_slice_whole, Rect.mem_set_unit]
  exact Iff.rfl

/-- The blocks tile the result array: row `r` is in the block of point `r / 2000`. -/
theorem cover23 (i : S50000x128.Idx) :
    ∃ t : Fin cfg23.N, (cfg23.win 3).flush t = true ∧ i ∈ ((cfg23.win 3).blk t).view.set := by
  have hi0 : (i 0).val < 50000 := (i 0).isLt
  have hi1 : (i 1).val < 128 := (i 1).isLt
  have hN : cfg23.N = 25 := N_23
  have ht : (i 0).val / 2000 < cfg23.N := by rw [hN]; omega
  refine ⟨⟨(i 0).val / 2000, ht⟩, flush23_3 _, ?_⟩
  rw [mem_blk23]
  obtain ⟨-, -, -, -, -, e30, e31⟩ := idx23 ⟨(i 0).val / 2000, ht⟩
  intro a
  match a with
  | ⟨0, _⟩ =>
    show win23_3.index ⟨(i 0).val / 2000, ht⟩ (0 : Fin 2) * 2000 ≤ (i 0).val ∧ (i 0).val < win23_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win23_3.index ⟨(i 0).val / 2000, ht⟩ (1 : Fin 2) * 128 ≤ (i 1).val ∧ (i 1).val < win23_3.index ⟨(i 0).val / 2000, ht⟩ (1 : Fin 2) * 128 + 128
    rw [e31]
    omega

end Cert.Lin

end
-- ==== Proof.LinFinalD.lean ====
/-
  Linear kernels 18, 20, 21, 23: the whole result array after the region.

  Every grid point writes back block `t` of the layer's whole-array value (the body's arithmetic on the blocks
  it reads is that value at the block's elements), and the blocks tile the result array; so after the region
  the result array holds the layer's value of the three input arrays everywhere.
-/
import proofs.«107783_j24189255811079_1_alg».proof.Proof.Gen.KernelIdeal.Frame
import proofs.«107783_j24189255811079_1_alg».proof.Proof.LinBlocksD

noncomputable section

namespace Cert.Lin

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 18 -/

/-- What point `t` writes back is block `t` of the layer's whole-array value. -/
theorem flushed18 (c : Dev nD) (t : Fin cfg18.N) :
    (dat18 V c).flushed 3 t = ((cfg18.win 3).blk t).view.read (Elt Ideal) (Cert.Spec.lin (V c main_v158) (V c main_v160) (V c main_v162)) := by
  show (cfg18.win 3).cut (grid18.coords t) ((dat18 V c).after 3 t) = _
  rw [after18_3]
  unfold out18_3
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  exact blockval18 V c t p q

/-- The result array after region 18: the layer's value of the three input arrays as the region finds them. -/
theorem final18 (c : Dev nD) :
    (dat18 V c).arrAt 3 cfg18.N = Cert.Spec.lin (V c main_v158) (V c main_v160) (V c main_v162) :=
  (dat18 V c).arrAt_eq_of_cover 3 (Cert.Spec.lin (V c main_v158) (V c main_v160) (V c main_v162)) (fun t _ => flushed18 V c t) cover18

/-! ## Region 20 -/

/-- What point `t` writes back is block `t` of the layer's whole-array value. -/
theorem flushed20 (c : Dev nD) (t : Fin cfg20.N) :
    (dat20 V c).flushed 3 t = ((cfg20.win 3).blk t).view.read (Elt Ideal) (Cert.Spec.lin (V c main_v163) (V c main_v192) (V c main_v4)) := by
  show (cfg20.win 3).cut (grid20.coords t) ((dat20 V c).after 3 t) = _
  rw [after20_3]
  unfold out20_3
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  exact blockval20 V c t p q

/-- The result array after region 20: the layer's value of the three input arrays as the region finds them. -/
theorem final20 (c : Dev nD) :
    (dat20 V c).arrAt 3 cfg20.N = Cert.Spec.lin (V c main_v163) (V c main_v192) (V c main_v4) :=
  (dat20 V c).arrAt_eq_of_cover 3 (Cert.Spec.lin (V c main_v163) (V c main_v192) (V c main_v4)) (fun t _ => flushed20 V c t) cover20

/-! ## Region 21 -/

/-- What point `t` writes back is block `t` of the layer's whole-array value. -/
theorem flushed21 (c : Dev nD) (t : Fin cfg21.N) :
    (dat21 V c).flushed 3 t = ((cfg21.win 3).blk t).view.read (Elt Ideal) (Cert.Spec.linRelu (V c main_v163) (V c main_v195) (V c main_v197)) := by
  show (cfg21.win 3).cut (grid21.coords t) ((dat21 V c).after 3 t) = _
  rw [after21_3]
  unfold out21_3
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  exact blockval21 V c t p q

/-- The result array after region 21: the layer's value of the three input arrays as the region finds them. -/
theorem final21 (c : Dev nD) :
    (dat21 V c).arrAt 3 cfg21.N = Cert.Spec.linRelu (V c main_v163) (V c main_v195) (V c main_v197) :=
  (dat21 V c).arrAt_eq_of_cover 3 (Cert.Spec.linRelu (V c main_v163) (V c main_v195) (V c main_v197)) (fun t _ => flushed21 V c t) cover21

/-! ## Region 23 -/

/-- What point `t` writes back is block `t` of the layer's whole-array value. -/
theorem flushed23 (c : Dev nD) (t : Fin cfg23.N) :
    (dat23 V c).flushed 3 t = ((cfg23.win 3).blk t).view.read (Elt Ideal) (Cert.Spec.lin (V c main_v211_0) (V c main_v213) (V c main_v4)) := by
  show (cfg23.win 3).cut (grid23.coords t) ((dat23 V c).after 3 t) = _
  rw [after23_3]
  unfold out23_3
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  exact blockval23 V c t p q

/-- The result array after region 23: the layer's value of the three input arrays as the region finds them. -/
theorem final23 (c : Dev nD) :
    (dat23 V c).arrAt 3 cfg23.N = Cert.Spec.lin (V c main_v211_0) (V c main_v213) (V c main_v4) :=
  (dat23 V c).arrAt_eq_of_cover 3 (Cert.Spec.lin (V c main_v211_0) (V c main_v213) (V c main_v4)) (fun t _ => flushed23 V c t) cover23

end Cert.Lin

end
-- ==== Proof.LinBlocksE.lean ====
/-
  Linear kernels 24, 26, 27, 28: what one grid point computes, as a block of the layer's whole-array value, and
  how the blocks tile the result array.

  Each grid point `t` of a linear kernel reads rows `2000·t … 2000·t+1999` of the input, the whole weight and the
  whole bias, and writes the same rows of the result. The body's arithmetic at row `p` of the block, feature `q`,
  is `Σ_k x[2000·t+p, k]·w[q,k] + b[q]` (then a maximum with zero or a hyperbolic tangent where the body has
  one): the layer's whole-array value at `(2000·t+p, q)`, because element `(p, k)` of the row block is element
  `(2000·t+p, k)` of the input array and the weight and bias blocks are the whole arrays. The 25 blocks tile the
  50000 rows: row `r` lies in block `r / 2000`.
-/
import proofs.«107783_j24189255811079_1_alg».proof.Proof.Gen.KernelIdeal.Launch
import proofs.«107783_j24189255811079_1_alg».proof.Proof.Gen.KernelIdeal.Points
import proofs.«107783_j24189255811079_1_alg».proof.Proof.Gen.KernelIdeal.Skeleton
import proofs.«107783_j24189255811079_1_alg».proof.Proof.Spec
import proofs.«107783_j24189255811079_1_alg».proof.Proof.LinPay
import Idealize.ShloMosaic.Lib.Pipeline.Value
import Idealize.ShloMosaic.Lib.ValueIdx

noncomputable section

namespace Cert.Lin

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 24: rows from `main_v211_0`, weight `main_v216`, bias `main_v218`, result `main_v219` -/

/-- The printed index maps over the grid: the row block and the result block sit at block row `t`, every
    other block index is zero. -/
theorem idx24 : ∀ t : Fin cfg24.N,
    win24_0.index t (0 : Fin 2) = t.val ∧ win24_0.index t (1 : Fin 2) = 0
    ∧ win24_1.index t (0 : Fin 2) = 0 ∧ win24_1.index t (1 : Fin 2) = 0
    ∧ win24_2.index t (0 : Fin 1) = 0
    ∧ win24_3.index t (0 : Fin 2) = t.val ∧ win24_3.index t (1 : Fin 2) = 0 :=
  (by decide +kernel : ∀ t : Fin grid24.N, _)

/-- The body's arithmetic on the three blocks point `t` reads, at element `(p, q)` of the block, is the layer's
    whole-array value at the element of the result array that `(p, q)` of block `t` is. -/
theorem blockval24 (c : Dev nD) (t : Fin cfg24.N) (p : Fin 2000) (q : Fin 128) :
    k24_pay1 (((cfg24.win 0).blk t).view.read (Elt Ideal) (V c (Pipeline.arrRef spec24 0)))
        (((cfg24.win 1).blk t).view.read (Elt Ideal) (V c (Pipeline.arrRef spec24 1)))
        (((cfg24.win 2).blk t).view.read (Elt Ideal) (V c (Pipeline.arrRef spec24 2))) (ix2 p q)
      = Cert.Spec.linRelu (V c main_v211_0) (V c main_v216) (V c main_v218) (((cfg24.win 3).blk t).view.emb (ix2 p q)) := by
  obtain ⟨e00, e01, e10, e11, e20, e30, e31⟩ := idx24 t
  refine (k24_pay1_at _ _ _ p q).trans ?_
  have hx : ∀ k : Fin 128, (((cfg24.win 0).blk t).view.read (Elt Ideal) (V c (Pipeline.arrRef spec24 0))) (ix2 p k)
      = V c main_v211_0 (ix2 ((((cfg24.win 3).blk t).view.emb (ix2 p q)) 0 : Fin 50000) k) := fun k => by
    show V c main_v211_0 (((cfg24.win 0).blk t).view.emb (ix2 p k)) = _
    refine congrArg (V c main_v211_0) (funext fun a => Fin.ext ?_)
    match a with
    | ⟨0, _⟩ => show win24_0.index t (0 : Fin 2) * 2000 + 1 * p.val = win24_3.index t (0 : Fin 2) * 2000 + 1 * p.val; omega
    | ⟨1, _⟩ => show win24_0.index t (1 : Fin 2) * 128 + 1 * k.val = k.val; omega
  have hw : ∀ k : Fin 128, (((cfg24.win 1).blk t).view.read (Elt Ideal) (V c (Pipeline.arrRef spec24 1))) (ix2 q k)
      = V c main_v216 (ix2 ((((cfg24.win 3).blk t).view.emb (ix2 p q)) 1 : Fin 128) k) := fun k => by
    show V c main_v216 (((cfg24.win 1).blk t).view.emb (ix2 q k)) = _
    refine congrArg (V c main_v216) (funext fun a => Fin.ext ?_)
    match a with
    | ⟨0, _⟩ => show win24_1.index t (0 : Fin 2) * 128 + 1 * q.val = win24_3.index t (1 : Fin 2) * 128 + 1 * q.val; omega
    | ⟨1, _⟩ => show win24_1.index t (1 : Fin 2) * 128 + 1 * k.val = k.val; omega
  have hb : (((cfg24.win 2).blk t).view.read (Elt Ideal) (V c (Pipeline.arrRef spec24 2))) (ix1 q)
      = V c main_v218 (ix1 ((((cfg24.win 3).blk t).view.emb (ix2 p q)) 1 : Fin 128)) := by
    show V c main_v218 (((cfg24.win 2).blk t).view.emb (ix1 q)) = _
    refine congrArg (V c main_v218) (funext fun a => Fin.ext ?_)
    match a with
    | ⟨0, _⟩ => show win24_2.index t (0 : Fin 1) * 128 + 1 * q.val = win24_3.index t (1 : Fin 2) * 128 + 1 * q.val; omega
  rw [hb, Finset.sum_congr rfl fun k _ => by rw [hx k, hw k]]
  rfl

/-- An index of the result array is in point `t`'s block iff each coordinate is in the block's range. -/
theorem mem_blk24 (t : Fin cfg24.N) (i : S50000x128.Idx) :
    i ∈ ((cfg24.win 3).blk t).view.set ↔ ∀ a : Fin 2, win24_3.index t a * S2000x128.size a ≤ (i a).val ∧ (i a).val < win24_3.index t a * S2000x128.size a + S2000x128.size a := by
  show i ∈ ((View.whole main_v219).slice (win24_3.rect t)).set ↔ _
  rw [View.set_slice_whole, Rect.mem_set_unit]
  exact Iff.rfl

/-- The blocks tile the result array: row `r` is in the block of point `r / 2000`. -/
theorem cover24 (i : S50000x128.Idx) :
    ∃ t : Fin cfg24.N, (cfg24.win 3).flush t = true ∧ i ∈ ((cfg24.win 3).blk t).view.set := by
  have hi0 : (i 0).val < 50000 := (i 0).isLt
  have hi1 : (i 1).val < 128 := (i 1).isLt
  have hN : cfg24.N = 25 := N_24
  have ht : (i 0).val / 2000 < cfg24.N := by rw [hN]; omega
  refine ⟨⟨(i 0).val / 2000, ht⟩, flush24_3 _, ?_⟩
  rw [mem_blk24]
  obtain ⟨-, -, -, -, -, e30, e31⟩ := idx24 ⟨(i 0).val / 2000, ht⟩
  intro a
  match a with
  | ⟨0, _⟩ =>
    show win24_3.index ⟨(i 0).val / 2000, ht⟩ (0 : Fin 2) * 2000 ≤ (i 0).val ∧ (i 0).val < win24_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win24_3.index ⟨(i 0).val / 2000, ht⟩ (1 : Fin 2) * 128 ≤ (i 1).val ∧ (i 1).val < win24_3.index ⟨(i 0).val / 2000, ht⟩ (1 : Fin 2) * 128 + 128
    rw [e31]
    omega

/-! ## Region 26: rows from `main_v232_0`, weight `main_v234`, bias `main_v236`, result `main_v237` -/

/-- The printed index maps over the grid: the row block and the result block sit at block row `t`, every
    other block index is zero. -/
theorem idx26 : ∀ t : Fin cfg26.N,
    win26_0.index t (0 : Fin 2) = t.val ∧ win26_0.index t (1 : Fin 2) = 0
    ∧ win26_1.index t (0 : Fin 2) = 0 ∧ win26_1.index t (1 : Fin 2) = 0
    ∧ win26_2.index t (0 : Fin 1) = 0
    ∧ win26_3.index t (0 : Fin 2) = t.val ∧ win26_3.index t (1 : Fin 2) = 0 :=
  (by decide +kernel : ∀ t : Fin grid26.N, _)

/-- The body's arithmetic on the three blocks point `t` reads, at element `(p, q)` of the block, is the layer's
    whole-array value at the element of the result array that `(p, q)` of block `t` is. -/
theorem blockval26 (c : Dev nD) (t : Fin cfg26.N) (p : Fin 2000) (q : Fin 128) :
    k26_pay1 (((cfg26.win 0).blk t).view.read (Elt Ideal) (V c (Pipeline.arrRef spec26 0)))
        (((cfg26.win 1).blk t).view.read (Elt Ideal) (V c (Pipeline.arrRef spec26 1)))
        (((cfg26.win 2).blk t).view.read (Elt Ideal) (V c (Pipeline.arrRef spec26 2))) (ix2 p q)
      = Cert.Spec.linTanh (V c main_v232_0) (V c main_v234) (V c main_v236) (((cfg26.win 3).blk t).view.emb (ix2 p q)) := by
  obtain ⟨e00, e01, e10, e11, e20, e30, e31⟩ := idx26 t
  refine (k26_pay1_at _ _ _ p q).trans ?_
  have hx : ∀ k : Fin 128, (((cfg26.win 0).blk t).view.read (Elt Ideal) (V c (Pipeline.arrRef spec26 0))) (ix2 p k)
      = V c main_v232_0 (ix2 ((((cfg26.win 3).blk t).view.emb (ix2 p q)) 0 : Fin 50000) k) := fun k => by
    show V c main_v232_0 (((cfg26.win 0).blk t).view.emb (ix2 p k)) = _
    refine congrArg (V c main_v232_0) (funext fun a => Fin.ext ?_)
    match a with
    | ⟨0, _⟩ => show win26_0.index t (0 : Fin 2) * 2000 + 1 * p.val = win26_3.index t (0 : Fin 2) * 2000 + 1 * p.val; omega
    | ⟨1, _⟩ => show win26_0.index t (1 : Fin 2) * 128 + 1 * k.val = k.val; omega
  have hw : ∀ k : Fin 128, (((cfg26.win 1).blk t).view.read (Elt Ideal) (V c (Pipeline.arrRef spec26 1))) (ix2 q k)
      = V c main_v234 (ix2 ((((cfg26.win 3).blk t).view.emb (ix2 p q)) 1 : Fin 128) k) := fun k => by
    show V c main_v234 (((cfg26.win 1).blk t).view.emb (ix2 q k)) = _
    refine congrArg (V c main_v234) (funext fun a => Fin.ext ?_)
    match a with
    | ⟨0, _⟩ => show win26_1.index t (0 : Fin 2) * 128 + 1 * q.val = win26_3.index t (1 : Fin 2) * 128 + 1 * q.val; omega
    | ⟨1, _⟩ => show win26_1.index t (1 : Fin 2) * 128 + 1 * k.val = k.val; omega
  have hb : (((cfg26.win 2).blk t).view.read (Elt Ideal) (V c (Pipeline.arrRef spec26 2))) (ix1 q)
      = V c main_v236 (ix1 ((((cfg26.win 3).blk t).view.emb (ix2 p q)) 1 : Fin 128)) := by
    show V c main_v236 (((cfg26.win 2).blk t).view.emb (ix1 q)) = _
    refine congrArg (V c main_v236) (funext fun a => Fin.ext ?_)
    match a with
    | ⟨0, _⟩ => show win26_2.index t (0 : Fin 1) * 128 + 1 * q.val = win26_3.index t (1 : Fin 2) * 128 + 1 * q.val; omega
  rw [hb, Finset.sum_congr rfl fun k _ => by rw [hx k, hw k]]
  rfl

/-- An index of the result array is in point `t`'s block iff each coordinate is in the block's range. -/
theorem mem_blk26 (t : Fin cfg26.N) (i : S50000x128.Idx) :
    i ∈ ((cfg26.win 3).blk t).view.set ↔ ∀ a : Fin 2, win26_3.index t a * S2000x128.size a ≤ (i a).val ∧ (i a).val < win26_3.index t a * S2000x128.size a + S2000x128.size a := by
  show i ∈ ((View.whole main_v237).slice (win26_3.rect t)).set ↔ _
  rw [View.set_slice_whole, Rect.mem_set_unit]
  exact Iff.rfl

/-- The blocks tile the result array: row `r` is in the block of point `r / 2000`. -/
theorem cover26 (i : S50000x128.Idx) :
    ∃ t : Fin cfg26.N, (cfg26.win 3).flush t = true ∧ i ∈ ((cfg26.win 3).blk t).view.set := by
  have hi0 : (i 0).val < 50000 := (i 0).isLt
  have hi1 : (i 1).val < 128 := (i 1).isLt
  have hN : cfg26.N = 25 := N_26
  have ht : (i 0).val / 2000 < cfg26.N := by rw [hN]; omega
  refine ⟨⟨(i 0).val / 2000, ht⟩, flush26_3 _, ?_⟩
  rw [mem_blk26]
  obtain ⟨-, -, -, -, -, e30, e31⟩ := idx26 ⟨(i 0).val / 2000, ht⟩
  intro a
  match a with
  | ⟨0, _⟩ =>
    show win26_3.index ⟨(i 0).val / 2000, ht⟩ (0 : Fin 2) * 2000 ≤ (i 0).val ∧ (i 0).val < win26_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win26_3.index ⟨(i 0).val / 2000, ht⟩ (1 : Fin 2) * 128 ≤ (i 1).val ∧ (i 1).val < win26_3.index ⟨(i 0).val / 2000, ht⟩ (1 : Fin 2) * 128 + 128
    rw [e31]
    omega

/-! ## Region 27: rows from `main_v237`, weight `main_v239`, bias `main_v241`, result `main_v242` -/

/-- The printed index maps over the grid: the row block and the result block sit at block row `t`, every
    other block index is zero. -/
theorem idx27 : ∀ t : Fin cfg27.N,
    win27_0.index t (0 : Fin 2) = t.val ∧ win27_0.index t (1 : Fin 2) = 0
    ∧ win27_1.index t (0 : Fin 2) = 0 ∧ win27_1.index t (1 : Fin 2) = 0
    ∧ win27_2.index t (0 : Fin 1) = 0
    ∧ win27_3.index t (0 : Fin 2) = t.val ∧ win27_3.index t (1 : Fin 2) = 0 :=
  (by decide +kernel : ∀ t : Fin grid27.N, _)

/-- The body's arithmetic on the three blocks point `t` reads, at element `(p, q)` of the block, is the layer's
    whole-array value at the element of the result array that `(p, q)` of block `t` is. -/
theorem blockval27 (c : Dev nD) (t : Fin cfg27.N) (p : Fin 2000) (q : Fin 128) :
    k27_pay1 (((cfg27.win 0).blk t).view.read (Elt Ideal) (V c (Pipeline.arrRef spec27 0)))
        (((cfg27.win 1).blk t).view.read (Elt Ideal) (V c (Pipeline.arrRef spec27 1)))
        (((cfg27.win 2).blk t).view.read (Elt Ideal) (V c (Pipeline.arrRef spec27 2))) (ix2 p q)
      = Cert.Spec.lin (V c main_v237) (V c main_v239) (V c main_v241) (((cfg27.win 3).blk t).view.emb (ix2 p q)) := by
  obtain ⟨e00, e01, e10, e11, e20, e30, e31⟩ := idx27 t
  refine (k27_pay1_at _ _ _ p q).trans ?_
  have hx : ∀ k : Fin 128, (((cfg27.win 0).blk t).view.read (Elt Ideal) (V c (Pipeline.arrRef spec27 0))) (ix2 p k)
      = V c main_v237 (ix2 ((((cfg27.win 3).blk t).view.emb (ix2 p q)) 0 : Fin 50000) k) := fun k => by
    show V c main_v237 (((cfg27.win 0).blk t).view.emb (ix2 p k)) = _
    refine congrArg (V c main_v237) (funext fun a => Fin.ext ?_)
    match a with
    | ⟨0, _⟩ => show win27_0.index t (0 : Fin 2) * 2000 + 1 * p.val = win27_3.index t (0 : Fin 2) * 2000 + 1 * p.val; omega
    | ⟨1, _⟩ => show win27_0.index t (1 : Fin 2) * 128 + 1 * k.val = k.val; omega
  have hw : ∀ k : Fin 128, (((cfg27.win 1).blk t).view.read (Elt Ideal) (V c (Pipeline.arrRef spec27 1))) (ix2 q k)
      = V c main_v239 (ix2 ((((cfg27.win 3).blk t).view.emb (ix2 p q)) 1 : Fin 128) k) := fun k => by
    show V c main_v239 (((cfg27.win 1).blk t).view.emb (ix2 q k)) = _
    refine congrArg (V c main_v239) (funext fun a => Fin.ext ?_)
    match a with
    | ⟨0, _⟩ => show win27_1.index t (0 : Fin 2) * 128 + 1 * q.val = win27_3.index t (1 : Fin 2) * 128 + 1 * q.val; omega
    | ⟨1, _⟩ => show win27_1.index t (1 : Fin 2) * 128 + 1 * k.val = k.val; omega
  have hb : (((cfg27.win 2).blk t).view.read (Elt Ideal) (V c (Pipeline.arrRef spec27 2))) (ix1 q)
      = V c main_v241 (ix1 ((((cfg27.win 3).blk t).view.emb (ix2 p q)) 1 : Fin 128)) := by
    show V c main_v241 (((cfg27.win 2).blk t).view.emb (ix1 q)) = _
    refine congrArg (V c main_v241) (funext fun a => Fin.ext ?_)
    match a with
    | ⟨0, _⟩ => show win27_2.index t (0 : Fin 1) * 128 + 1 * q.val = win27_3.index t (1 : Fin 2) * 128 + 1 * q.val; omega
  rw [hb, Finset.sum_congr rfl fun k _ => by rw [hx k, hw k]]
  rfl

/-- An index of the result array is in point `t`'s block iff each coordinate is in the block's range. -/
theorem mem_blk27 (t : Fin cfg27.N) (i : S50000x128.Idx) :
    i ∈ ((cfg27.win 3).blk t).view.set ↔ ∀ a : Fin 2, win27_3.index t a * S2000x128.size a ≤ (i a).val ∧ (i a).val < win27_3.index t a * S2000x128.size a + S2000x128.size a := by
  show i ∈ ((View.whole main_v242).slice (win27_3.rect t)).set ↔ _
  rw [View.set_slice_whole, Rect.mem_set_unit]
  exact Iff.rfl

/-- The blocks tile the result array: row `r` is in the block of point `r / 2000`. -/
theorem cover27 (i : S50000x128.Idx) :
    ∃ t : Fin cfg27.N, (cfg27.win 3).flush t = true ∧ i ∈ ((cfg27.win 3).blk t).view.set := by
  have hi0 : (i 0).val < 50000 := (i 0).isLt
  have hi1 : (i 1).val < 128 := (i 1).isLt
  have hN : cfg27.N = 25 := N_27
  have ht : (i 0).val / 2000 < cfg27.N := by rw [hN]; omega
  refine ⟨⟨(i 0).val / 2000, ht⟩, flush27_3 _, ?_⟩
  rw [mem_blk27]
  obtain ⟨-, -, -, -, -, e30, e31⟩ := idx27 ⟨(i 0).val / 2000, ht⟩
  intro a
  match a with
  | ⟨0, _⟩ =>
    show win27_3.index ⟨(i 0).val / 2000, ht⟩ (0 : Fin 2) * 2000 ≤ (i 0).val ∧ (i 0).val < win27_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win27_3.index ⟨(i 0).val / 2000, ht⟩ (1 : Fin 2) * 128 ≤ (i 1).val ∧ (i 1).val < win27_3.index ⟨(i 0).val / 2000, ht⟩ (1 : Fin 2) * 128 + 128
    rw [e31]
    omega

/-! ## Region 28: rows from `main_v242`, weight `main_arg15`, bias `main_arg16`, result `main_v243` -/

/-- The printed index maps over the grid: the row block and the result block sit at block row `t`, every
    other block index is zero. -/
theorem idx28 : ∀ t : Fin cfg28.N,
    win28_0.index t (0 : Fin 2) = t.val ∧ win28_0.index t (1 : Fin 2) = 0
    ∧ win28_1.index t (0 : Fin 2) = 0 ∧ win28_1.index t (1 : Fin 2) = 0
    ∧ win28_2.index t (0 : Fin 1) = 0
    ∧ win28_3.index t (0 : Fin 2) = t.val ∧ win28_3.index t (1 : Fin 2) = 0 :=
  (by decide +kernel : ∀ t : Fin grid28.N, _)

/-- The body's arithmetic on the three blocks point `t` reads, at element `(p, q)` of the block, is the layer's
    whole-array value at the element of the result array that `(p, q)` of block `t` is. -/
theorem blockval28 (c : Dev nD) (t : Fin cfg28.N) (p : Fin 2000) (q : Fin 64) :
    k28_pay1 (((cfg28.win 0).blk t).view.read (Elt Ideal) (V c (Pipeline.arrRef spec28 0)))
        (((cfg28.win 1).blk t).view.read (Elt Ideal) (V c (Pipeline.arrRef spec28 1)))
        (((cfg28.win 2).blk t).view.read (Elt Ideal) (V c (Pipeline.arrRef spec28 2))) (ix2 p q)
      = Cert.Spec.lin64 (V c main_v242) (V c main_arg15) (V c main_arg16) (((cfg28.win 3).blk t).view.emb (ix2 p q)) := by
  obtain ⟨e00, e01, e10, e11, e20, e30, e31⟩ := idx28 t
  refine (k28_pay1_at _ _ _ p q).trans ?_
  have hx : ∀ k : Fin 128, (((cfg28.win 0).blk t).view.read (Elt Ideal) (V c (Pipeline.arrRef spec28 0))) (ix2 p k)
      = V c main_v242 (ix2 ((((cfg28.win 3).blk t).view.emb (ix2 p q)) 0 : Fin 50000) k) := fun k => by
    show V c main_v242 (((cfg28.win 0).blk t).view.emb (ix2 p k)) = _
    refine congrArg (V c main_v242) (funext fun a => Fin.ext ?_)
    match a with
    | ⟨0, _⟩ => show win28_0.index t (0 : Fin 2) * 2000 + 1 * p.val = win28_3.index t (0 : Fin 2) * 2000 + 1 * p.val; omega
    | ⟨1, _⟩ => show win28_0.index t (1 : Fin 2) * 128 + 1 * k.val = k.val; omega
  have hw : ∀ k : Fin 128, (((cfg28.win 1).blk t).view.read (Elt Ideal) (V c (Pipeline.arrRef spec28 1))) (ix2 q k)
      = V c main_arg15 (ix2 ((((cfg28.win 3).blk t).view.emb (ix2 p q)) 1 : Fin 64) k) := fun k => by
    show V c main_arg15 (((cfg28.win 1).blk t).view.emb (ix2 q k)) = _
    refine congrArg (V c main_arg15) (funext fun a => Fin.ext ?_)
    match a with
    | ⟨0, _⟩ => show win28_1.index t (0 : Fin 2) * 64 + 1 * q.val = win28_3.index t (1 : Fin 2) * 64 + 1 * q.val; omega
    | ⟨1, _⟩ => show win28_1.index t (1 : Fin 2) * 128 + 1 * k.val = k.val; omega
  have hb : (((cfg28.win 2).blk t).view.read (Elt Ideal) (V c (Pipeline.arrRef spec28 2))) (ix1 q)
      = V c main_arg16 (ix1 ((((cfg28.win 3).blk t).view.emb (ix2 p q)) 1 : Fin 64)) := by
    show V c main_arg16 (((cfg28.win 2).blk t).view.emb (ix1 q)) = _
    refine congrArg (V c main_arg16) (funext fun a => Fin.ext ?_)
    match a with
    | ⟨0, _⟩ => show win28_2.index t (0 : Fin 1) * 64 + 1 * q.val = win28_3.index t (1 : Fin 2) * 64 + 1 * q.val; omega
  rw [hb, Finset.sum_congr rfl fun k _ => by rw [hx k, hw k]]
  rfl

/-- An index of the result array is in point `t`'s block iff each coordinate is in the block's range. -/
theorem mem_blk28 (t : Fin cfg28.N) (i : S50000x64.Idx) :
    i ∈ ((cfg28.win 3).blk t).view.set ↔ ∀ a : Fin 2, win28_3.index t a * S2000x64.size a ≤ (i a).val ∧ (i a).val < win28_3.index t a * S2000x64.size a + S2000x64.size a := by
  show i ∈ ((View.whole main_v243).slice (win28_3.rect t)).set ↔ _
  rw [View.set_slice_whole, Rect.mem_set_unit]
  exact Iff.rfl

/-- The blocks tile the result array: row `r` is in the block of point `r / 2000`. -/
theorem cover28 (i : S50000x64.Idx) :
    ∃ t : Fin cfg28.N, (cfg28.win 3).flush t = true ∧ i ∈ ((cfg28.win 3).blk t).view.set := by
  have hi0 : (i 0).val < 50000 := (i 0).isLt
  have hi1 : (i 1).val < 64 := (i 1).isLt
  have hN : cfg28.N = 25 := N_28
  have ht : (i 0).val / 2000 < cfg28.N := by rw [hN]; omega
  refine ⟨⟨(i 0).val / 2000, ht⟩, flush28_3 _, ?_⟩
  rw [mem_blk28]
  obtain ⟨-, -, -, -, -, e30, e31⟩ := idx28 ⟨(i 0).val / 2000, ht⟩
  intro a
  match a with
  | ⟨0, _⟩ =>
    show win28_3.index ⟨(i 0).val / 2000, ht⟩ (0 : Fin 2) * 2000 ≤ (i 0).val ∧ (i 0).val < win28_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win28_3.index ⟨(i 0).val / 2000, ht⟩ (1 : Fin 2) * 64 ≤ (i 1).val ∧ (i 1).val < win28_3.index ⟨(i 0).val / 2000, ht⟩ (1 : Fin 2) * 64 + 64
    rw [e31]
    omega

end Cert.Lin

end
-- ==== Proof.LinFinalE.lean ====
/-
  Linear kernels 24, 26, 27, 28: the whole result array after the region.

  Every grid point writes back block `t` of the layer's whole-array value (the body's arithmetic on the blocks
  it reads is that value at the block's elements), and the blocks tile the result array; so after the region
  the result array holds the layer's value of the three input arrays everywhere.
-/
import proofs.«107783_j24189255811079_1_alg».proof.Proof.Gen.KernelIdeal.Frame
import proofs.«107783_j24189255811079_1_alg».proof.Proof.LinBlocksE

noncomputable section

namespace Cert.Lin

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 24 -/

/-- What point `t` writes back is block `t` of the layer's whole-array value. -/
theorem flushed24 (c : Dev nD) (t : Fin cfg24.N) :
    (dat24 V c).flushed 3 t = ((cfg24.win 3).blk t).view.read (Elt Ideal) (Cert.Spec.linRelu (V c main_v211_0) (V c main_v216) (V c main_v218)) := by
  show (cfg24.win 3).cut (grid24.coords t) ((dat24 V c).after 3 t) = _
  rw [after24_3]
  unfold out24_3
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  exact blockval24 V c t p q

/-- The result array after region 24: the layer's value of the three input arrays as the region finds them. -/
theorem final24 (c : Dev nD) :
    (dat24 V c).arrAt 3 cfg24.N = Cert.Spec.linRelu (V c main_v211_0) (V c main_v216) (V c main_v218) :=
  (dat24 V c).arrAt_eq_of_cover 3 (Cert.Spec.linRelu (V c main_v211_0) (V c main_v216) (V c main_v218)) (fun t _ => flushed24 V c t) cover24

/-! ## Region 26 -/

/-- What point `t` writes back is block `t` of the layer's whole-array value. -/
theorem flushed26 (c : Dev nD) (t : Fin cfg26.N) :
    (dat26 V c).flushed 3 t = ((cfg26.win 3).blk t).view.read (Elt Ideal) (Cert.Spec.linTanh (V c main_v232_0) (V c main_v234) (V c main_v236)) := by
  show (cfg26.win 3).cut (grid26.coords t) ((dat26 V c).after 3 t) = _
  rw [after26_3]
  unfold out26_3
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  exact blockval26 V c t p q

/-- The result array after region 26: the layer's value of the three input arrays as the region finds them. -/
theorem final26 (c : Dev nD) :
    (dat26 V c).arrAt 3 cfg26.N = Cert.Spec.linTanh (V c main_v232_0) (V c main_v234) (V c main_v236) :=
  (dat26 V c).arrAt_eq_of_cover 3 (Cert.Spec.linTanh (V c main_v232_0) (V c main_v234) (V c main_v236)) (fun t _ => flushed26 V c t) cover26

/-! ## Region 27 -/

/-- What point `t` writes back is block `t` of the layer's whole-array value. -/
theorem flushed27 (c : Dev nD) (t : Fin cfg27.N) :
    (dat27 V c).flushed 3 t = ((cfg27.win 3).blk t).view.read (Elt Ideal) (Cert.Spec.lin (V c main_v237) (V c main_v239) (V c main_v241)) := by
  show (cfg27.win 3).cut (grid27.coords t) ((dat27 V c).after 3 t) = _
  rw [after27_3]
  unfold out27_3
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  exact blockval27 V c t p q

/-- The result array after region 27: the layer's value of the three input arrays as the region finds them. -/
theorem final27 (c : Dev nD) :
    (dat27 V c).arrAt 3 cfg27.N = Cert.Spec.lin (V c main_v237) (V c main_v239) (V c main_v241) :=
  (dat27 V c).arrAt_eq_of_cover 3 (Cert.Spec.lin (V c main_v237) (V c main_v239) (V c main_v241)) (fun t _ => flushed27 V c t) cover27

/-! ## Region 28 -/

/-- What point `t` writes back is block `t` of the layer's whole-array value. -/
theorem flushed28 (c : Dev nD) (t : Fin cfg28.N) :
    (dat28 V c).flushed 3 t = ((cfg28.win 3).blk t).view.read (Elt Ideal) (Cert.Spec.lin64 (V c main_v242) (V c main_arg15) (V c main_arg16)) := by
  show (cfg28.win 3).cut (grid28.coords t) ((dat28 V c).after 3 t) = _
  rw [after28_3]
  unfold out28_3
  rw [View.canon_unit_zero hz2]
  simp only [View.ld_unit_zero (S := S2000x128) hz2, View.ld_unit_zero (S := S64x128) hz2, View.ld_unit_zero (S := S64) hz1]
  funext j
  obtain ⟨p, q, rfl⟩ : ∃ (p : Fin 2000) (q : Fin 64), j = ix2 p q := ⟨j 0, j 1, eq_ix2 j⟩
  exact blockval28 V c t p q

/-- The result array after region 28: the layer's value of the three input arrays as the region finds them. -/
theorem final28 (c : Dev nD) :
    (dat28 V c).arrAt 3 cfg28.N = Cert.Spec.lin64 (V c main_v242) (V c main_arg15) (V c main_arg16) :=
  (dat28 V c).arrAt_eq_of_cover 3 (Cert.Spec.lin64 (V c main_v242) (V c main_arg15) (V c main_arg16)) (fun t _ => flushed28 V c t) cover28

end Cert.Lin

end
-- ==== Proof.LinFinals.lean ====
/-
  The linear kernels' results, gathered: for every linear region `K` of the program, `Cert.Lin.finalK` says
  that after the region its result array holds the layer's whole-array value (`Cert.Spec.lin`, `linRelu`,
  `linTanh` or `lin64`) of the region's three input arrays.
-/
import proofs.«107783_j24189255811079_1_alg».proof.Proof.LinFinalA
import proofs.«107783_j24189255811079_1_alg».proof.Proof.LinFinalB
import proofs.«107783_j24189255811079_1_alg».proof.Proof.LinFinalC
import proofs.«107783_j24189255811079_1_alg».proof.Proof.LinFinalD
import proofs.«107783_j24189255811079_1_alg».proof.Proof.LinFinalE
-- ==== Proof.EdgePay.lean ====
/-
  The edge kernel's stored column, read one row at a time.

  The body lays its two 4000×128 endpoint blocks side by side (a 4000×256 block), multiplies by the transposed 128×256
  weight into a zero accumulator, adds the bias as a row, clips below at zero, multiplies by the transposed 1×128
  weight into a zero accumulator, adds the one-entry bias and takes the absolute value `max s (−s)`.

  Read at row `p`: a product into a zero accumulator is the plain sum over the contracted axis; the sum over the 256
  side-by-side features is the sum over the first 128 (the first block's row `p`) plus the sum over the last 128 (the
  second block's row `p`), each against the matching half of row `j` of the weight — a transposed matrix read at
  `(i, j)` is the matrix at `(j, i)` —; a bias made a row and repeated down the rows reads its entry `j`. So the stored
  value at `(p, 0)` is `|Σ_j max(Σ_k x0[p,k]·w1[j,k] + Σ_k x1[p,k]·w1[j,128+k] + b1[j], 0) · w2[0,j] + b2[0]|`
  (`blkEdge`), the edge resistance of row `p` of the blocks. The three edge regions store the same function.
-/
import proofs.«107783_j24189255811079_1_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

namespace Cert.Edge

open Cert.KernelIdeal Cert.KernelIdeal.Facts₀ Idealize.ShloMosaic Idealize.ShloMosaic.ValueIdx
open scoped BigOperators

/-- The first product's dimension numbers: 4000×256 against 256×128, contracting the 256. -/
abbrev D1 : DotDims S4000x256 S256x128 S4000x128 := dot_S4000x256_S256x128_S4000x128_1_0_0_1_n_n
/-- The second product's: 4000×128 against 128×1, contracting the 128. -/
abbrev D2 : DotDims S4000x128 S128x1 S4000x1 := dot_S4000x128_S128x1_S4000x1_1_0_0_1_n_n

/-- A rank-2 index with coordinates `a`, `b` is `ix2 a b`. -/
theorem idx2_ext {n0 n1 : Nat} (x : (⟨2, ![n0, n1]⟩ : Shape).Idx) (a : Fin n0) (b : Fin n1)
    (h0 : (x 0).val = a.val) (h1 : (x 1).val = b.val) : x = ix2 a b :=
  funext fun d => match d with | ⟨0, _⟩ => Fin.ext h0 | ⟨1, _⟩ => Fin.ext h1

/-- A sum over 256 positions is the sum over the first 128 plus the sum over the last 128. -/
theorem sum_split (f : Fin 256 → EReal) :
    ∑ i : Fin 256, f i = (∑ k : Fin 128, f (Fin.castLE (by decide : 128 ≤ 256) k)) + ∑ k : Fin 128, f ⟨128 + k.val, by omega⟩ :=
  Fin.sum_univ_add (a := 128) (b := 128) f

/-- Two blocks side by side, read in the first 128 columns: the first block. -/
theorem cat_lo (h : Shape.Concatenates [S4000x128, S4000x128] S4000x256 1) (x₁ x₂ : FVec Ideal S4000x128 .f32) (p : Fin 4000) (k : Fin 128) :
    concatenate S4000x256 1 [⟨S4000x128, x₁⟩, ⟨S4000x128, x₂⟩] h (ix2 p (Fin.castLE (by decide : 128 ≤ 256) k)) = x₁ (ix2 p k) :=
  concatenate_pair_apply_left 1 x₁ x₂ h _ rfl (ix2 p k) fun b => match b with | ⟨0, _⟩ => rfl | ⟨1, _⟩ => rfl

/-- Two blocks side by side, read in the last 128 columns: the second block, 128 columns to the left. -/
theorem cat_hi (h : Shape.Concatenates [S4000x128, S4000x128] S4000x256 1) (x₁ x₂ : FVec Ideal S4000x128 .f32) (p : Fin 4000) (k : Fin 128) :
    concatenate S4000x256 1 [⟨S4000x128, x₁⟩, ⟨S4000x128, x₂⟩] h (ix2 p (⟨128 + k.val, by omega⟩ : Fin 256)) = x₂ (ix2 p k) :=
  concatenate_pair_apply_right 1 x₁ x₂ h _ rfl rfl (ix2 p k)
    (fun b hb => match b, hb with | ⟨0, _⟩, _ => rfl | ⟨1, _⟩, hb => absurd rfl hb)
    (by show k.val + 128 = 128 + k.val; omega)

/-- The 128×256 weight transposed reads, at `(i, j)`, the weight at `(j, i)`. -/
theorem tr1_apply (ht : S128x256.Transposes [1, 0] S256x128) (w : FVec Ideal S128x256 .f32) (i : Fin 256) (j : Fin 128) :
    transpose S256x128 [1, 0] w ht (ix2 i j) = w (ix2 j i) := transpose_ix2_apply w ht i j

/-- The 1×128 weight transposed reads, at `(j, 0)`, the weight at `(0, j)`. -/
theorem tr2_apply (ht : S1x128.Transposes [1, 0] S128x1) (w : FVec Ideal S1x128 .f32) (j : Fin 128) :
    transpose S128x1 [1, 0] w ht (ix2 j (0 : Fin 1)) = w (ix2 (0 : Fin 1) j) := transpose_ix2_apply w ht j (0 : Fin 1)

/-- The first product into a zero accumulator, against the transposed weight, at `(p, j)`: row `p` of the left
    operand against row `j` of the weight. -/
theorem mm1_apply (lhs : FVec Ideal S4000x256 .f32) (w : FVec Ideal S128x256 .f32) (ht : S128x256.Transposes [1, 0] S256x128)
    (p : Fin 4000) (j : Fin 128) :
    matmul D1 none lhs (transpose S256x128 [1, 0] w ht) (constant S4000x128 .f32 0x00000000#32) (ix2 p j)
      = ∑ i : Fin 256, lhs (ix2 p i) * w (ix2 j i) := by
  refine (Ideal.matmul_constant_zero_apply D1 none lhs _ (ix2 p j)).trans ?_
  rw [← Equiv.sum_comp (contrEquiv1 D1 256 rfl rfl).symm]
  refine Finset.sum_congr rfl fun i _ => ?_
  rw [idx2_ext (D1.lhsIdx (ix2 p j) ((contrEquiv1 D1 256 rfl rfl).symm i)) p i rfl
      ((D1.lhsIdx_val_of_single rfl _ _).trans (contrEquiv1_symm_val D1 256 rfl rfl i)),
    idx2_ext (D1.rhsIdx (ix2 p j) ((contrEquiv1 D1 256 rfl rfl).symm i)) i j
      ((D1.rhsIdx_val_of_single rfl _ _).trans (contrEquiv1_symm_val D1 256 rfl rfl i)) rfl,
    tr1_apply]

/-- The second product into a zero accumulator, against the transposed weight, at `(p, 0)`. -/
theorem mm2_apply (lhs : FVec Ideal S4000x128 .f32) (w : FVec Ideal S1x128 .f32) (ht : S1x128.Transposes [1, 0] S128x1) (p : Fin 4000) :
    matmul D2 none lhs (transpose S128x1 [1, 0] w ht) (constant S4000x1 .f32 0x00000000#32) (ix2 p (0 : Fin 1))
      = ∑ j : Fin 128, lhs (ix2 p j) * w (ix2 (0 : Fin 1) j) := by
  refine (Ideal.matmul_constant_zero_apply D2 none lhs _ (ix2 p (0 : Fin 1))).trans ?_
  rw [← Equiv.sum_comp (contrEquiv1 D2 128 rfl rfl).symm]
  refine Finset.sum_congr rfl fun i _ => ?_
  rw [idx2_ext (D2.lhsIdx (ix2 p (0 : Fin 1)) ((contrEquiv1 D2 128 rfl rfl).symm i)) p i rfl
      ((D2.lhsIdx_val_of_single rfl _ _).trans (contrEquiv1_symm_val D2 128 rfl rfl i)),
    idx2_ext (D2.rhsIdx (ix2 p (0 : Fin 1)) ((contrEquiv1 D2 128 rfl rfl).symm i)) i (0 : Fin 1)
      ((D2.rhsIdx_val_of_single rfl _ _).trans (contrEquiv1_symm_val D2 128 rfl rfl i)) rfl,
    tr2_apply]

/-- The 128-vector bias, made a row and repeated down the 4000 rows, at `(p, j)`: entry `j`. -/
theorem bias1_apply (h1 : S128.ShapeCasts S1x128) (h2 : S1x128.Broadcasts S4000x128) (b : FVec Ideal S128 .f32) (p : Fin 4000) (j : Fin 128) :
    broadcastTo S4000x128 (shapeCast S1x128 b h1) h2 (ix2 p j) = b (ix1 j) := by
  refine (broadcastTo_apply _ h2 (ix2 p j) (ix2 (0 : Fin 1) j) fun a => match a with | ⟨0, _⟩ => rfl | ⟨1, _⟩ => rfl).trans ?_
  refine shapeCast_apply b h1 _ (ix1 j) ?_
  rw [Shape.rowMajor_val_one, Shape.rowMajor_val_two]
  show j.val = 0 * 128 + j.val
  omega

/-- The one-entry bias, made 1×1 and repeated down the 4000 rows, at `(p, 0)`: its entry. -/
theorem bias2_apply (h1 : S1.ShapeCasts S1x1) (h2 : S1x1.Broadcasts S4000x1) (b : FVec Ideal S1 .f32) (p : Fin 4000) :
    broadcastTo S4000x1 (shapeCast S1x1 b h1) h2 (ix2 p (0 : Fin 1)) = b (ix1 (0 : Fin 1)) := by
  refine (broadcastTo_apply _ h2 (ix2 p (0 : Fin 1)) (ix2 (0 : Fin 1) (0 : Fin 1)) fun a => match a with | ⟨0, _⟩ => rfl | ⟨1, _⟩ => rfl).trans ?_
  refine shapeCast_apply b h1 _ (ix1 (0 : Fin 1)) ?_
  rw [Shape.rowMajor_val_one, Shape.rowMajor_val_two]
  rfl

/-- The hidden layer at row `p` of a block, feature `j`: the two rows against the two halves of the weight's row `j`,
    plus the bias, clipped below at zero. -/
def blkHidden (x0 x1 : FVec Ideal S4000x128 .f32) (w1 : FVec Ideal S128x256 .f32) (b1 : FVec Ideal S128 .f32) (p : Fin 4000) (j : Fin 128) : EReal :=
  max (((∑ k : Fin 128, x0 (ix2 p k) * w1 (ix2 j (Fin.castLE (by decide : 128 ≤ 256) k)))
        + ∑ k : Fin 128, x1 (ix2 p k) * w1 (ix2 j ⟨128 + k.val, by omega⟩)) + b1 (ix1 j)) 0

/-- The resistance at row `p` of a block: the absolute value of the hidden row against the second weight plus its bias. -/
def blkEdge (x0 x1 : FVec Ideal S4000x128 .f32) (w1 : FVec Ideal S128x256 .f32) (b1 : FVec Ideal S128 .f32)
    (w2 : FVec Ideal S1x128 .f32) (b2 : FVec Ideal S1 .f32) (p : Fin 4000) : EReal :=
  max ((∑ j : Fin 128, blkHidden x0 x1 w1 b1 p j * w2 (ix2 (0 : Fin 1) j)) + b2 (ix1 (0 : Fin 1)))
    (-((∑ j : Fin 128, blkHidden x0 x1 w1 b1 p j * w2 (ix2 (0 : Fin 1) j)) + b2 (ix1 (0 : Fin 1))))

/-- The body's hidden layer, read at `(p, j)`. -/
theorem hidden_apply (x0 x1 : FVec Ideal S4000x128 .f32) (w1 : FVec Ideal S128x256 .f32) (b1 : FVec Ideal S128 .f32)
    (hc : Shape.Concatenates [S4000x128, S4000x128] S4000x256 1) (ht : S128x256.Transposes [1, 0] S256x128)
    (h1 : S128.ShapeCasts S1x128) (h2 : S1x128.Broadcasts S4000x128) (p : Fin 4000) (j : Fin 128) :
    maximumf (addf (matmul D1 none (concatenate S4000x256 1 [⟨S4000x128, x0⟩, ⟨S4000x128, x1⟩] hc) (transpose S256x128 [1, 0] w1 ht)
        (constant S4000x128 .f32 0x00000000#32)) (broadcastTo S4000x128 (shapeCast S1x128 b1 h1) h2))
      (broadcast S4000x128 (Scalar.ofBits .f32 0x00000000#32)) (ix2 p j) = blkHidden x0 x1 w1 b1 p j := by
  rw [maximumf_apply, addf_apply, mm1_apply, bias1_apply, broadcast_apply, sum_split]
  simp only [cat_lo, cat_hi]
  show max _ (Ideal.ofBits .f32 0x00000000#32) = _
  rw [Ideal.ofBits_zero_f32]
  rfl

/-- From the hidden layer at row `p` to the stored value at `(p, 0)`. -/
theorem edge_of_hidden (H : FVec Ideal S4000x128 .f32) (w2 : FVec Ideal S1x128 .f32) (b2 : FVec Ideal S1 .f32)
    (ht : S1x128.Transposes [1, 0] S128x1) (h1 : S1.ShapeCasts S1x1) (h2 : S1x1.Broadcasts S4000x1) (p : Fin 4000)
    (hid : Fin 128 → EReal) (hH : ∀ j, H (ix2 p j) = hid j) :
    absf (addf (matmul D2 none H (transpose S128x1 [1, 0] w2 ht) (constant S4000x1 .f32 0x00000000#32))
        (broadcastTo S4000x1 (shapeCast S1x1 b2 h1) h2)) (ix2 p (0 : Fin 1))
      = max ((∑ j : Fin 128, hid j * w2 (ix2 (0 : Fin 1) j)) + b2 (ix1 (0 : Fin 1)))
          (-((∑ j : Fin 128, hid j * w2 (ix2 (0 : Fin 1) j)) + b2 (ix1 (0 : Fin 1)))) := by
  show max _ (- _) = _
  rw [addf_apply, mm2_apply, bias2_apply,
    Finset.sum_congr rfl (fun j _ => by rw [hH j] : ∀ j ∈ (Finset.univ : Finset (Fin 128)), H (ix2 p j) * w2 (ix2 (0 : Fin 1) j) = hid j * w2 (ix2 (0 : Fin 1) j))]

/-- THE PAYLOAD AT A ROW: what the body stores at row `p` of its 4000×1 block is the resistance of row `p` of its
    loaded blocks. -/
theorem pay_apply (v0 v2 : Vec Ideal S4000x128 .f32) (v5 : Vec Ideal S128x256 .f32) (v9 : Vec Ideal S128 .f32)
    (v16 : Vec Ideal S1x128 .f32) (v20 : Vec Ideal S1 .f32) (p : Fin 4000) :
    Gen.k1_pay1 v0 v2 v5 v9 v16 v20 (ix2 p (0 : Fin 1)) = blkEdge v0 v2 v5 v9 v16 v20 p := by
  unfold Gen.k1_pay1
  dsimp only
  rw [shapeCast_self, shapeCast_self, shapeCast_self, shapeCast_self, shapeCast_self, shapeCast_self]
  exact edge_of_hidden _ v16 v20 _ _ _ p _ fun j => hidden_apply v0 v2 v5 v9 _ _ _ _ p j

/-- The other two edge regions store the same function of their blocks. -/
theorem pay10_eq : @Gen.k10_pay1 Ideal _ = @Gen.k1_pay1 Ideal _ := rfl
theorem pay19_eq : @Gen.k19_pay1 Ideal _ = @Gen.k1_pay1 Ideal _ := rfl

/-- The payload of the second edge region at a row. -/
theorem pay10_apply (v0 v2 : Vec Ideal S4000x128 .f32) (v5 : Vec Ideal S128x256 .f32) (v9 : Vec Ideal S128 .f32)
    (v16 : Vec Ideal S1x128 .f32) (v20 : Vec Ideal S1 .f32) (p : Fin 4000) :
    Gen.k10_pay1 v0 v2 v5 v9 v16 v20 (ix2 p (0 : Fin 1)) = blkEdge v0 v2 v5 v9 v16 v20 p :=
  pay_apply v0 v2 v5 v9 v16 v20 p

/-- The payload of the third edge region at a row. -/
theorem pay19_apply (v0 v2 : Vec Ideal S4000x128 .f32) (v5 : Vec Ideal S128x256 .f32) (v9 : Vec Ideal S128 .f32)
    (v16 : Vec Ideal S1x128 .f32) (v20 : Vec Ideal S1 .f32) (p : Fin 4000) :
    Gen.k19_pay1 v0 v2 v5 v9 v16 v20 (ix2 p (0 : Fin 1)) = blkEdge v0 v2 v5 v9 v16 v20 p :=
  pay_apply v0 v2 v5 v9 v16 v20 p

end Cert.Edge

end
-- ==== Proof.EdgeSpec.lean ====
/-
  The block formula is the whole-array formula: the edge resistance of row `p` of two endpoint blocks whose row `p`
  is row `e` of the two whole gathered arrays is the edge resistance of the whole arrays at edge `e`, the weights
  and biases being the same on both sides. Both are the same expression in the rows' entries.
-/
import proofs.«107783_j24189255811079_1_alg».proof.Proof.EdgePay
import proofs.«107783_j24189255811079_1_alg».proof.Proof.Spec

noncomputable section

namespace Cert.Edge

open Cert.KernelIdeal Idealize.ShloMosaic Idealize.ShloMosaic.ValueIdx
open scoped BigOperators

/-- If row `p` of the two blocks is row `i 0` of the two arrays, the block's resistance at `p` is the arrays' at `i`. -/
theorem blkEdge_eq (xs xd : Cert.Spec.Arr Cert.Spec.E128) (w1 : Cert.Spec.Arr Cert.Spec.W256) (b1 : Cert.Spec.Arr Cert.Spec.B128)
    (w2 : Cert.Spec.Arr Cert.Spec.R128) (b2 : Cert.Spec.Arr Cert.Spec.B1) (x0 x1 : FVec Ideal S4000x128 .f32) (p : Fin 4000)
    (i : Cert.Spec.E1.Idx)
    (h0 : ∀ k : Fin 128, x0 (ix2 p k) = xs (ix2 (i 0 : Fin 400000) k))
    (h1 : ∀ k : Fin 128, x1 (ix2 p k) = xd (ix2 (i 0 : Fin 400000) k)) :
    blkEdge x0 x1 w1 b1 w2 b2 p = Cert.Spec.edge xs xd w1 b1 w2 b2 i := by
  unfold blkEdge blkHidden Cert.Spec.edge Cert.Spec.edgeHidden
  simp only [h0, h1]

end Cert.Edge

end
-- ==== Proof.EdgeFinal1.lean ====
/-
  Edge region 1: from what each grid point writes back to the whole output column.

  The grid has 100 points; point `t` reads rows `4000·t … 4000·t + 3999` of the two gathered endpoint arrays (block
  index `t` on the row axis, `0` on the feature axis), the whole weights and biases (block index `0` everywhere), and
  writes back rows `4000·t …` of the 400000×1 output. A block's coordinate is block index × block size + the coordinate
  inside the block, so row `p` of point `t`'s input blocks is row `4000·t + p` of the arrays, which is the row its
  output row `p` lands on: what point `t` writes back is block `t` of the edge resistance of the whole arrays. The
  100 blocks tile the 400000 rows (row `r` is in block `r / 4000`), so after the region the output array is the edge
  resistance of the arrays the region found.
-/
import proofs.«107783_j24189255811079_1_alg».proof.Proof.Gen.KernelIdeal.Frame
import proofs.«107783_j24189255811079_1_alg».proof.Proof.EdgeSpec
import Idealize.ShloMosaic.Lib.Pipeline.Value

noncomputable section

namespace Cert.Edge

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2_1 : (![0, 0] : Fin 2 → Nat) = fun _ => 0 := funext fun a => by fin_cases a <;> rfl
theorem hz1_1 : (![0] : Fin 1 → Nat) = fun _ => 0 := funext fun a => by fin_cases a <;> rfl

/-- The printed index maps, decided over the 100 points: the row blocks move with the point, everything else stays at 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row `p` of point `t`'s first endpoint block is the array's row under output row `p` of the point's block. -/
theorem blk1_0_apply (c : Dev nD) (t : Fin cfg1.N) (p : Fin 4000) (k : Fin 128) :
    iblk1 V c 0 t (ix2 p k) = V c main_v12 (ix2 ((((cfg1.win 6).blk t).view.emb (ix2 p (0 : Fin 1))) 0 : Fin 400000) k) := by
  show V c main_v12 (((cfg1.win 0).blk t).view.emb (ix2 p k)) = _
  refine congrArg (V c main_v12) (funext fun a => Fin.ext ?_)
  obtain ⟨e0, e1, -, -, -, -, -, -, -, -, e6, -⟩ := idx_facts1 t
  match a with
  | ⟨0, _⟩ => show win1_0.index t (0 : Fin 2) * 4000 + 1 * p.val = win1_6.index t (0 : Fin 2) * 4000 + 1 * p.val; omega
  | ⟨1, _⟩ => show win1_0.index t (1 : Fin 2) * 128 + 1 * k.val = k.val; omega

/-- The same for the second endpoint block. -/
theorem blk1_1_apply (c : Dev nD) (t : Fin cfg1.N) (p : Fin 4000) (k : Fin 128) :
    iblk1 V c 1 t (ix2 p k) = V c main_v19 (ix2 ((((cfg1.win 6).blk t).view.emb (ix2 p (0 : Fin 1))) 0 : Fin 400000) k) := by
  show V c main_v19 (((cfg1.win 1).blk t).view.emb (ix2 p k)) = _
  refine congrArg (V c main_v19) (funext fun a => Fin.ext ?_)
  obtain ⟨-, -, e2, e3, -, -, -, -, -, -, e6, -⟩ := idx_facts1 t
  match a with
  | ⟨0, _⟩ => show win1_1.index t (0 : Fin 2) * 4000 + 1 * p.val = win1_6.index t (0 : Fin 2) * 4000 + 1 * p.val; omega
  | ⟨1, _⟩ => show win1_1.index t (1 : Fin 2) * 128 + 1 * k.val = k.val; omega

/-- The first weight's block is the whole weight at every point. -/
theorem blk1_2_eq (c : Dev nD) (t : Fin cfg1.N) : iblk1 V c 2 t = V c main_v21 := by
  funext y
  show V c main_v21 (((cfg1.win 2).blk t).view.emb y) = V c main_v21 y
  refine congrArg (V c main_v21) (funext fun a => Fin.ext ?_)
  obtain ⟨-, -, -, -, e4, e5, -⟩ := idx_facts1 t
  match a with
  | ⟨0, _⟩ => show win1_2.index t (0 : Fin 2) * 128 + 1 * (y 0).val = (y 0).val; omega
  | ⟨1, _⟩ => show win1_2.index t (1 : Fin 2) * 256 + 1 * (y 1).val = (y 1).val; omega

/-- The first bias's block is the whole bias. -/
theorem blk1_3_eq (c : Dev nD) (t : Fin cfg1.N) : iblk1 V c 3 t = V c main_v23 := by
  funext y
  show V c main_v23 (((cfg1.win 3).blk t).view.emb y) = V c main_v23 y
  refine congrArg (V c main_v23) (funext fun a => Fin.ext ?_)
  obtain ⟨-, -, -, -, -, -, e6, -⟩ := idx_facts1 t
  match a with
  | ⟨0, _⟩ => show win1_3.index t (0 : Fin 1) * 128 + 1 * (y 0).val = (y 0).val; omega

/-- The second weight's block is the whole weight. -/
theorem blk1_4_eq (c : Dev nD) (t : Fin cfg1.N) : iblk1 V c 4 t = V c main_v25 := by
  funext y
  show V c main_v25 (((cfg1.win 4).blk t).view.emb y) = V c main_v25 y
  refine congrArg (V c main_v25) (funext fun a => Fin.ext ?_)
  obtain ⟨-, -, -, -, -, -, -, e7, e8, -⟩ := idx_facts1 t
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The second bias's block is the whole bias. -/
theorem blk1_5_eq (c : Dev nD) (t : Fin cfg1.N) : iblk1 V c 5 t = V c main_v27 := by
  funext y
  show V c main_v27 (((cfg1.win 5).blk t).view.emb y) = V c main_v27 y
  refine congrArg (V c main_v27) (funext fun a => Fin.ext ?_)
  obtain ⟨-, -, -, -, -, -, -, -, -, e9, -⟩ := idx_facts1 t
  match a with
  | ⟨0, _⟩ => show win1_5.index t (0 : Fin 1) * 1 + 1 * (y 0).val = (y 0).val; omega

/-- WHAT POINT `t` WRITES BACK is block `t` of the edge resistance of the arrays as the region finds them. -/
theorem flushed1_eq (c : Dev nD) (t : Fin cfg1.N) :
    (dat1 V c).flushed 6 t = ((cfg1.win 6).blk t).view.read (Elt Ideal)
      (Cert.Spec.edge (V c main_v12) (V c main_v19) (V c main_v21) (V c main_v23) (V c main_v25) (V c main_v27)) := by
  show (cfg1.win 6).cut (grid1.coords t) ((dat1 V c).after 6 t) = _
  rw [after1_6]
  unfold out1_6
  rw [View.canon_unit_zero hz2_1]
  simp only [View.ld_unit_zero (S := S4000x128) hz2_1, View.ld_unit_zero (S := S128x256) hz2_1, View.ld_unit_zero (S := S128) hz1_1,
    View.ld_unit_zero (S := S1x128) hz2_1, View.ld_unit_zero (S := S1) hz1_1]
  rw [blk1_2_eq, blk1_3_eq, blk1_4_eq, blk1_5_eq]
  funext y
  obtain ⟨p, q, rfl⟩ : ∃ (p : Fin 4000) (q : Fin 1), y = ix2 p q := ⟨y 0, y 1, eq_ix2 y⟩
  obtain rfl : q = 0 := Subsingleton.elim _ _
  show k1_pay1 (iblk1 V c 0 t) (iblk1 V c 1 t) (V c main_v21) (V c main_v23) (V c main_v25) (V c main_v27) (ix2 p (0 : Fin 1))
    = Cert.Spec.edge (V c main_v12) (V c main_v19) (V c main_v21) (V c main_v23) (V c main_v25) (V c main_v27) (((cfg1.win 6).blk t).view.emb (ix2 p (0 : Fin 1)))
  refine (pay_apply _ _ _ _ _ _ p).trans ?_
  exact blkEdge_eq _ _ _ _ _ _ _ _ p _ (blk1_0_apply V c t p) (blk1_1_apply V c t p)

/-- An index of the output array is in point `t`'s block iff each coordinate is in the block's range on its axis. -/
theorem mem_blk1 (t : Fin cfg1.N) (i : S400000x1.Idx) :
    i ∈ ((cfg1.win 6).blk t).view.set ↔ ∀ a : Fin 2, win1_6.index t a * S4000x1.size a ≤ (i a).val ∧ (i a).val < win1_6.index t a * S4000x1.size a + S4000x1.size a := by
  show i ∈ ((View.whole main_v28).slice (win1_6.rect t)).set ↔ _
  rw [View.set_slice_whole, Rect.mem_set_unit]
  exact Iff.rfl

/-- The 100 blocks tile the 400000 rows: row `r` is in block `r / 4000`. -/
theorem cover1 (i : S400000x1.Idx) : ∃ t : Fin cfg1.N, (cfg1.win 6).flush t = true ∧ i ∈ ((cfg1.win 6).blk t).view.set := by
  have hi0 : (i 0).val < 400000 := (i 0).isLt
  have hi1 : (i 1).val < 1 := (i 1).isLt
  have hN : cfg1.N = 100 := N_1
  obtain ⟨t, ht⟩ : ∃ t : Fin cfg1.N, t.val = (i 0).val / 4000 := ⟨⟨(i 0).val / 4000, by rw [hN]; omega⟩, rfl⟩
  obtain ⟨-, -, -, -, -, -, -, -, -, -, e0, e1⟩ := idx_facts1 t
  refine ⟨t, flush1_6 t, ?_⟩
  rw [mem_blk1]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 1 ≤ (i 1).val ∧ (i 1).val < win1_6.index t (1 : Fin 2) * 1 + 1; omega

/-- THE OUTPUT COLUMN after region 1: the edge resistance of the arrays the region finds in its six input windows. -/
theorem final1 (c : Dev nD) : (dat1 (F := Ideal) V c).arrAt 6 cfg1.N
    = Cert.Spec.edge (V c main_v12) (V c main_v19) (V c main_v21) (V c main_v23) (V c main_v25) (V c main_v27) :=
  (dat1 V c).arrAt_eq_of_cover 6 _ (fun t _ => flushed1_eq V c t) cover1

end Cert.Edge

end
-- ==== Proof.EdgeFinal10.lean ====
/-
  Edge region 10: from what each grid point writes back to the whole output column.

  The grid has 100 points; point `t` reads rows `4000·t … 4000·t + 3999` of the two gathered endpoint arrays (block
  index `t` on the row axis, `0` on the feature axis), the whole weights and biases (block index `0` everywhere), and
  writes back rows `4000·t …` of the 400000×1 output. A block's coordinate is block index × block size + the coordinate
  inside the block, so row `p` of point `t`'s input blocks is row `4000·t + p` of the arrays, which is the row its
  output row `p` lands on: what point `t` writes back is block `t` of the edge resistance of the whole arrays. The
  100 blocks tile the 400000 rows (row `r` is in block `r / 4000`), so after the region the output array is the edge
  resistance of the arrays the region found.
-/
import proofs.«107783_j24189255811079_1_alg».proof.Proof.Gen.KernelIdeal.Frame
import proofs.«107783_j24189255811079_1_alg».proof.Proof.EdgeSpec
import Idealize.ShloMosaic.Lib.Pipeline.Value

noncomputable section

namespace Cert.Edge

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2_10 : (![0, 0] : Fin 2 → Nat) = fun _ => 0 := funext fun a => by fin_cases a <;> rfl
theorem hz1_10 : (![0] : Fin 1 → Nat) = fun _ => 0 := funext fun a => by fin_cases a <;> rfl

/-- The printed index maps, decided over the 100 points: the row blocks move with the point, everything else stays at 0. -/
theorem idx_facts10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 1) = 0
    ∧ win10_4.index t (0 : Fin 2) = 0 ∧ win10_4.index t (1 : Fin 2) = 0
    ∧ win10_5.index t (0 : Fin 1) = 0
    ∧ win10_6.index t (0 : Fin 2) = t.val ∧ win10_6.index t (1 : Fin 2) = 0 :=
  (by decide +kernel : ∀ t : Fin grid10.N, _)

/-- Row `p` of point `t`'s first endpoint block is the array's row under output row `p` of the point's block. -/
theorem blk10_0_apply (c : Dev nD) (t : Fin cfg10.N) (p : Fin 4000) (k : Fin 128) :
    iblk10 V c 0 t (ix2 p k) = V c main_v91 (ix2 ((((cfg10.win 6).blk t).view.emb (ix2 p (0 : Fin 1))) 0 : Fin 400000) k) := by
  show V c main_v91 (((cfg10.win 0).blk t).view.emb (ix2 p k)) = _
  refine congrArg (V c main_v91) (funext fun a => Fin.ext ?_)
  obtain ⟨e0, e1, -, -, -, -, -, -, -, -, e6, -⟩ := idx_facts10 t
  match a with
  | ⟨0, _⟩ => show win10_0.index t (0 : Fin 2) * 4000 + 1 * p.val = win10_6.index t (0 : Fin 2) * 4000 + 1 * p.val; omega
  | ⟨1, _⟩ => show win10_0.index t (1 : Fin 2) * 128 + 1 * k.val = k.val; omega

/-- The same for the second endpoint block. -/
theorem blk10_1_apply (c : Dev nD) (t : Fin cfg10.N) (p : Fin 4000) (k : Fin 128) :
    iblk10 V c 1 t (ix2 p k) = V c main_v98 (ix2 ((((cfg10.win 6).blk t).view.emb (ix2 p (0 : Fin 1))) 0 : Fin 400000) k) := by
  show V c main_v98 (((cfg10.win 1).blk t).view.emb (ix2 p k)) = _
  refine congrArg (V c main_v98) (funext fun a => Fin.ext ?_)
  obtain ⟨-, -, e2, e3, -, -, -, -, -, -, e6, -⟩ := idx_facts10 t
  match a with
  | ⟨0, _⟩ => show win10_1.index t (0 : Fin 2) * 4000 + 1 * p.val = win10_6.index t (0 : Fin 2) * 4000 + 1 * p.val; omega
  | ⟨1, _⟩ => show win10_1.index t (1 : Fin 2) * 128 + 1 * k.val = k.val; omega

/-- The first weight's block is the whole weight at every point. -/
theorem blk10_2_eq (c : Dev nD) (t : Fin cfg10.N) : iblk10 V c 2 t = V c main_v100 := by
  funext y
  show V c main_v100 (((cfg10.win 2).blk t).view.emb y) = V c main_v100 y
  refine congrArg (V c main_v100) (funext fun a => Fin.ext ?_)
  obtain ⟨-, -, -, -, e4, e5, -⟩ := idx_facts10 t
  match a with
  | ⟨0, _⟩ => show win10_2.index t (0 : Fin 2) * 128 + 1 * (y 0).val = (y 0).val; omega
  | ⟨1, _⟩ => show win10_2.index t (1 : Fin 2) * 256 + 1 * (y 1).val = (y 1).val; omega

/-- The first bias's block is the whole bias. -/
theorem blk10_3_eq (c : Dev nD) (t : Fin cfg10.N) : iblk10 V c 3 t = V c main_v102 := by
  funext y
  show V c main_v102 (((cfg10.win 3).blk t).view.emb y) = V c main_v102 y
  refine congrArg (V c main_v102) (funext fun a => Fin.ext ?_)
  obtain ⟨-, -, -, -, -, -, e6, -⟩ := idx_facts10 t
  match a with
  | ⟨0, _⟩ => show win10_3.index t (0 : Fin 1) * 128 + 1 * (y 0).val = (y 0).val; omega

/-- The second weight's block is the whole weight. -/
theorem blk10_4_eq (c : Dev nD) (t : Fin cfg10.N) : iblk10 V c 4 t = V c main_v104 := by
  funext y
  show V c main_v104 (((cfg10.win 4).blk t).view.emb y) = V c main_v104 y
  refine congrArg (V c main_v104) (funext fun a => Fin.ext ?_)
  obtain ⟨-, -, -, -, -, -, -, e7, e8, -⟩ := idx_facts10 t
  match a with
  | ⟨0, _⟩ => show win10_4.index t (0 : Fin 2) * 1 + 1 * (y 0).val = (y 0).val; omega
  | ⟨1, _⟩ => show win10_4.index t (1 : Fin 2) * 128 + 1 * (y 1).val = (y 1).val; omega

/-- The second bias's block is the whole bias. -/
theorem blk10_5_eq (c : Dev nD) (t : Fin cfg10.N) : iblk10 V c 5 t = V c main_v106 := by
  funext y
  show V c main_v106 (((cfg10.win 5).blk t).view.emb y) = V c main_v106 y
  refine congrArg (V c main_v106) (funext fun a => Fin.ext ?_)
  obtain ⟨-, -, -, -, -, -, -, -, -, e9, -⟩ := idx_facts10 t
  match a with
  | ⟨0, _⟩ => show win10_5.index t (0 : Fin 1) * 1 + 1 * (y 0).val = (y 0).val; omega

/-- WHAT POINT `t` WRITES BACK is block `t` of the edge resistance of the arrays as the region finds them. -/
theorem flushed10_eq (c : Dev nD) (t : Fin cfg10.N) :
    (dat10 V c).flushed 6 t = ((cfg10.win 6).blk t).view.read (Elt Ideal)
      (Cert.Spec.edge (V c main_v91) (V c main_v98) (V c main_v100) (V c main_v102) (V c main_v104) (V c main_v106)) := by
  show (cfg10.win 6).cut (grid10.coords t) ((dat10 V c).after 6 t) = _
  rw [after10_6]
  unfold out10_6
  rw [View.canon_unit_zero hz2_10]
  simp only [View.ld_unit_zero (S := S4000x128) hz2_10, View.ld_unit_zero (S := S128x256) hz2_10, View.ld_unit_zero (S := S128) hz1_10,
    View.ld_unit_zero (S := S1x128) hz2_10, View.ld_unit_zero (S := S1) hz1_10]
  rw [blk10_2_eq, blk10_3_eq, blk10_4_eq, blk10_5_eq]
  funext y
  obtain ⟨p, q, rfl⟩ : ∃ (p : Fin 4000) (q : Fin 1), y = ix2 p q := ⟨y 0, y 1, eq_ix2 y⟩
  obtain rfl : q = 0 := Subsingleton.elim _ _
  show k10_pay1 (iblk10 V c 0 t) (iblk10 V c 1 t) (V c main_v100) (V c main_v102) (V c main_v104) (V c main_v106) (ix2 p (0 : Fin 1))
    = Cert.Spec.edge (V c main_v91) (V c main_v98) (V c main_v100) (V c main_v102) (V c main_v104) (V c main_v106) (((cfg10.win 6).blk t).view.emb (ix2 p (0 : Fin 1)))
  refine (pay10_apply _ _ _ _ _ _ p).trans ?_
  exact blkEdge_eq _ _ _ _ _ _ _ _ p _ (blk10_0_apply V c t p) (blk10_1_apply V c t p)

/-- An index of the output array is in point `t`'s block iff each coordinate is in the block's range on its axis. -/
theorem mem_blk10 (t : Fin cfg10.N) (i : S400000x1.Idx) :
    i ∈ ((cfg10.win 6).blk t).view.set ↔ ∀ a : Fin 2, win10_6.index t a * S4000x1.size a ≤ (i a).val ∧ (i a).val < win10_6.index t a * S4000x1.size a + S4000x1.size a := by
  show i ∈ ((View.whole main_v107).slice (win10_6.rect t)).set ↔ _
  rw [View.set_slice_whole, Rect.mem_set_unit]
  exact Iff.rfl

/-- The 100 blocks tile the 400000 rows: row `r` is in block `r / 4000`. -/
theorem cover10 (i : S400000x1.Idx) : ∃ t : Fin cfg10.N, (cfg10.win 6).flush t = true ∧ i ∈ ((cfg10.win 6).blk t).view.set := by
  have hi0 : (i 0).val < 400000 := (i 0).isLt
  have hi1 : (i 1).val < 1 := (i 1).isLt
  have hN : cfg10.N = 100 := N_10
  obtain ⟨t, ht⟩ : ∃ t : Fin cfg10.N, t.val = (i 0).val / 4000 := ⟨⟨(i 0).val / 4000, by rw [hN]; omega⟩, rfl⟩
  obtain ⟨-, -, -, -, -, -, -, -, -, -, e0, e1⟩ := idx_facts10 t
  refine ⟨t, flush10_6 t, ?_⟩
  rw [mem_blk10]
  intro a
  match a with
  | ⟨0, _⟩ => show win10_6.index t (0 : Fin 2) * 4000 ≤ (i 0).val ∧ (i 0).val < win10_6.index t (0 : Fin 2) * 4000 + 4000; omega
  | ⟨1, _⟩ => show win10_6.index t (1 : Fin 2) * 1 ≤ (i 1).val ∧ (i 1).val < win10_6.index t (1 : Fin 2) * 1 + 1; omega

/-- THE OUTPUT COLUMN after region 10: the edge resistance of the arrays the region finds in its six input windows. -/
theorem final10 (c : Dev nD) : (dat10 (F := Ideal) V c).arrAt 6 cfg10.N
    = Cert.Spec.edge (V c main_v91) (V c main_v98) (V c main_v100) (V c main_v102) (V c main_v104) (V c main_v106) :=
  (dat10 V c).arrAt_eq_of_cover 6 _ (fun t _ => flushed10_eq V c t) cover10

end Cert.Edge

end
-- ==== Proof.EdgeFinal19.lean ====
/-
  Edge region 19: from what each grid point writes back to the whole output column.

  The grid has 100 points; point `t` reads rows `4000·t … 4000·t + 3999` of the two gathered endpoint arrays (block
  index `t` on the row axis, `0` on the feature axis), the whole weights and biases (block index `0` everywhere), and
  writes back rows `4000·t …` of the 400000×1 output. A block's coordinate is block index × block size + the coordinate
  inside the block, so row `p` of point `t`'s input blocks is row `4000·t + p` of the arrays, which is the row its
  output row `p` lands on: what point `t` writes back is block `t` of the edge resistance of the whole arrays. The
  100 blocks tile the 400000 rows (row `r` is in block `r / 4000`), so after the region the output array is the edge
  resistance of the arrays the region found.
-/
import proofs.«107783_j24189255811079_1_alg».proof.Proof.Gen.KernelIdeal.Frame
import proofs.«107783_j24189255811079_1_alg».proof.Proof.EdgeSpec
import Idealize.ShloMosaic.Lib.Pipeline.Value

noncomputable section

namespace Cert.Edge

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2_19 : (![0, 0] : Fin 2 → Nat) = fun _ => 0 := funext fun a => by fin_cases a <;> rfl
theorem hz1_19 : (![0] : Fin 1 → Nat) = fun _ => 0 := funext fun a => by fin_cases a <;> rfl

/-- The printed index maps, decided over the 100 points: the row blocks move with the point, everything else stays at 0. -/
theorem idx_facts19 : ∀ t : Fin cfg19.N,
    win19_0.index t (0 : Fin 2) = t.val ∧ win19_0.index t (1 : Fin 2) = 0
    ∧ win19_1.index t (0 : Fin 2) = t.val ∧ win19_1.index t (1 : Fin 2) = 0
    ∧ win19_2.index t (0 : Fin 2) = 0 ∧ win19_2.index t (1 : Fin 2) = 0
    ∧ win19_3.index t (0 : Fin 1) = 0
    ∧ win19_4.index t (0 : Fin 2) = 0 ∧ win19_4.index t (1 : Fin 2) = 0
    ∧ win19_5.index t (0 : Fin 1) = 0
    ∧ win19_6.index t (0 : Fin 2) = t.val ∧ win19_6.index t (1 : Fin 2) = 0 :=
  (by decide +kernel : ∀ t : Fin grid19.N, _)

/-- Row `p` of point `t`'s first endpoint block is the array's row under output row `p` of the point's block. -/
theorem blk19_0_apply (c : Dev nD) (t : Fin cfg19.N) (p : Fin 4000) (k : Fin 128) :
    iblk19 V c 0 t (ix2 p k) = V c main_v170 (ix2 ((((cfg19.win 6).blk t).view.emb (ix2 p (0 : Fin 1))) 0 : Fin 400000) k) := by
  show V c main_v170 (((cfg19.win 0).blk t).view.emb (ix2 p k)) = _
  refine congrArg (V c main_v170) (funext fun a => Fin.ext ?_)
  obtain ⟨e0, e1, -, -, -, -, -, -, -, -, e6, -⟩ := idx_facts19 t
  match a with
  | ⟨0, _⟩ => show win19_0.index t (0 : Fin 2) * 4000 + 1 * p.val = win19_6.index t (0 : Fin 2) * 4000 + 1 * p.val; omega
  | ⟨1, _⟩ => show win19_0.index t (1 : Fin 2) * 128 + 1 * k.val = k.val; omega

/-- The same for the second endpoint block. -/
theorem blk19_1_apply (c : Dev nD) (t : Fin cfg19.N) (p : Fin 4000) (k : Fin 128) :
    iblk19 V c 1 t (ix2 p k) = V c main_v177 (ix2 ((((cfg19.win 6).blk t).view.emb (ix2 p (0 : Fin 1))) 0 : Fin 400000) k) := by
  show V c main_v177 (((cfg19.win 1).blk t).view.emb (ix2 p k)) = _
  refine congrArg (V c main_v177) (funext fun a => Fin.ext ?_)
  obtain ⟨-, -, e2, e3, -, -, -, -, -, -, e6, -⟩ := idx_facts19 t
  match a with
  | ⟨0, _⟩ => show win19_1.index t (0 : Fin 2) * 4000 + 1 * p.val = win19_6.index t (0 : Fin 2) * 4000 + 1 * p.val; omega
  | ⟨1, _⟩ => show win19_1.index t (1 : Fin 2) * 128 + 1 * k.val = k.val; omega

/-- The first weight's block is the whole weight at every point. -/
theorem blk19_2_eq (c : Dev nD) (t : Fin cfg19.N) : iblk19 V c 2 t = V c main_v179 := by
  funext y
  show V c main_v179 (((cfg19.win 2).blk t).view.emb y) = V c main_v179 y
  refine congrArg (V c main_v179) (funext fun a => Fin.ext ?_)
  obtain ⟨-, -, -, -, e4, e5, -⟩ := idx_facts19 t
  match a with
  | ⟨0, _⟩ => show win19_2.index t (0 : Fin 2) * 128 + 1 * (y 0).val = (y 0).val; omega
  | ⟨1, _⟩ => show win19_2.index t (1 : Fin 2) * 256 + 1 * (y 1).val = (y 1).val; omega

/-- The first bias's block is the whole bias. -/
theorem blk19_3_eq (c : Dev nD) (t : Fin cfg19.N) : iblk19 V c 3 t = V c main_v181 := by
  funext y
  show V c main_v181 (((cfg19.win 3).blk t).view.emb y) = V c main_v181 y
  refine congrArg (V c main_v181) (funext fun a => Fin.ext ?_)
  obtain ⟨-, -, -, -, -, -, e6, -⟩ := idx_facts19 t
  match a with
  | ⟨0, _⟩ => show win19_3.index t (0 : Fin 1) * 128 + 1 * (y 0).val = (y 0).val; omega

/-- The second weight's block is the whole weight. -/
theorem blk19_4_eq (c : Dev nD) (t : Fin cfg19.N) : iblk19 V c 4 t = V c main_v183 := by
  funext y
  show V c main_v183 (((cfg19.win 4).blk t).view.emb y) = V c main_v183 y
  refine congrArg (V c main_v183) (funext fun a => Fin.ext ?_)
  obtain ⟨-, -, -, -, -, -, -, e7, e8, -⟩ := idx_facts19 t
  match a with
  | ⟨0, _⟩ => show win19_4.index t (0 : Fin 2) * 1 + 1 * (y 0).val = (y 0).val; omega
  | ⟨1, _⟩ => show win19_4.index t (1 : Fin 2) * 128 + 1 * (y 1).val = (y 1).val; omega

/-- The second bias's block is the whole bias. -/
theorem blk19_5_eq (c : Dev nD) (t : Fin cfg19.N) : iblk19 V c 5 t = V c main_v185 := by
  funext y
  show V c main_v185 (((cfg19.win 5).blk t).view.emb y) = V c main_v185 y
  refine congrArg (V c main_v185) (funext fun a => Fin.ext ?_)
  obtain ⟨-, -, -, -, -, -, -, -, -, e9, -⟩ := idx_facts19 t
  match a with
  | ⟨0, _⟩ => show win19_5.index t (0 : Fin 1) * 1 + 1 * (y 0).val = (y 0).val; omega

/-- WHAT POINT `t` WRITES BACK is block `t` of the edge resistance of the arrays as the region finds them. -/
theorem flushed19_eq (c : Dev nD) (t : Fin cfg19.N) :
    (dat19 V c).flushed 6 t = ((cfg19.win 6).blk t).view.read (Elt Ideal)
      (Cert.Spec.edge (V c main_v170) (V c main_v177) (V c main_v179) (V c main_v181) (V c main_v183) (V c main_v185)) := by
  show (cfg19.win 6).cut (grid19.coords t) ((dat19 V c).after 6 t) = _
  rw [after19_6]
  unfold out19_6
  rw [View.canon_unit_zero hz2_19]
  simp only [View.ld_unit_zero (S := S4000x128) hz2_19, View.ld_unit_zero (S := S128x256) hz2_19, View.ld_unit_zero (S := S128) hz1_19,
    View.ld_unit_zero (S := S1x128) hz2_19, View.ld_unit_zero (S := S1) hz1_19]
  rw [blk19_2_eq, blk19_3_eq, blk19_4_eq, blk19_5_eq]
  funext y
  obtain ⟨p, q, rfl⟩ : ∃ (p : Fin 4000) (q : Fin 1), y = ix2 p q := ⟨y 0, y 1, eq_ix2 y⟩
  obtain rfl : q = 0 := Subsingleton.elim _ _
  show k19_pay1 (iblk19 V c 0 t) (iblk19 V c 1 t) (V c main_v179) (V c main_v181) (V c main_v183) (V c main_v185) (ix2 p (0 : Fin 1))
    = Cert.Spec.edge (V c main_v170) (V c main_v177) (V c main_v179) (V c main_v181) (V c main_v183) (V c main_v185) (((cfg19.win 6).blk t).view.emb (ix2 p (0 : Fin 1)))
  refine (pay19_apply _ _ _ _ _ _ p).trans ?_
  exact blkEdge_eq _ _ _ _ _ _ _ _ p _ (blk19_0_apply V c t p) (blk19_1_apply V c t p)

/-- An index of the output array is in point `t`'s block iff each coordinate is in the block's range on its axis. -/
theorem mem_blk19 (t : Fin cfg19.N) (i : S400000x1.Idx) :
    i ∈ ((cfg19.win 6).blk t).view.set ↔ ∀ a : Fin 2, win19_6.index t a * S4000x1.size a ≤ (i a).val ∧ (i a).val < win19_6.index t a * S4000x1.size a + S4000x1.size a := by
  show i ∈ ((View.whole main_v186).slice (win19_6.rect t)).set ↔ _
  rw [View.set_slice_whole, Rect.mem_set_unit]
  exact Iff.rfl

/-- The 100 blocks tile the 400000 rows: row `r` is in block `r / 4000`. -/
theorem cover19 (i : S400000x1.Idx) : ∃ t : Fin cfg19.N, (cfg19.win 6).flush t = true ∧ i ∈ ((cfg19.win 6).blk t).view.set := by
  have hi0 : (i 0).val < 400000 := (i 0).isLt
  have hi1 : (i 1).val < 1 := (i 1).isLt
  have hN : cfg19.N = 100 := N_19
  obtain ⟨t, ht⟩ : ∃ t : Fin cfg19.N, t.val = (i 0).val / 4000 := ⟨⟨(i 0).val / 4000, by rw [hN]; omega⟩, rfl⟩
  obtain ⟨-, -, -, -, -, -, -, -, -, -, e0, e1⟩ := idx_facts19 t
  refine ⟨t, flush19_6 t, ?_⟩
  rw [mem_blk19]
  intro a
  match a with
  | ⟨0, _⟩ => show win19_6.index t (0 : Fin 2) * 4000 ≤ (i 0).val ∧ (i 0).val < win19_6.index t (0 : Fin 2) * 4000 + 4000; omega
  | ⟨1, _⟩ => show win19_6.index t (1 : Fin 2) * 1 ≤ (i 1).val ∧ (i 1).val < win19_6.index t (1 : Fin 2) * 1 + 1; omega

/-- THE OUTPUT COLUMN after region 19: the edge resistance of the arrays the region finds in its six input windows. -/
theorem final19 (c : Dev nD) : (dat19 (F := Ideal) V c).arrAt 6 cfg19.N
    = Cert.Spec.edge (V c main_v170) (V c main_v177) (V c main_v179) (V c main_v181) (V c main_v183) (V c main_v185) :=
  (dat19 V c).arrAt_eq_of_cover 6 _ (fun t _ => flushed19_eq V c t) cover19

end Cert.Edge

end
-- ==== Proof.EdgeFinals.lean ====
/-
  The three edge regions' output columns after their regions, gathered: each is the edge resistance of the arrays the
  region finds in its six input windows (`Cert.Edge.final1`, `final10`, `final19`).
-/
import proofs.«107783_j24189255811079_1_alg».proof.Proof.EdgeFinal1
import proofs.«107783_j24189255811079_1_alg».proof.Proof.EdgeFinal10
import proofs.«107783_j24189255811079_1_alg».proof.Proof.EdgeFinal19
-- ==== Proof.NodePay.lean ====
/-
  The node update at one element. Each of the six node-update kernels computes, from its loaded blocks
  `x, v, f, diss` (2000×128), `deg` (a 2000×1 column) and `scat` (2000×128), the two stored blocks

      v'[p,q] = v[p,q] − ε·((deg[p,0]·f[p,q] − scat[p,q]) + diss[p,q]·v[p,q]),      x'[p,q] = x[p,q] + ε·v'[p,q],

  `ε` the binary32 number nearest one hundredth. This module reads the kernels' two stored values at an index
  `(p, q)`: every operation is elementwise, the shape casts are identities, the constant is a splat, and the degree
  column is broadcast along the features, so that it is read at `(p, 0)` whatever `q` is.
-/
import proofs.«107783_j24189255811079_1_alg».proof.Proof.Gen.KernelIdeal.Skeleton
import proofs.«107783_j24189255811079_1_alg».proof.Proof.Spec
import Idealize.ShloMosaic.Lib.ValueIdx
import Idealize.ShloMosaic.Lib.Pipeline.Value

noncomputable section

namespace Cert.Node

open Idealize.ShloMosaic Idealize.ShloMosaic.ValueIdx
open Cert.KernelIdeal

/-- The zero offsets of a whole-block access, as the constant function. -/
theorem hz : (![0, 0] : Fin 2 → Nat) = fun _ => 0 := funext fun a => by fin_cases a <;> rfl

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The velocity payload of the node update at one element: `v − ε·((deg·f − scat) + diss·v)`, the degree read in its one column. -/
theorem k4_pay1_apply (v2 v4 v6 : Vec Ideal S2000x128 .f32) (v8 : Vec Ideal S2000x1 .f32) (v10 : Vec Ideal S2000x128 .f32)
    (p : Fin 2000) (q : Fin 128) :
    Gen.k4_pay1 v2 v4 v6 v8 v10 (ix2 p q)
      = v2 (ix2 p q) - Cert.Spec.eps * ((v8 (ix2 p (0 : Fin 1)) * v4 (ix2 p q) - v10 (ix2 p q)) + v6 (ix2 p q) * v2 (ix2 p q)) := by
  unfold Gen.k4_pay1
  simp only [shapeCast_self]
  rw [subf_apply, mulf_apply, addf_apply, subf_apply, mulf_apply, mulf_apply, broadcast_apply, broadcastTo_a1_ab_apply]
  rfl

/-- The position payload of the node update at one element: `x + ε·v'`, `v'` the velocity payload. -/
theorem k4_pay2_apply (v0 v2 v4 v6 : Vec Ideal S2000x128 .f32) (v8 : Vec Ideal S2000x1 .f32) (v10 : Vec Ideal S2000x128 .f32)
    (p : Fin 2000) (q : Fin 128) :
    Gen.k4_pay2 v0 v2 v4 v6 v8 v10 (ix2 p q)
      = v0 (ix2 p q) + Cert.Spec.eps * Gen.k4_pay1 v2 v4 v6 v8 v10 (ix2 p q) := by
  unfold Gen.k4_pay2
  simp only [shapeCast_self]
  rw [addf_apply, mulf_apply, broadcast_apply]
  rfl

/-- The velocity payload of the node update at one element: `v − ε·((deg·f − scat) + diss·v)`, the degree read in its one column. -/
theorem k7_pay1_apply (v2 v4 v6 : Vec Ideal S2000x128 .f32) (v8 : Vec Ideal S2000x1 .f32) (v10 : Vec Ideal S2000x128 .f32)
    (p : Fin 2000) (q : Fin 128) :
    Gen.k7_pay1 v2 v4 v6 v8 v10 (ix2 p q)
      = v2 (ix2 p q) - Cert.Spec.eps * ((v8 (ix2 p (0 : Fin 1)) * v4 (ix2 p q) - v10 (ix2 p q)) + v6 (ix2 p q) * v2 (ix2 p q)) := by
  unfold Gen.k7_pay1
  simp only [shapeCast_self]
  rw [subf_apply, mulf_apply, addf_apply, subf_apply, mulf_apply, mulf_apply, broadcast_apply, broadcastTo_a1_ab_apply]
  rfl

/-- The position payload of the node update at one element: `x + ε·v'`, `v'` the velocity payload. -/
theorem k7_pay2_apply (v0 v2 v4 v6 : Vec Ideal S2000x128 .f32) (v8 : Vec Ideal S2000x1 .f32) (v10 : Vec Ideal S2000x128 .f32)
    (p : Fin 2000) (q : Fin 128) :
    Gen.k7_pay2 v0 v2 v4 v6 v8 v10 (ix2 p q)
      = v0 (ix2 p q) + Cert.Spec.eps * Gen.k7_pay1 v2 v4 v6 v8 v10 (ix2 p q) := by
  unfold Gen.k7_pay2
  simp only [shapeCast_self]
  rw [addf_apply, mulf_apply, broadcast_apply]
  rfl

/-- The velocity payload of the node update at one element: `v − ε·((deg·f − scat) + diss·v)`, the degree read in its one column. -/
theorem k13_pay1_apply (v2 v4 v6 : Vec Ideal S2000x128 .f32) (v8 : Vec Ideal S2000x1 .f32) (v10 : Vec Ideal S2000x128 .f32)
    (p : Fin 2000) (q : Fin 128) :
    Gen.k13_pay1 v2 v4 v6 v8 v10 (ix2 p q)
      = v2 (ix2 p q) - Cert.Spec.eps * ((v8 (ix2 p (0 : Fin 1)) * v4 (ix2 p q) - v10 (ix2 p q)) + v6 (ix2 p q) * v2 (ix2 p q)) := by
  unfold Gen.k13_pay1
  simp only [shapeCast_self]
  rw [subf_apply, mulf_apply, addf_apply, subf_apply, mulf_apply, mulf_apply, broadcast_apply, broadcastTo_a1_ab_apply]
  rfl

/-- The position payload of the node update at one element: `x + ε·v'`, `v'` the velocity payload. -/
theorem k13_pay2_apply (v0 v2 v4 v6 : Vec Ideal S2000x128 .f32) (v8 : Vec Ideal S2000x1 .f32) (v10 : Vec Ideal S2000x128 .f32)
    (p : Fin 2000) (q : Fin 128) :
    Gen.k13_pay2 v0 v2 v4 v6 v8 v10 (ix2 p q)
      = v0 (ix2 p q) + Cert.Spec.eps * Gen.k13_pay1 v2 v4 v6 v8 v10 (ix2 p q) := by
  unfold Gen.k13_pay2
  simp only [shapeCast_self]
  rw [addf_apply, mulf_apply, broadcast_apply]
  rfl

/-- The velocity payload of the node update at one element: `v − ε·((deg·f − scat) + diss·v)`, the degree read in its one column. -/
theorem k16_pay1_apply (v2 v4 v6 : Vec Ideal S2000x128 .f32) (v8 : Vec Ideal S2000x1 .f32) (v10 : Vec Ideal S2000x128 .f32)
    (p : Fin 2000) (q : Fin 128) :
    Gen.k16_pay1 v2 v4 v6 v8 v10 (ix2 p q)
      = v2 (ix2 p q) - Cert.Spec.eps * ((v8 (ix2 p (0 : Fin 1)) * v4 (ix2 p q) - v10 (ix2 p q)) + v6 (ix2 p q) * v2 (ix2 p q)) := by
  unfold Gen.k16_pay1
  simp only [shapeCast_self]
  rw [subf_apply, mulf_apply, addf_apply, subf_apply, mulf_apply, mulf_apply, broadcast_apply, broadcastTo_a1_ab_apply]
  rfl

/-- The position payload of the node update at one element: `x + ε·v'`, `v'` the velocity payload. -/
theorem k16_pay2_apply (v0 v2 v4 v6 : Vec Ideal S2000x128 .f32) (v8 : Vec Ideal S2000x1 .f32) (v10 : Vec Ideal S2000x128 .f32)
    (p : Fin 2000) (q : Fin 128) :
    Gen.k16_pay2 v0 v2 v4 v6 v8 v10 (ix2 p q)
      = v0 (ix2 p q) + Cert.Spec.eps * Gen.k16_pay1 v2 v4 v6 v8 v10 (ix2 p q) := by
  unfold Gen.k16_pay2
  simp only [shapeCast_self]
  rw [addf_apply, mulf_apply, broadcast_apply]
  rfl

/-- The velocity payload of the node update at one element: `v − ε·((deg·f − scat) + diss·v)`, the degree read in its one column. -/
theorem k22_pay1_apply (v2 v4 v6 : Vec Ideal S2000x128 .f32) (v8 : Vec Ideal S2000x1 .f32) (v10 : Vec Ideal S2000x128 .f32)
    (p : Fin 2000) (q : Fin 128) :
    Gen.k22_pay1 v2 v4 v6 v8 v10 (ix2 p q)
      = v2 (ix2 p q) - Cert.Spec.eps * ((v8 (ix2 p (0 : Fin 1)) * v4 (ix2 p q) - v10 (ix2 p q)) + v6 (ix2 p q) * v2 (ix2 p q)) := by
  unfold Gen.k22_pay1
  simp only [shapeCast_self]
  rw [subf_apply, mulf_apply, addf_apply, subf_apply, mulf_apply, mulf_apply, broadcast_apply, broadcastTo_a1_ab_apply]
  rfl

/-- The position payload of the node update at one element: `x + ε·v'`, `v'` the velocity payload. -/
theorem k22_pay2_apply (v0 v2 v4 v6 : Vec Ideal S2000x128 .f32) (v8 : Vec Ideal S2000x1 .f32) (v10 : Vec Ideal S2000x128 .f32)
    (p : Fin 2000) (q : Fin 128) :
    Gen.k22_pay2 v0 v2 v4 v6 v8 v10 (ix2 p q)
      = v0 (ix2 p q) + Cert.Spec.eps * Gen.k22_pay1 v2 v4 v6 v8 v10 (ix2 p q) := by
  unfold Gen.k22_pay2
  simp only [shapeCast_self]
  rw [addf_apply, mulf_apply, broadcast_apply]
  rfl

/-- The velocity payload of the node update at one element: `v − ε·((deg·f − scat) + diss·v)`, the degree read in its one column. -/
theorem k25_pay1_apply (v2 v4 v6 : Vec Ideal S2000x128 .f32) (v8 : Vec Ideal S2000x1 .f32) (v10 : Vec Ideal S2000x128 .f32)
    (p : Fin 2000) (q : Fin 128) :
    Gen.k25_pay1 v2 v4 v6 v8 v10 (ix2 p q)
      = v2 (ix2 p q) - Cert.Spec.eps * ((v8 (ix2 p (0 : Fin 1)) * v4 (ix2 p q) - v10 (ix2 p q)) + v6 (ix2 p q) * v2 (ix2 p q)) := by
  unfold Gen.k25_pay1
  simp only [shapeCast_self]
  rw [subf_apply, mulf_apply, addf_apply, subf_apply, mulf_apply, mulf_apply, broadcast_apply, broadcastTo_a1_ab_apply]
  rfl

/-- The position payload of the node update at one element: `x + ε·v'`, `v'` the velocity payload. -/
theorem k25_pay2_apply (v0 v2 v4 v6 : Vec Ideal S2000x128 .f32) (v8 : Vec Ideal S2000x1 .f32) (v10 : Vec Ideal S2000x128 .f32)
    (p : Fin 2000) (q : Fin 128) :
    Gen.k25_pay2 v0 v2 v4 v6 v8 v10 (ix2 p q)
      = v0 (ix2 p q) + Cert.Spec.eps * Gen.k25_pay1 v2 v4 v6 v8 v10 (ix2 p q) := by
  unfold Gen.k25_pay2
  simp only [shapeCast_self]
  rw [addf_apply, mulf_apply, broadcast_apply]
  rfl

end Cert.Node

end
-- ==== Proof.Node4.lean ====
/-
  Node-update region 4: what its two output arrays hold after the 25 grid points. Point `t` reads rows
  `2000·t … 2000·t + 1999` of each of its six input arrays (the degree array has one column, the others 128) and writes
  the same rows of the two outputs; on those rows the stored blocks are the node update of the input rows, element by
  element, the degree read in its one column. The 25 blocks tile the 50000 rows, so the whole first output is the
  position update `x + ε·v'` and the whole second output the velocity update `v' = v − ε·((deg·f − scat) + diss·v)`
  of the arrays the region finds on entry.
-/
import proofs.«107783_j24189255811079_1_alg».proof.Proof.Gen.KernelIdeal.Frame
import proofs.«107783_j24189255811079_1_alg».proof.Proof.Spec
import proofs.«107783_j24189255811079_1_alg».proof.Proof.NodePay

set_option maxRecDepth 16384

noncomputable section

namespace Cert.Node

open Idealize.ShloMosaic Idealize.ShloMosaic.TcCoe Idealize.ShloMosaic.ValueIdx
open Idealize.SL.Sem
open Idealize.ShloMosaic.Pipeline (Dat Cfg Window)
open Cert.KernelIdeal

variable (V : (c : Dev nD) → (b : Ref sig .tc) → Buf (Elt Ideal) ((c : Thread nD τ).loc b))

/-- The printed index maps, decided over the grid: every window's block index at point `t` is `(t, 0)`. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0 :=
  (by decide +kernel : ∀ t : Fin grid4.N, _)

/-- One element of what point `t` stores through window 6: the position update at the array index the block's
    element `(p, q)` sits at — every input block is read at the same rows, the degree block in its one column. -/
theorem elem4_6 (c : Dev nD) (t : Fin cfg4.N) (p : Fin 2000) (q : Fin 128) :
    Gen.k4_pay2 (Gen.iblk4 V c 0 t) (Gen.iblk4 V c 1 t) (Gen.iblk4 V c 2 t) (Gen.iblk4 V c 3 t) (Gen.iblk4 V c 4 t) (Gen.iblk4 V c 5 t) (ix2 p q) = (Cert.Spec.nodeX (V c main_v5) (V c main_v32) (V c main_v35) (V c main_v40) (V c main_v31) (V c main_v52)) (((cfg4.win 6).blk t).view.emb (ix2 p q)) := by
  obtain ⟨a0, b0, a1, b1, a2, b2, a3, b3, a4, b4, a5, b5, a6, b6, a7, b7⟩ := idx_facts4 t
  rw [k4_pay2_apply, k4_pay1_apply]
  have h0 : (((cfg4.win 0).blk t).view.emb (ix2 p q)) = (((cfg4.win 6).blk t).view.emb (ix2 p q)) := by
    funext a; apply Fin.ext
    match a with
    | ⟨0, _⟩ => show win4_0.index t (0 : Fin 2) * 2000 + 1 * p.val = win4_6.index t (0 : Fin 2) * 2000 + 1 * p.val; omega
    | ⟨1, _⟩ => show win4_0.index t (1 : Fin 2) * 128 + 1 * q.val = win4_6.index t (1 : Fin 2) * 128 + 1 * q.val; omega
  have e0 : (Gen.iblk4 V c 0 t) (ix2 p q) = V c main_v5 (((cfg4.win 6).blk t).view.emb (ix2 p q)) := congrArg (V c main_v5) h0
  have h1 : (((cfg4.win 1).blk t).view.emb (ix2 p q)) = (((cfg4.win 6).blk t).view.emb (ix2 p q)) := by
    funext a; apply Fin.ext
    match a with
    | ⟨0, _⟩ => show win4_1.index t (0 : Fin 2) * 2000 + 1 * p.val = win4_6.index t (0 : Fin 2) * 2000 + 1 * p.val; omega
    | ⟨1, _⟩ => show win4_1.index t (1 : Fin 2) * 128 + 1 * q.val = win4_6.index t (1 : Fin 2) * 128 + 1 * q.val; omega
  have e1 : (Gen.iblk4 V c 1 t) (ix2 p q) = V c main_v32 (((cfg4.win 6).blk t).view.emb (ix2 p q)) := congrArg (V c main_v32) h1
  have h2 : (((cfg4.win 2).blk t).view.emb (ix2 p q)) = (((cfg4.win 6).blk t).view.emb (ix2 p q)) := by
    funext a; apply Fin.ext
    match a with
    | ⟨0, _⟩ => show win4_2.index t (0 : Fin 2) * 2000 + 1 * p.val = win4_6.index t (0 : Fin 2) * 2000 + 1 * p.val; omega
    | ⟨1, _⟩ => show win4_2.index t (1 : Fin 2) * 128 + 1 * q.val = win4_6.index t (1 : Fin 2) * 128 + 1 * q.val; omega
  have e2 : (Gen.iblk4 V c 2 t) (ix2 p q) = V c main_v35 (((cfg4.win 6).blk t).view.emb (ix2 p q)) := congrArg (V c main_v35) h2
  have h3 : (((cfg4.win 3).blk t).view.emb (ix2 p q)) = (((cfg4.win 6).blk t).view.emb (ix2 p q)) := by
    funext a; apply Fin.ext
    match a with
    | ⟨0, _⟩ => show win4_3.index t (0 : Fin 2) * 2000 + 1 * p.val = win4_6.index t (0 : Fin 2) * 2000 + 1 * p.val; omega
    | ⟨1, _⟩ => show win4_3.index t (1 : Fin 2) * 128 + 1 * q.val = win4_6.index t (1 : Fin 2) * 128 + 1 * q.val; omega
  have e3 : (Gen.iblk4 V c 3 t) (ix2 p q) = V c main_v40 (((cfg4.win 6).blk t).view.emb (ix2 p q)) := congrArg (V c main_v40) h3
  have h5 : (((cfg4.win 5).blk t).view.emb (ix2 p q)) = (((cfg4.win 6).blk t).view.emb (ix2 p q)) := by
    funext a; apply Fin.ext
    match a with
    | ⟨0, _⟩ => show win4_5.index t (0 : Fin 2) * 2000 + 1 * p.val = win4_6.index t (0 : Fin 2) * 2000 + 1 * p.val; omega
    | ⟨1, _⟩ => show win4_5.index t (1 : Fin 2) * 128 + 1 * q.val = win4_6.index t (1 : Fin 2) * 128 + 1 * q.val; omega
  have e5 : (Gen.iblk4 V c 5 t) (ix2 p q) = V c main_v52 (((cfg4.win 6).blk t).view.emb (ix2 p q)) := congrArg (V c main_v52) h5
  have h4 : (((cfg4.win 4).blk t).view.emb (ix2 p (0 : Fin 1))) = ix2 ((((cfg4.win 6).blk t).view.emb (ix2 p q)) 0 : Fin 50000) (0 : Fin 1) := by
    funext a; apply Fin.ext
    match a with
    | ⟨0, _⟩ => show win4_4.index t (0 : Fin 2) * 2000 + 1 * p.val = win4_6.index t (0 : Fin 2) * 2000 + 1 * p.val; omega
    | ⟨1, _⟩ => show win4_4.index t (1 : Fin 2) * 1 + 1 * 0 = 0; omega
  have e4 : (Gen.iblk4 V c 4 t) (ix2 p (0 : Fin 1)) = V c main_v31 (ix2 ((((cfg4.win 6).blk t).view.emb (ix2 p q)) 0 : Fin 50000) (0 : Fin 1)) := congrArg (V c main_v31) h4
  rw [e0, e1, e2, e3, e4, e5]
  rfl

/-- One element of what point `t` stores through window 7: the velocity update at that array index. -/
theorem elem4_7 (c : Dev nD) (t : Fin cfg4.N) (p : Fin 2000) (q : Fin 128) :
    Gen.k4_pay1 (Gen.iblk4 V c 1 t) (Gen.iblk4 V c 2 t) (Gen.iblk4 V c 3 t) (Gen.iblk4 V c 4 t) (Gen.iblk4 V c 5 t) (ix2 p q) = (Cert.Spec.nodeV (V c main_v32) (V c main_v35) (V c main_v40) (V c main_v31) (V c main_v52)) (((cfg4.win 7).blk t).view.emb (ix2 p q)) := by
  obtain ⟨a0, b0, a1, b1, a2, b2, a3, b3, a4, b4, a5, b5, a6, b6, a7, b7⟩ := idx_facts4 t
  rw [k4_pay1_apply]
  have h1 : (((cfg4.win 1).blk t).view.emb (ix2 p q)) = (((cfg4.win 7).blk t).view.emb (ix2 p q)) := by
    funext a; apply Fin.ext
    match a with
    | ⟨0, _⟩ => show win4_1.index t (0 : Fin 2) * 2000 + 1 * p.val = win4_7.index t (0 : Fin 2) * 2000 + 1 * p.val; omega
    | ⟨1, _⟩ => show win4_1.index t (1 : Fin 2) * 128 + 1 * q.val = win4_7.index t (1 : Fin 2) * 128 + 1 * q.val; omega
  have e1 : (Gen.iblk4 V c 1 t) (ix2 p q) = V c main_v32 (((cfg4.win 7).blk t).view.emb (ix2 p q)) := congrArg (V c main_v32) h1
  have h2 : (((cfg4.win 2).blk t).view.emb (ix2 p q)) = (((cfg4.win 7).blk t).view.emb (ix2 p q)) := by
    funext a; apply Fin.ext
    match a with
    | ⟨0, _⟩ => show win4_2.index t (0 : Fin 2) * 2000 + 1 * p.val = win4_7.index t (0 : Fin 2) * 2000 + 1 * p.val; omega
    | ⟨1, _⟩ => show win4_2.index t (1 : Fin 2) * 128 + 1 * q.val = win4_7.index t (1 : Fin 2) * 128 + 1 * q.val; omega
  have e2 : (Gen.iblk4 V c 2 t) (ix2 p q) = V c main_v35 (((cfg4.win 7).blk t).view.emb (ix2 p q)) := congrArg (V c main_v35) h2
  have h3 : (((cfg4.win 3).blk t).view.emb (ix2 p q)) = (((cfg4.win 7).blk t).view.emb (ix2 p q)) := by
    funext a; apply Fin.ext
    match a with
    | ⟨0, _⟩ => show win4_3.index t (0 : Fin 2) * 2000 + 1 * p.val = win4_7.index t (0 : Fin 2) * 2000 + 1 * p.val; omega
    | ⟨1, _⟩ => show win4_3.index t (1 : Fin 2) * 128 + 1 * q.val = win4_7.index t (1 : Fin 2) * 128 + 1 * q.val; omega
  have e3 : (Gen.iblk4 V c 3 t) (ix2 p q) = V c main_v40 (((cfg4.win 7).blk t).view.emb (ix2 p q)) := congrArg (V c main_v40) h3
  have h5 : (((cfg4.win 5).blk t).view.emb (ix2 p q)) = (((cfg4.win 7).blk t).view.emb (ix2 p q)) := by
    funext a; apply Fin.ext
    match a with
    | ⟨0, _⟩ => show win4_5.index t (0 : Fin 2) * 2000 + 1 * p.val = win4_7.index t (0 : Fin 2) * 2000 + 1 * p.val; omega
    | ⟨1, _⟩ => show win4_5.index t (1 : Fin 2) * 128 + 1 * q.val = win4_7.index t (1 : Fin 2) * 128 + 1 * q.val; omega
  have e5 : (Gen.iblk4 V c 5 t) (ix2 p q) = V c main_v52 (((cfg4.win 7).blk t).view.emb (ix2 p q)) := congrArg (V c main_v52) h5
  have h4 : (((cfg4.win 4).blk t).view.emb (ix2 p (0 : Fin 1))) = ix2 ((((cfg4.win 7).blk t).view.emb (ix2 p q)) 0 : Fin 50000) (0 : Fin 1) := by
    funext a; apply Fin.ext
    match a with
    | ⟨0, _⟩ => show win4_4.index t (0 : Fin 2) * 2000 + 1 * p.val = win4_7.index t (0 : Fin 2) * 2000 + 1 * p.val; omega
    | ⟨1, _⟩ => show win4_4.index t (1 : Fin 2) * 1 + 1 * 0 = 0; omega
  have e4 : (Gen.iblk4 V c 4 t) (ix2 p (0 : Fin 1)) = V c main_v31 (ix2 ((((cfg4.win 7).blk t).view.emb (ix2 p q)) 0 : Fin 50000) (0 : Fin 1)) := congrArg (V c main_v31) h4
  rw [e1, e2, e3, e4, e5]
  rfl

/-- What point `t` writes back through window 6 is block `t` of the position update of the entry arrays. -/
theorem flushed4_6 (c : Dev nD) (t : Fin cfg4.N) :
    (Gen.dat4 V c).flushed 6 t = ((cfg4.win 6).blk t).view.read (Elt Ideal) (Cert.Spec.nodeX (V c main_v5) (V c main_v32) (V c main_v35) (V c main_v40) (V c main_v31) (V c main_v52)) := by
  show (cfg4.win 6).cut (grid4.coords t) ((Gen.dat4 V c).after 6 t) = _
  rw [Gen.after4_6]
  unfold Gen.out4_6
  rw [View.canon_unit_zero hz]
  simp only [View.ld_unit_zero (S := S2000x128) hz, View.ld_unit_zero (S := S2000x1) hz]
  funext j
  obtain ⟨p, q, rfl⟩ : ∃ (p : Fin 2000) (q : Fin 128), j = ix2 p q := ⟨j 0, j 1, eq_ix2 j⟩
  exact elem4_6 V c t p q

/-- What point `t` writes back through window 7 is block `t` of the velocity update of the entry arrays. -/
theorem flushed4_7 (c : Dev nD) (t : Fin cfg4.N) :
    (Gen.dat4 V c).flushed 7 t = ((cfg4.win 7).blk t).view.read (Elt Ideal) (Cert.Spec.nodeV (V c main_v32) (V c main_v35) (V c main_v40) (V c main_v31) (V c main_v52)) := by
  show (cfg4.win 7).cut (grid4.coords t) ((Gen.dat4 V c).after 7 t) = _
  rw [Gen.after4_7]
  unfold Gen.out4_7
  rw [View.canon_unit_zero hz]
  simp only [View.ld_unit_zero (S := S2000x128) hz, View.ld_unit_zero (S := S2000x1) hz]
  funext j
  obtain ⟨p, q, rfl⟩ : ∃ (p : Fin 2000) (q : Fin 128), j = ix2 p q := ⟨j 0, j 1, eq_ix2 j⟩
  exact elem4_7 V c t p q

/-- An index of the array is in point `t`'s block of window 6 iff each coordinate is in the block's range on its axis. -/
theorem mem_blk4_6 (t : Fin cfg4.N) (i : S50000x128.Idx) :
    i ∈ ((cfg4.win 6).blk t).view.set ↔ ∀ a : Fin 2, win4_6.index t a * S2000x128.size a ≤ (i a).val ∧ (i a).val < win4_6.index t a * S2000x128.size a + S2000x128.size a := by
  show i ∈ ((View.whole main_v53_0).slice (win4_6.rect t)).set ↔ _
  rw [View.set_slice_whole, Rect.mem_set_unit]
  exact Iff.rfl

/-- The 25 blocks of 2000 rows tile the 50000 rows: row `r` is in the block of point `r / 2000`. -/
theorem tiles4_6 (i : S50000x128.Idx) :
    ∃ t : Fin cfg4.N, (cfg4.win 6).flush t = true ∧ i ∈ ((cfg4.win 6).blk t).view.set := by
  have hi0 : (i 0).val < 50000 := (i 0).isLt
  have hi1 : (i 1).val < 128 := (i 1).isLt
  have hN : cfg4.N = 25 := Gen.N_4
  let t : Fin cfg4.N := ⟨(i 0).val / 2000, by rw [hN]; omega⟩
  have ht : t.val = (i 0).val / 2000 := rfl
  obtain ⟨a0, b0, a1, b1, a2, b2, a3, b3, a4, b4, a5, b5, a6, b6, a7, b7⟩ := idx_facts4 t
  refine ⟨t, Gen.flush4_6 t, ?_⟩
  rw [mem_blk4_6]
  intro a
  match a with
  | ⟨0, _⟩ => show win4_6.index t (0 : Fin 2) * 2000 ≤ (i 0).val ∧ (i 0).val < win4_6.index t (0 : Fin 2) * 2000 + 2000; omega
  | ⟨1, _⟩ => show win4_6.index t (1 : Fin 2) * 128 ≤ (i 1).val ∧ (i 1).val < win4_6.index t (1 : Fin 2) * 128 + 128; omega

/-- An index of the array is in point `t`'s block of window 7 iff each coordinate is in the block's range on its axis. -/
theorem mem_blk4_7 (t : Fin cfg4.N) (i : S50000x128.Idx) :
    i ∈ ((cfg4.win 7).blk t).view.set ↔ ∀ a : Fin 2, win4_7.index t a * S2000x128.size a ≤ (i a).val ∧ (i a).val < win4_7.index t a * S2000x128.size a + S2000x128.size a := by
  show i ∈ ((View.whole main_v53_1).slice (win4_7.rect t)).set ↔ _
  rw [View.set_slice_whole, Rect.mem_set_unit]
  exact Iff.rfl

/-- The 25 blocks of 2000 rows tile the 50000 rows: row `r` is in the block of point `r / 2000`. -/
theorem tiles4_7 (i : S50000x128.Idx) :
    ∃ t : Fin cfg4.N, (cfg4.win 7).flush t = true ∧ i ∈ ((cfg4.win 7).blk t).view.set := by
  have hi0 : (i 0).val < 50000 := (i 0).isLt
  have hi1 : (i 1).val < 128 := (i 1).isLt
  have hN : cfg4.N = 25 := Gen.N_4
  let t : Fin cfg4.N := ⟨(i 0).val / 2000, by rw [hN]; omega⟩
  have ht : t.val = (i 0).val / 2000 := rfl
  obtain ⟨a0, b0, a1, b1, a2, b2, a3, b3, a4, b4, a5, b5, a6, b6, a7, b7⟩ := idx_facts4 t
  refine ⟨t, Gen.flush4_7 t, ?_⟩
  rw [mem_blk4_7]
  intro a
  match a with
  | ⟨0, _⟩ => show win4_7.index t (0 : Fin 2) * 2000 ≤ (i 0).val ∧ (i 0).val < win4_7.index t (0 : Fin 2) * 2000 + 2000; omega
  | ⟨1, _⟩ => show win4_7.index t (1 : Fin 2) * 128 ≤ (i 1).val ∧ (i 1).val < win4_7.index t (1 : Fin 2) * 128 + 128; omega

/-- THE FIRST OUTPUT after the region: the position update of the arrays the region finds. -/
theorem final4_x (c : Dev nD) : (Gen.dat4 (F := Ideal) V c).arrAt 6 cfg4.N = Cert.Spec.nodeX (V c main_v5) (V c main_v32) (V c main_v35) (V c main_v40) (V c main_v31) (V c main_v52) :=
  (Gen.dat4 V c).arrAt_eq_of_cover 6 _ (fun t _ => flushed4_6 V c t) tiles4_6

/-- THE SECOND OUTPUT after the region: the velocity update of the arrays the region finds. -/
theorem final4_v (c : Dev nD) : (Gen.dat4 (F := Ideal) V c).arrAt 7 cfg4.N = Cert.Spec.nodeV (V c main_v32) (V c main_v35) (V c main_v40) (V c main_v31) (V c main_v52) :=
  (Gen.dat4 V c).arrAt_eq_of_cover 7 _ (fun t _ => flushed4_7 V c t) tiles4_7

end Cert.Node

end
-- ==== Proof.Node7.lean ====
/-
  Node-update region 7: what its two output arrays hold after the 25 grid points. Point `t` reads rows
  `2000·t … 2000·t + 1999` of each of its six input arrays (the degree array has one column, the others 128) and writes
  the same rows of the two outputs; on those rows the stored blocks are the node update of the input rows, element by
  element, the degree read in its one column. The 25 blocks tile the 50000 rows, so the whole first output is the
  position update `x + ε·v'` and the whole second output the velocity update `v' = v − ε·((deg·f − scat) + diss·v)`
  of the arrays the region finds on entry.
-/
import proofs.«107783_j24189255811079_1_alg».proof.Proof.Gen.KernelIdeal.Frame
import proofs.«107783_j24189255811079_1_alg».proof.Proof.Spec
import proofs.«107783_j24189255811079_1_alg».proof.Proof.NodePay

set_option maxRecDepth 16384

noncomputable section

namespace Cert.Node

open Idealize.ShloMosaic Idealize.ShloMosaic.TcCoe Idealize.ShloMosaic.ValueIdx
open Idealize.SL.Sem
open Idealize.ShloMosaic.Pipeline (Dat Cfg Window)
open Cert.KernelIdeal

variable (V : (c : Dev nD) → (b : Ref sig .tc) → Buf (Elt Ideal) ((c : Thread nD τ).loc b))

/-- The printed index maps, decided over the grid: every window's block index at point `t` is `(t, 0)`. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0
    ∧ win7_5.index t (0 : Fin 2) = t.val ∧ win7_5.index t (1 : Fin 2) = 0
    ∧ win7_6.index t (0 : Fin 2) = t.val ∧ win7_6.index t (1 : Fin 2) = 0
    ∧ win7_7.index t (0 : Fin 2) = t.val ∧ win7_7.index t (1 : Fin 2) = 0 :=
  (by decide +kernel : ∀ t : Fin grid7.N, _)

/-- One element of what point `t` stores through window 6: the position update at the array index the block's
    element `(p, q)` sits at — every input block is read at the same rows, the degree block in its one column. -/
theorem elem7_6 (c : Dev nD) (t : Fin cfg7.N) (p : Fin 2000) (q : Fin 128) :
    Gen.k7_pay2 (Gen.iblk7 V c 0 t) (Gen.iblk7 V c 1 t) (Gen.iblk7 V c 2 t) (Gen.iblk7 V c 3 t) (Gen.iblk7 V c 4 t) (Gen.iblk7 V c 5 t) (ix2 p q) = (Cert.Spec.nodeX (V c main_v53_0) (V c main_v53_1) (V c main_v56) (V c main_v61) (V c main_v31) (V c main_v73)) (((cfg7.win 6).blk t).view.emb (ix2 p q)) := by
  obtain ⟨a0, b0, a1, b1, a2, b2, a3, b3, a4, b4, a5, b5, a6, b6, a7, b7⟩ := idx_facts7 t
  rw [k7_pay2_apply, k7_pay1_apply]
  have h0 : (((cfg7.win 0).blk t).view.emb (ix2 p q)) = (((cfg7.win 6).blk t).view.emb (ix2 p q)) := by
    funext a; apply Fin.ext
    match a with
    | ⟨0, _⟩ => show win7_0.index t (0 : Fin 2) * 2000 + 1 * p.val = win7_6.index t (0 : Fin 2) * 2000 + 1 * p.val; omega
    | ⟨1, _⟩ => show win7_0.index t (1 : Fin 2) * 128 + 1 * q.val = win7_6.index t (1 : Fin 2) * 128 + 1 * q.val; omega
  have e0 : (Gen.iblk7 V c 0 t) (ix2 p q) = V c main_v53_0 (((cfg7.win 6).blk t).view.emb (ix2 p q)) := congrArg (V c main_v53_0) h0
  have h1 : (((cfg7.win 1).blk t).view.emb (ix2 p q)) = (((cfg7.win 6).blk t).view.emb (ix2 p q)) := by
    funext a; apply Fin.ext
    match a with
    | ⟨0, _⟩ => show win7_1.index t (0 : Fin 2) * 2000 + 1 * p.val = win7_6.index t (0 : Fin 2) * 2000 + 1 * p.val; omega
    | ⟨1, _⟩ => show win7_1.index t (1 : Fin 2) * 128 + 1 * q.val = win7_6.index t (1 : Fin 2) * 128 + 1 * q.val; omega
  have e1 : (Gen.iblk7 V c 1 t) (ix2 p q) = V c main_v53_1 (((cfg7.win 6).blk t).view.emb (ix2 p q)) := congrArg (V c main_v53_1) h1
  have h2 : (((cfg7.win 2).blk t).view.emb (ix2 p q)) = (((cfg7.win 6).blk t).view.emb (ix2 p q)) := by
    funext a; apply Fin.ext
    match a with
    | ⟨0, _⟩ => show win7_2.index t (0 : Fin 2) * 2000 + 1 * p.val = win7_6.index t (0 : Fin 2) * 2000 + 1 * p.val; omega
    | ⟨1, _⟩ => show win7_2.index t (1 : Fin 2) * 128 + 1 * q.val = win7_6.index t (1 : Fin 2) * 128 + 1 * q.val; omega
  have e2 : (Gen.iblk7 V c 2 t) (ix2 p q) = V c main_v56 (((cfg7.win 6).blk t).view.emb (ix2 p q)) := congrArg (V c main_v56) h2
  have h3 : (((cfg7.win 3).blk t).view.emb (ix2 p q)) = (((cfg7.win 6).blk t).view.emb (ix2 p q)) := by
    funext a; apply Fin.ext
    match a with
    | ⟨0, _⟩ => show win7_3.index t (0 : Fin 2) * 2000 + 1 * p.val = win7_6.index t (0 : Fin 2) * 2000 + 1 * p.val; omega
    | ⟨1, _⟩ => show win7_3.index t (1 : Fin 2) * 128 + 1 * q.val = win7_6.index t (1 : Fin 2) * 128 + 1 * q.val; omega
  have e3 : (Gen.iblk7 V c 3 t) (ix2 p q) = V c main_v61 (((cfg7.win 6).blk t).view.emb (ix2 p q)) := congrArg (V c main_v61) h3
  have h5 : (((cfg7.win 5).blk t).view.emb (ix2 p q)) = (((cfg7.win 6).blk t).view.emb (ix2 p q)) := by
    funext a; apply Fin.ext
    match a with
    | ⟨0, _⟩ => show win7_5.index t (0 : Fin 2) * 2000 + 1 * p.val = win7_6.index t (0 : Fin 2) * 2000 + 1 * p.val; omega
    | ⟨1, _⟩ => show win7_5.index t (1 : Fin 2) * 128 + 1 * q.val = win7_6.index t (1 : Fin 2) * 128 + 1 * q.val; omega
  have e5 : (Gen.iblk7 V c 5 t) (ix2 p q) = V c main_v73 (((cfg7.win 6).blk t).view.emb (ix2 p q)) := congrArg (V c main_v73) h5
  have h4 : (((cfg7.win 4).blk t).view.emb (ix2 p (0 : Fin 1))) = ix2 ((((cfg7.win 6).blk t).view.emb (ix2 p q)) 0 : Fin 50000) (0 : Fin 1) := by
    funext a; apply Fin.ext
    match a with
    | ⟨0, _⟩ => show win7_4.index t (0 : Fin 2) * 2000 + 1 * p.val = win7_6.index t (0 : Fin 2) * 2000 + 1 * p.val; omega
    | ⟨1, _⟩ => show win7_4.index t (1 : Fin 2) * 1 + 1 * 0 = 0; omega
  have e4 : (Gen.iblk7 V c 4 t) (ix2 p (0 : Fin 1)) = V c main_v31 (ix2 ((((cfg7.win 6).blk t).view.emb (ix2 p q)) 0 : Fin 50000) (0 : Fin 1)) := congrArg (V c main_v31) h4
  rw [e0, e1, e2, e3, e4, e5]
  rfl

/-- One element of what point `t` stores through window 7: the velocity update at that array index. -/
theorem elem7_7 (c : Dev nD) (t : Fin cfg7.N) (p : Fin 2000) (q : Fin 128) :
    Gen.k7_pay1 (Gen.iblk7 V c 1 t) (Gen.iblk7 V c 2 t) (Gen.iblk7 V c 3 t) (Gen.iblk7 V c 4 t) (Gen.iblk7 V c 5 t) (ix2 p q) = (Cert.Spec.nodeV (V c main_v53_1) (V c main_v56) (V c main_v61) (V c main_v31) (V c main_v73)) (((cfg7.win 7).blk t).view.emb (ix2 p q)) := by
  obtain ⟨a0, b0, a1, b1, a2, b2, a3, b3, a4, b4, a5, b5, a6, b6, a7, b7⟩ := idx_facts7 t
  rw [k7_pay1_apply]
  have h1 : (((cfg7.win 1).blk t).view.emb (ix2 p q)) = (((cfg7.win 7).blk t).view.emb (ix2 p q)) := by
    funext a; apply Fin.ext
    match a with
    | ⟨0, _⟩ => show win7_1.index t (0 : Fin 2) * 2000 + 1 * p.val = win7_7.index t (0 : Fin 2) * 2000 + 1 * p.val; omega
    | ⟨1, _⟩ => show win7_1.index t (1 : Fin 2) * 128 + 1 * q.val = win7_7.index t (1 : Fin 2) * 128 + 1 * q.val; omega
  have e1 : (Gen.iblk7 V c 1 t) (ix2 p q) = V c main_v53_1 (((cfg7.win 7).blk t).view.emb (ix2 p q)) := congrArg (V c main_v53_1) h1
  have h2 : (((cfg7.win 2).blk t).view.emb (ix2 p q)) = (((cfg7.win 7).blk t).view.emb (ix2 p q)) := by
    funext a; apply Fin.ext
    match a with
    | ⟨0, _⟩ => show win7_2.index t (0 : Fin 2) * 2000 + 1 * p.val = win7_7.index t (0 : Fin 2) * 2000 + 1 * p.val; omega
    | ⟨1, _⟩ => show win7_2.index t (1 : Fin 2) * 128 + 1 * q.val = win7_7.index t (1 : Fin 2) * 128 + 1 * q.val; omega
  have e2 : (Gen.iblk7 V c 2 t) (ix2 p q) = V c main_v56 (((cfg7.win 7).blk t).view.emb (ix2 p q)) := congrArg (V c main_v56) h2
  have h3 : (((cfg7.win 3).blk t).view.emb (ix2 p q)) = (((cfg7.win 7).blk t).view.emb (ix2 p q)) := by
    funext a; apply Fin.ext
    match a with
    | ⟨0, _⟩ => show win7_3.index t (0 : Fin 2) * 2000 + 1 * p.val = win7_7.index t (0 : Fin 2) * 2000 + 1 * p.val; omega
    | ⟨1, _⟩ => show win7_3.index t (1 : Fin 2) * 128 + 1 * q.val = win7_7.index t (1 : Fin 2) * 128 + 1 * q.val; omega
  have e3 : (Gen.iblk7 V c 3 t) (ix2 p q) = V c main_v61 (((cfg7.win 7).blk t).view.emb (ix2 p q)) := congrArg (V c main_v61) h3
  have h5 : (((cfg7.win 5).blk t).view.emb (ix2 p q)) = (((cfg7.win 7).blk t).view.emb (ix2 p q)) := by
    funext a; apply Fin.ext
    match a with
    | ⟨0, _⟩ => show win7_5.index t (0 : Fin 2) * 2000 + 1 * p.val = win7_7.index t (0 : Fin 2) * 2000 + 1 * p.val; omega
    | ⟨1, _⟩ => show win7_5.index t (1 : Fin 2) * 128 + 1 * q.val = win7_7.index t (1 : Fin 2) * 128 + 1 * q.val; omega
  have e5 : (Gen.iblk7 V c 5 t) (ix2 p q) = V c main_v73 (((cfg7.win 7).blk t).view.emb (ix2 p q)) := congrArg (V c main_v73) h5
  have h4 : (((cfg7.win 4).blk t).view.emb (ix2 p (0 : Fin 1))) = ix2 ((((cfg7.win 7).blk t).view.emb (ix2 p q)) 0 : Fin 50000) (0 : Fin 1) := by
    funext a; apply Fin.ext
    match a with
    | ⟨0, _⟩ => show win7_4.index t (0 : Fin 2) * 2000 + 1 * p.val = win7_7.index t (0 : Fin 2) * 2000 + 1 * p.val; omega
    | ⟨1, _⟩ => show win7_4.index t (1 : Fin 2) * 1 + 1 * 0 = 0; omega
  have e4 : (Gen.iblk7 V c 4 t) (ix2 p (0 : Fin 1)) = V c main_v31 (ix2 ((((cfg7.win 7).blk t).view.emb (ix2 p q)) 0 : Fin 50000) (0 : Fin 1)) := congrArg (V c main_v31) h4
  rw [e1, e2, e3, e4, e5]
  rfl

/-- What point `t` writes back through window 6 is block `t` of the position update of the entry arrays. -/
theorem flushed7_6 (c : Dev nD) (t : Fin cfg7.N) :
    (Gen.dat7 V c).flushed 6 t = ((cfg7.win 6).blk t).view.read (Elt Ideal) (Cert.Spec.nodeX (V c main_v53_0) (V c main_v53_1) (V c main_v56) (V c main_v61) (V c main_v31) (V c main_v73)) := by
  show (cfg7.win 6).cut (grid7.coords t) ((Gen.dat7 V c).after 6 t) = _
  rw [Gen.after7_6]
  unfold Gen.out7_6
  rw [View.canon_unit_zero hz]
  simp only [View.ld_unit_zero (S := S2000x128) hz, View.ld_unit_zero (S := S2000x1) hz]
  funext j
  obtain ⟨p, q, rfl⟩ : ∃ (p : Fin 2000) (q : Fin 128), j = ix2 p q := ⟨j 0, j 1, eq_ix2 j⟩
  exact elem7_6 V c t p q

/-- What point `t` writes back through window 7 is block `t` of the velocity update of the entry arrays. -/
theorem flushed7_7 (c : Dev nD) (t : Fin cfg7.N) :
    (Gen.dat7 V c).flushed 7 t = ((cfg7.win 7).blk t).view.read (Elt Ideal) (Cert.Spec.nodeV (V c main_v53_1) (V c main_v56) (V c main_v61) (V c main_v31) (V c main_v73)) := by
  show (cfg7.win 7).cut (grid7.coords t) ((Gen.dat7 V c).after 7 t) = _
  rw [Gen.after7_7]
  unfold Gen.out7_7
  rw [View.canon_unit_zero hz]
  simp only [View.ld_unit_zero (S := S2000x128) hz, View.ld_unit_zero (S := S2000x1) hz]
  funext j
  obtain ⟨p, q, rfl⟩ : ∃ (p : Fin 2000) (q : Fin 128), j = ix2 p q := ⟨j 0, j 1, eq_ix2 j⟩
  exact elem7_7 V c t p q

/-- An index of the array is in point `t`'s block of window 6 iff each coordinate is in the block's range on its axis. -/
theorem mem_blk7_6 (t : Fin cfg7.N) (i : S50000x128.Idx) :
    i ∈ ((cfg7.win 6).blk t).view.set ↔ ∀ a : Fin 2, win7_6.index t a * S2000x128.size a ≤ (i a).val ∧ (i a).val < win7_6.index t a * S2000x128.size a + S2000x128.size a := by
  show i ∈ ((View.whole main_v74_0).slice (win7_6.rect t)).set ↔ _
  rw [View.set_slice_whole, Rect.mem_set_unit]
  exact Iff.rfl

/-- The 25 blocks of 2000 rows tile the 50000 rows: row `r` is in the block of point `r / 2000`. -/
theorem tiles7_6 (i : S50000x128.Idx) :
    ∃ t : Fin cfg7.N, (cfg7.win 6).flush t = true ∧ i ∈ ((cfg7.win 6).blk t).view.set := by
  have hi0 : (i 0).val < 50000 := (i 0).isLt
  have hi1 : (i 1).val < 128 := (i 1).isLt
  have hN : cfg7.N = 25 := Gen.N_7
  let t : Fin cfg7.N := ⟨(i 0).val / 2000, by rw [hN]; omega⟩
  have ht : t.val = (i 0).val / 2000 := rfl
  obtain ⟨a0, b0, a1, b1, a2, b2, a3, b3, a4, b4, a5, b5, a6, b6, a7, b7⟩ := idx_facts7 t
  refine ⟨t, Gen.flush7_6 t, ?_⟩
  rw [mem_blk7_6]
  intro a
  match a with
  | ⟨0, _⟩ => show win7_6.index t (0 : Fin 2) * 2000 ≤ (i 0).val ∧ (i 0).val < win7_6.index t (0 : Fin 2) * 2000 + 2000; omega
  | ⟨1, _⟩ => show win7_6.index t (1 : Fin 2) * 128 ≤ (i 1).val ∧ (i 1).val < win7_6.index t (1 : Fin 2) * 128 + 128; omega

/-- An index of the array is in point `t`'s block of window 7 iff each coordinate is in the block's range on its axis. -/
theorem mem_blk7_7 (t : Fin cfg7.N) (i : S50000x128.Idx) :
    i ∈ ((cfg7.win 7).blk t).view.set ↔ ∀ a : Fin 2, win7_7.index t a * S2000x128.size a ≤ (i a).val ∧ (i a).val < win7_7.index t a * S2000x128.size a + S2000x128.size a := by
  show i ∈ ((View.whole main_v74_1).slice (win7_7.rect t)).set ↔ _
  rw [View.set_slice_whole, Rect.mem_set_unit]
  exact Iff.rfl

/-- The 25 blocks of 2000 rows tile the 50000 rows: row `r` is in the block of point `r / 2000`. -/
theorem tiles7_7 (i : S50000x128.Idx) :
    ∃ t : Fin cfg7.N, (cfg7.win 7).flush t = true ∧ i ∈ ((cfg7.win 7).blk t).view.set := by
  have hi0 : (i 0).val < 50000 := (i 0).isLt
  have hi1 : (i 1).val < 128 := (i 1).isLt
  have hN : cfg7.N = 25 := Gen.N_7
  let t : Fin cfg7.N := ⟨(i 0).val / 2000, by rw [hN]; omega⟩
  have ht : t.val = (i 0).val / 2000 := rfl
  obtain ⟨a0, b0, a1, b1, a2, b2, a3, b3, a4, b4, a5, b5, a6, b6, a7, b7⟩ := idx_facts7 t
  refine ⟨t, Gen.flush7_7 t, ?_⟩
  rw [mem_blk7_7]
  intro a
  match a with
  | ⟨0, _⟩ => show win7_7.index t (0 : Fin 2) * 2000 ≤ (i 0).val ∧ (i 0).val < win7_7.index t (0 : Fin 2) * 2000 + 2000; omega
  | ⟨1, _⟩ => show win7_7.index t (1 : Fin 2) * 128 ≤ (i 1).val ∧ (i 1).val < win7_7.index t (1 : Fin 2) * 128 + 128; omega

/-- THE FIRST OUTPUT after the region: the position update of the arrays the region finds. -/
theorem final7_x (c : Dev nD) : (Gen.dat7 (F := Ideal) V c).arrAt 6 cfg7.N = Cert.Spec.nodeX (V c main_v53_0) (V c main_v53_1) (V c main_v56) (V c main_v61) (V c main_v31) (V c main_v73) :=
  (Gen.dat7 V c).arrAt_eq_of_cover 6 _ (fun t _ => flushed7_6 V c t) tiles7_6

/-- THE SECOND OUTPUT after the region: the velocity update of the arrays the region finds. -/
theorem final7_v (c : Dev nD) : (Gen.dat7 (F := Ideal) V c).arrAt 7 cfg7.N = Cert.Spec.nodeV (V c main_v53_1) (V c main_v56) (V c main_v61) (V c main_v31) (V c main_v73) :=
  (Gen.dat7 V c).arrAt_eq_of_cover 7 _ (fun t _ => flushed7_7 V c t) tiles7_7

end Cert.Node

end
-- ==== Proof.Node13.lean ====
/-
  Node-update region 13: what its two output arrays hold after the 25 grid points. Point `t` reads rows
  `2000·t … 2000·t + 1999` of each of its six input arrays (the degree array has one column, the others 128) and writes
  the same rows of the two outputs; on those rows the stored blocks are the node update of the input rows, element by
  element, the degree read in its one column. The 25 blocks tile the 50000 rows, so the whole first output is the
  position update `x + ε·v'` and the whole second output the velocity update `v' = v − ε·((deg·f − scat) + diss·v)`
  of the arrays the region finds on entry.
-/
import proofs.«107783_j24189255811079_1_alg».proof.Proof.Gen.KernelIdeal.Frame
import proofs.«107783_j24189255811079_1_alg».proof.Proof.Spec
import proofs.«107783_j24189255811079_1_alg».proof.Proof.NodePay

set_option maxRecDepth 16384

noncomputable section

namespace Cert.Node

open Idealize.ShloMosaic Idealize.ShloMosaic.TcCoe Idealize.ShloMosaic.ValueIdx
open Idealize.SL.Sem
open Idealize.ShloMosaic.Pipeline (Dat Cfg Window)
open Cert.KernelIdeal

variable (V : (c : Dev nD) → (b : Ref sig .tc) → Buf (Elt Ideal) ((c : Thread nD τ).loc b))

/-- The printed index maps, decided over the grid: every window's block index at point `t` is `(t, 0)`. -/
theorem idx_facts13 : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = t.val ∧ win13_2.index t (1 : Fin 2) = 0
    ∧ win13_3.index t (0 : Fin 2) = t.val ∧ win13_3.index t (1 : Fin 2) = 0
    ∧ win13_4.index t (0 : Fin 2) = t.val ∧ win13_4.index t (1 : Fin 2) = 0
    ∧ win13_5.index t (0 : Fin 2) = t.val ∧ win13_5.index t (1 : Fin 2) = 0
    ∧ win13_6.index t (0 : Fin 2) = t.val ∧ win13_6.index t (1 : Fin 2) = 0
    ∧ win13_7.index t (0 : Fin 2) = t.val ∧ win13_7.index t (1 : Fin 2) = 0 :=
  (by decide +kernel : ∀ t : Fin grid13.N, _)

/-- One element of what point `t` stores through window 6: the position update at the array index the block's
    element `(p, q)` sits at — every input block is read at the same rows, the degree block in its one column. -/
theorem elem13_6 (c : Dev nD) (t : Fin cfg13.N) (p : Fin 2000) (q : Fin 128) :
    Gen.k13_pay2 (Gen.iblk13 V c 0 t) (Gen.iblk13 V c 1 t) (Gen.iblk13 V c 2 t) (Gen.iblk13 V c 3 t) (Gen.iblk13 V c 4 t) (Gen.iblk13 V c 5 t) (ix2 p q) = (Cert.Spec.nodeX (V c main_v84) (V c main_v111) (V c main_v114) (V c main_v119) (V c main_v110) (V c main_v131)) (((cfg13.win 6).blk t).view.emb (ix2 p q)) := by
  obtain ⟨a0, b0, a1, b1, a2, b2, a3, b3, a4, b4, a5, b5, a6, b6, a7, b7⟩ := idx_facts13 t
  rw [k13_pay2_apply, k13_pay1_apply]
  have h0 : (((cfg13.win 0).blk t).view.emb (ix2 p q)) = (((cfg13.win 6).blk t).view.emb (ix2 p q)) := by
    funext a; apply Fin.ext
    match a with
    | ⟨0, _⟩ => show win13_0.index t (0 : Fin 2) * 2000 + 1 * p.val = win13_6.index t (0 : Fin 2) * 2000 + 1 * p.val; omega
    | ⟨1, _⟩ => show win13_0.index t (1 : Fin 2) * 128 + 1 * q.val = win13_6.index t (1 : Fin 2) * 128 + 1 * q.val; omega
  have e0 : (Gen.iblk13 V c 0 t) (ix2 p q) = V c main_v84 (((cfg13.win 6).blk t).view.emb (ix2 p q)) := congrArg (V c main_v84) h0
  have h1 : (((cfg13.win 1).blk t).view.emb (ix2 p q)) = (((cfg13.win 6).blk t).view.emb (ix2 p q)) := by
    funext a; apply Fin.ext
    match a with
    | ⟨0, _⟩ => show win13_1.index t (0 : Fin 2) * 2000 + 1 * p.val = win13_6.index t (0 : Fin 2) * 2000 + 1 * p.val; omega
    | ⟨1, _⟩ => show win13_1.index t (1 : Fin 2) * 128 + 1 * q.val = win13_6.index t (1 : Fin 2) * 128 + 1 * q.val; omega
  have e1 : (Gen.iblk13 V c 1 t) (ix2 p q) = V c main_v111 (((cfg13.win 6).blk t).view.emb (ix2 p q)) := congrArg (V c main_v111) h1
  have h2 : (((cfg13.win 2).blk t).view.emb (ix2 p q)) = (((cfg13.win 6).blk t).view.emb (ix2 p q)) := by
    funext a; apply Fin.ext
    match a with
    | ⟨0, _⟩ => show win13_2.index t (0 : Fin 2) * 2000 + 1 * p.val = win13_6.index t (0 : Fin 2) * 2000 + 1 * p.val; omega
    | ⟨1, _⟩ => show win13_2.index t (1 : Fin 2) * 128 + 1 * q.val = win13_6.index t (1 : Fin 2) * 128 + 1 * q.val; omega
  have e2 : (Gen.iblk13 V c 2 t) (ix2 p q) = V c main_v114 (((cfg13.win 6).blk t).view.emb (ix2 p q)) := congrArg (V c main_v114) h2
  have h3 : (((cfg13.win 3).blk t).view.emb (ix2 p q)) = (((cfg13.win 6).blk t).view.emb (ix2 p q)) := by
    funext a; apply Fin.ext
    match a with
    | ⟨0, _⟩ => show win13_3.index t (0 : Fin 2) * 2000 + 1 * p.val = win13_6.index t (0 : Fin 2) * 2000 + 1 * p.val; omega
    | ⟨1, _⟩ => show win13_3.index t (1 : Fin 2) * 128 + 1 * q.val = win13_6.index t (1 : Fin 2) * 128 + 1 * q.val; omega
  have e3 : (Gen.iblk13 V c 3 t) (ix2 p q) = V c main_v119 (((cfg13.win 6).blk t).view.emb (ix2 p q)) := congrArg (V c main_v119) h3
  have h5 : (((cfg13.win 5).blk t).view.emb (ix2 p q)) = (((cfg13.win 6).blk t).view.emb (ix2 p q)) := by
    funext a; apply Fin.ext
    match a with
    | ⟨0, _⟩ => show win13_5.index t (0 : Fin 2) * 2000 + 1 * p.val = win13_6.index t (0 : Fin 2) * 2000 + 1 * p.val; omega
    | ⟨1, _⟩ => show win13_5.index t (1 : Fin 2) * 128 + 1 * q.val = win13_6.index t (1 : Fin 2) * 128 + 1 * q.val; omega
  have e5 : (Gen.iblk13 V c 5 t) (ix2 p q) = V c main_v131 (((cfg13.win 6).blk t).view.emb (ix2 p q)) := congrArg (V c main_v131) h5
  have h4 : (((cfg13.win 4).blk t).view.emb (ix2 p (0 : Fin 1))) = ix2 ((((cfg13.win 6).blk t).view.emb (ix2 p q)) 0 : Fin 50000) (0 : Fin 1) := by
    funext a; apply Fin.ext
    match a with
    | ⟨0, _⟩ => show win13_4.index t (0 : Fin 2) * 2000 + 1 * p.val = win13_6.index t (0 : Fin 2) * 2000 + 1 * p.val; omega
    | ⟨1, _⟩ => show win13_4.index t (1 : Fin 2) * 1 + 1 * 0 = 0; omega
  have e4 : (Gen.iblk13 V c 4 t) (ix2 p (0 : Fin 1)) = V c main_v110 (ix2 ((((cfg13.win 6).blk t).view.emb (ix2 p q)) 0 : Fin 50000) (0 : Fin 1)) := congrArg (V c main_v110) h4
  rw [e0, e1, e2, e3, e4, e5]
  rfl

/-- One element of what point `t` stores through window 7: the velocity update at that array index. -/
theorem elem13_7 (c : Dev nD) (t : Fin cfg13.N) (p : Fin 2000) (q : Fin 128) :
    Gen.k13_pay1 (Gen.iblk13 V c 1 t) (Gen.iblk13 V c 2 t) (Gen.iblk13 V c 3 t) (Gen.iblk13 V c 4 t) (Gen.iblk13 V c 5 t) (ix2 p q) = (Cert.Spec.nodeV (V c main_v111) (V c main_v114) (V c main_v119) (V c main_v110) (V c main_v131)) (((cfg13.win 7).blk t).view.emb (ix2 p q)) := by
  obtain ⟨a0, b0, a1, b1, a2, b2, a3, b3, a4, b4, a5, b5, a6, b6, a7, b7⟩ := idx_facts13 t
  rw [k13_pay1_apply]
  have h1 : (((cfg13.win 1).blk t).view.emb (ix2 p q)) = (((cfg13.win 7).blk t).view.emb (ix2 p q)) := by
    funext a; apply Fin.ext
    match a with
    | ⟨0, _⟩ => show win13_1.index t (0 : Fin 2) * 2000 + 1 * p.val = win13_7.index t (0 : Fin 2) * 2000 + 1 * p.val; omega
    | ⟨1, _⟩ => show win13_1.index t (1 : Fin 2) * 128 + 1 * q.val = win13_7.index t (1 : Fin 2) * 128 + 1 * q.val; omega
  have e1 : (Gen.iblk13 V c 1 t) (ix2 p q) = V c main_v111 (((cfg13.win 7).blk t).view.emb (ix2 p q)) := congrArg (V c main_v111) h1
  have h2 : (((cfg13.win 2).blk t).view.emb (ix2 p q)) = (((cfg13.win 7).blk t).view.emb (ix2 p q)) := by
    funext a; apply Fin.ext
    match a with
    | ⟨0, _⟩ => show win13_2.index t (0 : Fin 2) * 2000 + 1 * p.val = win13_7.index t (0 : Fin 2) * 2000 + 1 * p.val; omega
    | ⟨1, _⟩ => show win13_2.index t (1 : Fin 2) * 128 + 1 * q.val = win13_7.index t (1 : Fin 2) * 128 + 1 * q.val; omega
  have e2 : (Gen.iblk13 V c 2 t) (ix2 p q) = V c main_v114 (((cfg13.win 7).blk t).view.emb (ix2 p q)) := congrArg (V c main_v114) h2
  have h3 : (((cfg13.win 3).blk t).view.emb (ix2 p q)) = (((cfg13.win 7).blk t).view.emb (ix2 p q)) := by
    funext a; apply Fin.ext
    match a with
    | ⟨0, _⟩ => show win13_3.index t (0 : Fin 2) * 2000 + 1 * p.val = win13_7.index t (0 : Fin 2) * 2000 + 1 * p.val; omega
    | ⟨1, _⟩ => show win13_3.index t (1 : Fin 2) * 128 + 1 * q.val = win13_7.index t (1 : Fin 2) * 128 + 1 * q.val; omega
  have e3 : (Gen.iblk13 V c 3 t) (ix2 p q) = V c main_v119 (((cfg13.win 7).blk t).view.emb (ix2 p q)) := congrArg (V c main_v119) h3
  have h5 : (((cfg13.win 5).blk t).view.emb (ix2 p q)) = (((cfg13.win 7).blk t).view.emb (ix2 p q)) := by
    funext a; apply Fin.ext
    match a with
    | ⟨0, _⟩ => show win13_5.index t (0 : Fin 2) * 2000 + 1 * p.val = win13_7.index t (0 : Fin 2) * 2000 + 1 * p.val; omega
    | ⟨1, _⟩ => show win13_5.index t (1 : Fin 2) * 128 + 1 * q.val = win13_7.index t (1 : Fin 2) * 128 + 1 * q.val; omega
  have e5 : (Gen.iblk13 V c 5 t) (ix2 p q) = V c main_v131 (((cfg13.win 7).blk t).view.emb (ix2 p q)) := congrArg (V c main_v131) h5
  have h4 : (((cfg13.win 4).blk t).view.emb (ix2 p (0 : Fin 1))) = ix2 ((((cfg13.win 7).blk t).view.emb (ix2 p q)) 0 : Fin 50000) (0 : Fin 1) := by
    funext a; apply Fin.ext
    match a with
    | ⟨0, _⟩ => show win13_4.index t (0 : Fin 2) * 2000 + 1 * p.val = win13_7.index t (0 : Fin 2) * 2000 + 1 * p.val; omega
    | ⟨1, _⟩ => show win13_4.index t (1 : Fin 2) * 1 + 1 * 0 = 0; omega
  have e4 : (Gen.iblk13 V c 4 t) (ix2 p (0 : Fin 1)) = V c main_v110 (ix2 ((((cfg13.win 7).blk t).view.emb (ix2 p q)) 0 : Fin 50000) (0 : Fin 1)) := congrArg (V c main_v110) h4
  rw [e1, e2, e3, e4, e5]
  rfl

/-- What point `t` writes back through window 6 is block `t` of the position update of the entry arrays. -/
theorem flushed13_6 (c : Dev nD) (t : Fin cfg13.N) :
    (Gen.dat13 V c).flushed 6 t = ((cfg13.win 6).blk t).view.read (Elt Ideal) (Cert.Spec.nodeX (V c main_v84) (V c main_v111) (V c main_v114) (V c main_v119) (V c main_v110) (V c main_v131)) := by
  show (cfg13.win 6).cut (grid13.coords t) ((Gen.dat13 V c).after 6 t) = _
  rw [Gen.after13_6]
  unfold Gen.out13_6
  rw [View.canon_unit_zero hz]
  simp only [View.ld_unit_zero (S := S2000x128) hz, View.ld_unit_zero (S := S2000x1) hz]
  funext j
  obtain ⟨p, q, rfl⟩ : ∃ (p : Fin 2000) (q : Fin 128), j = ix2 p q := ⟨j 0, j 1, eq_ix2 j⟩
  exact elem13_6 V c t p q

/-- What point `t` writes back through window 7 is block `t` of the velocity update of the entry arrays. -/
theorem flushed13_7 (c : Dev nD) (t : Fin cfg13.N) :
    (Gen.dat13 V c).flushed 7 t = ((cfg13.win 7).blk t).view.read (Elt Ideal) (Cert.Spec.nodeV (V c main_v111) (V c main_v114) (V c main_v119) (V c main_v110) (V c main_v131)) := by
  show (cfg13.win 7).cut (grid13.coords t) ((Gen.dat13 V c).after 7 t) = _
  rw [Gen.after13_7]
  unfold Gen.out13_7
  rw [View.canon_unit_zero hz]
  simp only [View.ld_unit_zero (S := S2000x128) hz, View.ld_unit_zero (S := S2000x1) hz]
  funext j
  obtain ⟨p, q, rfl⟩ : ∃ (p : Fin 2000) (q : Fin 128), j = ix2 p q := ⟨j 0, j 1, eq_ix2 j⟩
  exact elem13_7 V c t p q

/-- An index of the array is in point `t`'s block of window 6 iff each coordinate is in the block's range on its axis. -/
theorem mem_blk13_6 (t : Fin cfg13.N) (i : S50000x128.Idx) :
    i ∈ ((cfg13.win 6).blk t).view.set ↔ ∀ a : Fin 2, win13_6.index t a * S2000x128.size a ≤ (i a).val ∧ (i a).val < win13_6.index t a * S2000x128.size a + S2000x128.size a := by
  show i ∈ ((View.whole main_v132_0).slice (win13_6.rect t)).set ↔ _
  rw [View.set_slice_whole, Rect.mem_set_unit]
  exact Iff.rfl

/-- The 25 blocks of 2000 rows tile the 50000 rows: row `r` is in the block of point `r / 2000`. -/
theorem tiles13_6 (i : S50000x128.Idx) :
    ∃ t : Fin cfg13.N, (cfg13.win 6).flush t = true ∧ i ∈ ((cfg13.win 6).blk t).view.set := by
  have hi0 : (i 0).val < 50000 := (i 0).isLt
  have hi1 : (i 1).val < 128 := (i 1).isLt
  have hN : cfg13.N = 25 := Gen.N_13
  let t : Fin cfg13.N := ⟨(i 0).val / 2000, by rw [hN]; omega⟩
  have ht : t.val = (i 0).val / 2000 := rfl
  obtain ⟨a0, b0, a1, b1, a2, b2, a3, b3, a4, b4, a5, b5, a6, b6, a7, b7⟩ := idx_facts13 t
  refine ⟨t, Gen.flush13_6 t, ?_⟩
  rw [mem_blk13_6]
  intro a
  match a with
  | ⟨0, _⟩ => show win13_6.index t (0 : Fin 2) * 2000 ≤ (i 0).val ∧ (i 0).val < win13_6.index t (0 : Fin 2) * 2000 + 2000; omega
  | ⟨1, _⟩ => show win13_6.index t (1 : Fin 2) * 128 ≤ (i 1).val ∧ (i 1).val < win13_6.index t (1 : Fin 2) * 128 + 128; omega

/-- An index of the array is in point `t`'s block of window 7 iff each coordinate is in the block's range on its axis. -/
theorem mem_blk13_7 (t : Fin cfg13.N) (i : S50000x128.Idx) :
    i ∈ ((cfg13.win 7).blk t).view.set ↔ ∀ a : Fin 2, win13_7.index t a * S2000x128.size a ≤ (i a).val ∧ (i a).val < win13_7.index t a * S2000x128.size a + S2000x128.size a := by
  show i ∈ ((View.whole main_v132_1).slice (win13_7.rect t)).set ↔ _
  rw [View.set_slice_whole, Rect.mem_set_unit]
  exact Iff.rfl

/-- The 25 blocks of 2000 rows tile the 50000 rows: row `r` is in the block of point `r / 2000`. -/
theorem tiles13_7 (i : S50000x128.Idx) :
    ∃ t : Fin cfg13.N, (cfg13.win 7).flush t = true ∧ i ∈ ((cfg13.win 7).blk t).view.set := by
  have hi0 : (i 0).val < 50000 := (i 0).isLt
  have hi1 : (i 1).val < 128 := (i 1).isLt
  have hN : cfg13.N = 25 := Gen.N_13
  let t : Fin cfg13.N := ⟨(i 0).val / 2000, by rw [hN]; omega⟩
  have ht : t.val = (i 0).val / 2000 := rfl
  obtain ⟨a0, b0, a1, b1, a2, b2, a3, b3, a4, b4, a5, b5, a6, b6, a7, b7⟩ := idx_facts13 t
  refine ⟨t, Gen.flush13_7 t, ?_⟩
  rw [mem_blk13_7]
  intro a
  match a with
  | ⟨0, _⟩ => show win13_7.index t (0 : Fin 2) * 2000 ≤ (i 0).val ∧ (i 0).val < win13_7.index t (0 : Fin 2) * 2000 + 2000; omega
  | ⟨1, _⟩ => show win13_7.index t (1 : Fin 2) * 128 ≤ (i 1).val ∧ (i 1).val < win13_7.index t (1 : Fin 2) * 128 + 128; omega

/-- THE FIRST OUTPUT after the region: the position update of the arrays the region finds. -/
theorem final13_x (c : Dev nD) : (Gen.dat13 (F := Ideal) V c).arrAt 6 cfg13.N = Cert.Spec.nodeX (V c main_v84) (V c main_v111) (V c main_v114) (V c main_v119) (V c main_v110) (V c main_v131) :=
  (Gen.dat13 V c).arrAt_eq_of_cover 6 _ (fun t _ => flushed13_6 V c t) tiles13_6

/-- THE SECOND OUTPUT after the region: the velocity update of the arrays the region finds. -/
theorem final13_v (c : Dev nD) : (Gen.dat13 (F := Ideal) V c).arrAt 7 cfg13.N = Cert.Spec.nodeV (V c main_v111) (V c main_v114) (V c main_v119) (V c main_v110) (V c main_v131) :=
  (Gen.dat13 V c).arrAt_eq_of_cover 7 _ (fun t _ => flushed13_7 V c t) tiles13_7

end Cert.Node

end
-- ==== Proof.Node16.lean ====
/-
  Node-update region 16: what its two output arrays hold after the 25 grid points. Point `t` reads rows
  `2000·t … 2000·t + 1999` of each of its six input arrays (the degree array has one column, the others 128) and writes
  the same rows of the two outputs; on those rows the stored blocks are the node update of the input rows, element by
  element, the degree read in its one column. The 25 blocks tile the 50000 rows, so the whole first output is the
  position update `x + ε·v'` and the whole second output the velocity update `v' = v − ε·((deg·f − scat) + diss·v)`
  of the arrays the region finds on entry.
-/
import proofs.«107783_j24189255811079_1_alg».proof.Proof.Gen.KernelIdeal.Frame
import proofs.«107783_j24189255811079_1_alg».proof.Proof.Spec
import proofs.«107783_j24189255811079_1_alg».proof.Proof.NodePay

set_option maxRecDepth 16384

noncomputable section

namespace Cert.Node

open Idealize.ShloMosaic Idealize.ShloMosaic.TcCoe Idealize.ShloMosaic.ValueIdx
open Idealize.SL.Sem
open Idealize.ShloMosaic.Pipeline (Dat Cfg Window)
open Cert.KernelIdeal

variable (V : (c : Dev nD) → (b : Ref sig .tc) → Buf (Elt Ideal) ((c : Thread nD τ).loc b))

/-- The printed index maps, decided over the grid: every window's block index at point `t` is `(t, 0)`. -/
theorem idx_facts16 : ∀ t : Fin cfg16.N,
    win16_0.index t (0 : Fin 2) = t.val ∧ win16_0.index t (1 : Fin 2) = 0
    ∧ win16_1.index t (0 : Fin 2) = t.val ∧ win16_1.index t (1 : Fin 2) = 0
    ∧ win16_2.index t (0 : Fin 2) = t.val ∧ win16_2.index t (1 : Fin 2) = 0
    ∧ win16_3.index t (0 : Fin 2) = t.val ∧ win16_3.index t (1 : Fin 2) = 0
    ∧ win16_4.index t (0 : Fin 2) = t.val ∧ win16_4.index t (1 : Fin 2) = 0
    ∧ win16_5.index t (0 : Fin 2) = t.val ∧ win16_5.index t (1 : Fin 2) = 0
    ∧ win16_6.index t (0 : Fin 2) = t.val ∧ win16_6.index t (1 : Fin 2) = 0
    ∧ win16_7.index t (0 : Fin 2) = t.val ∧ win16_7.index t (1 : Fin 2) = 0 :=
  (by decide +kernel : ∀ t : Fin grid16.N, _)

/-- One element of what point `t` stores through window 6: the position update at the array index the block's
    element `(p, q)` sits at — every input block is read at the same rows, the degree block in its one column. -/
theorem elem16_6 (c : Dev nD) (t : Fin cfg16.N) (p : Fin 2000) (q : Fin 128) :
    Gen.k16_pay2 (Gen.iblk16 V c 0 t) (Gen.iblk16 V c 1 t) (Gen.iblk16 V c 2 t) (Gen.iblk16 V c 3 t) (Gen.iblk16 V c 4 t) (Gen.iblk16 V c 5 t) (ix2 p q) = (Cert.Spec.nodeX (V c main_v132_0) (V c main_v132_1) (V c main_v135) (V c main_v140) (V c main_v110) (V c main_v152)) (((cfg16.win 6).blk t).view.emb (ix2 p q)) := by
  obtain ⟨a0, b0, a1, b1, a2, b2, a3, b3, a4, b4, a5, b5, a6, b6, a7, b7⟩ := idx_facts16 t
  rw [k16_pay2_apply, k16_pay1_apply]
  have h0 : (((cfg16.win 0).blk t).view.emb (ix2 p q)) = (((cfg16.win 6).blk t).view.emb (ix2 p q)) := by
    funext a; apply Fin.ext
    match a with
    | ⟨0, _⟩ => show win16_0.index t (0 : Fin 2) * 2000 + 1 * p.val = win16_6.index t (0 : Fin 2) * 2000 + 1 * p.val; omega
    | ⟨1, _⟩ => show win16_0.index t (1 : Fin 2) * 128 + 1 * q.val = win16_6.index t (1 : Fin 2) * 128 + 1 * q.val; omega
  have e0 : (Gen.iblk16 V c 0 t) (ix2 p q) = V c main_v132_0 (((cfg16.win 6).blk t).view.emb (ix2 p q)) := congrArg (V c main_v132_0) h0
  have h1 : (((cfg16.win 1).blk t).view.emb (ix2 p q)) = (((cfg16.win 6).blk t).view.emb (ix2 p q)) := by
    funext a; apply Fin.ext
    match a with
    | ⟨0, _⟩ => show win16_1.index t (0 : Fin 2) * 2000 + 1 * p.val = win16_6.index t (0 : Fin 2) * 2000 + 1 * p.val; omega
    | ⟨1, _⟩ => show win16_1.index t (1 : Fin 2) * 128 + 1 * q.val = win16_6.index t (1 : Fin 2) * 128 + 1 * q.val; omega
  have e1 : (Gen.iblk16 V c 1 t) (ix2 p q) = V c main_v132_1 (((cfg16.win 6).blk t).view.emb (ix2 p q)) := congrArg (V c main_v132_1) h1
  have h2 : (((cfg16.win 2).blk t).view.emb (ix2 p q)) = (((cfg16.win 6).blk t).view.emb (ix2 p q)) := by
    funext a; apply Fin.ext
    match a with
    | ⟨0, _⟩ => show win16_2.index t (0 : Fin 2) * 2000 + 1 * p.val = win16_6.index t (0 : Fin 2) * 2000 + 1 * p.val; omega
    | ⟨1, _⟩ => show win16_2.index t (1 : Fin 2) * 128 + 1 * q.val = win16_6.index t (1 : Fin 2) * 128 + 1 * q.val; omega
  have e2 : (Gen.iblk16 V c 2 t) (ix2 p q) = V c main_v135 (((cfg16.win 6).blk t).view.emb (ix2 p q)) := congrArg (V c main_v135) h2
  have h3 : (((cfg16.win 3).blk t).view.emb (ix2 p q)) = (((cfg16.win 6).blk t).view.emb (ix2 p q)) := by
    funext a; apply Fin.ext
    match a with
    | ⟨0, _⟩ => show win16_3.index t (0 : Fin 2) * 2000 + 1 * p.val = win16_6.index t (0 : Fin 2) * 2000 + 1 * p.val; omega
    | ⟨1, _⟩ => show win16_3.index t (1 : Fin 2) * 128 + 1 * q.val = win16_6.index t (1 : Fin 2) * 128 + 1 * q.val; omega
  have e3 : (Gen.iblk16 V c 3 t) (ix2 p q) = V c main_v140 (((cfg16.win 6).blk t).view.emb (ix2 p q)) := congrArg (V c main_v140) h3
  have h5 : (((cfg16.win 5).blk t).view.emb (ix2 p q)) = (((cfg16.win 6).blk t).view.emb (ix2 p q)) := by
    funext a; apply Fin.ext
    match a with
    | ⟨0, _⟩ => show win16_5.index t (0 : Fin 2) * 2000 + 1 * p.val = win16_6.index t (0 : Fin 2) * 2000 + 1 * p.val; omega
    | ⟨1, _⟩ => show win16_5.index t (1 : Fin 2) * 128 + 1 * q.val = win16_6.index t (1 : Fin 2) * 128 + 1 * q.val; omega
  have e5 : (Gen.iblk16 V c 5 t) (ix2 p q) = V c main_v152 (((cfg16.win 6).blk t).view.emb (ix2 p q)) := congrArg (V c main_v152) h5
  have h4 : (((cfg16.win 4).blk t).view.emb (ix2 p (0 : Fin 1))) = ix2 ((((cfg16.win 6).blk t).view.emb (ix2 p q)) 0 : Fin 50000) (0 : Fin 1) := by
    funext a; apply Fin.ext
    match a with
    | ⟨0, _⟩ => show win16_4.index t (0 : Fin 2) * 2000 + 1 * p.val = win16_6.index t (0 : Fin 2) * 2000 + 1 * p.val; omega
    | ⟨1, _⟩ => show win16_4.index t (1 : Fin 2) * 1 + 1 * 0 = 0; omega
  have e4 : (Gen.iblk16 V c 4 t) (ix2 p (0 : Fin 1)) = V c main_v110 (ix2 ((((cfg16.win 6).blk t).view.emb (ix2 p q)) 0 : Fin 50000) (0 : Fin 1)) := congrArg (V c main_v110) h4
  rw [e0, e1, e2, e3, e4, e5]
  rfl

/-- One element of what point `t` stores through window 7: the velocity update at that array index. -/
theorem elem16_7 (c : Dev nD) (t : Fin cfg16.N) (p : Fin 2000) (q : Fin 128) :
    Gen.k16_pay1 (Gen.iblk16 V c 1 t) (Gen.iblk16 V c 2 t) (Gen.iblk16 V c 3 t) (Gen.iblk16 V c 4 t) (Gen.iblk16 V c 5 t) (ix2 p q) = (Cert.Spec.nodeV (V c main_v132_1) (V c main_v135) (V c main_v140) (V c main_v110) (V c main_v152)) (((cfg16.win 7).blk t).view.emb (ix2 p q)) := by
  obtain ⟨a0, b0, a1, b1, a2, b2, a3, b3, a4, b4, a5, b5, a6, b6, a7, b7⟩ := idx_facts16 t
  rw [k16_pay1_apply]
  have h1 : (((cfg16.win 1).blk t).view.emb (ix2 p q)) = (((cfg16.win 7).blk t).view.emb (ix2 p q)) := by
    funext a; apply Fin.ext
    match a with
    | ⟨0, _⟩ => show win16_1.index t (0 : Fin 2) * 2000 + 1 * p.val = win16_7.index t (0 : Fin 2) * 2000 + 1 * p.val; omega
    | ⟨1, _⟩ => show win16_1.index t (1 : Fin 2) * 128 + 1 * q.val = win16_7.index t (1 : Fin 2) * 128 + 1 * q.val; omega
  have e1 : (Gen.iblk16 V c 1 t) (ix2 p q) = V c main_v132_1 (((cfg16.win 7).blk t).view.emb (ix2 p q)) := congrArg (V c main_v132_1) h1
  have h2 : (((cfg16.win 2).blk t).view.emb (ix2 p q)) = (((cfg16.win 7).blk t).view.emb (ix2 p q)) := by
    funext a; apply Fin.ext
    match a with
    | ⟨0, _⟩ => show win16_2.index t (0 : Fin 2) * 2000 + 1 * p.val = win16_7.index t (0 : Fin 2) * 2000 + 1 * p.val; omega
    | ⟨1, _⟩ => show win16_2.index t (1 : Fin 2) * 128 + 1 * q.val = win16_7.index t (1 : Fin 2) * 128 + 1 * q.val; omega
  have e2 : (Gen.iblk16 V c 2 t) (ix2 p q) = V c main_v135 (((cfg16.win 7).blk t).view.emb (ix2 p q)) := congrArg (V c main_v135) h2
  have h3 : (((cfg16.win 3).blk t).view.emb (ix2 p q)) = (((cfg16.win 7).blk t).view.emb (ix2 p q)) := by
    funext a; apply Fin.ext
    match a with
    | ⟨0, _⟩ => show win16_3.index t (0 : Fin 2) * 2000 + 1 * p.val = win16_7.index t (0 : Fin 2) * 2000 + 1 * p.val; omega
    | ⟨1, _⟩ => show win16_3.index t (1 : Fin 2) * 128 + 1 * q.val = win16_7.index t (1 : Fin 2) * 128 + 1 * q.val; omega
  have e3 : (Gen.iblk16 V c 3 t) (ix2 p q) = V c main_v140 (((cfg16.win 7).blk t).view.emb (ix2 p q)) := congrArg (V c main_v140) h3
  have h5 : (((cfg16.win 5).blk t).view.emb (ix2 p q)) = (((cfg16.win 7).blk t).view.emb (ix2 p q)) := by
    funext a; apply Fin.ext
    match a with
    | ⟨0, _⟩ => show win16_5.index t (0 : Fin 2) * 2000 + 1 * p.val = win16_7.index t (0 : Fin 2) * 2000 + 1 * p.val; omega
    | ⟨1, _⟩ => show win16_5.index t (1 : Fin 2) * 128 + 1 * q.val = win16_7.index t (1 : Fin 2) * 128 + 1 * q.val; omega
  have e5 : (Gen.iblk16 V c 5 t) (ix2 p q) = V c main_v152 (((cfg16.win 7).blk t).view.emb (ix2 p q)) := congrArg (V c main_v152) h5
  have h4 : (((cfg16.win 4).blk t).view.emb (ix2 p (0 : Fin 1))) = ix2 ((((cfg16.win 7).blk t).view.emb (ix2 p q)) 0 : Fin 50000) (0 : Fin 1) := by
    funext a; apply Fin.ext
    match a with
    | ⟨0, _⟩ => show win16_4.index t (0 : Fin 2) * 2000 + 1 * p.val = win16_7.index t (0 : Fin 2) * 2000 + 1 * p.val; omega
    | ⟨1, _⟩ => show win16_4.index t (1 : Fin 2) * 1 + 1 * 0 = 0; omega
  have e4 : (Gen.iblk16 V c 4 t) (ix2 p (0 : Fin 1)) = V c main_v110 (ix2 ((((cfg16.win 7).blk t).view.emb (ix2 p q)) 0 : Fin 50000) (0 : Fin 1)) := congrArg (V c main_v110) h4
  rw [e1, e2, e3, e4, e5]
  rfl

/-- What point `t` writes back through window 6 is block `t` of the position update of the entry arrays. -/
theorem flushed16_6 (c : Dev nD) (t : Fin cfg16.N) :
    (Gen.dat16 V c).flushed 6 t = ((cfg16.win 6).blk t).view.read (Elt Ideal) (Cert.Spec.nodeX (V c main_v132_0) (V c main_v132_1) (V c main_v135) (V c main_v140) (V c main_v110) (V c main_v152)) := by
  show (cfg16.win 6).cut (grid16.coords t) ((Gen.dat16 V c).after 6 t) = _
  rw [Gen.after16_6]
  unfold Gen.out16_6
  rw [View.canon_unit_zero hz]
  simp only [View.ld_unit_zero (S := S2000x128) hz, View.ld_unit_zero (S := S2000x1) hz]
  funext j
  obtain ⟨p, q, rfl⟩ : ∃ (p : Fin 2000) (q : Fin 128), j = ix2 p q := ⟨j 0, j 1, eq_ix2 j⟩
  exact elem16_6 V c t p q

/-- What point `t` writes back through window 7 is block `t` of the velocity update of the entry arrays. -/
theorem flushed16_7 (c : Dev nD) (t : Fin cfg16.N) :
    (Gen.dat16 V c).flushed 7 t = ((cfg16.win 7).blk t).view.read (Elt Ideal) (Cert.Spec.nodeV (V c main_v132_1) (V c main_v135) (V c main_v140) (V c main_v110) (V c main_v152)) := by
  show (cfg16.win 7).cut (grid16.coords t) ((Gen.dat16 V c).after 7 t) = _
  rw [Gen.after16_7]
  unfold Gen.out16_7
  rw [View.canon_unit_zero hz]
  simp only [View.ld_unit_zero (S := S2000x128) hz, View.ld_unit_zero (S := S2000x1) hz]
  funext j
  obtain ⟨p, q, rfl⟩ : ∃ (p : Fin 2000) (q : Fin 128), j = ix2 p q := ⟨j 0, j 1, eq_ix2 j⟩
  exact elem16_7 V c t p q

/-- An index of the array is in point `t`'s block of window 6 iff each coordinate is in the block's range on its axis. -/
theorem mem_blk16_6 (t : Fin cfg16.N) (i : S50000x128.Idx) :
    i ∈ ((cfg16.win 6).blk t).view.set ↔ ∀ a : Fin 2, win16_6.index t a * S2000x128.size a ≤ (i a).val ∧ (i a).val < win16_6.index t a * S2000x128.size a + S2000x128.size a := by
  show i ∈ ((View.whole main_v153_0).slice (win16_6.rect t)).set ↔ _
  rw [View.set_slice_whole, Rect.mem_set_unit]
  exact Iff.rfl

/-- The 25 blocks of 2000 rows tile the 50000 rows: row `r` is in the block of point `r / 2000`. -/
theorem tiles16_6 (i : S50000x128.Idx) :
    ∃ t : Fin cfg16.N, (cfg16.win 6).flush t = true ∧ i ∈ ((cfg16.win 6).blk t).view.set := by
  have hi0 : (i 0).val < 50000 := (i 0).isLt
  have hi1 : (i 1).val < 128 := (i 1).isLt
  have hN : cfg16.N = 25 := Gen.N_16
  let t : Fin cfg16.N := ⟨(i 0).val / 2000, by rw [hN]; omega⟩
  have ht : t.val = (i 0).val / 2000 := rfl
  obtain ⟨a0, b0, a1, b1, a2, b2, a3, b3, a4, b4, a5, b5, a6, b6, a7, b7⟩ := idx_facts16 t
  refine ⟨t, Gen.flush16_6 t, ?_⟩
  rw [mem_blk16_6]
  intro a
  match a with
  | ⟨0, _⟩ => show win16_6.index t (0 : Fin 2) * 2000 ≤ (i 0).val ∧ (i 0).val < win16_6.index t (0 : Fin 2) * 2000 + 2000; omega
  | ⟨1, _⟩ => show win16_6.index t (1 : Fin 2) * 128 ≤ (i 1).val ∧ (i 1).val < win16_6.index t (1 : Fin 2) * 128 + 128; omega

/-- An index of the array is in point `t`'s block of window 7 iff each coordinate is in the block's range on its axis. -/
theorem mem_blk16_7 (t : Fin cfg16.N) (i : S50000x128.Idx) :
    i ∈ ((cfg16.win 7).blk t).view.set ↔ ∀ a : Fin 2, win16_7.index t a * S2000x128.size a ≤ (i a).val ∧ (i a).val < win16_7.index t a * S2000x128.size a + S2000x128.size a := by
  show i ∈ ((View.whole main_v153_1).slice (win16_7.rect t)).set ↔ _
  rw [View.set_slice_whole, Rect.mem_set_unit]
  exact Iff.rfl

/-- The 25 blocks of 2000 rows tile the 50000 rows: row `r` is in the block of point `r / 2000`. -/
theorem tiles16_7 (i : S50000x128.Idx) :
    ∃ t : Fin cfg16.N, (cfg16.win 7).flush t = true ∧ i ∈ ((cfg16.win 7).blk t).view.set := by
  have hi0 : (i 0).val < 50000 := (i 0).isLt
  have hi1 : (i 1).val < 128 := (i 1).isLt
  have hN : cfg16.N = 25 := Gen.N_16
  let t : Fin cfg16.N := ⟨(i 0).val / 2000, by rw [hN]; omega⟩
  have ht : t.val = (i 0).val / 2000 := rfl
  obtain ⟨a0, b0, a1, b1, a2, b2, a3, b3, a4, b4, a5, b5, a6, b6, a7, b7⟩ := idx_facts16 t
  refine ⟨t, Gen.flush16_7 t, ?_⟩
  rw [mem_blk16_7]
  intro a
  match a with
  | ⟨0, _⟩ => show win16_7.index t (0 : Fin 2) * 2000 ≤ (i 0).val ∧ (i 0).val < win16_7.index t (0 : Fin 2) * 2000 + 2000; omega
  | ⟨1, _⟩ => show win16_7.index t (1 : Fin 2) * 128 ≤ (i 1).val ∧ (i 1).val < win16_7.index t (1 : Fin 2) * 128 + 128; omega

/-- THE FIRST OUTPUT after the region: the position update of the arrays the region finds. -/
theorem final16_x (c : Dev nD) : (Gen.dat16 (F := Ideal) V c).arrAt 6 cfg16.N = Cert.Spec.nodeX (V c main_v132_0) (V c main_v132_1) (V c main_v135) (V c main_v140) (V c main_v110) (V c main_v152) :=
  (Gen.dat16 V c).arrAt_eq_of_cover 6 _ (fun t _ => flushed16_6 V c t) tiles16_6

/-- THE SECOND OUTPUT after the region: the velocity update of the arrays the region finds. -/
theorem final16_v (c : Dev nD) : (Gen.dat16 (F := Ideal) V c).arrAt 7 cfg16.N = Cert.Spec.nodeV (V c main_v132_1) (V c main_v135) (V c main_v140) (V c main_v110) (V c main_v152) :=
  (Gen.dat16 V c).arrAt_eq_of_cover 7 _ (fun t _ => flushed16_7 V c t) tiles16_7

end Cert.Node

end
-- ==== Proof.Node22.lean ====
/-
  Node-update region 22: what its two output arrays hold after the 25 grid points. Point `t` reads rows
  `2000·t … 2000·t + 1999` of each of its six input arrays (the degree array has one column, the others 128) and writes
  the same rows of the two outputs; on those rows the stored blocks are the node update of the input rows, element by
  element, the degree read in its one column. The 25 blocks tile the 50000 rows, so the whole first output is the
  position update `x + ε·v'` and the whole second output the velocity update `v' = v − ε·((deg·f − scat) + diss·v)`
  of the arrays the region finds on entry.
-/
import proofs.«107783_j24189255811079_1_alg».proof.Proof.Gen.KernelIdeal.Frame
import proofs.«107783_j24189255811079_1_alg».proof.Proof.Spec
import proofs.«107783_j24189255811079_1_alg».proof.Proof.NodePay

set_option maxRecDepth 16384

noncomputable section

namespace Cert.Node

open Idealize.ShloMosaic Idealize.ShloMosaic.TcCoe Idealize.ShloMosaic.ValueIdx
open Idealize.SL.Sem
open Idealize.ShloMosaic.Pipeline (Dat Cfg Window)
open Cert.KernelIdeal

variable (V : (c : Dev nD) → (b : Ref sig .tc) → Buf (Elt Ideal) ((c : Thread nD τ).loc b))

/-- The printed index maps, decided over the grid: every window's block index at point `t` is `(t, 0)`. -/
theorem idx_facts22 : ∀ t : Fin cfg22.N,
    win22_0.index t (0 : Fin 2) = t.val ∧ win22_0.index t (1 : Fin 2) = 0
    ∧ win22_1.index t (0 : Fin 2) = t.val ∧ win22_1.index t (1 : Fin 2) = 0
    ∧ win22_2.index t (0 : Fin 2) = t.val ∧ win22_2.index t (1 : Fin 2) = 0
    ∧ win22_3.index t (0 : Fin 2) = t.val ∧ win22_3.index t (1 : Fin 2) = 0
    ∧ win22_4.index t (0 : Fin 2) = t.val ∧ win22_4.index t (1 : Fin 2) = 0
    ∧ win22_5.index t (0 : Fin 2) = t.val ∧ win22_5.index t (1 : Fin 2) = 0
    ∧ win22_6.index t (0 : Fin 2) = t.val ∧ win22_6.index t (1 : Fin 2) = 0
    ∧ win22_7.index t (0 : Fin 2) = t.val ∧ win22_7.index t (1 : Fin 2) = 0 :=
  (by decide +kernel : ∀ t : Fin grid22.N, _)

/-- One element of what point `t` stores through window 6: the position update at the array index the block's
    element `(p, q)` sits at — every input block is read at the same rows, the degree block in its one column. -/
theorem elem22_6 (c : Dev nD) (t : Fin cfg22.N) (p : Fin 2000) (q : Fin 128) :
    Gen.k22_pay2 (Gen.iblk22 V c 0 t) (Gen.iblk22 V c 1 t) (Gen.iblk22 V c 2 t) (Gen.iblk22 V c 3 t) (Gen.iblk22 V c 4 t) (Gen.iblk22 V c 5 t) (ix2 p q) = (Cert.Spec.nodeX (V c main_v163) (V c main_v190) (V c main_v193) (V c main_v198) (V c main_v189) (V c main_v210)) (((cfg22.win 6).blk t).view.emb (ix2 p q)) := by
  obtain ⟨a0, b0, a1, b1, a2, b2, a3, b3, a4, b4, a5, b5, a6, b6, a7, b7⟩ := idx_facts22 t
  rw [k22_pay2_apply, k22_pay1_apply]
  have h0 : (((cfg22.win 0).blk t).view.emb (ix2 p q)) = (((cfg22.win 6).blk t).view.emb (ix2 p q)) := by
    funext a; apply Fin.ext
    match a with
    | ⟨0, _⟩ => show win22_0.index t (0 : Fin 2) * 2000 + 1 * p.val = win22_6.index t (0 : Fin 2) * 2000 + 1 * p.val; omega
    | ⟨1, _⟩ => show win22_0.index t (1 : Fin 2) * 128 + 1 * q.val = win22_6.index t (1 : Fin 2) * 128 + 1 * q.val; omega
  have e0 : (Gen.iblk22 V c 0 t) (ix2 p q) = V c main_v163 (((cfg22.win 6).blk t).view.emb (ix2 p q)) := congrArg (V c main_v163) h0
  have h1 : (((cfg22.win 1).blk t).view.emb (ix2 p q)) = (((cfg22.win 6).blk t).view.emb (ix2 p q)) := by
    funext a; apply Fin.ext
    match a with
    | ⟨0, _⟩ => show win22_1.index t (0 : Fin 2) * 2000 + 1 * p.val = win22_6.index t (0 : Fin 2) * 2000 + 1 * p.val; omega
    | ⟨1, _⟩ => show win22_1.index t (1 : Fin 2) * 128 + 1 * q.val = win22_6.index t (1 : Fin 2) * 128 + 1 * q.val; omega
  have e1 : (Gen.iblk22 V c 1 t) (ix2 p q) = V c main_v190 (((cfg22.win 6).blk t).view.emb (ix2 p q)) := congrArg (V c main_v190) h1
  have h2 : (((cfg22.win 2).blk t).view.emb (ix2 p q)) = (((cfg22.win 6).blk t).view.emb (ix2 p q)) := by
    funext a; apply Fin.ext
    match a with
    | ⟨0, _⟩ => show win22_2.index t (0 : Fin 2) * 2000 + 1 * p.val = win22_6.index t (0 : Fin 2) * 2000 + 1 * p.val; omega
    | ⟨1, _⟩ => show win22_2.index t (1 : Fin 2) * 128 + 1 * q.val = win22_6.index t (1 : Fin 2) * 128 + 1 * q.val; omega
  have e2 : (Gen.iblk22 V c 2 t) (ix2 p q) = V c main_v193 (((cfg22.win 6).blk t).view.emb (ix2 p q)) := congrArg (V c main_v193) h2
  have h3 : (((cfg22.win 3).blk t).view.emb (ix2 p q)) = (((cfg22.win 6).blk t).view.emb (ix2 p q)) := by
    funext a; apply Fin.ext
    match a with
    | ⟨0, _⟩ => show win22_3.index t (0 : Fin 2) * 2000 + 1 * p.val = win22_6.index t (0 : Fin 2) * 2000 + 1 * p.val; omega
    | ⟨1, _⟩ => show win22_3.index t (1 : Fin 2) * 128 + 1 * q.val = win22_6.index t (1 : Fin 2) * 128 + 1 * q.val; omega
  have e3 : (Gen.iblk22 V c 3 t) (ix2 p q) = V c main_v198 (((cfg22.win 6).blk t).view.emb (ix2 p q)) := congrArg (V c main_v198) h3
  have h5 : (((cfg22.win 5).blk t).view.emb (ix2 p q)) = (((cfg22.win 6).blk t).view.emb (ix2 p q)) := by
    funext a; apply Fin.ext
    match a with
    | ⟨0, _⟩ => show win22_5.index t (0 : Fin 2) * 2000 + 1 * p.val = win22_6.index t (0 : Fin 2) * 2000 + 1 * p.val; omega
    | ⟨1, _⟩ => show win22_5.index t (1 : Fin 2) * 128 + 1 * q.val = win22_6.index t (1 : Fin 2) * 128 + 1 * q.val; omega
  have e5 : (Gen.iblk22 V c 5 t) (ix2 p q) = V c main_v210 (((cfg22.win 6).blk t).view.emb (ix2 p q)) := congrArg (V c main_v210) h5
  have h4 : (((cfg22.win 4).blk t).view.emb (ix2 p (0 : Fin 1))) = ix2 ((((cfg22.win 6).blk t).view.emb (ix2 p q)) 0 : Fin 50000) (0 : Fin 1) := by
    funext a; apply Fin.ext
    match a with
    | ⟨0, _⟩ => show win22_4.index t (0 : Fin 2) * 2000 + 1 * p.val = win22_6.index t (0 : Fin 2) * 2000 + 1 * p.val; omega
    | ⟨1, _⟩ => show win22_4.index t (1 : Fin 2) * 1 + 1 * 0 = 0; omega
  have e4 : (Gen.iblk22 V c 4 t) (ix2 p (0 : Fin 1)) = V c main_v189 (ix2 ((((cfg22.win 6).blk t).view.emb (ix2 p q)) 0 : Fin 50000) (0 : Fin 1)) := congrArg (V c main_v189) h4
  rw [e0, e1, e2, e3, e4, e5]
  rfl

/-- One element of what point `t` stores through window 7: the velocity update at that array index. -/
theorem elem22_7 (c : Dev nD) (t : Fin cfg22.N) (p : Fin 2000) (q : Fin 128) :
    Gen.k22_pay1 (Gen.iblk22 V c 1 t) (Gen.iblk22 V c 2 t) (Gen.iblk22 V c 3 t) (Gen.iblk22 V c 4 t) (Gen.iblk22 V c 5 t) (ix2 p q) = (Cert.Spec.nodeV (V c main_v190) (V c main_v193) (V c main_v198) (V c main_v189) (V c main_v210)) (((cfg22.win 7).blk t).view.emb (ix2 p q)) := by
  obtain ⟨a0, b0, a1, b1, a2, b2, a3, b3, a4, b4, a5, b5, a6, b6, a7, b7⟩ := idx_facts22 t
  rw [k22_pay1_apply]
  have h1 : (((cfg22.win 1).blk t).view.emb (ix2 p q)) = (((cfg22.win 7).blk t).view.emb (ix2 p q)) := by
    funext a; apply Fin.ext
    match a with
    | ⟨0, _⟩ => show win22_1.index t (0 : Fin 2) * 2000 + 1 * p.val = win22_7.index t (0 : Fin 2) * 2000 + 1 * p.val; omega
    | ⟨1, _⟩ => show win22_1.index t (1 : Fin 2) * 128 + 1 * q.val = win22_7.index t (1 : Fin 2) * 128 + 1 * q.val; omega
  have e1 : (Gen.iblk22 V c 1 t) (ix2 p q) = V c main_v190 (((cfg22.win 7).blk t).view.emb (ix2 p q)) := congrArg (V c main_v190) h1
  have h2 : (((cfg22.win 2).blk t).view.emb (ix2 p q)) = (((cfg22.win 7).blk t).view.emb (ix2 p q)) := by
    funext a; apply Fin.ext
    match a with
    | ⟨0, _⟩ => show win22_2.index t (0 : Fin 2) * 2000 + 1 * p.val = win22_7.index t (0 : Fin 2) * 2000 + 1 * p.val; omega
    | ⟨1, _⟩ => show win22_2.index t (1 : Fin 2) * 128 + 1 * q.val = win22_7.index t (1 : Fin 2) * 128 + 1 * q.val; omega
  have e2 : (Gen.iblk22 V c 2 t) (ix2 p q) = V c main_v193 (((cfg22.win 7).blk t).view.emb (ix2 p q)) := congrArg (V c main_v193) h2
  have h3 : (((cfg22.win 3).blk t).view.emb (ix2 p q)) = (((cfg22.win 7).blk t).view.emb (ix2 p q)) := by
    funext a; apply Fin.ext
    match a with
    | ⟨0, _⟩ => show win22_3.index t (0 : Fin 2) * 2000 + 1 * p.val = win22_7.index t (0 : Fin 2) * 2000 + 1 * p.val; omega
    | ⟨1, _⟩ => show win22_3.index t (1 : Fin 2) * 128 + 1 * q.val = win22_7.index t (1 : Fin 2) * 128 + 1 * q.val; omega
  have e3 : (Gen.iblk22 V c 3 t) (ix2 p q) = V c main_v198 (((cfg22.win 7).blk t).view.emb (ix2 p q)) := congrArg (V c main_v198) h3
  have h5 : (((cfg22.win 5).blk t).view.emb (ix2 p q)) = (((cfg22.win 7).blk t).view.emb (ix2 p q)) := by
    funext a; apply Fin.ext
    match a with
    | ⟨0, _⟩ => show win22_5.index t (0 : Fin 2) * 2000 + 1 * p.val = win22_7.index t (0 : Fin 2) * 2000 + 1 * p.val; omega
    | ⟨1, _⟩ => show win22_5.index t (1 : Fin 2) * 128 + 1 * q.val = win22_7.index t (1 : Fin 2) * 128 + 1 * q.val; omega
  have e5 : (Gen.iblk22 V c 5 t) (ix2 p q) = V c main_v210 (((cfg22.win 7).blk t).view.emb (ix2 p q)) := congrArg (V c main_v210) h5
  have h4 : (((cfg22.win 4).blk t).view.emb (ix2 p (0 : Fin 1))) = ix2 ((((cfg22.win 7).blk t).view.emb (ix2 p q)) 0 : Fin 50000) (0 : Fin 1) := by
    funext a; apply Fin.ext
    match a with
    | ⟨0, _⟩ => show win22_4.index t (0 : Fin 2) * 2000 + 1 * p.val = win22_7.index t (0 : Fin 2) * 2000 + 1 * p.val; omega
    | ⟨1, _⟩ => show win22_4.index t (1 : Fin 2) * 1 + 1 * 0 = 0; omega
  have e4 : (Gen.iblk22 V c 4 t) (ix2 p (0 : Fin 1)) = V c main_v189 (ix2 ((((cfg22.win 7).blk t).view.emb (ix2 p q)) 0 : Fin 50000) (0 : Fin 1)) := congrArg (V c main_v189) h4
  rw [e1, e2, e3, e4, e5]
  rfl

/-- What point `t` writes back through window 6 is block `t` of the position update of the entry arrays. -/
theorem flushed22_6 (c : Dev nD) (t : Fin cfg22.N) :
    (Gen.dat22 V c).flushed 6 t = ((cfg22.win 6).blk t).view.read (Elt Ideal) (Cert.Spec.nodeX (V c main_v163) (V c main_v190) (V c main_v193) (V c main_v198) (V c main_v189) (V c main_v210)) := by
  show (cfg22.win 6).cut (grid22.coords t) ((Gen.dat22 V c).after 6 t) = _
  rw [Gen.after22_6]
  unfold Gen.out22_6
  rw [View.canon_unit_zero hz]
  simp only [View.ld_unit_zero (S := S2000x128) hz, View.ld_unit_zero (S := S2000x1) hz]
  funext j
  obtain ⟨p, q, rfl⟩ : ∃ (p : Fin 2000) (q : Fin 128), j = ix2 p q := ⟨j 0, j 1, eq_ix2 j⟩
  exact elem22_6 V c t p q

/-- What point `t` writes back through window 7 is block `t` of the velocity update of the entry arrays. -/
theorem flushed22_7 (c : Dev nD) (t : Fin cfg22.N) :
    (Gen.dat22 V c).flushed 7 t = ((cfg22.win 7).blk t).view.read (Elt Ideal) (Cert.Spec.nodeV (V c main_v190) (V c main_v193) (V c main_v198) (V c main_v189) (V c main_v210)) := by
  show (cfg22.win 7).cut (grid22.coords t) ((Gen.dat22 V c).after 7 t) = _
  rw [Gen.after22_7]
  unfold Gen.out22_7
  rw [View.canon_unit_zero hz]
  simp only [View.ld_unit_zero (S := S2000x128) hz, View.ld_unit_zero (S := S2000x1) hz]
  funext j
  obtain ⟨p, q, rfl⟩ : ∃ (p : Fin 2000) (q : Fin 128), j = ix2 p q := ⟨j 0, j 1, eq_ix2 j⟩
  exact elem22_7 V c t p q

/-- An index of the array is in point `t`'s block of window 6 iff each coordinate is in the block's range on its axis. -/
theorem mem_blk22_6 (t : Fin cfg22.N) (i : S50000x128.Idx) :
    i ∈ ((cfg22.win 6).blk t).view.set ↔ ∀ a : Fin 2, win22_6.index t a * S2000x128.size a ≤ (i a).val ∧ (i a).val < win22_6.index t a * S2000x128.size a + S2000x128.size a := by
  show i ∈ ((View.whole main_v211_0).slice (win22_6.rect t)).set ↔ _
  rw [View.set_slice_whole, Rect.mem_set_unit]
  exact Iff.rfl

/-- The 25 blocks of 2000 rows tile the 50000 rows: row `r` is in the block of point `r / 2000`. -/
theorem tiles22_6 (i : S50000x128.Idx) :
    ∃ t : Fin cfg22.N, (cfg22.win 6).flush t = true ∧ i ∈ ((cfg22.win 6).blk t).view.set := by
  have hi0 : (i 0).val < 50000 := (i 0).isLt
  have hi1 : (i 1).val < 128 := (i 1).isLt
  have hN : cfg22.N = 25 := Gen.N_22
  let t : Fin cfg22.N := ⟨(i 0).val / 2000, by rw [hN]; omega⟩
  have ht : t.val = (i 0).val / 2000 := rfl
  obtain ⟨a0, b0, a1, b1, a2, b2, a3, b3, a4, b4, a5, b5, a6, b6, a7, b7⟩ := idx_facts22 t
  refine ⟨t, Gen.flush22_6 t, ?_⟩
  rw [mem_blk22_6]
  intro a
  match a with
  | ⟨0, _⟩ => show win22_6.index t (0 : Fin 2) * 2000 ≤ (i 0).val ∧ (i 0).val < win22_6.index t (0 : Fin 2) * 2000 + 2000; omega
  | ⟨1, _⟩ => show win22_6.index t (1 : Fin 2) * 128 ≤ (i 1).val ∧ (i 1).val < win22_6.index t (1 : Fin 2) * 128 + 128; omega

/-- An index of the array is in point `t`'s block of window 7 iff each coordinate is in the block's range on its axis. -/
theorem mem_blk22_7 (t : Fin cfg22.N) (i : S50000x128.Idx) :
    i ∈ ((cfg22.win 7).blk t).view.set ↔ ∀ a : Fin 2, win22_7.index t a * S2000x128.size a ≤ (i a).val ∧ (i a).val < win22_7.index t a * S2000x128.size a + S2000x128.size a := by
  show i ∈ ((View.whole main_v211_1).slice (win22_7.rect t)).set ↔ _
  rw [View.set_slice_whole, Rect.mem_set_unit]
  exact Iff.rfl

/-- The 25 blocks of 2000 rows tile the 50000 rows: row `r` is in the block of point `r / 2000`. -/
theorem tiles22_7 (i : S50000x128.Idx) :
    ∃ t : Fin cfg22.N, (cfg22.win 7).flush t = true ∧ i ∈ ((cfg22.win 7).blk t).view.set := by
  have hi0 : (i 0).val < 50000 := (i 0).isLt
  have hi1 : (i 1).val < 128 := (i 1).isLt
  have hN : cfg22.N = 25 := Gen.N_22
  let t : Fin cfg22.N := ⟨(i 0).val / 2000, by rw [hN]; omega⟩
  have ht : t.val = (i 0).val / 2000 := rfl
  obtain ⟨a0, b0, a1, b1, a2, b2, a3, b3, a4, b4, a5, b5, a6, b6, a7, b7⟩ := idx_facts22 t
  refine ⟨t, Gen.flush22_7 t, ?_⟩
  rw [mem_blk22_7]
  intro a
  match a with
  | ⟨0, _⟩ => show win22_7.index t (0 : Fin 2) * 2000 ≤ (i 0).val ∧ (i 0).val < win22_7.index t (0 : Fin 2) * 2000 + 2000; omega
  | ⟨1, _⟩ => show win22_7.index t (1 : Fin 2) * 128 ≤ (i 1).val ∧ (i 1).val < win22_7.index t (1 : Fin 2) * 128 + 128; omega

/-- THE FIRST OUTPUT after the region: the position update of the arrays the region finds. -/
theorem final22_x (c : Dev nD) : (Gen.dat22 (F := Ideal) V c).arrAt 6 cfg22.N = Cert.Spec.nodeX (V c main_v163) (V c main_v190) (V c main_v193) (V c main_v198) (V c main_v189) (V c main_v210) :=
  (Gen.dat22 V c).arrAt_eq_of_cover 6 _ (fun t _ => flushed22_6 V c t) tiles22_6

/-- THE SECOND OUTPUT after the region: the velocity update of the arrays the region finds. -/
theorem final22_v (c : Dev nD) : (Gen.dat22 (F := Ideal) V c).arrAt 7 cfg22.N = Cert.Spec.nodeV (V c main_v190) (V c main_v193) (V c main_v198) (V c main_v189) (V c main_v210) :=
  (Gen.dat22 V c).arrAt_eq_of_cover 7 _ (fun t _ => flushed22_7 V c t) tiles22_7

end Cert.Node

end
-- ==== Proof.Node25.lean ====
/-
  Node-update region 25: what its two output arrays hold after the 25 grid points. Point `t` reads rows
  `2000·t … 2000·t + 1999` of each of its six input arrays (the degree array has one column, the others 128) and writes
  the same rows of the two outputs; on those rows the stored blocks are the node update of the input rows, element by
  element, the degree read in its one column. The 25 blocks tile the 50000 rows, so the whole first output is the
  position update `x + ε·v'` and the whole second output the velocity update `v' = v − ε·((deg·f − scat) + diss·v)`
  of the arrays the region finds on entry.
-/
import proofs.«107783_j24189255811079_1_alg».proof.Proof.Gen.KernelIdeal.Frame
import proofs.«107783_j24189255811079_1_alg».proof.Proof.Spec
import proofs.«107783_j24189255811079_1_alg».proof.Proof.NodePay

set_option maxRecDepth 16384

noncomputable section

namespace Cert.Node

open Idealize.ShloMosaic Idealize.ShloMosaic.TcCoe Idealize.ShloMosaic.ValueIdx
open Idealize.SL.Sem
open Idealize.ShloMosaic.Pipeline (Dat Cfg Window)
open Cert.KernelIdeal

variable (V : (c : Dev nD) → (b : Ref sig .tc) → Buf (Elt Ideal) ((c : Thread nD τ).loc b))

/-- The printed index maps, decided over the grid: every window's block index at point `t` is `(t, 0)`. -/
theorem idx_facts25 : ∀ t : Fin cfg25.N,
    win25_0.index t (0 : Fin 2) = t.val ∧ win25_0.index t (1 : Fin 2) = 0
    ∧ win25_1.index t (0 : Fin 2) = t.val ∧ win25_1.index t (1 : Fin 2) = 0
    ∧ win25_2.index t (0 : Fin 2) = t.val ∧ win25_2.index t (1 : Fin 2) = 0
    ∧ win25_3.index t (0 : Fin 2) = t.val ∧ win25_3.index t (1 : Fin 2) = 0
    ∧ win25_4.index t (0 : Fin 2) = t.val ∧ win25_4.index t (1 : Fin 2) = 0
    ∧ win25_5.index t (0 : Fin 2) = t.val ∧ win25_5.index t (1 : Fin 2) = 0
    ∧ win25_6.index t (0 : Fin 2) = t.val ∧ win25_6.index t (1 : Fin 2) = 0
    ∧ win25_7.index t (0 : Fin 2) = t.val ∧ win25_7.index t (1 : Fin 2) = 0 :=
  (by decide +kernel : ∀ t : Fin grid25.N, _)

/-- One element of what point `t` stores through window 6: the position update at the array index the block's
    element `(p, q)` sits at — every input block is read at the same rows, the degree block in its one column. -/
theorem elem25_6 (c : Dev nD) (t : Fin cfg25.N) (p : Fin 2000) (q : Fin 128) :
    Gen.k25_pay2 (Gen.iblk25 V c 0 t) (Gen.iblk25 V c 1 t) (Gen.iblk25 V c 2 t) (Gen.iblk25 V c 3 t) (Gen.iblk25 V c 4 t) (Gen.iblk25 V c 5 t) (ix2 p q) = (Cert.Spec.nodeX (V c main_v211_0) (V c main_v211_1) (V c main_v214) (V c main_v219) (V c main_v189) (V c main_v231)) (((cfg25.win 6).blk t).view.emb (ix2 p q)) := by
  obtain ⟨a0, b0, a1, b1, a2, b2, a3, b3, a4, b4, a5, b5, a6, b6, a7, b7⟩ := idx_facts25 t
  rw [k25_pay2_apply, k25_pay1_apply]
  have h0 : (((cfg25.win 0).blk t).view.emb (ix2 p q)) = (((cfg25.win 6).blk t).view.emb (ix2 p q)) := by
    funext a; apply Fin.ext
    match a with
    | ⟨0, _⟩ => show win25_0.index t (0 : Fin 2) * 2000 + 1 * p.val = win25_6.index t (0 : Fin 2) * 2000 + 1 * p.val; omega
    | ⟨1, _⟩ => show win25_0.index t (1 : Fin 2) * 128 + 1 * q.val = win25_6.index t (1 : Fin 2) * 128 + 1 * q.val; omega
  have e0 : (Gen.iblk25 V c 0 t) (ix2 p q) = V c main_v211_0 (((cfg25.win 6).blk t).view.emb (ix2 p q)) := congrArg (V c main_v211_0) h0
  have h1 : (((cfg25.win 1).blk t).view.emb (ix2 p q)) = (((cfg25.win 6).blk t).view.emb (ix2 p q)) := by
    funext a; apply Fin.ext
    match a with
    | ⟨0, _⟩ => show win25_1.index t (0 : Fin 2) * 2000 + 1 * p.val = win25_6.index t (0 : Fin 2) * 2000 + 1 * p.val; omega
    | ⟨1, _⟩ => show win25_1.index t (1 : Fin 2) * 128 + 1 * q.val = win25_6.index t (1 : Fin 2) * 128 + 1 * q.val; omega
  have e1 : (Gen.iblk25 V c 1 t) (ix2 p q) = V c main_v211_1 (((cfg25.win 6).blk t).view.emb (ix2 p q)) := congrArg (V c main_v211_1) h1
  have h2 : (((cfg25.win 2).blk t).view.emb (ix2 p q)) = (((cfg25.win 6).blk t).view.emb (ix2 p q)) := by
    funext a; apply Fin.ext
    match a with
    | ⟨0, _⟩ => show win25_2.index t (0 : Fin 2) * 2000 + 1 * p.val = win25_6.index t (0 : Fin 2) * 2000 + 1 * p.val; omega
    | ⟨1, _⟩ => show win25_2.index t (1 : Fin 2) * 128 + 1 * q.val = win25_6.index t (1 : Fin 2) * 128 + 1 * q.val; omega
  have e2 : (Gen.iblk25 V c 2 t) (ix2 p q) = V c main_v214 (((cfg25.win 6).blk t).view.emb (ix2 p q)) := congrArg (V c main_v214) h2
  have h3 : (((cfg25.win 3).blk t).view.emb (ix2 p q)) = (((cfg25.win 6).blk t).view.emb (ix2 p q)) := by
    funext a; apply Fin.ext
    match a with
    | ⟨0, _⟩ => show win25_3.index t (0 : Fin 2) * 2000 + 1 * p.val = win25_6.index t (0 : Fin 2) * 2000 + 1 * p.val; omega
    | ⟨1, _⟩ => show win25_3.index t (1 : Fin 2) * 128 + 1 * q.val = win25_6.index t (1 : Fin 2) * 128 + 1 * q.val; omega
  have e3 : (Gen.iblk25 V c 3 t) (ix2 p q) = V c main_v219 (((cfg25.win 6).blk t).view.emb (ix2 p q)) := congrArg (V c main_v219) h3
  have h5 : (((cfg25.win 5).blk t).view.emb (ix2 p q)) = (((cfg25.win 6).blk t).view.emb (ix2 p q)) := by
    funext a; apply Fin.ext
    match a with
    | ⟨0, _⟩ => show win25_5.index t (0 : Fin 2) * 2000 + 1 * p.val = win25_6.index t (0 : Fin 2) * 2000 + 1 * p.val; omega
    | ⟨1, _⟩ => show win25_5.index t (1 : Fin 2) * 128 + 1 * q.val = win25_6.index t (1 : Fin 2) * 128 + 1 * q.val; omega
  have e5 : (Gen.iblk25 V c 5 t) (ix2 p q) = V c main_v231 (((cfg25.win 6).blk t).view.emb (ix2 p q)) := congrArg (V c main_v231) h5
  have h4 : (((cfg25.win 4).blk t).view.emb (ix2 p (0 : Fin 1))) = ix2 ((((cfg25.win 6).blk t).view.emb (ix2 p q)) 0 : Fin 50000) (0 : Fin 1) := by
    funext a; apply Fin.ext
    match a with
    | ⟨0, _⟩ => show win25_4.index t (0 : Fin 2) * 2000 + 1 * p.val = win25_6.index t (0 : Fin 2) * 2000 + 1 * p.val; omega
    | ⟨1, _⟩ => show win25_4.index t (1 : Fin 2) * 1 + 1 * 0 = 0; omega
  have e4 : (Gen.iblk25 V c 4 t) (ix2 p (0 : Fin 1)) = V c main_v189 (ix2 ((((cfg25.win 6).blk t).view.emb (ix2 p q)) 0 : Fin 50000) (0 : Fin 1)) := congrArg (V c main_v189) h4
  rw [e0, e1, e2, e3, e4, e5]
  rfl

/-- One element of what point `t` stores through window 7: the velocity update at that array index. -/
theorem elem25_7 (c : Dev nD) (t : Fin cfg25.N) (p : Fin 2000) (q : Fin 128) :
    Gen.k25_pay1 (Gen.iblk25 V c 1 t) (Gen.iblk25 V c 2 t) (Gen.iblk25 V c 3 t) (Gen.iblk25 V c 4 t) (Gen.iblk25 V c 5 t) (ix2 p q) = (Cert.Spec.nodeV (V c main_v211_1) (V c main_v214) (V c main_v219) (V c main_v189) (V c main_v231)) (((cfg25.win 7).blk t).view.emb (ix2 p q)) := by
  obtain ⟨a0, b0, a1, b1, a2, b2, a3, b3, a4, b4, a5, b5, a6, b6, a7, b7⟩ := idx_facts25 t
  rw [k25_pay1_apply]
  have h1 : (((cfg25.win 1).blk t).view.emb (ix2 p q)) = (((cfg25.win 7).blk t).view.emb (ix2 p q)) := by
    funext a; apply Fin.ext
    match a with
    | ⟨0, _⟩ => show win25_1.index t (0 : Fin 2) * 2000 + 1 * p.val = win25_7.index t (0 : Fin 2) * 2000 + 1 * p.val; omega
    | ⟨1, _⟩ => show win25_1.index t (1 : Fin 2) * 128 + 1 * q.val = win25_7.index t (1 : Fin 2) * 128 + 1 * q.val; omega
  have e1 : (Gen.iblk25 V c 1 t) (ix2 p q) = V c main_v211_1 (((cfg25.win 7).blk t).view.emb (ix2 p q)) := congrArg (V c main_v211_1) h1
  have h2 : (((cfg25.win 2).blk t).view.emb (ix2 p q)) = (((cfg25.win 7).blk t).view.emb (ix2 p q)) := by
    funext a; apply Fin.ext
    match a with
    | ⟨0, _⟩ => show win25_2.index t (0 : Fin 2) * 2000 + 1 * p.val = win25_7.index t (0 : Fin 2) * 2000 + 1 * p.val; omega
    | ⟨1, _⟩ => show win25_2.index t (1 : Fin 2) * 128 + 1 * q.val = win25_7.index t (1 : Fin 2) * 128 + 1 * q.val; omega
  have e2 : (Gen.iblk25 V c 2 t) (ix2 p q) = V c main_v214 (((cfg25.win 7).blk t).view.emb (ix2 p q)) := congrArg (V c main_v214) h2
  have h3 : (((cfg25.win 3).blk t).view.emb (ix2 p q)) = (((cfg25.win 7).blk t).view.emb (ix2 p q)) := by
    funext a; apply Fin.ext
    match a with
    | ⟨0, _⟩ => show win25_3.index t (0 : Fin 2) * 2000 + 1 * p.val = win25_7.index t (0 : Fin 2) * 2000 + 1 * p.val; omega
    | ⟨1, _⟩ => show win25_3.index t (1 : Fin 2) * 128 + 1 * q.val = win25_7.index t (1 : Fin 2) * 128 + 1 * q.val; omega
  have e3 : (Gen.iblk25 V c 3 t) (ix2 p q) = V c main_v219 (((cfg25.win 7).blk t).view.emb (ix2 p q)) := congrArg (V c main_v219) h3
  have h5 : (((cfg25.win 5).blk t).view.emb (ix2 p q)) = (((cfg25.win 7).blk t).view.emb (ix2 p q)) := by
    funext a; apply Fin.ext
    match a with
    | ⟨0, _⟩ => show win25_5.index t (0 : Fin 2) * 2000 + 1 * p.val = win25_7.index t (0 : Fin 2) * 2000 + 1 * p.val; omega
    | ⟨1, _⟩ => show win25_5.index t (1 : Fin 2) * 128 + 1 * q.val = win25_7.index t (1 : Fin 2) * 128 + 1 * q.val; omega
  have e5 : (Gen.iblk25 V c 5 t) (ix2 p q) = V c main_v231 (((cfg25.win 7).blk t).view.emb (ix2 p q)) := congrArg (V c main_v231) h5
  have h4 : (((cfg25.win 4).blk t).view.emb (ix2 p (0 : Fin 1))) = ix2 ((((cfg25.win 7).blk t).view.emb (ix2 p q)) 0 : Fin 50000) (0 : Fin 1) := by
    funext a; apply Fin.ext
    match a with
    | ⟨0, _⟩ => show win25_4.index t (0 : Fin 2) * 2000 + 1 * p.val = win25_7.index t (0 : Fin 2) * 2000 + 1 * p.val; omega
    | ⟨1, _⟩ => show win25_4.index t (1 : Fin 2) * 1 + 1 * 0 = 0; omega
  have e4 : (Gen.iblk25 V c 4 t) (ix2 p (0 : Fin 1)) = V c main_v189 (ix2 ((((cfg25.win 7).blk t).view.emb (ix2 p q)) 0 : Fin 50000) (0 : Fin 1)) := congrArg (V c main_v189) h4
  rw [e1, e2, e3, e4, e5]
  rfl

/-- What point `t` writes back through window 6 is block `t` of the position update of the entry arrays. -/
theorem flushed25_6 (c : Dev nD) (t : Fin cfg25.N) :
    (Gen.dat25 V c).flushed 6 t = ((cfg25.win 6).blk t).view.read (Elt Ideal) (Cert.Spec.nodeX (V c main_v211_0) (V c main_v211_1) (V c main_v214) (V c main_v219) (V c main_v189) (V c main_v231)) := by
  show (cfg25.win 6).cut (grid25.coords t) ((Gen.dat25 V c).after 6 t) = _
  rw [Gen.after25_6]
  unfold Gen.out25_6
  rw [View.canon_unit_zero hz]
  simp only [View.ld_unit_zero (S := S2000x128) hz, View.ld_unit_zero (S := S2000x1) hz]
  funext j
  obtain ⟨p, q, rfl⟩ : ∃ (p : Fin 2000) (q : Fin 128), j = ix2 p q := ⟨j 0, j 1, eq_ix2 j⟩
  exact elem25_6 V c t p q

/-- What point `t` writes back through window 7 is block `t` of the velocity update of the entry arrays. -/
theorem flushed25_7 (c : Dev nD) (t : Fin cfg25.N) :
    (Gen.dat25 V c).flushed 7 t = ((cfg25.win 7).blk t).view.read (Elt Ideal) (Cert.Spec.nodeV (V c main_v211_1) (V c main_v214) (V c main_v219) (V c main_v189) (V c main_v231)) := by
  show (cfg25.win 7).cut (grid25.coords t) ((Gen.dat25 V c).after 7 t) = _
  rw [Gen.after25_7]
  unfold Gen.out25_7
  rw [View.canon_unit_zero hz]
  simp only [View.ld_unit_zero (S := S2000x128) hz, View.ld_unit_zero (S := S2000x1) hz]
  funext j
  obtain ⟨p, q, rfl⟩ : ∃ (p : Fin 2000) (q : Fin 128), j = ix2 p q := ⟨j 0, j 1, eq_ix2 j⟩
  exact elem25_7 V c t p q

/-- An index of the array is in point `t`'s block of window 6 iff each coordinate is in the block's range on its axis. -/
theorem mem_blk25_6 (t : Fin cfg25.N) (i : S50000x128.Idx) :
    i ∈ ((cfg25.win 6).blk t).view.set ↔ ∀ a : Fin 2, win25_6.index t a * S2000x128.size a ≤ (i a).val ∧ (i a).val < win25_6.index t a * S2000x128.size a + S2000x128.size a := by
  show i ∈ ((View.whole main_v232_0).slice (win25_6.rect t)).set ↔ _
  rw [View.set_slice_whole, Rect.mem_set_unit]
  exact Iff.rfl

/-- The 25 blocks of 2000 rows tile the 50000 rows: row `r` is in the block of point `r / 2000`. -/
theorem tiles25_6 (i : S50000x128.Idx) :
    ∃ t : Fin cfg25.N, (cfg25.win 6).flush t = true ∧ i ∈ ((cfg25.win 6).blk t).view.set := by
  have hi0 : (i 0).val < 50000 := (i 0).isLt
  have hi1 : (i 1).val < 128 := (i 1).isLt
  have hN : cfg25.N = 25 := Gen.N_25
  let t : Fin cfg25.N := ⟨(i 0).val / 2000, by rw [hN]; omega⟩
  have ht : t.val = (i 0).val / 2000 := rfl
  obtain ⟨a0, b0, a1, b1, a2, b2, a3, b3, a4, b4, a5, b5, a6, b6, a7, b7⟩ := idx_facts25 t
  refine ⟨t, Gen.flush25_6 t, ?_⟩
  rw [mem_blk25_6]
  intro a
  match a with
  | ⟨0, _⟩ => show win25_6.index t (0 : Fin 2) * 2000 ≤ (i 0).val ∧ (i 0).val < win25_6.index t (0 : Fin 2) * 2000 + 2000; omega
  | ⟨1, _⟩ => show win25_6.index t (1 : Fin 2) * 128 ≤ (i 1).val ∧ (i 1).val < win25_6.index t (1 : Fin 2) * 128 + 128; omega

/-- An index of the array is in point `t`'s block of window 7 iff each coordinate is in the block's range on its axis. -/
theorem mem_blk25_7 (t : Fin cfg25.N) (i : S50000x128.Idx) :
    i ∈ ((cfg25.win 7).blk t).view.set ↔ ∀ a : Fin 2, win25_7.index t a * S2000x128.size a ≤ (i a).val ∧ (i a).val < win25_7.index t a * S2000x128.size a + S2000x128.size a := by
  show i ∈ ((View.whole main_v232_1).slice (win25_7.rect t)).set ↔ _
  rw [View.set_slice_whole, Rect.mem_set_unit]
  exact Iff.rfl

/-- The 25 blocks of 2000 rows tile the 50000 rows: row `r` is in the block of point `r / 2000`. -/
theorem tiles25_7 (i : S50000x128.Idx) :
    ∃ t : Fin cfg25.N, (cfg25.win 7).flush t = true ∧ i ∈ ((cfg25.win 7).blk t).view.set := by
  have hi0 : (i 0).val < 50000 := (i 0).isLt
  have hi1 : (i 1).val < 128 := (i 1).isLt
  have hN : cfg25.N = 25 := Gen.N_25
  let t : Fin cfg25.N := ⟨(i 0).val / 2000, by rw [hN]; omega⟩
  have ht : t.val = (i 0).val / 2000 := rfl
  obtain ⟨a0, b0, a1, b1, a2, b2, a3, b3, a4, b4, a5, b5, a6, b6, a7, b7⟩ := idx_facts25 t
  refine ⟨t, Gen.flush25_7 t, ?_⟩
  rw [mem_blk25_7]
  intro a
  match a with
  | ⟨0, _⟩ => show win25_7.index t (0 : Fin 2) * 2000 ≤ (i 0).val ∧ (i 0).val < win25_7.index t (0 : Fin 2) * 2000 + 2000; omega
  | ⟨1, _⟩ => show win25_7.index t (1 : Fin 2) * 128 ≤ (i 1).val ∧ (i 1).val < win25_7.index t (1 : Fin 2) * 128 + 128; omega

/-- THE FIRST OUTPUT after the region: the position update of the arrays the region finds. -/
theorem final25_x (c : Dev nD) : (Gen.dat25 (F := Ideal) V c).arrAt 6 cfg25.N = Cert.Spec.nodeX (V c main_v211_0) (V c main_v211_1) (V c main_v214) (V c main_v219) (V c main_v189) (V c main_v231) :=
  (Gen.dat25 V c).arrAt_eq_of_cover 6 _ (fun t _ => flushed25_6 V c t) tiles25_6

/-- THE SECOND OUTPUT after the region: the velocity update of the arrays the region finds. -/
theorem final25_v (c : Dev nD) : (Gen.dat25 (F := Ideal) V c).arrAt 7 cfg25.N = Cert.Spec.nodeV (V c main_v211_1) (V c main_v214) (V c main_v219) (V c main_v189) (V c main_v231) :=
  (Gen.dat25 V c).arrAt_eq_of_cover 7 _ (fun t _ => flushed25_7 V c t) tiles25_7

end Cert.Node

end
-- ==== Proof.NodeFinals.lean ====
/-
  The six node-update regions together: for each of them, the two arrays it leaves are the position update and the
  velocity update of the arrays it finds on entry (`Cert.Node.finalK_x`, `Cert.Node.finalK_v`, K = 4, 7, 13, 16, 22, 25).
-/
import proofs.«107783_j24189255811079_1_alg».proof.Proof.Node4
import proofs.«107783_j24189255811079_1_alg».proof.Proof.Node7
import proofs.«107783_j24189255811079_1_alg».proof.Proof.Node13
import proofs.«107783_j24189255811079_1_alg».proof.Proof.Node16
import proofs.«107783_j24189255811079_1_alg».proof.Proof.Node22
import proofs.«107783_j24189255811079_1_alg».proof.Proof.Node25
-- ==== Proof.KChain0.lean ====
/- What each buffer of the kernel program holds at each boundary between its segments (host stretches and pallas regions),
   while a later segment still reads it: the named value of Model.lean. A region's output is its whole-array function of
   the region's input arrays; a host stretch's result is its operations applied to what the stretch finds; a buffer no
   segment writes keeps its contents (an input window's array is written back unchanged). -/
import proofs.«107783_j24189255811079_1_alg».proof.Proof.Gen.KernelIdeal.Frame
import proofs.«107783_j24189255811079_1_alg».proof.Proof.Model
import proofs.«107783_j24189255811079_1_alg».proof.Proof.LinFinals
import proofs.«107783_j24189255811079_1_alg».proof.Proof.EdgeFinals
import proofs.«107783_j24189255811079_1_alg».proof.Proof.NodeFinals

set_option maxRecDepth 16384

noncomputable section

namespace Cert.KChain

open Idealize.ShloMosaic Idealize.ShloMosaic.TcCoe Idealize.SL.Sem Cert.KernelIdeal Cert.KernelIdeal.Gen Cert.Model Cert.Spec

variable (m : (ℓ : Loc nD τ sig) → Buf (Elt Ideal) ℓ) (ρ : Dev nD → PrngReg)

/-- The seventeen argument arrays as the launch memory holds them on a core. -/
def kargs (c : Dev nD) : Cert.Model.Args :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16)⟩

theorem L0_main_arg0 (c : Dev nD) : W0 m ρ c (Proc.devRef .tc main_arg0) = (kargs m c).a0 := rfl

theorem L0_main_arg1 (c : Dev nD) : W0 m ρ c (Proc.devRef .tc main_arg1) = (kargs m c).a1 := rfl

theorem L0_main_arg2 (c : Dev nD) : W0 m ρ c (Proc.devRef .tc main_arg2) = (kargs m c).a2 := rfl

theorem L0_main_arg3 (c : Dev nD) : W0 m ρ c (Proc.devRef .tc main_arg3) = (kargs m c).a3 := rfl

theorem L0_main_arg4 (c : Dev nD) : W0 m ρ c (Proc.devRef .tc main_arg4) = (kargs m c).a4 := rfl

theorem L0_main_arg5 (c : Dev nD) : W0 m ρ c (Proc.devRef .tc main_arg5) = (kargs m c).a5 := rfl

theorem L0_main_arg6 (c : Dev nD) : W0 m ρ c (Proc.devRef .tc main_arg6) = (kargs m c).a6 := rfl

theorem L0_main_arg7 (c : Dev nD) : W0 m ρ c (Proc.devRef .tc main_arg7) = (kargs m c).a7 := rfl

theorem L0_main_arg8 (c : Dev nD) : W0 m ρ c (Proc.devRef .tc main_arg8) = (kargs m c).a8 := rfl

theorem L0_main_arg9 (c : Dev nD) : W0 m ρ c (Proc.devRef .tc main_arg9) = (kargs m c).a9 := rfl

theorem L0_main_arg10 (c : Dev nD) : W0 m ρ c (Proc.devRef .tc main_arg10) = (kargs m c).a10 := rfl

theorem L0_main_arg11 (c : Dev nD) : W0 m ρ c (Proc.devRef .tc main_arg11) = (kargs m c).a11 := rfl

theorem L0_main_arg12 (c : Dev nD) : W0 m ρ c (Proc.devRef .tc main_arg12) = (kargs m c).a12 := rfl

theorem L0_main_arg13 (c : Dev nD) : W0 m ρ c (Proc.devRef .tc main_arg13) = (kargs m c).a13 := rfl

theorem L0_main_arg14 (c : Dev nD) : W0 m ρ c (Proc.devRef .tc main_arg14) = (kargs m c).a14 := rfl

theorem L0_main_arg15 (c : Dev nD) : W0 m ρ c (Proc.devRef .tc main_arg15) = (kargs m c).a15 := rfl

theorem L0_main_arg16 (c : Dev nD) : W0 m ρ c (Proc.devRef .tc main_arg16) = (kargs m c).a16 := rfl

theorem L1_main_arg0 (c : Dev nD) : W1 m ρ c (Proc.devRef .tc main_arg0) = (kargs m c).a0 := by
  show StableHlo.after (hostOps0 (F := Ideal)) (W0 m ρ c) (Proc.devRef .tc main_arg0) = _
  after_results
  exact L0_main_arg0 m ρ c

theorem L1_main_arg2 (c : Dev nD) : W1 m ρ c (Proc.devRef .tc main_arg2) = (kargs m c).a2 := by
  show StableHlo.after (hostOps0 (F := Ideal)) (W0 m ρ c) (Proc.devRef .tc main_arg2) = _
  after_results
  exact L0_main_arg2 m ρ c

theorem L1_main_arg3 (c : Dev nD) : W1 m ρ c (Proc.devRef .tc main_arg3) = (kargs m c).a3 := by
  show StableHlo.after (hostOps0 (F := Ideal)) (W0 m ρ c) (Proc.devRef .tc main_arg3) = _
  after_results
  exact L0_main_arg3 m ρ c

theorem L1_main_arg4 (c : Dev nD) : W1 m ρ c (Proc.devRef .tc main_arg4) = (kargs m c).a4 := by
  show StableHlo.after (hostOps0 (F := Ideal)) (W0 m ρ c) (Proc.devRef .tc main_arg4) = _
  after_results
  exact L0_main_arg4 m ρ c

theorem L1_main_arg5 (c : Dev nD) : W1 m ρ c (Proc.devRef .tc main_arg5) = (kargs m c).a5 := by
  show StableHlo.after (hostOps0 (F := Ideal)) (W0 m ρ c) (Proc.devRef .tc main_arg5) = _
  after_results
  exact L0_main_arg5 m ρ c

theorem L1_main_arg6 (c : Dev nD) : W1 m ρ c (Proc.devRef .tc main_arg6) = (kargs m c).a6 := by
  show StableHlo.after (hostOps0 (F := Ideal)) (W0 m ρ c) (Proc.devRef .tc main_arg6) = _
  after_results
  exact L0_main_arg6 m ρ c

theorem L1_main_arg7 (c : Dev nD) : W1 m ρ c (Proc.devRef .tc main_arg7) = (kargs m c).a7 := by
  show StableHlo.after (hostOps0 (F := Ideal)) (W0 m ρ c) (Proc.devRef .tc main_arg7) = _
  after_results
  exact L0_main_arg7 m ρ c

theorem L1_main_arg8 (c : Dev nD) : W1 m ρ c (Proc.devRef .tc main_arg8) = (kargs m c).a8 := by
  show StableHlo.after (hostOps0 (F := Ideal)) (W0 m ρ c) (Proc.devRef .tc main_arg8) = _
  after_results
  exact L0_main_arg8 m ρ c

theorem L1_main_arg9 (c : Dev nD) : W1 m ρ c (Proc.devRef .tc main_arg9) = (kargs m c).a9 := by
  show StableHlo.after (hostOps0 (F := Ideal)) (W0 m ρ c) (Proc.devRef .tc main_arg9) = _
  after_results
  exact L0_main_arg9 m ρ c

theorem L1_main_arg10 (c : Dev nD) : W1 m ρ c (Proc.devRef .tc main_arg10) = (kargs m c).a10 := by
  show StableHlo.after (hostOps0 (F := Ideal)) (W0 m ρ c) (Proc.devRef .tc main_arg10) = _
  after_results
  exact L0_main_arg10 m ρ c

theorem L1_main_arg11 (c : Dev nD) : W1 m ρ c (Proc.devRef .tc main_arg11) = (kargs m c).a11 := by
  show StableHlo.after (hostOps0 (F := Ideal)) (W0 m ρ c) (Proc.devRef .tc main_arg11) = _
  after_results
  exact L0_main_arg11 m ρ c

theorem L1_main_arg12 (c : Dev nD) : W1 m ρ c (Proc.devRef .tc main_arg12) = (kargs m c).a12 := by
  show StableHlo.after (hostOps0 (F := Ideal)) (W0 m ρ c) (Proc.devRef .tc main_arg12) = _
  after_results
  exact L0_main_arg12 m ρ c

theorem L1_main_arg13 (c : Dev nD) : W1 m ρ c (Proc.devRef .tc main_arg13) = (kargs m c).a13 := by
  show StableHlo.after (hostOps0 (F := Ideal)) (W0 m ρ c) (Proc.devRef .tc main_arg13) = _
  after_results
  exact L0_main_arg13 m ρ c

theorem L1_main_arg14 (c : Dev nD) : W1 m ρ c (Proc.devRef .tc main_arg14) = (kargs m c).a14 := by
  show StableHlo.after (hostOps0 (F := Ideal)) (W0 m ρ c) (Proc.devRef .tc main_arg14) = _
  after_results
  exact L0_main_arg14 m ρ c

theorem L1_main_arg15 (c : Dev nD) : W1 m ρ c (Proc.devRef .tc main_arg15) = (kargs m c).a15 := by
  show StableHlo.after (hostOps0 (F := Ideal)) (W0 m ρ c) (Proc.devRef .tc main_arg15) = _
  after_results
  exact L0_main_arg15 m ρ c

theorem L1_main_arg16 (c : Dev nD) : W1 m ρ c (Proc.devRef .tc main_arg16) = (kargs m c).a16 := by
  show StableHlo.after (hostOps0 (F := Ideal)) (W0 m ρ c) (Proc.devRef .tc main_arg16) = _
  after_results
  exact L0_main_arg16 m ρ c

set_option maxHeartbeats 2000000 in
theorem L1_main_v1 (c : Dev nD) : W1 m ρ c (Proc.devRef .tc main_v1) = src (kargs m c) := by
  show StableHlo.after (hostOps0 (F := Ideal)) (W0 m ρ c) (Proc.devRef .tc main_v1) = _
  after_results_simp
  rw [L0_main_arg1 m ρ c]
  rfl

set_option maxHeartbeats 2000000 in
theorem L1_main_v3 (c : Dev nD) : W1 m ρ c (Proc.devRef .tc main_v3) = dst (kargs m c) := by
  show StableHlo.after (hostOps0 (F := Ideal)) (W0 m ρ c) (Proc.devRef .tc main_v3) = _
  after_results_simp
  rw [L0_main_arg1 m ρ c]
  rfl

set_option maxHeartbeats 2000000 in
theorem L1_main_v4 (c : Dev nD) : W1 m ρ c (Proc.devRef .tc main_v4) = zerosB128 := by
  show StableHlo.after (hostOps0 (F := Ideal)) (W0 m ρ c) (Proc.devRef .tc main_v4) = _
  after_results_simp
  rfl

theorem L2_main_arg4 (c : Dev nD) : W2 m ρ c (Proc.devRef .tc main_arg4) = (kargs m c).a4 :=
  (W2_of_ne m ρ c main_arg4 (by decide)).trans (L1_main_arg4 m ρ c)

theorem L2_main_arg5 (c : Dev nD) : W2 m ρ c (Proc.devRef .tc main_arg5) = (kargs m c).a5 :=
  (W2_of_ne m ρ c main_arg5 (by decide)).trans (L1_main_arg5 m ρ c)

theorem L2_main_arg6 (c : Dev nD) : W2 m ρ c (Proc.devRef .tc main_arg6) = (kargs m c).a6 :=
  (W2_of_ne m ρ c main_arg6 (by decide)).trans (L1_main_arg6 m ρ c)

theorem L2_main_arg7 (c : Dev nD) : W2 m ρ c (Proc.devRef .tc main_arg7) = (kargs m c).a7 :=
  (W2_of_ne m ρ c main_arg7 (by decide)).trans (L1_main_arg7 m ρ c)

theorem L2_main_arg8 (c : Dev nD) : W2 m ρ c (Proc.devRef .tc main_arg8) = (kargs m c).a8 :=
  (W2_of_ne m ρ c main_arg8 (by decide)).trans (L1_main_arg8 m ρ c)

theorem L2_main_arg9 (c : Dev nD) : W2 m ρ c (Proc.devRef .tc main_arg9) = (kargs m c).a9 :=
  (W2_of_ne m ρ c main_arg9 (by decide)).trans (L1_main_arg9 m ρ c)

theorem L2_main_arg10 (c : Dev nD) : W2 m ρ c (Proc.devRef .tc main_arg10) = (kargs m c).a10 :=
  (W2_of_ne m ρ c main_arg10 (by decide)).trans (L1_main_arg10 m ρ c)

theorem L2_main_arg11 (c : Dev nD) : W2 m ρ c (Proc.devRef .tc main_arg11) = (kargs m c).a11 :=
  (W2_of_ne m ρ c main_arg11 (by decide)).trans (L1_main_arg11 m ρ c)

theorem L2_main_arg12 (c : Dev nD) : W2 m ρ c (Proc.devRef .tc main_arg12) = (kargs m c).a12 :=
  (W2_of_ne m ρ c main_arg12 (by decide)).trans (L1_main_arg12 m ρ c)

theorem L2_main_arg13 (c : Dev nD) : W2 m ρ c (Proc.devRef .tc main_arg13) = (kargs m c).a13 :=
  (W2_of_ne m ρ c main_arg13 (by decide)).trans (L1_main_arg13 m ρ c)

theorem L2_main_arg14 (c : Dev nD) : W2 m ρ c (Proc.devRef .tc main_arg14) = (kargs m c).a14 :=
  (W2_of_ne m ρ c main_arg14 (by decide)).trans (L1_main_arg14 m ρ c)

theorem L2_main_arg15 (c : Dev nD) : W2 m ρ c (Proc.devRef .tc main_arg15) = (kargs m c).a15 :=
  (W2_of_ne m ρ c main_arg15 (by decide)).trans (L1_main_arg15 m ρ c)

theorem L2_main_arg16 (c : Dev nD) : W2 m ρ c (Proc.devRef .tc main_arg16) = (kargs m c).a16 :=
  (W2_of_ne m ρ c main_arg16 (by decide)).trans (L1_main_arg16 m ρ c)

theorem L2_main_v1 (c : Dev nD) : W2 m ρ c (Proc.devRef .tc main_v1) = src (kargs m c) :=
  (W2_of_ne m ρ c main_v1 (by decide)).trans (L1_main_v1 m ρ c)

theorem L2_main_v3 (c : Dev nD) : W2 m ρ c (Proc.devRef .tc main_v3) = dst (kargs m c) :=
  (W2_of_ne m ρ c main_v3 (by decide)).trans (L1_main_v3 m ρ c)

theorem L2_main_v4 (c : Dev nD) : W2 m ρ c (Proc.devRef .tc main_v4) = zerosB128 :=
  (W2_of_ne m ρ c main_v4 (by decide)).trans (L1_main_v4 m ρ c)

theorem L2_main_v5 (c : Dev nD) : W2 m ρ c (Proc.devRef .tc main_v5) = XIN_0 (kargs m c) :=
  (W2_arr m ρ c 3).trans ((Cert.Lin.final0 (V1 m ρ) c).trans (by
    rw [show V1 m ρ c main_arg0 = _ from L1_main_arg0 m ρ c,
      show V1 m ρ c main_arg2 = _ from L1_main_arg2 m ρ c,
      show V1 m ρ c main_arg3 = _ from L1_main_arg3 m ρ c]
    all_goals rfl))

theorem L3_main_arg4 (c : Dev nD) : W3 m ρ c (Proc.devRef .tc main_arg4) = (kargs m c).a4 := by
  show StableHlo.after (hostOps1 (F := Ideal)) (W2 m ρ c) (Proc.devRef .tc main_arg4) = _
  after_results
  exact L2_main_arg4 m ρ c

theorem L3_main_arg5 (c : Dev nD) : W3 m ρ c (Proc.devRef .tc main_arg5) = (kargs m c).a5 := by
  show StableHlo.after (hostOps1 (F := Ideal)) (W2 m ρ c) (Proc.devRef .tc main_arg5) = _
  after_results
  exact L2_main_arg5 m ρ c

theorem L3_main_arg6 (c : Dev nD) : W3 m ρ c (Proc.devRef .tc main_arg6) = (kargs m c).a6 := by
  show StableHlo.after (hostOps1 (F := Ideal)) (W2 m ρ c) (Proc.devRef .tc main_arg6) = _
  after_results
  exact L2_main_arg6 m ρ c

theorem L3_main_arg7 (c : Dev nD) : W3 m ρ c (Proc.devRef .tc main_arg7) = (kargs m c).a7 := by
  show StableHlo.after (hostOps1 (F := Ideal)) (W2 m ρ c) (Proc.devRef .tc main_arg7) = _
  after_results
  exact L2_main_arg7 m ρ c

theorem L3_main_arg8 (c : Dev nD) : W3 m ρ c (Proc.devRef .tc main_arg8) = (kargs m c).a8 := by
  show StableHlo.after (hostOps1 (F := Ideal)) (W2 m ρ c) (Proc.devRef .tc main_arg8) = _
  after_results
  exact L2_main_arg8 m ρ c

theorem L3_main_arg9 (c : Dev nD) : W3 m ρ c (Proc.devRef .tc main_arg9) = (kargs m c).a9 := by
  show StableHlo.after (hostOps1 (F := Ideal)) (W2 m ρ c) (Proc.devRef .tc main_arg9) = _
  after_results
  exact L2_main_arg9 m ρ c

theorem L3_main_arg10 (c : Dev nD) : W3 m ρ c (Proc.devRef .tc main_arg10) = (kargs m c).a10 := by
  show StableHlo.after (hostOps1 (F := Ideal)) (W2 m ρ c) (Proc.devRef .tc main_arg10) = _
  after_results
  exact L2_main_arg10 m ρ c

theorem L3_main_arg11 (c : Dev nD) : W3 m ρ c (Proc.devRef .tc main_arg11) = (kargs m c).a11 := by
  show StableHlo.after (hostOps1 (F := Ideal)) (W2 m ρ c) (Proc.devRef .tc main_arg11) = _
  after_results
  exact L2_main_arg11 m ρ c

theorem L3_main_arg12 (c : Dev nD) : W3 m ρ c (Proc.devRef .tc main_arg12) = (kargs m c).a12 := by
  show StableHlo.after (hostOps1 (F := Ideal)) (W2 m ρ c) (Proc.devRef .tc main_arg12) = _
  after_results
  exact L2_main_arg12 m ρ c

theorem L3_main_arg13 (c : Dev nD) : W3 m ρ c (Proc.devRef .tc main_arg13) = (kargs m c).a13 := by
  show StableHlo.after (hostOps1 (F := Ideal)) (W2 m ρ c) (Proc.devRef .tc main_arg13) = _
  after_results
  exact L2_main_arg13 m ρ c

theorem L3_main_arg14 (c : Dev nD) : W3 m ρ c (Proc.devRef .tc main_arg14) = (kargs m c).a14 := by
  show StableHlo.after (hostOps1 (F := Ideal)) (W2 m ρ c) (Proc.devRef .tc main_arg14) = _
  after_results
  exact L2_main_arg14 m ρ c

theorem L3_main_arg15 (c : Dev nD) : W3 m ρ c (Proc.devRef .tc main_arg15) = (kargs m c).a15 := by
  show StableHlo.after (hostOps1 (F := Ideal)) (W2 m ρ c) (Proc.devRef .tc main_arg15) = _
  after_results
  exact L2_main_arg15 m ρ c

theorem L3_main_arg16 (c : Dev nD) : W3 m ρ c (Proc.devRef .tc main_arg16) = (kargs m c).a16 := by
  show StableHlo.after (hostOps1 (F := Ideal)) (W2 m ρ c) (Proc.devRef .tc main_arg16) = _
  after_results
  exact L2_main_arg16 m ρ c

theorem L3_main_v1 (c : Dev nD) : W3 m ρ c (Proc.devRef .tc main_v1) = src (kargs m c) := by
  show StableHlo.after (hostOps1 (F := Ideal)) (W2 m ρ c) (Proc.devRef .tc main_v1) = _
  after_results
  exact L2_main_v1 m ρ c

theorem L3_main_v3 (c : Dev nD) : W3 m ρ c (Proc.devRef .tc main_v3) = dst (kargs m c) := by
  show StableHlo.after (hostOps1 (F := Ideal)) (W2 m ρ c) (Proc.devRef .tc main_v3) = _
  after_results
  exact L2_main_v3 m ρ c

theorem L3_main_v4 (c : Dev nD) : W3 m ρ c (Proc.devRef .tc main_v4) = zerosB128 := by
  show StableHlo.after (hostOps1 (F := Ideal)) (W2 m ρ c) (Proc.devRef .tc main_v4) = _
  after_results
  exact L2_main_v4 m ρ c

theorem L3_main_v5 (c : Dev nD) : W3 m ρ c (Proc.devRef .tc main_v5) = XIN_0 (kargs m c) := by
  show StableHlo.after (hostOps1 (F := Ideal)) (W2 m ρ c) (Proc.devRef .tc main_v5) = _
  after_results
  exact L2_main_v5 m ρ c

set_option maxHeartbeats 2000000 in
theorem L3_main_v12 (c : Dev nD) : W3 m ρ c (Proc.devRef .tc main_v12) = gatherRows (XIN_0 (kargs m c)) (src (kargs m c)) := by
  show StableHlo.after (hostOps1 (F := Ideal)) (W2 m ρ c) (Proc.devRef .tc main_v12) = _
  after_results_simp
  rw [L2_main_v5 m ρ c, L2_main_v1 m ρ c]
  rfl

set_option maxHeartbeats 2000000 in
theorem L3_main_v19 (c : Dev nD) : W3 m ρ c (Proc.devRef .tc main_v19) = gatherRows (XIN_0 (kargs m c)) (dst (kargs m c)) := by
  show StableHlo.after (hostOps1 (F := Ideal)) (W2 m ρ c) (Proc.devRef .tc main_v19) = _
  after_results_simp
  rw [L2_main_v5 m ρ c, L2_main_v3 m ρ c]
  rfl

set_option maxHeartbeats 2000000 in
theorem L3_main_v21 (c : Dev nD) : W3 m ρ c (Proc.devRef .tc main_v21) = w1_0 (kargs m c) := by
  show StableHlo.after (hostOps1 (F := Ideal)) (W2 m ρ c) (Proc.devRef .tc main_v21) = _
  after_results_simp
  rw [L2_main_arg5 m ρ c]
  rfl

set_option maxHeartbeats 2000000 in
theorem L3_main_v23 (c : Dev nD) : W3 m ρ c (Proc.devRef .tc main_v23) = b1_0 (kargs m c) := by
  show StableHlo.after (hostOps1 (F := Ideal)) (W2 m ρ c) (Proc.devRef .tc main_v23) = _
  after_results_simp
  rw [L2_main_arg6 m ρ c]
  rfl

set_option maxHeartbeats 2000000 in
theorem L3_main_v25 (c : Dev nD) : W3 m ρ c (Proc.devRef .tc main_v25) = w2_0 (kargs m c) := by
  show StableHlo.after (hostOps1 (F := Ideal)) (W2 m ρ c) (Proc.devRef .tc main_v25) = _
  after_results_simp
  rw [L2_main_arg7 m ρ c]
  rfl

set_option maxHeartbeats 2000000 in
theorem L3_main_v27 (c : Dev nD) : W3 m ρ c (Proc.devRef .tc main_v27) = b2_0 (kargs m c) := by
  show StableHlo.after (hostOps1 (F := Ideal)) (W2 m ρ c) (Proc.devRef .tc main_v27) = _
  after_results_simp
  rw [L2_main_arg8 m ρ c]
  rfl

theorem L4_main_arg4 (c : Dev nD) : W4 m ρ c (Proc.devRef .tc main_arg4) = (kargs m c).a4 :=
  (W4_of_ne m ρ c main_arg4 (by decide)).trans (L3_main_arg4 m ρ c)

theorem L4_main_arg5 (c : Dev nD) : W4 m ρ c (Proc.devRef .tc main_arg5) = (kargs m c).a5 :=
  (W4_of_ne m ρ c main_arg5 (by decide)).trans (L3_main_arg5 m ρ c)

theorem L4_main_arg6 (c : Dev nD) : W4 m ρ c (Proc.devRef .tc main_arg6) = (kargs m c).a6 :=
  (W4_of_ne m ρ c main_arg6 (by decide)).trans (L3_main_arg6 m ρ c)

theorem L4_main_arg7 (c : Dev nD) : W4 m ρ c (Proc.devRef .tc main_arg7) = (kargs m c).a7 :=
  (W4_of_ne m ρ c main_arg7 (by decide)).trans (L3_main_arg7 m ρ c)

theorem L4_main_arg8 (c : Dev nD) : W4 m ρ c (Proc.devRef .tc main_arg8) = (kargs m c).a8 :=
  (W4_of_ne m ρ c main_arg8 (by decide)).trans (L3_main_arg8 m ρ c)

theorem L4_main_arg9 (c : Dev nD) : W4 m ρ c (Proc.devRef .tc main_arg9) = (kargs m c).a9 :=
  (W4_of_ne m ρ c main_arg9 (by decide)).trans (L3_main_arg9 m ρ c)

theorem L4_main_arg10 (c : Dev nD) : W4 m ρ c (Proc.devRef .tc main_arg10) = (kargs m c).a10 :=
  (W4_of_ne m ρ c main_arg10 (by decide)).trans (L3_main_arg10 m ρ c)

theorem L4_main_arg11 (c : Dev nD) : W4 m ρ c (Proc.devRef .tc main_arg11) = (kargs m c).a11 :=
  (W4_of_ne m ρ c main_arg11 (by decide)).trans (L3_main_arg11 m ρ c)

theorem L4_main_arg12 (c : Dev nD) : W4 m ρ c (Proc.devRef .tc main_arg12) = (kargs m c).a12 :=
  (W4_of_ne m ρ c main_arg12 (by decide)).trans (L3_main_arg12 m ρ c)

theorem L4_main_arg13 (c : Dev nD) : W4 m ρ c (Proc.devRef .tc main_arg13) = (kargs m c).a13 :=
  (W4_of_ne m ρ c main_arg13 (by decide)).trans (L3_main_arg13 m ρ c)

theorem L4_main_arg14 (c : Dev nD) : W4 m ρ c (Proc.devRef .tc main_arg14) = (kargs m c).a14 :=
  (W4_of_ne m ρ c main_arg14 (by decide)).trans (L3_main_arg14 m ρ c)

theorem L4_main_arg15 (c : Dev nD) : W4 m ρ c (Proc.devRef .tc main_arg15) = (kargs m c).a15 :=
  (W4_of_ne m ρ c main_arg15 (by decide)).trans (L3_main_arg15 m ρ c)

theorem L4_main_arg16 (c : Dev nD) : W4 m ρ c (Proc.devRef .tc main_arg16) = (kargs m c).a16 :=
  (W4_of_ne m ρ c main_arg16 (by decide)).trans (L3_main_arg16 m ρ c)

theorem L4_main_v1 (c : Dev nD) : W4 m ρ c (Proc.devRef .tc main_v1) = src (kargs m c) :=
  (W4_of_ne m ρ c main_v1 (by decide)).trans (L3_main_v1 m ρ c)

theorem L4_main_v3 (c : Dev nD) : W4 m ρ c (Proc.devRef .tc main_v3) = dst (kargs m c) :=
  (W4_of_ne m ρ c main_v3 (by decide)).trans (L3_main_v3 m ρ c)

theorem L4_main_v4 (c : Dev nD) : W4 m ρ c (Proc.devRef .tc main_v4) = zerosB128 :=
  (W4_of_ne m ρ c main_v4 (by decide)).trans (L3_main_v4 m ρ c)

theorem L4_main_v5 (c : Dev nD) : W4 m ρ c (Proc.devRef .tc main_v5) = XIN_0 (kargs m c) :=
  (W4_of_ne m ρ c main_v5 (by decide)).trans (L3_main_v5 m ρ c)

theorem L4_main_v28 (c : Dev nD) : W4 m ρ c (Proc.devRef .tc main_v28) = R_0 (kargs m c) :=
  (W4_arr m ρ c 6).trans ((Cert.Edge.final1 (V3 m ρ) c).trans (by
    rw [show V3 m ρ c main_v12 = _ from L3_main_v12 m ρ c,
      show V3 m ρ c main_v19 = _ from L3_main_v19 m ρ c,
      show V3 m ρ c main_v21 = _ from L3_main_v21 m ρ c,
      show V3 m ρ c main_v23 = _ from L3_main_v23 m ρ c,
      show V3 m ρ c main_v25 = _ from L3_main_v25 m ρ c,
      show V3 m ρ c main_v27 = _ from L3_main_v27 m ρ c]
    all_goals rfl))

theorem L5_main_arg4 (c : Dev nD) : W5 m ρ c (Proc.devRef .tc main_arg4) = (kargs m c).a4 := by
  show StableHlo.after (hostOps2 (F := Ideal)) (W4 m ρ c) (Proc.devRef .tc main_arg4) = _
  after_results
  exact L4_main_arg4 m ρ c

theorem L5_main_arg5 (c : Dev nD) : W5 m ρ c (Proc.devRef .tc main_arg5) = (kargs m c).a5 := by
  show StableHlo.after (hostOps2 (F := Ideal)) (W4 m ρ c) (Proc.devRef .tc main_arg5) = _
  after_results
  exact L4_main_arg5 m ρ c

theorem L5_main_arg6 (c : Dev nD) : W5 m ρ c (Proc.devRef .tc main_arg6) = (kargs m c).a6 := by
  show StableHlo.after (hostOps2 (F := Ideal)) (W4 m ρ c) (Proc.devRef .tc main_arg6) = _
  after_results
  exact L4_main_arg6 m ρ c

theorem L5_main_arg7 (c : Dev nD) : W5 m ρ c (Proc.devRef .tc main_arg7) = (kargs m c).a7 := by
  show StableHlo.after (hostOps2 (F := Ideal)) (W4 m ρ c) (Proc.devRef .tc main_arg7) = _
  after_results
  exact L4_main_arg7 m ρ c

theorem L5_main_arg8 (c : Dev nD) : W5 m ρ c (Proc.devRef .tc main_arg8) = (kargs m c).a8 := by
  show StableHlo.after (hostOps2 (F := Ideal)) (W4 m ρ c) (Proc.devRef .tc main_arg8) = _
  after_results
  exact L4_main_arg8 m ρ c

theorem L5_main_arg9 (c : Dev nD) : W5 m ρ c (Proc.devRef .tc main_arg9) = (kargs m c).a9 := by
  show StableHlo.after (hostOps2 (F := Ideal)) (W4 m ρ c) (Proc.devRef .tc main_arg9) = _
  after_results
  exact L4_main_arg9 m ρ c

theorem L5_main_arg10 (c : Dev nD) : W5 m ρ c (Proc.devRef .tc main_arg10) = (kargs m c).a10 := by
  show StableHlo.after (hostOps2 (F := Ideal)) (W4 m ρ c) (Proc.devRef .tc main_arg10) = _
  after_results
  exact L4_main_arg10 m ρ c

theorem L5_main_arg11 (c : Dev nD) : W5 m ρ c (Proc.devRef .tc main_arg11) = (kargs m c).a11 := by
  show StableHlo.after (hostOps2 (F := Ideal)) (W4 m ρ c) (Proc.devRef .tc main_arg11) = _
  after_results
  exact L4_main_arg11 m ρ c

theorem L5_main_arg12 (c : Dev nD) : W5 m ρ c (Proc.devRef .tc main_arg12) = (kargs m c).a12 := by
  show StableHlo.after (hostOps2 (F := Ideal)) (W4 m ρ c) (Proc.devRef .tc main_arg12) = _
  after_results
  exact L4_main_arg12 m ρ c

theorem L5_main_arg13 (c : Dev nD) : W5 m ρ c (Proc.devRef .tc main_arg13) = (kargs m c).a13 := by
  show StableHlo.after (hostOps2 (F := Ideal)) (W4 m ρ c) (Proc.devRef .tc main_arg13) = _
  after_results
  exact L4_main_arg13 m ρ c

theorem L5_main_arg14 (c : Dev nD) : W5 m ρ c (Proc.devRef .tc main_arg14) = (kargs m c).a14 := by
  show StableHlo.after (hostOps2 (F := Ideal)) (W4 m ρ c) (Proc.devRef .tc main_arg14) = _
  after_results
  exact L4_main_arg14 m ρ c

theorem L5_main_arg15 (c : Dev nD) : W5 m ρ c (Proc.devRef .tc main_arg15) = (kargs m c).a15 := by
  show StableHlo.after (hostOps2 (F := Ideal)) (W4 m ρ c) (Proc.devRef .tc main_arg15) = _
  after_results
  exact L4_main_arg15 m ρ c

theorem L5_main_arg16 (c : Dev nD) : W5 m ρ c (Proc.devRef .tc main_arg16) = (kargs m c).a16 := by
  show StableHlo.after (hostOps2 (F := Ideal)) (W4 m ρ c) (Proc.devRef .tc main_arg16) = _
  after_results
  exact L4_main_arg16 m ρ c

theorem L5_main_v1 (c : Dev nD) : W5 m ρ c (Proc.devRef .tc main_v1) = src (kargs m c) := by
  show StableHlo.after (hostOps2 (F := Ideal)) (W4 m ρ c) (Proc.devRef .tc main_v1) = _
  after_results
  exact L4_main_v1 m ρ c

theorem L5_main_v3 (c : Dev nD) : W5 m ρ c (Proc.devRef .tc main_v3) = dst (kargs m c) := by
  show StableHlo.after (hostOps2 (F := Ideal)) (W4 m ρ c) (Proc.devRef .tc main_v3) = _
  after_results
  exact L4_main_v3 m ρ c

theorem L5_main_v4 (c : Dev nD) : W5 m ρ c (Proc.devRef .tc main_v4) = zerosB128 := by
  show StableHlo.after (hostOps2 (F := Ideal)) (W4 m ρ c) (Proc.devRef .tc main_v4) = _
  after_results
  exact L4_main_v4 m ρ c

theorem L5_main_v5 (c : Dev nD) : W5 m ρ c (Proc.devRef .tc main_v5) = XIN_0 (kargs m c) := by
  show StableHlo.after (hostOps2 (F := Ideal)) (W4 m ρ c) (Proc.devRef .tc main_v5) = _
  after_results
  exact L4_main_v5 m ρ c

theorem L5_main_v28 (c : Dev nD) : W5 m ρ c (Proc.devRef .tc main_v28) = R_0 (kargs m c) := by
  show StableHlo.after (hostOps2 (F := Ideal)) (W4 m ρ c) (Proc.devRef .tc main_v28) = _
  after_results
  exact L4_main_v28 m ρ c

set_option maxHeartbeats 2000000 in
theorem L5_main_v34 (c : Dev nD) : W5 m ρ c (Proc.devRef .tc main_v34) = lapw_0 (kargs m c) := by
  show StableHlo.after (hostOps2 (F := Ideal)) (W4 m ρ c) (Proc.devRef .tc main_v34) = _
  after_results_simp
  rw [L4_main_arg4 m ρ c]
  rfl

set_option maxHeartbeats 2000000 in
theorem L5_main_v32 (c : Dev nD) : W5 m ρ c (Proc.devRef .tc main_v32) = zerosN128 := by
  show StableHlo.after (hostOps2 (F := Ideal)) (W4 m ρ c) (Proc.devRef .tc main_v32) = _
  after_results_simp
  rfl

set_option maxHeartbeats 2000000 in
theorem L5_main_v31 (c : Dev nD) : W5 m ρ c (Proc.devRef .tc main_v31) = D_0 (kargs m c) := by
  show StableHlo.after (hostOps2 (F := Ideal)) (W4 m ρ c) (Proc.devRef .tc main_v31) = _
  after_results_simp
  rw [L4_main_v1 m ρ c, L4_main_v28 m ρ c]
  rfl

theorem L6_main_arg4 (c : Dev nD) : W6 m ρ c (Proc.devRef .tc main_arg4) = (kargs m c).a4 :=
  (W6_of_ne m ρ c main_arg4 (by decide)).trans (L5_main_arg4 m ρ c)

theorem L6_main_arg5 (c : Dev nD) : W6 m ρ c (Proc.devRef .tc main_arg5) = (kargs m c).a5 :=
  (W6_of_ne m ρ c main_arg5 (by decide)).trans (L5_main_arg5 m ρ c)

theorem L6_main_arg6 (c : Dev nD) : W6 m ρ c (Proc.devRef .tc main_arg6) = (kargs m c).a6 :=
  (W6_of_ne m ρ c main_arg6 (by decide)).trans (L5_main_arg6 m ρ c)

theorem L6_main_arg7 (c : Dev nD) : W6 m ρ c (Proc.devRef .tc main_arg7) = (kargs m c).a7 :=
  (W6_of_ne m ρ c main_arg7 (by decide)).trans (L5_main_arg7 m ρ c)

theorem L6_main_arg8 (c : Dev nD) : W6 m ρ c (Proc.devRef .tc main_arg8) = (kargs m c).a8 :=
  (W6_of_ne m ρ c main_arg8 (by decide)).trans (L5_main_arg8 m ρ c)

theorem L6_main_arg9 (c : Dev nD) : W6 m ρ c (Proc.devRef .tc main_arg9) = (kargs m c).a9 :=
  (W6_of_ne m ρ c main_arg9 (by decide)).trans (L5_main_arg9 m ρ c)

theorem L6_main_arg10 (c : Dev nD) : W6 m ρ c (Proc.devRef .tc main_arg10) = (kargs m c).a10 :=
  (W6_of_ne m ρ c main_arg10 (by decide)).trans (L5_main_arg10 m ρ c)

theorem L6_main_arg11 (c : Dev nD) : W6 m ρ c (Proc.devRef .tc main_arg11) = (kargs m c).a11 :=
  (W6_of_ne m ρ c main_arg11 (by decide)).trans (L5_main_arg11 m ρ c)

theorem L6_main_arg12 (c : Dev nD) : W6 m ρ c (Proc.devRef .tc main_arg12) = (kargs m c).a12 :=
  (W6_of_ne m ρ c main_arg12 (by decide)).trans (L5_main_arg12 m ρ c)

theorem L6_main_arg13 (c : Dev nD) : W6 m ρ c (Proc.devRef .tc main_arg13) = (kargs m c).a13 :=
  (W6_of_ne m ρ c main_arg13 (by decide)).trans (L5_main_arg13 m ρ c)

theorem L6_main_arg14 (c : Dev nD) : W6 m ρ c (Proc.devRef .tc main_arg14) = (kargs m c).a14 :=
  (W6_of_ne m ρ c main_arg14 (by decide)).trans (L5_main_arg14 m ρ c)

theorem L6_main_arg15 (c : Dev nD) : W6 m ρ c (Proc.devRef .tc main_arg15) = (kargs m c).a15 :=
  (W6_of_ne m ρ c main_arg15 (by decide)).trans (L5_main_arg15 m ρ c)

theorem L6_main_arg16 (c : Dev nD) : W6 m ρ c (Proc.devRef .tc main_arg16) = (kargs m c).a16 :=
  (W6_of_ne m ρ c main_arg16 (by decide)).trans (L5_main_arg16 m ρ c)

theorem L6_main_v1 (c : Dev nD) : W6 m ρ c (Proc.devRef .tc main_v1) = src (kargs m c) :=
  (W6_of_ne m ρ c main_v1 (by decide)).trans (L5_main_v1 m ρ c)

theorem L6_main_v3 (c : Dev nD) : W6 m ρ c (Proc.devRef .tc main_v3) = dst (kargs m c) :=
  (W6_of_ne m ρ c main_v3 (by decide)).trans (L5_main_v3 m ρ c)

theorem L6_main_v4 (c : Dev nD) : W6 m ρ c (Proc.devRef .tc main_v4) = zerosB128 :=
  ((W6_arr m ρ c 2).trans (((dat2 (V5 m ρ) c).arrAt_in 2 rfl _).trans (A_eq2 (V5 m ρ) c 2))).trans (L5_main_v4 m ρ c)

theorem L6_main_v5 (c : Dev nD) : W6 m ρ c (Proc.devRef .tc main_v5) = XIN_0 (kargs m c) :=
  ((W6_arr m ρ c 0).trans (((dat2 (V5 m ρ) c).arrAt_in 0 rfl _).trans (A_eq2 (V5 m ρ) c 0))).trans (L5_main_v5 m ρ c)

theorem L6_main_v28 (c : Dev nD) : W6 m ρ c (Proc.devRef .tc main_v28) = R_0 (kargs m c) :=
  (W6_of_ne m ρ c main_v28 (by decide)).trans (L5_main_v28 m ρ c)

theorem L6_main_v32 (c : Dev nD) : W6 m ρ c (Proc.devRef .tc main_v32) = zerosN128 :=
  (W6_of_ne m ρ c main_v32 (by decide)).trans (L5_main_v32 m ρ c)

theorem L6_main_v31 (c : Dev nD) : W6 m ρ c (Proc.devRef .tc main_v31) = D_0 (kargs m c) :=
  (W6_of_ne m ρ c main_v31 (by decide)).trans (L5_main_v31 m ρ c)

theorem L6_main_v35 (c : Dev nD) : W6 m ρ c (Proc.devRef .tc main_v35) = lin (XIN_0 (kargs m c)) (lapw_0 (kargs m c)) zerosB128 :=
  (W6_arr m ρ c 3).trans ((Cert.Lin.final2 (V5 m ρ) c).trans (by
    rw [show V5 m ρ c main_v5 = _ from L5_main_v5 m ρ c,
      show V5 m ρ c main_v34 = _ from L5_main_v34 m ρ c,
      show V5 m ρ c main_v4 = _ from L5_main_v4 m ρ c]
    all_goals rfl))

theorem L7_main_arg4 (c : Dev nD) : W7 m ρ c (Proc.devRef .tc main_arg4) = (kargs m c).a4 := by
  show StableHlo.after (hostOps3 (F := Ideal)) (W6 m ρ c) (Proc.devRef .tc main_arg4) = _
  after_results
  exact L6_main_arg4 m ρ c

theorem L7_main_arg5 (c : Dev nD) : W7 m ρ c (Proc.devRef .tc main_arg5) = (kargs m c).a5 := by
  show StableHlo.after (hostOps3 (F := Ideal)) (W6 m ρ c) (Proc.devRef .tc main_arg5) = _
  after_results
  exact L6_main_arg5 m ρ c

theorem L7_main_arg6 (c : Dev nD) : W7 m ρ c (Proc.devRef .tc main_arg6) = (kargs m c).a6 := by
  show StableHlo.after (hostOps3 (F := Ideal)) (W6 m ρ c) (Proc.devRef .tc main_arg6) = _
  after_results
  exact L6_main_arg6 m ρ c

theorem L7_main_arg7 (c : Dev nD) : W7 m ρ c (Proc.devRef .tc main_arg7) = (kargs m c).a7 := by
  show StableHlo.after (hostOps3 (F := Ideal)) (W6 m ρ c) (Proc.devRef .tc main_arg7) = _
  after_results
  exact L6_main_arg7 m ρ c

theorem L7_main_arg8 (c : Dev nD) : W7 m ρ c (Proc.devRef .tc main_arg8) = (kargs m c).a8 := by
  show StableHlo.after (hostOps3 (F := Ideal)) (W6 m ρ c) (Proc.devRef .tc main_arg8) = _
  after_results
  exact L6_main_arg8 m ρ c

theorem L7_main_arg9 (c : Dev nD) : W7 m ρ c (Proc.devRef .tc main_arg9) = (kargs m c).a9 := by
  show StableHlo.after (hostOps3 (F := Ideal)) (W6 m ρ c) (Proc.devRef .tc main_arg9) = _
  after_results
  exact L6_main_arg9 m ρ c

theorem L7_main_arg10 (c : Dev nD) : W7 m ρ c (Proc.devRef .tc main_arg10) = (kargs m c).a10 := by
  show StableHlo.after (hostOps3 (F := Ideal)) (W6 m ρ c) (Proc.devRef .tc main_arg10) = _
  after_results
  exact L6_main_arg10 m ρ c

theorem L7_main_arg11 (c : Dev nD) : W7 m ρ c (Proc.devRef .tc main_arg11) = (kargs m c).a11 := by
  show StableHlo.after (hostOps3 (F := Ideal)) (W6 m ρ c) (Proc.devRef .tc main_arg11) = _
  after_results
  exact L6_main_arg11 m ρ c

theorem L7_main_arg12 (c : Dev nD) : W7 m ρ c (Proc.devRef .tc main_arg12) = (kargs m c).a12 := by
  show StableHlo.after (hostOps3 (F := Ideal)) (W6 m ρ c) (Proc.devRef .tc main_arg12) = _
  after_results
  exact L6_main_arg12 m ρ c

theorem L7_main_arg13 (c : Dev nD) : W7 m ρ c (Proc.devRef .tc main_arg13) = (kargs m c).a13 := by
  show StableHlo.after (hostOps3 (F := Ideal)) (W6 m ρ c) (Proc.devRef .tc main_arg13) = _
  after_results
  exact L6_main_arg13 m ρ c

theorem L7_main_arg14 (c : Dev nD) : W7 m ρ c (Proc.devRef .tc main_arg14) = (kargs m c).a14 := by
  show StableHlo.after (hostOps3 (F := Ideal)) (W6 m ρ c) (Proc.devRef .tc main_arg14) = _
  after_results
  exact L6_main_arg14 m ρ c

theorem L7_main_arg15 (c : Dev nD) : W7 m ρ c (Proc.devRef .tc main_arg15) = (kargs m c).a15 := by
  show StableHlo.after (hostOps3 (F := Ideal)) (W6 m ρ c) (Proc.devRef .tc main_arg15) = _
  after_results
  exact L6_main_arg15 m ρ c

theorem L7_main_arg16 (c : Dev nD) : W7 m ρ c (Proc.devRef .tc main_arg16) = (kargs m c).a16 := by
  show StableHlo.after (hostOps3 (F := Ideal)) (W6 m ρ c) (Proc.devRef .tc main_arg16) = _
  after_results
  exact L6_main_arg16 m ρ c

theorem L7_main_v1 (c : Dev nD) : W7 m ρ c (Proc.devRef .tc main_v1) = src (kargs m c) := by
  show StableHlo.after (hostOps3 (F := Ideal)) (W6 m ρ c) (Proc.devRef .tc main_v1) = _
  after_results
  exact L6_main_v1 m ρ c

theorem L7_main_v3 (c : Dev nD) : W7 m ρ c (Proc.devRef .tc main_v3) = dst (kargs m c) := by
  show StableHlo.after (hostOps3 (F := Ideal)) (W6 m ρ c) (Proc.devRef .tc main_v3) = _
  after_results
  exact L6_main_v3 m ρ c

theorem L7_main_v4 (c : Dev nD) : W7 m ρ c (Proc.devRef .tc main_v4) = zerosB128 := by
  show StableHlo.after (hostOps3 (F := Ideal)) (W6 m ρ c) (Proc.devRef .tc main_v4) = _
  after_results
  exact L6_main_v4 m ρ c

theorem L7_main_v5 (c : Dev nD) : W7 m ρ c (Proc.devRef .tc main_v5) = XIN_0 (kargs m c) := by
  show StableHlo.after (hostOps3 (F := Ideal)) (W6 m ρ c) (Proc.devRef .tc main_v5) = _
  after_results
  exact L6_main_v5 m ρ c

theorem L7_main_v28 (c : Dev nD) : W7 m ρ c (Proc.devRef .tc main_v28) = R_0 (kargs m c) := by
  show StableHlo.after (hostOps3 (F := Ideal)) (W6 m ρ c) (Proc.devRef .tc main_v28) = _
  after_results
  exact L6_main_v28 m ρ c

theorem L7_main_v35 (c : Dev nD) : W7 m ρ c (Proc.devRef .tc main_v35) = lin (XIN_0 (kargs m c)) (lapw_0 (kargs m c)) zerosB128 := by
  show StableHlo.after (hostOps3 (F := Ideal)) (W6 m ρ c) (Proc.devRef .tc main_v35) = _
  after_results
  exact L6_main_v35 m ρ c

theorem L7_main_v32 (c : Dev nD) : W7 m ρ c (Proc.devRef .tc main_v32) = zerosN128 := by
  show StableHlo.after (hostOps3 (F := Ideal)) (W6 m ρ c) (Proc.devRef .tc main_v32) = _
  after_results
  exact L6_main_v32 m ρ c

theorem L7_main_v31 (c : Dev nD) : W7 m ρ c (Proc.devRef .tc main_v31) = D_0 (kargs m c) := by
  show StableHlo.after (hostOps3 (F := Ideal)) (W6 m ρ c) (Proc.devRef .tc main_v31) = _
  after_results
  exact L6_main_v31 m ρ c

set_option maxHeartbeats 2000000 in
theorem L7_main_v37 (c : Dev nD) : W7 m ρ c (Proc.devRef .tc main_v37) = dissw_0 (kargs m c) := by
  show StableHlo.after (hostOps3 (F := Ideal)) (W6 m ρ c) (Proc.devRef .tc main_v37) = _
  after_results_simp
  rw [L6_main_arg9 m ρ c]
  rfl

set_option maxHeartbeats 2000000 in
theorem L7_main_v39 (c : Dev nD) : W7 m ρ c (Proc.devRef .tc main_v39) = dissb_0 (kargs m c) := by
  show StableHlo.after (hostOps3 (F := Ideal)) (W6 m ρ c) (Proc.devRef .tc main_v39) = _
  after_results_simp
  rw [L6_main_arg10 m ρ c]
  rfl

theorem L8_main_arg4 (c : Dev nD) : W8 m ρ c (Proc.devRef .tc main_arg4) = (kargs m c).a4 :=
  (W8_of_ne m ρ c main_arg4 (by decide)).trans (L7_main_arg4 m ρ c)

theorem L8_main_arg5 (c : Dev nD) : W8 m ρ c (Proc.devRef .tc main_arg5) = (kargs m c).a5 :=
  (W8_of_ne m ρ c main_arg5 (by decide)).trans (L7_main_arg5 m ρ c)

theorem L8_main_arg6 (c : Dev nD) : W8 m ρ c (Proc.devRef .tc main_arg6) = (kargs m c).a6 :=
  (W8_of_ne m ρ c main_arg6 (by decide)).trans (L7_main_arg6 m ρ c)

theorem L8_main_arg7 (c : Dev nD) : W8 m ρ c (Proc.devRef .tc main_arg7) = (kargs m c).a7 :=
  (W8_of_ne m ρ c main_arg7 (by decide)).trans (L7_main_arg7 m ρ c)

theorem L8_main_arg8 (c : Dev nD) : W8 m ρ c (Proc.devRef .tc main_arg8) = (kargs m c).a8 :=
  (W8_of_ne m ρ c main_arg8 (by decide)).trans (L7_main_arg8 m ρ c)

theorem L8_main_arg9 (c : Dev nD) : W8 m ρ c (Proc.devRef .tc main_arg9) = (kargs m c).a9 :=
  (W8_of_ne m ρ c main_arg9 (by decide)).trans (L7_main_arg9 m ρ c)

theorem L8_main_arg10 (c : Dev nD) : W8 m ρ c (Proc.devRef .tc main_arg10) = (kargs m c).a10 :=
  (W8_of_ne m ρ c main_arg10 (by decide)).trans (L7_main_arg10 m ρ c)

theorem L8_main_arg11 (c : Dev nD) : W8 m ρ c (Proc.devRef .tc main_arg11) = (kargs m c).a11 :=
  (W8_of_ne m ρ c main_arg11 (by decide)).trans (L7_main_arg11 m ρ c)

theorem L8_main_arg12 (c : Dev nD) : W8 m ρ c (Proc.devRef .tc main_arg12) = (kargs m c).a12 :=
  (W8_of_ne m ρ c main_arg12 (by decide)).trans (L7_main_arg12 m ρ c)

theorem L8_main_arg13 (c : Dev nD) : W8 m ρ c (Proc.devRef .tc main_arg13) = (kargs m c).a13 :=
  (W8_of_ne m ρ c main_arg13 (by decide)).trans (L7_main_arg13 m ρ c)

theorem L8_main_arg14 (c : Dev nD) : W8 m ρ c (Proc.devRef .tc main_arg14) = (kargs m c).a14 :=
  (W8_of_ne m ρ c main_arg14 (by decide)).trans (L7_main_arg14 m ρ c)

theorem L8_main_arg15 (c : Dev nD) : W8 m ρ c (Proc.devRef .tc main_arg15) = (kargs m c).a15 :=
  (W8_of_ne m ρ c main_arg15 (by decide)).trans (L7_main_arg15 m ρ c)

theorem L8_main_arg16 (c : Dev nD) : W8 m ρ c (Proc.devRef .tc main_arg16) = (kargs m c).a16 :=
  (W8_of_ne m ρ c main_arg16 (by decide)).trans (L7_main_arg16 m ρ c)

theorem L8_main_v1 (c : Dev nD) : W8 m ρ c (Proc.devRef .tc main_v1) = src (kargs m c) :=
  (W8_of_ne m ρ c main_v1 (by decide)).trans (L7_main_v1 m ρ c)

theorem L8_main_v3 (c : Dev nD) : W8 m ρ c (Proc.devRef .tc main_v3) = dst (kargs m c) :=
  (W8_of_ne m ρ c main_v3 (by decide)).trans (L7_main_v3 m ρ c)

theorem L8_main_v4 (c : Dev nD) : W8 m ρ c (Proc.devRef .tc main_v4) = zerosB128 :=
  (W8_of_ne m ρ c main_v4 (by decide)).trans (L7_main_v4 m ρ c)

theorem L8_main_v5 (c : Dev nD) : W8 m ρ c (Proc.devRef .tc main_v5) = XIN_0 (kargs m c) :=
  ((W8_arr m ρ c 0).trans (((dat3 (V7 m ρ) c).arrAt_in 0 rfl _).trans (A_eq3 (V7 m ρ) c 0))).trans (L7_main_v5 m ρ c)

theorem L8_main_v28 (c : Dev nD) : W8 m ρ c (Proc.devRef .tc main_v28) = R_0 (kargs m c) :=
  (W8_of_ne m ρ c main_v28 (by decide)).trans (L7_main_v28 m ρ c)

theorem L8_main_v35 (c : Dev nD) : W8 m ρ c (Proc.devRef .tc main_v35) = lin (XIN_0 (kargs m c)) (lapw_0 (kargs m c)) zerosB128 :=
  (W8_of_ne m ρ c main_v35 (by decide)).trans (L7_main_v35 m ρ c)

theorem L8_main_v32 (c : Dev nD) : W8 m ρ c (Proc.devRef .tc main_v32) = zerosN128 :=
  (W8_of_ne m ρ c main_v32 (by decide)).trans (L7_main_v32 m ρ c)

theorem L8_main_v31 (c : Dev nD) : W8 m ρ c (Proc.devRef .tc main_v31) = D_0 (kargs m c) :=
  (W8_of_ne m ρ c main_v31 (by decide)).trans (L7_main_v31 m ρ c)

theorem L8_main_v40 (c : Dev nD) : W8 m ρ c (Proc.devRef .tc main_v40) = linRelu (XIN_0 (kargs m c)) (dissw_0 (kargs m c)) (dissb_0 (kargs m c)) :=
  (W8_arr m ρ c 3).trans ((Cert.Lin.final3 (V7 m ρ) c).trans (by
    rw [show V7 m ρ c main_v5 = _ from L7_main_v5 m ρ c,
      show V7 m ρ c main_v37 = _ from L7_main_v37 m ρ c,
      show V7 m ρ c main_v39 = _ from L7_main_v39 m ρ c]
    all_goals rfl))

theorem L9_main_arg4 (c : Dev nD) : W9 m ρ c (Proc.devRef .tc main_arg4) = (kargs m c).a4 := by
  show StableHlo.after (hostOps4 (F := Ideal)) (W8 m ρ c) (Proc.devRef .tc main_arg4) = _
  after_results
  exact L8_main_arg4 m ρ c

theorem L9_main_arg5 (c : Dev nD) : W9 m ρ c (Proc.devRef .tc main_arg5) = (kargs m c).a5 := by
  show StableHlo.after (hostOps4 (F := Ideal)) (W8 m ρ c) (Proc.devRef .tc main_arg5) = _
  after_results
  exact L8_main_arg5 m ρ c

theorem L9_main_arg6 (c : Dev nD) : W9 m ρ c (Proc.devRef .tc main_arg6) = (kargs m c).a6 := by
  show StableHlo.after (hostOps4 (F := Ideal)) (W8 m ρ c) (Proc.devRef .tc main_arg6) = _
  after_results
  exact L8_main_arg6 m ρ c

theorem L9_main_arg7 (c : Dev nD) : W9 m ρ c (Proc.devRef .tc main_arg7) = (kargs m c).a7 := by
  show StableHlo.after (hostOps4 (F := Ideal)) (W8 m ρ c) (Proc.devRef .tc main_arg7) = _
  after_results
  exact L8_main_arg7 m ρ c

theorem L9_main_arg8 (c : Dev nD) : W9 m ρ c (Proc.devRef .tc main_arg8) = (kargs m c).a8 := by
  show StableHlo.after (hostOps4 (F := Ideal)) (W8 m ρ c) (Proc.devRef .tc main_arg8) = _
  after_results
  exact L8_main_arg8 m ρ c

theorem L9_main_arg9 (c : Dev nD) : W9 m ρ c (Proc.devRef .tc main_arg9) = (kargs m c).a9 := by
  show StableHlo.after (hostOps4 (F := Ideal)) (W8 m ρ c) (Proc.devRef .tc main_arg9) = _
  after_results
  exact L8_main_arg9 m ρ c

theorem L9_main_arg10 (c : Dev nD) : W9 m ρ c (Proc.devRef .tc main_arg10) = (kargs m c).a10 := by
  show StableHlo.after (hostOps4 (F := Ideal)) (W8 m ρ c) (Proc.devRef .tc main_arg10) = _
  after_results
  exact L8_main_arg10 m ρ c

theorem L9_main_arg11 (c : Dev nD) : W9 m ρ c (Proc.devRef .tc main_arg11) = (kargs m c).a11 := by
  show StableHlo.after (hostOps4 (F := Ideal)) (W8 m ρ c) (Proc.devRef .tc main_arg11) = _
  after_results
  exact L8_main_arg11 m ρ c

theorem L9_main_arg12 (c : Dev nD) : W9 m ρ c (Proc.devRef .tc main_arg12) = (kargs m c).a12 := by
  show StableHlo.after (hostOps4 (F := Ideal)) (W8 m ρ c) (Proc.devRef .tc main_arg12) = _
  after_results
  exact L8_main_arg12 m ρ c

theorem L9_main_arg13 (c : Dev nD) : W9 m ρ c (Proc.devRef .tc main_arg13) = (kargs m c).a13 := by
  show StableHlo.after (hostOps4 (F := Ideal)) (W8 m ρ c) (Proc.devRef .tc main_arg13) = _
  after_results
  exact L8_main_arg13 m ρ c

theorem L9_main_arg14 (c : Dev nD) : W9 m ρ c (Proc.devRef .tc main_arg14) = (kargs m c).a14 := by
  show StableHlo.after (hostOps4 (F := Ideal)) (W8 m ρ c) (Proc.devRef .tc main_arg14) = _
  after_results
  exact L8_main_arg14 m ρ c

theorem L9_main_arg15 (c : Dev nD) : W9 m ρ c (Proc.devRef .tc main_arg15) = (kargs m c).a15 := by
  show StableHlo.after (hostOps4 (F := Ideal)) (W8 m ρ c) (Proc.devRef .tc main_arg15) = _
  after_results
  exact L8_main_arg15 m ρ c

theorem L9_main_arg16 (c : Dev nD) : W9 m ρ c (Proc.devRef .tc main_arg16) = (kargs m c).a16 := by
  show StableHlo.after (hostOps4 (F := Ideal)) (W8 m ρ c) (Proc.devRef .tc main_arg16) = _
  after_results
  exact L8_main_arg16 m ρ c

theorem L9_main_v1 (c : Dev nD) : W9 m ρ c (Proc.devRef .tc main_v1) = src (kargs m c) := by
  show StableHlo.after (hostOps4 (F := Ideal)) (W8 m ρ c) (Proc.devRef .tc main_v1) = _
  after_results
  exact L8_main_v1 m ρ c

theorem L9_main_v3 (c : Dev nD) : W9 m ρ c (Proc.devRef .tc main_v3) = dst (kargs m c) := by
  show StableHlo.after (hostOps4 (F := Ideal)) (W8 m ρ c) (Proc.devRef .tc main_v3) = _
  after_results
  exact L8_main_v3 m ρ c

theorem L9_main_v4 (c : Dev nD) : W9 m ρ c (Proc.devRef .tc main_v4) = zerosB128 := by
  show StableHlo.after (hostOps4 (F := Ideal)) (W8 m ρ c) (Proc.devRef .tc main_v4) = _
  after_results
  exact L8_main_v4 m ρ c

theorem L9_main_v5 (c : Dev nD) : W9 m ρ c (Proc.devRef .tc main_v5) = XIN_0 (kargs m c) := by
  show StableHlo.after (hostOps4 (F := Ideal)) (W8 m ρ c) (Proc.devRef .tc main_v5) = _
  after_results
  exact L8_main_v5 m ρ c

theorem L9_main_v28 (c : Dev nD) : W9 m ρ c (Proc.devRef .tc main_v28) = R_0 (kargs m c) := by
  show StableHlo.after (hostOps4 (F := Ideal)) (W8 m ρ c) (Proc.devRef .tc main_v28) = _
  after_results
  exact L8_main_v28 m ρ c

theorem L9_main_v35 (c : Dev nD) : W9 m ρ c (Proc.devRef .tc main_v35) = lin (XIN_0 (kargs m c)) (lapw_0 (kargs m c)) zerosB128 := by
  show StableHlo.after (hostOps4 (F := Ideal)) (W8 m ρ c) (Proc.devRef .tc main_v35) = _
  after_results
  exact L8_main_v35 m ρ c

theorem L9_main_v40 (c : Dev nD) : W9 m ρ c (Proc.devRef .tc main_v40) = linRelu (XIN_0 (kargs m c)) (dissw_0 (kargs m c)) (dissb_0 (kargs m c)) := by
  show StableHlo.after (hostOps4 (F := Ideal)) (W8 m ρ c) (Proc.devRef .tc main_v40) = _
  after_results
  exact L8_main_v40 m ρ c

theorem L9_main_v32 (c : Dev nD) : W9 m ρ c (Proc.devRef .tc main_v32) = zerosN128 := by
  show StableHlo.after (hostOps4 (F := Ideal)) (W8 m ρ c) (Proc.devRef .tc main_v32) = _
  after_results
  exact L8_main_v32 m ρ c

theorem L9_main_v31 (c : Dev nD) : W9 m ρ c (Proc.devRef .tc main_v31) = D_0 (kargs m c) := by
  show StableHlo.after (hostOps4 (F := Ideal)) (W8 m ρ c) (Proc.devRef .tc main_v31) = _
  after_results
  exact L8_main_v31 m ρ c

set_option maxHeartbeats 2000000 in
theorem L9_main_v52 (c : Dev nD) : W9 m ρ c (Proc.devRef .tc main_v52) = scatOf (lin (XIN_0 (kargs m c)) (lapw_0 (kargs m c)) zerosB128) (R_0 (kargs m c)) (src (kargs m c)) (dst (kargs m c)) := by
  show StableHlo.after (hostOps4 (F := Ideal)) (W8 m ρ c) (Proc.devRef .tc main_v52) = _
  after_results_simp
  rw [L8_main_v3 m ρ c, L8_main_v35 m ρ c, L8_main_v1 m ρ c, L8_main_v28 m ρ c]
  rfl

theorem L10_main_arg4 (c : Dev nD) : W10 m ρ c (Proc.devRef .tc main_arg4) = (kargs m c).a4 :=
  (W10_of_ne m ρ c main_arg4 (by decide)).trans (L9_main_arg4 m ρ c)

theorem L10_main_arg5 (c : Dev nD) : W10 m ρ c (Proc.devRef .tc main_arg5) = (kargs m c).a5 :=
  (W10_of_ne m ρ c main_arg5 (by decide)).trans (L9_main_arg5 m ρ c)

theorem L10_main_arg6 (c : Dev nD) : W10 m ρ c (Proc.devRef .tc main_arg6) = (kargs m c).a6 :=
  (W10_of_ne m ρ c main_arg6 (by decide)).trans (L9_main_arg6 m ρ c)

theorem L10_main_arg7 (c : Dev nD) : W10 m ρ c (Proc.devRef .tc main_arg7) = (kargs m c).a7 :=
  (W10_of_ne m ρ c main_arg7 (by decide)).trans (L9_main_arg7 m ρ c)

theorem L10_main_arg8 (c : Dev nD) : W10 m ρ c (Proc.devRef .tc main_arg8) = (kargs m c).a8 :=
  (W10_of_ne m ρ c main_arg8 (by decide)).trans (L9_main_arg8 m ρ c)

theorem L10_main_arg9 (c : Dev nD) : W10 m ρ c (Proc.devRef .tc main_arg9) = (kargs m c).a9 :=
  (W10_of_ne m ρ c main_arg9 (by decide)).trans (L9_main_arg9 m ρ c)

theorem L10_main_arg10 (c : Dev nD) : W10 m ρ c (Proc.devRef .tc main_arg10) = (kargs m c).a10 :=
  (W10_of_ne m ρ c main_arg10 (by decide)).trans (L9_main_arg10 m ρ c)

theorem L10_main_arg11 (c : Dev nD) : W10 m ρ c (Proc.devRef .tc main_arg11) = (kargs m c).a11 :=
  (W10_of_ne m ρ c main_arg11 (by decide)).trans (L9_main_arg11 m ρ c)

theorem L10_main_arg12 (c : Dev nD) : W10 m ρ c (Proc.devRef .tc main_arg12) = (kargs m c).a12 :=
  (W10_of_ne m ρ c main_arg12 (by decide)).trans (L9_main_arg12 m ρ c)

theorem L10_main_arg13 (c : Dev nD) : W10 m ρ c (Proc.devRef .tc main_arg13) = (kargs m c).a13 :=
  (W10_of_ne m ρ c main_arg13 (by decide)).trans (L9_main_arg13 m ρ c)

theorem L10_main_arg14 (c : Dev nD) : W10 m ρ c (Proc.devRef .tc main_arg14) = (kargs m c).a14 :=
  (W10_of_ne m ρ c main_arg14 (by decide)).trans (L9_main_arg14 m ρ c)

theorem L10_main_arg15 (c : Dev nD) : W10 m ρ c (Proc.devRef .tc main_arg15) = (kargs m c).a15 :=
  (W10_of_ne m ρ c main_arg15 (by decide)).trans (L9_main_arg15 m ρ c)

theorem L10_main_arg16 (c : Dev nD) : W10 m ρ c (Proc.devRef .tc main_arg16) = (kargs m c).a16 :=
  (W10_of_ne m ρ c main_arg16 (by decide)).trans (L9_main_arg16 m ρ c)

theorem L10_main_v1 (c : Dev nD) : W10 m ρ c (Proc.devRef .tc main_v1) = src (kargs m c) :=
  (W10_of_ne m ρ c main_v1 (by decide)).trans (L9_main_v1 m ρ c)

theorem L10_main_v3 (c : Dev nD) : W10 m ρ c (Proc.devRef .tc main_v3) = dst (kargs m c) :=
  (W10_of_ne m ρ c main_v3 (by decide)).trans (L9_main_v3 m ρ c)

theorem L10_main_v4 (c : Dev nD) : W10 m ρ c (Proc.devRef .tc main_v4) = zerosB128 :=
  (W10_of_ne m ρ c main_v4 (by decide)).trans (L9_main_v4 m ρ c)

theorem L10_main_v28 (c : Dev nD) : W10 m ρ c (Proc.devRef .tc main_v28) = R_0 (kargs m c) :=
  (W10_of_ne m ρ c main_v28 (by decide)).trans (L9_main_v28 m ρ c)

theorem L10_main_v31 (c : Dev nD) : W10 m ρ c (Proc.devRef .tc main_v31) = D_0 (kargs m c) :=
  ((W10_arr m ρ c 4).trans (((dat4 (V9 m ρ) c).arrAt_in 4 rfl _).trans (A_eq4 (V9 m ρ) c 4))).trans (L9_main_v31 m ρ c)

theorem L10_main_v53_0 (c : Dev nD) : W10 m ρ c (Proc.devRef .tc main_v53_0) = X1_0 (kargs m c) :=
  (W10_arr m ρ c 6).trans ((Cert.Node.final4_x (V9 m ρ) c).trans (by
    rw [show V9 m ρ c main_v5 = _ from L9_main_v5 m ρ c,
      show V9 m ρ c main_v32 = _ from L9_main_v32 m ρ c,
      show V9 m ρ c main_v35 = _ from L9_main_v35 m ρ c,
      show V9 m ρ c main_v40 = _ from L9_main_v40 m ρ c,
      show V9 m ρ c main_v31 = _ from L9_main_v31 m ρ c,
      show V9 m ρ c main_v52 = _ from L9_main_v52 m ρ c]
    all_goals rfl))

theorem L10_main_v53_1 (c : Dev nD) : W10 m ρ c (Proc.devRef .tc main_v53_1) = V1_0 (kargs m c) :=
  (W10_arr m ρ c 7).trans ((Cert.Node.final4_v (V9 m ρ) c).trans (by
    rw [show V9 m ρ c main_v32 = _ from L9_main_v32 m ρ c,
      show V9 m ρ c main_v35 = _ from L9_main_v35 m ρ c,
      show V9 m ρ c main_v40 = _ from L9_main_v40 m ρ c,
      show V9 m ρ c main_v31 = _ from L9_main_v31 m ρ c,
      show V9 m ρ c main_v52 = _ from L9_main_v52 m ρ c]
    all_goals rfl))

theorem L11_main_arg4 (c : Dev nD) : W11 m ρ c (Proc.devRef .tc main_arg4) = (kargs m c).a4 := by
  show StableHlo.after (hostOps5 (F := Ideal)) (W10 m ρ c) (Proc.devRef .tc main_arg4) = _
  after_results
  exact L10_main_arg4 m ρ c

theorem L11_main_arg5 (c : Dev nD) : W11 m ρ c (Proc.devRef .tc main_arg5) = (kargs m c).a5 := by
  show StableHlo.after (hostOps5 (F := Ideal)) (W10 m ρ c) (Proc.devRef .tc main_arg5) = _
  after_results
  exact L10_main_arg5 m ρ c

theorem L11_main_arg6 (c : Dev nD) : W11 m ρ c (Proc.devRef .tc main_arg6) = (kargs m c).a6 := by
  show StableHlo.after (hostOps5 (F := Ideal)) (W10 m ρ c) (Proc.devRef .tc main_arg6) = _
  after_results
  exact L10_main_arg6 m ρ c

theorem L11_main_arg7 (c : Dev nD) : W11 m ρ c (Proc.devRef .tc main_arg7) = (kargs m c).a7 := by
  show StableHlo.after (hostOps5 (F := Ideal)) (W10 m ρ c) (Proc.devRef .tc main_arg7) = _
  after_results
  exact L10_main_arg7 m ρ c

theorem L11_main_arg8 (c : Dev nD) : W11 m ρ c (Proc.devRef .tc main_arg8) = (kargs m c).a8 := by
  show StableHlo.after (hostOps5 (F := Ideal)) (W10 m ρ c) (Proc.devRef .tc main_arg8) = _
  after_results
  exact L10_main_arg8 m ρ c

theorem L11_main_arg9 (c : Dev nD) : W11 m ρ c (Proc.devRef .tc main_arg9) = (kargs m c).a9 := by
  show StableHlo.after (hostOps5 (F := Ideal)) (W10 m ρ c) (Proc.devRef .tc main_arg9) = _
  after_results
  exact L10_main_arg9 m ρ c

theorem L11_main_arg10 (c : Dev nD) : W11 m ρ c (Proc.devRef .tc main_arg10) = (kargs m c).a10 := by
  show StableHlo.after (hostOps5 (F := Ideal)) (W10 m ρ c) (Proc.devRef .tc main_arg10) = _
  after_results
  exact L10_main_arg10 m ρ c

theorem L11_main_arg11 (c : Dev nD) : W11 m ρ c (Proc.devRef .tc main_arg11) = (kargs m c).a11 := by
  show StableHlo.after (hostOps5 (F := Ideal)) (W10 m ρ c) (Proc.devRef .tc main_arg11) = _
  after_results
  exact L10_main_arg11 m ρ c

theorem L11_main_arg12 (c : Dev nD) : W11 m ρ c (Proc.devRef .tc main_arg12) = (kargs m c).a12 := by
  show StableHlo.after (hostOps5 (F := Ideal)) (W10 m ρ c) (Proc.devRef .tc main_arg12) = _
  after_results
  exact L10_main_arg12 m ρ c

theorem L11_main_arg13 (c : Dev nD) : W11 m ρ c (Proc.devRef .tc main_arg13) = (kargs m c).a13 := by
  show StableHlo.after (hostOps5 (F := Ideal)) (W10 m ρ c) (Proc.devRef .tc main_arg13) = _
  after_results
  exact L10_main_arg13 m ρ c

theorem L11_main_arg14 (c : Dev nD) : W11 m ρ c (Proc.devRef .tc main_arg14) = (kargs m c).a14 := by
  show StableHlo.after (hostOps5 (F := Ideal)) (W10 m ρ c) (Proc.devRef .tc main_arg14) = _
  after_results
  exact L10_main_arg14 m ρ c

theorem L11_main_arg15 (c : Dev nD) : W11 m ρ c (Proc.devRef .tc main_arg15) = (kargs m c).a15 := by
  show StableHlo.after (hostOps5 (F := Ideal)) (W10 m ρ c) (Proc.devRef .tc main_arg15) = _
  after_results
  exact L10_main_arg15 m ρ c

theorem L11_main_arg16 (c : Dev nD) : W11 m ρ c (Proc.devRef .tc main_arg16) = (kargs m c).a16 := by
  show StableHlo.after (hostOps5 (F := Ideal)) (W10 m ρ c) (Proc.devRef .tc main_arg16) = _
  after_results
  exact L10_main_arg16 m ρ c

theorem L11_main_v1 (c : Dev nD) : W11 m ρ c (Proc.devRef .tc main_v1) = src (kargs m c) := by
  show StableHlo.after (hostOps5 (F := Ideal)) (W10 m ρ c) (Proc.devRef .tc main_v1) = _
  after_results
  exact L10_main_v1 m ρ c

theorem L11_main_v3 (c : Dev nD) : W11 m ρ c (Proc.devRef .tc main_v3) = dst (kargs m c) := by
  show StableHlo.after (hostOps5 (F := Ideal)) (W10 m ρ c) (Proc.devRef .tc main_v3) = _
  after_results
  exact L10_main_v3 m ρ c

theorem L11_main_v4 (c : Dev nD) : W11 m ρ c (Proc.devRef .tc main_v4) = zerosB128 := by
  show StableHlo.after (hostOps5 (F := Ideal)) (W10 m ρ c) (Proc.devRef .tc main_v4) = _
  after_results
  exact L10_main_v4 m ρ c

theorem L11_main_v28 (c : Dev nD) : W11 m ρ c (Proc.devRef .tc main_v28) = R_0 (kargs m c) := by
  show StableHlo.after (hostOps5 (F := Ideal)) (W10 m ρ c) (Proc.devRef .tc main_v28) = _
  after_results
  exact L10_main_v28 m ρ c

theorem L11_main_v31 (c : Dev nD) : W11 m ρ c (Proc.devRef .tc main_v31) = D_0 (kargs m c) := by
  show StableHlo.after (hostOps5 (F := Ideal)) (W10 m ρ c) (Proc.devRef .tc main_v31) = _
  after_results
  exact L10_main_v31 m ρ c

theorem L11_main_v53_0 (c : Dev nD) : W11 m ρ c (Proc.devRef .tc main_v53_0) = X1_0 (kargs m c) := by
  show StableHlo.after (hostOps5 (F := Ideal)) (W10 m ρ c) (Proc.devRef .tc main_v53_0) = _
  after_results
  exact L10_main_v53_0 m ρ c

theorem L11_main_v53_1 (c : Dev nD) : W11 m ρ c (Proc.devRef .tc main_v53_1) = V1_0 (kargs m c) := by
  show StableHlo.after (hostOps5 (F := Ideal)) (W10 m ρ c) (Proc.devRef .tc main_v53_1) = _
  after_results
  exact L10_main_v53_1 m ρ c

set_option maxHeartbeats 2000000 in
theorem L11_main_v55 (c : Dev nD) : W11 m ρ c (Proc.devRef .tc main_v55) = lapw_0 (kargs m c) := by
  show StableHlo.after (hostOps5 (F := Ideal)) (W10 m ρ c) (Proc.devRef .tc main_v55) = _
  after_results_simp
  rw [L10_main_arg4 m ρ c]
  rfl

theorem L12_main_arg4 (c : Dev nD) : W12 m ρ c (Proc.devRef .tc main_arg4) = (kargs m c).a4 :=
  (W12_of_ne m ρ c main_arg4 (by decide)).trans (L11_main_arg4 m ρ c)

theorem L12_main_arg5 (c : Dev nD) : W12 m ρ c (Proc.devRef .tc main_arg5) = (kargs m c).a5 :=
  (W12_of_ne m ρ c main_arg5 (by decide)).trans (L11_main_arg5 m ρ c)

theorem L12_main_arg6 (c : Dev nD) : W12 m ρ c (Proc.devRef .tc main_arg6) = (kargs m c).a6 :=
  (W12_of_ne m ρ c main_arg6 (by decide)).trans (L11_main_arg6 m ρ c)

theorem L12_main_arg7 (c : Dev nD) : W12 m ρ c (Proc.devRef .tc main_arg7) = (kargs m c).a7 :=
  (W12_of_ne m ρ c main_arg7 (by decide)).trans (L11_main_arg7 m ρ c)

theorem L12_main_arg8 (c : Dev nD) : W12 m ρ c (Proc.devRef .tc main_arg8) = (kargs m c).a8 :=
  (W12_of_ne m ρ c main_arg8 (by decide)).trans (L11_main_arg8 m ρ c)

theorem L12_main_arg9 (c : Dev nD) : W12 m ρ c (Proc.devRef .tc main_arg9) = (kargs m c).a9 :=
  (W12_of_ne m ρ c main_arg9 (by decide)).trans (L11_main_arg9 m ρ c)

theorem L12_main_arg10 (c : Dev nD) : W12 m ρ c (Proc.devRef .tc main_arg10) = (kargs m c).a10 :=
  (W12_of_ne m ρ c main_arg10 (by decide)).trans (L11_main_arg10 m ρ c)

theorem L12_main_arg11 (c : Dev nD) : W12 m ρ c (Proc.devRef .tc main_arg11) = (kargs m c).a11 :=
  (W12_of_ne m ρ c main_arg11 (by decide)).trans (L11_main_arg11 m ρ c)

theorem L12_main_arg12 (c : Dev nD) : W12 m ρ c (Proc.devRef .tc main_arg12) = (kargs m c).a12 :=
  (W12_of_ne m ρ c main_arg12 (by decide)).trans (L11_main_arg12 m ρ c)

theorem L12_main_arg13 (c : Dev nD) : W12 m ρ c (Proc.devRef .tc main_arg13) = (kargs m c).a13 :=
  (W12_of_ne m ρ c main_arg13 (by decide)).trans (L11_main_arg13 m ρ c)

theorem L12_main_arg14 (c : Dev nD) : W12 m ρ c (Proc.devRef .tc main_arg14) = (kargs m c).a14 :=
  (W12_of_ne m ρ c main_arg14 (by decide)).trans (L11_main_arg14 m ρ c)

theorem L12_main_arg15 (c : Dev nD) : W12 m ρ c (Proc.devRef .tc main_arg15) = (kargs m c).a15 :=
  (W12_of_ne m ρ c main_arg15 (by decide)).trans (L11_main_arg15 m ρ c)

theorem L12_main_arg16 (c : Dev nD) : W12 m ρ c (Proc.devRef .tc main_arg16) = (kargs m c).a16 :=
  (W12_of_ne m ρ c main_arg16 (by decide)).trans (L11_main_arg16 m ρ c)

theorem L12_main_v1 (c : Dev nD) : W12 m ρ c (Proc.devRef .tc main_v1) = src (kargs m c) :=
  (W12_of_ne m ρ c main_v1 (by decide)).trans (L11_main_v1 m ρ c)

theorem L12_main_v3 (c : Dev nD) : W12 m ρ c (Proc.devRef .tc main_v3) = dst (kargs m c) :=
  (W12_of_ne m ρ c main_v3 (by decide)).trans (L11_main_v3 m ρ c)

theorem L12_main_v4 (c : Dev nD) : W12 m ρ c (Proc.devRef .tc main_v4) = zerosB128 :=
  ((W12_arr m ρ c 2).trans (((dat5 (V11 m ρ) c).arrAt_in 2 rfl _).trans (A_eq5 (V11 m ρ) c 2))).trans (L11_main_v4 m ρ c)

theorem L12_main_v28 (c : Dev nD) : W12 m ρ c (Proc.devRef .tc main_v28) = R_0 (kargs m c) :=
  (W12_of_ne m ρ c main_v28 (by decide)).trans (L11_main_v28 m ρ c)

theorem L12_main_v31 (c : Dev nD) : W12 m ρ c (Proc.devRef .tc main_v31) = D_0 (kargs m c) :=
  (W12_of_ne m ρ c main_v31 (by decide)).trans (L11_main_v31 m ρ c)

theorem L12_main_v53_0 (c : Dev nD) : W12 m ρ c (Proc.devRef .tc main_v53_0) = X1_0 (kargs m c) :=
  ((W12_arr m ρ c 0).trans (((dat5 (V11 m ρ) c).arrAt_in 0 rfl _).trans (A_eq5 (V11 m ρ) c 0))).trans (L11_main_v53_0 m ρ c)

theorem L12_main_v53_1 (c : Dev nD) : W12 m ρ c (Proc.devRef .tc main_v53_1) = V1_0 (kargs m c) :=
  (W12_of_ne m ρ c main_v53_1 (by decide)).trans (L11_main_v53_1 m ρ c)

theorem L12_main_v56 (c : Dev nD) : W12 m ρ c (Proc.devRef .tc main_v56) = lin (X1_0 (kargs m c)) (lapw_0 (kargs m c)) zerosB128 :=
  (W12_arr m ρ c 3).trans ((Cert.Lin.final5 (V11 m ρ) c).trans (by
    rw [show V11 m ρ c main_v53_0 = _ from L11_main_v53_0 m ρ c,
      show V11 m ρ c main_v55 = _ from L11_main_v55 m ρ c,
      show V11 m ρ c main_v4 = _ from L11_main_v4 m ρ c]
    all_goals rfl))

theorem L13_main_arg4 (c : Dev nD) : W13 m ρ c (Proc.devRef .tc main_arg4) = (kargs m c).a4 := by
  show StableHlo.after (hostOps6 (F := Ideal)) (W12 m ρ c) (Proc.devRef .tc main_arg4) = _
  after_results
  exact L12_main_arg4 m ρ c

theorem L13_main_arg5 (c : Dev nD) : W13 m ρ c (Proc.devRef .tc main_arg5) = (kargs m c).a5 := by
  show StableHlo.after (hostOps6 (F := Ideal)) (W12 m ρ c) (Proc.devRef .tc main_arg5) = _
  after_results
  exact L12_main_arg5 m ρ c

theorem L13_main_arg6 (c : Dev nD) : W13 m ρ c (Proc.devRef .tc main_arg6) = (kargs m c).a6 := by
  show StableHlo.after (hostOps6 (F := Ideal)) (W12 m ρ c) (Proc.devRef .tc main_arg6) = _
  after_results
  exact L12_main_arg6 m ρ c

theorem L13_main_arg7 (c : Dev nD) : W13 m ρ c (Proc.devRef .tc main_arg7) = (kargs m c).a7 := by
  show StableHlo.after (hostOps6 (F := Ideal)) (W12 m ρ c) (Proc.devRef .tc main_arg7) = _
  after_results
  exact L12_main_arg7 m ρ c

theorem L13_main_arg8 (c : Dev nD) : W13 m ρ c (Proc.devRef .tc main_arg8) = (kargs m c).a8 := by
  show StableHlo.after (hostOps6 (F := Ideal)) (W12 m ρ c) (Proc.devRef .tc main_arg8) = _
  after_results
  exact L12_main_arg8 m ρ c

theorem L13_main_arg9 (c : Dev nD) : W13 m ρ c (Proc.devRef .tc main_arg9) = (kargs m c).a9 := by
  show StableHlo.after (hostOps6 (F := Ideal)) (W12 m ρ c) (Proc.devRef .tc main_arg9) = _
  after_results
  exact L12_main_arg9 m ρ c

theorem L13_main_arg10 (c : Dev nD) : W13 m ρ c (Proc.devRef .tc main_arg10) = (kargs m c).a10 := by
  show StableHlo.after (hostOps6 (F := Ideal)) (W12 m ρ c) (Proc.devRef .tc main_arg10) = _
  after_results
  exact L12_main_arg10 m ρ c

theorem L13_main_arg11 (c : Dev nD) : W13 m ρ c (Proc.devRef .tc main_arg11) = (kargs m c).a11 := by
  show StableHlo.after (hostOps6 (F := Ideal)) (W12 m ρ c) (Proc.devRef .tc main_arg11) = _
  after_results
  exact L12_main_arg11 m ρ c

theorem L13_main_arg12 (c : Dev nD) : W13 m ρ c (Proc.devRef .tc main_arg12) = (kargs m c).a12 := by
  show StableHlo.after (hostOps6 (F := Ideal)) (W12 m ρ c) (Proc.devRef .tc main_arg12) = _
  after_results
  exact L12_main_arg12 m ρ c

theorem L13_main_arg13 (c : Dev nD) : W13 m ρ c (Proc.devRef .tc main_arg13) = (kargs m c).a13 := by
  show StableHlo.after (hostOps6 (F := Ideal)) (W12 m ρ c) (Proc.devRef .tc main_arg13) = _
  after_results
  exact L12_main_arg13 m ρ c

theorem L13_main_arg14 (c : Dev nD) : W13 m ρ c (Proc.devRef .tc main_arg14) = (kargs m c).a14 := by
  show StableHlo.after (hostOps6 (F := Ideal)) (W12 m ρ c) (Proc.devRef .tc main_arg14) = _
  after_results
  exact L12_main_arg14 m ρ c

theorem L13_main_arg15 (c : Dev nD) : W13 m ρ c (Proc.devRef .tc main_arg15) = (kargs m c).a15 := by
  show StableHlo.after (hostOps6 (F := Ideal)) (W12 m ρ c) (Proc.devRef .tc main_arg15) = _
  after_results
  exact L12_main_arg15 m ρ c

theorem L13_main_arg16 (c : Dev nD) : W13 m ρ c (Proc.devRef .tc main_arg16) = (kargs m c).a16 := by
  show StableHlo.after (hostOps6 (F := Ideal)) (W12 m ρ c) (Proc.devRef .tc main_arg16) = _
  after_results
  exact L12_main_arg16 m ρ c

theorem L13_main_v1 (c : Dev nD) : W13 m ρ c (Proc.devRef .tc main_v1) = src (kargs m c) := by
  show StableHlo.after (hostOps6 (F := Ideal)) (W12 m ρ c) (Proc.devRef .tc main_v1) = _
  after_results
  exact L12_main_v1 m ρ c

theorem L13_main_v3 (c : Dev nD) : W13 m ρ c (Proc.devRef .tc main_v3) = dst (kargs m c) := by
  show StableHlo.after (hostOps6 (F := Ideal)) (W12 m ρ c) (Proc.devRef .tc main_v3) = _
  after_results
  exact L12_main_v3 m ρ c

theorem L13_main_v4 (c : Dev nD) : W13 m ρ c (Proc.devRef .tc main_v4) = zerosB128 := by
  show StableHlo.after (hostOps6 (F := Ideal)) (W12 m ρ c) (Proc.devRef .tc main_v4) = _
  after_results
  exact L12_main_v4 m ρ c

theorem L13_main_v28 (c : Dev nD) : W13 m ρ c (Proc.devRef .tc main_v28) = R_0 (kargs m c) := by
  show StableHlo.after (hostOps6 (F := Ideal)) (W12 m ρ c) (Proc.devRef .tc main_v28) = _
  after_results
  exact L12_main_v28 m ρ c

theorem L13_main_v31 (c : Dev nD) : W13 m ρ c (Proc.devRef .tc main_v31) = D_0 (kargs m c) := by
  show StableHlo.after (hostOps6 (F := Ideal)) (W12 m ρ c) (Proc.devRef .tc main_v31) = _
  after_results
  exact L12_main_v31 m ρ c

theorem L13_main_v53_0 (c : Dev nD) : W13 m ρ c (Proc.devRef .tc main_v53_0) = X1_0 (kargs m c) := by
  show StableHlo.after (hostOps6 (F := Ideal)) (W12 m ρ c) (Proc.devRef .tc main_v53_0) = _
  after_results
  exact L12_main_v53_0 m ρ c

theorem L13_main_v53_1 (c : Dev nD) : W13 m ρ c (Proc.devRef .tc main_v53_1) = V1_0 (kargs m c) := by
  show StableHlo.after (hostOps6 (F := Ideal)) (W12 m ρ c) (Proc.devRef .tc main_v53_1) = _
  after_results
  exact L12_main_v53_1 m ρ c

theorem L13_main_v56 (c : Dev nD) : W13 m ρ c (Proc.devRef .tc main_v56) = lin (X1_0 (kargs m c)) (lapw_0 (kargs m c)) zerosB128 := by
  show StableHlo.after (hostOps6 (F := Ideal)) (W12 m ρ c) (Proc.devRef .tc main_v56) = _
  after_results
  exact L12_main_v56 m ρ c

set_option maxHeartbeats 2000000 in
theorem L13_main_v58 (c : Dev nD) : W13 m ρ c (Proc.devRef .tc main_v58) = dissw_0 (kargs m c) := by
  show StableHlo.after (hostOps6 (F := Ideal)) (W12 m ρ c) (Proc.devRef .tc main_v58) = _
  after_results_simp
  rw [L12_main_arg9 m ρ c]
  rfl

set_option maxHeartbeats 2000000 in
theorem L13_main_v60 (c : Dev nD) : W13 m ρ c (Proc.devRef .tc main_v60) = dissb_0 (kargs m c) := by
  show StableHlo.after (hostOps6 (F := Ideal)) (W12 m ρ c) (Proc.devRef .tc main_v60) = _
  after_results_simp
  rw [L12_main_arg10 m ρ c]
  rfl

theorem L14_main_arg4 (c : Dev nD) : W14 m ρ c (Proc.devRef .tc main_arg4) = (kargs m c).a4 :=
  (W14_of_ne m ρ c main_arg4 (by decide)).trans (L13_main_arg4 m ρ c)

theorem L14_main_arg5 (c : Dev nD) : W14 m ρ c (Proc.devRef .tc main_arg5) = (kargs m c).a5 :=
  (W14_of_ne m ρ c main_arg5 (by decide)).trans (L13_main_arg5 m ρ c)

theorem L14_main_arg6 (c : Dev nD) : W14 m ρ c (Proc.devRef .tc main_arg6) = (kargs m c).a6 :=
  (W14_of_ne m ρ c main_arg6 (by decide)).trans (L13_main_arg6 m ρ c)

theorem L14_main_arg7 (c : Dev nD) : W14 m ρ c (Proc.devRef .tc main_arg7) = (kargs m c).a7 :=
  (W14_of_ne m ρ c main_arg7 (by decide)).trans (L13_main_arg7 m ρ c)

theorem L14_main_arg8 (c : Dev nD) : W14 m ρ c (Proc.devRef .tc main_arg8) = (kargs m c).a8 :=
  (W14_of_ne m ρ c main_arg8 (by decide)).trans (L13_main_arg8 m ρ c)

theorem L14_main_arg9 (c : Dev nD) : W14 m ρ c (Proc.devRef .tc main_arg9) = (kargs m c).a9 :=
  (W14_of_ne m ρ c main_arg9 (by decide)).trans (L13_main_arg9 m ρ c)

theorem L14_main_arg10 (c : Dev nD) : W14 m ρ c (Proc.devRef .tc main_arg10) = (kargs m c).a10 :=
  (W14_of_ne m ρ c main_arg10 (by decide)).trans (L13_main_arg10 m ρ c)

theorem L14_main_arg11 (c : Dev nD) : W14 m ρ c (Proc.devRef .tc main_arg11) = (kargs m c).a11 :=
  (W14_of_ne m ρ c main_arg11 (by decide)).trans (L13_main_arg11 m ρ c)

theorem L14_main_arg12 (c : Dev nD) : W14 m ρ c (Proc.devRef .tc main_arg12) = (kargs m c).a12 :=
  (W14_of_ne m ρ c main_arg12 (by decide)).trans (L13_main_arg12 m ρ c)

theorem L14_main_arg13 (c : Dev nD) : W14 m ρ c (Proc.devRef .tc main_arg13) = (kargs m c).a13 :=
  (W14_of_ne m ρ c main_arg13 (by decide)).trans (L13_main_arg13 m ρ c)

theorem L14_main_arg14 (c : Dev nD) : W14 m ρ c (Proc.devRef .tc main_arg14) = (kargs m c).a14 :=
  (W14_of_ne m ρ c main_arg14 (by decide)).trans (L13_main_arg14 m ρ c)

theorem L14_main_arg15 (c : Dev nD) : W14 m ρ c (Proc.devRef .tc main_arg15) = (kargs m c).a15 :=
  (W14_of_ne m ρ c main_arg15 (by decide)).trans (L13_main_arg15 m ρ c)

theorem L14_main_arg16 (c : Dev nD) : W14 m ρ c (Proc.devRef .tc main_arg16) = (kargs m c).a16 :=
  (W14_of_ne m ρ c main_arg16 (by decide)).trans (L13_main_arg16 m ρ c)

theorem L14_main_v1 (c : Dev nD) : W14 m ρ c (Proc.devRef .tc main_v1) = src (kargs m c) :=
  (W14_of_ne m ρ c main_v1 (by decide)).trans (L13_main_v1 m ρ c)

theorem L14_main_v3 (c : Dev nD) : W14 m ρ c (Proc.devRef .tc main_v3) = dst (kargs m c) :=
  (W14_of_ne m ρ c main_v3 (by decide)).trans (L13_main_v3 m ρ c)

theorem L14_main_v4 (c : Dev nD) : W14 m ρ c (Proc.devRef .tc main_v4) = zerosB128 :=
  (W14_of_ne m ρ c main_v4 (by decide)).trans (L13_main_v4 m ρ c)

theorem L14_main_v28 (c : Dev nD) : W14 m ρ c (Proc.devRef .tc main_v28) = R_0 (kargs m c) :=
  (W14_of_ne m ρ c main_v28 (by decide)).trans (L13_main_v28 m ρ c)

theorem L14_main_v31 (c : Dev nD) : W14 m ρ c (Proc.devRef .tc main_v31) = D_0 (kargs m c) :=
  (W14_of_ne m ρ c main_v31 (by decide)).trans (L13_main_v31 m ρ c)

theorem L14_main_v53_0 (c : Dev nD) : W14 m ρ c (Proc.devRef .tc main_v53_0) = X1_0 (kargs m c) :=
  ((W14_arr m ρ c 0).trans (((dat6 (V13 m ρ) c).arrAt_in 0 rfl _).trans (A_eq6 (V13 m ρ) c 0))).trans (L13_main_v53_0 m ρ c)

theorem L14_main_v53_1 (c : Dev nD) : W14 m ρ c (Proc.devRef .tc main_v53_1) = V1_0 (kargs m c) :=
  (W14_of_ne m ρ c main_v53_1 (by decide)).trans (L13_main_v53_1 m ρ c)

theorem L14_main_v56 (c : Dev nD) : W14 m ρ c (Proc.devRef .tc main_v56) = lin (X1_0 (kargs m c)) (lapw_0 (kargs m c)) zerosB128 :=
  (W14_of_ne m ρ c main_v56 (by decide)).trans (L13_main_v56 m ρ c)

theorem L14_main_v61 (c : Dev nD) : W14 m ρ c (Proc.devRef .tc main_v61) = linRelu (X1_0 (kargs m c)) (dissw_0 (kargs m c)) (dissb_0 (kargs m c)) :=
  (W14_arr m ρ c 3).trans ((Cert.Lin.final6 (V13 m ρ) c).trans (by
    rw [show V13 m ρ c main_v53_0 = _ from L13_main_v53_0 m ρ c,
      show V13 m ρ c main_v58 = _ from L13_main_v58 m ρ c,
      show V13 m ρ c main_v60 = _ from L13_main_v60 m ρ c]
    all_goals rfl))

theorem L15_main_arg4 (c : Dev nD) : W15 m ρ c (Proc.devRef .tc main_arg4) = (kargs m c).a4 := by
  show StableHlo.after (hostOps7 (F := Ideal)) (W14 m ρ c) (Proc.devRef .tc main_arg4) = _
  after_results
  exact L14_main_arg4 m ρ c

theorem L15_main_arg5 (c : Dev nD) : W15 m ρ c (Proc.devRef .tc main_arg5) = (kargs m c).a5 := by
  show StableHlo.after (hostOps7 (F := Ideal)) (W14 m ρ c) (Proc.devRef .tc main_arg5) = _
  after_results
  exact L14_main_arg5 m ρ c

theorem L15_main_arg6 (c : Dev nD) : W15 m ρ c (Proc.devRef .tc main_arg6) = (kargs m c).a6 := by
  show StableHlo.after (hostOps7 (F := Ideal)) (W14 m ρ c) (Proc.devRef .tc main_arg6) = _
  after_results
  exact L14_main_arg6 m ρ c

theorem L15_main_arg7 (c : Dev nD) : W15 m ρ c (Proc.devRef .tc main_arg7) = (kargs m c).a7 := by
  show StableHlo.after (hostOps7 (F := Ideal)) (W14 m ρ c) (Proc.devRef .tc main_arg7) = _
  after_results
  exact L14_main_arg7 m ρ c

theorem L15_main_arg8 (c : Dev nD) : W15 m ρ c (Proc.devRef .tc main_arg8) = (kargs m c).a8 := by
  show StableHlo.after (hostOps7 (F := Ideal)) (W14 m ρ c) (Proc.devRef .tc main_arg8) = _
  after_results
  exact L14_main_arg8 m ρ c

theorem L15_main_arg9 (c : Dev nD) : W15 m ρ c (Proc.devRef .tc main_arg9) = (kargs m c).a9 := by
  show StableHlo.after (hostOps7 (F := Ideal)) (W14 m ρ c) (Proc.devRef .tc main_arg9) = _
  after_results
  exact L14_main_arg9 m ρ c

theorem L15_main_arg10 (c : Dev nD) : W15 m ρ c (Proc.devRef .tc main_arg10) = (kargs m c).a10 := by
  show StableHlo.after (hostOps7 (F := Ideal)) (W14 m ρ c) (Proc.devRef .tc main_arg10) = _
  after_results
  exact L14_main_arg10 m ρ c

theorem L15_main_arg11 (c : Dev nD) : W15 m ρ c (Proc.devRef .tc main_arg11) = (kargs m c).a11 := by
  show StableHlo.after (hostOps7 (F := Ideal)) (W14 m ρ c) (Proc.devRef .tc main_arg11) = _
  after_results
  exact L14_main_arg11 m ρ c

theorem L15_main_arg12 (c : Dev nD) : W15 m ρ c (Proc.devRef .tc main_arg12) = (kargs m c).a12 := by
  show StableHlo.after (hostOps7 (F := Ideal)) (W14 m ρ c) (Proc.devRef .tc main_arg12) = _
  after_results
  exact L14_main_arg12 m ρ c

theorem L15_main_arg13 (c : Dev nD) : W15 m ρ c (Proc.devRef .tc main_arg13) = (kargs m c).a13 := by
  show StableHlo.after (hostOps7 (F := Ideal)) (W14 m ρ c) (Proc.devRef .tc main_arg13) = _
  after_results
  exact L14_main_arg13 m ρ c

theorem L15_main_arg14 (c : Dev nD) : W15 m ρ c (Proc.devRef .tc main_arg14) = (kargs m c).a14 := by
  show StableHlo.after (hostOps7 (F := Ideal)) (W14 m ρ c) (Proc.devRef .tc main_arg14) = _
  after_results
  exact L14_main_arg14 m ρ c

theorem L15_main_arg15 (c : Dev nD) : W15 m ρ c (Proc.devRef .tc main_arg15) = (kargs m c).a15 := by
  show StableHlo.after (hostOps7 (F := Ideal)) (W14 m ρ c) (Proc.devRef .tc main_arg15) = _
  after_results
  exact L14_main_arg15 m ρ c

theorem L15_main_arg16 (c : Dev nD) : W15 m ρ c (Proc.devRef .tc main_arg16) = (kargs m c).a16 := by
  show StableHlo.after (hostOps7 (F := Ideal)) (W14 m ρ c) (Proc.devRef .tc main_arg16) = _
  after_results
  exact L14_main_arg16 m ρ c

theorem L15_main_v1 (c : Dev nD) : W15 m ρ c (Proc.devRef .tc main_v1) = src (kargs m c) := by
  show StableHlo.after (hostOps7 (F := Ideal)) (W14 m ρ c) (Proc.devRef .tc main_v1) = _
  after_results
  exact L14_main_v1 m ρ c

theorem L15_main_v3 (c : Dev nD) : W15 m ρ c (Proc.devRef .tc main_v3) = dst (kargs m c) := by
  show StableHlo.after (hostOps7 (F := Ideal)) (W14 m ρ c) (Proc.devRef .tc main_v3) = _
  after_results
  exact L14_main_v3 m ρ c

theorem L15_main_v4 (c : Dev nD) : W15 m ρ c (Proc.devRef .tc main_v4) = zerosB128 := by
  show StableHlo.after (hostOps7 (F := Ideal)) (W14 m ρ c) (Proc.devRef .tc main_v4) = _
  after_results
  exact L14_main_v4 m ρ c

theorem L15_main_v31 (c : Dev nD) : W15 m ρ c (Proc.devRef .tc main_v31) = D_0 (kargs m c) := by
  show StableHlo.after (hostOps7 (F := Ideal)) (W14 m ρ c) (Proc.devRef .tc main_v31) = _
  after_results
  exact L14_main_v31 m ρ c

theorem L15_main_v53_0 (c : Dev nD) : W15 m ρ c (Proc.devRef .tc main_v53_0) = X1_0 (kargs m c) := by
  show StableHlo.after (hostOps7 (F := Ideal)) (W14 m ρ c) (Proc.devRef .tc main_v53_0) = _
  after_results
  exact L14_main_v53_0 m ρ c

theorem L15_main_v53_1 (c : Dev nD) : W15 m ρ c (Proc.devRef .tc main_v53_1) = V1_0 (kargs m c) := by
  show StableHlo.after (hostOps7 (F := Ideal)) (W14 m ρ c) (Proc.devRef .tc main_v53_1) = _
  after_results
  exact L14_main_v53_1 m ρ c

theorem L15_main_v56 (c : Dev nD) : W15 m ρ c (Proc.devRef .tc main_v56) = lin (X1_0 (kargs m c)) (lapw_0 (kargs m c)) zerosB128 := by
  show StableHlo.after (hostOps7 (F := Ideal)) (W14 m ρ c) (Proc.devRef .tc main_v56) = _
  after_results
  exact L14_main_v56 m ρ c

theorem L15_main_v61 (c : Dev nD) : W15 m ρ c (Proc.devRef .tc main_v61) = linRelu (X1_0 (kargs m c)) (dissw_0 (kargs m c)) (dissb_0 (kargs m c)) := by
  show StableHlo.after (hostOps7 (F := Ideal)) (W14 m ρ c) (Proc.devRef .tc main_v61) = _
  after_results
  exact L14_main_v61 m ρ c

set_option maxHeartbeats 2000000 in
theorem L15_main_v73 (c : Dev nD) : W15 m ρ c (Proc.devRef .tc main_v73) = scatOf (lin (X1_0 (kargs m c)) (lapw_0 (kargs m c)) zerosB128) (R_0 (kargs m c)) (src (kargs m c)) (dst (kargs m c)) := by
  show StableHlo.after (hostOps7 (F := Ideal)) (W14 m ρ c) (Proc.devRef .tc main_v73) = _
  after_results_simp
  rw [L14_main_v3 m ρ c, L14_main_v56 m ρ c, L14_main_v1 m ρ c, L14_main_v28 m ρ c]
  rfl

theorem L16_main_arg4 (c : Dev nD) : W16 m ρ c (Proc.devRef .tc main_arg4) = (kargs m c).a4 :=
  (W16_of_ne m ρ c main_arg4 (by decide)).trans (L15_main_arg4 m ρ c)

theorem L16_main_arg5 (c : Dev nD) : W16 m ρ c (Proc.devRef .tc main_arg5) = (kargs m c).a5 :=
  (W16_of_ne m ρ c main_arg5 (by decide)).trans (L15_main_arg5 m ρ c)

theorem L16_main_arg6 (c : Dev nD) : W16 m ρ c (Proc.devRef .tc main_arg6) = (kargs m c).a6 :=
  (W16_of_ne m ρ c main_arg6 (by decide)).trans (L15_main_arg6 m ρ c)

theorem L16_main_arg7 (c : Dev nD) : W16 m ρ c (Proc.devRef .tc main_arg7) = (kargs m c).a7 :=
  (W16_of_ne m ρ c main_arg7 (by decide)).trans (L15_main_arg7 m ρ c)

theorem L16_main_arg8 (c : Dev nD) : W16 m ρ c (Proc.devRef .tc main_arg8) = (kargs m c).a8 :=
  (W16_of_ne m ρ c main_arg8 (by decide)).trans (L15_main_arg8 m ρ c)

theorem L16_main_arg9 (c : Dev nD) : W16 m ρ c (Proc.devRef .tc main_arg9) = (kargs m c).a9 :=
  (W16_of_ne m ρ c main_arg9 (by decide)).trans (L15_main_arg9 m ρ c)

theorem L16_main_arg10 (c : Dev nD) : W16 m ρ c (Proc.devRef .tc main_arg10) = (kargs m c).a10 :=
  (W16_of_ne m ρ c main_arg10 (by decide)).trans (L15_main_arg10 m ρ c)

theorem L16_main_arg11 (c : Dev nD) : W16 m ρ c (Proc.devRef .tc main_arg11) = (kargs m c).a11 :=
  (W16_of_ne m ρ c main_arg11 (by decide)).trans (L15_main_arg11 m ρ c)

theorem L16_main_arg12 (c : Dev nD) : W16 m ρ c (Proc.devRef .tc main_arg12) = (kargs m c).a12 :=
  (W16_of_ne m ρ c main_arg12 (by decide)).trans (L15_main_arg12 m ρ c)

theorem L16_main_arg13 (c : Dev nD) : W16 m ρ c (Proc.devRef .tc main_arg13) = (kargs m c).a13 :=
  (W16_of_ne m ρ c main_arg13 (by decide)).trans (L15_main_arg13 m ρ c)

theorem L16_main_arg14 (c : Dev nD) : W16 m ρ c (Proc.devRef .tc main_arg14) = (kargs m c).a14 :=
  (W16_of_ne m ρ c main_arg14 (by decide)).trans (L15_main_arg14 m ρ c)

theorem L16_main_arg15 (c : Dev nD) : W16 m ρ c (Proc.devRef .tc main_arg15) = (kargs m c).a15 :=
  (W16_of_ne m ρ c main_arg15 (by decide)).trans (L15_main_arg15 m ρ c)

theorem L16_main_arg16 (c : Dev nD) : W16 m ρ c (Proc.devRef .tc main_arg16) = (kargs m c).a16 :=
  (W16_of_ne m ρ c main_arg16 (by decide)).trans (L15_main_arg16 m ρ c)

theorem L16_main_v1 (c : Dev nD) : W16 m ρ c (Proc.devRef .tc main_v1) = src (kargs m c) :=
  (W16_of_ne m ρ c main_v1 (by decide)).trans (L15_main_v1 m ρ c)

theorem L16_main_v3 (c : Dev nD) : W16 m ρ c (Proc.devRef .tc main_v3) = dst (kargs m c) :=
  (W16_of_ne m ρ c main_v3 (by decide)).trans (L15_main_v3 m ρ c)

theorem L16_main_v4 (c : Dev nD) : W16 m ρ c (Proc.devRef .tc main_v4) = zerosB128 :=
  (W16_of_ne m ρ c main_v4 (by decide)).trans (L15_main_v4 m ρ c)

theorem L16_main_v74_0 (c : Dev nD) : W16 m ρ c (Proc.devRef .tc main_v74_0) = X2_0 (kargs m c) :=
  (W16_arr m ρ c 6).trans ((Cert.Node.final7_x (V15 m ρ) c).trans (by
    rw [show V15 m ρ c main_v53_0 = _ from L15_main_v53_0 m ρ c,
      show V15 m ρ c main_v53_1 = _ from L15_main_v53_1 m ρ c,
      show V15 m ρ c main_v56 = _ from L15_main_v56 m ρ c,
      show V15 m ρ c main_v61 = _ from L15_main_v61 m ρ c,
      show V15 m ρ c main_v31 = _ from L15_main_v31 m ρ c,
      show V15 m ρ c main_v73 = _ from L15_main_v73 m ρ c]
    all_goals rfl))

theorem L17_main_arg4 (c : Dev nD) : W17 m ρ c (Proc.devRef .tc main_arg4) = (kargs m c).a4 := by
  show StableHlo.after (hostOps8 (F := Ideal)) (W16 m ρ c) (Proc.devRef .tc main_arg4) = _
  after_results
  exact L16_main_arg4 m ρ c

theorem L17_main_arg5 (c : Dev nD) : W17 m ρ c (Proc.devRef .tc main_arg5) = (kargs m c).a5 := by
  show StableHlo.after (hostOps8 (F := Ideal)) (W16 m ρ c) (Proc.devRef .tc main_arg5) = _
  after_results
  exact L16_main_arg5 m ρ c

theorem L17_main_arg6 (c : Dev nD) : W17 m ρ c (Proc.devRef .tc main_arg6) = (kargs m c).a6 := by
  show StableHlo.after (hostOps8 (F := Ideal)) (W16 m ρ c) (Proc.devRef .tc main_arg6) = _
  after_results
  exact L16_main_arg6 m ρ c

theorem L17_main_arg7 (c : Dev nD) : W17 m ρ c (Proc.devRef .tc main_arg7) = (kargs m c).a7 := by
  show StableHlo.after (hostOps8 (F := Ideal)) (W16 m ρ c) (Proc.devRef .tc main_arg7) = _
  after_results
  exact L16_main_arg7 m ρ c

theorem L17_main_arg8 (c : Dev nD) : W17 m ρ c (Proc.devRef .tc main_arg8) = (kargs m c).a8 := by
  show StableHlo.after (hostOps8 (F := Ideal)) (W16 m ρ c) (Proc.devRef .tc main_arg8) = _
  after_results
  exact L16_main_arg8 m ρ c

theorem L17_main_arg9 (c : Dev nD) : W17 m ρ c (Proc.devRef .tc main_arg9) = (kargs m c).a9 := by
  show StableHlo.after (hostOps8 (F := Ideal)) (W16 m ρ c) (Proc.devRef .tc main_arg9) = _
  after_results
  exact L16_main_arg9 m ρ c

theorem L17_main_arg10 (c : Dev nD) : W17 m ρ c (Proc.devRef .tc main_arg10) = (kargs m c).a10 := by
  show StableHlo.after (hostOps8 (F := Ideal)) (W16 m ρ c) (Proc.devRef .tc main_arg10) = _
  after_results
  exact L16_main_arg10 m ρ c

theorem L17_main_arg11 (c : Dev nD) : W17 m ρ c (Proc.devRef .tc main_arg11) = (kargs m c).a11 := by
  show StableHlo.after (hostOps8 (F := Ideal)) (W16 m ρ c) (Proc.devRef .tc main_arg11) = _
  after_results
  exact L16_main_arg11 m ρ c

theorem L17_main_arg12 (c : Dev nD) : W17 m ρ c (Proc.devRef .tc main_arg12) = (kargs m c).a12 := by
  show StableHlo.after (hostOps8 (F := Ideal)) (W16 m ρ c) (Proc.devRef .tc main_arg12) = _
  after_results
  exact L16_main_arg12 m ρ c

theorem L17_main_arg13 (c : Dev nD) : W17 m ρ c (Proc.devRef .tc main_arg13) = (kargs m c).a13 := by
  show StableHlo.after (hostOps8 (F := Ideal)) (W16 m ρ c) (Proc.devRef .tc main_arg13) = _
  after_results
  exact L16_main_arg13 m ρ c

theorem L17_main_arg14 (c : Dev nD) : W17 m ρ c (Proc.devRef .tc main_arg14) = (kargs m c).a14 := by
  show StableHlo.after (hostOps8 (F := Ideal)) (W16 m ρ c) (Proc.devRef .tc main_arg14) = _
  after_results
  exact L16_main_arg14 m ρ c

theorem L17_main_arg15 (c : Dev nD) : W17 m ρ c (Proc.devRef .tc main_arg15) = (kargs m c).a15 := by
  show StableHlo.after (hostOps8 (F := Ideal)) (W16 m ρ c) (Proc.devRef .tc main_arg15) = _
  after_results
  exact L16_main_arg15 m ρ c

theorem L17_main_arg16 (c : Dev nD) : W17 m ρ c (Proc.devRef .tc main_arg16) = (kargs m c).a16 := by
  show StableHlo.after (hostOps8 (F := Ideal)) (W16 m ρ c) (Proc.devRef .tc main_arg16) = _
  after_results
  exact L16_main_arg16 m ρ c

theorem L17_main_v1 (c : Dev nD) : W17 m ρ c (Proc.devRef .tc main_v1) = src (kargs m c) := by
  show StableHlo.after (hostOps8 (F := Ideal)) (W16 m ρ c) (Proc.devRef .tc main_v1) = _
  after_results
  exact L16_main_v1 m ρ c

theorem L17_main_v3 (c : Dev nD) : W17 m ρ c (Proc.devRef .tc main_v3) = dst (kargs m c) := by
  show StableHlo.after (hostOps8 (F := Ideal)) (W16 m ρ c) (Proc.devRef .tc main_v3) = _
  after_results
  exact L16_main_v3 m ρ c

theorem L17_main_v4 (c : Dev nD) : W17 m ρ c (Proc.devRef .tc main_v4) = zerosB128 := by
  show StableHlo.after (hostOps8 (F := Ideal)) (W16 m ρ c) (Proc.devRef .tc main_v4) = _
  after_results
  exact L16_main_v4 m ρ c

theorem L17_main_v74_0 (c : Dev nD) : W17 m ρ c (Proc.devRef .tc main_v74_0) = X2_0 (kargs m c) := by
  show StableHlo.after (hostOps8 (F := Ideal)) (W16 m ρ c) (Proc.devRef .tc main_v74_0) = _
  after_results
  exact L16_main_v74_0 m ρ c

set_option maxHeartbeats 2000000 in
theorem L17_main_v76 (c : Dev nD) : W17 m ρ c (Proc.devRef .tc main_v76) = m1w_0 (kargs m c) := by
  show StableHlo.after (hostOps8 (F := Ideal)) (W16 m ρ c) (Proc.devRef .tc main_v76) = _
  after_results_simp
  rw [L16_main_arg11 m ρ c]
  rfl

set_option maxHeartbeats 2000000 in
theorem L17_main_v78 (c : Dev nD) : W17 m ρ c (Proc.devRef .tc main_v78) = m1b_0 (kargs m c) := by
  show StableHlo.after (hostOps8 (F := Ideal)) (W16 m ρ c) (Proc.devRef .tc main_v78) = _
  after_results_simp
  rw [L16_main_arg12 m ρ c]
  rfl

theorem L18_main_arg4 (c : Dev nD) : W18 m ρ c (Proc.devRef .tc main_arg4) = (kargs m c).a4 :=
  (W18_of_ne m ρ c main_arg4 (by decide)).trans (L17_main_arg4 m ρ c)

theorem L18_main_arg5 (c : Dev nD) : W18 m ρ c (Proc.devRef .tc main_arg5) = (kargs m c).a5 :=
  (W18_of_ne m ρ c main_arg5 (by decide)).trans (L17_main_arg5 m ρ c)

theorem L18_main_arg6 (c : Dev nD) : W18 m ρ c (Proc.devRef .tc main_arg6) = (kargs m c).a6 :=
  (W18_of_ne m ρ c main_arg6 (by decide)).trans (L17_main_arg6 m ρ c)

theorem L18_main_arg7 (c : Dev nD) : W18 m ρ c (Proc.devRef .tc main_arg7) = (kargs m c).a7 :=
  (W18_of_ne m ρ c main_arg7 (by decide)).trans (L17_main_arg7 m ρ c)

theorem L18_main_arg8 (c : Dev nD) : W18 m ρ c (Proc.devRef .tc main_arg8) = (kargs m c).a8 :=
  (W18_of_ne m ρ c main_arg8 (by decide)).trans (L17_main_arg8 m ρ c)

theorem L18_main_arg9 (c : Dev nD) : W18 m ρ c (Proc.devRef .tc main_arg9) = (kargs m c).a9 :=
  (W18_of_ne m ρ c main_arg9 (by decide)).trans (L17_main_arg9 m ρ c)

theorem L18_main_arg10 (c : Dev nD) : W18 m ρ c (Proc.devRef .tc main_arg10) = (kargs m c).a10 :=
  (W18_of_ne m ρ c main_arg10 (by decide)).trans (L17_main_arg10 m ρ c)

theorem L18_main_arg11 (c : Dev nD) : W18 m ρ c (Proc.devRef .tc main_arg11) = (kargs m c).a11 :=
  (W18_of_ne m ρ c main_arg11 (by decide)).trans (L17_main_arg11 m ρ c)

theorem L18_main_arg12 (c : Dev nD) : W18 m ρ c (Proc.devRef .tc main_arg12) = (kargs m c).a12 :=
  (W18_of_ne m ρ c main_arg12 (by decide)).trans (L17_main_arg12 m ρ c)

theorem L18_main_arg13 (c : Dev nD) : W18 m ρ c (Proc.devRef .tc main_arg13) = (kargs m c).a13 :=
  (W18_of_ne m ρ c main_arg13 (by decide)).trans (L17_main_arg13 m ρ c)

theorem L18_main_arg14 (c : Dev nD) : W18 m ρ c (Proc.devRef .tc main_arg14) = (kargs m c).a14 :=
  (W18_of_ne m ρ c main_arg14 (by decide)).trans (L17_main_arg14 m ρ c)

theorem L18_main_arg15 (c : Dev nD) : W18 m ρ c (Proc.devRef .tc main_arg15) = (kargs m c).a15 :=
  (W18_of_ne m ρ c main_arg15 (by decide)).trans (L17_main_arg15 m ρ c)

theorem L18_main_arg16 (c : Dev nD) : W18 m ρ c (Proc.devRef .tc main_arg16) = (kargs m c).a16 :=
  (W18_of_ne m ρ c main_arg16 (by decide)).trans (L17_main_arg16 m ρ c)

theorem L18_main_v1 (c : Dev nD) : W18 m ρ c (Proc.devRef .tc main_v1) = src (kargs m c) :=
  (W18_of_ne m ρ c main_v1 (by decide)).trans (L17_main_v1 m ρ c)

theorem L18_main_v3 (c : Dev nD) : W18 m ρ c (Proc.devRef .tc main_v3) = dst (kargs m c) :=
  (W18_of_ne m ρ c main_v3 (by decide)).trans (L17_main_v3 m ρ c)

theorem L18_main_v4 (c : Dev nD) : W18 m ρ c (Proc.devRef .tc main_v4) = zerosB128 :=
  (W18_of_ne m ρ c main_v4 (by decide)).trans (L17_main_v4 m ρ c)

theorem L18_main_v79 (c : Dev nD) : W18 m ρ c (Proc.devRef .tc main_v79) = H_0 (kargs m c) :=
  (W18_arr m ρ c 3).trans ((Cert.Lin.final8 (V17 m ρ) c).trans (by
    rw [show V17 m ρ c main_v74_0 = _ from L17_main_v74_0 m ρ c,
      show V17 m ρ c main_v76 = _ from L17_main_v76 m ρ c,
      show V17 m ρ c main_v78 = _ from L17_main_v78 m ρ c]
    all_goals rfl))

theorem L19_main_arg4 (c : Dev nD) : W19 m ρ c (Proc.devRef .tc main_arg4) = (kargs m c).a4 := by
  show StableHlo.after (hostOps9 (F := Ideal)) (W18 m ρ c) (Proc.devRef .tc main_arg4) = _
  after_results
  exact L18_main_arg4 m ρ c

theorem L19_main_arg5 (c : Dev nD) : W19 m ρ c (Proc.devRef .tc main_arg5) = (kargs m c).a5 := by
  show StableHlo.after (hostOps9 (F := Ideal)) (W18 m ρ c) (Proc.devRef .tc main_arg5) = _
  after_results
  exact L18_main_arg5 m ρ c

theorem L19_main_arg6 (c : Dev nD) : W19 m ρ c (Proc.devRef .tc main_arg6) = (kargs m c).a6 := by
  show StableHlo.after (hostOps9 (F := Ideal)) (W18 m ρ c) (Proc.devRef .tc main_arg6) = _
  after_results
  exact L18_main_arg6 m ρ c

theorem L19_main_arg7 (c : Dev nD) : W19 m ρ c (Proc.devRef .tc main_arg7) = (kargs m c).a7 := by
  show StableHlo.after (hostOps9 (F := Ideal)) (W18 m ρ c) (Proc.devRef .tc main_arg7) = _
  after_results
  exact L18_main_arg7 m ρ c

theorem L19_main_arg8 (c : Dev nD) : W19 m ρ c (Proc.devRef .tc main_arg8) = (kargs m c).a8 := by
  show StableHlo.after (hostOps9 (F := Ideal)) (W18 m ρ c) (Proc.devRef .tc main_arg8) = _
  after_results
  exact L18_main_arg8 m ρ c

theorem L19_main_arg9 (c : Dev nD) : W19 m ρ c (Proc.devRef .tc main_arg9) = (kargs m c).a9 := by
  show StableHlo.after (hostOps9 (F := Ideal)) (W18 m ρ c) (Proc.devRef .tc main_arg9) = _
  after_results
  exact L18_main_arg9 m ρ c

theorem L19_main_arg10 (c : Dev nD) : W19 m ρ c (Proc.devRef .tc main_arg10) = (kargs m c).a10 := by
  show StableHlo.after (hostOps9 (F := Ideal)) (W18 m ρ c) (Proc.devRef .tc main_arg10) = _
  after_results
  exact L18_main_arg10 m ρ c

theorem L19_main_arg11 (c : Dev nD) : W19 m ρ c (Proc.devRef .tc main_arg11) = (kargs m c).a11 := by
  show StableHlo.after (hostOps9 (F := Ideal)) (W18 m ρ c) (Proc.devRef .tc main_arg11) = _
  after_results
  exact L18_main_arg11 m ρ c

theorem L19_main_arg12 (c : Dev nD) : W19 m ρ c (Proc.devRef .tc main_arg12) = (kargs m c).a12 := by
  show StableHlo.after (hostOps9 (F := Ideal)) (W18 m ρ c) (Proc.devRef .tc main_arg12) = _
  after_results
  exact L18_main_arg12 m ρ c

theorem L19_main_arg13 (c : Dev nD) : W19 m ρ c (Proc.devRef .tc main_arg13) = (kargs m c).a13 := by
  show StableHlo.after (hostOps9 (F := Ideal)) (W18 m ρ c) (Proc.devRef .tc main_arg13) = _
  after_results
  exact L18_main_arg13 m ρ c

theorem L19_main_arg14 (c : Dev nD) : W19 m ρ c (Proc.devRef .tc main_arg14) = (kargs m c).a14 := by
  show StableHlo.after (hostOps9 (F := Ideal)) (W18 m ρ c) (Proc.devRef .tc main_arg14) = _
  after_results
  exact L18_main_arg14 m ρ c

theorem L19_main_arg15 (c : Dev nD) : W19 m ρ c (Proc.devRef .tc main_arg15) = (kargs m c).a15 := by
  show StableHlo.after (hostOps9 (F := Ideal)) (W18 m ρ c) (Proc.devRef .tc main_arg15) = _
  after_results
  exact L18_main_arg15 m ρ c

theorem L19_main_arg16 (c : Dev nD) : W19 m ρ c (Proc.devRef .tc main_arg16) = (kargs m c).a16 := by
  show StableHlo.after (hostOps9 (F := Ideal)) (W18 m ρ c) (Proc.devRef .tc main_arg16) = _
  after_results
  exact L18_main_arg16 m ρ c

theorem L19_main_v1 (c : Dev nD) : W19 m ρ c (Proc.devRef .tc main_v1) = src (kargs m c) := by
  show StableHlo.after (hostOps9 (F := Ideal)) (W18 m ρ c) (Proc.devRef .tc main_v1) = _
  after_results
  exact L18_main_v1 m ρ c

theorem L19_main_v3 (c : Dev nD) : W19 m ρ c (Proc.devRef .tc main_v3) = dst (kargs m c) := by
  show StableHlo.after (hostOps9 (F := Ideal)) (W18 m ρ c) (Proc.devRef .tc main_v3) = _
  after_results
  exact L18_main_v3 m ρ c

theorem L19_main_v4 (c : Dev nD) : W19 m ρ c (Proc.devRef .tc main_v4) = zerosB128 := by
  show StableHlo.after (hostOps9 (F := Ideal)) (W18 m ρ c) (Proc.devRef .tc main_v4) = _
  after_results
  exact L18_main_v4 m ρ c

theorem L19_main_v79 (c : Dev nD) : W19 m ρ c (Proc.devRef .tc main_v79) = H_0 (kargs m c) := by
  show StableHlo.after (hostOps9 (F := Ideal)) (W18 m ρ c) (Proc.devRef .tc main_v79) = _
  after_results
  exact L18_main_v79 m ρ c

set_option maxHeartbeats 2000000 in
theorem L19_main_v81 (c : Dev nD) : W19 m ρ c (Proc.devRef .tc main_v81) = m2w_0 (kargs m c) := by
  show StableHlo.after (hostOps9 (F := Ideal)) (W18 m ρ c) (Proc.devRef .tc main_v81) = _
  after_results_simp
  rw [L18_main_arg13 m ρ c]
  rfl

set_option maxHeartbeats 2000000 in
theorem L19_main_v83 (c : Dev nD) : W19 m ρ c (Proc.devRef .tc main_v83) = m2b_0 (kargs m c) := by
  show StableHlo.after (hostOps9 (F := Ideal)) (W18 m ρ c) (Proc.devRef .tc main_v83) = _
  after_results_simp
  rw [L18_main_arg14 m ρ c]
  rfl

theorem L20_main_arg4 (c : Dev nD) : W20 m ρ c (Proc.devRef .tc main_arg4) = (kargs m c).a4 :=
  (W20_of_ne m ρ c main_arg4 (by decide)).trans (L19_main_arg4 m ρ c)

theorem L20_main_arg5 (c : Dev nD) : W20 m ρ c (Proc.devRef .tc main_arg5) = (kargs m c).a5 :=
  (W20_of_ne m ρ c main_arg5 (by decide)).trans (L19_main_arg5 m ρ c)

theorem L20_main_arg6 (c : Dev nD) : W20 m ρ c (Proc.devRef .tc main_arg6) = (kargs m c).a6 :=
  (W20_of_ne m ρ c main_arg6 (by decide)).trans (L19_main_arg6 m ρ c)

theorem L20_main_arg7 (c : Dev nD) : W20 m ρ c (Proc.devRef .tc main_arg7) = (kargs m c).a7 :=
  (W20_of_ne m ρ c main_arg7 (by decide)).trans (L19_main_arg7 m ρ c)

theorem L20_main_arg8 (c : Dev nD) : W20 m ρ c (Proc.devRef .tc main_arg8) = (kargs m c).a8 :=
  (W20_of_ne m ρ c main_arg8 (by decide)).trans (L19_main_arg8 m ρ c)

theorem L20_main_arg9 (c : Dev nD) : W20 m ρ c (Proc.devRef .tc main_arg9) = (kargs m c).a9 :=
  (W20_of_ne m ρ c main_arg9 (by decide)).trans (L19_main_arg9 m ρ c)

theorem L20_main_arg10 (c : Dev nD) : W20 m ρ c (Proc.devRef .tc main_arg10) = (kargs m c).a10 :=
  (W20_of_ne m ρ c main_arg10 (by decide)).trans (L19_main_arg10 m ρ c)

theorem L20_main_arg11 (c : Dev nD) : W20 m ρ c (Proc.devRef .tc main_arg11) = (kargs m c).a11 :=
  (W20_of_ne m ρ c main_arg11 (by decide)).trans (L19_main_arg11 m ρ c)

theorem L20_main_arg12 (c : Dev nD) : W20 m ρ c (Proc.devRef .tc main_arg12) = (kargs m c).a12 :=
  (W20_of_ne m ρ c main_arg12 (by decide)).trans (L19_main_arg12 m ρ c)

theorem L20_main_arg13 (c : Dev nD) : W20 m ρ c (Proc.devRef .tc main_arg13) = (kargs m c).a13 :=
  (W20_of_ne m ρ c main_arg13 (by decide)).trans (L19_main_arg13 m ρ c)

theorem L20_main_arg14 (c : Dev nD) : W20 m ρ c (Proc.devRef .tc main_arg14) = (kargs m c).a14 :=
  (W20_of_ne m ρ c main_arg14 (by decide)).trans (L19_main_arg14 m ρ c)

theorem L20_main_arg15 (c : Dev nD) : W20 m ρ c (Proc.devRef .tc main_arg15) = (kargs m c).a15 :=
  (W20_of_ne m ρ c main_arg15 (by decide)).trans (L19_main_arg15 m ρ c)

theorem L20_main_arg16 (c : Dev nD) : W20 m ρ c (Proc.devRef .tc main_arg16) = (kargs m c).a16 :=
  (W20_of_ne m ρ c main_arg16 (by decide)).trans (L19_main_arg16 m ρ c)

theorem L20_main_v1 (c : Dev nD) : W20 m ρ c (Proc.devRef .tc main_v1) = src (kargs m c) :=
  (W20_of_ne m ρ c main_v1 (by decide)).trans (L19_main_v1 m ρ c)

theorem L20_main_v3 (c : Dev nD) : W20 m ρ c (Proc.devRef .tc main_v3) = dst (kargs m c) :=
  (W20_of_ne m ρ c main_v3 (by decide)).trans (L19_main_v3 m ρ c)

theorem L20_main_v4 (c : Dev nD) : W20 m ρ c (Proc.devRef .tc main_v4) = zerosB128 :=
  (W20_of_ne m ρ c main_v4 (by decide)).trans (L19_main_v4 m ρ c)

theorem L20_main_v84 (c : Dev nD) : W20 m ρ c (Proc.devRef .tc main_v84) = XIN_1 (kargs m c) :=
  (W20_arr m ρ c 3).trans ((Cert.Lin.final9 (V19 m ρ) c).trans (by
    rw [show V19 m ρ c main_v79 = _ from L19_main_v79 m ρ c,
      show V19 m ρ c main_v81 = _ from L19_main_v81 m ρ c,
      show V19 m ρ c main_v83 = _ from L19_main_v83 m ρ c]
    all_goals rfl))

end Cert.KChain

end
-- ==== Proof.KChain1.lean ====
/- What each buffer of the kernel program holds at each boundary between its segments (host stretches and pallas regions),
   while a later segment still reads it: the named value of Model.lean. A region's output is its whole-array function of
   the region's input arrays; a host stretch's result is its operations applied to what the stretch finds; a buffer no
   segment writes keeps its contents (an input window's array is written back unchanged). -/
import proofs.«107783_j24189255811079_1_alg».proof.Proof.KChain0

set_option maxRecDepth 16384

noncomputable section

namespace Cert.KChain

open Idealize.ShloMosaic Idealize.ShloMosaic.TcCoe Idealize.SL.Sem Cert.KernelIdeal Cert.KernelIdeal.Gen Cert.Model Cert.Spec

variable (m : (ℓ : Loc nD τ sig) → Buf (Elt Ideal) ℓ) (ρ : Dev nD → PrngReg)

theorem L21_main_arg4 (c : Dev nD) : W21 m ρ c (Proc.devRef .tc main_arg4) = (kargs m c).a4 := by
  show StableHlo.after (hostOps10 (F := Ideal)) (W20 m ρ c) (Proc.devRef .tc main_arg4) = _
  after_results
  exact L20_main_arg4 m ρ c

theorem L21_main_arg5 (c : Dev nD) : W21 m ρ c (Proc.devRef .tc main_arg5) = (kargs m c).a5 := by
  show StableHlo.after (hostOps10 (F := Ideal)) (W20 m ρ c) (Proc.devRef .tc main_arg5) = _
  after_results
  exact L20_main_arg5 m ρ c

theorem L21_main_arg6 (c : Dev nD) : W21 m ρ c (Proc.devRef .tc main_arg6) = (kargs m c).a6 := by
  show StableHlo.after (hostOps10 (F := Ideal)) (W20 m ρ c) (Proc.devRef .tc main_arg6) = _
  after_results
  exact L20_main_arg6 m ρ c

theorem L21_main_arg7 (c : Dev nD) : W21 m ρ c (Proc.devRef .tc main_arg7) = (kargs m c).a7 := by
  show StableHlo.after (hostOps10 (F := Ideal)) (W20 m ρ c) (Proc.devRef .tc main_arg7) = _
  after_results
  exact L20_main_arg7 m ρ c

theorem L21_main_arg8 (c : Dev nD) : W21 m ρ c (Proc.devRef .tc main_arg8) = (kargs m c).a8 := by
  show StableHlo.after (hostOps10 (F := Ideal)) (W20 m ρ c) (Proc.devRef .tc main_arg8) = _
  after_results
  exact L20_main_arg8 m ρ c

theorem L21_main_arg9 (c : Dev nD) : W21 m ρ c (Proc.devRef .tc main_arg9) = (kargs m c).a9 := by
  show StableHlo.after (hostOps10 (F := Ideal)) (W20 m ρ c) (Proc.devRef .tc main_arg9) = _
  after_results
  exact L20_main_arg9 m ρ c

theorem L21_main_arg10 (c : Dev nD) : W21 m ρ c (Proc.devRef .tc main_arg10) = (kargs m c).a10 := by
  show StableHlo.after (hostOps10 (F := Ideal)) (W20 m ρ c) (Proc.devRef .tc main_arg10) = _
  after_results
  exact L20_main_arg10 m ρ c

theorem L21_main_arg11 (c : Dev nD) : W21 m ρ c (Proc.devRef .tc main_arg11) = (kargs m c).a11 := by
  show StableHlo.after (hostOps10 (F := Ideal)) (W20 m ρ c) (Proc.devRef .tc main_arg11) = _
  after_results
  exact L20_main_arg11 m ρ c

theorem L21_main_arg12 (c : Dev nD) : W21 m ρ c (Proc.devRef .tc main_arg12) = (kargs m c).a12 := by
  show StableHlo.after (hostOps10 (F := Ideal)) (W20 m ρ c) (Proc.devRef .tc main_arg12) = _
  after_results
  exact L20_main_arg12 m ρ c

theorem L21_main_arg13 (c : Dev nD) : W21 m ρ c (Proc.devRef .tc main_arg13) = (kargs m c).a13 := by
  show StableHlo.after (hostOps10 (F := Ideal)) (W20 m ρ c) (Proc.devRef .tc main_arg13) = _
  after_results
  exact L20_main_arg13 m ρ c

theorem L21_main_arg14 (c : Dev nD) : W21 m ρ c (Proc.devRef .tc main_arg14) = (kargs m c).a14 := by
  show StableHlo.after (hostOps10 (F := Ideal)) (W20 m ρ c) (Proc.devRef .tc main_arg14) = _
  after_results
  exact L20_main_arg14 m ρ c

theorem L21_main_arg15 (c : Dev nD) : W21 m ρ c (Proc.devRef .tc main_arg15) = (kargs m c).a15 := by
  show StableHlo.after (hostOps10 (F := Ideal)) (W20 m ρ c) (Proc.devRef .tc main_arg15) = _
  after_results
  exact L20_main_arg15 m ρ c

theorem L21_main_arg16 (c : Dev nD) : W21 m ρ c (Proc.devRef .tc main_arg16) = (kargs m c).a16 := by
  show StableHlo.after (hostOps10 (F := Ideal)) (W20 m ρ c) (Proc.devRef .tc main_arg16) = _
  after_results
  exact L20_main_arg16 m ρ c

theorem L21_main_v1 (c : Dev nD) : W21 m ρ c (Proc.devRef .tc main_v1) = src (kargs m c) := by
  show StableHlo.after (hostOps10 (F := Ideal)) (W20 m ρ c) (Proc.devRef .tc main_v1) = _
  after_results
  exact L20_main_v1 m ρ c

theorem L21_main_v3 (c : Dev nD) : W21 m ρ c (Proc.devRef .tc main_v3) = dst (kargs m c) := by
  show StableHlo.after (hostOps10 (F := Ideal)) (W20 m ρ c) (Proc.devRef .tc main_v3) = _
  after_results
  exact L20_main_v3 m ρ c

theorem L21_main_v4 (c : Dev nD) : W21 m ρ c (Proc.devRef .tc main_v4) = zerosB128 := by
  show StableHlo.after (hostOps10 (F := Ideal)) (W20 m ρ c) (Proc.devRef .tc main_v4) = _
  after_results
  exact L20_main_v4 m ρ c

theorem L21_main_v84 (c : Dev nD) : W21 m ρ c (Proc.devRef .tc main_v84) = XIN_1 (kargs m c) := by
  show StableHlo.after (hostOps10 (F := Ideal)) (W20 m ρ c) (Proc.devRef .tc main_v84) = _
  after_results
  exact L20_main_v84 m ρ c

set_option maxHeartbeats 2000000 in
theorem L21_main_v91 (c : Dev nD) : W21 m ρ c (Proc.devRef .tc main_v91) = gatherRows (XIN_1 (kargs m c)) (src (kargs m c)) := by
  show StableHlo.after (hostOps10 (F := Ideal)) (W20 m ρ c) (Proc.devRef .tc main_v91) = _
  after_results_simp
  rw [L20_main_v84 m ρ c, L20_main_v1 m ρ c]
  rfl

set_option maxHeartbeats 2000000 in
theorem L21_main_v98 (c : Dev nD) : W21 m ρ c (Proc.devRef .tc main_v98) = gatherRows (XIN_1 (kargs m c)) (dst (kargs m c)) := by
  show StableHlo.after (hostOps10 (F := Ideal)) (W20 m ρ c) (Proc.devRef .tc main_v98) = _
  after_results_simp
  rw [L20_main_v84 m ρ c, L20_main_v3 m ρ c]
  rfl

set_option maxHeartbeats 2000000 in
theorem L21_main_v100 (c : Dev nD) : W21 m ρ c (Proc.devRef .tc main_v100) = w1_1 (kargs m c) := by
  show StableHlo.after (hostOps10 (F := Ideal)) (W20 m ρ c) (Proc.devRef .tc main_v100) = _
  after_results_simp
  rw [L20_main_arg5 m ρ c]
  rfl

set_option maxHeartbeats 2000000 in
theorem L21_main_v102 (c : Dev nD) : W21 m ρ c (Proc.devRef .tc main_v102) = b1_1 (kargs m c) := by
  show StableHlo.after (hostOps10 (F := Ideal)) (W20 m ρ c) (Proc.devRef .tc main_v102) = _
  after_results_simp
  rw [L20_main_arg6 m ρ c]
  rfl

set_option maxHeartbeats 2000000 in
theorem L21_main_v104 (c : Dev nD) : W21 m ρ c (Proc.devRef .tc main_v104) = w2_1 (kargs m c) := by
  show StableHlo.after (hostOps10 (F := Ideal)) (W20 m ρ c) (Proc.devRef .tc main_v104) = _
  after_results_simp
  rw [L20_main_arg7 m ρ c]
  rfl

set_option maxHeartbeats 2000000 in
theorem L21_main_v106 (c : Dev nD) : W21 m ρ c (Proc.devRef .tc main_v106) = b2_1 (kargs m c) := by
  show StableHlo.after (hostOps10 (F := Ideal)) (W20 m ρ c) (Proc.devRef .tc main_v106) = _
  after_results_simp
  rw [L20_main_arg8 m ρ c]
  rfl

theorem L22_main_arg4 (c : Dev nD) : W22 m ρ c (Proc.devRef .tc main_arg4) = (kargs m c).a4 :=
  (W22_of_ne m ρ c main_arg4 (by decide)).trans (L21_main_arg4 m ρ c)

theorem L22_main_arg5 (c : Dev nD) : W22 m ρ c (Proc.devRef .tc main_arg5) = (kargs m c).a5 :=
  (W22_of_ne m ρ c main_arg5 (by decide)).trans (L21_main_arg5 m ρ c)

theorem L22_main_arg6 (c : Dev nD) : W22 m ρ c (Proc.devRef .tc main_arg6) = (kargs m c).a6 :=
  (W22_of_ne m ρ c main_arg6 (by decide)).trans (L21_main_arg6 m ρ c)

theorem L22_main_arg7 (c : Dev nD) : W22 m ρ c (Proc.devRef .tc main_arg7) = (kargs m c).a7 :=
  (W22_of_ne m ρ c main_arg7 (by decide)).trans (L21_main_arg7 m ρ c)

theorem L22_main_arg8 (c : Dev nD) : W22 m ρ c (Proc.devRef .tc main_arg8) = (kargs m c).a8 :=
  (W22_of_ne m ρ c main_arg8 (by decide)).trans (L21_main_arg8 m ρ c)

theorem L22_main_arg9 (c : Dev nD) : W22 m ρ c (Proc.devRef .tc main_arg9) = (kargs m c).a9 :=
  (W22_of_ne m ρ c main_arg9 (by decide)).trans (L21_main_arg9 m ρ c)

theorem L22_main_arg10 (c : Dev nD) : W22 m ρ c (Proc.devRef .tc main_arg10) = (kargs m c).a10 :=
  (W22_of_ne m ρ c main_arg10 (by decide)).trans (L21_main_arg10 m ρ c)

theorem L22_main_arg11 (c : Dev nD) : W22 m ρ c (Proc.devRef .tc main_arg11) = (kargs m c).a11 :=
  (W22_of_ne m ρ c main_arg11 (by decide)).trans (L21_main_arg11 m ρ c)

theorem L22_main_arg12 (c : Dev nD) : W22 m ρ c (Proc.devRef .tc main_arg12) = (kargs m c).a12 :=
  (W22_of_ne m ρ c main_arg12 (by decide)).trans (L21_main_arg12 m ρ c)

theorem L22_main_arg13 (c : Dev nD) : W22 m ρ c (Proc.devRef .tc main_arg13) = (kargs m c).a13 :=
  (W22_of_ne m ρ c main_arg13 (by decide)).trans (L21_main_arg13 m ρ c)

theorem L22_main_arg14 (c : Dev nD) : W22 m ρ c (Proc.devRef .tc main_arg14) = (kargs m c).a14 :=
  (W22_of_ne m ρ c main_arg14 (by decide)).trans (L21_main_arg14 m ρ c)

theorem L22_main_arg15 (c : Dev nD) : W22 m ρ c (Proc.devRef .tc main_arg15) = (kargs m c).a15 :=
  (W22_of_ne m ρ c main_arg15 (by decide)).trans (L21_main_arg15 m ρ c)

theorem L22_main_arg16 (c : Dev nD) : W22 m ρ c (Proc.devRef .tc main_arg16) = (kargs m c).a16 :=
  (W22_of_ne m ρ c main_arg16 (by decide)).trans (L21_main_arg16 m ρ c)

theorem L22_main_v1 (c : Dev nD) : W22 m ρ c (Proc.devRef .tc main_v1) = src (kargs m c) :=
  (W22_of_ne m ρ c main_v1 (by decide)).trans (L21_main_v1 m ρ c)

theorem L22_main_v3 (c : Dev nD) : W22 m ρ c (Proc.devRef .tc main_v3) = dst (kargs m c) :=
  (W22_of_ne m ρ c main_v3 (by decide)).trans (L21_main_v3 m ρ c)

theorem L22_main_v4 (c : Dev nD) : W22 m ρ c (Proc.devRef .tc main_v4) = zerosB128 :=
  (W22_of_ne m ρ c main_v4 (by decide)).trans (L21_main_v4 m ρ c)

theorem L22_main_v84 (c : Dev nD) : W22 m ρ c (Proc.devRef .tc main_v84) = XIN_1 (kargs m c) :=
  (W22_of_ne m ρ c main_v84 (by decide)).trans (L21_main_v84 m ρ c)

theorem L22_main_v107 (c : Dev nD) : W22 m ρ c (Proc.devRef .tc main_v107) = R_1 (kargs m c) :=
  (W22_arr m ρ c 6).trans ((Cert.Edge.final10 (V21 m ρ) c).trans (by
    rw [show V21 m ρ c main_v91 = _ from L21_main_v91 m ρ c,
      show V21 m ρ c main_v98 = _ from L21_main_v98 m ρ c,
      show V21 m ρ c main_v100 = _ from L21_main_v100 m ρ c,
      show V21 m ρ c main_v102 = _ from L21_main_v102 m ρ c,
      show V21 m ρ c main_v104 = _ from L21_main_v104 m ρ c,
      show V21 m ρ c main_v106 = _ from L21_main_v106 m ρ c]
    all_goals rfl))

theorem L23_main_arg4 (c : Dev nD) : W23 m ρ c (Proc.devRef .tc main_arg4) = (kargs m c).a4 := by
  show StableHlo.after (hostOps11 (F := Ideal)) (W22 m ρ c) (Proc.devRef .tc main_arg4) = _
  after_results
  exact L22_main_arg4 m ρ c

theorem L23_main_arg5 (c : Dev nD) : W23 m ρ c (Proc.devRef .tc main_arg5) = (kargs m c).a5 := by
  show StableHlo.after (hostOps11 (F := Ideal)) (W22 m ρ c) (Proc.devRef .tc main_arg5) = _
  after_results
  exact L22_main_arg5 m ρ c

theorem L23_main_arg6 (c : Dev nD) : W23 m ρ c (Proc.devRef .tc main_arg6) = (kargs m c).a6 := by
  show StableHlo.after (hostOps11 (F := Ideal)) (W22 m ρ c) (Proc.devRef .tc main_arg6) = _
  after_results
  exact L22_main_arg6 m ρ c

theorem L23_main_arg7 (c : Dev nD) : W23 m ρ c (Proc.devRef .tc main_arg7) = (kargs m c).a7 := by
  show StableHlo.after (hostOps11 (F := Ideal)) (W22 m ρ c) (Proc.devRef .tc main_arg7) = _
  after_results
  exact L22_main_arg7 m ρ c

theorem L23_main_arg8 (c : Dev nD) : W23 m ρ c (Proc.devRef .tc main_arg8) = (kargs m c).a8 := by
  show StableHlo.after (hostOps11 (F := Ideal)) (W22 m ρ c) (Proc.devRef .tc main_arg8) = _
  after_results
  exact L22_main_arg8 m ρ c

theorem L23_main_arg9 (c : Dev nD) : W23 m ρ c (Proc.devRef .tc main_arg9) = (kargs m c).a9 := by
  show StableHlo.after (hostOps11 (F := Ideal)) (W22 m ρ c) (Proc.devRef .tc main_arg9) = _
  after_results
  exact L22_main_arg9 m ρ c

theorem L23_main_arg10 (c : Dev nD) : W23 m ρ c (Proc.devRef .tc main_arg10) = (kargs m c).a10 := by
  show StableHlo.after (hostOps11 (F := Ideal)) (W22 m ρ c) (Proc.devRef .tc main_arg10) = _
  after_results
  exact L22_main_arg10 m ρ c

theorem L23_main_arg11 (c : Dev nD) : W23 m ρ c (Proc.devRef .tc main_arg11) = (kargs m c).a11 := by
  show StableHlo.after (hostOps11 (F := Ideal)) (W22 m ρ c) (Proc.devRef .tc main_arg11) = _
  after_results
  exact L22_main_arg11 m ρ c

theorem L23_main_arg12 (c : Dev nD) : W23 m ρ c (Proc.devRef .tc main_arg12) = (kargs m c).a12 := by
  show StableHlo.after (hostOps11 (F := Ideal)) (W22 m ρ c) (Proc.devRef .tc main_arg12) = _
  after_results
  exact L22_main_arg12 m ρ c

theorem L23_main_arg13 (c : Dev nD) : W23 m ρ c (Proc.devRef .tc main_arg13) = (kargs m c).a13 := by
  show StableHlo.after (hostOps11 (F := Ideal)) (W22 m ρ c) (Proc.devRef .tc main_arg13) = _
  after_results
  exact L22_main_arg13 m ρ c

theorem L23_main_arg14 (c : Dev nD) : W23 m ρ c (Proc.devRef .tc main_arg14) = (kargs m c).a14 := by
  show StableHlo.after (hostOps11 (F := Ideal)) (W22 m ρ c) (Proc.devRef .tc main_arg14) = _
  after_results
  exact L22_main_arg14 m ρ c

theorem L23_main_arg15 (c : Dev nD) : W23 m ρ c (Proc.devRef .tc main_arg15) = (kargs m c).a15 := by
  show StableHlo.after (hostOps11 (F := Ideal)) (W22 m ρ c) (Proc.devRef .tc main_arg15) = _
  after_results
  exact L22_main_arg15 m ρ c

theorem L23_main_arg16 (c : Dev nD) : W23 m ρ c (Proc.devRef .tc main_arg16) = (kargs m c).a16 := by
  show StableHlo.after (hostOps11 (F := Ideal)) (W22 m ρ c) (Proc.devRef .tc main_arg16) = _
  after_results
  exact L22_main_arg16 m ρ c

theorem L23_main_v1 (c : Dev nD) : W23 m ρ c (Proc.devRef .tc main_v1) = src (kargs m c) := by
  show StableHlo.after (hostOps11 (F := Ideal)) (W22 m ρ c) (Proc.devRef .tc main_v1) = _
  after_results
  exact L22_main_v1 m ρ c

theorem L23_main_v3 (c : Dev nD) : W23 m ρ c (Proc.devRef .tc main_v3) = dst (kargs m c) := by
  show StableHlo.after (hostOps11 (F := Ideal)) (W22 m ρ c) (Proc.devRef .tc main_v3) = _
  after_results
  exact L22_main_v3 m ρ c

theorem L23_main_v4 (c : Dev nD) : W23 m ρ c (Proc.devRef .tc main_v4) = zerosB128 := by
  show StableHlo.after (hostOps11 (F := Ideal)) (W22 m ρ c) (Proc.devRef .tc main_v4) = _
  after_results
  exact L22_main_v4 m ρ c

theorem L23_main_v84 (c : Dev nD) : W23 m ρ c (Proc.devRef .tc main_v84) = XIN_1 (kargs m c) := by
  show StableHlo.after (hostOps11 (F := Ideal)) (W22 m ρ c) (Proc.devRef .tc main_v84) = _
  after_results
  exact L22_main_v84 m ρ c

theorem L23_main_v107 (c : Dev nD) : W23 m ρ c (Proc.devRef .tc main_v107) = R_1 (kargs m c) := by
  show StableHlo.after (hostOps11 (F := Ideal)) (W22 m ρ c) (Proc.devRef .tc main_v107) = _
  after_results
  exact L22_main_v107 m ρ c

set_option maxHeartbeats 2000000 in
theorem L23_main_v113 (c : Dev nD) : W23 m ρ c (Proc.devRef .tc main_v113) = lapw_1 (kargs m c) := by
  show StableHlo.after (hostOps11 (F := Ideal)) (W22 m ρ c) (Proc.devRef .tc main_v113) = _
  after_results_simp
  rw [L22_main_arg4 m ρ c]
  rfl

set_option maxHeartbeats 2000000 in
theorem L23_main_v111 (c : Dev nD) : W23 m ρ c (Proc.devRef .tc main_v111) = zerosN128 := by
  show StableHlo.after (hostOps11 (F := Ideal)) (W22 m ρ c) (Proc.devRef .tc main_v111) = _
  after_results_simp
  rfl

set_option maxHeartbeats 2000000 in
theorem L23_main_v110 (c : Dev nD) : W23 m ρ c (Proc.devRef .tc main_v110) = D_1 (kargs m c) := by
  show StableHlo.after (hostOps11 (F := Ideal)) (W22 m ρ c) (Proc.devRef .tc main_v110) = _
  after_results_simp
  rw [L22_main_v1 m ρ c, L22_main_v107 m ρ c]
  rfl

theorem L24_main_arg4 (c : Dev nD) : W24 m ρ c (Proc.devRef .tc main_arg4) = (kargs m c).a4 :=
  (W24_of_ne m ρ c main_arg4 (by decide)).trans (L23_main_arg4 m ρ c)

theorem L24_main_arg5 (c : Dev nD) : W24 m ρ c (Proc.devRef .tc main_arg5) = (kargs m c).a5 :=
  (W24_of_ne m ρ c main_arg5 (by decide)).trans (L23_main_arg5 m ρ c)

theorem L24_main_arg6 (c : Dev nD) : W24 m ρ c (Proc.devRef .tc main_arg6) = (kargs m c).a6 :=
  (W24_of_ne m ρ c main_arg6 (by decide)).trans (L23_main_arg6 m ρ c)

theorem L24_main_arg7 (c : Dev nD) : W24 m ρ c (Proc.devRef .tc main_arg7) = (kargs m c).a7 :=
  (W24_of_ne m ρ c main_arg7 (by decide)).trans (L23_main_arg7 m ρ c)

theorem L24_main_arg8 (c : Dev nD) : W24 m ρ c (Proc.devRef .tc main_arg8) = (kargs m c).a8 :=
  (W24_of_ne m ρ c main_arg8 (by decide)).trans (L23_main_arg8 m ρ c)

theorem L24_main_arg9 (c : Dev nD) : W24 m ρ c (Proc.devRef .tc main_arg9) = (kargs m c).a9 :=
  (W24_of_ne m ρ c main_arg9 (by decide)).trans (L23_main_arg9 m ρ c)

theorem L24_main_arg10 (c : Dev nD) : W24 m ρ c (Proc.devRef .tc main_arg10) = (kargs m c).a10 :=
  (W24_of_ne m ρ c main_arg10 (by decide)).trans (L23_main_arg10 m ρ c)

theorem L24_main_arg11 (c : Dev nD) : W24 m ρ c (Proc.devRef .tc main_arg11) = (kargs m c).a11 :=
  (W24_of_ne m ρ c main_arg11 (by decide)).trans (L23_main_arg11 m ρ c)

theorem L24_main_arg12 (c : Dev nD) : W24 m ρ c (Proc.devRef .tc main_arg12) = (kargs m c).a12 :=
  (W24_of_ne m ρ c main_arg12 (by decide)).trans (L23_main_arg12 m ρ c)

theorem L24_main_arg13 (c : Dev nD) : W24 m ρ c (Proc.devRef .tc main_arg13) = (kargs m c).a13 :=
  (W24_of_ne m ρ c main_arg13 (by decide)).trans (L23_main_arg13 m ρ c)

theorem L24_main_arg14 (c : Dev nD) : W24 m ρ c (Proc.devRef .tc main_arg14) = (kargs m c).a14 :=
  (W24_of_ne m ρ c main_arg14 (by decide)).trans (L23_main_arg14 m ρ c)

theorem L24_main_arg15 (c : Dev nD) : W24 m ρ c (Proc.devRef .tc main_arg15) = (kargs m c).a15 :=
  (W24_of_ne m ρ c main_arg15 (by decide)).trans (L23_main_arg15 m ρ c)

theorem L24_main_arg16 (c : Dev nD) : W24 m ρ c (Proc.devRef .tc main_arg16) = (kargs m c).a16 :=
  (W24_of_ne m ρ c main_arg16 (by decide)).trans (L23_main_arg16 m ρ c)

theorem L24_main_v1 (c : Dev nD) : W24 m ρ c (Proc.devRef .tc main_v1) = src (kargs m c) :=
  (W24_of_ne m ρ c main_v1 (by decide)).trans (L23_main_v1 m ρ c)

theorem L24_main_v3 (c : Dev nD) : W24 m ρ c (Proc.devRef .tc main_v3) = dst (kargs m c) :=
  (W24_of_ne m ρ c main_v3 (by decide)).trans (L23_main_v3 m ρ c)

theorem L24_main_v4 (c : Dev nD) : W24 m ρ c (Proc.devRef .tc main_v4) = zerosB128 :=
  ((W24_arr m ρ c 2).trans (((dat11 (V23 m ρ) c).arrAt_in 2 rfl _).trans (A_eq11 (V23 m ρ) c 2))).trans (L23_main_v4 m ρ c)

theorem L24_main_v84 (c : Dev nD) : W24 m ρ c (Proc.devRef .tc main_v84) = XIN_1 (kargs m c) :=
  ((W24_arr m ρ c 0).trans (((dat11 (V23 m ρ) c).arrAt_in 0 rfl _).trans (A_eq11 (V23 m ρ) c 0))).trans (L23_main_v84 m ρ c)

theorem L24_main_v107 (c : Dev nD) : W24 m ρ c (Proc.devRef .tc main_v107) = R_1 (kargs m c) :=
  (W24_of_ne m ρ c main_v107 (by decide)).trans (L23_main_v107 m ρ c)

theorem L24_main_v111 (c : Dev nD) : W24 m ρ c (Proc.devRef .tc main_v111) = zerosN128 :=
  (W24_of_ne m ρ c main_v111 (by decide)).trans (L23_main_v111 m ρ c)

theorem L24_main_v110 (c : Dev nD) : W24 m ρ c (Proc.devRef .tc main_v110) = D_1 (kargs m c) :=
  (W24_of_ne m ρ c main_v110 (by decide)).trans (L23_main_v110 m ρ c)

theorem L24_main_v114 (c : Dev nD) : W24 m ρ c (Proc.devRef .tc main_v114) = lin (XIN_1 (kargs m c)) (lapw_1 (kargs m c)) zerosB128 :=
  (W24_arr m ρ c 3).trans ((Cert.Lin.final11 (V23 m ρ) c).trans (by
    rw [show V23 m ρ c main_v84 = _ from L23_main_v84 m ρ c,
      show V23 m ρ c main_v113 = _ from L23_main_v113 m ρ c,
      show V23 m ρ c main_v4 = _ from L23_main_v4 m ρ c]
    all_goals rfl))

theorem L25_main_arg4 (c : Dev nD) : W25 m ρ c (Proc.devRef .tc main_arg4) = (kargs m c).a4 := by
  show StableHlo.after (hostOps12 (F := Ideal)) (W24 m ρ c) (Proc.devRef .tc main_arg4) = _
  after_results
  exact L24_main_arg4 m ρ c

theorem L25_main_arg5 (c : Dev nD) : W25 m ρ c (Proc.devRef .tc main_arg5) = (kargs m c).a5 := by
  show StableHlo.after (hostOps12 (F := Ideal)) (W24 m ρ c) (Proc.devRef .tc main_arg5) = _
  after_results
  exact L24_main_arg5 m ρ c

theorem L25_main_arg6 (c : Dev nD) : W25 m ρ c (Proc.devRef .tc main_arg6) = (kargs m c).a6 := by
  show StableHlo.after (hostOps12 (F := Ideal)) (W24 m ρ c) (Proc.devRef .tc main_arg6) = _
  after_results
  exact L24_main_arg6 m ρ c

theorem L25_main_arg7 (c : Dev nD) : W25 m ρ c (Proc.devRef .tc main_arg7) = (kargs m c).a7 := by
  show StableHlo.after (hostOps12 (F := Ideal)) (W24 m ρ c) (Proc.devRef .tc main_arg7) = _
  after_results
  exact L24_main_arg7 m ρ c

theorem L25_main_arg8 (c : Dev nD) : W25 m ρ c (Proc.devRef .tc main_arg8) = (kargs m c).a8 := by
  show StableHlo.after (hostOps12 (F := Ideal)) (W24 m ρ c) (Proc.devRef .tc main_arg8) = _
  after_results
  exact L24_main_arg8 m ρ c

theorem L25_main_arg9 (c : Dev nD) : W25 m ρ c (Proc.devRef .tc main_arg9) = (kargs m c).a9 := by
  show StableHlo.after (hostOps12 (F := Ideal)) (W24 m ρ c) (Proc.devRef .tc main_arg9) = _
  after_results
  exact L24_main_arg9 m ρ c

theorem L25_main_arg10 (c : Dev nD) : W25 m ρ c (Proc.devRef .tc main_arg10) = (kargs m c).a10 := by
  show StableHlo.after (hostOps12 (F := Ideal)) (W24 m ρ c) (Proc.devRef .tc main_arg10) = _
  after_results
  exact L24_main_arg10 m ρ c

theorem L25_main_arg11 (c : Dev nD) : W25 m ρ c (Proc.devRef .tc main_arg11) = (kargs m c).a11 := by
  show StableHlo.after (hostOps12 (F := Ideal)) (W24 m ρ c) (Proc.devRef .tc main_arg11) = _
  after_results
  exact L24_main_arg11 m ρ c

theorem L25_main_arg12 (c : Dev nD) : W25 m ρ c (Proc.devRef .tc main_arg12) = (kargs m c).a12 := by
  show StableHlo.after (hostOps12 (F := Ideal)) (W24 m ρ c) (Proc.devRef .tc main_arg12) = _
  after_results
  exact L24_main_arg12 m ρ c

theorem L25_main_arg13 (c : Dev nD) : W25 m ρ c (Proc.devRef .tc main_arg13) = (kargs m c).a13 := by
  show StableHlo.after (hostOps12 (F := Ideal)) (W24 m ρ c) (Proc.devRef .tc main_arg13) = _
  after_results
  exact L24_main_arg13 m ρ c

theorem L25_main_arg14 (c : Dev nD) : W25 m ρ c (Proc.devRef .tc main_arg14) = (kargs m c).a14 := by
  show StableHlo.after (hostOps12 (F := Ideal)) (W24 m ρ c) (Proc.devRef .tc main_arg14) = _
  after_results
  exact L24_main_arg14 m ρ c

theorem L25_main_arg15 (c : Dev nD) : W25 m ρ c (Proc.devRef .tc main_arg15) = (kargs m c).a15 := by
  show StableHlo.after (hostOps12 (F := Ideal)) (W24 m ρ c) (Proc.devRef .tc main_arg15) = _
  after_results
  exact L24_main_arg15 m ρ c

theorem L25_main_arg16 (c : Dev nD) : W25 m ρ c (Proc.devRef .tc main_arg16) = (kargs m c).a16 := by
  show StableHlo.after (hostOps12 (F := Ideal)) (W24 m ρ c) (Proc.devRef .tc main_arg16) = _
  after_results
  exact L24_main_arg16 m ρ c

theorem L25_main_v1 (c : Dev nD) : W25 m ρ c (Proc.devRef .tc main_v1) = src (kargs m c) := by
  show StableHlo.after (hostOps12 (F := Ideal)) (W24 m ρ c) (Proc.devRef .tc main_v1) = _
  after_results
  exact L24_main_v1 m ρ c

theorem L25_main_v3 (c : Dev nD) : W25 m ρ c (Proc.devRef .tc main_v3) = dst (kargs m c) := by
  show StableHlo.after (hostOps12 (F := Ideal)) (W24 m ρ c) (Proc.devRef .tc main_v3) = _
  after_results
  exact L24_main_v3 m ρ c

theorem L25_main_v4 (c : Dev nD) : W25 m ρ c (Proc.devRef .tc main_v4) = zerosB128 := by
  show StableHlo.after (hostOps12 (F := Ideal)) (W24 m ρ c) (Proc.devRef .tc main_v4) = _
  after_results
  exact L24_main_v4 m ρ c

theorem L25_main_v84 (c : Dev nD) : W25 m ρ c (Proc.devRef .tc main_v84) = XIN_1 (kargs m c) := by
  show StableHlo.after (hostOps12 (F := Ideal)) (W24 m ρ c) (Proc.devRef .tc main_v84) = _
  after_results
  exact L24_main_v84 m ρ c

theorem L25_main_v107 (c : Dev nD) : W25 m ρ c (Proc.devRef .tc main_v107) = R_1 (kargs m c) := by
  show StableHlo.after (hostOps12 (F := Ideal)) (W24 m ρ c) (Proc.devRef .tc main_v107) = _
  after_results
  exact L24_main_v107 m ρ c

theorem L25_main_v114 (c : Dev nD) : W25 m ρ c (Proc.devRef .tc main_v114) = lin (XIN_1 (kargs m c)) (lapw_1 (kargs m c)) zerosB128 := by
  show StableHlo.after (hostOps12 (F := Ideal)) (W24 m ρ c) (Proc.devRef .tc main_v114) = _
  after_results
  exact L24_main_v114 m ρ c

theorem L25_main_v111 (c : Dev nD) : W25 m ρ c (Proc.devRef .tc main_v111) = zerosN128 := by
  show StableHlo.after (hostOps12 (F := Ideal)) (W24 m ρ c) (Proc.devRef .tc main_v111) = _
  after_results
  exact L24_main_v111 m ρ c

theorem L25_main_v110 (c : Dev nD) : W25 m ρ c (Proc.devRef .tc main_v110) = D_1 (kargs m c) := by
  show StableHlo.after (hostOps12 (F := Ideal)) (W24 m ρ c) (Proc.devRef .tc main_v110) = _
  after_results
  exact L24_main_v110 m ρ c

set_option maxHeartbeats 2000000 in
theorem L25_main_v116 (c : Dev nD) : W25 m ρ c (Proc.devRef .tc main_v116) = dissw_1 (kargs m c) := by
  show StableHlo.after (hostOps12 (F := Ideal)) (W24 m ρ c) (Proc.devRef .tc main_v116) = _
  after_results_simp
  rw [L24_main_arg9 m ρ c]
  rfl

set_option maxHeartbeats 2000000 in
theorem L25_main_v118 (c : Dev nD) : W25 m ρ c (Proc.devRef .tc main_v118) = dissb_1 (kargs m c) := by
  show StableHlo.after (hostOps12 (F := Ideal)) (W24 m ρ c) (Proc.devRef .tc main_v118) = _
  after_results_simp
  rw [L24_main_arg10 m ρ c]
  rfl

theorem L26_main_arg4 (c : Dev nD) : W26 m ρ c (Proc.devRef .tc main_arg4) = (kargs m c).a4 :=
  (W26_of_ne m ρ c main_arg4 (by decide)).trans (L25_main_arg4 m ρ c)

theorem L26_main_arg5 (c : Dev nD) : W26 m ρ c (Proc.devRef .tc main_arg5) = (kargs m c).a5 :=
  (W26_of_ne m ρ c main_arg5 (by decide)).trans (L25_main_arg5 m ρ c)

theorem L26_main_arg6 (c : Dev nD) : W26 m ρ c (Proc.devRef .tc main_arg6) = (kargs m c).a6 :=
  (W26_of_ne m ρ c main_arg6 (by decide)).trans (L25_main_arg6 m ρ c)

theorem L26_main_arg7 (c : Dev nD) : W26 m ρ c (Proc.devRef .tc main_arg7) = (kargs m c).a7 :=
  (W26_of_ne m ρ c main_arg7 (by decide)).trans (L25_main_arg7 m ρ c)

theorem L26_main_arg8 (c : Dev nD) : W26 m ρ c (Proc.devRef .tc main_arg8) = (kargs m c).a8 :=
  (W26_of_ne m ρ c main_arg8 (by decide)).trans (L25_main_arg8 m ρ c)

theorem L26_main_arg9 (c : Dev nD) : W26 m ρ c (Proc.devRef .tc main_arg9) = (kargs m c).a9 :=
  (W26_of_ne m ρ c main_arg9 (by decide)).trans (L25_main_arg9 m ρ c)

theorem L26_main_arg10 (c : Dev nD) : W26 m ρ c (Proc.devRef .tc main_arg10) = (kargs m c).a10 :=
  (W26_of_ne m ρ c main_arg10 (by decide)).trans (L25_main_arg10 m ρ c)

theorem L26_main_arg11 (c : Dev nD) : W26 m ρ c (Proc.devRef .tc main_arg11) = (kargs m c).a11 :=
  (W26_of_ne m ρ c main_arg11 (by decide)).trans (L25_main_arg11 m ρ c)

theorem L26_main_arg12 (c : Dev nD) : W26 m ρ c (Proc.devRef .tc main_arg12) = (kargs m c).a12 :=
  (W26_of_ne m ρ c main_arg12 (by decide)).trans (L25_main_arg12 m ρ c)

theorem L26_main_arg13 (c : Dev nD) : W26 m ρ c (Proc.devRef .tc main_arg13) = (kargs m c).a13 :=
  (W26_of_ne m ρ c main_arg13 (by decide)).trans (L25_main_arg13 m ρ c)

theorem L26_main_arg14 (c : Dev nD) : W26 m ρ c (Proc.devRef .tc main_arg14) = (kargs m c).a14 :=
  (W26_of_ne m ρ c main_arg14 (by decide)).trans (L25_main_arg14 m ρ c)

theorem L26_main_arg15 (c : Dev nD) : W26 m ρ c (Proc.devRef .tc main_arg15) = (kargs m c).a15 :=
  (W26_of_ne m ρ c main_arg15 (by decide)).trans (L25_main_arg15 m ρ c)

theorem L26_main_arg16 (c : Dev nD) : W26 m ρ c (Proc.devRef .tc main_arg16) = (kargs m c).a16 :=
  (W26_of_ne m ρ c main_arg16 (by decide)).trans (L25_main_arg16 m ρ c)

theorem L26_main_v1 (c : Dev nD) : W26 m ρ c (Proc.devRef .tc main_v1) = src (kargs m c) :=
  (W26_of_ne m ρ c main_v1 (by decide)).trans (L25_main_v1 m ρ c)

theorem L26_main_v3 (c : Dev nD) : W26 m ρ c (Proc.devRef .tc main_v3) = dst (kargs m c) :=
  (W26_of_ne m ρ c main_v3 (by decide)).trans (L25_main_v3 m ρ c)

theorem L26_main_v4 (c : Dev nD) : W26 m ρ c (Proc.devRef .tc main_v4) = zerosB128 :=
  (W26_of_ne m ρ c main_v4 (by decide)).trans (L25_main_v4 m ρ c)

theorem L26_main_v84 (c : Dev nD) : W26 m ρ c (Proc.devRef .tc main_v84) = XIN_1 (kargs m c) :=
  ((W26_arr m ρ c 0).trans (((dat12 (V25 m ρ) c).arrAt_in 0 rfl _).trans (A_eq12 (V25 m ρ) c 0))).trans (L25_main_v84 m ρ c)

theorem L26_main_v107 (c : Dev nD) : W26 m ρ c (Proc.devRef .tc main_v107) = R_1 (kargs m c) :=
  (W26_of_ne m ρ c main_v107 (by decide)).trans (L25_main_v107 m ρ c)

theorem L26_main_v114 (c : Dev nD) : W26 m ρ c (Proc.devRef .tc main_v114) = lin (XIN_1 (kargs m c)) (lapw_1 (kargs m c)) zerosB128 :=
  (W26_of_ne m ρ c main_v114 (by decide)).trans (L25_main_v114 m ρ c)

theorem L26_main_v111 (c : Dev nD) : W26 m ρ c (Proc.devRef .tc main_v111) = zerosN128 :=
  (W26_of_ne m ρ c main_v111 (by decide)).trans (L25_main_v111 m ρ c)

theorem L26_main_v110 (c : Dev nD) : W26 m ρ c (Proc.devRef .tc main_v110) = D_1 (kargs m c) :=
  (W26_of_ne m ρ c main_v110 (by decide)).trans (L25_main_v110 m ρ c)

theorem L26_main_v119 (c : Dev nD) : W26 m ρ c (Proc.devRef .tc main_v119) = linRelu (XIN_1 (kargs m c)) (dissw_1 (kargs m c)) (dissb_1 (kargs m c)) :=
  (W26_arr m ρ c 3).trans ((Cert.Lin.final12 (V25 m ρ) c).trans (by
    rw [show V25 m ρ c main_v84 = _ from L25_main_v84 m ρ c,
      show V25 m ρ c main_v116 = _ from L25_main_v116 m ρ c,
      show V25 m ρ c main_v118 = _ from L25_main_v118 m ρ c]
    all_goals rfl))

theorem L27_main_arg4 (c : Dev nD) : W27 m ρ c (Proc.devRef .tc main_arg4) = (kargs m c).a4 := by
  show StableHlo.after (hostOps13 (F := Ideal)) (W26 m ρ c) (Proc.devRef .tc main_arg4) = _
  after_results
  exact L26_main_arg4 m ρ c

theorem L27_main_arg5 (c : Dev nD) : W27 m ρ c (Proc.devRef .tc main_arg5) = (kargs m c).a5 := by
  show StableHlo.after (hostOps13 (F := Ideal)) (W26 m ρ c) (Proc.devRef .tc main_arg5) = _
  after_results
  exact L26_main_arg5 m ρ c

theorem L27_main_arg6 (c : Dev nD) : W27 m ρ c (Proc.devRef .tc main_arg6) = (kargs m c).a6 := by
  show StableHlo.after (hostOps13 (F := Ideal)) (W26 m ρ c) (Proc.devRef .tc main_arg6) = _
  after_results
  exact L26_main_arg6 m ρ c

theorem L27_main_arg7 (c : Dev nD) : W27 m ρ c (Proc.devRef .tc main_arg7) = (kargs m c).a7 := by
  show StableHlo.after (hostOps13 (F := Ideal)) (W26 m ρ c) (Proc.devRef .tc main_arg7) = _
  after_results
  exact L26_main_arg7 m ρ c

theorem L27_main_arg8 (c : Dev nD) : W27 m ρ c (Proc.devRef .tc main_arg8) = (kargs m c).a8 := by
  show StableHlo.after (hostOps13 (F := Ideal)) (W26 m ρ c) (Proc.devRef .tc main_arg8) = _
  after_results
  exact L26_main_arg8 m ρ c

theorem L27_main_arg9 (c : Dev nD) : W27 m ρ c (Proc.devRef .tc main_arg9) = (kargs m c).a9 := by
  show StableHlo.after (hostOps13 (F := Ideal)) (W26 m ρ c) (Proc.devRef .tc main_arg9) = _
  after_results
  exact L26_main_arg9 m ρ c

theorem L27_main_arg10 (c : Dev nD) : W27 m ρ c (Proc.devRef .tc main_arg10) = (kargs m c).a10 := by
  show StableHlo.after (hostOps13 (F := Ideal)) (W26 m ρ c) (Proc.devRef .tc main_arg10) = _
  after_results
  exact L26_main_arg10 m ρ c

theorem L27_main_arg11 (c : Dev nD) : W27 m ρ c (Proc.devRef .tc main_arg11) = (kargs m c).a11 := by
  show StableHlo.after (hostOps13 (F := Ideal)) (W26 m ρ c) (Proc.devRef .tc main_arg11) = _
  after_results
  exact L26_main_arg11 m ρ c

theorem L27_main_arg12 (c : Dev nD) : W27 m ρ c (Proc.devRef .tc main_arg12) = (kargs m c).a12 := by
  show StableHlo.after (hostOps13 (F := Ideal)) (W26 m ρ c) (Proc.devRef .tc main_arg12) = _
  after_results
  exact L26_main_arg12 m ρ c

theorem L27_main_arg13 (c : Dev nD) : W27 m ρ c (Proc.devRef .tc main_arg13) = (kargs m c).a13 := by
  show StableHlo.after (hostOps13 (F := Ideal)) (W26 m ρ c) (Proc.devRef .tc main_arg13) = _
  after_results
  exact L26_main_arg13 m ρ c

theorem L27_main_arg14 (c : Dev nD) : W27 m ρ c (Proc.devRef .tc main_arg14) = (kargs m c).a14 := by
  show StableHlo.after (hostOps13 (F := Ideal)) (W26 m ρ c) (Proc.devRef .tc main_arg14) = _
  after_results
  exact L26_main_arg14 m ρ c

theorem L27_main_arg15 (c : Dev nD) : W27 m ρ c (Proc.devRef .tc main_arg15) = (kargs m c).a15 := by
  show StableHlo.after (hostOps13 (F := Ideal)) (W26 m ρ c) (Proc.devRef .tc main_arg15) = _
  after_results
  exact L26_main_arg15 m ρ c

theorem L27_main_arg16 (c : Dev nD) : W27 m ρ c (Proc.devRef .tc main_arg16) = (kargs m c).a16 := by
  show StableHlo.after (hostOps13 (F := Ideal)) (W26 m ρ c) (Proc.devRef .tc main_arg16) = _
  after_results
  exact L26_main_arg16 m ρ c

theorem L27_main_v1 (c : Dev nD) : W27 m ρ c (Proc.devRef .tc main_v1) = src (kargs m c) := by
  show StableHlo.after (hostOps13 (F := Ideal)) (W26 m ρ c) (Proc.devRef .tc main_v1) = _
  after_results
  exact L26_main_v1 m ρ c

theorem L27_main_v3 (c : Dev nD) : W27 m ρ c (Proc.devRef .tc main_v3) = dst (kargs m c) := by
  show StableHlo.after (hostOps13 (F := Ideal)) (W26 m ρ c) (Proc.devRef .tc main_v3) = _
  after_results
  exact L26_main_v3 m ρ c

theorem L27_main_v4 (c : Dev nD) : W27 m ρ c (Proc.devRef .tc main_v4) = zerosB128 := by
  show StableHlo.after (hostOps13 (F := Ideal)) (W26 m ρ c) (Proc.devRef .tc main_v4) = _
  after_results
  exact L26_main_v4 m ρ c

theorem L27_main_v84 (c : Dev nD) : W27 m ρ c (Proc.devRef .tc main_v84) = XIN_1 (kargs m c) := by
  show StableHlo.after (hostOps13 (F := Ideal)) (W26 m ρ c) (Proc.devRef .tc main_v84) = _
  after_results
  exact L26_main_v84 m ρ c

theorem L27_main_v107 (c : Dev nD) : W27 m ρ c (Proc.devRef .tc main_v107) = R_1 (kargs m c) := by
  show StableHlo.after (hostOps13 (F := Ideal)) (W26 m ρ c) (Proc.devRef .tc main_v107) = _
  after_results
  exact L26_main_v107 m ρ c

theorem L27_main_v114 (c : Dev nD) : W27 m ρ c (Proc.devRef .tc main_v114) = lin (XIN_1 (kargs m c)) (lapw_1 (kargs m c)) zerosB128 := by
  show StableHlo.after (hostOps13 (F := Ideal)) (W26 m ρ c) (Proc.devRef .tc main_v114) = _
  after_results
  exact L26_main_v114 m ρ c

theorem L27_main_v119 (c : Dev nD) : W27 m ρ c (Proc.devRef .tc main_v119) = linRelu (XIN_1 (kargs m c)) (dissw_1 (kargs m c)) (dissb_1 (kargs m c)) := by
  show StableHlo.after (hostOps13 (F := Ideal)) (W26 m ρ c) (Proc.devRef .tc main_v119) = _
  after_results
  exact L26_main_v119 m ρ c

theorem L27_main_v111 (c : Dev nD) : W27 m ρ c (Proc.devRef .tc main_v111) = zerosN128 := by
  show StableHlo.after (hostOps13 (F := Ideal)) (W26 m ρ c) (Proc.devRef .tc main_v111) = _
  after_results
  exact L26_main_v111 m ρ c

theorem L27_main_v110 (c : Dev nD) : W27 m ρ c (Proc.devRef .tc main_v110) = D_1 (kargs m c) := by
  show StableHlo.after (hostOps13 (F := Ideal)) (W26 m ρ c) (Proc.devRef .tc main_v110) = _
  after_results
  exact L26_main_v110 m ρ c

set_option maxHeartbeats 2000000 in
theorem L27_main_v131 (c : Dev nD) : W27 m ρ c (Proc.devRef .tc main_v131) = scatOf (lin (XIN_1 (kargs m c)) (lapw_1 (kargs m c)) zerosB128) (R_1 (kargs m c)) (src (kargs m c)) (dst (kargs m c)) := by
  show StableHlo.after (hostOps13 (F := Ideal)) (W26 m ρ c) (Proc.devRef .tc main_v131) = _
  after_results_simp
  rw [L26_main_v3 m ρ c, L26_main_v114 m ρ c, L26_main_v1 m ρ c, L26_main_v107 m ρ c]
  rfl

theorem L28_main_arg4 (c : Dev nD) : W28 m ρ c (Proc.devRef .tc main_arg4) = (kargs m c).a4 :=
  (W28_of_ne m ρ c main_arg4 (by decide)).trans (L27_main_arg4 m ρ c)

theorem L28_main_arg5 (c : Dev nD) : W28 m ρ c (Proc.devRef .tc main_arg5) = (kargs m c).a5 :=
  (W28_of_ne m ρ c main_arg5 (by decide)).trans (L27_main_arg5 m ρ c)

theorem L28_main_arg6 (c : Dev nD) : W28 m ρ c (Proc.devRef .tc main_arg6) = (kargs m c).a6 :=
  (W28_of_ne m ρ c main_arg6 (by decide)).trans (L27_main_arg6 m ρ c)

theorem L28_main_arg7 (c : Dev nD) : W28 m ρ c (Proc.devRef .tc main_arg7) = (kargs m c).a7 :=
  (W28_of_ne m ρ c main_arg7 (by decide)).trans (L27_main_arg7 m ρ c)

theorem L28_main_arg8 (c : Dev nD) : W28 m ρ c (Proc.devRef .tc main_arg8) = (kargs m c).a8 :=
  (W28_of_ne m ρ c main_arg8 (by decide)).trans (L27_main_arg8 m ρ c)

theorem L28_main_arg9 (c : Dev nD) : W28 m ρ c (Proc.devRef .tc main_arg9) = (kargs m c).a9 :=
  (W28_of_ne m ρ c main_arg9 (by decide)).trans (L27_main_arg9 m ρ c)

theorem L28_main_arg10 (c : Dev nD) : W28 m ρ c (Proc.devRef .tc main_arg10) = (kargs m c).a10 :=
  (W28_of_ne m ρ c main_arg10 (by decide)).trans (L27_main_arg10 m ρ c)

theorem L28_main_arg11 (c : Dev nD) : W28 m ρ c (Proc.devRef .tc main_arg11) = (kargs m c).a11 :=
  (W28_of_ne m ρ c main_arg11 (by decide)).trans (L27_main_arg11 m ρ c)

theorem L28_main_arg12 (c : Dev nD) : W28 m ρ c (Proc.devRef .tc main_arg12) = (kargs m c).a12 :=
  (W28_of_ne m ρ c main_arg12 (by decide)).trans (L27_main_arg12 m ρ c)

theorem L28_main_arg13 (c : Dev nD) : W28 m ρ c (Proc.devRef .tc main_arg13) = (kargs m c).a13 :=
  (W28_of_ne m ρ c main_arg13 (by decide)).trans (L27_main_arg13 m ρ c)

theorem L28_main_arg14 (c : Dev nD) : W28 m ρ c (Proc.devRef .tc main_arg14) = (kargs m c).a14 :=
  (W28_of_ne m ρ c main_arg14 (by decide)).trans (L27_main_arg14 m ρ c)

theorem L28_main_arg15 (c : Dev nD) : W28 m ρ c (Proc.devRef .tc main_arg15) = (kargs m c).a15 :=
  (W28_of_ne m ρ c main_arg15 (by decide)).trans (L27_main_arg15 m ρ c)

theorem L28_main_arg16 (c : Dev nD) : W28 m ρ c (Proc.devRef .tc main_arg16) = (kargs m c).a16 :=
  (W28_of_ne m ρ c main_arg16 (by decide)).trans (L27_main_arg16 m ρ c)

theorem L28_main_v1 (c : Dev nD) : W28 m ρ c (Proc.devRef .tc main_v1) = src (kargs m c) :=
  (W28_of_ne m ρ c main_v1 (by decide)).trans (L27_main_v1 m ρ c)

theorem L28_main_v3 (c : Dev nD) : W28 m ρ c (Proc.devRef .tc main_v3) = dst (kargs m c) :=
  (W28_of_ne m ρ c main_v3 (by decide)).trans (L27_main_v3 m ρ c)

theorem L28_main_v4 (c : Dev nD) : W28 m ρ c (Proc.devRef .tc main_v4) = zerosB128 :=
  (W28_of_ne m ρ c main_v4 (by decide)).trans (L27_main_v4 m ρ c)

theorem L28_main_v107 (c : Dev nD) : W28 m ρ c (Proc.devRef .tc main_v107) = R_1 (kargs m c) :=
  (W28_of_ne m ρ c main_v107 (by decide)).trans (L27_main_v107 m ρ c)

theorem L28_main_v110 (c : Dev nD) : W28 m ρ c (Proc.devRef .tc main_v110) = D_1 (kargs m c) :=
  ((W28_arr m ρ c 4).trans (((dat13 (V27 m ρ) c).arrAt_in 4 rfl _).trans (A_eq13 (V27 m ρ) c 4))).trans (L27_main_v110 m ρ c)

theorem L28_main_v132_0 (c : Dev nD) : W28 m ρ c (Proc.devRef .tc main_v132_0) = X1_1 (kargs m c) :=
  (W28_arr m ρ c 6).trans ((Cert.Node.final13_x (V27 m ρ) c).trans (by
    rw [show V27 m ρ c main_v84 = _ from L27_main_v84 m ρ c,
      show V27 m ρ c main_v111 = _ from L27_main_v111 m ρ c,
      show V27 m ρ c main_v114 = _ from L27_main_v114 m ρ c,
      show V27 m ρ c main_v119 = _ from L27_main_v119 m ρ c,
      show V27 m ρ c main_v110 = _ from L27_main_v110 m ρ c,
      show V27 m ρ c main_v131 = _ from L27_main_v131 m ρ c]
    all_goals rfl))

theorem L28_main_v132_1 (c : Dev nD) : W28 m ρ c (Proc.devRef .tc main_v132_1) = V1_1 (kargs m c) :=
  (W28_arr m ρ c 7).trans ((Cert.Node.final13_v (V27 m ρ) c).trans (by
    rw [show V27 m ρ c main_v111 = _ from L27_main_v111 m ρ c,
      show V27 m ρ c main_v114 = _ from L27_main_v114 m ρ c,
      show V27 m ρ c main_v119 = _ from L27_main_v119 m ρ c,
      show V27 m ρ c main_v110 = _ from L27_main_v110 m ρ c,
      show V27 m ρ c main_v131 = _ from L27_main_v131 m ρ c]
    all_goals rfl))

theorem L29_main_arg4 (c : Dev nD) : W29 m ρ c (Proc.devRef .tc main_arg4) = (kargs m c).a4 := by
  show StableHlo.after (hostOps14 (F := Ideal)) (W28 m ρ c) (Proc.devRef .tc main_arg4) = _
  after_results
  exact L28_main_arg4 m ρ c

theorem L29_main_arg5 (c : Dev nD) : W29 m ρ c (Proc.devRef .tc main_arg5) = (kargs m c).a5 := by
  show StableHlo.after (hostOps14 (F := Ideal)) (W28 m ρ c) (Proc.devRef .tc main_arg5) = _
  after_results
  exact L28_main_arg5 m ρ c

theorem L29_main_arg6 (c : Dev nD) : W29 m ρ c (Proc.devRef .tc main_arg6) = (kargs m c).a6 := by
  show StableHlo.after (hostOps14 (F := Ideal)) (W28 m ρ c) (Proc.devRef .tc main_arg6) = _
  after_results
  exact L28_main_arg6 m ρ c

theorem L29_main_arg7 (c : Dev nD) : W29 m ρ c (Proc.devRef .tc main_arg7) = (kargs m c).a7 := by
  show StableHlo.after (hostOps14 (F := Ideal)) (W28 m ρ c) (Proc.devRef .tc main_arg7) = _
  after_results
  exact L28_main_arg7 m ρ c

theorem L29_main_arg8 (c : Dev nD) : W29 m ρ c (Proc.devRef .tc main_arg8) = (kargs m c).a8 := by
  show StableHlo.after (hostOps14 (F := Ideal)) (W28 m ρ c) (Proc.devRef .tc main_arg8) = _
  after_results
  exact L28_main_arg8 m ρ c

theorem L29_main_arg9 (c : Dev nD) : W29 m ρ c (Proc.devRef .tc main_arg9) = (kargs m c).a9 := by
  show StableHlo.after (hostOps14 (F := Ideal)) (W28 m ρ c) (Proc.devRef .tc main_arg9) = _
  after_results
  exact L28_main_arg9 m ρ c

theorem L29_main_arg10 (c : Dev nD) : W29 m ρ c (Proc.devRef .tc main_arg10) = (kargs m c).a10 := by
  show StableHlo.after (hostOps14 (F := Ideal)) (W28 m ρ c) (Proc.devRef .tc main_arg10) = _
  after_results
  exact L28_main_arg10 m ρ c

theorem L29_main_arg11 (c : Dev nD) : W29 m ρ c (Proc.devRef .tc main_arg11) = (kargs m c).a11 := by
  show StableHlo.after (hostOps14 (F := Ideal)) (W28 m ρ c) (Proc.devRef .tc main_arg11) = _
  after_results
  exact L28_main_arg11 m ρ c

theorem L29_main_arg12 (c : Dev nD) : W29 m ρ c (Proc.devRef .tc main_arg12) = (kargs m c).a12 := by
  show StableHlo.after (hostOps14 (F := Ideal)) (W28 m ρ c) (Proc.devRef .tc main_arg12) = _
  after_results
  exact L28_main_arg12 m ρ c

theorem L29_main_arg13 (c : Dev nD) : W29 m ρ c (Proc.devRef .tc main_arg13) = (kargs m c).a13 := by
  show StableHlo.after (hostOps14 (F := Ideal)) (W28 m ρ c) (Proc.devRef .tc main_arg13) = _
  after_results
  exact L28_main_arg13 m ρ c

theorem L29_main_arg14 (c : Dev nD) : W29 m ρ c (Proc.devRef .tc main_arg14) = (kargs m c).a14 := by
  show StableHlo.after (hostOps14 (F := Ideal)) (W28 m ρ c) (Proc.devRef .tc main_arg14) = _
  after_results
  exact L28_main_arg14 m ρ c

theorem L29_main_arg15 (c : Dev nD) : W29 m ρ c (Proc.devRef .tc main_arg15) = (kargs m c).a15 := by
  show StableHlo.after (hostOps14 (F := Ideal)) (W28 m ρ c) (Proc.devRef .tc main_arg15) = _
  after_results
  exact L28_main_arg15 m ρ c

theorem L29_main_arg16 (c : Dev nD) : W29 m ρ c (Proc.devRef .tc main_arg16) = (kargs m c).a16 := by
  show StableHlo.after (hostOps14 (F := Ideal)) (W28 m ρ c) (Proc.devRef .tc main_arg16) = _
  after_results
  exact L28_main_arg16 m ρ c

theorem L29_main_v1 (c : Dev nD) : W29 m ρ c (Proc.devRef .tc main_v1) = src (kargs m c) := by
  show StableHlo.after (hostOps14 (F := Ideal)) (W28 m ρ c) (Proc.devRef .tc main_v1) = _
  after_results
  exact L28_main_v1 m ρ c

theorem L29_main_v3 (c : Dev nD) : W29 m ρ c (Proc.devRef .tc main_v3) = dst (kargs m c) := by
  show StableHlo.after (hostOps14 (F := Ideal)) (W28 m ρ c) (Proc.devRef .tc main_v3) = _
  after_results
  exact L28_main_v3 m ρ c

theorem L29_main_v4 (c : Dev nD) : W29 m ρ c (Proc.devRef .tc main_v4) = zerosB128 := by
  show StableHlo.after (hostOps14 (F := Ideal)) (W28 m ρ c) (Proc.devRef .tc main_v4) = _
  after_results
  exact L28_main_v4 m ρ c

theorem L29_main_v107 (c : Dev nD) : W29 m ρ c (Proc.devRef .tc main_v107) = R_1 (kargs m c) := by
  show StableHlo.after (hostOps14 (F := Ideal)) (W28 m ρ c) (Proc.devRef .tc main_v107) = _
  after_results
  exact L28_main_v107 m ρ c

theorem L29_main_v110 (c : Dev nD) : W29 m ρ c (Proc.devRef .tc main_v110) = D_1 (kargs m c) := by
  show StableHlo.after (hostOps14 (F := Ideal)) (W28 m ρ c) (Proc.devRef .tc main_v110) = _
  after_results
  exact L28_main_v110 m ρ c

theorem L29_main_v132_0 (c : Dev nD) : W29 m ρ c (Proc.devRef .tc main_v132_0) = X1_1 (kargs m c) := by
  show StableHlo.after (hostOps14 (F := Ideal)) (W28 m ρ c) (Proc.devRef .tc main_v132_0) = _
  after_results
  exact L28_main_v132_0 m ρ c

theorem L29_main_v132_1 (c : Dev nD) : W29 m ρ c (Proc.devRef .tc main_v132_1) = V1_1 (kargs m c) := by
  show StableHlo.after (hostOps14 (F := Ideal)) (W28 m ρ c) (Proc.devRef .tc main_v132_1) = _
  after_results
  exact L28_main_v132_1 m ρ c

set_option maxHeartbeats 2000000 in
theorem L29_main_v134 (c : Dev nD) : W29 m ρ c (Proc.devRef .tc main_v134) = lapw_1 (kargs m c) := by
  show StableHlo.after (hostOps14 (F := Ideal)) (W28 m ρ c) (Proc.devRef .tc main_v134) = _
  after_results_simp
  rw [L28_main_arg4 m ρ c]
  rfl

theorem L30_main_arg4 (c : Dev nD) : W30 m ρ c (Proc.devRef .tc main_arg4) = (kargs m c).a4 :=
  (W30_of_ne m ρ c main_arg4 (by decide)).trans (L29_main_arg4 m ρ c)

theorem L30_main_arg5 (c : Dev nD) : W30 m ρ c (Proc.devRef .tc main_arg5) = (kargs m c).a5 :=
  (W30_of_ne m ρ c main_arg5 (by decide)).trans (L29_main_arg5 m ρ c)

theorem L30_main_arg6 (c : Dev nD) : W30 m ρ c (Proc.devRef .tc main_arg6) = (kargs m c).a6 :=
  (W30_of_ne m ρ c main_arg6 (by decide)).trans (L29_main_arg6 m ρ c)

theorem L30_main_arg7 (c : Dev nD) : W30 m ρ c (Proc.devRef .tc main_arg7) = (kargs m c).a7 :=
  (W30_of_ne m ρ c main_arg7 (by decide)).trans (L29_main_arg7 m ρ c)

theorem L30_main_arg8 (c : Dev nD) : W30 m ρ c (Proc.devRef .tc main_arg8) = (kargs m c).a8 :=
  (W30_of_ne m ρ c main_arg8 (by decide)).trans (L29_main_arg8 m ρ c)

theorem L30_main_arg9 (c : Dev nD) : W30 m ρ c (Proc.devRef .tc main_arg9) = (kargs m c).a9 :=
  (W30_of_ne m ρ c main_arg9 (by decide)).trans (L29_main_arg9 m ρ c)

theorem L30_main_arg10 (c : Dev nD) : W30 m ρ c (Proc.devRef .tc main_arg10) = (kargs m c).a10 :=
  (W30_of_ne m ρ c main_arg10 (by decide)).trans (L29_main_arg10 m ρ c)

theorem L30_main_arg11 (c : Dev nD) : W30 m ρ c (Proc.devRef .tc main_arg11) = (kargs m c).a11 :=
  (W30_of_ne m ρ c main_arg11 (by decide)).trans (L29_main_arg11 m ρ c)

theorem L30_main_arg12 (c : Dev nD) : W30 m ρ c (Proc.devRef .tc main_arg12) = (kargs m c).a12 :=
  (W30_of_ne m ρ c main_arg12 (by decide)).trans (L29_main_arg12 m ρ c)

theorem L30_main_arg13 (c : Dev nD) : W30 m ρ c (Proc.devRef .tc main_arg13) = (kargs m c).a13 :=
  (W30_of_ne m ρ c main_arg13 (by decide)).trans (L29_main_arg13 m ρ c)

theorem L30_main_arg14 (c : Dev nD) : W30 m ρ c (Proc.devRef .tc main_arg14) = (kargs m c).a14 :=
  (W30_of_ne m ρ c main_arg14 (by decide)).trans (L29_main_arg14 m ρ c)

theorem L30_main_arg15 (c : Dev nD) : W30 m ρ c (Proc.devRef .tc main_arg15) = (kargs m c).a15 :=
  (W30_of_ne m ρ c main_arg15 (by decide)).trans (L29_main_arg15 m ρ c)

theorem L30_main_arg16 (c : Dev nD) : W30 m ρ c (Proc.devRef .tc main_arg16) = (kargs m c).a16 :=
  (W30_of_ne m ρ c main_arg16 (by decide)).trans (L29_main_arg16 m ρ c)

theorem L30_main_v1 (c : Dev nD) : W30 m ρ c (Proc.devRef .tc main_v1) = src (kargs m c) :=
  (W30_of_ne m ρ c main_v1 (by decide)).trans (L29_main_v1 m ρ c)

theorem L30_main_v3 (c : Dev nD) : W30 m ρ c (Proc.devRef .tc main_v3) = dst (kargs m c) :=
  (W30_of_ne m ρ c main_v3 (by decide)).trans (L29_main_v3 m ρ c)

theorem L30_main_v4 (c : Dev nD) : W30 m ρ c (Proc.devRef .tc main_v4) = zerosB128 :=
  ((W30_arr m ρ c 2).trans (((dat14 (V29 m ρ) c).arrAt_in 2 rfl _).trans (A_eq14 (V29 m ρ) c 2))).trans (L29_main_v4 m ρ c)

theorem L30_main_v107 (c : Dev nD) : W30 m ρ c (Proc.devRef .tc main_v107) = R_1 (kargs m c) :=
  (W30_of_ne m ρ c main_v107 (by decide)).trans (L29_main_v107 m ρ c)

theorem L30_main_v110 (c : Dev nD) : W30 m ρ c (Proc.devRef .tc main_v110) = D_1 (kargs m c) :=
  (W30_of_ne m ρ c main_v110 (by decide)).trans (L29_main_v110 m ρ c)

theorem L30_main_v132_0 (c : Dev nD) : W30 m ρ c (Proc.devRef .tc main_v132_0) = X1_1 (kargs m c) :=
  ((W30_arr m ρ c 0).trans (((dat14 (V29 m ρ) c).arrAt_in 0 rfl _).trans (A_eq14 (V29 m ρ) c 0))).trans (L29_main_v132_0 m ρ c)

theorem L30_main_v132_1 (c : Dev nD) : W30 m ρ c (Proc.devRef .tc main_v132_1) = V1_1 (kargs m c) :=
  (W30_of_ne m ρ c main_v132_1 (by decide)).trans (L29_main_v132_1 m ρ c)

theorem L30_main_v135 (c : Dev nD) : W30 m ρ c (Proc.devRef .tc main_v135) = lin (X1_1 (kargs m c)) (lapw_1 (kargs m c)) zerosB128 :=
  (W30_arr m ρ c 3).trans ((Cert.Lin.final14 (V29 m ρ) c).trans (by
    rw [show V29 m ρ c main_v132_0 = _ from L29_main_v132_0 m ρ c,
      show V29 m ρ c main_v134 = _ from L29_main_v134 m ρ c,
      show V29 m ρ c main_v4 = _ from L29_main_v4 m ρ c]
    all_goals rfl))

theorem L31_main_arg4 (c : Dev nD) : W31 m ρ c (Proc.devRef .tc main_arg4) = (kargs m c).a4 := by
  show StableHlo.after (hostOps15 (F := Ideal)) (W30 m ρ c) (Proc.devRef .tc main_arg4) = _
  after_results
  exact L30_main_arg4 m ρ c

theorem L31_main_arg5 (c : Dev nD) : W31 m ρ c (Proc.devRef .tc main_arg5) = (kargs m c).a5 := by
  show StableHlo.after (hostOps15 (F := Ideal)) (W30 m ρ c) (Proc.devRef .tc main_arg5) = _
  after_results
  exact L30_main_arg5 m ρ c

theorem L31_main_arg6 (c : Dev nD) : W31 m ρ c (Proc.devRef .tc main_arg6) = (kargs m c).a6 := by
  show StableHlo.after (hostOps15 (F := Ideal)) (W30 m ρ c) (Proc.devRef .tc main_arg6) = _
  after_results
  exact L30_main_arg6 m ρ c

theorem L31_main_arg7 (c : Dev nD) : W31 m ρ c (Proc.devRef .tc main_arg7) = (kargs m c).a7 := by
  show StableHlo.after (hostOps15 (F := Ideal)) (W30 m ρ c) (Proc.devRef .tc main_arg7) = _
  after_results
  exact L30_main_arg7 m ρ c

theorem L31_main_arg8 (c : Dev nD) : W31 m ρ c (Proc.devRef .tc main_arg8) = (kargs m c).a8 := by
  show StableHlo.after (hostOps15 (F := Ideal)) (W30 m ρ c) (Proc.devRef .tc main_arg8) = _
  after_results
  exact L30_main_arg8 m ρ c

theorem L31_main_arg9 (c : Dev nD) : W31 m ρ c (Proc.devRef .tc main_arg9) = (kargs m c).a9 := by
  show StableHlo.after (hostOps15 (F := Ideal)) (W30 m ρ c) (Proc.devRef .tc main_arg9) = _
  after_results
  exact L30_main_arg9 m ρ c

theorem L31_main_arg10 (c : Dev nD) : W31 m ρ c (Proc.devRef .tc main_arg10) = (kargs m c).a10 := by
  show StableHlo.after (hostOps15 (F := Ideal)) (W30 m ρ c) (Proc.devRef .tc main_arg10) = _
  after_results
  exact L30_main_arg10 m ρ c

theorem L31_main_arg11 (c : Dev nD) : W31 m ρ c (Proc.devRef .tc main_arg11) = (kargs m c).a11 := by
  show StableHlo.after (hostOps15 (F := Ideal)) (W30 m ρ c) (Proc.devRef .tc main_arg11) = _
  after_results
  exact L30_main_arg11 m ρ c

theorem L31_main_arg12 (c : Dev nD) : W31 m ρ c (Proc.devRef .tc main_arg12) = (kargs m c).a12 := by
  show StableHlo.after (hostOps15 (F := Ideal)) (W30 m ρ c) (Proc.devRef .tc main_arg12) = _
  after_results
  exact L30_main_arg12 m ρ c

theorem L31_main_arg13 (c : Dev nD) : W31 m ρ c (Proc.devRef .tc main_arg13) = (kargs m c).a13 := by
  show StableHlo.after (hostOps15 (F := Ideal)) (W30 m ρ c) (Proc.devRef .tc main_arg13) = _
  after_results
  exact L30_main_arg13 m ρ c

theorem L31_main_arg14 (c : Dev nD) : W31 m ρ c (Proc.devRef .tc main_arg14) = (kargs m c).a14 := by
  show StableHlo.after (hostOps15 (F := Ideal)) (W30 m ρ c) (Proc.devRef .tc main_arg14) = _
  after_results
  exact L30_main_arg14 m ρ c

theorem L31_main_arg15 (c : Dev nD) : W31 m ρ c (Proc.devRef .tc main_arg15) = (kargs m c).a15 := by
  show StableHlo.after (hostOps15 (F := Ideal)) (W30 m ρ c) (Proc.devRef .tc main_arg15) = _
  after_results
  exact L30_main_arg15 m ρ c

theorem L31_main_arg16 (c : Dev nD) : W31 m ρ c (Proc.devRef .tc main_arg16) = (kargs m c).a16 := by
  show StableHlo.after (hostOps15 (F := Ideal)) (W30 m ρ c) (Proc.devRef .tc main_arg16) = _
  after_results
  exact L30_main_arg16 m ρ c

theorem L31_main_v1 (c : Dev nD) : W31 m ρ c (Proc.devRef .tc main_v1) = src (kargs m c) := by
  show StableHlo.after (hostOps15 (F := Ideal)) (W30 m ρ c) (Proc.devRef .tc main_v1) = _
  after_results
  exact L30_main_v1 m ρ c

theorem L31_main_v3 (c : Dev nD) : W31 m ρ c (Proc.devRef .tc main_v3) = dst (kargs m c) := by
  show StableHlo.after (hostOps15 (F := Ideal)) (W30 m ρ c) (Proc.devRef .tc main_v3) = _
  after_results
  exact L30_main_v3 m ρ c

theorem L31_main_v4 (c : Dev nD) : W31 m ρ c (Proc.devRef .tc main_v4) = zerosB128 := by
  show StableHlo.after (hostOps15 (F := Ideal)) (W30 m ρ c) (Proc.devRef .tc main_v4) = _
  after_results
  exact L30_main_v4 m ρ c

theorem L31_main_v107 (c : Dev nD) : W31 m ρ c (Proc.devRef .tc main_v107) = R_1 (kargs m c) := by
  show StableHlo.after (hostOps15 (F := Ideal)) (W30 m ρ c) (Proc.devRef .tc main_v107) = _
  after_results
  exact L30_main_v107 m ρ c

theorem L31_main_v110 (c : Dev nD) : W31 m ρ c (Proc.devRef .tc main_v110) = D_1 (kargs m c) := by
  show StableHlo.after (hostOps15 (F := Ideal)) (W30 m ρ c) (Proc.devRef .tc main_v110) = _
  after_results
  exact L30_main_v110 m ρ c

theorem L31_main_v132_0 (c : Dev nD) : W31 m ρ c (Proc.devRef .tc main_v132_0) = X1_1 (kargs m c) := by
  show StableHlo.after (hostOps15 (F := Ideal)) (W30 m ρ c) (Proc.devRef .tc main_v132_0) = _
  after_results
  exact L30_main_v132_0 m ρ c

theorem L31_main_v132_1 (c : Dev nD) : W31 m ρ c (Proc.devRef .tc main_v132_1) = V1_1 (kargs m c) := by
  show StableHlo.after (hostOps15 (F := Ideal)) (W30 m ρ c) (Proc.devRef .tc main_v132_1) = _
  after_results
  exact L30_main_v132_1 m ρ c

theorem L31_main_v135 (c : Dev nD) : W31 m ρ c (Proc.devRef .tc main_v135) = lin (X1_1 (kargs m c)) (lapw_1 (kargs m c)) zerosB128 := by
  show StableHlo.after (hostOps15 (F := Ideal)) (W30 m ρ c) (Proc.devRef .tc main_v135) = _
  after_results
  exact L30_main_v135 m ρ c

set_option maxHeartbeats 2000000 in
theorem L31_main_v137 (c : Dev nD) : W31 m ρ c (Proc.devRef .tc main_v137) = dissw_1 (kargs m c) := by
  show StableHlo.after (hostOps15 (F := Ideal)) (W30 m ρ c) (Proc.devRef .tc main_v137) = _
  after_results_simp
  rw [L30_main_arg9 m ρ c]
  rfl

set_option maxHeartbeats 2000000 in
theorem L31_main_v139 (c : Dev nD) : W31 m ρ c (Proc.devRef .tc main_v139) = dissb_1 (kargs m c) := by
  show StableHlo.after (hostOps15 (F := Ideal)) (W30 m ρ c) (Proc.devRef .tc main_v139) = _
  after_results_simp
  rw [L30_main_arg10 m ρ c]
  rfl

theorem L32_main_arg4 (c : Dev nD) : W32 m ρ c (Proc.devRef .tc main_arg4) = (kargs m c).a4 :=
  (W32_of_ne m ρ c main_arg4 (by decide)).trans (L31_main_arg4 m ρ c)

theorem L32_main_arg5 (c : Dev nD) : W32 m ρ c (Proc.devRef .tc main_arg5) = (kargs m c).a5 :=
  (W32_of_ne m ρ c main_arg5 (by decide)).trans (L31_main_arg5 m ρ c)

theorem L32_main_arg6 (c : Dev nD) : W32 m ρ c (Proc.devRef .tc main_arg6) = (kargs m c).a6 :=
  (W32_of_ne m ρ c main_arg6 (by decide)).trans (L31_main_arg6 m ρ c)

theorem L32_main_arg7 (c : Dev nD) : W32 m ρ c (Proc.devRef .tc main_arg7) = (kargs m c).a7 :=
  (W32_of_ne m ρ c main_arg7 (by decide)).trans (L31_main_arg7 m ρ c)

theorem L32_main_arg8 (c : Dev nD) : W32 m ρ c (Proc.devRef .tc main_arg8) = (kargs m c).a8 :=
  (W32_of_ne m ρ c main_arg8 (by decide)).trans (L31_main_arg8 m ρ c)

theorem L32_main_arg9 (c : Dev nD) : W32 m ρ c (Proc.devRef .tc main_arg9) = (kargs m c).a9 :=
  (W32_of_ne m ρ c main_arg9 (by decide)).trans (L31_main_arg9 m ρ c)

theorem L32_main_arg10 (c : Dev nD) : W32 m ρ c (Proc.devRef .tc main_arg10) = (kargs m c).a10 :=
  (W32_of_ne m ρ c main_arg10 (by decide)).trans (L31_main_arg10 m ρ c)

theorem L32_main_arg11 (c : Dev nD) : W32 m ρ c (Proc.devRef .tc main_arg11) = (kargs m c).a11 :=
  (W32_of_ne m ρ c main_arg11 (by decide)).trans (L31_main_arg11 m ρ c)

theorem L32_main_arg12 (c : Dev nD) : W32 m ρ c (Proc.devRef .tc main_arg12) = (kargs m c).a12 :=
  (W32_of_ne m ρ c main_arg12 (by decide)).trans (L31_main_arg12 m ρ c)

theorem L32_main_arg13 (c : Dev nD) : W32 m ρ c (Proc.devRef .tc main_arg13) = (kargs m c).a13 :=
  (W32_of_ne m ρ c main_arg13 (by decide)).trans (L31_main_arg13 m ρ c)

theorem L32_main_arg14 (c : Dev nD) : W32 m ρ c (Proc.devRef .tc main_arg14) = (kargs m c).a14 :=
  (W32_of_ne m ρ c main_arg14 (by decide)).trans (L31_main_arg14 m ρ c)

theorem L32_main_arg15 (c : Dev nD) : W32 m ρ c (Proc.devRef .tc main_arg15) = (kargs m c).a15 :=
  (W32_of_ne m ρ c main_arg15 (by decide)).trans (L31_main_arg15 m ρ c)

theorem L32_main_arg16 (c : Dev nD) : W32 m ρ c (Proc.devRef .tc main_arg16) = (kargs m c).a16 :=
  (W32_of_ne m ρ c main_arg16 (by decide)).trans (L31_main_arg16 m ρ c)

theorem L32_main_v1 (c : Dev nD) : W32 m ρ c (Proc.devRef .tc main_v1) = src (kargs m c) :=
  (W32_of_ne m ρ c main_v1 (by decide)).trans (L31_main_v1 m ρ c)

theorem L32_main_v3 (c : Dev nD) : W32 m ρ c (Proc.devRef .tc main_v3) = dst (kargs m c) :=
  (W32_of_ne m ρ c main_v3 (by decide)).trans (L31_main_v3 m ρ c)

theorem L32_main_v4 (c : Dev nD) : W32 m ρ c (Proc.devRef .tc main_v4) = zerosB128 :=
  (W32_of_ne m ρ c main_v4 (by decide)).trans (L31_main_v4 m ρ c)

theorem L32_main_v107 (c : Dev nD) : W32 m ρ c (Proc.devRef .tc main_v107) = R_1 (kargs m c) :=
  (W32_of_ne m ρ c main_v107 (by decide)).trans (L31_main_v107 m ρ c)

theorem L32_main_v110 (c : Dev nD) : W32 m ρ c (Proc.devRef .tc main_v110) = D_1 (kargs m c) :=
  (W32_of_ne m ρ c main_v110 (by decide)).trans (L31_main_v110 m ρ c)

theorem L32_main_v132_0 (c : Dev nD) : W32 m ρ c (Proc.devRef .tc main_v132_0) = X1_1 (kargs m c) :=
  ((W32_arr m ρ c 0).trans (((dat15 (V31 m ρ) c).arrAt_in 0 rfl _).trans (A_eq15 (V31 m ρ) c 0))).trans (L31_main_v132_0 m ρ c)

theorem L32_main_v132_1 (c : Dev nD) : W32 m ρ c (Proc.devRef .tc main_v132_1) = V1_1 (kargs m c) :=
  (W32_of_ne m ρ c main_v132_1 (by decide)).trans (L31_main_v132_1 m ρ c)

theorem L32_main_v135 (c : Dev nD) : W32 m ρ c (Proc.devRef .tc main_v135) = lin (X1_1 (kargs m c)) (lapw_1 (kargs m c)) zerosB128 :=
  (W32_of_ne m ρ c main_v135 (by decide)).trans (L31_main_v135 m ρ c)

theorem L32_main_v140 (c : Dev nD) : W32 m ρ c (Proc.devRef .tc main_v140) = linRelu (X1_1 (kargs m c)) (dissw_1 (kargs m c)) (dissb_1 (kargs m c)) :=
  (W32_arr m ρ c 3).trans ((Cert.Lin.final15 (V31 m ρ) c).trans (by
    rw [show V31 m ρ c main_v132_0 = _ from L31_main_v132_0 m ρ c,
      show V31 m ρ c main_v137 = _ from L31_main_v137 m ρ c,
      show V31 m ρ c main_v139 = _ from L31_main_v139 m ρ c]
    all_goals rfl))

theorem L33_main_arg4 (c : Dev nD) : W33 m ρ c (Proc.devRef .tc main_arg4) = (kargs m c).a4 := by
  show StableHlo.after (hostOps16 (F := Ideal)) (W32 m ρ c) (Proc.devRef .tc main_arg4) = _
  after_results
  exact L32_main_arg4 m ρ c

theorem L33_main_arg5 (c : Dev nD) : W33 m ρ c (Proc.devRef .tc main_arg5) = (kargs m c).a5 := by
  show StableHlo.after (hostOps16 (F := Ideal)) (W32 m ρ c) (Proc.devRef .tc main_arg5) = _
  after_results
  exact L32_main_arg5 m ρ c

theorem L33_main_arg6 (c : Dev nD) : W33 m ρ c (Proc.devRef .tc main_arg6) = (kargs m c).a6 := by
  show StableHlo.after (hostOps16 (F := Ideal)) (W32 m ρ c) (Proc.devRef .tc main_arg6) = _
  after_results
  exact L32_main_arg6 m ρ c

theorem L33_main_arg7 (c : Dev nD) : W33 m ρ c (Proc.devRef .tc main_arg7) = (kargs m c).a7 := by
  show StableHlo.after (hostOps16 (F := Ideal)) (W32 m ρ c) (Proc.devRef .tc main_arg7) = _
  after_results
  exact L32_main_arg7 m ρ c

theorem L33_main_arg8 (c : Dev nD) : W33 m ρ c (Proc.devRef .tc main_arg8) = (kargs m c).a8 := by
  show StableHlo.after (hostOps16 (F := Ideal)) (W32 m ρ c) (Proc.devRef .tc main_arg8) = _
  after_results
  exact L32_main_arg8 m ρ c

theorem L33_main_arg9 (c : Dev nD) : W33 m ρ c (Proc.devRef .tc main_arg9) = (kargs m c).a9 := by
  show StableHlo.after (hostOps16 (F := Ideal)) (W32 m ρ c) (Proc.devRef .tc main_arg9) = _
  after_results
  exact L32_main_arg9 m ρ c

theorem L33_main_arg10 (c : Dev nD) : W33 m ρ c (Proc.devRef .tc main_arg10) = (kargs m c).a10 := by
  show StableHlo.after (hostOps16 (F := Ideal)) (W32 m ρ c) (Proc.devRef .tc main_arg10) = _
  after_results
  exact L32_main_arg10 m ρ c

theorem L33_main_arg11 (c : Dev nD) : W33 m ρ c (Proc.devRef .tc main_arg11) = (kargs m c).a11 := by
  show StableHlo.after (hostOps16 (F := Ideal)) (W32 m ρ c) (Proc.devRef .tc main_arg11) = _
  after_results
  exact L32_main_arg11 m ρ c

theorem L33_main_arg12 (c : Dev nD) : W33 m ρ c (Proc.devRef .tc main_arg12) = (kargs m c).a12 := by
  show StableHlo.after (hostOps16 (F := Ideal)) (W32 m ρ c) (Proc.devRef .tc main_arg12) = _
  after_results
  exact L32_main_arg12 m ρ c

theorem L33_main_arg13 (c : Dev nD) : W33 m ρ c (Proc.devRef .tc main_arg13) = (kargs m c).a13 := by
  show StableHlo.after (hostOps16 (F := Ideal)) (W32 m ρ c) (Proc.devRef .tc main_arg13) = _
  after_results
  exact L32_main_arg13 m ρ c

theorem L33_main_arg14 (c : Dev nD) : W33 m ρ c (Proc.devRef .tc main_arg14) = (kargs m c).a14 := by
  show StableHlo.after (hostOps16 (F := Ideal)) (W32 m ρ c) (Proc.devRef .tc main_arg14) = _
  after_results
  exact L32_main_arg14 m ρ c

theorem L33_main_arg15 (c : Dev nD) : W33 m ρ c (Proc.devRef .tc main_arg15) = (kargs m c).a15 := by
  show StableHlo.after (hostOps16 (F := Ideal)) (W32 m ρ c) (Proc.devRef .tc main_arg15) = _
  after_results
  exact L32_main_arg15 m ρ c

theorem L33_main_arg16 (c : Dev nD) : W33 m ρ c (Proc.devRef .tc main_arg16) = (kargs m c).a16 := by
  show StableHlo.after (hostOps16 (F := Ideal)) (W32 m ρ c) (Proc.devRef .tc main_arg16) = _
  after_results
  exact L32_main_arg16 m ρ c

theorem L33_main_v1 (c : Dev nD) : W33 m ρ c (Proc.devRef .tc main_v1) = src (kargs m c) := by
  show StableHlo.after (hostOps16 (F := Ideal)) (W32 m ρ c) (Proc.devRef .tc main_v1) = _
  after_results
  exact L32_main_v1 m ρ c

theorem L33_main_v3 (c : Dev nD) : W33 m ρ c (Proc.devRef .tc main_v3) = dst (kargs m c) := by
  show StableHlo.after (hostOps16 (F := Ideal)) (W32 m ρ c) (Proc.devRef .tc main_v3) = _
  after_results
  exact L32_main_v3 m ρ c

theorem L33_main_v4 (c : Dev nD) : W33 m ρ c (Proc.devRef .tc main_v4) = zerosB128 := by
  show StableHlo.after (hostOps16 (F := Ideal)) (W32 m ρ c) (Proc.devRef .tc main_v4) = _
  after_results
  exact L32_main_v4 m ρ c

theorem L33_main_v110 (c : Dev nD) : W33 m ρ c (Proc.devRef .tc main_v110) = D_1 (kargs m c) := by
  show StableHlo.after (hostOps16 (F := Ideal)) (W32 m ρ c) (Proc.devRef .tc main_v110) = _
  after_results
  exact L32_main_v110 m ρ c

theorem L33_main_v132_0 (c : Dev nD) : W33 m ρ c (Proc.devRef .tc main_v132_0) = X1_1 (kargs m c) := by
  show StableHlo.after (hostOps16 (F := Ideal)) (W32 m ρ c) (Proc.devRef .tc main_v132_0) = _
  after_results
  exact L32_main_v132_0 m ρ c

theorem L33_main_v132_1 (c : Dev nD) : W33 m ρ c (Proc.devRef .tc main_v132_1) = V1_1 (kargs m c) := by
  show StableHlo.after (hostOps16 (F := Ideal)) (W32 m ρ c) (Proc.devRef .tc main_v132_1) = _
  after_results
  exact L32_main_v132_1 m ρ c

theorem L33_main_v135 (c : Dev nD) : W33 m ρ c (Proc.devRef .tc main_v135) = lin (X1_1 (kargs m c)) (lapw_1 (kargs m c)) zerosB128 := by
  show StableHlo.after (hostOps16 (F := Ideal)) (W32 m ρ c) (Proc.devRef .tc main_v135) = _
  after_results
  exact L32_main_v135 m ρ c

theorem L33_main_v140 (c : Dev nD) : W33 m ρ c (Proc.devRef .tc main_v140) = linRelu (X1_1 (kargs m c)) (dissw_1 (kargs m c)) (dissb_1 (kargs m c)) := by
  show StableHlo.after (hostOps16 (F := Ideal)) (W32 m ρ c) (Proc.devRef .tc main_v140) = _
  after_results
  exact L32_main_v140 m ρ c

set_option maxHeartbeats 2000000 in
theorem L33_main_v152 (c : Dev nD) : W33 m ρ c (Proc.devRef .tc main_v152) = scatOf (lin (X1_1 (kargs m c)) (lapw_1 (kargs m c)) zerosB128) (R_1 (kargs m c)) (src (kargs m c)) (dst (kargs m c)) := by
  show StableHlo.after (hostOps16 (F := Ideal)) (W32 m ρ c) (Proc.devRef .tc main_v152) = _
  after_results_simp
  rw [L32_main_v3 m ρ c, L32_main_v135 m ρ c, L32_main_v1 m ρ c, L32_main_v107 m ρ c]
  rfl

theorem L34_main_arg4 (c : Dev nD) : W34 m ρ c (Proc.devRef .tc main_arg4) = (kargs m c).a4 :=
  (W34_of_ne m ρ c main_arg4 (by decide)).trans (L33_main_arg4 m ρ c)

theorem L34_main_arg5 (c : Dev nD) : W34 m ρ c (Proc.devRef .tc main_arg5) = (kargs m c).a5 :=
  (W34_of_ne m ρ c main_arg5 (by decide)).trans (L33_main_arg5 m ρ c)

theorem L34_main_arg6 (c : Dev nD) : W34 m ρ c (Proc.devRef .tc main_arg6) = (kargs m c).a6 :=
  (W34_of_ne m ρ c main_arg6 (by decide)).trans (L33_main_arg6 m ρ c)

theorem L34_main_arg7 (c : Dev nD) : W34 m ρ c (Proc.devRef .tc main_arg7) = (kargs m c).a7 :=
  (W34_of_ne m ρ c main_arg7 (by decide)).trans (L33_main_arg7 m ρ c)

theorem L34_main_arg8 (c : Dev nD) : W34 m ρ c (Proc.devRef .tc main_arg8) = (kargs m c).a8 :=
  (W34_of_ne m ρ c main_arg8 (by decide)).trans (L33_main_arg8 m ρ c)

theorem L34_main_arg9 (c : Dev nD) : W34 m ρ c (Proc.devRef .tc main_arg9) = (kargs m c).a9 :=
  (W34_of_ne m ρ c main_arg9 (by decide)).trans (L33_main_arg9 m ρ c)

theorem L34_main_arg10 (c : Dev nD) : W34 m ρ c (Proc.devRef .tc main_arg10) = (kargs m c).a10 :=
  (W34_of_ne m ρ c main_arg10 (by decide)).trans (L33_main_arg10 m ρ c)

theorem L34_main_arg11 (c : Dev nD) : W34 m ρ c (Proc.devRef .tc main_arg11) = (kargs m c).a11 :=
  (W34_of_ne m ρ c main_arg11 (by decide)).trans (L33_main_arg11 m ρ c)

theorem L34_main_arg12 (c : Dev nD) : W34 m ρ c (Proc.devRef .tc main_arg12) = (kargs m c).a12 :=
  (W34_of_ne m ρ c main_arg12 (by decide)).trans (L33_main_arg12 m ρ c)

theorem L34_main_arg13 (c : Dev nD) : W34 m ρ c (Proc.devRef .tc main_arg13) = (kargs m c).a13 :=
  (W34_of_ne m ρ c main_arg13 (by decide)).trans (L33_main_arg13 m ρ c)

theorem L34_main_arg14 (c : Dev nD) : W34 m ρ c (Proc.devRef .tc main_arg14) = (kargs m c).a14 :=
  (W34_of_ne m ρ c main_arg14 (by decide)).trans (L33_main_arg14 m ρ c)

theorem L34_main_arg15 (c : Dev nD) : W34 m ρ c (Proc.devRef .tc main_arg15) = (kargs m c).a15 :=
  (W34_of_ne m ρ c main_arg15 (by decide)).trans (L33_main_arg15 m ρ c)

theorem L34_main_arg16 (c : Dev nD) : W34 m ρ c (Proc.devRef .tc main_arg16) = (kargs m c).a16 :=
  (W34_of_ne m ρ c main_arg16 (by decide)).trans (L33_main_arg16 m ρ c)

theorem L34_main_v1 (c : Dev nD) : W34 m ρ c (Proc.devRef .tc main_v1) = src (kargs m c) :=
  (W34_of_ne m ρ c main_v1 (by decide)).trans (L33_main_v1 m ρ c)

theorem L34_main_v3 (c : Dev nD) : W34 m ρ c (Proc.devRef .tc main_v3) = dst (kargs m c) :=
  (W34_of_ne m ρ c main_v3 (by decide)).trans (L33_main_v3 m ρ c)

theorem L34_main_v4 (c : Dev nD) : W34 m ρ c (Proc.devRef .tc main_v4) = zerosB128 :=
  (W34_of_ne m ρ c main_v4 (by decide)).trans (L33_main_v4 m ρ c)

theorem L34_main_v153_0 (c : Dev nD) : W34 m ρ c (Proc.devRef .tc main_v153_0) = X2_1 (kargs m c) :=
  (W34_arr m ρ c 6).trans ((Cert.Node.final16_x (V33 m ρ) c).trans (by
    rw [show V33 m ρ c main_v132_0 = _ from L33_main_v132_0 m ρ c,
      show V33 m ρ c main_v132_1 = _ from L33_main_v132_1 m ρ c,
      show V33 m ρ c main_v135 = _ from L33_main_v135 m ρ c,
      show V33 m ρ c main_v140 = _ from L33_main_v140 m ρ c,
      show V33 m ρ c main_v110 = _ from L33_main_v110 m ρ c,
      show V33 m ρ c main_v152 = _ from L33_main_v152 m ρ c]
    all_goals rfl))

theorem L35_main_arg4 (c : Dev nD) : W35 m ρ c (Proc.devRef .tc main_arg4) = (kargs m c).a4 := by
  show StableHlo.after (hostOps17 (F := Ideal)) (W34 m ρ c) (Proc.devRef .tc main_arg4) = _
  after_results
  exact L34_main_arg4 m ρ c

theorem L35_main_arg5 (c : Dev nD) : W35 m ρ c (Proc.devRef .tc main_arg5) = (kargs m c).a5 := by
  show StableHlo.after (hostOps17 (F := Ideal)) (W34 m ρ c) (Proc.devRef .tc main_arg5) = _
  after_results
  exact L34_main_arg5 m ρ c

theorem L35_main_arg6 (c : Dev nD) : W35 m ρ c (Proc.devRef .tc main_arg6) = (kargs m c).a6 := by
  show StableHlo.after (hostOps17 (F := Ideal)) (W34 m ρ c) (Proc.devRef .tc main_arg6) = _
  after_results
  exact L34_main_arg6 m ρ c

theorem L35_main_arg7 (c : Dev nD) : W35 m ρ c (Proc.devRef .tc main_arg7) = (kargs m c).a7 := by
  show StableHlo.after (hostOps17 (F := Ideal)) (W34 m ρ c) (Proc.devRef .tc main_arg7) = _
  after_results
  exact L34_main_arg7 m ρ c

theorem L35_main_arg8 (c : Dev nD) : W35 m ρ c (Proc.devRef .tc main_arg8) = (kargs m c).a8 := by
  show StableHlo.after (hostOps17 (F := Ideal)) (W34 m ρ c) (Proc.devRef .tc main_arg8) = _
  after_results
  exact L34_main_arg8 m ρ c

theorem L35_main_arg9 (c : Dev nD) : W35 m ρ c (Proc.devRef .tc main_arg9) = (kargs m c).a9 := by
  show StableHlo.after (hostOps17 (F := Ideal)) (W34 m ρ c) (Proc.devRef .tc main_arg9) = _
  after_results
  exact L34_main_arg9 m ρ c

theorem L35_main_arg10 (c : Dev nD) : W35 m ρ c (Proc.devRef .tc main_arg10) = (kargs m c).a10 := by
  show StableHlo.after (hostOps17 (F := Ideal)) (W34 m ρ c) (Proc.devRef .tc main_arg10) = _
  after_results
  exact L34_main_arg10 m ρ c

theorem L35_main_arg11 (c : Dev nD) : W35 m ρ c (Proc.devRef .tc main_arg11) = (kargs m c).a11 := by
  show StableHlo.after (hostOps17 (F := Ideal)) (W34 m ρ c) (Proc.devRef .tc main_arg11) = _
  after_results
  exact L34_main_arg11 m ρ c

theorem L35_main_arg12 (c : Dev nD) : W35 m ρ c (Proc.devRef .tc main_arg12) = (kargs m c).a12 := by
  show StableHlo.after (hostOps17 (F := Ideal)) (W34 m ρ c) (Proc.devRef .tc main_arg12) = _
  after_results
  exact L34_main_arg12 m ρ c

theorem L35_main_arg13 (c : Dev nD) : W35 m ρ c (Proc.devRef .tc main_arg13) = (kargs m c).a13 := by
  show StableHlo.after (hostOps17 (F := Ideal)) (W34 m ρ c) (Proc.devRef .tc main_arg13) = _
  after_results
  exact L34_main_arg13 m ρ c

theorem L35_main_arg14 (c : Dev nD) : W35 m ρ c (Proc.devRef .tc main_arg14) = (kargs m c).a14 := by
  show StableHlo.after (hostOps17 (F := Ideal)) (W34 m ρ c) (Proc.devRef .tc main_arg14) = _
  after_results
  exact L34_main_arg14 m ρ c

theorem L35_main_arg15 (c : Dev nD) : W35 m ρ c (Proc.devRef .tc main_arg15) = (kargs m c).a15 := by
  show StableHlo.after (hostOps17 (F := Ideal)) (W34 m ρ c) (Proc.devRef .tc main_arg15) = _
  after_results
  exact L34_main_arg15 m ρ c

theorem L35_main_arg16 (c : Dev nD) : W35 m ρ c (Proc.devRef .tc main_arg16) = (kargs m c).a16 := by
  show StableHlo.after (hostOps17 (F := Ideal)) (W34 m ρ c) (Proc.devRef .tc main_arg16) = _
  after_results
  exact L34_main_arg16 m ρ c

theorem L35_main_v1 (c : Dev nD) : W35 m ρ c (Proc.devRef .tc main_v1) = src (kargs m c) := by
  show StableHlo.after (hostOps17 (F := Ideal)) (W34 m ρ c) (Proc.devRef .tc main_v1) = _
  after_results
  exact L34_main_v1 m ρ c

theorem L35_main_v3 (c : Dev nD) : W35 m ρ c (Proc.devRef .tc main_v3) = dst (kargs m c) := by
  show StableHlo.after (hostOps17 (F := Ideal)) (W34 m ρ c) (Proc.devRef .tc main_v3) = _
  after_results
  exact L34_main_v3 m ρ c

theorem L35_main_v4 (c : Dev nD) : W35 m ρ c (Proc.devRef .tc main_v4) = zerosB128 := by
  show StableHlo.after (hostOps17 (F := Ideal)) (W34 m ρ c) (Proc.devRef .tc main_v4) = _
  after_results
  exact L34_main_v4 m ρ c

theorem L35_main_v153_0 (c : Dev nD) : W35 m ρ c (Proc.devRef .tc main_v153_0) = X2_1 (kargs m c) := by
  show StableHlo.after (hostOps17 (F := Ideal)) (W34 m ρ c) (Proc.devRef .tc main_v153_0) = _
  after_results
  exact L34_main_v153_0 m ρ c

set_option maxHeartbeats 2000000 in
theorem L35_main_v155 (c : Dev nD) : W35 m ρ c (Proc.devRef .tc main_v155) = m1w_1 (kargs m c) := by
  show StableHlo.after (hostOps17 (F := Ideal)) (W34 m ρ c) (Proc.devRef .tc main_v155) = _
  after_results_simp
  rw [L34_main_arg11 m ρ c]
  rfl

set_option maxHeartbeats 2000000 in
theorem L35_main_v157 (c : Dev nD) : W35 m ρ c (Proc.devRef .tc main_v157) = m1b_1 (kargs m c) := by
  show StableHlo.after (hostOps17 (F := Ideal)) (W34 m ρ c) (Proc.devRef .tc main_v157) = _
  after_results_simp
  rw [L34_main_arg12 m ρ c]
  rfl

theorem L36_main_arg4 (c : Dev nD) : W36 m ρ c (Proc.devRef .tc main_arg4) = (kargs m c).a4 :=
  (W36_of_ne m ρ c main_arg4 (by decide)).trans (L35_main_arg4 m ρ c)

theorem L36_main_arg5 (c : Dev nD) : W36 m ρ c (Proc.devRef .tc main_arg5) = (kargs m c).a5 :=
  (W36_of_ne m ρ c main_arg5 (by decide)).trans (L35_main_arg5 m ρ c)

theorem L36_main_arg6 (c : Dev nD) : W36 m ρ c (Proc.devRef .tc main_arg6) = (kargs m c).a6 :=
  (W36_of_ne m ρ c main_arg6 (by decide)).trans (L35_main_arg6 m ρ c)

theorem L36_main_arg7 (c : Dev nD) : W36 m ρ c (Proc.devRef .tc main_arg7) = (kargs m c).a7 :=
  (W36_of_ne m ρ c main_arg7 (by decide)).trans (L35_main_arg7 m ρ c)

theorem L36_main_arg8 (c : Dev nD) : W36 m ρ c (Proc.devRef .tc main_arg8) = (kargs m c).a8 :=
  (W36_of_ne m ρ c main_arg8 (by decide)).trans (L35_main_arg8 m ρ c)

theorem L36_main_arg9 (c : Dev nD) : W36 m ρ c (Proc.devRef .tc main_arg9) = (kargs m c).a9 :=
  (W36_of_ne m ρ c main_arg9 (by decide)).trans (L35_main_arg9 m ρ c)

theorem L36_main_arg10 (c : Dev nD) : W36 m ρ c (Proc.devRef .tc main_arg10) = (kargs m c).a10 :=
  (W36_of_ne m ρ c main_arg10 (by decide)).trans (L35_main_arg10 m ρ c)

theorem L36_main_arg11 (c : Dev nD) : W36 m ρ c (Proc.devRef .tc main_arg11) = (kargs m c).a11 :=
  (W36_of_ne m ρ c main_arg11 (by decide)).trans (L35_main_arg11 m ρ c)

theorem L36_main_arg12 (c : Dev nD) : W36 m ρ c (Proc.devRef .tc main_arg12) = (kargs m c).a12 :=
  (W36_of_ne m ρ c main_arg12 (by decide)).trans (L35_main_arg12 m ρ c)

theorem L36_main_arg13 (c : Dev nD) : W36 m ρ c (Proc.devRef .tc main_arg13) = (kargs m c).a13 :=
  (W36_of_ne m ρ c main_arg13 (by decide)).trans (L35_main_arg13 m ρ c)

theorem L36_main_arg14 (c : Dev nD) : W36 m ρ c (Proc.devRef .tc main_arg14) = (kargs m c).a14 :=
  (W36_of_ne m ρ c main_arg14 (by decide)).trans (L35_main_arg14 m ρ c)

theorem L36_main_arg15 (c : Dev nD) : W36 m ρ c (Proc.devRef .tc main_arg15) = (kargs m c).a15 :=
  (W36_of_ne m ρ c main_arg15 (by decide)).trans (L35_main_arg15 m ρ c)

theorem L36_main_arg16 (c : Dev nD) : W36 m ρ c (Proc.devRef .tc main_arg16) = (kargs m c).a16 :=
  (W36_of_ne m ρ c main_arg16 (by decide)).trans (L35_main_arg16 m ρ c)

theorem L36_main_v1 (c : Dev nD) : W36 m ρ c (Proc.devRef .tc main_v1) = src (kargs m c) :=
  (W36_of_ne m ρ c main_v1 (by decide)).trans (L35_main_v1 m ρ c)

theorem L36_main_v3 (c : Dev nD) : W36 m ρ c (Proc.devRef .tc main_v3) = dst (kargs m c) :=
  (W36_of_ne m ρ c main_v3 (by decide)).trans (L35_main_v3 m ρ c)

theorem L36_main_v4 (c : Dev nD) : W36 m ρ c (Proc.devRef .tc main_v4) = zerosB128 :=
  (W36_of_ne m ρ c main_v4 (by decide)).trans (L35_main_v4 m ρ c)

theorem L36_main_v158 (c : Dev nD) : W36 m ρ c (Proc.devRef .tc main_v158) = H_1 (kargs m c) :=
  (W36_arr m ρ c 3).trans ((Cert.Lin.final17 (V35 m ρ) c).trans (by
    rw [show V35 m ρ c main_v153_0 = _ from L35_main_v153_0 m ρ c,
      show V35 m ρ c main_v155 = _ from L35_main_v155 m ρ c,
      show V35 m ρ c main_v157 = _ from L35_main_v157 m ρ c]
    all_goals rfl))

theorem L37_main_arg4 (c : Dev nD) : W37 m ρ c (Proc.devRef .tc main_arg4) = (kargs m c).a4 := by
  show StableHlo.after (hostOps18 (F := Ideal)) (W36 m ρ c) (Proc.devRef .tc main_arg4) = _
  after_results
  exact L36_main_arg4 m ρ c

theorem L37_main_arg5 (c : Dev nD) : W37 m ρ c (Proc.devRef .tc main_arg5) = (kargs m c).a5 := by
  show StableHlo.after (hostOps18 (F := Ideal)) (W36 m ρ c) (Proc.devRef .tc main_arg5) = _
  after_results
  exact L36_main_arg5 m ρ c

theorem L37_main_arg6 (c : Dev nD) : W37 m ρ c (Proc.devRef .tc main_arg6) = (kargs m c).a6 := by
  show StableHlo.after (hostOps18 (F := Ideal)) (W36 m ρ c) (Proc.devRef .tc main_arg6) = _
  after_results
  exact L36_main_arg6 m ρ c

theorem L37_main_arg7 (c : Dev nD) : W37 m ρ c (Proc.devRef .tc main_arg7) = (kargs m c).a7 := by
  show StableHlo.after (hostOps18 (F := Ideal)) (W36 m ρ c) (Proc.devRef .tc main_arg7) = _
  after_results
  exact L36_main_arg7 m ρ c

theorem L37_main_arg8 (c : Dev nD) : W37 m ρ c (Proc.devRef .tc main_arg8) = (kargs m c).a8 := by
  show StableHlo.after (hostOps18 (F := Ideal)) (W36 m ρ c) (Proc.devRef .tc main_arg8) = _
  after_results
  exact L36_main_arg8 m ρ c

theorem L37_main_arg9 (c : Dev nD) : W37 m ρ c (Proc.devRef .tc main_arg9) = (kargs m c).a9 := by
  show StableHlo.after (hostOps18 (F := Ideal)) (W36 m ρ c) (Proc.devRef .tc main_arg9) = _
  after_results
  exact L36_main_arg9 m ρ c

theorem L37_main_arg10 (c : Dev nD) : W37 m ρ c (Proc.devRef .tc main_arg10) = (kargs m c).a10 := by
  show StableHlo.after (hostOps18 (F := Ideal)) (W36 m ρ c) (Proc.devRef .tc main_arg10) = _
  after_results
  exact L36_main_arg10 m ρ c

theorem L37_main_arg11 (c : Dev nD) : W37 m ρ c (Proc.devRef .tc main_arg11) = (kargs m c).a11 := by
  show StableHlo.after (hostOps18 (F := Ideal)) (W36 m ρ c) (Proc.devRef .tc main_arg11) = _
  after_results
  exact L36_main_arg11 m ρ c

theorem L37_main_arg12 (c : Dev nD) : W37 m ρ c (Proc.devRef .tc main_arg12) = (kargs m c).a12 := by
  show StableHlo.after (hostOps18 (F := Ideal)) (W36 m ρ c) (Proc.devRef .tc main_arg12) = _
  after_results
  exact L36_main_arg12 m ρ c

theorem L37_main_arg13 (c : Dev nD) : W37 m ρ c (Proc.devRef .tc main_arg13) = (kargs m c).a13 := by
  show StableHlo.after (hostOps18 (F := Ideal)) (W36 m ρ c) (Proc.devRef .tc main_arg13) = _
  after_results
  exact L36_main_arg13 m ρ c

theorem L37_main_arg14 (c : Dev nD) : W37 m ρ c (Proc.devRef .tc main_arg14) = (kargs m c).a14 := by
  show StableHlo.after (hostOps18 (F := Ideal)) (W36 m ρ c) (Proc.devRef .tc main_arg14) = _
  after_results
  exact L36_main_arg14 m ρ c

theorem L37_main_arg15 (c : Dev nD) : W37 m ρ c (Proc.devRef .tc main_arg15) = (kargs m c).a15 := by
  show StableHlo.after (hostOps18 (F := Ideal)) (W36 m ρ c) (Proc.devRef .tc main_arg15) = _
  after_results
  exact L36_main_arg15 m ρ c

theorem L37_main_arg16 (c : Dev nD) : W37 m ρ c (Proc.devRef .tc main_arg16) = (kargs m c).a16 := by
  show StableHlo.after (hostOps18 (F := Ideal)) (W36 m ρ c) (Proc.devRef .tc main_arg16) = _
  after_results
  exact L36_main_arg16 m ρ c

theorem L37_main_v1 (c : Dev nD) : W37 m ρ c (Proc.devRef .tc main_v1) = src (kargs m c) := by
  show StableHlo.after (hostOps18 (F := Ideal)) (W36 m ρ c) (Proc.devRef .tc main_v1) = _
  after_results
  exact L36_main_v1 m ρ c

theorem L37_main_v3 (c : Dev nD) : W37 m ρ c (Proc.devRef .tc main_v3) = dst (kargs m c) := by
  show StableHlo.after (hostOps18 (F := Ideal)) (W36 m ρ c) (Proc.devRef .tc main_v3) = _
  after_results
  exact L36_main_v3 m ρ c

theorem L37_main_v4 (c : Dev nD) : W37 m ρ c (Proc.devRef .tc main_v4) = zerosB128 := by
  show StableHlo.after (hostOps18 (F := Ideal)) (W36 m ρ c) (Proc.devRef .tc main_v4) = _
  after_results
  exact L36_main_v4 m ρ c

theorem L37_main_v158 (c : Dev nD) : W37 m ρ c (Proc.devRef .tc main_v158) = H_1 (kargs m c) := by
  show StableHlo.after (hostOps18 (F := Ideal)) (W36 m ρ c) (Proc.devRef .tc main_v158) = _
  after_results
  exact L36_main_v158 m ρ c

set_option maxHeartbeats 2000000 in
theorem L37_main_v160 (c : Dev nD) : W37 m ρ c (Proc.devRef .tc main_v160) = m2w_1 (kargs m c) := by
  show StableHlo.after (hostOps18 (F := Ideal)) (W36 m ρ c) (Proc.devRef .tc main_v160) = _
  after_results_simp
  rw [L36_main_arg13 m ρ c]
  rfl

set_option maxHeartbeats 2000000 in
theorem L37_main_v162 (c : Dev nD) : W37 m ρ c (Proc.devRef .tc main_v162) = m2b_1 (kargs m c) := by
  show StableHlo.after (hostOps18 (F := Ideal)) (W36 m ρ c) (Proc.devRef .tc main_v162) = _
  after_results_simp
  rw [L36_main_arg14 m ρ c]
  rfl

theorem L38_main_arg4 (c : Dev nD) : W38 m ρ c (Proc.devRef .tc main_arg4) = (kargs m c).a4 :=
  (W38_of_ne m ρ c main_arg4 (by decide)).trans (L37_main_arg4 m ρ c)

theorem L38_main_arg5 (c : Dev nD) : W38 m ρ c (Proc.devRef .tc main_arg5) = (kargs m c).a5 :=
  (W38_of_ne m ρ c main_arg5 (by decide)).trans (L37_main_arg5 m ρ c)

theorem L38_main_arg6 (c : Dev nD) : W38 m ρ c (Proc.devRef .tc main_arg6) = (kargs m c).a6 :=
  (W38_of_ne m ρ c main_arg6 (by decide)).trans (L37_main_arg6 m ρ c)

theorem L38_main_arg7 (c : Dev nD) : W38 m ρ c (Proc.devRef .tc main_arg7) = (kargs m c).a7 :=
  (W38_of_ne m ρ c main_arg7 (by decide)).trans (L37_main_arg7 m ρ c)

theorem L38_main_arg8 (c : Dev nD) : W38 m ρ c (Proc.devRef .tc main_arg8) = (kargs m c).a8 :=
  (W38_of_ne m ρ c main_arg8 (by decide)).trans (L37_main_arg8 m ρ c)

theorem L38_main_arg9 (c : Dev nD) : W38 m ρ c (Proc.devRef .tc main_arg9) = (kargs m c).a9 :=
  (W38_of_ne m ρ c main_arg9 (by decide)).trans (L37_main_arg9 m ρ c)

theorem L38_main_arg10 (c : Dev nD) : W38 m ρ c (Proc.devRef .tc main_arg10) = (kargs m c).a10 :=
  (W38_of_ne m ρ c main_arg10 (by decide)).trans (L37_main_arg10 m ρ c)

theorem L38_main_arg11 (c : Dev nD) : W38 m ρ c (Proc.devRef .tc main_arg11) = (kargs m c).a11 :=
  (W38_of_ne m ρ c main_arg11 (by decide)).trans (L37_main_arg11 m ρ c)

theorem L38_main_arg12 (c : Dev nD) : W38 m ρ c (Proc.devRef .tc main_arg12) = (kargs m c).a12 :=
  (W38_of_ne m ρ c main_arg12 (by decide)).trans (L37_main_arg12 m ρ c)

theorem L38_main_arg13 (c : Dev nD) : W38 m ρ c (Proc.devRef .tc main_arg13) = (kargs m c).a13 :=
  (W38_of_ne m ρ c main_arg13 (by decide)).trans (L37_main_arg13 m ρ c)

theorem L38_main_arg14 (c : Dev nD) : W38 m ρ c (Proc.devRef .tc main_arg14) = (kargs m c).a14 :=
  (W38_of_ne m ρ c main_arg14 (by decide)).trans (L37_main_arg14 m ρ c)

theorem L38_main_arg15 (c : Dev nD) : W38 m ρ c (Proc.devRef .tc main_arg15) = (kargs m c).a15 :=
  (W38_of_ne m ρ c main_arg15 (by decide)).trans (L37_main_arg15 m ρ c)

theorem L38_main_arg16 (c : Dev nD) : W38 m ρ c (Proc.devRef .tc main_arg16) = (kargs m c).a16 :=
  (W38_of_ne m ρ c main_arg16 (by decide)).trans (L37_main_arg16 m ρ c)

theorem L38_main_v1 (c : Dev nD) : W38 m ρ c (Proc.devRef .tc main_v1) = src (kargs m c) :=
  (W38_of_ne m ρ c main_v1 (by decide)).trans (L37_main_v1 m ρ c)

theorem L38_main_v3 (c : Dev nD) : W38 m ρ c (Proc.devRef .tc main_v3) = dst (kargs m c) :=
  (W38_of_ne m ρ c main_v3 (by decide)).trans (L37_main_v3 m ρ c)

theorem L38_main_v4 (c : Dev nD) : W38 m ρ c (Proc.devRef .tc main_v4) = zerosB128 :=
  (W38_of_ne m ρ c main_v4 (by decide)).trans (L37_main_v4 m ρ c)

theorem L38_main_v163 (c : Dev nD) : W38 m ρ c (Proc.devRef .tc main_v163) = XIN_2 (kargs m c) :=
  (W38_arr m ρ c 3).trans ((Cert.Lin.final18 (V37 m ρ) c).trans (by
    rw [show V37 m ρ c main_v158 = _ from L37_main_v158 m ρ c,
      show V37 m ρ c main_v160 = _ from L37_main_v160 m ρ c,
      show V37 m ρ c main_v162 = _ from L37_main_v162 m ρ c]
    all_goals rfl))

end Cert.KChain

end
-- ==== Proof.KChain2.lean ====
/- What each buffer of the kernel program holds at each boundary between its segments (host stretches and pallas regions),
   while a later segment still reads it: the named value of Model.lean. A region's output is its whole-array function of
   the region's input arrays; a host stretch's result is its operations applied to what the stretch finds; a buffer no
   segment writes keeps its contents (an input window's array is written back unchanged). -/
import proofs.«107783_j24189255811079_1_alg».proof.Proof.KChain1

set_option maxRecDepth 16384

noncomputable section

namespace Cert.KChain

open Idealize.ShloMosaic Idealize.ShloMosaic.TcCoe Idealize.SL.Sem Cert.KernelIdeal Cert.KernelIdeal.Gen Cert.Model Cert.Spec

variable (m : (ℓ : Loc nD τ sig) → Buf (Elt Ideal) ℓ) (ρ : Dev nD → PrngReg)

theorem L39_main_arg4 (c : Dev nD) : W39 m ρ c (Proc.devRef .tc main_arg4) = (kargs m c).a4 := by
  show StableHlo.after (hostOps19 (F := Ideal)) (W38 m ρ c) (Proc.devRef .tc main_arg4) = _
  after_results
  exact L38_main_arg4 m ρ c

theorem L39_main_arg9 (c : Dev nD) : W39 m ρ c (Proc.devRef .tc main_arg9) = (kargs m c).a9 := by
  show StableHlo.after (hostOps19 (F := Ideal)) (W38 m ρ c) (Proc.devRef .tc main_arg9) = _
  after_results
  exact L38_main_arg9 m ρ c

theorem L39_main_arg10 (c : Dev nD) : W39 m ρ c (Proc.devRef .tc main_arg10) = (kargs m c).a10 := by
  show StableHlo.after (hostOps19 (F := Ideal)) (W38 m ρ c) (Proc.devRef .tc main_arg10) = _
  after_results
  exact L38_main_arg10 m ρ c

theorem L39_main_arg11 (c : Dev nD) : W39 m ρ c (Proc.devRef .tc main_arg11) = (kargs m c).a11 := by
  show StableHlo.after (hostOps19 (F := Ideal)) (W38 m ρ c) (Proc.devRef .tc main_arg11) = _
  after_results
  exact L38_main_arg11 m ρ c

theorem L39_main_arg12 (c : Dev nD) : W39 m ρ c (Proc.devRef .tc main_arg12) = (kargs m c).a12 := by
  show StableHlo.after (hostOps19 (F := Ideal)) (W38 m ρ c) (Proc.devRef .tc main_arg12) = _
  after_results
  exact L38_main_arg12 m ρ c

theorem L39_main_arg13 (c : Dev nD) : W39 m ρ c (Proc.devRef .tc main_arg13) = (kargs m c).a13 := by
  show StableHlo.after (hostOps19 (F := Ideal)) (W38 m ρ c) (Proc.devRef .tc main_arg13) = _
  after_results
  exact L38_main_arg13 m ρ c

theorem L39_main_arg14 (c : Dev nD) : W39 m ρ c (Proc.devRef .tc main_arg14) = (kargs m c).a14 := by
  show StableHlo.after (hostOps19 (F := Ideal)) (W38 m ρ c) (Proc.devRef .tc main_arg14) = _
  after_results
  exact L38_main_arg14 m ρ c

theorem L39_main_arg15 (c : Dev nD) : W39 m ρ c (Proc.devRef .tc main_arg15) = (kargs m c).a15 := by
  show StableHlo.after (hostOps19 (F := Ideal)) (W38 m ρ c) (Proc.devRef .tc main_arg15) = _
  after_results
  exact L38_main_arg15 m ρ c

theorem L39_main_arg16 (c : Dev nD) : W39 m ρ c (Proc.devRef .tc main_arg16) = (kargs m c).a16 := by
  show StableHlo.after (hostOps19 (F := Ideal)) (W38 m ρ c) (Proc.devRef .tc main_arg16) = _
  after_results
  exact L38_main_arg16 m ρ c

theorem L39_main_v1 (c : Dev nD) : W39 m ρ c (Proc.devRef .tc main_v1) = src (kargs m c) := by
  show StableHlo.after (hostOps19 (F := Ideal)) (W38 m ρ c) (Proc.devRef .tc main_v1) = _
  after_results
  exact L38_main_v1 m ρ c

theorem L39_main_v3 (c : Dev nD) : W39 m ρ c (Proc.devRef .tc main_v3) = dst (kargs m c) := by
  show StableHlo.after (hostOps19 (F := Ideal)) (W38 m ρ c) (Proc.devRef .tc main_v3) = _
  after_results
  exact L38_main_v3 m ρ c

theorem L39_main_v4 (c : Dev nD) : W39 m ρ c (Proc.devRef .tc main_v4) = zerosB128 := by
  show StableHlo.after (hostOps19 (F := Ideal)) (W38 m ρ c) (Proc.devRef .tc main_v4) = _
  after_results
  exact L38_main_v4 m ρ c

theorem L39_main_v163 (c : Dev nD) : W39 m ρ c (Proc.devRef .tc main_v163) = XIN_2 (kargs m c) := by
  show StableHlo.after (hostOps19 (F := Ideal)) (W38 m ρ c) (Proc.devRef .tc main_v163) = _
  after_results
  exact L38_main_v163 m ρ c

set_option maxHeartbeats 2000000 in
theorem L39_main_v170 (c : Dev nD) : W39 m ρ c (Proc.devRef .tc main_v170) = gatherRows (XIN_2 (kargs m c)) (src (kargs m c)) := by
  show StableHlo.after (hostOps19 (F := Ideal)) (W38 m ρ c) (Proc.devRef .tc main_v170) = _
  after_results_simp
  rw [L38_main_v163 m ρ c, L38_main_v1 m ρ c]
  rfl

set_option maxHeartbeats 2000000 in
theorem L39_main_v177 (c : Dev nD) : W39 m ρ c (Proc.devRef .tc main_v177) = gatherRows (XIN_2 (kargs m c)) (dst (kargs m c)) := by
  show StableHlo.after (hostOps19 (F := Ideal)) (W38 m ρ c) (Proc.devRef .tc main_v177) = _
  after_results_simp
  rw [L38_main_v163 m ρ c, L38_main_v3 m ρ c]
  rfl

set_option maxHeartbeats 2000000 in
theorem L39_main_v179 (c : Dev nD) : W39 m ρ c (Proc.devRef .tc main_v179) = w1_2 (kargs m c) := by
  show StableHlo.after (hostOps19 (F := Ideal)) (W38 m ρ c) (Proc.devRef .tc main_v179) = _
  after_results_simp
  rw [L38_main_arg5 m ρ c]
  rfl

set_option maxHeartbeats 2000000 in
theorem L39_main_v181 (c : Dev nD) : W39 m ρ c (Proc.devRef .tc main_v181) = b1_2 (kargs m c) := by
  show StableHlo.after (hostOps19 (F := Ideal)) (W38 m ρ c) (Proc.devRef .tc main_v181) = _
  after_results_simp
  rw [L38_main_arg6 m ρ c]
  rfl

set_option maxHeartbeats 2000000 in
theorem L39_main_v183 (c : Dev nD) : W39 m ρ c (Proc.devRef .tc main_v183) = w2_2 (kargs m c) := by
  show StableHlo.after (hostOps19 (F := Ideal)) (W38 m ρ c) (Proc.devRef .tc main_v183) = _
  after_results_simp
  rw [L38_main_arg7 m ρ c]
  rfl

set_option maxHeartbeats 2000000 in
theorem L39_main_v185 (c : Dev nD) : W39 m ρ c (Proc.devRef .tc main_v185) = b2_2 (kargs m c) := by
  show StableHlo.after (hostOps19 (F := Ideal)) (W38 m ρ c) (Proc.devRef .tc main_v185) = _
  after_results_simp
  rw [L38_main_arg8 m ρ c]
  rfl

theorem L40_main_arg4 (c : Dev nD) : W40 m ρ c (Proc.devRef .tc main_arg4) = (kargs m c).a4 :=
  (W40_of_ne m ρ c main_arg4 (by decide)).trans (L39_main_arg4 m ρ c)

theorem L40_main_arg9 (c : Dev nD) : W40 m ρ c (Proc.devRef .tc main_arg9) = (kargs m c).a9 :=
  (W40_of_ne m ρ c main_arg9 (by decide)).trans (L39_main_arg9 m ρ c)

theorem L40_main_arg10 (c : Dev nD) : W40 m ρ c (Proc.devRef .tc main_arg10) = (kargs m c).a10 :=
  (W40_of_ne m ρ c main_arg10 (by decide)).trans (L39_main_arg10 m ρ c)

theorem L40_main_arg11 (c : Dev nD) : W40 m ρ c (Proc.devRef .tc main_arg11) = (kargs m c).a11 :=
  (W40_of_ne m ρ c main_arg11 (by decide)).trans (L39_main_arg11 m ρ c)

theorem L40_main_arg12 (c : Dev nD) : W40 m ρ c (Proc.devRef .tc main_arg12) = (kargs m c).a12 :=
  (W40_of_ne m ρ c main_arg12 (by decide)).trans (L39_main_arg12 m ρ c)

theorem L40_main_arg13 (c : Dev nD) : W40 m ρ c (Proc.devRef .tc main_arg13) = (kargs m c).a13 :=
  (W40_of_ne m ρ c main_arg13 (by decide)).trans (L39_main_arg13 m ρ c)

theorem L40_main_arg14 (c : Dev nD) : W40 m ρ c (Proc.devRef .tc main_arg14) = (kargs m c).a14 :=
  (W40_of_ne m ρ c main_arg14 (by decide)).trans (L39_main_arg14 m ρ c)

theorem L40_main_arg15 (c : Dev nD) : W40 m ρ c (Proc.devRef .tc main_arg15) = (kargs m c).a15 :=
  (W40_of_ne m ρ c main_arg15 (by decide)).trans (L39_main_arg15 m ρ c)

theorem L40_main_arg16 (c : Dev nD) : W40 m ρ c (Proc.devRef .tc main_arg16) = (kargs m c).a16 :=
  (W40_of_ne m ρ c main_arg16 (by decide)).trans (L39_main_arg16 m ρ c)

theorem L40_main_v1 (c : Dev nD) : W40 m ρ c (Proc.devRef .tc main_v1) = src (kargs m c) :=
  (W40_of_ne m ρ c main_v1 (by decide)).trans (L39_main_v1 m ρ c)

theorem L40_main_v3 (c : Dev nD) : W40 m ρ c (Proc.devRef .tc main_v3) = dst (kargs m c) :=
  (W40_of_ne m ρ c main_v3 (by decide)).trans (L39_main_v3 m ρ c)

theorem L40_main_v4 (c : Dev nD) : W40 m ρ c (Proc.devRef .tc main_v4) = zerosB128 :=
  (W40_of_ne m ρ c main_v4 (by decide)).trans (L39_main_v4 m ρ c)

theorem L40_main_v163 (c : Dev nD) : W40 m ρ c (Proc.devRef .tc main_v163) = XIN_2 (kargs m c) :=
  (W40_of_ne m ρ c main_v163 (by decide)).trans (L39_main_v163 m ρ c)

theorem L40_main_v186 (c : Dev nD) : W40 m ρ c (Proc.devRef .tc main_v186) = R_2 (kargs m c) :=
  (W40_arr m ρ c 6).trans ((Cert.Edge.final19 (V39 m ρ) c).trans (by
    rw [show V39 m ρ c main_v170 = _ from L39_main_v170 m ρ c,
      show V39 m ρ c main_v177 = _ from L39_main_v177 m ρ c,
      show V39 m ρ c main_v179 = _ from L39_main_v179 m ρ c,
      show V39 m ρ c main_v181 = _ from L39_main_v181 m ρ c,
      show V39 m ρ c main_v183 = _ from L39_main_v183 m ρ c,
      show V39 m ρ c main_v185 = _ from L39_main_v185 m ρ c]
    all_goals rfl))

theorem L41_main_arg4 (c : Dev nD) : W41 m ρ c (Proc.devRef .tc main_arg4) = (kargs m c).a4 := by
  show StableHlo.after (hostOps20 (F := Ideal)) (W40 m ρ c) (Proc.devRef .tc main_arg4) = _
  after_results
  exact L40_main_arg4 m ρ c

theorem L41_main_arg9 (c : Dev nD) : W41 m ρ c (Proc.devRef .tc main_arg9) = (kargs m c).a9 := by
  show StableHlo.after (hostOps20 (F := Ideal)) (W40 m ρ c) (Proc.devRef .tc main_arg9) = _
  after_results
  exact L40_main_arg9 m ρ c

theorem L41_main_arg10 (c : Dev nD) : W41 m ρ c (Proc.devRef .tc main_arg10) = (kargs m c).a10 := by
  show StableHlo.after (hostOps20 (F := Ideal)) (W40 m ρ c) (Proc.devRef .tc main_arg10) = _
  after_results
  exact L40_main_arg10 m ρ c

theorem L41_main_arg11 (c : Dev nD) : W41 m ρ c (Proc.devRef .tc main_arg11) = (kargs m c).a11 := by
  show StableHlo.after (hostOps20 (F := Ideal)) (W40 m ρ c) (Proc.devRef .tc main_arg11) = _
  after_results
  exact L40_main_arg11 m ρ c

theorem L41_main_arg12 (c : Dev nD) : W41 m ρ c (Proc.devRef .tc main_arg12) = (kargs m c).a12 := by
  show StableHlo.after (hostOps20 (F := Ideal)) (W40 m ρ c) (Proc.devRef .tc main_arg12) = _
  after_results
  exact L40_main_arg12 m ρ c

theorem L41_main_arg13 (c : Dev nD) : W41 m ρ c (Proc.devRef .tc main_arg13) = (kargs m c).a13 := by
  show StableHlo.after (hostOps20 (F := Ideal)) (W40 m ρ c) (Proc.devRef .tc main_arg13) = _
  after_results
  exact L40_main_arg13 m ρ c

theorem L41_main_arg14 (c : Dev nD) : W41 m ρ c (Proc.devRef .tc main_arg14) = (kargs m c).a14 := by
  show StableHlo.after (hostOps20 (F := Ideal)) (W40 m ρ c) (Proc.devRef .tc main_arg14) = _
  after_results
  exact L40_main_arg14 m ρ c

theorem L41_main_arg15 (c : Dev nD) : W41 m ρ c (Proc.devRef .tc main_arg15) = (kargs m c).a15 := by
  show StableHlo.after (hostOps20 (F := Ideal)) (W40 m ρ c) (Proc.devRef .tc main_arg15) = _
  after_results
  exact L40_main_arg15 m ρ c

theorem L41_main_arg16 (c : Dev nD) : W41 m ρ c (Proc.devRef .tc main_arg16) = (kargs m c).a16 := by
  show StableHlo.after (hostOps20 (F := Ideal)) (W40 m ρ c) (Proc.devRef .tc main_arg16) = _
  after_results
  exact L40_main_arg16 m ρ c

theorem L41_main_v1 (c : Dev nD) : W41 m ρ c (Proc.devRef .tc main_v1) = src (kargs m c) := by
  show StableHlo.after (hostOps20 (F := Ideal)) (W40 m ρ c) (Proc.devRef .tc main_v1) = _
  after_results
  exact L40_main_v1 m ρ c

theorem L41_main_v3 (c : Dev nD) : W41 m ρ c (Proc.devRef .tc main_v3) = dst (kargs m c) := by
  show StableHlo.after (hostOps20 (F := Ideal)) (W40 m ρ c) (Proc.devRef .tc main_v3) = _
  after_results
  exact L40_main_v3 m ρ c

theorem L41_main_v4 (c : Dev nD) : W41 m ρ c (Proc.devRef .tc main_v4) = zerosB128 := by
  show StableHlo.after (hostOps20 (F := Ideal)) (W40 m ρ c) (Proc.devRef .tc main_v4) = _
  after_results
  exact L40_main_v4 m ρ c

theorem L41_main_v163 (c : Dev nD) : W41 m ρ c (Proc.devRef .tc main_v163) = XIN_2 (kargs m c) := by
  show StableHlo.after (hostOps20 (F := Ideal)) (W40 m ρ c) (Proc.devRef .tc main_v163) = _
  after_results
  exact L40_main_v163 m ρ c

theorem L41_main_v186 (c : Dev nD) : W41 m ρ c (Proc.devRef .tc main_v186) = R_2 (kargs m c) := by
  show StableHlo.after (hostOps20 (F := Ideal)) (W40 m ρ c) (Proc.devRef .tc main_v186) = _
  after_results
  exact L40_main_v186 m ρ c

set_option maxHeartbeats 2000000 in
theorem L41_main_v192 (c : Dev nD) : W41 m ρ c (Proc.devRef .tc main_v192) = lapw_2 (kargs m c) := by
  show StableHlo.after (hostOps20 (F := Ideal)) (W40 m ρ c) (Proc.devRef .tc main_v192) = _
  after_results_simp
  rw [L40_main_arg4 m ρ c]
  rfl

set_option maxHeartbeats 2000000 in
theorem L41_main_v190 (c : Dev nD) : W41 m ρ c (Proc.devRef .tc main_v190) = zerosN128 := by
  show StableHlo.after (hostOps20 (F := Ideal)) (W40 m ρ c) (Proc.devRef .tc main_v190) = _
  after_results_simp
  rfl

set_option maxHeartbeats 2000000 in
theorem L41_main_v189 (c : Dev nD) : W41 m ρ c (Proc.devRef .tc main_v189) = D_2 (kargs m c) := by
  show StableHlo.after (hostOps20 (F := Ideal)) (W40 m ρ c) (Proc.devRef .tc main_v189) = _
  after_results_simp
  rw [L40_main_v1 m ρ c, L40_main_v186 m ρ c]
  rfl

theorem L42_main_arg4 (c : Dev nD) : W42 m ρ c (Proc.devRef .tc main_arg4) = (kargs m c).a4 :=
  (W42_of_ne m ρ c main_arg4 (by decide)).trans (L41_main_arg4 m ρ c)

theorem L42_main_arg9 (c : Dev nD) : W42 m ρ c (Proc.devRef .tc main_arg9) = (kargs m c).a9 :=
  (W42_of_ne m ρ c main_arg9 (by decide)).trans (L41_main_arg9 m ρ c)

theorem L42_main_arg10 (c : Dev nD) : W42 m ρ c (Proc.devRef .tc main_arg10) = (kargs m c).a10 :=
  (W42_of_ne m ρ c main_arg10 (by decide)).trans (L41_main_arg10 m ρ c)

theorem L42_main_arg11 (c : Dev nD) : W42 m ρ c (Proc.devRef .tc main_arg11) = (kargs m c).a11 :=
  (W42_of_ne m ρ c main_arg11 (by decide)).trans (L41_main_arg11 m ρ c)

theorem L42_main_arg12 (c : Dev nD) : W42 m ρ c (Proc.devRef .tc main_arg12) = (kargs m c).a12 :=
  (W42_of_ne m ρ c main_arg12 (by decide)).trans (L41_main_arg12 m ρ c)

theorem L42_main_arg13 (c : Dev nD) : W42 m ρ c (Proc.devRef .tc main_arg13) = (kargs m c).a13 :=
  (W42_of_ne m ρ c main_arg13 (by decide)).trans (L41_main_arg13 m ρ c)

theorem L42_main_arg14 (c : Dev nD) : W42 m ρ c (Proc.devRef .tc main_arg14) = (kargs m c).a14 :=
  (W42_of_ne m ρ c main_arg14 (by decide)).trans (L41_main_arg14 m ρ c)

theorem L42_main_arg15 (c : Dev nD) : W42 m ρ c (Proc.devRef .tc main_arg15) = (kargs m c).a15 :=
  (W42_of_ne m ρ c main_arg15 (by decide)).trans (L41_main_arg15 m ρ c)

theorem L42_main_arg16 (c : Dev nD) : W42 m ρ c (Proc.devRef .tc main_arg16) = (kargs m c).a16 :=
  (W42_of_ne m ρ c main_arg16 (by decide)).trans (L41_main_arg16 m ρ c)

theorem L42_main_v1 (c : Dev nD) : W42 m ρ c (Proc.devRef .tc main_v1) = src (kargs m c) :=
  (W42_of_ne m ρ c main_v1 (by decide)).trans (L41_main_v1 m ρ c)

theorem L42_main_v3 (c : Dev nD) : W42 m ρ c (Proc.devRef .tc main_v3) = dst (kargs m c) :=
  (W42_of_ne m ρ c main_v3 (by decide)).trans (L41_main_v3 m ρ c)

theorem L42_main_v4 (c : Dev nD) : W42 m ρ c (Proc.devRef .tc main_v4) = zerosB128 :=
  ((W42_arr m ρ c 2).trans (((dat20 (V41 m ρ) c).arrAt_in 2 rfl _).trans (A_eq20 (V41 m ρ) c 2))).trans (L41_main_v4 m ρ c)

theorem L42_main_v163 (c : Dev nD) : W42 m ρ c (Proc.devRef .tc main_v163) = XIN_2 (kargs m c) :=
  ((W42_arr m ρ c 0).trans (((dat20 (V41 m ρ) c).arrAt_in 0 rfl _).trans (A_eq20 (V41 m ρ) c 0))).trans (L41_main_v163 m ρ c)

theorem L42_main_v186 (c : Dev nD) : W42 m ρ c (Proc.devRef .tc main_v186) = R_2 (kargs m c) :=
  (W42_of_ne m ρ c main_v186 (by decide)).trans (L41_main_v186 m ρ c)

theorem L42_main_v190 (c : Dev nD) : W42 m ρ c (Proc.devRef .tc main_v190) = zerosN128 :=
  (W42_of_ne m ρ c main_v190 (by decide)).trans (L41_main_v190 m ρ c)

theorem L42_main_v189 (c : Dev nD) : W42 m ρ c (Proc.devRef .tc main_v189) = D_2 (kargs m c) :=
  (W42_of_ne m ρ c main_v189 (by decide)).trans (L41_main_v189 m ρ c)

theorem L42_main_v193 (c : Dev nD) : W42 m ρ c (Proc.devRef .tc main_v193) = lin (XIN_2 (kargs m c)) (lapw_2 (kargs m c)) zerosB128 :=
  (W42_arr m ρ c 3).trans ((Cert.Lin.final20 (V41 m ρ) c).trans (by
    rw [show V41 m ρ c main_v163 = _ from L41_main_v163 m ρ c,
      show V41 m ρ c main_v192 = _ from L41_main_v192 m ρ c,
      show V41 m ρ c main_v4 = _ from L41_main_v4 m ρ c]
    all_goals rfl))

theorem L43_main_arg4 (c : Dev nD) : W43 m ρ c (Proc.devRef .tc main_arg4) = (kargs m c).a4 := by
  show StableHlo.after (hostOps21 (F := Ideal)) (W42 m ρ c) (Proc.devRef .tc main_arg4) = _
  after_results
  exact L42_main_arg4 m ρ c

theorem L43_main_arg9 (c : Dev nD) : W43 m ρ c (Proc.devRef .tc main_arg9) = (kargs m c).a9 := by
  show StableHlo.after (hostOps21 (F := Ideal)) (W42 m ρ c) (Proc.devRef .tc main_arg9) = _
  after_results
  exact L42_main_arg9 m ρ c

theorem L43_main_arg10 (c : Dev nD) : W43 m ρ c (Proc.devRef .tc main_arg10) = (kargs m c).a10 := by
  show StableHlo.after (hostOps21 (F := Ideal)) (W42 m ρ c) (Proc.devRef .tc main_arg10) = _
  after_results
  exact L42_main_arg10 m ρ c

theorem L43_main_arg11 (c : Dev nD) : W43 m ρ c (Proc.devRef .tc main_arg11) = (kargs m c).a11 := by
  show StableHlo.after (hostOps21 (F := Ideal)) (W42 m ρ c) (Proc.devRef .tc main_arg11) = _
  after_results
  exact L42_main_arg11 m ρ c

theorem L43_main_arg12 (c : Dev nD) : W43 m ρ c (Proc.devRef .tc main_arg12) = (kargs m c).a12 := by
  show StableHlo.after (hostOps21 (F := Ideal)) (W42 m ρ c) (Proc.devRef .tc main_arg12) = _
  after_results
  exact L42_main_arg12 m ρ c

theorem L43_main_arg13 (c : Dev nD) : W43 m ρ c (Proc.devRef .tc main_arg13) = (kargs m c).a13 := by
  show StableHlo.after (hostOps21 (F := Ideal)) (W42 m ρ c) (Proc.devRef .tc main_arg13) = _
  after_results
  exact L42_main_arg13 m ρ c

theorem L43_main_arg14 (c : Dev nD) : W43 m ρ c (Proc.devRef .tc main_arg14) = (kargs m c).a14 := by
  show StableHlo.after (hostOps21 (F := Ideal)) (W42 m ρ c) (Proc.devRef .tc main_arg14) = _
  after_results
  exact L42_main_arg14 m ρ c

theorem L43_main_arg15 (c : Dev nD) : W43 m ρ c (Proc.devRef .tc main_arg15) = (kargs m c).a15 := by
  show StableHlo.after (hostOps21 (F := Ideal)) (W42 m ρ c) (Proc.devRef .tc main_arg15) = _
  after_results
  exact L42_main_arg15 m ρ c

theorem L43_main_arg16 (c : Dev nD) : W43 m ρ c (Proc.devRef .tc main_arg16) = (kargs m c).a16 := by
  show StableHlo.after (hostOps21 (F := Ideal)) (W42 m ρ c) (Proc.devRef .tc main_arg16) = _
  after_results
  exact L42_main_arg16 m ρ c

theorem L43_main_v1 (c : Dev nD) : W43 m ρ c (Proc.devRef .tc main_v1) = src (kargs m c) := by
  show StableHlo.after (hostOps21 (F := Ideal)) (W42 m ρ c) (Proc.devRef .tc main_v1) = _
  after_results
  exact L42_main_v1 m ρ c

theorem L43_main_v3 (c : Dev nD) : W43 m ρ c (Proc.devRef .tc main_v3) = dst (kargs m c) := by
  show StableHlo.after (hostOps21 (F := Ideal)) (W42 m ρ c) (Proc.devRef .tc main_v3) = _
  after_results
  exact L42_main_v3 m ρ c

theorem L43_main_v4 (c : Dev nD) : W43 m ρ c (Proc.devRef .tc main_v4) = zerosB128 := by
  show StableHlo.after (hostOps21 (F := Ideal)) (W42 m ρ c) (Proc.devRef .tc main_v4) = _
  after_results
  exact L42_main_v4 m ρ c

theorem L43_main_v163 (c : Dev nD) : W43 m ρ c (Proc.devRef .tc main_v163) = XIN_2 (kargs m c) := by
  show StableHlo.after (hostOps21 (F := Ideal)) (W42 m ρ c) (Proc.devRef .tc main_v163) = _
  after_results
  exact L42_main_v163 m ρ c

theorem L43_main_v186 (c : Dev nD) : W43 m ρ c (Proc.devRef .tc main_v186) = R_2 (kargs m c) := by
  show StableHlo.after (hostOps21 (F := Ideal)) (W42 m ρ c) (Proc.devRef .tc main_v186) = _
  after_results
  exact L42_main_v186 m ρ c

theorem L43_main_v193 (c : Dev nD) : W43 m ρ c (Proc.devRef .tc main_v193) = lin (XIN_2 (kargs m c)) (lapw_2 (kargs m c)) zerosB128 := by
  show StableHlo.after (hostOps21 (F := Ideal)) (W42 m ρ c) (Proc.devRef .tc main_v193) = _
  after_results
  exact L42_main_v193 m ρ c

theorem L43_main_v190 (c : Dev nD) : W43 m ρ c (Proc.devRef .tc main_v190) = zerosN128 := by
  show StableHlo.after (hostOps21 (F := Ideal)) (W42 m ρ c) (Proc.devRef .tc main_v190) = _
  after_results
  exact L42_main_v190 m ρ c

theorem L43_main_v189 (c : Dev nD) : W43 m ρ c (Proc.devRef .tc main_v189) = D_2 (kargs m c) := by
  show StableHlo.after (hostOps21 (F := Ideal)) (W42 m ρ c) (Proc.devRef .tc main_v189) = _
  after_results
  exact L42_main_v189 m ρ c

set_option maxHeartbeats 2000000 in
theorem L43_main_v195 (c : Dev nD) : W43 m ρ c (Proc.devRef .tc main_v195) = dissw_2 (kargs m c) := by
  show StableHlo.after (hostOps21 (F := Ideal)) (W42 m ρ c) (Proc.devRef .tc main_v195) = _
  after_results_simp
  rw [L42_main_arg9 m ρ c]
  rfl

set_option maxHeartbeats 2000000 in
theorem L43_main_v197 (c : Dev nD) : W43 m ρ c (Proc.devRef .tc main_v197) = dissb_2 (kargs m c) := by
  show StableHlo.after (hostOps21 (F := Ideal)) (W42 m ρ c) (Proc.devRef .tc main_v197) = _
  after_results_simp
  rw [L42_main_arg10 m ρ c]
  rfl

theorem L44_main_arg4 (c : Dev nD) : W44 m ρ c (Proc.devRef .tc main_arg4) = (kargs m c).a4 :=
  (W44_of_ne m ρ c main_arg4 (by decide)).trans (L43_main_arg4 m ρ c)

theorem L44_main_arg9 (c : Dev nD) : W44 m ρ c (Proc.devRef .tc main_arg9) = (kargs m c).a9 :=
  (W44_of_ne m ρ c main_arg9 (by decide)).trans (L43_main_arg9 m ρ c)

theorem L44_main_arg10 (c : Dev nD) : W44 m ρ c (Proc.devRef .tc main_arg10) = (kargs m c).a10 :=
  (W44_of_ne m ρ c main_arg10 (by decide)).trans (L43_main_arg10 m ρ c)

theorem L44_main_arg11 (c : Dev nD) : W44 m ρ c (Proc.devRef .tc main_arg11) = (kargs m c).a11 :=
  (W44_of_ne m ρ c main_arg11 (by decide)).trans (L43_main_arg11 m ρ c)

theorem L44_main_arg12 (c : Dev nD) : W44 m ρ c (Proc.devRef .tc main_arg12) = (kargs m c).a12 :=
  (W44_of_ne m ρ c main_arg12 (by decide)).trans (L43_main_arg12 m ρ c)

theorem L44_main_arg13 (c : Dev nD) : W44 m ρ c (Proc.devRef .tc main_arg13) = (kargs m c).a13 :=
  (W44_of_ne m ρ c main_arg13 (by decide)).trans (L43_main_arg13 m ρ c)

theorem L44_main_arg14 (c : Dev nD) : W44 m ρ c (Proc.devRef .tc main_arg14) = (kargs m c).a14 :=
  (W44_of_ne m ρ c main_arg14 (by decide)).trans (L43_main_arg14 m ρ c)

theorem L44_main_arg15 (c : Dev nD) : W44 m ρ c (Proc.devRef .tc main_arg15) = (kargs m c).a15 :=
  (W44_of_ne m ρ c main_arg15 (by decide)).trans (L43_main_arg15 m ρ c)

theorem L44_main_arg16 (c : Dev nD) : W44 m ρ c (Proc.devRef .tc main_arg16) = (kargs m c).a16 :=
  (W44_of_ne m ρ c main_arg16 (by decide)).trans (L43_main_arg16 m ρ c)

theorem L44_main_v1 (c : Dev nD) : W44 m ρ c (Proc.devRef .tc main_v1) = src (kargs m c) :=
  (W44_of_ne m ρ c main_v1 (by decide)).trans (L43_main_v1 m ρ c)

theorem L44_main_v3 (c : Dev nD) : W44 m ρ c (Proc.devRef .tc main_v3) = dst (kargs m c) :=
  (W44_of_ne m ρ c main_v3 (by decide)).trans (L43_main_v3 m ρ c)

theorem L44_main_v4 (c : Dev nD) : W44 m ρ c (Proc.devRef .tc main_v4) = zerosB128 :=
  (W44_of_ne m ρ c main_v4 (by decide)).trans (L43_main_v4 m ρ c)

theorem L44_main_v163 (c : Dev nD) : W44 m ρ c (Proc.devRef .tc main_v163) = XIN_2 (kargs m c) :=
  ((W44_arr m ρ c 0).trans (((dat21 (V43 m ρ) c).arrAt_in 0 rfl _).trans (A_eq21 (V43 m ρ) c 0))).trans (L43_main_v163 m ρ c)

theorem L44_main_v186 (c : Dev nD) : W44 m ρ c (Proc.devRef .tc main_v186) = R_2 (kargs m c) :=
  (W44_of_ne m ρ c main_v186 (by decide)).trans (L43_main_v186 m ρ c)

theorem L44_main_v193 (c : Dev nD) : W44 m ρ c (Proc.devRef .tc main_v193) = lin (XIN_2 (kargs m c)) (lapw_2 (kargs m c)) zerosB128 :=
  (W44_of_ne m ρ c main_v193 (by decide)).trans (L43_main_v193 m ρ c)

theorem L44_main_v190 (c : Dev nD) : W44 m ρ c (Proc.devRef .tc main_v190) = zerosN128 :=
  (W44_of_ne m ρ c main_v190 (by decide)).trans (L43_main_v190 m ρ c)

theorem L44_main_v189 (c : Dev nD) : W44 m ρ c (Proc.devRef .tc main_v189) = D_2 (kargs m c) :=
  (W44_of_ne m ρ c main_v189 (by decide)).trans (L43_main_v189 m ρ c)

theorem L44_main_v198 (c : Dev nD) : W44 m ρ c (Proc.devRef .tc main_v198) = linRelu (XIN_2 (kargs m c)) (dissw_2 (kargs m c)) (dissb_2 (kargs m c)) :=
  (W44_arr m ρ c 3).trans ((Cert.Lin.final21 (V43 m ρ) c).trans (by
    rw [show V43 m ρ c main_v163 = _ from L43_main_v163 m ρ c,
      show V43 m ρ c main_v195 = _ from L43_main_v195 m ρ c,
      show V43 m ρ c main_v197 = _ from L43_main_v197 m ρ c]
    all_goals rfl))

theorem L45_main_arg4 (c : Dev nD) : W45 m ρ c (Proc.devRef .tc main_arg4) = (kargs m c).a4 := by
  show StableHlo.after (hostOps22 (F := Ideal)) (W44 m ρ c) (Proc.devRef .tc main_arg4) = _
  after_results
  exact L44_main_arg4 m ρ c

theorem L45_main_arg9 (c : Dev nD) : W45 m ρ c (Proc.devRef .tc main_arg9) = (kargs m c).a9 := by
  show StableHlo.after (hostOps22 (F := Ideal)) (W44 m ρ c) (Proc.devRef .tc main_arg9) = _
  after_results
  exact L44_main_arg9 m ρ c

theorem L45_main_arg10 (c : Dev nD) : W45 m ρ c (Proc.devRef .tc main_arg10) = (kargs m c).a10 := by
  show StableHlo.after (hostOps22 (F := Ideal)) (W44 m ρ c) (Proc.devRef .tc main_arg10) = _
  after_results
  exact L44_main_arg10 m ρ c

theorem L45_main_arg11 (c : Dev nD) : W45 m ρ c (Proc.devRef .tc main_arg11) = (kargs m c).a11 := by
  show StableHlo.after (hostOps22 (F := Ideal)) (W44 m ρ c) (Proc.devRef .tc main_arg11) = _
  after_results
  exact L44_main_arg11 m ρ c

theorem L45_main_arg12 (c : Dev nD) : W45 m ρ c (Proc.devRef .tc main_arg12) = (kargs m c).a12 := by
  show StableHlo.after (hostOps22 (F := Ideal)) (W44 m ρ c) (Proc.devRef .tc main_arg12) = _
  after_results
  exact L44_main_arg12 m ρ c

theorem L45_main_arg13 (c : Dev nD) : W45 m ρ c (Proc.devRef .tc main_arg13) = (kargs m c).a13 := by
  show StableHlo.after (hostOps22 (F := Ideal)) (W44 m ρ c) (Proc.devRef .tc main_arg13) = _
  after_results
  exact L44_main_arg13 m ρ c

theorem L45_main_arg14 (c : Dev nD) : W45 m ρ c (Proc.devRef .tc main_arg14) = (kargs m c).a14 := by
  show StableHlo.after (hostOps22 (F := Ideal)) (W44 m ρ c) (Proc.devRef .tc main_arg14) = _
  after_results
  exact L44_main_arg14 m ρ c

theorem L45_main_arg15 (c : Dev nD) : W45 m ρ c (Proc.devRef .tc main_arg15) = (kargs m c).a15 := by
  show StableHlo.after (hostOps22 (F := Ideal)) (W44 m ρ c) (Proc.devRef .tc main_arg15) = _
  after_results
  exact L44_main_arg15 m ρ c

theorem L45_main_arg16 (c : Dev nD) : W45 m ρ c (Proc.devRef .tc main_arg16) = (kargs m c).a16 := by
  show StableHlo.after (hostOps22 (F := Ideal)) (W44 m ρ c) (Proc.devRef .tc main_arg16) = _
  after_results
  exact L44_main_arg16 m ρ c

theorem L45_main_v1 (c : Dev nD) : W45 m ρ c (Proc.devRef .tc main_v1) = src (kargs m c) := by
  show StableHlo.after (hostOps22 (F := Ideal)) (W44 m ρ c) (Proc.devRef .tc main_v1) = _
  after_results
  exact L44_main_v1 m ρ c

theorem L45_main_v3 (c : Dev nD) : W45 m ρ c (Proc.devRef .tc main_v3) = dst (kargs m c) := by
  show StableHlo.after (hostOps22 (F := Ideal)) (W44 m ρ c) (Proc.devRef .tc main_v3) = _
  after_results
  exact L44_main_v3 m ρ c

theorem L45_main_v4 (c : Dev nD) : W45 m ρ c (Proc.devRef .tc main_v4) = zerosB128 := by
  show StableHlo.after (hostOps22 (F := Ideal)) (W44 m ρ c) (Proc.devRef .tc main_v4) = _
  after_results
  exact L44_main_v4 m ρ c

theorem L45_main_v163 (c : Dev nD) : W45 m ρ c (Proc.devRef .tc main_v163) = XIN_2 (kargs m c) := by
  show StableHlo.after (hostOps22 (F := Ideal)) (W44 m ρ c) (Proc.devRef .tc main_v163) = _
  after_results
  exact L44_main_v163 m ρ c

theorem L45_main_v186 (c : Dev nD) : W45 m ρ c (Proc.devRef .tc main_v186) = R_2 (kargs m c) := by
  show StableHlo.after (hostOps22 (F := Ideal)) (W44 m ρ c) (Proc.devRef .tc main_v186) = _
  after_results
  exact L44_main_v186 m ρ c

theorem L45_main_v193 (c : Dev nD) : W45 m ρ c (Proc.devRef .tc main_v193) = lin (XIN_2 (kargs m c)) (lapw_2 (kargs m c)) zerosB128 := by
  show StableHlo.after (hostOps22 (F := Ideal)) (W44 m ρ c) (Proc.devRef .tc main_v193) = _
  after_results
  exact L44_main_v193 m ρ c

theorem L45_main_v198 (c : Dev nD) : W45 m ρ c (Proc.devRef .tc main_v198) = linRelu (XIN_2 (kargs m c)) (dissw_2 (kargs m c)) (dissb_2 (kargs m c)) := by
  show StableHlo.after (hostOps22 (F := Ideal)) (W44 m ρ c) (Proc.devRef .tc main_v198) = _
  after_results
  exact L44_main_v198 m ρ c

theorem L45_main_v190 (c : Dev nD) : W45 m ρ c (Proc.devRef .tc main_v190) = zerosN128 := by
  show StableHlo.after (hostOps22 (F := Ideal)) (W44 m ρ c) (Proc.devRef .tc main_v190) = _
  after_results
  exact L44_main_v190 m ρ c

theorem L45_main_v189 (c : Dev nD) : W45 m ρ c (Proc.devRef .tc main_v189) = D_2 (kargs m c) := by
  show StableHlo.after (hostOps22 (F := Ideal)) (W44 m ρ c) (Proc.devRef .tc main_v189) = _
  after_results
  exact L44_main_v189 m ρ c

set_option maxHeartbeats 2000000 in
theorem L45_main_v210 (c : Dev nD) : W45 m ρ c (Proc.devRef .tc main_v210) = scatOf (lin (XIN_2 (kargs m c)) (lapw_2 (kargs m c)) zerosB128) (R_2 (kargs m c)) (src (kargs m c)) (dst (kargs m c)) := by
  show StableHlo.after (hostOps22 (F := Ideal)) (W44 m ρ c) (Proc.devRef .tc main_v210) = _
  after_results_simp
  rw [L44_main_v3 m ρ c, L44_main_v193 m ρ c, L44_main_v1 m ρ c, L44_main_v186 m ρ c]
  rfl

theorem L46_main_arg4 (c : Dev nD) : W46 m ρ c (Proc.devRef .tc main_arg4) = (kargs m c).a4 :=
  (W46_of_ne m ρ c main_arg4 (by decide)).trans (L45_main_arg4 m ρ c)

theorem L46_main_arg9 (c : Dev nD) : W46 m ρ c (Proc.devRef .tc main_arg9) = (kargs m c).a9 :=
  (W46_of_ne m ρ c main_arg9 (by decide)).trans (L45_main_arg9 m ρ c)

theorem L46_main_arg10 (c : Dev nD) : W46 m ρ c (Proc.devRef .tc main_arg10) = (kargs m c).a10 :=
  (W46_of_ne m ρ c main_arg10 (by decide)).trans (L45_main_arg10 m ρ c)

theorem L46_main_arg11 (c : Dev nD) : W46 m ρ c (Proc.devRef .tc main_arg11) = (kargs m c).a11 :=
  (W46_of_ne m ρ c main_arg11 (by decide)).trans (L45_main_arg11 m ρ c)

theorem L46_main_arg12 (c : Dev nD) : W46 m ρ c (Proc.devRef .tc main_arg12) = (kargs m c).a12 :=
  (W46_of_ne m ρ c main_arg12 (by decide)).trans (L45_main_arg12 m ρ c)

theorem L46_main_arg13 (c : Dev nD) : W46 m ρ c (Proc.devRef .tc main_arg13) = (kargs m c).a13 :=
  (W46_of_ne m ρ c main_arg13 (by decide)).trans (L45_main_arg13 m ρ c)

theorem L46_main_arg14 (c : Dev nD) : W46 m ρ c (Proc.devRef .tc main_arg14) = (kargs m c).a14 :=
  (W46_of_ne m ρ c main_arg14 (by decide)).trans (L45_main_arg14 m ρ c)

theorem L46_main_arg15 (c : Dev nD) : W46 m ρ c (Proc.devRef .tc main_arg15) = (kargs m c).a15 :=
  (W46_of_ne m ρ c main_arg15 (by decide)).trans (L45_main_arg15 m ρ c)

theorem L46_main_arg16 (c : Dev nD) : W46 m ρ c (Proc.devRef .tc main_arg16) = (kargs m c).a16 :=
  (W46_of_ne m ρ c main_arg16 (by decide)).trans (L45_main_arg16 m ρ c)

theorem L46_main_v1 (c : Dev nD) : W46 m ρ c (Proc.devRef .tc main_v1) = src (kargs m c) :=
  (W46_of_ne m ρ c main_v1 (by decide)).trans (L45_main_v1 m ρ c)

theorem L46_main_v3 (c : Dev nD) : W46 m ρ c (Proc.devRef .tc main_v3) = dst (kargs m c) :=
  (W46_of_ne m ρ c main_v3 (by decide)).trans (L45_main_v3 m ρ c)

theorem L46_main_v4 (c : Dev nD) : W46 m ρ c (Proc.devRef .tc main_v4) = zerosB128 :=
  (W46_of_ne m ρ c main_v4 (by decide)).trans (L45_main_v4 m ρ c)

theorem L46_main_v186 (c : Dev nD) : W46 m ρ c (Proc.devRef .tc main_v186) = R_2 (kargs m c) :=
  (W46_of_ne m ρ c main_v186 (by decide)).trans (L45_main_v186 m ρ c)

theorem L46_main_v189 (c : Dev nD) : W46 m ρ c (Proc.devRef .tc main_v189) = D_2 (kargs m c) :=
  ((W46_arr m ρ c 4).trans (((dat22 (V45 m ρ) c).arrAt_in 4 rfl _).trans (A_eq22 (V45 m ρ) c 4))).trans (L45_main_v189 m ρ c)

theorem L46_main_v211_0 (c : Dev nD) : W46 m ρ c (Proc.devRef .tc main_v211_0) = X1_2 (kargs m c) :=
  (W46_arr m ρ c 6).trans ((Cert.Node.final22_x (V45 m ρ) c).trans (by
    rw [show V45 m ρ c main_v163 = _ from L45_main_v163 m ρ c,
      show V45 m ρ c main_v190 = _ from L45_main_v190 m ρ c,
      show V45 m ρ c main_v193 = _ from L45_main_v193 m ρ c,
      show V45 m ρ c main_v198 = _ from L45_main_v198 m ρ c,
      show V45 m ρ c main_v189 = _ from L45_main_v189 m ρ c,
      show V45 m ρ c main_v210 = _ from L45_main_v210 m ρ c]
    all_goals rfl))

theorem L46_main_v211_1 (c : Dev nD) : W46 m ρ c (Proc.devRef .tc main_v211_1) = V1_2 (kargs m c) :=
  (W46_arr m ρ c 7).trans ((Cert.Node.final22_v (V45 m ρ) c).trans (by
    rw [show V45 m ρ c main_v190 = _ from L45_main_v190 m ρ c,
      show V45 m ρ c main_v193 = _ from L45_main_v193 m ρ c,
      show V45 m ρ c main_v198 = _ from L45_main_v198 m ρ c,
      show V45 m ρ c main_v189 = _ from L45_main_v189 m ρ c,
      show V45 m ρ c main_v210 = _ from L45_main_v210 m ρ c]
    all_goals rfl))

theorem L47_main_arg9 (c : Dev nD) : W47 m ρ c (Proc.devRef .tc main_arg9) = (kargs m c).a9 := by
  show StableHlo.after (hostOps23 (F := Ideal)) (W46 m ρ c) (Proc.devRef .tc main_arg9) = _
  after_results
  exact L46_main_arg9 m ρ c

theorem L47_main_arg10 (c : Dev nD) : W47 m ρ c (Proc.devRef .tc main_arg10) = (kargs m c).a10 := by
  show StableHlo.after (hostOps23 (F := Ideal)) (W46 m ρ c) (Proc.devRef .tc main_arg10) = _
  after_results
  exact L46_main_arg10 m ρ c

theorem L47_main_arg11 (c : Dev nD) : W47 m ρ c (Proc.devRef .tc main_arg11) = (kargs m c).a11 := by
  show StableHlo.after (hostOps23 (F := Ideal)) (W46 m ρ c) (Proc.devRef .tc main_arg11) = _
  after_results
  exact L46_main_arg11 m ρ c

theorem L47_main_arg12 (c : Dev nD) : W47 m ρ c (Proc.devRef .tc main_arg12) = (kargs m c).a12 := by
  show StableHlo.after (hostOps23 (F := Ideal)) (W46 m ρ c) (Proc.devRef .tc main_arg12) = _
  after_results
  exact L46_main_arg12 m ρ c

theorem L47_main_arg13 (c : Dev nD) : W47 m ρ c (Proc.devRef .tc main_arg13) = (kargs m c).a13 := by
  show StableHlo.after (hostOps23 (F := Ideal)) (W46 m ρ c) (Proc.devRef .tc main_arg13) = _
  after_results
  exact L46_main_arg13 m ρ c

theorem L47_main_arg14 (c : Dev nD) : W47 m ρ c (Proc.devRef .tc main_arg14) = (kargs m c).a14 := by
  show StableHlo.after (hostOps23 (F := Ideal)) (W46 m ρ c) (Proc.devRef .tc main_arg14) = _
  after_results
  exact L46_main_arg14 m ρ c

theorem L47_main_arg15 (c : Dev nD) : W47 m ρ c (Proc.devRef .tc main_arg15) = (kargs m c).a15 := by
  show StableHlo.after (hostOps23 (F := Ideal)) (W46 m ρ c) (Proc.devRef .tc main_arg15) = _
  after_results
  exact L46_main_arg15 m ρ c

theorem L47_main_arg16 (c : Dev nD) : W47 m ρ c (Proc.devRef .tc main_arg16) = (kargs m c).a16 := by
  show StableHlo.after (hostOps23 (F := Ideal)) (W46 m ρ c) (Proc.devRef .tc main_arg16) = _
  after_results
  exact L46_main_arg16 m ρ c

theorem L47_main_v1 (c : Dev nD) : W47 m ρ c (Proc.devRef .tc main_v1) = src (kargs m c) := by
  show StableHlo.after (hostOps23 (F := Ideal)) (W46 m ρ c) (Proc.devRef .tc main_v1) = _
  after_results
  exact L46_main_v1 m ρ c

theorem L47_main_v3 (c : Dev nD) : W47 m ρ c (Proc.devRef .tc main_v3) = dst (kargs m c) := by
  show StableHlo.after (hostOps23 (F := Ideal)) (W46 m ρ c) (Proc.devRef .tc main_v3) = _
  after_results
  exact L46_main_v3 m ρ c

theorem L47_main_v4 (c : Dev nD) : W47 m ρ c (Proc.devRef .tc main_v4) = zerosB128 := by
  show StableHlo.after (hostOps23 (F := Ideal)) (W46 m ρ c) (Proc.devRef .tc main_v4) = _
  after_results
  exact L46_main_v4 m ρ c

theorem L47_main_v186 (c : Dev nD) : W47 m ρ c (Proc.devRef .tc main_v186) = R_2 (kargs m c) := by
  show StableHlo.after (hostOps23 (F := Ideal)) (W46 m ρ c) (Proc.devRef .tc main_v186) = _
  after_results
  exact L46_main_v186 m ρ c

theorem L47_main_v189 (c : Dev nD) : W47 m ρ c (Proc.devRef .tc main_v189) = D_2 (kargs m c) := by
  show StableHlo.after (hostOps23 (F := Ideal)) (W46 m ρ c) (Proc.devRef .tc main_v189) = _
  after_results
  exact L46_main_v189 m ρ c

theorem L47_main_v211_0 (c : Dev nD) : W47 m ρ c (Proc.devRef .tc main_v211_0) = X1_2 (kargs m c) := by
  show StableHlo.after (hostOps23 (F := Ideal)) (W46 m ρ c) (Proc.devRef .tc main_v211_0) = _
  after_results
  exact L46_main_v211_0 m ρ c

theorem L47_main_v211_1 (c : Dev nD) : W47 m ρ c (Proc.devRef .tc main_v211_1) = V1_2 (kargs m c) := by
  show StableHlo.after (hostOps23 (F := Ideal)) (W46 m ρ c) (Proc.devRef .tc main_v211_1) = _
  after_results
  exact L46_main_v211_1 m ρ c

set_option maxHeartbeats 2000000 in
theorem L47_main_v213 (c : Dev nD) : W47 m ρ c (Proc.devRef .tc main_v213) = lapw_2 (kargs m c) := by
  show StableHlo.after (hostOps23 (F := Ideal)) (W46 m ρ c) (Proc.devRef .tc main_v213) = _
  after_results_simp
  rw [L46_main_arg4 m ρ c]
  rfl

theorem L48_main_arg9 (c : Dev nD) : W48 m ρ c (Proc.devRef .tc main_arg9) = (kargs m c).a9 :=
  (W48_of_ne m ρ c main_arg9 (by decide)).trans (L47_main_arg9 m ρ c)

theorem L48_main_arg10 (c : Dev nD) : W48 m ρ c (Proc.devRef .tc main_arg10) = (kargs m c).a10 :=
  (W48_of_ne m ρ c main_arg10 (by decide)).trans (L47_main_arg10 m ρ c)

theorem L48_main_arg11 (c : Dev nD) : W48 m ρ c (Proc.devRef .tc main_arg11) = (kargs m c).a11 :=
  (W48_of_ne m ρ c main_arg11 (by decide)).trans (L47_main_arg11 m ρ c)

theorem L48_main_arg12 (c : Dev nD) : W48 m ρ c (Proc.devRef .tc main_arg12) = (kargs m c).a12 :=
  (W48_of_ne m ρ c main_arg12 (by decide)).trans (L47_main_arg12 m ρ c)

theorem L48_main_arg13 (c : Dev nD) : W48 m ρ c (Proc.devRef .tc main_arg13) = (kargs m c).a13 :=
  (W48_of_ne m ρ c main_arg13 (by decide)).trans (L47_main_arg13 m ρ c)

theorem L48_main_arg14 (c : Dev nD) : W48 m ρ c (Proc.devRef .tc main_arg14) = (kargs m c).a14 :=
  (W48_of_ne m ρ c main_arg14 (by decide)).trans (L47_main_arg14 m ρ c)

theorem L48_main_arg15 (c : Dev nD) : W48 m ρ c (Proc.devRef .tc main_arg15) = (kargs m c).a15 :=
  (W48_of_ne m ρ c main_arg15 (by decide)).trans (L47_main_arg15 m ρ c)

theorem L48_main_arg16 (c : Dev nD) : W48 m ρ c (Proc.devRef .tc main_arg16) = (kargs m c).a16 :=
  (W48_of_ne m ρ c main_arg16 (by decide)).trans (L47_main_arg16 m ρ c)

theorem L48_main_v1 (c : Dev nD) : W48 m ρ c (Proc.devRef .tc main_v1) = src (kargs m c) :=
  (W48_of_ne m ρ c main_v1 (by decide)).trans (L47_main_v1 m ρ c)

theorem L48_main_v3 (c : Dev nD) : W48 m ρ c (Proc.devRef .tc main_v3) = dst (kargs m c) :=
  (W48_of_ne m ρ c main_v3 (by decide)).trans (L47_main_v3 m ρ c)

theorem L48_main_v186 (c : Dev nD) : W48 m ρ c (Proc.devRef .tc main_v186) = R_2 (kargs m c) :=
  (W48_of_ne m ρ c main_v186 (by decide)).trans (L47_main_v186 m ρ c)

theorem L48_main_v189 (c : Dev nD) : W48 m ρ c (Proc.devRef .tc main_v189) = D_2 (kargs m c) :=
  (W48_of_ne m ρ c main_v189 (by decide)).trans (L47_main_v189 m ρ c)

theorem L48_main_v211_0 (c : Dev nD) : W48 m ρ c (Proc.devRef .tc main_v211_0) = X1_2 (kargs m c) :=
  ((W48_arr m ρ c 0).trans (((dat23 (V47 m ρ) c).arrAt_in 0 rfl _).trans (A_eq23 (V47 m ρ) c 0))).trans (L47_main_v211_0 m ρ c)

theorem L48_main_v211_1 (c : Dev nD) : W48 m ρ c (Proc.devRef .tc main_v211_1) = V1_2 (kargs m c) :=
  (W48_of_ne m ρ c main_v211_1 (by decide)).trans (L47_main_v211_1 m ρ c)

theorem L48_main_v214 (c : Dev nD) : W48 m ρ c (Proc.devRef .tc main_v214) = lin (X1_2 (kargs m c)) (lapw_2 (kargs m c)) zerosB128 :=
  (W48_arr m ρ c 3).trans ((Cert.Lin.final23 (V47 m ρ) c).trans (by
    rw [show V47 m ρ c main_v211_0 = _ from L47_main_v211_0 m ρ c,
      show V47 m ρ c main_v213 = _ from L47_main_v213 m ρ c,
      show V47 m ρ c main_v4 = _ from L47_main_v4 m ρ c]
    all_goals rfl))

theorem L49_main_arg11 (c : Dev nD) : W49 m ρ c (Proc.devRef .tc main_arg11) = (kargs m c).a11 := by
  show StableHlo.after (hostOps24 (F := Ideal)) (W48 m ρ c) (Proc.devRef .tc main_arg11) = _
  after_results
  exact L48_main_arg11 m ρ c

theorem L49_main_arg12 (c : Dev nD) : W49 m ρ c (Proc.devRef .tc main_arg12) = (kargs m c).a12 := by
  show StableHlo.after (hostOps24 (F := Ideal)) (W48 m ρ c) (Proc.devRef .tc main_arg12) = _
  after_results
  exact L48_main_arg12 m ρ c

theorem L49_main_arg13 (c : Dev nD) : W49 m ρ c (Proc.devRef .tc main_arg13) = (kargs m c).a13 := by
  show StableHlo.after (hostOps24 (F := Ideal)) (W48 m ρ c) (Proc.devRef .tc main_arg13) = _
  after_results
  exact L48_main_arg13 m ρ c

theorem L49_main_arg14 (c : Dev nD) : W49 m ρ c (Proc.devRef .tc main_arg14) = (kargs m c).a14 := by
  show StableHlo.after (hostOps24 (F := Ideal)) (W48 m ρ c) (Proc.devRef .tc main_arg14) = _
  after_results
  exact L48_main_arg14 m ρ c

theorem L49_main_arg15 (c : Dev nD) : W49 m ρ c (Proc.devRef .tc main_arg15) = (kargs m c).a15 := by
  show StableHlo.after (hostOps24 (F := Ideal)) (W48 m ρ c) (Proc.devRef .tc main_arg15) = _
  after_results
  exact L48_main_arg15 m ρ c

theorem L49_main_arg16 (c : Dev nD) : W49 m ρ c (Proc.devRef .tc main_arg16) = (kargs m c).a16 := by
  show StableHlo.after (hostOps24 (F := Ideal)) (W48 m ρ c) (Proc.devRef .tc main_arg16) = _
  after_results
  exact L48_main_arg16 m ρ c

theorem L49_main_v1 (c : Dev nD) : W49 m ρ c (Proc.devRef .tc main_v1) = src (kargs m c) := by
  show StableHlo.after (hostOps24 (F := Ideal)) (W48 m ρ c) (Proc.devRef .tc main_v1) = _
  after_results
  exact L48_main_v1 m ρ c

theorem L49_main_v3 (c : Dev nD) : W49 m ρ c (Proc.devRef .tc main_v3) = dst (kargs m c) := by
  show StableHlo.after (hostOps24 (F := Ideal)) (W48 m ρ c) (Proc.devRef .tc main_v3) = _
  after_results
  exact L48_main_v3 m ρ c

theorem L49_main_v186 (c : Dev nD) : W49 m ρ c (Proc.devRef .tc main_v186) = R_2 (kargs m c) := by
  show StableHlo.after (hostOps24 (F := Ideal)) (W48 m ρ c) (Proc.devRef .tc main_v186) = _
  after_results
  exact L48_main_v186 m ρ c

theorem L49_main_v189 (c : Dev nD) : W49 m ρ c (Proc.devRef .tc main_v189) = D_2 (kargs m c) := by
  show StableHlo.after (hostOps24 (F := Ideal)) (W48 m ρ c) (Proc.devRef .tc main_v189) = _
  after_results
  exact L48_main_v189 m ρ c

theorem L49_main_v211_0 (c : Dev nD) : W49 m ρ c (Proc.devRef .tc main_v211_0) = X1_2 (kargs m c) := by
  show StableHlo.after (hostOps24 (F := Ideal)) (W48 m ρ c) (Proc.devRef .tc main_v211_0) = _
  after_results
  exact L48_main_v211_0 m ρ c

theorem L49_main_v211_1 (c : Dev nD) : W49 m ρ c (Proc.devRef .tc main_v211_1) = V1_2 (kargs m c) := by
  show StableHlo.after (hostOps24 (F := Ideal)) (W48 m ρ c) (Proc.devRef .tc main_v211_1) = _
  after_results
  exact L48_main_v211_1 m ρ c

theorem L49_main_v214 (c : Dev nD) : W49 m ρ c (Proc.devRef .tc main_v214) = lin (X1_2 (kargs m c)) (lapw_2 (kargs m c)) zerosB128 := by
  show StableHlo.after (hostOps24 (F := Ideal)) (W48 m ρ c) (Proc.devRef .tc main_v214) = _
  after_results
  exact L48_main_v214 m ρ c

set_option maxHeartbeats 2000000 in
theorem L49_main_v216 (c : Dev nD) : W49 m ρ c (Proc.devRef .tc main_v216) = dissw_2 (kargs m c) := by
  show StableHlo.after (hostOps24 (F := Ideal)) (W48 m ρ c) (Proc.devRef .tc main_v216) = _
  after_results_simp
  rw [L48_main_arg9 m ρ c]
  rfl

set_option maxHeartbeats 2000000 in
theorem L49_main_v218 (c : Dev nD) : W49 m ρ c (Proc.devRef .tc main_v218) = dissb_2 (kargs m c) := by
  show StableHlo.after (hostOps24 (F := Ideal)) (W48 m ρ c) (Proc.devRef .tc main_v218) = _
  after_results_simp
  rw [L48_main_arg10 m ρ c]
  rfl

theorem L50_main_arg11 (c : Dev nD) : W50 m ρ c (Proc.devRef .tc main_arg11) = (kargs m c).a11 :=
  (W50_of_ne m ρ c main_arg11 (by decide)).trans (L49_main_arg11 m ρ c)

theorem L50_main_arg12 (c : Dev nD) : W50 m ρ c (Proc.devRef .tc main_arg12) = (kargs m c).a12 :=
  (W50_of_ne m ρ c main_arg12 (by decide)).trans (L49_main_arg12 m ρ c)

theorem L50_main_arg13 (c : Dev nD) : W50 m ρ c (Proc.devRef .tc main_arg13) = (kargs m c).a13 :=
  (W50_of_ne m ρ c main_arg13 (by decide)).trans (L49_main_arg13 m ρ c)

theorem L50_main_arg14 (c : Dev nD) : W50 m ρ c (Proc.devRef .tc main_arg14) = (kargs m c).a14 :=
  (W50_of_ne m ρ c main_arg14 (by decide)).trans (L49_main_arg14 m ρ c)

theorem L50_main_arg15 (c : Dev nD) : W50 m ρ c (Proc.devRef .tc main_arg15) = (kargs m c).a15 :=
  (W50_of_ne m ρ c main_arg15 (by decide)).trans (L49_main_arg15 m ρ c)

theorem L50_main_arg16 (c : Dev nD) : W50 m ρ c (Proc.devRef .tc main_arg16) = (kargs m c).a16 :=
  (W50_of_ne m ρ c main_arg16 (by decide)).trans (L49_main_arg16 m ρ c)

theorem L50_main_v1 (c : Dev nD) : W50 m ρ c (Proc.devRef .tc main_v1) = src (kargs m c) :=
  (W50_of_ne m ρ c main_v1 (by decide)).trans (L49_main_v1 m ρ c)

theorem L50_main_v3 (c : Dev nD) : W50 m ρ c (Proc.devRef .tc main_v3) = dst (kargs m c) :=
  (W50_of_ne m ρ c main_v3 (by decide)).trans (L49_main_v3 m ρ c)

theorem L50_main_v186 (c : Dev nD) : W50 m ρ c (Proc.devRef .tc main_v186) = R_2 (kargs m c) :=
  (W50_of_ne m ρ c main_v186 (by decide)).trans (L49_main_v186 m ρ c)

theorem L50_main_v189 (c : Dev nD) : W50 m ρ c (Proc.devRef .tc main_v189) = D_2 (kargs m c) :=
  (W50_of_ne m ρ c main_v189 (by decide)).trans (L49_main_v189 m ρ c)

theorem L50_main_v211_0 (c : Dev nD) : W50 m ρ c (Proc.devRef .tc main_v211_0) = X1_2 (kargs m c) :=
  ((W50_arr m ρ c 0).trans (((dat24 (V49 m ρ) c).arrAt_in 0 rfl _).trans (A_eq24 (V49 m ρ) c 0))).trans (L49_main_v211_0 m ρ c)

theorem L50_main_v211_1 (c : Dev nD) : W50 m ρ c (Proc.devRef .tc main_v211_1) = V1_2 (kargs m c) :=
  (W50_of_ne m ρ c main_v211_1 (by decide)).trans (L49_main_v211_1 m ρ c)

theorem L50_main_v214 (c : Dev nD) : W50 m ρ c (Proc.devRef .tc main_v214) = lin (X1_2 (kargs m c)) (lapw_2 (kargs m c)) zerosB128 :=
  (W50_of_ne m ρ c main_v214 (by decide)).trans (L49_main_v214 m ρ c)

theorem L50_main_v219 (c : Dev nD) : W50 m ρ c (Proc.devRef .tc main_v219) = linRelu (X1_2 (kargs m c)) (dissw_2 (kargs m c)) (dissb_2 (kargs m c)) :=
  (W50_arr m ρ c 3).trans ((Cert.Lin.final24 (V49 m ρ) c).trans (by
    rw [show V49 m ρ c main_v211_0 = _ from L49_main_v211_0 m ρ c,
      show V49 m ρ c main_v216 = _ from L49_main_v216 m ρ c,
      show V49 m ρ c main_v218 = _ from L49_main_v218 m ρ c]
    all_goals rfl))

theorem L51_main_arg11 (c : Dev nD) : W51 m ρ c (Proc.devRef .tc main_arg11) = (kargs m c).a11 := by
  show StableHlo.after (hostOps25 (F := Ideal)) (W50 m ρ c) (Proc.devRef .tc main_arg11) = _
  after_results
  exact L50_main_arg11 m ρ c

theorem L51_main_arg12 (c : Dev nD) : W51 m ρ c (Proc.devRef .tc main_arg12) = (kargs m c).a12 := by
  show StableHlo.after (hostOps25 (F := Ideal)) (W50 m ρ c) (Proc.devRef .tc main_arg12) = _
  after_results
  exact L50_main_arg12 m ρ c

theorem L51_main_arg13 (c : Dev nD) : W51 m ρ c (Proc.devRef .tc main_arg13) = (kargs m c).a13 := by
  show StableHlo.after (hostOps25 (F := Ideal)) (W50 m ρ c) (Proc.devRef .tc main_arg13) = _
  after_results
  exact L50_main_arg13 m ρ c

theorem L51_main_arg14 (c : Dev nD) : W51 m ρ c (Proc.devRef .tc main_arg14) = (kargs m c).a14 := by
  show StableHlo.after (hostOps25 (F := Ideal)) (W50 m ρ c) (Proc.devRef .tc main_arg14) = _
  after_results
  exact L50_main_arg14 m ρ c

theorem L51_main_arg15 (c : Dev nD) : W51 m ρ c (Proc.devRef .tc main_arg15) = (kargs m c).a15 := by
  show StableHlo.after (hostOps25 (F := Ideal)) (W50 m ρ c) (Proc.devRef .tc main_arg15) = _
  after_results
  exact L50_main_arg15 m ρ c

theorem L51_main_arg16 (c : Dev nD) : W51 m ρ c (Proc.devRef .tc main_arg16) = (kargs m c).a16 := by
  show StableHlo.after (hostOps25 (F := Ideal)) (W50 m ρ c) (Proc.devRef .tc main_arg16) = _
  after_results
  exact L50_main_arg16 m ρ c

theorem L51_main_v189 (c : Dev nD) : W51 m ρ c (Proc.devRef .tc main_v189) = D_2 (kargs m c) := by
  show StableHlo.after (hostOps25 (F := Ideal)) (W50 m ρ c) (Proc.devRef .tc main_v189) = _
  after_results
  exact L50_main_v189 m ρ c

theorem L51_main_v211_0 (c : Dev nD) : W51 m ρ c (Proc.devRef .tc main_v211_0) = X1_2 (kargs m c) := by
  show StableHlo.after (hostOps25 (F := Ideal)) (W50 m ρ c) (Proc.devRef .tc main_v211_0) = _
  after_results
  exact L50_main_v211_0 m ρ c

theorem L51_main_v211_1 (c : Dev nD) : W51 m ρ c (Proc.devRef .tc main_v211_1) = V1_2 (kargs m c) := by
  show StableHlo.after (hostOps25 (F := Ideal)) (W50 m ρ c) (Proc.devRef .tc main_v211_1) = _
  after_results
  exact L50_main_v211_1 m ρ c

theorem L51_main_v214 (c : Dev nD) : W51 m ρ c (Proc.devRef .tc main_v214) = lin (X1_2 (kargs m c)) (lapw_2 (kargs m c)) zerosB128 := by
  show StableHlo.after (hostOps25 (F := Ideal)) (W50 m ρ c) (Proc.devRef .tc main_v214) = _
  after_results
  exact L50_main_v214 m ρ c

theorem L51_main_v219 (c : Dev nD) : W51 m ρ c (Proc.devRef .tc main_v219) = linRelu (X1_2 (kargs m c)) (dissw_2 (kargs m c)) (dissb_2 (kargs m c)) := by
  show StableHlo.after (hostOps25 (F := Ideal)) (W50 m ρ c) (Proc.devRef .tc main_v219) = _
  after_results
  exact L50_main_v219 m ρ c

set_option maxHeartbeats 2000000 in
theorem L51_main_v231 (c : Dev nD) : W51 m ρ c (Proc.devRef .tc main_v231) = scatOf (lin (X1_2 (kargs m c)) (lapw_2 (kargs m c)) zerosB128) (R_2 (kargs m c)) (src (kargs m c)) (dst (kargs m c)) := by
  show StableHlo.after (hostOps25 (F := Ideal)) (W50 m ρ c) (Proc.devRef .tc main_v231) = _
  after_results_simp
  rw [L50_main_v3 m ρ c, L50_main_v214 m ρ c, L50_main_v1 m ρ c, L50_main_v186 m ρ c]
  rfl

theorem L52_main_arg11 (c : Dev nD) : W52 m ρ c (Proc.devRef .tc main_arg11) = (kargs m c).a11 :=
  (W52_of_ne m ρ c main_arg11 (by decide)).trans (L51_main_arg11 m ρ c)

theorem L52_main_arg12 (c : Dev nD) : W52 m ρ c (Proc.devRef .tc main_arg12) = (kargs m c).a12 :=
  (W52_of_ne m ρ c main_arg12 (by decide)).trans (L51_main_arg12 m ρ c)

theorem L52_main_arg13 (c : Dev nD) : W52 m ρ c (Proc.devRef .tc main_arg13) = (kargs m c).a13 :=
  (W52_of_ne m ρ c main_arg13 (by decide)).trans (L51_main_arg13 m ρ c)

theorem L52_main_arg14 (c : Dev nD) : W52 m ρ c (Proc.devRef .tc main_arg14) = (kargs m c).a14 :=
  (W52_of_ne m ρ c main_arg14 (by decide)).trans (L51_main_arg14 m ρ c)

theorem L52_main_arg15 (c : Dev nD) : W52 m ρ c (Proc.devRef .tc main_arg15) = (kargs m c).a15 :=
  (W52_of_ne m ρ c main_arg15 (by decide)).trans (L51_main_arg15 m ρ c)

theorem L52_main_arg16 (c : Dev nD) : W52 m ρ c (Proc.devRef .tc main_arg16) = (kargs m c).a16 :=
  (W52_of_ne m ρ c main_arg16 (by decide)).trans (L51_main_arg16 m ρ c)

theorem L52_main_v232_0 (c : Dev nD) : W52 m ρ c (Proc.devRef .tc main_v232_0) = X2_2 (kargs m c) :=
  (W52_arr m ρ c 6).trans ((Cert.Node.final25_x (V51 m ρ) c).trans (by
    rw [show V51 m ρ c main_v211_0 = _ from L51_main_v211_0 m ρ c,
      show V51 m ρ c main_v211_1 = _ from L51_main_v211_1 m ρ c,
      show V51 m ρ c main_v214 = _ from L51_main_v214 m ρ c,
      show V51 m ρ c main_v219 = _ from L51_main_v219 m ρ c,
      show V51 m ρ c main_v189 = _ from L51_main_v189 m ρ c,
      show V51 m ρ c main_v231 = _ from L51_main_v231 m ρ c]
    all_goals rfl))

theorem L53_main_arg13 (c : Dev nD) : W53 m ρ c (Proc.devRef .tc main_arg13) = (kargs m c).a13 := by
  show StableHlo.after (hostOps26 (F := Ideal)) (W52 m ρ c) (Proc.devRef .tc main_arg13) = _
  after_results
  exact L52_main_arg13 m ρ c

theorem L53_main_arg14 (c : Dev nD) : W53 m ρ c (Proc.devRef .tc main_arg14) = (kargs m c).a14 := by
  show StableHlo.after (hostOps26 (F := Ideal)) (W52 m ρ c) (Proc.devRef .tc main_arg14) = _
  after_results
  exact L52_main_arg14 m ρ c

theorem L53_main_arg15 (c : Dev nD) : W53 m ρ c (Proc.devRef .tc main_arg15) = (kargs m c).a15 := by
  show StableHlo.after (hostOps26 (F := Ideal)) (W52 m ρ c) (Proc.devRef .tc main_arg15) = _
  after_results
  exact L52_main_arg15 m ρ c

theorem L53_main_arg16 (c : Dev nD) : W53 m ρ c (Proc.devRef .tc main_arg16) = (kargs m c).a16 := by
  show StableHlo.after (hostOps26 (F := Ideal)) (W52 m ρ c) (Proc.devRef .tc main_arg16) = _
  after_results
  exact L52_main_arg16 m ρ c

theorem L53_main_v232_0 (c : Dev nD) : W53 m ρ c (Proc.devRef .tc main_v232_0) = X2_2 (kargs m c) := by
  show StableHlo.after (hostOps26 (F := Ideal)) (W52 m ρ c) (Proc.devRef .tc main_v232_0) = _
  after_results
  exact L52_main_v232_0 m ρ c

set_option maxHeartbeats 2000000 in
theorem L53_main_v234 (c : Dev nD) : W53 m ρ c (Proc.devRef .tc main_v234) = m1w_2 (kargs m c) := by
  show StableHlo.after (hostOps26 (F := Ideal)) (W52 m ρ c) (Proc.devRef .tc main_v234) = _
  after_results_simp
  rw [L52_main_arg11 m ρ c]
  rfl

set_option maxHeartbeats 2000000 in
theorem L53_main_v236 (c : Dev nD) : W53 m ρ c (Proc.devRef .tc main_v236) = m1b_2 (kargs m c) := by
  show StableHlo.after (hostOps26 (F := Ideal)) (W52 m ρ c) (Proc.devRef .tc main_v236) = _
  after_results_simp
  rw [L52_main_arg12 m ρ c]
  rfl

theorem L54_main_arg13 (c : Dev nD) : W54 m ρ c (Proc.devRef .tc main_arg13) = (kargs m c).a13 :=
  (W54_of_ne m ρ c main_arg13 (by decide)).trans (L53_main_arg13 m ρ c)

theorem L54_main_arg14 (c : Dev nD) : W54 m ρ c (Proc.devRef .tc main_arg14) = (kargs m c).a14 :=
  (W54_of_ne m ρ c main_arg14 (by decide)).trans (L53_main_arg14 m ρ c)

theorem L54_main_arg15 (c : Dev nD) : W54 m ρ c (Proc.devRef .tc main_arg15) = (kargs m c).a15 :=
  (W54_of_ne m ρ c main_arg15 (by decide)).trans (L53_main_arg15 m ρ c)

theorem L54_main_arg16 (c : Dev nD) : W54 m ρ c (Proc.devRef .tc main_arg16) = (kargs m c).a16 :=
  (W54_of_ne m ρ c main_arg16 (by decide)).trans (L53_main_arg16 m ρ c)

theorem L54_main_v237 (c : Dev nD) : W54 m ρ c (Proc.devRef .tc main_v237) = H_2 (kargs m c) :=
  (W54_arr m ρ c 3).trans ((Cert.Lin.final26 (V53 m ρ) c).trans (by
    rw [show V53 m ρ c main_v232_0 = _ from L53_main_v232_0 m ρ c,
      show V53 m ρ c main_v234 = _ from L53_main_v234 m ρ c,
      show V53 m ρ c main_v236 = _ from L53_main_v236 m ρ c]
    all_goals rfl))

theorem L55_main_arg15 (c : Dev nD) : W55 m ρ c (Proc.devRef .tc main_arg15) = (kargs m c).a15 := by
  show StableHlo.after (hostOps27 (F := Ideal)) (W54 m ρ c) (Proc.devRef .tc main_arg15) = _
  after_results
  exact L54_main_arg15 m ρ c

theorem L55_main_arg16 (c : Dev nD) : W55 m ρ c (Proc.devRef .tc main_arg16) = (kargs m c).a16 := by
  show StableHlo.after (hostOps27 (F := Ideal)) (W54 m ρ c) (Proc.devRef .tc main_arg16) = _
  after_results
  exact L54_main_arg16 m ρ c

theorem L55_main_v237 (c : Dev nD) : W55 m ρ c (Proc.devRef .tc main_v237) = H_2 (kargs m c) := by
  show StableHlo.after (hostOps27 (F := Ideal)) (W54 m ρ c) (Proc.devRef .tc main_v237) = _
  after_results
  exact L54_main_v237 m ρ c

set_option maxHeartbeats 2000000 in
theorem L55_main_v239 (c : Dev nD) : W55 m ρ c (Proc.devRef .tc main_v239) = m2w_2 (kargs m c) := by
  show StableHlo.after (hostOps27 (F := Ideal)) (W54 m ρ c) (Proc.devRef .tc main_v239) = _
  after_results_simp
  rw [L54_main_arg13 m ρ c]
  rfl

set_option maxHeartbeats 2000000 in
theorem L55_main_v241 (c : Dev nD) : W55 m ρ c (Proc.devRef .tc main_v241) = m2b_2 (kargs m c) := by
  show StableHlo.after (hostOps27 (F := Ideal)) (W54 m ρ c) (Proc.devRef .tc main_v241) = _
  after_results_simp
  rw [L54_main_arg14 m ρ c]
  rfl

theorem L56_main_arg15 (c : Dev nD) : W56 m ρ c (Proc.devRef .tc main_arg15) = (kargs m c).a15 :=
  (W56_of_ne m ρ c main_arg15 (by decide)).trans (L55_main_arg15 m ρ c)

theorem L56_main_arg16 (c : Dev nD) : W56 m ρ c (Proc.devRef .tc main_arg16) = (kargs m c).a16 :=
  (W56_of_ne m ρ c main_arg16 (by decide)).trans (L55_main_arg16 m ρ c)

theorem L56_main_v242 (c : Dev nD) : W56 m ρ c (Proc.devRef .tc main_v242) = XOUT_2 (kargs m c) :=
  (W56_arr m ρ c 3).trans ((Cert.Lin.final27 (V55 m ρ) c).trans (by
    rw [show V55 m ρ c main_v237 = _ from L55_main_v237 m ρ c,
      show V55 m ρ c main_v239 = _ from L55_main_v239 m ρ c,
      show V55 m ρ c main_v241 = _ from L55_main_v241 m ρ c]
    all_goals rfl))

end Cert.KChain

end
-- ==== Proof.KChain3.lean ====
/- What each buffer of the kernel program holds at each boundary between its segments (host stretches and pallas regions),
   while a later segment still reads it: the named value of Model.lean. A region's output is its whole-array function of
   the region's input arrays; a host stretch's result is its operations applied to what the stretch finds; a buffer no
   segment writes keeps its contents (an input window's array is written back unchanged). -/
import proofs.«107783_j24189255811079_1_alg».proof.Proof.KChain2

set_option maxRecDepth 16384

noncomputable section

namespace Cert.KChain

open Idealize.ShloMosaic Idealize.ShloMosaic.TcCoe Idealize.SL.Sem Cert.KernelIdeal Cert.KernelIdeal.Gen Cert.Model Cert.Spec

variable (m : (ℓ : Loc nD τ sig) → Buf (Elt Ideal) ℓ) (ρ : Dev nD → PrngReg)

theorem L57_main_v243 (c : Dev nD) : W57 m ρ c (Proc.devRef .tc main_v243) = OUT (kargs m c) :=
  (W57_arr m ρ c 3).trans ((Cert.Lin.final28 (V56 m ρ) c).trans (by
    rw [show V56 m ρ c main_v242 = _ from L56_main_v242 m ρ c,
      show V56 m ρ c main_arg15 = _ from L56_main_arg15 m ρ c,
      show V56 m ρ c main_arg16 = _ from L56_main_arg16 m ρ c]
    all_goals rfl))

end Cert.KChain

end
-- ==== Proof.LinHost.lean ====
/-
  The reference's spelling of a linear layer is the same function of whole arrays as the kernels'.

  The reference transposes the weight and contracts the rows with it on the host, then adds the bias
  broadcast first to one row and then along every row; at row `n`, feature `o` that is
  `Σ_k x[n,k]·w[o,k] + b[o]`, because the transposed weight at `(k,o)` is the weight at `(o,k)`. A maximum
  with the zero splat, or the hyperbolic tangent, is then taken elementwise. Without a bias the sum stands
  alone, which is the layer with the zero bias. The read-out layer has 64 output features.
-/
import proofs.«107783_j24189255811079_1_alg».proof.ReferenceIdeal
import proofs.«107783_j24189255811079_1_alg».proof.Proof.Spec
import Idealize.ShloMosaic.Lib.ValueIdx
import Idealize.ShloMosaic.Lib.Pipeline.Value
import Idealize.ShloMosaic.PureOps.Ideal.Laws

noncomputable section

namespace Cert.LinHost

open Idealize.ShloMosaic Idealize.ShloMosaic.ValueIdx Cert.ReferenceIdeal Cert.ReferenceIdeal.Facts₀

variable [Cert.ReferenceIdeal.Facts₀]

/-- The transposed weight at `(k, o)` is the weight at `(o, k)`. -/
theorem transpose_w (w : FVec Ideal S128x128 .f32) (k o : Fin 128) :
    transpose S128x128 [1, 0] w transposes_S128x128_S128x128_1_0 (ix2 k o) = w (ix2 o k) :=
  transpose_apply [1, 0] w transposes_S128x128_S128x128_1_0 (ix2 k o) (ix2 o k)
    (fun b => match b with | ⟨0, _⟩ => rfl | ⟨1, _⟩ => rfl)

/-- The host contraction at `(n, o)`: the sum over the shared axis of the products. -/
theorem dot_at (x : FVec Ideal S50000x128 .f32) (wt : FVec Ideal S128x128 .f32) (n : Fin 50000) (o : Fin 128) :
    Host.dotGeneral (F := Ideal) dot_S50000x128_S128x128_S50000x128_1_0_0_1_n_n none x wt (ix2 n o) = ∑ k : Fin 128, x (ix2 n k) * wt (ix2 k o) := by
  simp only [Host.dotGeneral]
  rw [Ideal.dotGeneral_apply]
  rw [← Equiv.sum_comp (contrEquiv1 dot_S50000x128_S128x128_S50000x128_1_0_0_1_n_n 128 rfl rfl).symm]
  refine Finset.sum_congr rfl fun k _ => ?_
  have hl : dot_S50000x128_S128x128_S50000x128_1_0_0_1_n_n.lhsIdx (ix2 n o) ((contrEquiv1 dot_S50000x128_S128x128_S50000x128_1_0_0_1_n_n 128 rfl rfl).symm k) = ix2 n k := by
    funext a; apply Fin.ext
    match a with
    | ⟨0, _⟩ => rfl
    | ⟨1, _⟩ =>
      exact (DotDims.lhsIdx_val_of_single _ (cl := (1 : Fin 2)) rfl _ _).trans
        (contrEquiv1_symm_val dot_S50000x128_S128x128_S50000x128_1_0_0_1_n_n 128 rfl rfl k)
  have hr : dot_S50000x128_S128x128_S50000x128_1_0_0_1_n_n.rhsIdx (ix2 n o) ((contrEquiv1 dot_S50000x128_S128x128_S50000x128_1_0_0_1_n_n 128 rfl rfl).symm k) = ix2 k o := by
    funext a; apply Fin.ext
    match a with
    | ⟨0, _⟩ =>
      exact (DotDims.rhsIdx_val_of_single _ (cr := (0 : Fin 2)) rfl _ _).trans
        (contrEquiv1_symm_val dot_S50000x128_S128x128_S50000x128_1_0_0_1_n_n 128 rfl rfl k)
    | ⟨1, _⟩ => rfl
  rw [hl, hr]

/-- The bias broadcast to one row and then along every row, at `(n, o)`, is the bias at `o`. -/
theorem bias_at (b : FVec Ideal S128 .f32) (n : Fin 50000) (o : Fin 128) :
    broadcastInDim S50000x128 ![0, 1] bcast_S1x128_S50000x128_0_1 (broadcastInDim S1x128 ![1] bcast_S128_S1x128_1 b) (ix2 n o)
      = b (ix1 o) := by
  refine (broadcastInDim_apply ![0, 1] bcast_S1x128_S50000x128_0_1 _ (ix2 n o) (ix2 (0 : Fin 1) o)
    (fun a => match a with | ⟨0, _⟩ => rfl | ⟨1, _⟩ => rfl)).trans ?_
  exact broadcastInDim_apply ![1] bcast_S128_S1x128_1 b (ix2 (0 : Fin 1) o) (ix1 o)
    (fun a => match a with | ⟨0, _⟩ => rfl)

/-- The reference's linear layer with a bias. -/
theorem host_lin (x : FVec Ideal S50000x128 .f32) (w : FVec Ideal S128x128 .f32) (b : FVec Ideal S128 .f32) :
    addf (Host.dotGeneral (F := Ideal) dot_S50000x128_S128x128_S50000x128_1_0_0_1_n_n none x (transpose S128x128 [1, 0] w transposes_S128x128_S128x128_1_0))
      (broadcastInDim S50000x128 ![0, 1] bcast_S1x128_S50000x128_0_1 (broadcastInDim S1x128 ![1] bcast_S128_S1x128_1 b))
      = Cert.Spec.lin x w b := by
  funext i
  obtain ⟨n, o, rfl⟩ : ∃ (n : Fin 50000) (o : Fin 128), i = ix2 n o := ⟨i 0, i 1, eq_ix2 i⟩
  rw [addf_apply, dot_at, bias_at]
  exact congrArg (· + b (ix1 o)) (Finset.sum_congr rfl fun k _ => by rw [transpose_w])

/-- The reference's linear layer at one index. -/
theorem host_lin_apply (x : FVec Ideal S50000x128 .f32) (w : FVec Ideal S128x128 .f32) (b : FVec Ideal S128 .f32)
    (i : S50000x128.Idx) :
    (addf (Host.dotGeneral (F := Ideal) dot_S50000x128_S128x128_S50000x128_1_0_0_1_n_n none x (transpose S128x128 [1, 0] w transposes_S128x128_S128x128_1_0))
      (broadcastInDim S50000x128 ![0, 1] bcast_S1x128_S50000x128_0_1 (broadcastInDim S1x128 ![1] bcast_S128_S1x128_1 b))
        : FVec Ideal S50000x128 .f32) i
      = Cert.Spec.lin x w b i := congrFun (host_lin x w b) i

/-- Without a bias: the layer with the zero bias (`a + 0 = a` on the extended reals). -/
theorem host_lin_nobias (x : FVec Ideal S50000x128 .f32) (w : FVec Ideal S128x128 .f32) :
    Host.dotGeneral (F := Ideal) dot_S50000x128_S128x128_S50000x128_1_0_0_1_n_n none x (transpose S128x128 [1, 0] w transposes_S128x128_S128x128_1_0)
      = Cert.Spec.lin x w (fun _ => 0) := by
  funext i
  obtain ⟨n, o, rfl⟩ : ∃ (n : Fin 50000) (o : Fin 128), i = ix2 n o := ⟨i 0, i 1, eq_ix2 i⟩
  rw [dot_at]
  refine (add_zero _).symm.trans ?_
  exact congrArg (· + (0 : EReal)) (Finset.sum_congr rfl fun k _ => by rw [transpose_w])

/-- The zero splat the reference takes the maximum with reads `0` everywhere. -/
theorem zero_splat_at (i : S50000x128.Idx) :
    broadcastInDim S50000x128 ![] bcast_S_S50000x128 (constant (F := Ideal) S_ .f32 0x00000000#32) i = 0 :=
  Ideal.ofBits_zero_f32

/-- The reference's linear layer followed by the maximum with the zero splat. -/
theorem host_linRelu (x : FVec Ideal S50000x128 .f32) (w : FVec Ideal S128x128 .f32) (b : FVec Ideal S128 .f32) :
    maximumf
      (addf (Host.dotGeneral (F := Ideal) dot_S50000x128_S128x128_S50000x128_1_0_0_1_n_n none x (transpose S128x128 [1, 0] w transposes_S128x128_S128x128_1_0))
        (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32))
      = Cert.Spec.linRelu x w b := by
  funext i
  rw [maximumf_apply, host_lin_apply, zero_splat_at]
  rfl

/-- The reference's linear layer followed by the hyperbolic tangent. -/
theorem host_linTanh (x : FVec Ideal S50000x128 .f32) (w : FVec Ideal S128x128 .f32) (b : FVec Ideal S128 .f32) :
    Host.tanh
      (addf (Host.dotGeneral (F := Ideal) dot_S50000x128_S128x128_S50000x128_1_0_0_1_n_n none x (transpose S128x128 [1, 0] w transposes_S128x128_S128x128_1_0))
        (broadcastInDim S50000x128 ![0, 1] bcast_S1x128_S50000x128_0_1 (broadcastInDim S1x128 ![1] bcast_S128_S1x128_1 b)))
      = Cert.Spec.linTanh x w b := by
  funext i
  exact congrArg Ideal.tanh (host_lin_apply x w b i)

/-! ## The read-out layer: 64 output features -/

/-- The transposed 64×128 weight at `(k, o)` is the weight at `(o, k)`. -/
theorem transpose_w64 (w : FVec Ideal S64x128 .f32) (k : Fin 128) (o : Fin 64) :
    transpose S128x64 [1, 0] w transposes_S64x128_S128x64_1_0 (ix2 k o) = w (ix2 o k) :=
  transpose_apply [1, 0] w transposes_S64x128_S128x64_1_0 (ix2 k o) (ix2 o k)
    (fun b => match b with | ⟨0, _⟩ => rfl | ⟨1, _⟩ => rfl)

/-- The host contraction at `(n, o)`, 64 output features. -/
theorem dot64_at (x : FVec Ideal S50000x128 .f32) (wt : FVec Ideal S128x64 .f32) (n : Fin 50000) (o : Fin 64) :
    Host.dotGeneral (F := Ideal) dot_S50000x128_S128x64_S50000x64_1_0_0_1_n_n none x wt (ix2 n o) = ∑ k : Fin 128, x (ix2 n k) * wt (ix2 k o) := by
  simp only [Host.dotGeneral]
  rw [Ideal.dotGeneral_apply]
  rw [← Equiv.sum_comp (contrEquiv1 dot_S50000x128_S128x64_S50000x64_1_0_0_1_n_n 128 rfl rfl).symm]
  refine Finset.sum_congr rfl fun k _ => ?_
  have hl : dot_S50000x128_S128x64_S50000x64_1_0_0_1_n_n.lhsIdx (ix2 n o) ((contrEquiv1 dot_S50000x128_S128x64_S50000x64_1_0_0_1_n_n 128 rfl rfl).symm k) = ix2 n k := by
    funext a; apply Fin.ext
    match a with
    | ⟨0, _⟩ => rfl
    | ⟨1, _⟩ =>
      exact (DotDims.lhsIdx_val_of_single _ (cl := (1 : Fin 2)) rfl _ _).trans
        (contrEquiv1_symm_val dot_S50000x128_S128x64_S50000x64_1_0_0_1_n_n 128 rfl rfl k)
  have hr : dot_S50000x128_S128x64_S50000x64_1_0_0_1_n_n.rhsIdx (ix2 n o) ((contrEquiv1 dot_S50000x128_S128x64_S50000x64_1_0_0_1_n_n 128 rfl rfl).symm k) = ix2 k o := by
    funext a; apply Fin.ext
    match a with
    | ⟨0, _⟩ =>
      exact (DotDims.rhsIdx_val_of_single _ (cr := (0 : Fin 2)) rfl _ _).trans
        (contrEquiv1_symm_val dot_S50000x128_S128x64_S50000x64_1_0_0_1_n_n 128 rfl rfl k)
    | ⟨1, _⟩ => rfl
  rw [hl, hr]

/-- The 64-feature bias broadcast to one row and then along every row, at `(n, o)`, is the bias at `o`. -/
theorem bias64_at (b : FVec Ideal S64 .f32) (n : Fin 50000) (o : Fin 64) :
    broadcastInDim S50000x64 ![0, 1] bcast_S1x64_S50000x64_0_1 (broadcastInDim S1x64 ![1] bcast_S64_S1x64_1 b) (ix2 n o)
      = b (ix1 o) := by
  refine (broadcastInDim_apply ![0, 1] bcast_S1x64_S50000x64_0_1 _ (ix2 n o) (ix2 (0 : Fin 1) o)
    (fun a => match a with | ⟨0, _⟩ => rfl | ⟨1, _⟩ => rfl)).trans ?_
  exact broadcastInDim_apply ![1] bcast_S64_S1x64_1 b (ix2 (0 : Fin 1) o) (ix1 o)
    (fun a => match a with | ⟨0, _⟩ => rfl)

/-- The reference's read-out layer. -/
theorem host_lin64 (x : FVec Ideal S50000x128 .f32) (w : FVec Ideal S64x128 .f32) (b : FVec Ideal S64 .f32) :
    addf (Host.dotGeneral (F := Ideal) dot_S50000x128_S128x64_S50000x64_1_0_0_1_n_n none x (transpose S128x64 [1, 0] w transposes_S64x128_S128x64_1_0))
      (broadcastInDim S50000x64 ![0, 1] bcast_S1x64_S50000x64_0_1 (broadcastInDim S1x64 ![1] bcast_S64_S1x64_1 b))
      = Cert.Spec.lin64 x w b := by
  funext i
  obtain ⟨n, o, rfl⟩ : ∃ (n : Fin 50000) (o : Fin 64), i = ix2 n o := ⟨i 0, i 1, eq_ix2 i⟩
  rw [addf_apply, dot64_at, bias64_at]
  exact congrArg (· + b (ix1 o)) (Finset.sum_congr rfl fun k _ => by rw [transpose_w64])

end Cert.LinHost

end
-- ==== Proof.EdgeHost.lean ====
/-
  The reference's edge resistance, as the host computes it, is the specification's.

  The host lays the two gathered 400000×128 endpoint arrays side by side, multiplies by the transposed 128×256 weight
  (a plain product: the sum over the contracted axis), adds the bias — made a 1×128 row, then repeated down the rows —,
  takes the maximum with the zero constant repeated over the array, multiplies by the transposed 1×128 weight, adds
  the one-entry bias — made 1×1, then repeated down the rows —, views the 400000×1 column as a 400000-vector (same
  row-major position) and takes the absolute value `max s (−s)`.

  Read at edge `e`: the sum over the 256 side-by-side features is the sum over the first 128 (the first array's row)
  plus the sum over the last 128 (the second array's row), each against the matching half of row `j` of the weight;
  every broadcast reads its operand's entry; the vector's entry `e` is the column's entry `(e, 0)`. That is the
  specification's edge resistance at `(e, 0)`.
-/
import proofs.«107783_j24189255811079_1_alg».proof.ReferenceIdeal
import proofs.«107783_j24189255811079_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.Edge.Host

open Cert.ReferenceIdeal Idealize.ShloMosaic Idealize.ShloMosaic.ValueIdx
open scoped BigOperators

variable [Facts₀]
open Facts₀

/-- The first product's dimension numbers: 400000×256 against 256×128, contracting the 256. -/
abbrev H1 : DotDims S400000x256 S256x128 S400000x128 := dot_S400000x256_S256x128_S400000x128_1_0_0_1_n_n
/-- The second product's: 400000×128 against 128×1, contracting the 128. -/
abbrev H2 : DotDims S400000x128 S128x1 S400000x1 := dot_S400000x128_S128x1_S400000x1_1_0_0_1_n_n

/-- A rank-2 index with coordinates `a`, `b` is `ix2 a b`. -/
theorem idx2_ext {n0 n1 : Nat} (x : (⟨2, ![n0, n1]⟩ : Shape).Idx) (a : Fin n0) (b : Fin n1)
    (h0 : (x 0).val = a.val) (h1 : (x 1).val = b.val) : x = ix2 a b :=
  funext fun d => match d with | ⟨0, _⟩ => Fin.ext h0 | ⟨1, _⟩ => Fin.ext h1

/-- A sum over 256 positions is the sum over the first 128 plus the sum over the last 128. -/
theorem sum_split (f : Fin 256 → EReal) :
    ∑ i : Fin 256, f i = (∑ k : Fin 128, f (Fin.castLE (by decide : 128 ≤ 256) k)) + ∑ k : Fin 128, f ⟨128 + k.val, by omega⟩ :=
  Fin.sum_univ_add (a := 128) (b := 128) f

/-- Two arrays side by side, read in the first 128 columns: the first array. -/
theorem cat_lo (h : Shape.Concatenates [S400000x128, S400000x128] S400000x256 1) (x₁ x₂ : FVec Ideal S400000x128 .f32) (e : Fin 400000) (k : Fin 128) :
    concatenate S400000x256 1 [⟨S400000x128, x₁⟩, ⟨S400000x128, x₂⟩] h (ix2 e (Fin.castLE (by decide : 128 ≤ 256) k)) = x₁ (ix2 e k) :=
  concatenate_pair_apply_left 1 x₁ x₂ h _ rfl (ix2 e k) fun b => match b with | ⟨0, _⟩ => rfl | ⟨1, _⟩ => rfl

/-- Two arrays side by side, read in the last 128 columns: the second array, 128 columns to the left. -/
theorem cat_hi (h : Shape.Concatenates [S400000x128, S400000x128] S400000x256 1) (x₁ x₂ : FVec Ideal S400000x128 .f32) (e : Fin 400000) (k : Fin 128) :
    concatenate S400000x256 1 [⟨S400000x128, x₁⟩, ⟨S400000x128, x₂⟩] h (ix2 e (⟨128 + k.val, by omega⟩ : Fin 256)) = x₂ (ix2 e k) :=
  concatenate_pair_apply_right 1 x₁ x₂ h _ rfl rfl (ix2 e k)
    (fun b hb => match b, hb with | ⟨0, _⟩, _ => rfl | ⟨1, _⟩, hb => absurd rfl hb)
    (by show k.val + 128 = 128 + k.val; omega)

/-- The 128×256 weight transposed reads, at `(i, j)`, the weight at `(j, i)`. -/
theorem tr1_apply (ht : S128x256.Transposes [1, 0] S256x128) (w : FVec Ideal S128x256 .f32) (i : Fin 256) (j : Fin 128) :
    transpose S256x128 [1, 0] w ht (ix2 i j) = w (ix2 j i) := transpose_ix2_apply w ht i j

/-- The 1×128 weight transposed reads, at `(j, 0)`, the weight at `(0, j)`. -/
theorem tr2_apply (ht : S1x128.Transposes [1, 0] S128x1) (w : FVec Ideal S1x128 .f32) (j : Fin 128) :
    transpose S128x1 [1, 0] w ht (ix2 j (0 : Fin 1)) = w (ix2 (0 : Fin 1) j) := transpose_ix2_apply w ht j (0 : Fin 1)

/-- The host's first product against the transposed weight, at `(e, j)`. -/
theorem dot1_apply (lhs : FVec Ideal S400000x256 .f32) (w : FVec Ideal S128x256 .f32) (ht : S128x256.Transposes [1, 0] S256x128)
    (e : Fin 400000) (j : Fin 128) :
    Host.dotGeneral H1 none lhs (transpose S256x128 [1, 0] w ht) (ix2 e j) = ∑ i : Fin 256, lhs (ix2 e i) * w (ix2 j i) := by
  refine (Ideal.dotGeneral_apply H1 none .single lhs _ (ix2 e j)).trans ?_
  rw [← Equiv.sum_comp (contrEquiv1 H1 256 rfl rfl).symm]
  refine Finset.sum_congr rfl fun i _ => ?_
  rw [idx2_ext (H1.lhsIdx (ix2 e j) ((contrEquiv1 H1 256 rfl rfl).symm i)) e i rfl
      ((H1.lhsIdx_val_of_single rfl _ _).trans (contrEquiv1_symm_val H1 256 rfl rfl i)),
    idx2_ext (H1.rhsIdx (ix2 e j) ((contrEquiv1 H1 256 rfl rfl).symm i)) i j
      ((H1.rhsIdx_val_of_single rfl _ _).trans (contrEquiv1_symm_val H1 256 rfl rfl i)) rfl,
    tr1_apply]

/-- The host's second product against the transposed weight, at `(e, 0)`. -/
theorem dot2_apply (lhs : FVec Ideal S400000x128 .f32) (w : FVec Ideal S1x128 .f32) (ht : S1x128.Transposes [1, 0] S128x1) (e : Fin 400000) :
    Host.dotGeneral H2 none lhs (transpose S128x1 [1, 0] w ht) (ix2 e (0 : Fin 1)) = ∑ j : Fin 128, lhs (ix2 e j) * w (ix2 (0 : Fin 1) j) := by
  refine (Ideal.dotGeneral_apply H2 none .single lhs _ (ix2 e (0 : Fin 1))).trans ?_
  rw [← Equiv.sum_comp (contrEquiv1 H2 128 rfl rfl).symm]
  refine Finset.sum_congr rfl fun i _ => ?_
  rw [idx2_ext (H2.lhsIdx (ix2 e (0 : Fin 1)) ((contrEquiv1 H2 128 rfl rfl).symm i)) e i rfl
      ((H2.lhsIdx_val_of_single rfl _ _).trans (contrEquiv1_symm_val H2 128 rfl rfl i)),
    idx2_ext (H2.rhsIdx (ix2 e (0 : Fin 1)) ((contrEquiv1 H2 128 rfl rfl).symm i)) i (0 : Fin 1)
      ((H2.rhsIdx_val_of_single rfl _ _).trans (contrEquiv1_symm_val H2 128 rfl rfl i)) rfl,
    tr2_apply]

/-- The 128-vector bias, made a row and repeated down the rows, at `(e, j)`: entry `j`. -/
theorem bias1_apply (h1 : S128.BroadcastsInDim S1x128 (![1] : Fin 1 → Fin S1x128.rank))
    (h2 : S1x128.BroadcastsInDim S400000x128 (![0, 1] : Fin 2 → Fin S400000x128.rank)) (b : FVec Ideal S128 .f32) (e : Fin 400000) (j : Fin 128) :
    broadcastInDim S400000x128 ![0, 1] h2 (broadcastInDim S1x128 ![1] h1 b) (ix2 e j) = b (ix1 j) := by
  refine (broadcastInDim_apply _ h2 _ (ix2 e j) (ix2 (0 : Fin 1) j) fun a => match a with | ⟨0, _⟩ => rfl | ⟨1, _⟩ => rfl).trans ?_
  exact broadcastInDim_apply _ h1 b (ix2 (0 : Fin 1) j) (ix1 j) fun a => match a with | ⟨0, _⟩ => rfl

/-- The one-entry bias, made 1×1 and repeated down the rows, at `(e, 0)`: its entry. -/
theorem bias2_apply (h1 : S1.BroadcastsInDim S1x1 (![1] : Fin 1 → Fin S1x1.rank))
    (h2 : S1x1.BroadcastsInDim S400000x1 (![0, 1] : Fin 2 → Fin S400000x1.rank)) (b : FVec Ideal S1 .f32) (e : Fin 400000) :
    broadcastInDim S400000x1 ![0, 1] h2 (broadcastInDim S1x1 ![1] h1 b) (ix2 e (0 : Fin 1)) = b (ix1 (0 : Fin 1)) := by
  refine (broadcastInDim_apply _ h2 _ (ix2 e (0 : Fin 1)) (ix2 (0 : Fin 1) (0 : Fin 1)) fun a => match a with | ⟨0, _⟩ => rfl | ⟨1, _⟩ => rfl).trans ?_
  exact broadcastInDim_apply _ h1 b (ix2 (0 : Fin 1) (0 : Fin 1)) (ix1 (0 : Fin 1)) fun a => match a with | ⟨0, _⟩ => rfl

/-- The zero constant repeated over the array reads zero everywhere. -/
theorem zero_apply (h : S_.BroadcastsInDim S400000x128 (![] : Fin 0 → Fin S400000x128.rank)) (i : S400000x128.Idx) :
    broadcastInDim S400000x128 ![] h (constant (F := Ideal) S_ .f32 0x00000000#32) i = 0 := by
  refine (broadcastInDim_apply _ h _ i ix0 fun a => a.elim0).trans ?_
  rw [constant_apply, Ideal.ofBits_zero_f32]

/-- The host's hidden layer at `(e, j)`. -/
theorem hidden_apply (xs xd : FVec Ideal S400000x128 .f32) (w1 : FVec Ideal S128x256 .f32) (b1 : FVec Ideal S128 .f32)
    (hc : Shape.Concatenates [S400000x128, S400000x128] S400000x256 1) (ht : S128x256.Transposes [1, 0] S256x128)
    (h1 : S128.BroadcastsInDim S1x128 (![1] : Fin 1 → Fin S1x128.rank))
    (h2 : S1x128.BroadcastsInDim S400000x128 (![0, 1] : Fin 2 → Fin S400000x128.rank))
    (h0 : S_.BroadcastsInDim S400000x128 (![] : Fin 0 → Fin S400000x128.rank)) (e : Fin 400000) (j : Fin 128) :
    maximumf (addf (Host.dotGeneral H1 none (concatenate S400000x256 1 [⟨S400000x128, xs⟩, ⟨S400000x128, xd⟩] hc) (transpose S256x128 [1, 0] w1 ht))
        (broadcastInDim S400000x128 ![0, 1] h2 (broadcastInDim S1x128 ![1] h1 b1)))
      (broadcastInDim S400000x128 ![] h0 (constant (F := Ideal) S_ .f32 0x00000000#32)) (ix2 e j)
      = Cert.Spec.edgeHidden xs xd w1 b1 e j := by
  rw [maximumf_apply, addf_apply, dot1_apply, bias1_apply, zero_apply, sum_split]
  simp only [cat_lo, cat_hi]
  rfl

/-- From the hidden layer at edge `e` to the reference's entry `e`. -/
theorem edge_of_hidden (H : FVec Ideal S400000x128 .f32) (w2 : FVec Ideal S1x128 .f32) (b2 : FVec Ideal S1 .f32)
    (ht : S1x128.Transposes [1, 0] S128x1) (h1 : S1.BroadcastsInDim S1x1 (![1] : Fin 1 → Fin S1x1.rank))
    (h2 : S1x1.BroadcastsInDim S400000x1 (![0, 1] : Fin 2 → Fin S400000x1.rank)) (hs : S400000x1.ShapeCasts S400000) (e : Fin 400000)
    (hid : Fin 128 → EReal) (hH : ∀ j, H (ix2 e j) = hid j) :
    Host.absf (shapeCast S400000 (addf (Host.dotGeneral H2 none H (transpose S128x1 [1, 0] w2 ht))
        (broadcastInDim S400000x1 ![0, 1] h2 (broadcastInDim S1x1 ![1] h1 b2))) hs) (ix1 e)
      = max ((∑ j : Fin 128, hid j * w2 (ix2 (0 : Fin 1) j)) + b2 (ix1 (0 : Fin 1)))
          (-((∑ j : Fin 128, hid j * w2 (ix2 (0 : Fin 1) j)) + b2 (ix1 (0 : Fin 1)))) := by
  show max _ (- _) = _
  rw [shapeCast_apply _ hs (ix1 e) (ix2 e (0 : Fin 1)) (by
      rw [Shape.rowMajor_val_one, Shape.rowMajor_val_two]; show e.val * 1 + 0 = e.val; omega),
    addf_apply, dot2_apply, bias2_apply,
    Finset.sum_congr rfl (fun j _ => by rw [hH j] : ∀ j ∈ (Finset.univ : Finset (Fin 128)), H (ix2 e j) * w2 (ix2 (0 : Fin 1) j) = hid j * w2 (ix2 (0 : Fin 1) j))]

end Cert.Edge.Host

namespace Cert.Edge

open Cert.ReferenceIdeal Idealize.ShloMosaic Idealize.ShloMosaic.ValueIdx
open scoped BigOperators
open Cert.Edge.Host

variable [Facts₀]
open Facts₀

/-- THE REFERENCE'S EDGE RESISTANCE: its edge block's operations composed — side-by-side concatenation, transposed weight,
    product, the bias broadcast twice, the maximum with the broadcast zero, transposed weight, product, the bias broadcast
    twice, the column viewed as a vector, the absolute value — as one term of the two gathered arrays, the two weights
    and the two biases, is the specification's column read as a vector. -/
theorem host_edge (xs xd : FVec Ideal S400000x128 .f32) (w1 : FVec Ideal S128x256 .f32) (b1 : FVec Ideal S128 .f32)
    (w2 : FVec Ideal S1x128 .f32) (b2 : FVec Ideal S1 .f32) :
    Host.absf (shapeCast S400000
      (addf
        (Host.dotGeneral dot_S400000x128_S128x1_S400000x1_1_0_0_1_n_n none
          (maximumf
            (addf
              (Host.dotGeneral dot_S400000x256_S256x128_S400000x128_1_0_0_1_n_n none
                (concatenate S400000x256 1 [⟨S400000x128, xs⟩, ⟨S400000x128, xd⟩] concatenates_S400000x128_S400000x128_S400000x256_d1)
                (transpose S256x128 [1, 0] w1 transposes_S128x256_S256x128_1_0))
              (broadcastInDim S400000x128 ![0, 1] bcast_S1x128_S400000x128_0_1 (broadcastInDim S1x128 ![1] bcast_S128_S1x128_1 b1)))
            (broadcastInDim S400000x128 ![] bcast_S_S400000x128 (constant (F := Ideal) S_ .f32 0x00000000#32)))
          (transpose S128x1 [1, 0] w2 transposes_S1x128_S128x1_1_0))
        (broadcastInDim S400000x1 ![0, 1] bcast_S1x1_S400000x1_0_1 (broadcastInDim S1x1 ![1] bcast_S1_S1x1_1 b2)))
      shapeCasts_S400000x1_S400000)
    = fun e : S400000.Idx => Cert.Spec.edge xs xd w1 b1 w2 b2 (ix2 (e 0 : Fin 400000) (0 : Fin 1)) := by
  funext e
  obtain ⟨e, rfl⟩ : ∃ e' : Fin 400000, e = ix1 e' := ⟨e 0, eq_ix1 e⟩
  exact edge_of_hidden _ w2 b2 _ _ _ _ e _ fun j => hidden_apply xs xd w1 b1 _ _ _ _ _ e j

end Cert.Edge

end
-- ==== Proof.NodeHost.lean ====
/-
  The reference's node update as one expression of whole arrays, read index by index. With the degree a vector `deg` of
  50000 numbers, broadcast first to a 50000×1 column and then along the 128 features, the reference computes

      v' = v − ε·((deg·f − scat) + diss·v),        x' = x + ε·v',

  every operation elementwise and `ε` the splat of the binary32 number nearest one hundredth. At index `(p, q)` the two
  broadcasts read `deg[p]`, so `v'` is the velocity update of the specification with the degree column
  `(p, 0) ↦ deg[p]`, and `x'` adds `ε·v'` to `x`.
-/
import proofs.«107783_j24189255811079_1_alg».proof.ReferenceIdeal
import proofs.«107783_j24189255811079_1_alg».proof.Proof.Spec
import Idealize.ShloMosaic.Lib.ValueIdx
import Idealize.ShloMosaic.Lib.Pipeline.Value

noncomputable section

namespace Cert.Node

open Idealize.ShloMosaic Idealize.ShloMosaic.ValueIdx
open Cert.ReferenceIdeal Cert.ReferenceIdeal.Facts₀

variable [Cert.ReferenceIdeal.Facts₀]

/-- The splat of a scalar over the 50000×128 array reads the scalar everywhere. -/
theorem splat_apply (z : FVec Ideal S_ .f32) (i : S50000x128.Idx) :
    broadcastInDim S50000x128 ![] bcast_S_S50000x128 z i = z ix0 :=
  broadcastInDim_apply _ _ z i ix0 (fun a => a.elim0)

/-- The step constant splatted over the array reads `ε` everywhere. -/
theorem eps_splat_apply (i : S50000x128.Idx) :
    broadcastInDim S50000x128 ![] bcast_S_S50000x128 (constant (F := Ideal) S_ .f32 0x3C23D70A#32) i = Cert.Spec.eps := by
  rw [splat_apply]
  rfl

/-- The degree vector, made a column and then broadcast along the features, reads `deg[p]` at `(p, q)`. -/
theorem deg_bcast_apply (deg : FVec Ideal S50000 .f32) (p : Fin 50000) (q : Fin 128) :
    broadcastInDim S50000x128 ![0, 1] bcast_S50000x1_S50000x128_0_1 (broadcastInDim S50000x1 ![0] bcast_S50000_S50000x1_0 deg) (ix2 p q)
      = deg (ix1 p) := by
  rw [broadcastInDim_apply _ _ _ (ix2 p q) (ix2 p (0 : Fin 1)) (fun a => by
    match a with
    | ⟨0, _⟩ => show p.val = if (50000 : Nat) = 1 then 0 else p.val; rw [if_neg (by decide)]
    | ⟨1, _⟩ => show (0 : Nat) = if (1 : Nat) = 1 then 0 else q.val; rw [if_pos rfl])]
  rw [broadcastInDim_apply _ _ _ (ix2 p (0 : Fin 1)) (ix1 p) (fun a => by
    match a with
    | ⟨0, _⟩ => show p.val = if (50000 : Nat) = 1 then 0 else p.val; rw [if_neg (by decide)])]

/-- THE REFERENCE'S VELOCITY UPDATE is the specification's, the degree column being `(p, 0) ↦ deg[p]`. -/
theorem host_nodeV (v f diss : FVec Ideal S50000x128 .f32) (deg : FVec Ideal S50000 .f32) (scat : FVec Ideal S50000x128 .f32) :
    subf v (mulf (broadcastInDim S50000x128 ![] bcast_S_S50000x128 (constant (F := Ideal) S_ .f32 0x3C23D70A#32))
        (addf (subf (mulf (broadcastInDim S50000x128 ![0, 1] bcast_S50000x1_S50000x128_0_1
          (broadcastInDim S50000x1 ![0] bcast_S50000_S50000x1_0 deg)) f) scat) (mulf diss v)))
      = Cert.Spec.nodeV v f diss (fun i => deg (ix1 (i 0 : Fin 50000))) scat := by
  funext i
  obtain ⟨p, q, rfl⟩ : ∃ (p : Fin 50000) (q : Fin 128), i = ix2 p q := ⟨i 0, i 1, eq_ix2 i⟩
  rw [subf_apply, mulf_apply, addf_apply, subf_apply, mulf_apply, mulf_apply, eps_splat_apply, deg_bcast_apply]
  rfl

/-- THE REFERENCE'S POSITION UPDATE adds `ε` times the new velocity to the position, element by element. -/
theorem host_nodeX (x v' : FVec Ideal S50000x128 .f32) :
    addf x (mulf (broadcastInDim S50000x128 ![] bcast_S_S50000x128 (constant (F := Ideal) S_ .f32 0x3C23D70A#32)) v')
      = fun i => x i + Cert.Spec.eps * v' i := by
  funext i
  rw [addf_apply, mulf_apply, eps_splat_apply]

end Cert.Node

end
-- ==== Proof.DegScatter.lean ====
/-
  The degree of a node — the sum of the resistances of the edges that end in it — is accumulated by a scatter-add:
  update `e` is added to the element whose number the start index gives for `e`, read as a signed integer, and is
  dropped when that number is not an element's. One program keeps the degrees as a vector of 50000 numbers and the
  updates as a vector of 400000; the other keeps the degrees as a 50000×1 column and the updates as a 400000×1 column
  whose one window axis goes to the column's one column. Both read the same 400000×1 array of start indices.

  This module shows that the two layouts compute the same numbers: element `n` of the vector result is element
  `(n, 0)` of the column result whenever the operands and the updates agree under `n ↦ (n, 0)`, `e ↦ (e, 0)`.
  The route: for either set of dimension numbers, update `e` (resp. `(e, z)`) lands on element `n` (resp. `(n, 0)`)
  exactly when the start index at `(e, 0)`, read signed, is `n` — the start on the scattered axis is that number, the
  window coordinate is `0` on it and, in the column layout, the second axis has start `0` and window coordinate
  `z = 0` inside its extent `1`. The two sums of updates are then matched by the bijection `e ↦ (e, 0)`.
-/
import proofs.«107783_j24189255811079_1_alg».proof.KernelIdeal
import proofs.«107783_j24189255811079_1_alg».proof.ReferenceIdeal
import Idealize.ShloMosaic.Lib.ValueIdx
import Idealize.ShloMosaic.Lib.Pipeline.Value

noncomputable section

namespace Cert.DegScatter

open Idealize.ShloMosaic Idealize.ShloMosaic.ValueIdx

-- the two programs' shape facts (their well-formedness conditions), whichever proofs of them are supplied
variable [Cert.KernelIdeal.Facts₀] [Cert.ReferenceIdeal.Facts₀]

/-- The column layout's scatter dimension numbers: operand 50000×1, updates 400000×1 with window axis 1. -/
abbrev dK : ScatterDims Cert.KernelIdeal.S50000x1 Cert.KernelIdeal.S400000x1 Cert.KernelIdeal.S400000x1 :=
  Cert.KernelIdeal.scatter_S50000x1_S400000x1_S400000x1_1_0_0_1
/-- The vector layout's scatter dimension numbers: operand 50000, updates 400000, no window axis. -/
abbrev dR : ScatterDims Cert.ReferenceIdeal.S50000 Cert.ReferenceIdeal.S400000x1 Cert.ReferenceIdeal.S400000 :=
  Cert.ReferenceIdeal.scatter_S50000_S400000x1_S400000_n_0_0_1

variable {w : Nat} (idx : IVec (⟨2, ![400000, 1]⟩ : Shape) w)

/-- The column layout scatters along axis 0 of the operand … -/
theorem sdtoK : dK.scatterDimsToOperandDims = ([0] : List (Fin 2)) := rfl
/-- … and keeps its axis 1 for the update's window. -/
theorem sKeptK : dK.sKept = ([1] : List (Fin 2)) := rfl
/-- The vector layout scatters along the operand's one axis … -/
theorem sdtoR : dR.scatterDimsToOperandDims = ([0] : List (Fin 1)) := rfl
/-- … and keeps no axis for a window. -/
theorem sKeptR : dR.sKept = ([] : List (Fin 1)) := rfl

/-- In the column layout update `(e, z)` reads its start index at `(e, 0)`. -/
theorem siIdxK (e : Fin 400000) (z : Fin 1) (c) : dK.siIdx (ix2 e z) c = ix2 e (0 : Fin 1) := by
  funext b
  match b with
  | ⟨0, _⟩ => rfl
  | ⟨1, _⟩ =>
    apply Fin.ext
    have hc : c.val < 1 := c.isLt
    show c.val = 0
    omega

/-- In the vector layout update `e` reads its start index at `(e, 0)`. -/
theorem siIdxR (e : Fin 400000) (c) : dR.siIdx (ix1 e) c = ix2 e (0 : Fin 1) := by
  funext b
  match b with
  | ⟨0, _⟩ => rfl
  | ⟨1, _⟩ =>
    apply Fin.ext
    have hc : c.val < 1 := c.isLt
    show c.val = 0
    omega

/-- Column layout, axis 0: the window starts at the start index read signed. -/
theorem startK0 (e : Fin 400000) (z : Fin 1) : dK.start (ix2 e z) idx 0 = (idx (ix2 e (0 : Fin 1))).toInt := by
  unfold ScatterDims.start
  rw [dif_pos (by rw [sdtoK]; decide)]
  rw [siIdxK]

/-- Column layout, axis 1: the window starts at `0`. -/
theorem startK1 (e : Fin 400000) (z : Fin 1) : dK.start (ix2 e z) idx 1 = 0 := by
  unfold ScatterDims.start
  rw [dif_neg (by rw [sdtoK]; decide)]

/-- Column layout, axis 0 is inserted: window coordinate `0`. -/
theorem windowK0 (e : Fin 400000) (z : Fin 1) : dK.window (ix2 e z) 0 = 0 := by
  unfold ScatterDims.window
  rw [dif_neg (by rw [sKeptK]; decide)]

/-- Column layout, axis 1: the window coordinate is the update's second coordinate. -/
theorem windowK1 (e : Fin 400000) (z : Fin 1) : dK.window (ix2 e z) 1 = z.val := by
  unfold ScatterDims.window
  rw [dif_pos (by rw [sKeptK]; decide)]
  rfl

/-- Vector layout: the window starts at the start index read signed. -/
theorem startR0 (e : Fin 400000) : dR.start (ix1 e) idx 0 = (idx (ix2 e (0 : Fin 1))).toInt := by
  unfold ScatterDims.start
  rw [dif_pos (by rw [sdtoR]; decide)]
  rw [siIdxR]

/-- Vector layout: the one axis is inserted, window coordinate `0`. -/
theorem windowR0 (e : Fin 400000) : dR.window (ix1 e) 0 = 0 := by
  unfold ScatterDims.window
  rw [dif_neg (by rw [sKeptR]; decide)]

/-- Where the kernel-layout scatter sends update `(e, z)`: row `n` of the one column exactly when the start index read
    signed at `(e, 0)` is `n`. -/
theorem resK (e : Fin 400000) (z : Fin 1) (n : Fin 50000) :
    dK.resultIdx? (ix2 e z) idx = some (ix2 n (0 : Fin 1)) ↔ (idx (ix2 e (0 : Fin 1))).toInt = (n.val : Int) := by
  have hz : z.val = 0 := by have := z.isLt; omega
  have hn : n.val < 50000 := n.isLt
  constructor
  · intro h
    unfold ScatterDims.resultIdx? at h
    split at h
    next hall =>
      have h0 : (dK.start (ix2 e z) idx 0 + dK.window (ix2 e z) 0).toNat = n.val :=
        congrArg Fin.val (congrFun (Option.some.inj h) 0)
      have b : 0 ≤ dK.start (ix2 e z) idx 0 + dK.window (ix2 e z) 0 := (hall 0).1
      rw [startK0, windowK0] at h0 b
      omega
    next => exact absurd h (by simp)
  · intro hT
    have hall : ∀ a, 0 ≤ dK.start (ix2 e z) idx a + dK.window (ix2 e z) a
        ∧ dK.start (ix2 e z) idx a + dK.window (ix2 e z) a < Cert.KernelIdeal.S50000x1.size a := by
      intro a
      match a with
      | ⟨0, _⟩ =>
        show 0 ≤ dK.start (ix2 e z) idx 0 + dK.window (ix2 e z) 0
          ∧ dK.start (ix2 e z) idx 0 + dK.window (ix2 e z) 0 < ((50000 : Nat) : Int)
        rw [startK0, windowK0]; omega
      | ⟨1, _⟩ =>
        show 0 ≤ dK.start (ix2 e z) idx 1 + dK.window (ix2 e z) 1
          ∧ dK.start (ix2 e z) idx 1 + dK.window (ix2 e z) 1 < ((1 : Nat) : Int)
        rw [startK1, windowK1]; omega
    unfold ScatterDims.resultIdx?
    rw [dif_pos hall]
    refine congrArg some (funext fun a => Fin.ext ?_)
    match a with
    | ⟨0, _⟩ =>
      show (dK.start (ix2 e z) idx 0 + dK.window (ix2 e z) 0).toNat = n.val
      rw [startK0, windowK0]; omega
    | ⟨1, _⟩ =>
      show (dK.start (ix2 e z) idx 1 + dK.window (ix2 e z) 1).toNat = 0
      rw [startK1, windowK1]; omega

/-- Where the vector-layout scatter sends update `e`: element `n` exactly when the start index read signed at
    `(e, 0)` is `n`. -/
theorem resR (e : Fin 400000) (n : Fin 50000) :
    dR.resultIdx? (ix1 e) idx = some (ix1 n) ↔ (idx (ix2 e (0 : Fin 1))).toInt = (n.val : Int) := by
  have hn : n.val < 50000 := n.isLt
  constructor
  · intro h
    unfold ScatterDims.resultIdx? at h
    split at h
    next hall =>
      have h0 : (dR.start (ix1 e) idx 0 + dR.window (ix1 e) 0).toNat = n.val :=
        congrArg Fin.val (congrFun (Option.some.inj h) 0)
      have b : 0 ≤ dR.start (ix1 e) idx 0 + dR.window (ix1 e) 0 := (hall 0).1
      rw [startR0, windowR0] at h0 b
      omega
    next => exact absurd h (by simp)
  · intro hT
    have hall : ∀ a, 0 ≤ dR.start (ix1 e) idx a + dR.window (ix1 e) a
        ∧ dR.start (ix1 e) idx a + dR.window (ix1 e) a < Cert.ReferenceIdeal.S50000.size a := by
      intro a
      match a with
      | ⟨0, _⟩ =>
        show 0 ≤ dR.start (ix1 e) idx 0 + dR.window (ix1 e) 0
          ∧ dR.start (ix1 e) idx 0 + dR.window (ix1 e) 0 < ((50000 : Nat) : Int)
        rw [startR0, windowR0]; omega
    unfold ScatterDims.resultIdx?
    rw [dif_pos hall]
    refine congrArg some (funext fun a => Fin.ext ?_)
    match a with
    | ⟨0, _⟩ =>
      show (dR.start (ix1 e) idx 0 + dR.window (ix1 e) 0).toNat = n.val
      rw [startR0, windowR0]; omega

/-- The vector of updates and the column of updates have the same index set: `e ↦ (e, 0)`. -/
def colEquiv : (⟨1, ![400000]⟩ : Shape).Idx ≃ (⟨2, ![400000, 1]⟩ : Shape).Idx where
  toFun j := ix2 (j 0 : Fin 400000) (0 : Fin 1)
  invFun j := ix1 (j 0 : Fin 400000)
  left_inv j := (eq_ix1 j).symm
  right_inv j := by
    funext a
    match a with
    | ⟨0, _⟩ => rfl
    | ⟨1, _⟩ =>
      apply Fin.ext
      have h1 : (j 1).val < 1 := (j 1).isLt
      show 0 = (j 1).val
      omega

/-- The accumulating scatter at one element: the operand there plus the updates that land there. -/
theorem hostScatterAdd_apply {s si su : Shape} (d : ScatterDims s si su) {w : Nat} (x : s.Idx → EReal) (idx : IVec si w)
    (upd : su.Idx → EReal) (i : s.Idx) :
    Ideal.hostScatterAdd d x idx upd i = x i + ∑ j ∈ Finset.univ.filter (fun j => d.resultIdx? j idx = some i), upd j := rfl

/-- THE DEGREE SCATTER IN ITS TWO LAYOUTS: accumulating a vector of updates into a vector and the same updates, laid
    out as a column, into a column, through the same start indices, gives the same numbers. -/
theorem scatter_vec_eq_col (x' : (⟨1, ![50000]⟩ : Shape).Idx → EReal) (x : (⟨2, ![50000, 1]⟩ : Shape).Idx → EReal)
    (r' : (⟨1, ![400000]⟩ : Shape).Idx → EReal) (r : (⟨2, ![400000, 1]⟩ : Shape).Idx → EReal)
    (hx : ∀ n : Fin 50000, x' (ix1 n) = x (ix2 n (0 : Fin 1)))
    (hr : ∀ e : Fin 400000, r' (ix1 e) = r (ix2 e (0 : Fin 1))) (n : Fin 50000) :
    Ideal.hostScatterAdd dR x' idx r' (ix1 n) = Ideal.hostScatterAdd dK x idx r (ix2 n (0 : Fin 1)) := by
  rw [hostScatterAdd_apply, hostScatterAdd_apply, hx n]
  refine congrArg (fun s => x (ix2 n (0 : Fin 1)) + s) ?_
  refine Finset.sum_equiv colEquiv (fun j => ?_) (fun j _ => ?_)
  · obtain ⟨e, rfl⟩ : ∃ e : Fin 400000, j = ix1 e := ⟨j 0, eq_ix1 j⟩
    rw [Finset.mem_filter, Finset.mem_filter]
    simp only [Finset.mem_univ, true_and]
    rw [resR]
    show _ ↔ dK.resultIdx? (ix2 e (0 : Fin 1)) idx = some (ix2 n (0 : Fin 1))
    rw [resK]
  · obtain ⟨e, rfl⟩ : ∃ e : Fin 400000, j = ix1 e := ⟨j 0, eq_ix1 j⟩
    exact hr e

/-- At the extended reals the host's accumulating scatter is the exact sum. -/
theorem host_scatterAdd_eq {s si su : Shape} (d : ScatterDims s si su) {w : Nat} (x : FVec Ideal s .f32) (idx : IVec si w)
    (upd : FVec Ideal su .f32) : Host.scatterAdd (F := Ideal) d x idx upd = Ideal.hostScatterAdd d x idx upd := rfl

/-- A scalar broadcast to the vector and to the column reads the same number everywhere. -/
theorem zeros_agree (z : FVec Ideal (⟨0, ![]⟩ : Shape) .f32) (m : Fin 50000) :
    broadcastInDim Cert.ReferenceIdeal.S50000 ![] Cert.ReferenceIdeal.Facts₀.bcast_S_S50000 z (ix1 m)
      = broadcastInDim Cert.KernelIdeal.S50000x1 ![] Cert.KernelIdeal.Facts₀.bcast_S_S50000x1 z (ix2 m (0 : Fin 1)) := by
  rw [broadcastInDim_apply _ _ _ (ix1 m) ix0 (fun a => a.elim0), broadcastInDim_apply _ _ _ (ix2 m (0 : Fin 1)) ix0 (fun a => a.elim0)]

/-- The two programs' degree computations, as printed: zeros scattered into, the start indices a vector of 400000 words
    broadcast to a column; the vector result at `n` is the column result at `(n, 0)` when the updates agree. -/
theorem deg_scatter (src : IVec (⟨1, ![400000]⟩ : Shape) 32)
    (r' : FVec Ideal Cert.ReferenceIdeal.S400000 .f32) (r : FVec Ideal Cert.KernelIdeal.S400000x1 .f32)
    (hr : ∀ e : Fin 400000, r' (ix1 e) = r (ix2 e (0 : Fin 1))) (n : Fin 50000) :
    Host.scatterAdd (F := Ideal) Cert.ReferenceIdeal.scatter_S50000_S400000x1_S400000_n_0_0_1
        (broadcastInDim Cert.ReferenceIdeal.S50000 ![] Cert.ReferenceIdeal.Facts₀.bcast_S_S50000
          (constant (F := Ideal) Cert.ReferenceIdeal.S_ .f32 0x00000000#32))
        (broadcastInDim Cert.ReferenceIdeal.S400000x1 ![0] Cert.ReferenceIdeal.Facts₀.bcast_S400000_S400000x1_0 src) r' (ix1 n)
      = Host.scatterAdd (F := Ideal) Cert.KernelIdeal.scatter_S50000x1_S400000x1_S400000x1_1_0_0_1
        (broadcastInDim Cert.KernelIdeal.S50000x1 ![] Cert.KernelIdeal.Facts₀.bcast_S_S50000x1
          (constant (F := Ideal) Cert.KernelIdeal.S_ .f32 0x00000000#32))
        (broadcastInDim Cert.KernelIdeal.S400000x1 ![0] Cert.KernelIdeal.Facts₀.bcast_S400000_S400000x1_0 src) r (ix2 n (0 : Fin 1)) := by
  rw [host_scatterAdd_eq, host_scatterAdd_eq]
  have hz : ∀ m : Fin 50000,
      broadcastInDim Cert.ReferenceIdeal.S50000 ![] Cert.ReferenceIdeal.Facts₀.bcast_S_S50000
          (constant (F := Ideal) Cert.ReferenceIdeal.S_ .f32 0x00000000#32) (ix1 m)
        = broadcastInDim Cert.KernelIdeal.S50000x1 ![] Cert.KernelIdeal.Facts₀.bcast_S_S50000x1
          (constant (F := Ideal) Cert.KernelIdeal.S_ .f32 0x00000000#32) (ix2 m (0 : Fin 1)) :=
    zeros_agree (constant (F := Ideal) (⟨0, ![]⟩ : Shape) .f32 0x00000000#32)
  have hi : broadcastInDim Cert.KernelIdeal.S400000x1 ![0] Cert.KernelIdeal.Facts₀.bcast_S400000_S400000x1_0 src
      = broadcastInDim Cert.ReferenceIdeal.S400000x1 ![0] Cert.ReferenceIdeal.Facts₀.bcast_S400000_S400000x1_0 src := rfl
  rw [hi]
  generalize broadcastInDim Cert.ReferenceIdeal.S400000x1 ![0] Cert.ReferenceIdeal.Facts₀.bcast_S400000_S400000x1_0 src = iR
  generalize broadcastInDim Cert.ReferenceIdeal.S50000 ![] Cert.ReferenceIdeal.Facts₀.bcast_S_S50000
          (constant (F := Ideal) Cert.ReferenceIdeal.S_ .f32 0x00000000#32) = zR at hz ⊢
  generalize broadcastInDim Cert.KernelIdeal.S50000x1 ![] Cert.KernelIdeal.Facts₀.bcast_S_S50000x1
          (constant (F := Ideal) Cert.KernelIdeal.S_ .f32 0x00000000#32) = zK at hz ⊢
  exact scatter_vec_eq_col iR zR zK r' r hz hr n

end Cert.DegScatter

end
-- ==== Proof.RefBridge.lean ====
/-
  The reference program's windows read as the Model's functions.

  * The edge window: two gathers side by side, the two-layer edge network, flattened to a vector — the
    Model's resistance column read at (e, 0).
  * The degree window: the scatter-add of the resistance vector at the source nodes is the Model's degree
    column read at (n, 0) (one sum over the edges landing on n, in two layouts).
  * An update window: with f = x·lapwᵀ (no bias: the kernel program adds a zero bias, and a + 0 = a),
    diss = max(x·disswᵀ + dissb, 0), and the neighbour sum scattered from the rows of f gathered at the source
    nodes times the edge's resistance (the reference multiplies resistance × row, the kernel program row ×
    resistance: products commute), the new velocity is v − ε((deg·f − scat) + diss·v) and the new features
    x + ε·v'.
  * The perceptron window: tanh of a linear layer, then a linear layer.
-/
import proofs.«107783_j24189255811079_1_alg».proof.Proof.Model
import proofs.«107783_j24189255811079_1_alg».proof.Proof.LinHost
import proofs.«107783_j24189255811079_1_alg».proof.Proof.LinPay
import proofs.«107783_j24189255811079_1_alg».proof.Proof.EdgeHost
import proofs.«107783_j24189255811079_1_alg».proof.Proof.NodeHost
import proofs.«107783_j24189255811079_1_alg».proof.Proof.DegScatter

noncomputable section

namespace Cert.RefBridge

open Idealize.ShloMosaic Idealize.ShloMosaic.ValueIdx Cert.ReferenceIdeal Cert.ReferenceIdeal.Facts₀ Cert.Spec

variable [Cert.ReferenceIdeal.Facts₀] [Cert.KernelIdeal.Facts]

/-- Node numbers as the reference spells a gather's index column. -/
abbrev normR (s : Cert.Model.IdxE) : IVec S400000x1 32 :=
  broadcastInDim S400000x1 ![0] bcast_S400000_S400000x1_0
    (select (cmpi .slt s (broadcastInDim S400000 ![] bcast_S_S400000 (constantI S_ 32 0#32)))
      (addi s (broadcastInDim S400000 ![] bcast_S_S400000 (constantI S_ 32 50000#32))) s)

/-- The reference's gather is the Model's. -/
theorem gather_eq (x : FVec Ideal S50000x128 .f32) (s : Cert.Model.IdxE) :
    Host.gather gather_S50000x128_S400000x1_S400000x128_1_0_n_n_0_1_1128 x (normR s) = Cert.Model.gatherRows x s := rfl

theorem ref_edge (x : FVec Ideal S50000x128 .f32) (s d : Cert.Model.IdxE) (w1 : FVec Ideal S128x256 .f32) (b1 : FVec Ideal S128 .f32)
    (w2 : FVec Ideal S1x128 .f32) (b2 : FVec Ideal S1 .f32) :
    Host.absf (shapeCast S400000
      (addf
        (Host.dotGeneral dot_S400000x128_S128x1_S400000x1_1_0_0_1_n_n none
          (maximumf
            (addf
              (Host.dotGeneral dot_S400000x256_S256x128_S400000x128_1_0_0_1_n_n none
                (concatenate S400000x256 1 [⟨S400000x128, Host.gather gather_S50000x128_S400000x1_S400000x128_1_0_n_n_0_1_1128 x (normR s)⟩,
                  ⟨S400000x128, Host.gather gather_S50000x128_S400000x1_S400000x128_1_0_n_n_0_1_1128 x (normR d)⟩] concatenates_S400000x128_S400000x128_S400000x256_d1)
                (transpose S256x128 [1, 0] w1 transposes_S128x256_S256x128_1_0))
              (broadcastInDim S400000x128 ![0, 1] bcast_S1x128_S400000x128_0_1 (broadcastInDim S1x128 ![1] bcast_S128_S1x128_1 b1)))
            (broadcastInDim S400000x128 ![] bcast_S_S400000x128 (constant (F := Ideal) S_ .f32 0x00000000#32)))
          (transpose S128x1 [1, 0] w2 transposes_S1x128_S128x1_1_0))
        (broadcastInDim S400000x1 ![0, 1] bcast_S1x1_S400000x1_0_1 (broadcastInDim S1x1 ![1] bcast_S1_S1x1_1 b2)))
      shapeCasts_S400000x1_S400000)
    = fun e : S400000.Idx => Cert.Spec.edge (Cert.Model.gatherRows x s) (Cert.Model.gatherRows x d) w1 b1 w2 b2 (ix2 (e 0 : Fin 400000) (0 : Fin 1)) := by
  rw [gather_eq, gather_eq]
  exact Cert.Edge.host_edge _ _ _ _ _ _

theorem ref_deg (R : Cert.Spec.Arr Cert.Spec.E1) (s : Cert.Model.IdxE) :
    Host.scatterAdd (F := Ideal) scatter_S50000_S400000x1_S400000_n_0_0_1
      (broadcastInDim S50000 ![] bcast_S_S50000 (constant (F := Ideal) S_ .f32 0x00000000#32))
      (broadcastInDim S400000x1 ![0] bcast_S400000_S400000x1_0 s)
      (fun e : S400000.Idx => R (ix2 (e 0 : Fin 400000) (0 : Fin 1)))
    = fun n : S50000.Idx => Cert.Model.degOf R s (ix2 (n 0 : Fin 50000) (0 : Fin 1)) := by
  funext n
  obtain ⟨k, rfl⟩ : ∃ k : Fin 50000, n = ix1 k := ⟨n 0, eq_ix1 n⟩
  exact Cert.DegScatter.deg_scatter s (fun e : S400000.Idx => R (ix2 (e 0 : Fin 400000) (0 : Fin 1))) R (fun _ => rfl) k

theorem ref_mlp (x : FVec Ideal S50000x128 .f32) (m1w : FVec Ideal S128x128 .f32) (m1b : FVec Ideal S128 .f32)
    (m2w : FVec Ideal S128x128 .f32) (m2b : FVec Ideal S128 .f32) :
    addf (Host.dotGeneral (F := Ideal) dot_S50000x128_S128x128_S50000x128_1_0_0_1_n_n none
        (Host.tanh (addf (Host.dotGeneral (F := Ideal) dot_S50000x128_S128x128_S50000x128_1_0_0_1_n_n none x (transpose S128x128 [1, 0] m1w transposes_S128x128_S128x128_1_0))
          (broadcastInDim S50000x128 ![0, 1] bcast_S1x128_S50000x128_0_1 (broadcastInDim S1x128 ![1] bcast_S128_S1x128_1 m1b))))
        (transpose S128x128 [1, 0] m2w transposes_S128x128_S128x128_1_0))
      (broadcastInDim S50000x128 ![0, 1] bcast_S1x128_S50000x128_0_1 (broadcastInDim S1x128 ![1] bcast_S128_S1x128_1 m2b))
    = Cert.Spec.lin (Cert.Spec.linTanh x m1w m1b) m2w m2b := by
  rw [Cert.LinHost.host_linTanh, Cert.LinHost.host_lin]

/-- Resistance × row (the reference) is row × resistance (the kernel program): the vector of resistances broadcast to a
    column and along the features reads `R (e, 0)` at `(e, j)`, as the column `R` broadcast along the features does. -/
theorem rbcast (R : Cert.Spec.Arr Cert.Spec.E1) (g : FVec Ideal S400000x128 .f32) :
    mulf (F := Ideal) (φ := .f32) (broadcastInDim (α := EReal) S400000x128 ![0, 1] bcast_S400000x1_S400000x128_0_1
        (broadcastInDim (α := EReal) S400000x1 ![0] bcast_S400000_S400000x1_0 (fun e : S400000.Idx => R (ix2 (e 0 : Fin 400000) (0 : Fin 1))))) g
    = mulf (F := Ideal) (φ := .f32) g (broadcastInDim (α := EReal) Cert.KernelIdeal.S400000x128 ![0, 1] Cert.KernelIdeal.Facts₀.bcast_S400000x1_S400000x128_0_1 R) := by
  funext j
  show _ * _ = _ * _
  rw [mul_comm]
  congr 1
  show R _ = R _
  congr 1
  funext a
  match a with
  | ⟨0, _⟩ => rfl
  | ⟨1, _⟩ => rfl

/-- A column read at (n, 0) is the column. -/
theorem col_eta (D : Cert.Spec.Arr Cert.Spec.N1) :
    (fun i : Cert.Spec.N1.Idx => (fun n : S50000.Idx => D (ix2 (n 0 : Fin 50000) (0 : Fin 1))) (ix1 (i 0 : Fin 50000))) = D := by
  funext i
  show D (ix2 (i 0) 0) = D i
  congr 1
  funext a
  match a with
  | ⟨0, _⟩ => rfl
  | ⟨1, _⟩ => exact Fin.ext (by have h : (i 1).val < 1 := (i 1).isLt; show 0 = (i 1).val; omega)

/-- The reference's neighbour sum is the Model's. -/
theorem ref_scat (f : FVec Ideal S50000x128 .f32) (R : Cert.Spec.Arr Cert.Spec.E1) (s d : Cert.Model.IdxE) :
    Host.scatterAdd (F := Ideal) scatter_S50000x128_S400000x1_S400000x128_1_0_0_1
      (broadcastInDim S50000x128 ![] bcast_S_S50000x128 (constant (F := Ideal) S_ .f32 0x00000000#32))
      (broadcastInDim S400000x1 ![0] bcast_S400000_S400000x1_0 d)
      (mulf (broadcastInDim S400000x128 ![0, 1] bcast_S400000x1_S400000x128_0_1
          (broadcastInDim S400000x1 ![0] bcast_S400000_S400000x1_0 (fun e : S400000.Idx => R (ix2 (e 0 : Fin 400000) (0 : Fin 1)))))
        (Host.gather gather_S50000x128_S400000x1_S400000x128_1_0_n_n_0_1_1128 f (normR s)))
    = Cert.Model.scatOf f R s d := by
  rw [rbcast, gather_eq]
  rfl

theorem ref_stepV (x v : FVec Ideal S50000x128 .f32) (R : Cert.Spec.Arr Cert.Spec.E1) (D : Cert.Spec.Arr Cert.Spec.N1) (s d : Cert.Model.IdxE)
    (lapw dissw : FVec Ideal S128x128 .f32) (dissb : FVec Ideal S128 .f32) :
    subf v (mulf (broadcastInDim S50000x128 ![] bcast_S_S50000x128 (constant (F := Ideal) S_ .f32 0x3C23D70A#32))
      (addf
        (subf
          (mulf (broadcastInDim S50000x128 ![0, 1] bcast_S50000x1_S50000x128_0_1
              (broadcastInDim S50000x1 ![0] bcast_S50000_S50000x1_0 (fun n : S50000.Idx => D (ix2 (n 0 : Fin 50000) (0 : Fin 1)))))
            (Host.dotGeneral (F := Ideal) dot_S50000x128_S128x128_S50000x128_1_0_0_1_n_n none x (transpose S128x128 [1, 0] lapw transposes_S128x128_S128x128_1_0)))
          (Host.scatterAdd (F := Ideal) scatter_S50000x128_S400000x1_S400000x128_1_0_0_1
            (broadcastInDim S50000x128 ![] bcast_S_S50000x128 (constant (F := Ideal) S_ .f32 0x00000000#32))
            (broadcastInDim S400000x1 ![0] bcast_S400000_S400000x1_0 d)
            (mulf (broadcastInDim S400000x128 ![0, 1] bcast_S400000x1_S400000x128_0_1
                (broadcastInDim S400000x1 ![0] bcast_S400000_S400000x1_0 (fun e : S400000.Idx => R (ix2 (e 0 : Fin 400000) (0 : Fin 1)))))
              (Host.gather gather_S50000x128_S400000x1_S400000x128_1_0_n_n_0_1_1128
                (Host.dotGeneral (F := Ideal) dot_S50000x128_S128x128_S50000x128_1_0_0_1_n_n none x (transpose S128x128 [1, 0] lapw transposes_S128x128_S128x128_1_0))
                (normR s)))))
        (mulf
          (maximumf
            (addf (Host.dotGeneral (F := Ideal) dot_S50000x128_S128x128_S50000x128_1_0_0_1_n_n none x (transpose S128x128 [1, 0] dissw transposes_S128x128_S128x128_1_0))
              (broadcastInDim S50000x128 ![0, 1] bcast_S1x128_S50000x128_0_1 (broadcastInDim S1x128 ![1] bcast_S128_S1x128_1 dissb)))
            (broadcastInDim S50000x128 ![] bcast_S_S50000x128 (constant (F := Ideal) S_ .f32 0x00000000#32)))
          v)))
    = Cert.Model.stepV x v R D s d lapw dissw dissb := by
  rw [ref_scat, Cert.Node.host_nodeV, Cert.LinHost.host_lin_nobias, Cert.LinHost.host_linRelu]
  unfold Cert.Model.stepV
  rw [show Cert.Model.zerosB128 = (fun _ => 0) from Cert.Lin.lin_zero_bias]
  exact congrArg (fun dg => Cert.Spec.nodeV v _ _ dg _) (col_eta D)

theorem ref_stepX (x v : FVec Ideal S50000x128 .f32) (R : Cert.Spec.Arr Cert.Spec.E1) (D : Cert.Spec.Arr Cert.Spec.N1) (s d : Cert.Model.IdxE)
    (lapw dissw : FVec Ideal S128x128 .f32) (dissb : FVec Ideal S128 .f32) :
    addf x (mulf (broadcastInDim S50000x128 ![] bcast_S_S50000x128 (constant (F := Ideal) S_ .f32 0x3C23D70A#32))
      (subf v (mulf (broadcastInDim S50000x128 ![] bcast_S_S50000x128 (constant (F := Ideal) S_ .f32 0x3C23D70A#32))
        (addf
          (subf
            (mulf (broadcastInDim S50000x128 ![0, 1] bcast_S50000x1_S50000x128_0_1
                (broadcastInDim S50000x1 ![0] bcast_S50000_S50000x1_0 (fun n : S50000.Idx => D (ix2 (n 0 : Fin 50000) (0 : Fin 1)))))
              (Host.dotGeneral (F := Ideal) dot_S50000x128_S128x128_S50000x128_1_0_0_1_n_n none x (transpose S128x128 [1, 0] lapw transposes_S128x128_S128x128_1_0)))
            (Host.scatterAdd (F := Ideal) scatter_S50000x128_S400000x1_S400000x128_1_0_0_1
              (broadcastInDim S50000x128 ![] bcast_S_S50000x128 (constant (F := Ideal) S_ .f32 0x00000000#32))
              (broadcastInDim S400000x1 ![0] bcast_S400000_S400000x1_0 d)
              (mulf (broadcastInDim S400000x128 ![0, 1] bcast_S400000x1_S400000x128_0_1
                  (broadcastInDim S400000x1 ![0] bcast_S400000_S400000x1_0 (fun e : S400000.Idx => R (ix2 (e 0 : Fin 400000) (0 : Fin 1)))))
                (Host.gather gather_S50000x128_S400000x1_S400000x128_1_0_n_n_0_1_1128
                  (Host.dotGeneral (F := Ideal) dot_S50000x128_S128x128_S50000x128_1_0_0_1_n_n none x (transpose S128x128 [1, 0] lapw transposes_S128x128_S128x128_1_0))
                  (normR s)))))
          (mulf
            (maximumf
              (addf (Host.dotGeneral (F := Ideal) dot_S50000x128_S128x128_S50000x128_1_0_0_1_n_n none x (transpose S128x128 [1, 0] dissw transposes_S128x128_S128x128_1_0))
                (broadcastInDim S50000x128 ![0, 1] bcast_S1x128_S50000x128_0_1 (broadcastInDim S1x128 ![1] bcast_S128_S1x128_1 dissb)))
              (broadcastInDim S50000x128 ![] bcast_S_S50000x128 (constant (F := Ideal) S_ .f32 0x00000000#32)))
            v)))))
    = Cert.Model.stepX x v R D s d lapw dissw dissb := by
  rw [ref_stepV, Cert.Node.host_nodeX]
  rfl

end Cert.RefBridge

end
-- ==== Proof.RChain0.lean ====
/- What each buffer of the reference program holds at each boundary between the windows of its operation list, while a
   later window still reads it: the named value of Model.lean. A window's result is its operations applied to what the
   window finds, read as the Model's function by the host-side lemmas (a product against a transposed weight is the
   linear layer; the 1-D resistances and degrees are the columns the Model carries; products commute); a buffer the
   window does not write keeps its contents. -/
import proofs.«107783_j24189255811079_1_alg».proof.Proof.RefRun
import proofs.«107783_j24189255811079_1_alg».proof.Proof.Model
import proofs.«107783_j24189255811079_1_alg».proof.Proof.RefBridge

set_option maxRecDepth 16384

noncomputable section

namespace Cert.RChain

open Idealize.ShloMosaic Idealize.ShloMosaic.TcCoe Idealize.SL.Sem Idealize.ShloMosaic.ValueIdx Cert.ReferenceIdeal Cert.ReferenceIdeal.RefRun Cert.Model

variable (m : (ℓ : Loc nD τ sig) → Buf (Elt Ideal) ℓ)

/-- The seventeen argument arrays as the reference's launch memory holds them on a core. -/
def rargs (d : Dev nD) : Cert.Model.Args :=
  ⟨m ((d.tc : Thread nD τ).loc main_arg0),
   m ((d.tc : Thread nD τ).loc main_arg1),
   m ((d.tc : Thread nD τ).loc main_arg2),
   m ((d.tc : Thread nD τ).loc main_arg3),
   m ((d.tc : Thread nD τ).loc main_arg4),
   m ((d.tc : Thread nD τ).loc main_arg5),
   m ((d.tc : Thread nD τ).loc main_arg6),
   m ((d.tc : Thread nD τ).loc main_arg7),
   m ((d.tc : Thread nD τ).loc main_arg8),
   m ((d.tc : Thread nD τ).loc main_arg9),
   m ((d.tc : Thread nD τ).loc main_arg10),
   m ((d.tc : Thread nD τ).loc main_arg11),
   m ((d.tc : Thread nD τ).loc main_arg12),
   m ((d.tc : Thread nD τ).loc main_arg13),
   m ((d.tc : Thread nD τ).loc main_arg14),
   m ((d.tc : Thread nD τ).loc main_arg15),
   m ((d.tc : Thread nD τ).loc main_arg16)⟩

theorem L0_main_arg0 (d : Dev nD) : U0 m d (Proc.devRef .tc main_arg0) = (rargs m d).a0 := rfl

theorem L0_main_arg1 (d : Dev nD) : U0 m d (Proc.devRef .tc main_arg1) = (rargs m d).a1 := rfl

theorem L0_main_arg2 (d : Dev nD) : U0 m d (Proc.devRef .tc main_arg2) = (rargs m d).a2 := rfl

theorem L0_main_arg3 (d : Dev nD) : U0 m d (Proc.devRef .tc main_arg3) = (rargs m d).a3 := rfl

theorem L0_main_arg4 (d : Dev nD) : U0 m d (Proc.devRef .tc main_arg4) = (rargs m d).a4 := rfl

theorem L0_main_arg5 (d : Dev nD) : U0 m d (Proc.devRef .tc main_arg5) = (rargs m d).a5 := rfl

theorem L0_main_arg6 (d : Dev nD) : U0 m d (Proc.devRef .tc main_arg6) = (rargs m d).a6 := rfl

theorem L0_main_arg7 (d : Dev nD) : U0 m d (Proc.devRef .tc main_arg7) = (rargs m d).a7 := rfl

theorem L0_main_arg8 (d : Dev nD) : U0 m d (Proc.devRef .tc main_arg8) = (rargs m d).a8 := rfl

theorem L0_main_arg9 (d : Dev nD) : U0 m d (Proc.devRef .tc main_arg9) = (rargs m d).a9 := rfl

theorem L0_main_arg10 (d : Dev nD) : U0 m d (Proc.devRef .tc main_arg10) = (rargs m d).a10 := rfl

theorem L0_main_arg11 (d : Dev nD) : U0 m d (Proc.devRef .tc main_arg11) = (rargs m d).a11 := rfl

theorem L0_main_arg12 (d : Dev nD) : U0 m d (Proc.devRef .tc main_arg12) = (rargs m d).a12 := rfl

theorem L0_main_arg13 (d : Dev nD) : U0 m d (Proc.devRef .tc main_arg13) = (rargs m d).a13 := rfl

theorem L0_main_arg14 (d : Dev nD) : U0 m d (Proc.devRef .tc main_arg14) = (rargs m d).a14 := rfl

theorem L0_main_arg15 (d : Dev nD) : U0 m d (Proc.devRef .tc main_arg15) = (rargs m d).a15 := rfl

theorem L0_main_arg16 (d : Dev nD) : U0 m d (Proc.devRef .tc main_arg16) = (rargs m d).a16 := rfl

theorem L1_main_arg0 (d : Dev nD) : U1 m d (Proc.devRef .tc main_arg0) = (rargs m d).a0 := by
  show StableHlo.after (w0 (F := Ideal)) (U0 m d) (Proc.devRef .tc main_arg0) = _
  after_results
  exact L0_main_arg0 m d

theorem L1_main_arg1 (d : Dev nD) : U1 m d (Proc.devRef .tc main_arg1) = (rargs m d).a1 := by
  show StableHlo.after (w0 (F := Ideal)) (U0 m d) (Proc.devRef .tc main_arg1) = _
  after_results
  exact L0_main_arg1 m d

theorem L1_main_arg2 (d : Dev nD) : U1 m d (Proc.devRef .tc main_arg2) = (rargs m d).a2 := by
  show StableHlo.after (w0 (F := Ideal)) (U0 m d) (Proc.devRef .tc main_arg2) = _
  after_results
  exact L0_main_arg2 m d

theorem L1_main_arg3 (d : Dev nD) : U1 m d (Proc.devRef .tc main_arg3) = (rargs m d).a3 := by
  show StableHlo.after (w0 (F := Ideal)) (U0 m d) (Proc.devRef .tc main_arg3) = _
  after_results
  exact L0_main_arg3 m d

theorem L1_main_arg4 (d : Dev nD) : U1 m d (Proc.devRef .tc main_arg4) = (rargs m d).a4 := by
  show StableHlo.after (w0 (F := Ideal)) (U0 m d) (Proc.devRef .tc main_arg4) = _
  after_results
  exact L0_main_arg4 m d

theorem L1_main_arg5 (d : Dev nD) : U1 m d (Proc.devRef .tc main_arg5) = (rargs m d).a5 := by
  show StableHlo.after (w0 (F := Ideal)) (U0 m d) (Proc.devRef .tc main_arg5) = _
  after_results
  exact L0_main_arg5 m d

theorem L1_main_arg6 (d : Dev nD) : U1 m d (Proc.devRef .tc main_arg6) = (rargs m d).a6 := by
  show StableHlo.after (w0 (F := Ideal)) (U0 m d) (Proc.devRef .tc main_arg6) = _
  after_results
  exact L0_main_arg6 m d

theorem L1_main_arg7 (d : Dev nD) : U1 m d (Proc.devRef .tc main_arg7) = (rargs m d).a7 := by
  show StableHlo.after (w0 (F := Ideal)) (U0 m d) (Proc.devRef .tc main_arg7) = _
  after_results
  exact L0_main_arg7 m d

theorem L1_main_arg8 (d : Dev nD) : U1 m d (Proc.devRef .tc main_arg8) = (rargs m d).a8 := by
  show StableHlo.after (w0 (F := Ideal)) (U0 m d) (Proc.devRef .tc main_arg8) = _
  after_results
  exact L0_main_arg8 m d

theorem L1_main_arg9 (d : Dev nD) : U1 m d (Proc.devRef .tc main_arg9) = (rargs m d).a9 := by
  show StableHlo.after (w0 (F := Ideal)) (U0 m d) (Proc.devRef .tc main_arg9) = _
  after_results
  exact L0_main_arg9 m d

theorem L1_main_arg10 (d : Dev nD) : U1 m d (Proc.devRef .tc main_arg10) = (rargs m d).a10 := by
  show StableHlo.after (w0 (F := Ideal)) (U0 m d) (Proc.devRef .tc main_arg10) = _
  after_results
  exact L0_main_arg10 m d

theorem L1_main_arg11 (d : Dev nD) : U1 m d (Proc.devRef .tc main_arg11) = (rargs m d).a11 := by
  show StableHlo.after (w0 (F := Ideal)) (U0 m d) (Proc.devRef .tc main_arg11) = _
  after_results
  exact L0_main_arg11 m d

theorem L1_main_arg12 (d : Dev nD) : U1 m d (Proc.devRef .tc main_arg12) = (rargs m d).a12 := by
  show StableHlo.after (w0 (F := Ideal)) (U0 m d) (Proc.devRef .tc main_arg12) = _
  after_results
  exact L0_main_arg12 m d

theorem L1_main_arg13 (d : Dev nD) : U1 m d (Proc.devRef .tc main_arg13) = (rargs m d).a13 := by
  show StableHlo.after (w0 (F := Ideal)) (U0 m d) (Proc.devRef .tc main_arg13) = _
  after_results
  exact L0_main_arg13 m d

theorem L1_main_arg14 (d : Dev nD) : U1 m d (Proc.devRef .tc main_arg14) = (rargs m d).a14 := by
  show StableHlo.after (w0 (F := Ideal)) (U0 m d) (Proc.devRef .tc main_arg14) = _
  after_results
  exact L0_main_arg14 m d

theorem L1_main_arg15 (d : Dev nD) : U1 m d (Proc.devRef .tc main_arg15) = (rargs m d).a15 := by
  show StableHlo.after (w0 (F := Ideal)) (U0 m d) (Proc.devRef .tc main_arg15) = _
  after_results
  exact L0_main_arg15 m d

theorem L1_main_arg16 (d : Dev nD) : U1 m d (Proc.devRef .tc main_arg16) = (rargs m d).a16 := by
  show StableHlo.after (w0 (F := Ideal)) (U0 m d) (Proc.devRef .tc main_arg16) = _
  after_results
  exact L0_main_arg16 m d

set_option maxHeartbeats 2000000 in
theorem L1_main_v1 (d : Dev nD) : U1 m d (Proc.devRef .tc main_v1) = src (rargs m d) := by
  show StableHlo.after (w0 (F := Ideal)) (U0 m d) (Proc.devRef .tc main_v1) = _
  after_results_simp
  rw [L0_main_arg1 m d]
  rfl

set_option maxHeartbeats 2000000 in
theorem L1_main_v3 (d : Dev nD) : U1 m d (Proc.devRef .tc main_v3) = dst (rargs m d) := by
  show StableHlo.after (w0 (F := Ideal)) (U0 m d) (Proc.devRef .tc main_v3) = _
  after_results_simp
  rw [L0_main_arg1 m d]
  rfl

set_option maxHeartbeats 2000000 in
theorem L1_main_v8 (d : Dev nD) : U1 m d (Proc.devRef .tc main_v8) = XIN_0 (rargs m d) := by
  show StableHlo.after (w0 (F := Ideal)) (U0 m d) (Proc.devRef .tc main_v8) = _
  after_results_simp
  rw [L0_main_arg0 m d, L0_main_arg2 m d, L0_main_arg3 m d]
  exact Cert.LinHost.host_lin _ _ _

theorem L2_main_arg0 (d : Dev nD) : U2 m d (Proc.devRef .tc main_arg0) = (rargs m d).a0 := by
  show StableHlo.after (wEa0 (F := Ideal)) (U1 m d) (Proc.devRef .tc main_arg0) = _
  after_results
  exact L1_main_arg0 m d

theorem L2_main_arg1 (d : Dev nD) : U2 m d (Proc.devRef .tc main_arg1) = (rargs m d).a1 := by
  show StableHlo.after (wEa0 (F := Ideal)) (U1 m d) (Proc.devRef .tc main_arg1) = _
  after_results
  exact L1_main_arg1 m d

theorem L2_main_arg2 (d : Dev nD) : U2 m d (Proc.devRef .tc main_arg2) = (rargs m d).a2 := by
  show StableHlo.after (wEa0 (F := Ideal)) (U1 m d) (Proc.devRef .tc main_arg2) = _
  after_results
  exact L1_main_arg2 m d

theorem L2_main_arg3 (d : Dev nD) : U2 m d (Proc.devRef .tc main_arg3) = (rargs m d).a3 := by
  show StableHlo.after (wEa0 (F := Ideal)) (U1 m d) (Proc.devRef .tc main_arg3) = _
  after_results
  exact L1_main_arg3 m d

theorem L2_main_arg4 (d : Dev nD) : U2 m d (Proc.devRef .tc main_arg4) = (rargs m d).a4 := by
  show StableHlo.after (wEa0 (F := Ideal)) (U1 m d) (Proc.devRef .tc main_arg4) = _
  after_results
  exact L1_main_arg4 m d

theorem L2_main_arg5 (d : Dev nD) : U2 m d (Proc.devRef .tc main_arg5) = (rargs m d).a5 := by
  show StableHlo.after (wEa0 (F := Ideal)) (U1 m d) (Proc.devRef .tc main_arg5) = _
  after_results
  exact L1_main_arg5 m d

theorem L2_main_arg6 (d : Dev nD) : U2 m d (Proc.devRef .tc main_arg6) = (rargs m d).a6 := by
  show StableHlo.after (wEa0 (F := Ideal)) (U1 m d) (Proc.devRef .tc main_arg6) = _
  after_results
  exact L1_main_arg6 m d

theorem L2_main_arg7 (d : Dev nD) : U2 m d (Proc.devRef .tc main_arg7) = (rargs m d).a7 := by
  show StableHlo.after (wEa0 (F := Ideal)) (U1 m d) (Proc.devRef .tc main_arg7) = _
  after_results
  exact L1_main_arg7 m d

theorem L2_main_arg8 (d : Dev nD) : U2 m d (Proc.devRef .tc main_arg8) = (rargs m d).a8 := by
  show StableHlo.after (wEa0 (F := Ideal)) (U1 m d) (Proc.devRef .tc main_arg8) = _
  after_results
  exact L1_main_arg8 m d

theorem L2_main_arg9 (d : Dev nD) : U2 m d (Proc.devRef .tc main_arg9) = (rargs m d).a9 := by
  show StableHlo.after (wEa0 (F := Ideal)) (U1 m d) (Proc.devRef .tc main_arg9) = _
  after_results
  exact L1_main_arg9 m d

theorem L2_main_arg10 (d : Dev nD) : U2 m d (Proc.devRef .tc main_arg10) = (rargs m d).a10 := by
  show StableHlo.after (wEa0 (F := Ideal)) (U1 m d) (Proc.devRef .tc main_arg10) = _
  after_results
  exact L1_main_arg10 m d

theorem L2_main_arg11 (d : Dev nD) : U2 m d (Proc.devRef .tc main_arg11) = (rargs m d).a11 := by
  show StableHlo.after (wEa0 (F := Ideal)) (U1 m d) (Proc.devRef .tc main_arg11) = _
  after_results
  exact L1_main_arg11 m d

theorem L2_main_arg12 (d : Dev nD) : U2 m d (Proc.devRef .tc main_arg12) = (rargs m d).a12 := by
  show StableHlo.after (wEa0 (F := Ideal)) (U1 m d) (Proc.devRef .tc main_arg12) = _
  after_results
  exact L1_main_arg12 m d

theorem L2_main_arg13 (d : Dev nD) : U2 m d (Proc.devRef .tc main_arg13) = (rargs m d).a13 := by
  show StableHlo.after (wEa0 (F := Ideal)) (U1 m d) (Proc.devRef .tc main_arg13) = _
  after_results
  exact L1_main_arg13 m d

theorem L2_main_arg14 (d : Dev nD) : U2 m d (Proc.devRef .tc main_arg14) = (rargs m d).a14 := by
  show StableHlo.after (wEa0 (F := Ideal)) (U1 m d) (Proc.devRef .tc main_arg14) = _
  after_results
  exact L1_main_arg14 m d

theorem L2_main_arg15 (d : Dev nD) : U2 m d (Proc.devRef .tc main_arg15) = (rargs m d).a15 := by
  show StableHlo.after (wEa0 (F := Ideal)) (U1 m d) (Proc.devRef .tc main_arg15) = _
  after_results
  exact L1_main_arg15 m d

theorem L2_main_arg16 (d : Dev nD) : U2 m d (Proc.devRef .tc main_arg16) = (rargs m d).a16 := by
  show StableHlo.after (wEa0 (F := Ideal)) (U1 m d) (Proc.devRef .tc main_arg16) = _
  after_results
  exact L1_main_arg16 m d

theorem L2_main_v1 (d : Dev nD) : U2 m d (Proc.devRef .tc main_v1) = src (rargs m d) := by
  show StableHlo.after (wEa0 (F := Ideal)) (U1 m d) (Proc.devRef .tc main_v1) = _
  after_results
  exact L1_main_v1 m d

theorem L2_main_v3 (d : Dev nD) : U2 m d (Proc.devRef .tc main_v3) = dst (rargs m d) := by
  show StableHlo.after (wEa0 (F := Ideal)) (U1 m d) (Proc.devRef .tc main_v3) = _
  after_results
  exact L1_main_v3 m d

theorem L2_main_v8 (d : Dev nD) : U2 m d (Proc.devRef .tc main_v8) = XIN_0 (rargs m d) := by
  show StableHlo.after (wEa0 (F := Ideal)) (U1 m d) (Proc.devRef .tc main_v8) = _
  after_results
  exact L1_main_v8 m d

set_option maxHeartbeats 2000000 in
theorem L2_main_v15 (d : Dev nD) : U2 m d (Proc.devRef .tc main_v15) = gatherRows (XIN_0 (rargs m d)) (src (rargs m d)) := by
  show StableHlo.after (wEa0 (F := Ideal)) (U1 m d) (Proc.devRef .tc main_v15) = _
  after_results_simp
  rw [L1_main_v8 m d, L1_main_v1 m d]
  rfl

set_option maxHeartbeats 2000000 in
theorem L2_main_v22 (d : Dev nD) : U2 m d (Proc.devRef .tc main_v22) = gatherRows (XIN_0 (rargs m d)) (dst (rargs m d)) := by
  show StableHlo.after (wEa0 (F := Ideal)) (U1 m d) (Proc.devRef .tc main_v22) = _
  after_results_simp
  rw [L1_main_v8 m d, L1_main_v3 m d]
  rfl

theorem L3_main_arg0 (d : Dev nD) : U3 m d (Proc.devRef .tc main_arg0) = (rargs m d).a0 := by
  show StableHlo.after (wEb0 (F := Ideal)) (U2 m d) (Proc.devRef .tc main_arg0) = _
  after_results
  exact L2_main_arg0 m d

theorem L3_main_arg1 (d : Dev nD) : U3 m d (Proc.devRef .tc main_arg1) = (rargs m d).a1 := by
  show StableHlo.after (wEb0 (F := Ideal)) (U2 m d) (Proc.devRef .tc main_arg1) = _
  after_results
  exact L2_main_arg1 m d

theorem L3_main_arg2 (d : Dev nD) : U3 m d (Proc.devRef .tc main_arg2) = (rargs m d).a2 := by
  show StableHlo.after (wEb0 (F := Ideal)) (U2 m d) (Proc.devRef .tc main_arg2) = _
  after_results
  exact L2_main_arg2 m d

theorem L3_main_arg3 (d : Dev nD) : U3 m d (Proc.devRef .tc main_arg3) = (rargs m d).a3 := by
  show StableHlo.after (wEb0 (F := Ideal)) (U2 m d) (Proc.devRef .tc main_arg3) = _
  after_results
  exact L2_main_arg3 m d

theorem L3_main_arg4 (d : Dev nD) : U3 m d (Proc.devRef .tc main_arg4) = (rargs m d).a4 := by
  show StableHlo.after (wEb0 (F := Ideal)) (U2 m d) (Proc.devRef .tc main_arg4) = _
  after_results
  exact L2_main_arg4 m d

theorem L3_main_arg5 (d : Dev nD) : U3 m d (Proc.devRef .tc main_arg5) = (rargs m d).a5 := by
  show StableHlo.after (wEb0 (F := Ideal)) (U2 m d) (Proc.devRef .tc main_arg5) = _
  after_results
  exact L2_main_arg5 m d

theorem L3_main_arg6 (d : Dev nD) : U3 m d (Proc.devRef .tc main_arg6) = (rargs m d).a6 := by
  show StableHlo.after (wEb0 (F := Ideal)) (U2 m d) (Proc.devRef .tc main_arg6) = _
  after_results
  exact L2_main_arg6 m d

theorem L3_main_arg7 (d : Dev nD) : U3 m d (Proc.devRef .tc main_arg7) = (rargs m d).a7 := by
  show StableHlo.after (wEb0 (F := Ideal)) (U2 m d) (Proc.devRef .tc main_arg7) = _
  after_results
  exact L2_main_arg7 m d

theorem L3_main_arg8 (d : Dev nD) : U3 m d (Proc.devRef .tc main_arg8) = (rargs m d).a8 := by
  show StableHlo.after (wEb0 (F := Ideal)) (U2 m d) (Proc.devRef .tc main_arg8) = _
  after_results
  exact L2_main_arg8 m d

theorem L3_main_arg9 (d : Dev nD) : U3 m d (Proc.devRef .tc main_arg9) = (rargs m d).a9 := by
  show StableHlo.after (wEb0 (F := Ideal)) (U2 m d) (Proc.devRef .tc main_arg9) = _
  after_results
  exact L2_main_arg9 m d

theorem L3_main_arg10 (d : Dev nD) : U3 m d (Proc.devRef .tc main_arg10) = (rargs m d).a10 := by
  show StableHlo.after (wEb0 (F := Ideal)) (U2 m d) (Proc.devRef .tc main_arg10) = _
  after_results
  exact L2_main_arg10 m d

theorem L3_main_arg11 (d : Dev nD) : U3 m d (Proc.devRef .tc main_arg11) = (rargs m d).a11 := by
  show StableHlo.after (wEb0 (F := Ideal)) (U2 m d) (Proc.devRef .tc main_arg11) = _
  after_results
  exact L2_main_arg11 m d

theorem L3_main_arg12 (d : Dev nD) : U3 m d (Proc.devRef .tc main_arg12) = (rargs m d).a12 := by
  show StableHlo.after (wEb0 (F := Ideal)) (U2 m d) (Proc.devRef .tc main_arg12) = _
  after_results
  exact L2_main_arg12 m d

theorem L3_main_arg13 (d : Dev nD) : U3 m d (Proc.devRef .tc main_arg13) = (rargs m d).a13 := by
  show StableHlo.after (wEb0 (F := Ideal)) (U2 m d) (Proc.devRef .tc main_arg13) = _
  after_results
  exact L2_main_arg13 m d

theorem L3_main_arg14 (d : Dev nD) : U3 m d (Proc.devRef .tc main_arg14) = (rargs m d).a14 := by
  show StableHlo.after (wEb0 (F := Ideal)) (U2 m d) (Proc.devRef .tc main_arg14) = _
  after_results
  exact L2_main_arg14 m d

theorem L3_main_arg15 (d : Dev nD) : U3 m d (Proc.devRef .tc main_arg15) = (rargs m d).a15 := by
  show StableHlo.after (wEb0 (F := Ideal)) (U2 m d) (Proc.devRef .tc main_arg15) = _
  after_results
  exact L2_main_arg15 m d

theorem L3_main_arg16 (d : Dev nD) : U3 m d (Proc.devRef .tc main_arg16) = (rargs m d).a16 := by
  show StableHlo.after (wEb0 (F := Ideal)) (U2 m d) (Proc.devRef .tc main_arg16) = _
  after_results
  exact L2_main_arg16 m d

theorem L3_main_v1 (d : Dev nD) : U3 m d (Proc.devRef .tc main_v1) = src (rargs m d) := by
  show StableHlo.after (wEb0 (F := Ideal)) (U2 m d) (Proc.devRef .tc main_v1) = _
  after_results
  exact L2_main_v1 m d

theorem L3_main_v3 (d : Dev nD) : U3 m d (Proc.devRef .tc main_v3) = dst (rargs m d) := by
  show StableHlo.after (wEb0 (F := Ideal)) (U2 m d) (Proc.devRef .tc main_v3) = _
  after_results
  exact L2_main_v3 m d

theorem L3_main_v8 (d : Dev nD) : U3 m d (Proc.devRef .tc main_v8) = XIN_0 (rargs m d) := by
  show StableHlo.after (wEb0 (F := Ideal)) (U2 m d) (Proc.devRef .tc main_v8) = _
  after_results
  exact L2_main_v8 m d

set_option maxHeartbeats 2000000 in
theorem L3_main_v44 (d : Dev nD) : U3 m d (Proc.devRef .tc main_v44) = (fun e : S400000.Idx => R_0 (rargs m d) (ix2 (e 0 : Fin 400000) (0 : Fin 1))) := by
  show StableHlo.after (wEb0 (F := Ideal)) (U2 m d) (Proc.devRef .tc main_v44) = _
  after_results_simp
  simp only [L2_main_arg5 m d, L2_main_arg6 m d, L2_main_arg7 m d, L2_main_arg8 m d]
  refine (Cert.Edge.host_edge _ _ _ _ _ _).trans ?_
  rw [L2_main_v15 m d, L2_main_v22 m d]
  rfl

theorem L4_main_arg0 (d : Dev nD) : U4 m d (Proc.devRef .tc main_arg0) = (rargs m d).a0 := by
  show StableHlo.after (wD0 (F := Ideal)) (U3 m d) (Proc.devRef .tc main_arg0) = _
  after_results
  exact L3_main_arg0 m d

theorem L4_main_arg1 (d : Dev nD) : U4 m d (Proc.devRef .tc main_arg1) = (rargs m d).a1 := by
  show StableHlo.after (wD0 (F := Ideal)) (U3 m d) (Proc.devRef .tc main_arg1) = _
  after_results
  exact L3_main_arg1 m d

theorem L4_main_arg2 (d : Dev nD) : U4 m d (Proc.devRef .tc main_arg2) = (rargs m d).a2 := by
  show StableHlo.after (wD0 (F := Ideal)) (U3 m d) (Proc.devRef .tc main_arg2) = _
  after_results
  exact L3_main_arg2 m d

theorem L4_main_arg3 (d : Dev nD) : U4 m d (Proc.devRef .tc main_arg3) = (rargs m d).a3 := by
  show StableHlo.after (wD0 (F := Ideal)) (U3 m d) (Proc.devRef .tc main_arg3) = _
  after_results
  exact L3_main_arg3 m d

theorem L4_main_arg4 (d : Dev nD) : U4 m d (Proc.devRef .tc main_arg4) = (rargs m d).a4 := by
  show StableHlo.after (wD0 (F := Ideal)) (U3 m d) (Proc.devRef .tc main_arg4) = _
  after_results
  exact L3_main_arg4 m d

theorem L4_main_arg5 (d : Dev nD) : U4 m d (Proc.devRef .tc main_arg5) = (rargs m d).a5 := by
  show StableHlo.after (wD0 (F := Ideal)) (U3 m d) (Proc.devRef .tc main_arg5) = _
  after_results
  exact L3_main_arg5 m d

theorem L4_main_arg6 (d : Dev nD) : U4 m d (Proc.devRef .tc main_arg6) = (rargs m d).a6 := by
  show StableHlo.after (wD0 (F := Ideal)) (U3 m d) (Proc.devRef .tc main_arg6) = _
  after_results
  exact L3_main_arg6 m d

theorem L4_main_arg7 (d : Dev nD) : U4 m d (Proc.devRef .tc main_arg7) = (rargs m d).a7 := by
  show StableHlo.after (wD0 (F := Ideal)) (U3 m d) (Proc.devRef .tc main_arg7) = _
  after_results
  exact L3_main_arg7 m d

theorem L4_main_arg8 (d : Dev nD) : U4 m d (Proc.devRef .tc main_arg8) = (rargs m d).a8 := by
  show StableHlo.after (wD0 (F := Ideal)) (U3 m d) (Proc.devRef .tc main_arg8) = _
  after_results
  exact L3_main_arg8 m d

theorem L4_main_arg9 (d : Dev nD) : U4 m d (Proc.devRef .tc main_arg9) = (rargs m d).a9 := by
  show StableHlo.after (wD0 (F := Ideal)) (U3 m d) (Proc.devRef .tc main_arg9) = _
  after_results
  exact L3_main_arg9 m d

theorem L4_main_arg10 (d : Dev nD) : U4 m d (Proc.devRef .tc main_arg10) = (rargs m d).a10 := by
  show StableHlo.after (wD0 (F := Ideal)) (U3 m d) (Proc.devRef .tc main_arg10) = _
  after_results
  exact L3_main_arg10 m d

theorem L4_main_arg11 (d : Dev nD) : U4 m d (Proc.devRef .tc main_arg11) = (rargs m d).a11 := by
  show StableHlo.after (wD0 (F := Ideal)) (U3 m d) (Proc.devRef .tc main_arg11) = _
  after_results
  exact L3_main_arg11 m d

theorem L4_main_arg12 (d : Dev nD) : U4 m d (Proc.devRef .tc main_arg12) = (rargs m d).a12 := by
  show StableHlo.after (wD0 (F := Ideal)) (U3 m d) (Proc.devRef .tc main_arg12) = _
  after_results
  exact L3_main_arg12 m d

theorem L4_main_arg13 (d : Dev nD) : U4 m d (Proc.devRef .tc main_arg13) = (rargs m d).a13 := by
  show StableHlo.after (wD0 (F := Ideal)) (U3 m d) (Proc.devRef .tc main_arg13) = _
  after_results
  exact L3_main_arg13 m d

theorem L4_main_arg14 (d : Dev nD) : U4 m d (Proc.devRef .tc main_arg14) = (rargs m d).a14 := by
  show StableHlo.after (wD0 (F := Ideal)) (U3 m d) (Proc.devRef .tc main_arg14) = _
  after_results
  exact L3_main_arg14 m d

theorem L4_main_arg15 (d : Dev nD) : U4 m d (Proc.devRef .tc main_arg15) = (rargs m d).a15 := by
  show StableHlo.after (wD0 (F := Ideal)) (U3 m d) (Proc.devRef .tc main_arg15) = _
  after_results
  exact L3_main_arg15 m d

theorem L4_main_arg16 (d : Dev nD) : U4 m d (Proc.devRef .tc main_arg16) = (rargs m d).a16 := by
  show StableHlo.after (wD0 (F := Ideal)) (U3 m d) (Proc.devRef .tc main_arg16) = _
  after_results
  exact L3_main_arg16 m d

theorem L4_main_v1 (d : Dev nD) : U4 m d (Proc.devRef .tc main_v1) = src (rargs m d) := by
  show StableHlo.after (wD0 (F := Ideal)) (U3 m d) (Proc.devRef .tc main_v1) = _
  after_results
  exact L3_main_v1 m d

theorem L4_main_v3 (d : Dev nD) : U4 m d (Proc.devRef .tc main_v3) = dst (rargs m d) := by
  show StableHlo.after (wD0 (F := Ideal)) (U3 m d) (Proc.devRef .tc main_v3) = _
  after_results
  exact L3_main_v3 m d

theorem L4_main_v8 (d : Dev nD) : U4 m d (Proc.devRef .tc main_v8) = XIN_0 (rargs m d) := by
  show StableHlo.after (wD0 (F := Ideal)) (U3 m d) (Proc.devRef .tc main_v8) = _
  after_results
  exact L3_main_v8 m d

theorem L4_main_v44 (d : Dev nD) : U4 m d (Proc.devRef .tc main_v44) = (fun e : S400000.Idx => R_0 (rargs m d) (ix2 (e 0 : Fin 400000) (0 : Fin 1))) := by
  show StableHlo.after (wD0 (F := Ideal)) (U3 m d) (Proc.devRef .tc main_v44) = _
  after_results
  exact L3_main_v44 m d

set_option maxHeartbeats 2000000 in
theorem L4_main_v47 (d : Dev nD) : U4 m d (Proc.devRef .tc main_v47) = (fun n : S50000.Idx => D_0 (rargs m d) (ix2 (n 0 : Fin 50000) (0 : Fin 1))) := by
  show StableHlo.after (wD0 (F := Ideal)) (U3 m d) (Proc.devRef .tc main_v47) = _
  after_results_simp
  rw [L3_main_v1 m d, L3_main_v44 m d]
  exact Cert.RefBridge.ref_deg _ _

theorem L5_main_arg0 (d : Dev nD) : U5 m d (Proc.devRef .tc main_arg0) = (rargs m d).a0 := by
  show StableHlo.after (wS1_0 (F := Ideal)) (U4 m d) (Proc.devRef .tc main_arg0) = _
  after_results
  exact L4_main_arg0 m d

theorem L5_main_arg1 (d : Dev nD) : U5 m d (Proc.devRef .tc main_arg1) = (rargs m d).a1 := by
  show StableHlo.after (wS1_0 (F := Ideal)) (U4 m d) (Proc.devRef .tc main_arg1) = _
  after_results
  exact L4_main_arg1 m d

theorem L5_main_arg2 (d : Dev nD) : U5 m d (Proc.devRef .tc main_arg2) = (rargs m d).a2 := by
  show StableHlo.after (wS1_0 (F := Ideal)) (U4 m d) (Proc.devRef .tc main_arg2) = _
  after_results
  exact L4_main_arg2 m d

theorem L5_main_arg3 (d : Dev nD) : U5 m d (Proc.devRef .tc main_arg3) = (rargs m d).a3 := by
  show StableHlo.after (wS1_0 (F := Ideal)) (U4 m d) (Proc.devRef .tc main_arg3) = _
  after_results
  exact L4_main_arg3 m d

theorem L5_main_arg4 (d : Dev nD) : U5 m d (Proc.devRef .tc main_arg4) = (rargs m d).a4 := by
  show StableHlo.after (wS1_0 (F := Ideal)) (U4 m d) (Proc.devRef .tc main_arg4) = _
  after_results
  exact L4_main_arg4 m d

theorem L5_main_arg5 (d : Dev nD) : U5 m d (Proc.devRef .tc main_arg5) = (rargs m d).a5 := by
  show StableHlo.after (wS1_0 (F := Ideal)) (U4 m d) (Proc.devRef .tc main_arg5) = _
  after_results
  exact L4_main_arg5 m d

theorem L5_main_arg6 (d : Dev nD) : U5 m d (Proc.devRef .tc main_arg6) = (rargs m d).a6 := by
  show StableHlo.after (wS1_0 (F := Ideal)) (U4 m d) (Proc.devRef .tc main_arg6) = _
  after_results
  exact L4_main_arg6 m d

theorem L5_main_arg7 (d : Dev nD) : U5 m d (Proc.devRef .tc main_arg7) = (rargs m d).a7 := by
  show StableHlo.after (wS1_0 (F := Ideal)) (U4 m d) (Proc.devRef .tc main_arg7) = _
  after_results
  exact L4_main_arg7 m d

theorem L5_main_arg8 (d : Dev nD) : U5 m d (Proc.devRef .tc main_arg8) = (rargs m d).a8 := by
  show StableHlo.after (wS1_0 (F := Ideal)) (U4 m d) (Proc.devRef .tc main_arg8) = _
  after_results
  exact L4_main_arg8 m d

theorem L5_main_arg9 (d : Dev nD) : U5 m d (Proc.devRef .tc main_arg9) = (rargs m d).a9 := by
  show StableHlo.after (wS1_0 (F := Ideal)) (U4 m d) (Proc.devRef .tc main_arg9) = _
  after_results
  exact L4_main_arg9 m d

theorem L5_main_arg10 (d : Dev nD) : U5 m d (Proc.devRef .tc main_arg10) = (rargs m d).a10 := by
  show StableHlo.after (wS1_0 (F := Ideal)) (U4 m d) (Proc.devRef .tc main_arg10) = _
  after_results
  exact L4_main_arg10 m d

theorem L5_main_arg11 (d : Dev nD) : U5 m d (Proc.devRef .tc main_arg11) = (rargs m d).a11 := by
  show StableHlo.after (wS1_0 (F := Ideal)) (U4 m d) (Proc.devRef .tc main_arg11) = _
  after_results
  exact L4_main_arg11 m d

theorem L5_main_arg12 (d : Dev nD) : U5 m d (Proc.devRef .tc main_arg12) = (rargs m d).a12 := by
  show StableHlo.after (wS1_0 (F := Ideal)) (U4 m d) (Proc.devRef .tc main_arg12) = _
  after_results
  exact L4_main_arg12 m d

theorem L5_main_arg13 (d : Dev nD) : U5 m d (Proc.devRef .tc main_arg13) = (rargs m d).a13 := by
  show StableHlo.after (wS1_0 (F := Ideal)) (U4 m d) (Proc.devRef .tc main_arg13) = _
  after_results
  exact L4_main_arg13 m d

theorem L5_main_arg14 (d : Dev nD) : U5 m d (Proc.devRef .tc main_arg14) = (rargs m d).a14 := by
  show StableHlo.after (wS1_0 (F := Ideal)) (U4 m d) (Proc.devRef .tc main_arg14) = _
  after_results
  exact L4_main_arg14 m d

theorem L5_main_arg15 (d : Dev nD) : U5 m d (Proc.devRef .tc main_arg15) = (rargs m d).a15 := by
  show StableHlo.after (wS1_0 (F := Ideal)) (U4 m d) (Proc.devRef .tc main_arg15) = _
  after_results
  exact L4_main_arg15 m d

theorem L5_main_arg16 (d : Dev nD) : U5 m d (Proc.devRef .tc main_arg16) = (rargs m d).a16 := by
  show StableHlo.after (wS1_0 (F := Ideal)) (U4 m d) (Proc.devRef .tc main_arg16) = _
  after_results
  exact L4_main_arg16 m d

theorem L5_main_v1 (d : Dev nD) : U5 m d (Proc.devRef .tc main_v1) = src (rargs m d) := by
  show StableHlo.after (wS1_0 (F := Ideal)) (U4 m d) (Proc.devRef .tc main_v1) = _
  after_results
  exact L4_main_v1 m d

theorem L5_main_v3 (d : Dev nD) : U5 m d (Proc.devRef .tc main_v3) = dst (rargs m d) := by
  show StableHlo.after (wS1_0 (F := Ideal)) (U4 m d) (Proc.devRef .tc main_v3) = _
  after_results
  exact L4_main_v3 m d

theorem L5_main_v44 (d : Dev nD) : U5 m d (Proc.devRef .tc main_v44) = (fun e : S400000.Idx => R_0 (rargs m d) (ix2 (e 0 : Fin 400000) (0 : Fin 1))) := by
  show StableHlo.after (wS1_0 (F := Ideal)) (U4 m d) (Proc.devRef .tc main_v44) = _
  after_results
  exact L4_main_v44 m d

theorem L5_main_v47 (d : Dev nD) : U5 m d (Proc.devRef .tc main_v47) = (fun n : S50000.Idx => D_0 (rargs m d) (ix2 (n 0 : Fin 50000) (0 : Fin 1))) := by
  show StableHlo.after (wS1_0 (F := Ideal)) (U4 m d) (Proc.devRef .tc main_v47) = _
  after_results
  exact L4_main_v47 m d

set_option maxHeartbeats 2000000 in
theorem L5_main_v84 (d : Dev nD) : U5 m d (Proc.devRef .tc main_v84) = V1_0 (rargs m d) := by
  show StableHlo.after (wS1_0 (F := Ideal)) (U4 m d) (Proc.devRef .tc main_v84) = _
  after_results_simp
  simp only [L4_main_v47 m d, L4_main_v8 m d, L4_main_arg4 m d, L4_main_v3 m d, L4_main_v44 m d, L4_main_v1 m d, L4_main_arg9 m d, L4_main_arg10 m d]
  exact Cert.RefBridge.ref_stepV _ _ _ _ _ _ _ _ _

set_option maxHeartbeats 2000000 in
theorem L5_main_v87 (d : Dev nD) : U5 m d (Proc.devRef .tc main_v87) = X1_0 (rargs m d) := by
  show StableHlo.after (wS1_0 (F := Ideal)) (U4 m d) (Proc.devRef .tc main_v87) = _
  after_results_simp
  simp only [L4_main_v8 m d, L4_main_v47 m d, L4_main_arg4 m d, L4_main_v3 m d, L4_main_v44 m d, L4_main_v1 m d, L4_main_arg9 m d, L4_main_arg10 m d]
  exact Cert.RefBridge.ref_stepX _ _ _ _ _ _ _ _ _

end Cert.RChain

end
-- ==== Proof.RChain1.lean ====
/- What each buffer of the reference program holds at each boundary between the windows of its operation list, while a
   later window still reads it: the named value of Model.lean. A window's result is its operations applied to what the
   window finds, read as the Model's function by the host-side lemmas (a product against a transposed weight is the
   linear layer; the 1-D resistances and degrees are the columns the Model carries; products commute); a buffer the
   window does not write keeps its contents. -/
import proofs.«107783_j24189255811079_1_alg».proof.Proof.RChain0

set_option maxRecDepth 16384

noncomputable section

namespace Cert.RChain

open Idealize.ShloMosaic Idealize.ShloMosaic.TcCoe Idealize.SL.Sem Idealize.ShloMosaic.ValueIdx Cert.ReferenceIdeal Cert.ReferenceIdeal.RefRun Cert.Model

variable (m : (ℓ : Loc nD τ sig) → Buf (Elt Ideal) ℓ)

theorem L6_main_arg0 (d : Dev nD) : U6 m d (Proc.devRef .tc main_arg0) = (rargs m d).a0 := by
  show StableHlo.after (wS2_0 (F := Ideal)) (U5 m d) (Proc.devRef .tc main_arg0) = _
  after_results
  exact L5_main_arg0 m d

theorem L6_main_arg1 (d : Dev nD) : U6 m d (Proc.devRef .tc main_arg1) = (rargs m d).a1 := by
  show StableHlo.after (wS2_0 (F := Ideal)) (U5 m d) (Proc.devRef .tc main_arg1) = _
  after_results
  exact L5_main_arg1 m d

theorem L6_main_arg2 (d : Dev nD) : U6 m d (Proc.devRef .tc main_arg2) = (rargs m d).a2 := by
  show StableHlo.after (wS2_0 (F := Ideal)) (U5 m d) (Proc.devRef .tc main_arg2) = _
  after_results
  exact L5_main_arg2 m d

theorem L6_main_arg3 (d : Dev nD) : U6 m d (Proc.devRef .tc main_arg3) = (rargs m d).a3 := by
  show StableHlo.after (wS2_0 (F := Ideal)) (U5 m d) (Proc.devRef .tc main_arg3) = _
  after_results
  exact L5_main_arg3 m d

theorem L6_main_arg4 (d : Dev nD) : U6 m d (Proc.devRef .tc main_arg4) = (rargs m d).a4 := by
  show StableHlo.after (wS2_0 (F := Ideal)) (U5 m d) (Proc.devRef .tc main_arg4) = _
  after_results
  exact L5_main_arg4 m d

theorem L6_main_arg5 (d : Dev nD) : U6 m d (Proc.devRef .tc main_arg5) = (rargs m d).a5 := by
  show StableHlo.after (wS2_0 (F := Ideal)) (U5 m d) (Proc.devRef .tc main_arg5) = _
  after_results
  exact L5_main_arg5 m d

theorem L6_main_arg6 (d : Dev nD) : U6 m d (Proc.devRef .tc main_arg6) = (rargs m d).a6 := by
  show StableHlo.after (wS2_0 (F := Ideal)) (U5 m d) (Proc.devRef .tc main_arg6) = _
  after_results
  exact L5_main_arg6 m d

theorem L6_main_arg7 (d : Dev nD) : U6 m d (Proc.devRef .tc main_arg7) = (rargs m d).a7 := by
  show StableHlo.after (wS2_0 (F := Ideal)) (U5 m d) (Proc.devRef .tc main_arg7) = _
  after_results
  exact L5_main_arg7 m d

theorem L6_main_arg8 (d : Dev nD) : U6 m d (Proc.devRef .tc main_arg8) = (rargs m d).a8 := by
  show StableHlo.after (wS2_0 (F := Ideal)) (U5 m d) (Proc.devRef .tc main_arg8) = _
  after_results
  exact L5_main_arg8 m d

theorem L6_main_arg9 (d : Dev nD) : U6 m d (Proc.devRef .tc main_arg9) = (rargs m d).a9 := by
  show StableHlo.after (wS2_0 (F := Ideal)) (U5 m d) (Proc.devRef .tc main_arg9) = _
  after_results
  exact L5_main_arg9 m d

theorem L6_main_arg10 (d : Dev nD) : U6 m d (Proc.devRef .tc main_arg10) = (rargs m d).a10 := by
  show StableHlo.after (wS2_0 (F := Ideal)) (U5 m d) (Proc.devRef .tc main_arg10) = _
  after_results
  exact L5_main_arg10 m d

theorem L6_main_arg11 (d : Dev nD) : U6 m d (Proc.devRef .tc main_arg11) = (rargs m d).a11 := by
  show StableHlo.after (wS2_0 (F := Ideal)) (U5 m d) (Proc.devRef .tc main_arg11) = _
  after_results
  exact L5_main_arg11 m d

theorem L6_main_arg12 (d : Dev nD) : U6 m d (Proc.devRef .tc main_arg12) = (rargs m d).a12 := by
  show StableHlo.after (wS2_0 (F := Ideal)) (U5 m d) (Proc.devRef .tc main_arg12) = _
  after_results
  exact L5_main_arg12 m d

theorem L6_main_arg13 (d : Dev nD) : U6 m d (Proc.devRef .tc main_arg13) = (rargs m d).a13 := by
  show StableHlo.after (wS2_0 (F := Ideal)) (U5 m d) (Proc.devRef .tc main_arg13) = _
  after_results
  exact L5_main_arg13 m d

theorem L6_main_arg14 (d : Dev nD) : U6 m d (Proc.devRef .tc main_arg14) = (rargs m d).a14 := by
  show StableHlo.after (wS2_0 (F := Ideal)) (U5 m d) (Proc.devRef .tc main_arg14) = _
  after_results
  exact L5_main_arg14 m d

theorem L6_main_arg15 (d : Dev nD) : U6 m d (Proc.devRef .tc main_arg15) = (rargs m d).a15 := by
  show StableHlo.after (wS2_0 (F := Ideal)) (U5 m d) (Proc.devRef .tc main_arg15) = _
  after_results
  exact L5_main_arg15 m d

theorem L6_main_arg16 (d : Dev nD) : U6 m d (Proc.devRef .tc main_arg16) = (rargs m d).a16 := by
  show StableHlo.after (wS2_0 (F := Ideal)) (U5 m d) (Proc.devRef .tc main_arg16) = _
  after_results
  exact L5_main_arg16 m d

theorem L6_main_v1 (d : Dev nD) : U6 m d (Proc.devRef .tc main_v1) = src (rargs m d) := by
  show StableHlo.after (wS2_0 (F := Ideal)) (U5 m d) (Proc.devRef .tc main_v1) = _
  after_results
  exact L5_main_v1 m d

theorem L6_main_v3 (d : Dev nD) : U6 m d (Proc.devRef .tc main_v3) = dst (rargs m d) := by
  show StableHlo.after (wS2_0 (F := Ideal)) (U5 m d) (Proc.devRef .tc main_v3) = _
  after_results
  exact L5_main_v3 m d

set_option maxHeartbeats 2000000 in
theorem L6_main_v126 (d : Dev nD) : U6 m d (Proc.devRef .tc main_v126) = X2_0 (rargs m d) := by
  show StableHlo.after (wS2_0 (F := Ideal)) (U5 m d) (Proc.devRef .tc main_v126) = _
  after_results_simp
  simp only [L5_main_v87 m d, L5_main_v84 m d, L5_main_v47 m d, L5_main_arg4 m d, L5_main_v3 m d, L5_main_v44 m d, L5_main_v1 m d, L5_main_arg9 m d, L5_main_arg10 m d]
  exact Cert.RefBridge.ref_stepX _ _ _ _ _ _ _ _ _

theorem L7_main_arg0 (d : Dev nD) : U7 m d (Proc.devRef .tc main_arg0) = (rargs m d).a0 := by
  show StableHlo.after (wM0 (F := Ideal)) (U6 m d) (Proc.devRef .tc main_arg0) = _
  after_results
  exact L6_main_arg0 m d

theorem L7_main_arg1 (d : Dev nD) : U7 m d (Proc.devRef .tc main_arg1) = (rargs m d).a1 := by
  show StableHlo.after (wM0 (F := Ideal)) (U6 m d) (Proc.devRef .tc main_arg1) = _
  after_results
  exact L6_main_arg1 m d

theorem L7_main_arg2 (d : Dev nD) : U7 m d (Proc.devRef .tc main_arg2) = (rargs m d).a2 := by
  show StableHlo.after (wM0 (F := Ideal)) (U6 m d) (Proc.devRef .tc main_arg2) = _
  after_results
  exact L6_main_arg2 m d

theorem L7_main_arg3 (d : Dev nD) : U7 m d (Proc.devRef .tc main_arg3) = (rargs m d).a3 := by
  show StableHlo.after (wM0 (F := Ideal)) (U6 m d) (Proc.devRef .tc main_arg3) = _
  after_results
  exact L6_main_arg3 m d

theorem L7_main_arg4 (d : Dev nD) : U7 m d (Proc.devRef .tc main_arg4) = (rargs m d).a4 := by
  show StableHlo.after (wM0 (F := Ideal)) (U6 m d) (Proc.devRef .tc main_arg4) = _
  after_results
  exact L6_main_arg4 m d

theorem L7_main_arg5 (d : Dev nD) : U7 m d (Proc.devRef .tc main_arg5) = (rargs m d).a5 := by
  show StableHlo.after (wM0 (F := Ideal)) (U6 m d) (Proc.devRef .tc main_arg5) = _
  after_results
  exact L6_main_arg5 m d

theorem L7_main_arg6 (d : Dev nD) : U7 m d (Proc.devRef .tc main_arg6) = (rargs m d).a6 := by
  show StableHlo.after (wM0 (F := Ideal)) (U6 m d) (Proc.devRef .tc main_arg6) = _
  after_results
  exact L6_main_arg6 m d

theorem L7_main_arg7 (d : Dev nD) : U7 m d (Proc.devRef .tc main_arg7) = (rargs m d).a7 := by
  show StableHlo.after (wM0 (F := Ideal)) (U6 m d) (Proc.devRef .tc main_arg7) = _
  after_results
  exact L6_main_arg7 m d

theorem L7_main_arg8 (d : Dev nD) : U7 m d (Proc.devRef .tc main_arg8) = (rargs m d).a8 := by
  show StableHlo.after (wM0 (F := Ideal)) (U6 m d) (Proc.devRef .tc main_arg8) = _
  after_results
  exact L6_main_arg8 m d

theorem L7_main_arg9 (d : Dev nD) : U7 m d (Proc.devRef .tc main_arg9) = (rargs m d).a9 := by
  show StableHlo.after (wM0 (F := Ideal)) (U6 m d) (Proc.devRef .tc main_arg9) = _
  after_results
  exact L6_main_arg9 m d

theorem L7_main_arg10 (d : Dev nD) : U7 m d (Proc.devRef .tc main_arg10) = (rargs m d).a10 := by
  show StableHlo.after (wM0 (F := Ideal)) (U6 m d) (Proc.devRef .tc main_arg10) = _
  after_results
  exact L6_main_arg10 m d

theorem L7_main_arg11 (d : Dev nD) : U7 m d (Proc.devRef .tc main_arg11) = (rargs m d).a11 := by
  show StableHlo.after (wM0 (F := Ideal)) (U6 m d) (Proc.devRef .tc main_arg11) = _
  after_results
  exact L6_main_arg11 m d

theorem L7_main_arg12 (d : Dev nD) : U7 m d (Proc.devRef .tc main_arg12) = (rargs m d).a12 := by
  show StableHlo.after (wM0 (F := Ideal)) (U6 m d) (Proc.devRef .tc main_arg12) = _
  after_results
  exact L6_main_arg12 m d

theorem L7_main_arg13 (d : Dev nD) : U7 m d (Proc.devRef .tc main_arg13) = (rargs m d).a13 := by
  show StableHlo.after (wM0 (F := Ideal)) (U6 m d) (Proc.devRef .tc main_arg13) = _
  after_results
  exact L6_main_arg13 m d

theorem L7_main_arg14 (d : Dev nD) : U7 m d (Proc.devRef .tc main_arg14) = (rargs m d).a14 := by
  show StableHlo.after (wM0 (F := Ideal)) (U6 m d) (Proc.devRef .tc main_arg14) = _
  after_results
  exact L6_main_arg14 m d

theorem L7_main_arg15 (d : Dev nD) : U7 m d (Proc.devRef .tc main_arg15) = (rargs m d).a15 := by
  show StableHlo.after (wM0 (F := Ideal)) (U6 m d) (Proc.devRef .tc main_arg15) = _
  after_results
  exact L6_main_arg15 m d

theorem L7_main_arg16 (d : Dev nD) : U7 m d (Proc.devRef .tc main_arg16) = (rargs m d).a16 := by
  show StableHlo.after (wM0 (F := Ideal)) (U6 m d) (Proc.devRef .tc main_arg16) = _
  after_results
  exact L6_main_arg16 m d

theorem L7_main_v1 (d : Dev nD) : U7 m d (Proc.devRef .tc main_v1) = src (rargs m d) := by
  show StableHlo.after (wM0 (F := Ideal)) (U6 m d) (Proc.devRef .tc main_v1) = _
  after_results
  exact L6_main_v1 m d

theorem L7_main_v3 (d : Dev nD) : U7 m d (Proc.devRef .tc main_v3) = dst (rargs m d) := by
  show StableHlo.after (wM0 (F := Ideal)) (U6 m d) (Proc.devRef .tc main_v3) = _
  after_results
  exact L6_main_v3 m d

set_option maxHeartbeats 2000000 in
theorem L7_main_v145 (d : Dev nD) : U7 m d (Proc.devRef .tc main_v145) = XIN_1 (rargs m d) := by
  show StableHlo.after (wM0 (F := Ideal)) (U6 m d) (Proc.devRef .tc main_v145) = _
  after_results_simp
  rw [L6_main_v126 m d, L6_main_arg11 m d, L6_main_arg12 m d, L6_main_arg13 m d, L6_main_arg14 m d]
  exact Cert.RefBridge.ref_mlp _ _ _ _ _

theorem L8_main_arg0 (d : Dev nD) : U8 m d (Proc.devRef .tc main_arg0) = (rargs m d).a0 := by
  show StableHlo.after (wEa1 (F := Ideal)) (U7 m d) (Proc.devRef .tc main_arg0) = _
  after_results
  exact L7_main_arg0 m d

theorem L8_main_arg1 (d : Dev nD) : U8 m d (Proc.devRef .tc main_arg1) = (rargs m d).a1 := by
  show StableHlo.after (wEa1 (F := Ideal)) (U7 m d) (Proc.devRef .tc main_arg1) = _
  after_results
  exact L7_main_arg1 m d

theorem L8_main_arg2 (d : Dev nD) : U8 m d (Proc.devRef .tc main_arg2) = (rargs m d).a2 := by
  show StableHlo.after (wEa1 (F := Ideal)) (U7 m d) (Proc.devRef .tc main_arg2) = _
  after_results
  exact L7_main_arg2 m d

theorem L8_main_arg3 (d : Dev nD) : U8 m d (Proc.devRef .tc main_arg3) = (rargs m d).a3 := by
  show StableHlo.after (wEa1 (F := Ideal)) (U7 m d) (Proc.devRef .tc main_arg3) = _
  after_results
  exact L7_main_arg3 m d

theorem L8_main_arg4 (d : Dev nD) : U8 m d (Proc.devRef .tc main_arg4) = (rargs m d).a4 := by
  show StableHlo.after (wEa1 (F := Ideal)) (U7 m d) (Proc.devRef .tc main_arg4) = _
  after_results
  exact L7_main_arg4 m d

theorem L8_main_arg5 (d : Dev nD) : U8 m d (Proc.devRef .tc main_arg5) = (rargs m d).a5 := by
  show StableHlo.after (wEa1 (F := Ideal)) (U7 m d) (Proc.devRef .tc main_arg5) = _
  after_results
  exact L7_main_arg5 m d

theorem L8_main_arg6 (d : Dev nD) : U8 m d (Proc.devRef .tc main_arg6) = (rargs m d).a6 := by
  show StableHlo.after (wEa1 (F := Ideal)) (U7 m d) (Proc.devRef .tc main_arg6) = _
  after_results
  exact L7_main_arg6 m d

theorem L8_main_arg7 (d : Dev nD) : U8 m d (Proc.devRef .tc main_arg7) = (rargs m d).a7 := by
  show StableHlo.after (wEa1 (F := Ideal)) (U7 m d) (Proc.devRef .tc main_arg7) = _
  after_results
  exact L7_main_arg7 m d

theorem L8_main_arg8 (d : Dev nD) : U8 m d (Proc.devRef .tc main_arg8) = (rargs m d).a8 := by
  show StableHlo.after (wEa1 (F := Ideal)) (U7 m d) (Proc.devRef .tc main_arg8) = _
  after_results
  exact L7_main_arg8 m d

theorem L8_main_arg9 (d : Dev nD) : U8 m d (Proc.devRef .tc main_arg9) = (rargs m d).a9 := by
  show StableHlo.after (wEa1 (F := Ideal)) (U7 m d) (Proc.devRef .tc main_arg9) = _
  after_results
  exact L7_main_arg9 m d

theorem L8_main_arg10 (d : Dev nD) : U8 m d (Proc.devRef .tc main_arg10) = (rargs m d).a10 := by
  show StableHlo.after (wEa1 (F := Ideal)) (U7 m d) (Proc.devRef .tc main_arg10) = _
  after_results
  exact L7_main_arg10 m d

theorem L8_main_arg11 (d : Dev nD) : U8 m d (Proc.devRef .tc main_arg11) = (rargs m d).a11 := by
  show StableHlo.after (wEa1 (F := Ideal)) (U7 m d) (Proc.devRef .tc main_arg11) = _
  after_results
  exact L7_main_arg11 m d

theorem L8_main_arg12 (d : Dev nD) : U8 m d (Proc.devRef .tc main_arg12) = (rargs m d).a12 := by
  show StableHlo.after (wEa1 (F := Ideal)) (U7 m d) (Proc.devRef .tc main_arg12) = _
  after_results
  exact L7_main_arg12 m d

theorem L8_main_arg13 (d : Dev nD) : U8 m d (Proc.devRef .tc main_arg13) = (rargs m d).a13 := by
  show StableHlo.after (wEa1 (F := Ideal)) (U7 m d) (Proc.devRef .tc main_arg13) = _
  after_results
  exact L7_main_arg13 m d

theorem L8_main_arg14 (d : Dev nD) : U8 m d (Proc.devRef .tc main_arg14) = (rargs m d).a14 := by
  show StableHlo.after (wEa1 (F := Ideal)) (U7 m d) (Proc.devRef .tc main_arg14) = _
  after_results
  exact L7_main_arg14 m d

theorem L8_main_arg15 (d : Dev nD) : U8 m d (Proc.devRef .tc main_arg15) = (rargs m d).a15 := by
  show StableHlo.after (wEa1 (F := Ideal)) (U7 m d) (Proc.devRef .tc main_arg15) = _
  after_results
  exact L7_main_arg15 m d

theorem L8_main_arg16 (d : Dev nD) : U8 m d (Proc.devRef .tc main_arg16) = (rargs m d).a16 := by
  show StableHlo.after (wEa1 (F := Ideal)) (U7 m d) (Proc.devRef .tc main_arg16) = _
  after_results
  exact L7_main_arg16 m d

theorem L8_main_v1 (d : Dev nD) : U8 m d (Proc.devRef .tc main_v1) = src (rargs m d) := by
  show StableHlo.after (wEa1 (F := Ideal)) (U7 m d) (Proc.devRef .tc main_v1) = _
  after_results
  exact L7_main_v1 m d

theorem L8_main_v3 (d : Dev nD) : U8 m d (Proc.devRef .tc main_v3) = dst (rargs m d) := by
  show StableHlo.after (wEa1 (F := Ideal)) (U7 m d) (Proc.devRef .tc main_v3) = _
  after_results
  exact L7_main_v3 m d

theorem L8_main_v145 (d : Dev nD) : U8 m d (Proc.devRef .tc main_v145) = XIN_1 (rargs m d) := by
  show StableHlo.after (wEa1 (F := Ideal)) (U7 m d) (Proc.devRef .tc main_v145) = _
  after_results
  exact L7_main_v145 m d

set_option maxHeartbeats 2000000 in
theorem L8_main_v152 (d : Dev nD) : U8 m d (Proc.devRef .tc main_v152) = gatherRows (XIN_1 (rargs m d)) (src (rargs m d)) := by
  show StableHlo.after (wEa1 (F := Ideal)) (U7 m d) (Proc.devRef .tc main_v152) = _
  after_results_simp
  rw [L7_main_v145 m d, L7_main_v1 m d]
  rfl

set_option maxHeartbeats 2000000 in
theorem L8_main_v159 (d : Dev nD) : U8 m d (Proc.devRef .tc main_v159) = gatherRows (XIN_1 (rargs m d)) (dst (rargs m d)) := by
  show StableHlo.after (wEa1 (F := Ideal)) (U7 m d) (Proc.devRef .tc main_v159) = _
  after_results_simp
  rw [L7_main_v145 m d, L7_main_v3 m d]
  rfl

theorem L9_main_arg0 (d : Dev nD) : U9 m d (Proc.devRef .tc main_arg0) = (rargs m d).a0 := by
  show StableHlo.after (wEb1 (F := Ideal)) (U8 m d) (Proc.devRef .tc main_arg0) = _
  after_results
  exact L8_main_arg0 m d

theorem L9_main_arg1 (d : Dev nD) : U9 m d (Proc.devRef .tc main_arg1) = (rargs m d).a1 := by
  show StableHlo.after (wEb1 (F := Ideal)) (U8 m d) (Proc.devRef .tc main_arg1) = _
  after_results
  exact L8_main_arg1 m d

theorem L9_main_arg2 (d : Dev nD) : U9 m d (Proc.devRef .tc main_arg2) = (rargs m d).a2 := by
  show StableHlo.after (wEb1 (F := Ideal)) (U8 m d) (Proc.devRef .tc main_arg2) = _
  after_results
  exact L8_main_arg2 m d

theorem L9_main_arg3 (d : Dev nD) : U9 m d (Proc.devRef .tc main_arg3) = (rargs m d).a3 := by
  show StableHlo.after (wEb1 (F := Ideal)) (U8 m d) (Proc.devRef .tc main_arg3) = _
  after_results
  exact L8_main_arg3 m d

theorem L9_main_arg4 (d : Dev nD) : U9 m d (Proc.devRef .tc main_arg4) = (rargs m d).a4 := by
  show StableHlo.after (wEb1 (F := Ideal)) (U8 m d) (Proc.devRef .tc main_arg4) = _
  after_results
  exact L8_main_arg4 m d

theorem L9_main_arg5 (d : Dev nD) : U9 m d (Proc.devRef .tc main_arg5) = (rargs m d).a5 := by
  show StableHlo.after (wEb1 (F := Ideal)) (U8 m d) (Proc.devRef .tc main_arg5) = _
  after_results
  exact L8_main_arg5 m d

theorem L9_main_arg6 (d : Dev nD) : U9 m d (Proc.devRef .tc main_arg6) = (rargs m d).a6 := by
  show StableHlo.after (wEb1 (F := Ideal)) (U8 m d) (Proc.devRef .tc main_arg6) = _
  after_results
  exact L8_main_arg6 m d

theorem L9_main_arg7 (d : Dev nD) : U9 m d (Proc.devRef .tc main_arg7) = (rargs m d).a7 := by
  show StableHlo.after (wEb1 (F := Ideal)) (U8 m d) (Proc.devRef .tc main_arg7) = _
  after_results
  exact L8_main_arg7 m d

theorem L9_main_arg8 (d : Dev nD) : U9 m d (Proc.devRef .tc main_arg8) = (rargs m d).a8 := by
  show StableHlo.after (wEb1 (F := Ideal)) (U8 m d) (Proc.devRef .tc main_arg8) = _
  after_results
  exact L8_main_arg8 m d

theorem L9_main_arg9 (d : Dev nD) : U9 m d (Proc.devRef .tc main_arg9) = (rargs m d).a9 := by
  show StableHlo.after (wEb1 (F := Ideal)) (U8 m d) (Proc.devRef .tc main_arg9) = _
  after_results
  exact L8_main_arg9 m d

theorem L9_main_arg10 (d : Dev nD) : U9 m d (Proc.devRef .tc main_arg10) = (rargs m d).a10 := by
  show StableHlo.after (wEb1 (F := Ideal)) (U8 m d) (Proc.devRef .tc main_arg10) = _
  after_results
  exact L8_main_arg10 m d

theorem L9_main_arg11 (d : Dev nD) : U9 m d (Proc.devRef .tc main_arg11) = (rargs m d).a11 := by
  show StableHlo.after (wEb1 (F := Ideal)) (U8 m d) (Proc.devRef .tc main_arg11) = _
  after_results
  exact L8_main_arg11 m d

theorem L9_main_arg12 (d : Dev nD) : U9 m d (Proc.devRef .tc main_arg12) = (rargs m d).a12 := by
  show StableHlo.after (wEb1 (F := Ideal)) (U8 m d) (Proc.devRef .tc main_arg12) = _
  after_results
  exact L8_main_arg12 m d

theorem L9_main_arg13 (d : Dev nD) : U9 m d (Proc.devRef .tc main_arg13) = (rargs m d).a13 := by
  show StableHlo.after (wEb1 (F := Ideal)) (U8 m d) (Proc.devRef .tc main_arg13) = _
  after_results
  exact L8_main_arg13 m d

theorem L9_main_arg14 (d : Dev nD) : U9 m d (Proc.devRef .tc main_arg14) = (rargs m d).a14 := by
  show StableHlo.after (wEb1 (F := Ideal)) (U8 m d) (Proc.devRef .tc main_arg14) = _
  after_results
  exact L8_main_arg14 m d

theorem L9_main_arg15 (d : Dev nD) : U9 m d (Proc.devRef .tc main_arg15) = (rargs m d).a15 := by
  show StableHlo.after (wEb1 (F := Ideal)) (U8 m d) (Proc.devRef .tc main_arg15) = _
  after_results
  exact L8_main_arg15 m d

theorem L9_main_arg16 (d : Dev nD) : U9 m d (Proc.devRef .tc main_arg16) = (rargs m d).a16 := by
  show StableHlo.after (wEb1 (F := Ideal)) (U8 m d) (Proc.devRef .tc main_arg16) = _
  after_results
  exact L8_main_arg16 m d

theorem L9_main_v1 (d : Dev nD) : U9 m d (Proc.devRef .tc main_v1) = src (rargs m d) := by
  show StableHlo.after (wEb1 (F := Ideal)) (U8 m d) (Proc.devRef .tc main_v1) = _
  after_results
  exact L8_main_v1 m d

theorem L9_main_v3 (d : Dev nD) : U9 m d (Proc.devRef .tc main_v3) = dst (rargs m d) := by
  show StableHlo.after (wEb1 (F := Ideal)) (U8 m d) (Proc.devRef .tc main_v3) = _
  after_results
  exact L8_main_v3 m d

theorem L9_main_v145 (d : Dev nD) : U9 m d (Proc.devRef .tc main_v145) = XIN_1 (rargs m d) := by
  show StableHlo.after (wEb1 (F := Ideal)) (U8 m d) (Proc.devRef .tc main_v145) = _
  after_results
  exact L8_main_v145 m d

set_option maxHeartbeats 2000000 in
theorem L9_main_v181 (d : Dev nD) : U9 m d (Proc.devRef .tc main_v181) = (fun e : S400000.Idx => R_1 (rargs m d) (ix2 (e 0 : Fin 400000) (0 : Fin 1))) := by
  show StableHlo.after (wEb1 (F := Ideal)) (U8 m d) (Proc.devRef .tc main_v181) = _
  after_results_simp
  simp only [L8_main_arg5 m d, L8_main_arg6 m d, L8_main_arg7 m d, L8_main_arg8 m d]
  refine (Cert.Edge.host_edge _ _ _ _ _ _).trans ?_
  rw [L8_main_v152 m d, L8_main_v159 m d]
  rfl

theorem L10_main_arg0 (d : Dev nD) : U10 m d (Proc.devRef .tc main_arg0) = (rargs m d).a0 := by
  show StableHlo.after (wD1 (F := Ideal)) (U9 m d) (Proc.devRef .tc main_arg0) = _
  after_results
  exact L9_main_arg0 m d

theorem L10_main_arg1 (d : Dev nD) : U10 m d (Proc.devRef .tc main_arg1) = (rargs m d).a1 := by
  show StableHlo.after (wD1 (F := Ideal)) (U9 m d) (Proc.devRef .tc main_arg1) = _
  after_results
  exact L9_main_arg1 m d

theorem L10_main_arg2 (d : Dev nD) : U10 m d (Proc.devRef .tc main_arg2) = (rargs m d).a2 := by
  show StableHlo.after (wD1 (F := Ideal)) (U9 m d) (Proc.devRef .tc main_arg2) = _
  after_results
  exact L9_main_arg2 m d

theorem L10_main_arg3 (d : Dev nD) : U10 m d (Proc.devRef .tc main_arg3) = (rargs m d).a3 := by
  show StableHlo.after (wD1 (F := Ideal)) (U9 m d) (Proc.devRef .tc main_arg3) = _
  after_results
  exact L9_main_arg3 m d

theorem L10_main_arg4 (d : Dev nD) : U10 m d (Proc.devRef .tc main_arg4) = (rargs m d).a4 := by
  show StableHlo.after (wD1 (F := Ideal)) (U9 m d) (Proc.devRef .tc main_arg4) = _
  after_results
  exact L9_main_arg4 m d

theorem L10_main_arg5 (d : Dev nD) : U10 m d (Proc.devRef .tc main_arg5) = (rargs m d).a5 := by
  show StableHlo.after (wD1 (F := Ideal)) (U9 m d) (Proc.devRef .tc main_arg5) = _
  after_results
  exact L9_main_arg5 m d

theorem L10_main_arg6 (d : Dev nD) : U10 m d (Proc.devRef .tc main_arg6) = (rargs m d).a6 := by
  show StableHlo.after (wD1 (F := Ideal)) (U9 m d) (Proc.devRef .tc main_arg6) = _
  after_results
  exact L9_main_arg6 m d

theorem L10_main_arg7 (d : Dev nD) : U10 m d (Proc.devRef .tc main_arg7) = (rargs m d).a7 := by
  show StableHlo.after (wD1 (F := Ideal)) (U9 m d) (Proc.devRef .tc main_arg7) = _
  after_results
  exact L9_main_arg7 m d

theorem L10_main_arg8 (d : Dev nD) : U10 m d (Proc.devRef .tc main_arg8) = (rargs m d).a8 := by
  show StableHlo.after (wD1 (F := Ideal)) (U9 m d) (Proc.devRef .tc main_arg8) = _
  after_results
  exact L9_main_arg8 m d

theorem L10_main_arg9 (d : Dev nD) : U10 m d (Proc.devRef .tc main_arg9) = (rargs m d).a9 := by
  show StableHlo.after (wD1 (F := Ideal)) (U9 m d) (Proc.devRef .tc main_arg9) = _
  after_results
  exact L9_main_arg9 m d

theorem L10_main_arg10 (d : Dev nD) : U10 m d (Proc.devRef .tc main_arg10) = (rargs m d).a10 := by
  show StableHlo.after (wD1 (F := Ideal)) (U9 m d) (Proc.devRef .tc main_arg10) = _
  after_results
  exact L9_main_arg10 m d

theorem L10_main_arg11 (d : Dev nD) : U10 m d (Proc.devRef .tc main_arg11) = (rargs m d).a11 := by
  show StableHlo.after (wD1 (F := Ideal)) (U9 m d) (Proc.devRef .tc main_arg11) = _
  after_results
  exact L9_main_arg11 m d

theorem L10_main_arg12 (d : Dev nD) : U10 m d (Proc.devRef .tc main_arg12) = (rargs m d).a12 := by
  show StableHlo.after (wD1 (F := Ideal)) (U9 m d) (Proc.devRef .tc main_arg12) = _
  after_results
  exact L9_main_arg12 m d

theorem L10_main_arg13 (d : Dev nD) : U10 m d (Proc.devRef .tc main_arg13) = (rargs m d).a13 := by
  show StableHlo.after (wD1 (F := Ideal)) (U9 m d) (Proc.devRef .tc main_arg13) = _
  after_results
  exact L9_main_arg13 m d

theorem L10_main_arg14 (d : Dev nD) : U10 m d (Proc.devRef .tc main_arg14) = (rargs m d).a14 := by
  show StableHlo.after (wD1 (F := Ideal)) (U9 m d) (Proc.devRef .tc main_arg14) = _
  after_results
  exact L9_main_arg14 m d

theorem L10_main_arg15 (d : Dev nD) : U10 m d (Proc.devRef .tc main_arg15) = (rargs m d).a15 := by
  show StableHlo.after (wD1 (F := Ideal)) (U9 m d) (Proc.devRef .tc main_arg15) = _
  after_results
  exact L9_main_arg15 m d

theorem L10_main_arg16 (d : Dev nD) : U10 m d (Proc.devRef .tc main_arg16) = (rargs m d).a16 := by
  show StableHlo.after (wD1 (F := Ideal)) (U9 m d) (Proc.devRef .tc main_arg16) = _
  after_results
  exact L9_main_arg16 m d

theorem L10_main_v1 (d : Dev nD) : U10 m d (Proc.devRef .tc main_v1) = src (rargs m d) := by
  show StableHlo.after (wD1 (F := Ideal)) (U9 m d) (Proc.devRef .tc main_v1) = _
  after_results
  exact L9_main_v1 m d

theorem L10_main_v3 (d : Dev nD) : U10 m d (Proc.devRef .tc main_v3) = dst (rargs m d) := by
  show StableHlo.after (wD1 (F := Ideal)) (U9 m d) (Proc.devRef .tc main_v3) = _
  after_results
  exact L9_main_v3 m d

theorem L10_main_v145 (d : Dev nD) : U10 m d (Proc.devRef .tc main_v145) = XIN_1 (rargs m d) := by
  show StableHlo.after (wD1 (F := Ideal)) (U9 m d) (Proc.devRef .tc main_v145) = _
  after_results
  exact L9_main_v145 m d

theorem L10_main_v181 (d : Dev nD) : U10 m d (Proc.devRef .tc main_v181) = (fun e : S400000.Idx => R_1 (rargs m d) (ix2 (e 0 : Fin 400000) (0 : Fin 1))) := by
  show StableHlo.after (wD1 (F := Ideal)) (U9 m d) (Proc.devRef .tc main_v181) = _
  after_results
  exact L9_main_v181 m d

set_option maxHeartbeats 2000000 in
theorem L10_main_v184 (d : Dev nD) : U10 m d (Proc.devRef .tc main_v184) = (fun n : S50000.Idx => D_1 (rargs m d) (ix2 (n 0 : Fin 50000) (0 : Fin 1))) := by
  show StableHlo.after (wD1 (F := Ideal)) (U9 m d) (Proc.devRef .tc main_v184) = _
  after_results_simp
  rw [L9_main_v1 m d, L9_main_v181 m d]
  exact Cert.RefBridge.ref_deg _ _

theorem L11_main_arg0 (d : Dev nD) : U11 m d (Proc.devRef .tc main_arg0) = (rargs m d).a0 := by
  show StableHlo.after (wS1_1 (F := Ideal)) (U10 m d) (Proc.devRef .tc main_arg0) = _
  after_results
  exact L10_main_arg0 m d

theorem L11_main_arg1 (d : Dev nD) : U11 m d (Proc.devRef .tc main_arg1) = (rargs m d).a1 := by
  show StableHlo.after (wS1_1 (F := Ideal)) (U10 m d) (Proc.devRef .tc main_arg1) = _
  after_results
  exact L10_main_arg1 m d

theorem L11_main_arg2 (d : Dev nD) : U11 m d (Proc.devRef .tc main_arg2) = (rargs m d).a2 := by
  show StableHlo.after (wS1_1 (F := Ideal)) (U10 m d) (Proc.devRef .tc main_arg2) = _
  after_results
  exact L10_main_arg2 m d

theorem L11_main_arg3 (d : Dev nD) : U11 m d (Proc.devRef .tc main_arg3) = (rargs m d).a3 := by
  show StableHlo.after (wS1_1 (F := Ideal)) (U10 m d) (Proc.devRef .tc main_arg3) = _
  after_results
  exact L10_main_arg3 m d

theorem L11_main_arg4 (d : Dev nD) : U11 m d (Proc.devRef .tc main_arg4) = (rargs m d).a4 := by
  show StableHlo.after (wS1_1 (F := Ideal)) (U10 m d) (Proc.devRef .tc main_arg4) = _
  after_results
  exact L10_main_arg4 m d

theorem L11_main_arg5 (d : Dev nD) : U11 m d (Proc.devRef .tc main_arg5) = (rargs m d).a5 := by
  show StableHlo.after (wS1_1 (F := Ideal)) (U10 m d) (Proc.devRef .tc main_arg5) = _
  after_results
  exact L10_main_arg5 m d

theorem L11_main_arg6 (d : Dev nD) : U11 m d (Proc.devRef .tc main_arg6) = (rargs m d).a6 := by
  show StableHlo.after (wS1_1 (F := Ideal)) (U10 m d) (Proc.devRef .tc main_arg6) = _
  after_results
  exact L10_main_arg6 m d

theorem L11_main_arg7 (d : Dev nD) : U11 m d (Proc.devRef .tc main_arg7) = (rargs m d).a7 := by
  show StableHlo.after (wS1_1 (F := Ideal)) (U10 m d) (Proc.devRef .tc main_arg7) = _
  after_results
  exact L10_main_arg7 m d

theorem L11_main_arg8 (d : Dev nD) : U11 m d (Proc.devRef .tc main_arg8) = (rargs m d).a8 := by
  show StableHlo.after (wS1_1 (F := Ideal)) (U10 m d) (Proc.devRef .tc main_arg8) = _
  after_results
  exact L10_main_arg8 m d

theorem L11_main_arg9 (d : Dev nD) : U11 m d (Proc.devRef .tc main_arg9) = (rargs m d).a9 := by
  show StableHlo.after (wS1_1 (F := Ideal)) (U10 m d) (Proc.devRef .tc main_arg9) = _
  after_results
  exact L10_main_arg9 m d

theorem L11_main_arg10 (d : Dev nD) : U11 m d (Proc.devRef .tc main_arg10) = (rargs m d).a10 := by
  show StableHlo.after (wS1_1 (F := Ideal)) (U10 m d) (Proc.devRef .tc main_arg10) = _
  after_results
  exact L10_main_arg10 m d

theorem L11_main_arg11 (d : Dev nD) : U11 m d (Proc.devRef .tc main_arg11) = (rargs m d).a11 := by
  show StableHlo.after (wS1_1 (F := Ideal)) (U10 m d) (Proc.devRef .tc main_arg11) = _
  after_results
  exact L10_main_arg11 m d

theorem L11_main_arg12 (d : Dev nD) : U11 m d (Proc.devRef .tc main_arg12) = (rargs m d).a12 := by
  show StableHlo.after (wS1_1 (F := Ideal)) (U10 m d) (Proc.devRef .tc main_arg12) = _
  after_results
  exact L10_main_arg12 m d

theorem L11_main_arg13 (d : Dev nD) : U11 m d (Proc.devRef .tc main_arg13) = (rargs m d).a13 := by
  show StableHlo.after (wS1_1 (F := Ideal)) (U10 m d) (Proc.devRef .tc main_arg13) = _
  after_results
  exact L10_main_arg13 m d

theorem L11_main_arg14 (d : Dev nD) : U11 m d (Proc.devRef .tc main_arg14) = (rargs m d).a14 := by
  show StableHlo.after (wS1_1 (F := Ideal)) (U10 m d) (Proc.devRef .tc main_arg14) = _
  after_results
  exact L10_main_arg14 m d

theorem L11_main_arg15 (d : Dev nD) : U11 m d (Proc.devRef .tc main_arg15) = (rargs m d).a15 := by
  show StableHlo.after (wS1_1 (F := Ideal)) (U10 m d) (Proc.devRef .tc main_arg15) = _
  after_results
  exact L10_main_arg15 m d

theorem L11_main_arg16 (d : Dev nD) : U11 m d (Proc.devRef .tc main_arg16) = (rargs m d).a16 := by
  show StableHlo.after (wS1_1 (F := Ideal)) (U10 m d) (Proc.devRef .tc main_arg16) = _
  after_results
  exact L10_main_arg16 m d

theorem L11_main_v1 (d : Dev nD) : U11 m d (Proc.devRef .tc main_v1) = src (rargs m d) := by
  show StableHlo.after (wS1_1 (F := Ideal)) (U10 m d) (Proc.devRef .tc main_v1) = _
  after_results
  exact L10_main_v1 m d

theorem L11_main_v3 (d : Dev nD) : U11 m d (Proc.devRef .tc main_v3) = dst (rargs m d) := by
  show StableHlo.after (wS1_1 (F := Ideal)) (U10 m d) (Proc.devRef .tc main_v3) = _
  after_results
  exact L10_main_v3 m d

theorem L11_main_v181 (d : Dev nD) : U11 m d (Proc.devRef .tc main_v181) = (fun e : S400000.Idx => R_1 (rargs m d) (ix2 (e 0 : Fin 400000) (0 : Fin 1))) := by
  show StableHlo.after (wS1_1 (F := Ideal)) (U10 m d) (Proc.devRef .tc main_v181) = _
  after_results
  exact L10_main_v181 m d

theorem L11_main_v184 (d : Dev nD) : U11 m d (Proc.devRef .tc main_v184) = (fun n : S50000.Idx => D_1 (rargs m d) (ix2 (n 0 : Fin 50000) (0 : Fin 1))) := by
  show StableHlo.after (wS1_1 (F := Ideal)) (U10 m d) (Proc.devRef .tc main_v184) = _
  after_results
  exact L10_main_v184 m d

set_option maxHeartbeats 2000000 in
theorem L11_main_v221 (d : Dev nD) : U11 m d (Proc.devRef .tc main_v221) = V1_1 (rargs m d) := by
  show StableHlo.after (wS1_1 (F := Ideal)) (U10 m d) (Proc.devRef .tc main_v221) = _
  after_results_simp
  simp only [L10_main_v184 m d, L10_main_v145 m d, L10_main_arg4 m d, L10_main_v3 m d, L10_main_v181 m d, L10_main_v1 m d, L10_main_arg9 m d, L10_main_arg10 m d]
  exact Cert.RefBridge.ref_stepV _ _ _ _ _ _ _ _ _

set_option maxHeartbeats 2000000 in
theorem L11_main_v224 (d : Dev nD) : U11 m d (Proc.devRef .tc main_v224) = X1_1 (rargs m d) := by
  show StableHlo.after (wS1_1 (F := Ideal)) (U10 m d) (Proc.devRef .tc main_v224) = _
  after_results_simp
  simp only [L10_main_v145 m d, L10_main_v184 m d, L10_main_arg4 m d, L10_main_v3 m d, L10_main_v181 m d, L10_main_v1 m d, L10_main_arg9 m d, L10_main_arg10 m d]
  exact Cert.RefBridge.ref_stepX _ _ _ _ _ _ _ _ _

end Cert.RChain

end
-- ==== Proof.RChain2.lean ====
/- What each buffer of the reference program holds at each boundary between the windows of its operation list, while a
   later window still reads it: the named value of Model.lean. A window's result is its operations applied to what the
   window finds, read as the Model's function by the host-side lemmas (a product against a transposed weight is the
   linear layer; the 1-D resistances and degrees are the columns the Model carries; products commute); a buffer the
   window does not write keeps its contents. -/
import proofs.«107783_j24189255811079_1_alg».proof.Proof.RChain1

set_option maxRecDepth 16384

noncomputable section

namespace Cert.RChain

open Idealize.ShloMosaic Idealize.ShloMosaic.TcCoe Idealize.SL.Sem Idealize.ShloMosaic.ValueIdx Cert.ReferenceIdeal Cert.ReferenceIdeal.RefRun Cert.Model

variable (m : (ℓ : Loc nD τ sig) → Buf (Elt Ideal) ℓ)

theorem L12_main_arg0 (d : Dev nD) : U12 m d (Proc.devRef .tc main_arg0) = (rargs m d).a0 := by
  show StableHlo.after (wS2_1 (F := Ideal)) (U11 m d) (Proc.devRef .tc main_arg0) = _
  after_results
  exact L11_main_arg0 m d

theorem L12_main_arg1 (d : Dev nD) : U12 m d (Proc.devRef .tc main_arg1) = (rargs m d).a1 := by
  show StableHlo.after (wS2_1 (F := Ideal)) (U11 m d) (Proc.devRef .tc main_arg1) = _
  after_results
  exact L11_main_arg1 m d

theorem L12_main_arg2 (d : Dev nD) : U12 m d (Proc.devRef .tc main_arg2) = (rargs m d).a2 := by
  show StableHlo.after (wS2_1 (F := Ideal)) (U11 m d) (Proc.devRef .tc main_arg2) = _
  after_results
  exact L11_main_arg2 m d

theorem L12_main_arg3 (d : Dev nD) : U12 m d (Proc.devRef .tc main_arg3) = (rargs m d).a3 := by
  show StableHlo.after (wS2_1 (F := Ideal)) (U11 m d) (Proc.devRef .tc main_arg3) = _
  after_results
  exact L11_main_arg3 m d

theorem L12_main_arg4 (d : Dev nD) : U12 m d (Proc.devRef .tc main_arg4) = (rargs m d).a4 := by
  show StableHlo.after (wS2_1 (F := Ideal)) (U11 m d) (Proc.devRef .tc main_arg4) = _
  after_results
  exact L11_main_arg4 m d

theorem L12_main_arg5 (d : Dev nD) : U12 m d (Proc.devRef .tc main_arg5) = (rargs m d).a5 := by
  show StableHlo.after (wS2_1 (F := Ideal)) (U11 m d) (Proc.devRef .tc main_arg5) = _
  after_results
  exact L11_main_arg5 m d

theorem L12_main_arg6 (d : Dev nD) : U12 m d (Proc.devRef .tc main_arg6) = (rargs m d).a6 := by
  show StableHlo.after (wS2_1 (F := Ideal)) (U11 m d) (Proc.devRef .tc main_arg6) = _
  after_results
  exact L11_main_arg6 m d

theorem L12_main_arg7 (d : Dev nD) : U12 m d (Proc.devRef .tc main_arg7) = (rargs m d).a7 := by
  show StableHlo.after (wS2_1 (F := Ideal)) (U11 m d) (Proc.devRef .tc main_arg7) = _
  after_results
  exact L11_main_arg7 m d

theorem L12_main_arg8 (d : Dev nD) : U12 m d (Proc.devRef .tc main_arg8) = (rargs m d).a8 := by
  show StableHlo.after (wS2_1 (F := Ideal)) (U11 m d) (Proc.devRef .tc main_arg8) = _
  after_results
  exact L11_main_arg8 m d

theorem L12_main_arg9 (d : Dev nD) : U12 m d (Proc.devRef .tc main_arg9) = (rargs m d).a9 := by
  show StableHlo.after (wS2_1 (F := Ideal)) (U11 m d) (Proc.devRef .tc main_arg9) = _
  after_results
  exact L11_main_arg9 m d

theorem L12_main_arg10 (d : Dev nD) : U12 m d (Proc.devRef .tc main_arg10) = (rargs m d).a10 := by
  show StableHlo.after (wS2_1 (F := Ideal)) (U11 m d) (Proc.devRef .tc main_arg10) = _
  after_results
  exact L11_main_arg10 m d

theorem L12_main_arg11 (d : Dev nD) : U12 m d (Proc.devRef .tc main_arg11) = (rargs m d).a11 := by
  show StableHlo.after (wS2_1 (F := Ideal)) (U11 m d) (Proc.devRef .tc main_arg11) = _
  after_results
  exact L11_main_arg11 m d

theorem L12_main_arg12 (d : Dev nD) : U12 m d (Proc.devRef .tc main_arg12) = (rargs m d).a12 := by
  show StableHlo.after (wS2_1 (F := Ideal)) (U11 m d) (Proc.devRef .tc main_arg12) = _
  after_results
  exact L11_main_arg12 m d

theorem L12_main_arg13 (d : Dev nD) : U12 m d (Proc.devRef .tc main_arg13) = (rargs m d).a13 := by
  show StableHlo.after (wS2_1 (F := Ideal)) (U11 m d) (Proc.devRef .tc main_arg13) = _
  after_results
  exact L11_main_arg13 m d

theorem L12_main_arg14 (d : Dev nD) : U12 m d (Proc.devRef .tc main_arg14) = (rargs m d).a14 := by
  show StableHlo.after (wS2_1 (F := Ideal)) (U11 m d) (Proc.devRef .tc main_arg14) = _
  after_results
  exact L11_main_arg14 m d

theorem L12_main_arg15 (d : Dev nD) : U12 m d (Proc.devRef .tc main_arg15) = (rargs m d).a15 := by
  show StableHlo.after (wS2_1 (F := Ideal)) (U11 m d) (Proc.devRef .tc main_arg15) = _
  after_results
  exact L11_main_arg15 m d

theorem L12_main_arg16 (d : Dev nD) : U12 m d (Proc.devRef .tc main_arg16) = (rargs m d).a16 := by
  show StableHlo.after (wS2_1 (F := Ideal)) (U11 m d) (Proc.devRef .tc main_arg16) = _
  after_results
  exact L11_main_arg16 m d

theorem L12_main_v1 (d : Dev nD) : U12 m d (Proc.devRef .tc main_v1) = src (rargs m d) := by
  show StableHlo.after (wS2_1 (F := Ideal)) (U11 m d) (Proc.devRef .tc main_v1) = _
  after_results
  exact L11_main_v1 m d

theorem L12_main_v3 (d : Dev nD) : U12 m d (Proc.devRef .tc main_v3) = dst (rargs m d) := by
  show StableHlo.after (wS2_1 (F := Ideal)) (U11 m d) (Proc.devRef .tc main_v3) = _
  after_results
  exact L11_main_v3 m d

set_option maxHeartbeats 2000000 in
theorem L12_main_v263 (d : Dev nD) : U12 m d (Proc.devRef .tc main_v263) = X2_1 (rargs m d) := by
  show StableHlo.after (wS2_1 (F := Ideal)) (U11 m d) (Proc.devRef .tc main_v263) = _
  after_results_simp
  simp only [L11_main_v224 m d, L11_main_v221 m d, L11_main_v184 m d, L11_main_arg4 m d, L11_main_v3 m d, L11_main_v181 m d, L11_main_v1 m d, L11_main_arg9 m d, L11_main_arg10 m d]
  exact Cert.RefBridge.ref_stepX _ _ _ _ _ _ _ _ _

theorem L13_main_arg0 (d : Dev nD) : U13 m d (Proc.devRef .tc main_arg0) = (rargs m d).a0 := by
  show StableHlo.after (wM1 (F := Ideal)) (U12 m d) (Proc.devRef .tc main_arg0) = _
  after_results
  exact L12_main_arg0 m d

theorem L13_main_arg1 (d : Dev nD) : U13 m d (Proc.devRef .tc main_arg1) = (rargs m d).a1 := by
  show StableHlo.after (wM1 (F := Ideal)) (U12 m d) (Proc.devRef .tc main_arg1) = _
  after_results
  exact L12_main_arg1 m d

theorem L13_main_arg2 (d : Dev nD) : U13 m d (Proc.devRef .tc main_arg2) = (rargs m d).a2 := by
  show StableHlo.after (wM1 (F := Ideal)) (U12 m d) (Proc.devRef .tc main_arg2) = _
  after_results
  exact L12_main_arg2 m d

theorem L13_main_arg3 (d : Dev nD) : U13 m d (Proc.devRef .tc main_arg3) = (rargs m d).a3 := by
  show StableHlo.after (wM1 (F := Ideal)) (U12 m d) (Proc.devRef .tc main_arg3) = _
  after_results
  exact L12_main_arg3 m d

theorem L13_main_arg4 (d : Dev nD) : U13 m d (Proc.devRef .tc main_arg4) = (rargs m d).a4 := by
  show StableHlo.after (wM1 (F := Ideal)) (U12 m d) (Proc.devRef .tc main_arg4) = _
  after_results
  exact L12_main_arg4 m d

theorem L13_main_arg5 (d : Dev nD) : U13 m d (Proc.devRef .tc main_arg5) = (rargs m d).a5 := by
  show StableHlo.after (wM1 (F := Ideal)) (U12 m d) (Proc.devRef .tc main_arg5) = _
  after_results
  exact L12_main_arg5 m d

theorem L13_main_arg6 (d : Dev nD) : U13 m d (Proc.devRef .tc main_arg6) = (rargs m d).a6 := by
  show StableHlo.after (wM1 (F := Ideal)) (U12 m d) (Proc.devRef .tc main_arg6) = _
  after_results
  exact L12_main_arg6 m d

theorem L13_main_arg7 (d : Dev nD) : U13 m d (Proc.devRef .tc main_arg7) = (rargs m d).a7 := by
  show StableHlo.after (wM1 (F := Ideal)) (U12 m d) (Proc.devRef .tc main_arg7) = _
  after_results
  exact L12_main_arg7 m d

theorem L13_main_arg8 (d : Dev nD) : U13 m d (Proc.devRef .tc main_arg8) = (rargs m d).a8 := by
  show StableHlo.after (wM1 (F := Ideal)) (U12 m d) (Proc.devRef .tc main_arg8) = _
  after_results
  exact L12_main_arg8 m d

theorem L13_main_arg9 (d : Dev nD) : U13 m d (Proc.devRef .tc main_arg9) = (rargs m d).a9 := by
  show StableHlo.after (wM1 (F := Ideal)) (U12 m d) (Proc.devRef .tc main_arg9) = _
  after_results
  exact L12_main_arg9 m d

theorem L13_main_arg10 (d : Dev nD) : U13 m d (Proc.devRef .tc main_arg10) = (rargs m d).a10 := by
  show StableHlo.after (wM1 (F := Ideal)) (U12 m d) (Proc.devRef .tc main_arg10) = _
  after_results
  exact L12_main_arg10 m d

theorem L13_main_arg11 (d : Dev nD) : U13 m d (Proc.devRef .tc main_arg11) = (rargs m d).a11 := by
  show StableHlo.after (wM1 (F := Ideal)) (U12 m d) (Proc.devRef .tc main_arg11) = _
  after_results
  exact L12_main_arg11 m d

theorem L13_main_arg12 (d : Dev nD) : U13 m d (Proc.devRef .tc main_arg12) = (rargs m d).a12 := by
  show StableHlo.after (wM1 (F := Ideal)) (U12 m d) (Proc.devRef .tc main_arg12) = _
  after_results
  exact L12_main_arg12 m d

theorem L13_main_arg13 (d : Dev nD) : U13 m d (Proc.devRef .tc main_arg13) = (rargs m d).a13 := by
  show StableHlo.after (wM1 (F := Ideal)) (U12 m d) (Proc.devRef .tc main_arg13) = _
  after_results
  exact L12_main_arg13 m d

theorem L13_main_arg14 (d : Dev nD) : U13 m d (Proc.devRef .tc main_arg14) = (rargs m d).a14 := by
  show StableHlo.after (wM1 (F := Ideal)) (U12 m d) (Proc.devRef .tc main_arg14) = _
  after_results
  exact L12_main_arg14 m d

theorem L13_main_arg15 (d : Dev nD) : U13 m d (Proc.devRef .tc main_arg15) = (rargs m d).a15 := by
  show StableHlo.after (wM1 (F := Ideal)) (U12 m d) (Proc.devRef .tc main_arg15) = _
  after_results
  exact L12_main_arg15 m d

theorem L13_main_arg16 (d : Dev nD) : U13 m d (Proc.devRef .tc main_arg16) = (rargs m d).a16 := by
  show StableHlo.after (wM1 (F := Ideal)) (U12 m d) (Proc.devRef .tc main_arg16) = _
  after_results
  exact L12_main_arg16 m d

theorem L13_main_v1 (d : Dev nD) : U13 m d (Proc.devRef .tc main_v1) = src (rargs m d) := by
  show StableHlo.after (wM1 (F := Ideal)) (U12 m d) (Proc.devRef .tc main_v1) = _
  after_results
  exact L12_main_v1 m d

theorem L13_main_v3 (d : Dev nD) : U13 m d (Proc.devRef .tc main_v3) = dst (rargs m d) := by
  show StableHlo.after (wM1 (F := Ideal)) (U12 m d) (Proc.devRef .tc main_v3) = _
  after_results
  exact L12_main_v3 m d

set_option maxHeartbeats 2000000 in
theorem L13_main_v282 (d : Dev nD) : U13 m d (Proc.devRef .tc main_v282) = XIN_2 (rargs m d) := by
  show StableHlo.after (wM1 (F := Ideal)) (U12 m d) (Proc.devRef .tc main_v282) = _
  after_results_simp
  rw [L12_main_v263 m d, L12_main_arg11 m d, L12_main_arg12 m d, L12_main_arg13 m d, L12_main_arg14 m d]
  exact Cert.RefBridge.ref_mlp _ _ _ _ _

theorem L14_main_arg0 (d : Dev nD) : U14 m d (Proc.devRef .tc main_arg0) = (rargs m d).a0 := by
  show StableHlo.after (wEa2 (F := Ideal)) (U13 m d) (Proc.devRef .tc main_arg0) = _
  after_results
  exact L13_main_arg0 m d

theorem L14_main_arg1 (d : Dev nD) : U14 m d (Proc.devRef .tc main_arg1) = (rargs m d).a1 := by
  show StableHlo.after (wEa2 (F := Ideal)) (U13 m d) (Proc.devRef .tc main_arg1) = _
  after_results
  exact L13_main_arg1 m d

theorem L14_main_arg2 (d : Dev nD) : U14 m d (Proc.devRef .tc main_arg2) = (rargs m d).a2 := by
  show StableHlo.after (wEa2 (F := Ideal)) (U13 m d) (Proc.devRef .tc main_arg2) = _
  after_results
  exact L13_main_arg2 m d

theorem L14_main_arg3 (d : Dev nD) : U14 m d (Proc.devRef .tc main_arg3) = (rargs m d).a3 := by
  show StableHlo.after (wEa2 (F := Ideal)) (U13 m d) (Proc.devRef .tc main_arg3) = _
  after_results
  exact L13_main_arg3 m d

theorem L14_main_arg4 (d : Dev nD) : U14 m d (Proc.devRef .tc main_arg4) = (rargs m d).a4 := by
  show StableHlo.after (wEa2 (F := Ideal)) (U13 m d) (Proc.devRef .tc main_arg4) = _
  after_results
  exact L13_main_arg4 m d

theorem L14_main_arg5 (d : Dev nD) : U14 m d (Proc.devRef .tc main_arg5) = (rargs m d).a5 := by
  show StableHlo.after (wEa2 (F := Ideal)) (U13 m d) (Proc.devRef .tc main_arg5) = _
  after_results
  exact L13_main_arg5 m d

theorem L14_main_arg6 (d : Dev nD) : U14 m d (Proc.devRef .tc main_arg6) = (rargs m d).a6 := by
  show StableHlo.after (wEa2 (F := Ideal)) (U13 m d) (Proc.devRef .tc main_arg6) = _
  after_results
  exact L13_main_arg6 m d

theorem L14_main_arg7 (d : Dev nD) : U14 m d (Proc.devRef .tc main_arg7) = (rargs m d).a7 := by
  show StableHlo.after (wEa2 (F := Ideal)) (U13 m d) (Proc.devRef .tc main_arg7) = _
  after_results
  exact L13_main_arg7 m d

theorem L14_main_arg8 (d : Dev nD) : U14 m d (Proc.devRef .tc main_arg8) = (rargs m d).a8 := by
  show StableHlo.after (wEa2 (F := Ideal)) (U13 m d) (Proc.devRef .tc main_arg8) = _
  after_results
  exact L13_main_arg8 m d

theorem L14_main_arg9 (d : Dev nD) : U14 m d (Proc.devRef .tc main_arg9) = (rargs m d).a9 := by
  show StableHlo.after (wEa2 (F := Ideal)) (U13 m d) (Proc.devRef .tc main_arg9) = _
  after_results
  exact L13_main_arg9 m d

theorem L14_main_arg10 (d : Dev nD) : U14 m d (Proc.devRef .tc main_arg10) = (rargs m d).a10 := by
  show StableHlo.after (wEa2 (F := Ideal)) (U13 m d) (Proc.devRef .tc main_arg10) = _
  after_results
  exact L13_main_arg10 m d

theorem L14_main_arg11 (d : Dev nD) : U14 m d (Proc.devRef .tc main_arg11) = (rargs m d).a11 := by
  show StableHlo.after (wEa2 (F := Ideal)) (U13 m d) (Proc.devRef .tc main_arg11) = _
  after_results
  exact L13_main_arg11 m d

theorem L14_main_arg12 (d : Dev nD) : U14 m d (Proc.devRef .tc main_arg12) = (rargs m d).a12 := by
  show StableHlo.after (wEa2 (F := Ideal)) (U13 m d) (Proc.devRef .tc main_arg12) = _
  after_results
  exact L13_main_arg12 m d

theorem L14_main_arg13 (d : Dev nD) : U14 m d (Proc.devRef .tc main_arg13) = (rargs m d).a13 := by
  show StableHlo.after (wEa2 (F := Ideal)) (U13 m d) (Proc.devRef .tc main_arg13) = _
  after_results
  exact L13_main_arg13 m d

theorem L14_main_arg14 (d : Dev nD) : U14 m d (Proc.devRef .tc main_arg14) = (rargs m d).a14 := by
  show StableHlo.after (wEa2 (F := Ideal)) (U13 m d) (Proc.devRef .tc main_arg14) = _
  after_results
  exact L13_main_arg14 m d

theorem L14_main_arg15 (d : Dev nD) : U14 m d (Proc.devRef .tc main_arg15) = (rargs m d).a15 := by
  show StableHlo.after (wEa2 (F := Ideal)) (U13 m d) (Proc.devRef .tc main_arg15) = _
  after_results
  exact L13_main_arg15 m d

theorem L14_main_arg16 (d : Dev nD) : U14 m d (Proc.devRef .tc main_arg16) = (rargs m d).a16 := by
  show StableHlo.after (wEa2 (F := Ideal)) (U13 m d) (Proc.devRef .tc main_arg16) = _
  after_results
  exact L13_main_arg16 m d

theorem L14_main_v1 (d : Dev nD) : U14 m d (Proc.devRef .tc main_v1) = src (rargs m d) := by
  show StableHlo.after (wEa2 (F := Ideal)) (U13 m d) (Proc.devRef .tc main_v1) = _
  after_results
  exact L13_main_v1 m d

theorem L14_main_v3 (d : Dev nD) : U14 m d (Proc.devRef .tc main_v3) = dst (rargs m d) := by
  show StableHlo.after (wEa2 (F := Ideal)) (U13 m d) (Proc.devRef .tc main_v3) = _
  after_results
  exact L13_main_v3 m d

theorem L14_main_v282 (d : Dev nD) : U14 m d (Proc.devRef .tc main_v282) = XIN_2 (rargs m d) := by
  show StableHlo.after (wEa2 (F := Ideal)) (U13 m d) (Proc.devRef .tc main_v282) = _
  after_results
  exact L13_main_v282 m d

set_option maxHeartbeats 2000000 in
theorem L14_main_v289 (d : Dev nD) : U14 m d (Proc.devRef .tc main_v289) = gatherRows (XIN_2 (rargs m d)) (src (rargs m d)) := by
  show StableHlo.after (wEa2 (F := Ideal)) (U13 m d) (Proc.devRef .tc main_v289) = _
  after_results_simp
  rw [L13_main_v282 m d, L13_main_v1 m d]
  rfl

set_option maxHeartbeats 2000000 in
theorem L14_main_v296 (d : Dev nD) : U14 m d (Proc.devRef .tc main_v296) = gatherRows (XIN_2 (rargs m d)) (dst (rargs m d)) := by
  show StableHlo.after (wEa2 (F := Ideal)) (U13 m d) (Proc.devRef .tc main_v296) = _
  after_results_simp
  rw [L13_main_v282 m d, L13_main_v3 m d]
  rfl

theorem L15_main_arg0 (d : Dev nD) : U15 m d (Proc.devRef .tc main_arg0) = (rargs m d).a0 := by
  show StableHlo.after (wEb2 (F := Ideal)) (U14 m d) (Proc.devRef .tc main_arg0) = _
  after_results
  exact L14_main_arg0 m d

theorem L15_main_arg1 (d : Dev nD) : U15 m d (Proc.devRef .tc main_arg1) = (rargs m d).a1 := by
  show StableHlo.after (wEb2 (F := Ideal)) (U14 m d) (Proc.devRef .tc main_arg1) = _
  after_results
  exact L14_main_arg1 m d

theorem L15_main_arg2 (d : Dev nD) : U15 m d (Proc.devRef .tc main_arg2) = (rargs m d).a2 := by
  show StableHlo.after (wEb2 (F := Ideal)) (U14 m d) (Proc.devRef .tc main_arg2) = _
  after_results
  exact L14_main_arg2 m d

theorem L15_main_arg3 (d : Dev nD) : U15 m d (Proc.devRef .tc main_arg3) = (rargs m d).a3 := by
  show StableHlo.after (wEb2 (F := Ideal)) (U14 m d) (Proc.devRef .tc main_arg3) = _
  after_results
  exact L14_main_arg3 m d

theorem L15_main_arg4 (d : Dev nD) : U15 m d (Proc.devRef .tc main_arg4) = (rargs m d).a4 := by
  show StableHlo.after (wEb2 (F := Ideal)) (U14 m d) (Proc.devRef .tc main_arg4) = _
  after_results
  exact L14_main_arg4 m d

theorem L15_main_arg5 (d : Dev nD) : U15 m d (Proc.devRef .tc main_arg5) = (rargs m d).a5 := by
  show StableHlo.after (wEb2 (F := Ideal)) (U14 m d) (Proc.devRef .tc main_arg5) = _
  after_results
  exact L14_main_arg5 m d

theorem L15_main_arg6 (d : Dev nD) : U15 m d (Proc.devRef .tc main_arg6) = (rargs m d).a6 := by
  show StableHlo.after (wEb2 (F := Ideal)) (U14 m d) (Proc.devRef .tc main_arg6) = _
  after_results
  exact L14_main_arg6 m d

theorem L15_main_arg7 (d : Dev nD) : U15 m d (Proc.devRef .tc main_arg7) = (rargs m d).a7 := by
  show StableHlo.after (wEb2 (F := Ideal)) (U14 m d) (Proc.devRef .tc main_arg7) = _
  after_results
  exact L14_main_arg7 m d

theorem L15_main_arg8 (d : Dev nD) : U15 m d (Proc.devRef .tc main_arg8) = (rargs m d).a8 := by
  show StableHlo.after (wEb2 (F := Ideal)) (U14 m d) (Proc.devRef .tc main_arg8) = _
  after_results
  exact L14_main_arg8 m d

theorem L15_main_arg9 (d : Dev nD) : U15 m d (Proc.devRef .tc main_arg9) = (rargs m d).a9 := by
  show StableHlo.after (wEb2 (F := Ideal)) (U14 m d) (Proc.devRef .tc main_arg9) = _
  after_results
  exact L14_main_arg9 m d

theorem L15_main_arg10 (d : Dev nD) : U15 m d (Proc.devRef .tc main_arg10) = (rargs m d).a10 := by
  show StableHlo.after (wEb2 (F := Ideal)) (U14 m d) (Proc.devRef .tc main_arg10) = _
  after_results
  exact L14_main_arg10 m d

theorem L15_main_arg11 (d : Dev nD) : U15 m d (Proc.devRef .tc main_arg11) = (rargs m d).a11 := by
  show StableHlo.after (wEb2 (F := Ideal)) (U14 m d) (Proc.devRef .tc main_arg11) = _
  after_results
  exact L14_main_arg11 m d

theorem L15_main_arg12 (d : Dev nD) : U15 m d (Proc.devRef .tc main_arg12) = (rargs m d).a12 := by
  show StableHlo.after (wEb2 (F := Ideal)) (U14 m d) (Proc.devRef .tc main_arg12) = _
  after_results
  exact L14_main_arg12 m d

theorem L15_main_arg13 (d : Dev nD) : U15 m d (Proc.devRef .tc main_arg13) = (rargs m d).a13 := by
  show StableHlo.after (wEb2 (F := Ideal)) (U14 m d) (Proc.devRef .tc main_arg13) = _
  after_results
  exact L14_main_arg13 m d

theorem L15_main_arg14 (d : Dev nD) : U15 m d (Proc.devRef .tc main_arg14) = (rargs m d).a14 := by
  show StableHlo.after (wEb2 (F := Ideal)) (U14 m d) (Proc.devRef .tc main_arg14) = _
  after_results
  exact L14_main_arg14 m d

theorem L15_main_arg15 (d : Dev nD) : U15 m d (Proc.devRef .tc main_arg15) = (rargs m d).a15 := by
  show StableHlo.after (wEb2 (F := Ideal)) (U14 m d) (Proc.devRef .tc main_arg15) = _
  after_results
  exact L14_main_arg15 m d

theorem L15_main_arg16 (d : Dev nD) : U15 m d (Proc.devRef .tc main_arg16) = (rargs m d).a16 := by
  show StableHlo.after (wEb2 (F := Ideal)) (U14 m d) (Proc.devRef .tc main_arg16) = _
  after_results
  exact L14_main_arg16 m d

theorem L15_main_v1 (d : Dev nD) : U15 m d (Proc.devRef .tc main_v1) = src (rargs m d) := by
  show StableHlo.after (wEb2 (F := Ideal)) (U14 m d) (Proc.devRef .tc main_v1) = _
  after_results
  exact L14_main_v1 m d

theorem L15_main_v3 (d : Dev nD) : U15 m d (Proc.devRef .tc main_v3) = dst (rargs m d) := by
  show StableHlo.after (wEb2 (F := Ideal)) (U14 m d) (Proc.devRef .tc main_v3) = _
  after_results
  exact L14_main_v3 m d

theorem L15_main_v282 (d : Dev nD) : U15 m d (Proc.devRef .tc main_v282) = XIN_2 (rargs m d) := by
  show StableHlo.after (wEb2 (F := Ideal)) (U14 m d) (Proc.devRef .tc main_v282) = _
  after_results
  exact L14_main_v282 m d

set_option maxHeartbeats 2000000 in
theorem L15_main_v318 (d : Dev nD) : U15 m d (Proc.devRef .tc main_v318) = (fun e : S400000.Idx => R_2 (rargs m d) (ix2 (e 0 : Fin 400000) (0 : Fin 1))) := by
  show StableHlo.after (wEb2 (F := Ideal)) (U14 m d) (Proc.devRef .tc main_v318) = _
  after_results_simp
  simp only [L14_main_arg5 m d, L14_main_arg6 m d, L14_main_arg7 m d, L14_main_arg8 m d]
  refine (Cert.Edge.host_edge _ _ _ _ _ _).trans ?_
  rw [L14_main_v289 m d, L14_main_v296 m d]
  rfl

theorem L16_main_arg0 (d : Dev nD) : U16 m d (Proc.devRef .tc main_arg0) = (rargs m d).a0 := by
  show StableHlo.after (wD2 (F := Ideal)) (U15 m d) (Proc.devRef .tc main_arg0) = _
  after_results
  exact L15_main_arg0 m d

theorem L16_main_arg1 (d : Dev nD) : U16 m d (Proc.devRef .tc main_arg1) = (rargs m d).a1 := by
  show StableHlo.after (wD2 (F := Ideal)) (U15 m d) (Proc.devRef .tc main_arg1) = _
  after_results
  exact L15_main_arg1 m d

theorem L16_main_arg2 (d : Dev nD) : U16 m d (Proc.devRef .tc main_arg2) = (rargs m d).a2 := by
  show StableHlo.after (wD2 (F := Ideal)) (U15 m d) (Proc.devRef .tc main_arg2) = _
  after_results
  exact L15_main_arg2 m d

theorem L16_main_arg3 (d : Dev nD) : U16 m d (Proc.devRef .tc main_arg3) = (rargs m d).a3 := by
  show StableHlo.after (wD2 (F := Ideal)) (U15 m d) (Proc.devRef .tc main_arg3) = _
  after_results
  exact L15_main_arg3 m d

theorem L16_main_arg4 (d : Dev nD) : U16 m d (Proc.devRef .tc main_arg4) = (rargs m d).a4 := by
  show StableHlo.after (wD2 (F := Ideal)) (U15 m d) (Proc.devRef .tc main_arg4) = _
  after_results
  exact L15_main_arg4 m d

theorem L16_main_arg5 (d : Dev nD) : U16 m d (Proc.devRef .tc main_arg5) = (rargs m d).a5 := by
  show StableHlo.after (wD2 (F := Ideal)) (U15 m d) (Proc.devRef .tc main_arg5) = _
  after_results
  exact L15_main_arg5 m d

theorem L16_main_arg6 (d : Dev nD) : U16 m d (Proc.devRef .tc main_arg6) = (rargs m d).a6 := by
  show StableHlo.after (wD2 (F := Ideal)) (U15 m d) (Proc.devRef .tc main_arg6) = _
  after_results
  exact L15_main_arg6 m d

theorem L16_main_arg7 (d : Dev nD) : U16 m d (Proc.devRef .tc main_arg7) = (rargs m d).a7 := by
  show StableHlo.after (wD2 (F := Ideal)) (U15 m d) (Proc.devRef .tc main_arg7) = _
  after_results
  exact L15_main_arg7 m d

theorem L16_main_arg8 (d : Dev nD) : U16 m d (Proc.devRef .tc main_arg8) = (rargs m d).a8 := by
  show StableHlo.after (wD2 (F := Ideal)) (U15 m d) (Proc.devRef .tc main_arg8) = _
  after_results
  exact L15_main_arg8 m d

theorem L16_main_arg9 (d : Dev nD) : U16 m d (Proc.devRef .tc main_arg9) = (rargs m d).a9 := by
  show StableHlo.after (wD2 (F := Ideal)) (U15 m d) (Proc.devRef .tc main_arg9) = _
  after_results
  exact L15_main_arg9 m d

theorem L16_main_arg10 (d : Dev nD) : U16 m d (Proc.devRef .tc main_arg10) = (rargs m d).a10 := by
  show StableHlo.after (wD2 (F := Ideal)) (U15 m d) (Proc.devRef .tc main_arg10) = _
  after_results
  exact L15_main_arg10 m d

theorem L16_main_arg11 (d : Dev nD) : U16 m d (Proc.devRef .tc main_arg11) = (rargs m d).a11 := by
  show StableHlo.after (wD2 (F := Ideal)) (U15 m d) (Proc.devRef .tc main_arg11) = _
  after_results
  exact L15_main_arg11 m d

theorem L16_main_arg12 (d : Dev nD) : U16 m d (Proc.devRef .tc main_arg12) = (rargs m d).a12 := by
  show StableHlo.after (wD2 (F := Ideal)) (U15 m d) (Proc.devRef .tc main_arg12) = _
  after_results
  exact L15_main_arg12 m d

theorem L16_main_arg13 (d : Dev nD) : U16 m d (Proc.devRef .tc main_arg13) = (rargs m d).a13 := by
  show StableHlo.after (wD2 (F := Ideal)) (U15 m d) (Proc.devRef .tc main_arg13) = _
  after_results
  exact L15_main_arg13 m d

theorem L16_main_arg14 (d : Dev nD) : U16 m d (Proc.devRef .tc main_arg14) = (rargs m d).a14 := by
  show StableHlo.after (wD2 (F := Ideal)) (U15 m d) (Proc.devRef .tc main_arg14) = _
  after_results
  exact L15_main_arg14 m d

theorem L16_main_arg15 (d : Dev nD) : U16 m d (Proc.devRef .tc main_arg15) = (rargs m d).a15 := by
  show StableHlo.after (wD2 (F := Ideal)) (U15 m d) (Proc.devRef .tc main_arg15) = _
  after_results
  exact L15_main_arg15 m d

theorem L16_main_arg16 (d : Dev nD) : U16 m d (Proc.devRef .tc main_arg16) = (rargs m d).a16 := by
  show StableHlo.after (wD2 (F := Ideal)) (U15 m d) (Proc.devRef .tc main_arg16) = _
  after_results
  exact L15_main_arg16 m d

theorem L16_main_v1 (d : Dev nD) : U16 m d (Proc.devRef .tc main_v1) = src (rargs m d) := by
  show StableHlo.after (wD2 (F := Ideal)) (U15 m d) (Proc.devRef .tc main_v1) = _
  after_results
  exact L15_main_v1 m d

theorem L16_main_v3 (d : Dev nD) : U16 m d (Proc.devRef .tc main_v3) = dst (rargs m d) := by
  show StableHlo.after (wD2 (F := Ideal)) (U15 m d) (Proc.devRef .tc main_v3) = _
  after_results
  exact L15_main_v3 m d

theorem L16_main_v282 (d : Dev nD) : U16 m d (Proc.devRef .tc main_v282) = XIN_2 (rargs m d) := by
  show StableHlo.after (wD2 (F := Ideal)) (U15 m d) (Proc.devRef .tc main_v282) = _
  after_results
  exact L15_main_v282 m d

theorem L16_main_v318 (d : Dev nD) : U16 m d (Proc.devRef .tc main_v318) = (fun e : S400000.Idx => R_2 (rargs m d) (ix2 (e 0 : Fin 400000) (0 : Fin 1))) := by
  show StableHlo.after (wD2 (F := Ideal)) (U15 m d) (Proc.devRef .tc main_v318) = _
  after_results
  exact L15_main_v318 m d

set_option maxHeartbeats 2000000 in
theorem L16_main_v321 (d : Dev nD) : U16 m d (Proc.devRef .tc main_v321) = (fun n : S50000.Idx => D_2 (rargs m d) (ix2 (n 0 : Fin 50000) (0 : Fin 1))) := by
  show StableHlo.after (wD2 (F := Ideal)) (U15 m d) (Proc.devRef .tc main_v321) = _
  after_results_simp
  rw [L15_main_v1 m d, L15_main_v318 m d]
  exact Cert.RefBridge.ref_deg _ _

theorem L17_main_arg0 (d : Dev nD) : U17 m d (Proc.devRef .tc main_arg0) = (rargs m d).a0 := by
  show StableHlo.after (wS1_2 (F := Ideal)) (U16 m d) (Proc.devRef .tc main_arg0) = _
  after_results
  exact L16_main_arg0 m d

theorem L17_main_arg1 (d : Dev nD) : U17 m d (Proc.devRef .tc main_arg1) = (rargs m d).a1 := by
  show StableHlo.after (wS1_2 (F := Ideal)) (U16 m d) (Proc.devRef .tc main_arg1) = _
  after_results
  exact L16_main_arg1 m d

theorem L17_main_arg2 (d : Dev nD) : U17 m d (Proc.devRef .tc main_arg2) = (rargs m d).a2 := by
  show StableHlo.after (wS1_2 (F := Ideal)) (U16 m d) (Proc.devRef .tc main_arg2) = _
  after_results
  exact L16_main_arg2 m d

theorem L17_main_arg3 (d : Dev nD) : U17 m d (Proc.devRef .tc main_arg3) = (rargs m d).a3 := by
  show StableHlo.after (wS1_2 (F := Ideal)) (U16 m d) (Proc.devRef .tc main_arg3) = _
  after_results
  exact L16_main_arg3 m d

theorem L17_main_arg4 (d : Dev nD) : U17 m d (Proc.devRef .tc main_arg4) = (rargs m d).a4 := by
  show StableHlo.after (wS1_2 (F := Ideal)) (U16 m d) (Proc.devRef .tc main_arg4) = _
  after_results
  exact L16_main_arg4 m d

theorem L17_main_arg5 (d : Dev nD) : U17 m d (Proc.devRef .tc main_arg5) = (rargs m d).a5 := by
  show StableHlo.after (wS1_2 (F := Ideal)) (U16 m d) (Proc.devRef .tc main_arg5) = _
  after_results
  exact L16_main_arg5 m d

theorem L17_main_arg6 (d : Dev nD) : U17 m d (Proc.devRef .tc main_arg6) = (rargs m d).a6 := by
  show StableHlo.after (wS1_2 (F := Ideal)) (U16 m d) (Proc.devRef .tc main_arg6) = _
  after_results
  exact L16_main_arg6 m d

theorem L17_main_arg7 (d : Dev nD) : U17 m d (Proc.devRef .tc main_arg7) = (rargs m d).a7 := by
  show StableHlo.after (wS1_2 (F := Ideal)) (U16 m d) (Proc.devRef .tc main_arg7) = _
  after_results
  exact L16_main_arg7 m d

theorem L17_main_arg8 (d : Dev nD) : U17 m d (Proc.devRef .tc main_arg8) = (rargs m d).a8 := by
  show StableHlo.after (wS1_2 (F := Ideal)) (U16 m d) (Proc.devRef .tc main_arg8) = _
  after_results
  exact L16_main_arg8 m d

theorem L17_main_arg9 (d : Dev nD) : U17 m d (Proc.devRef .tc main_arg9) = (rargs m d).a9 := by
  show StableHlo.after (wS1_2 (F := Ideal)) (U16 m d) (Proc.devRef .tc main_arg9) = _
  after_results
  exact L16_main_arg9 m d

theorem L17_main_arg10 (d : Dev nD) : U17 m d (Proc.devRef .tc main_arg10) = (rargs m d).a10 := by
  show StableHlo.after (wS1_2 (F := Ideal)) (U16 m d) (Proc.devRef .tc main_arg10) = _
  after_results
  exact L16_main_arg10 m d

theorem L17_main_arg11 (d : Dev nD) : U17 m d (Proc.devRef .tc main_arg11) = (rargs m d).a11 := by
  show StableHlo.after (wS1_2 (F := Ideal)) (U16 m d) (Proc.devRef .tc main_arg11) = _
  after_results
  exact L16_main_arg11 m d

theorem L17_main_arg12 (d : Dev nD) : U17 m d (Proc.devRef .tc main_arg12) = (rargs m d).a12 := by
  show StableHlo.after (wS1_2 (F := Ideal)) (U16 m d) (Proc.devRef .tc main_arg12) = _
  after_results
  exact L16_main_arg12 m d

theorem L17_main_arg13 (d : Dev nD) : U17 m d (Proc.devRef .tc main_arg13) = (rargs m d).a13 := by
  show StableHlo.after (wS1_2 (F := Ideal)) (U16 m d) (Proc.devRef .tc main_arg13) = _
  after_results
  exact L16_main_arg13 m d

theorem L17_main_arg14 (d : Dev nD) : U17 m d (Proc.devRef .tc main_arg14) = (rargs m d).a14 := by
  show StableHlo.after (wS1_2 (F := Ideal)) (U16 m d) (Proc.devRef .tc main_arg14) = _
  after_results
  exact L16_main_arg14 m d

theorem L17_main_arg15 (d : Dev nD) : U17 m d (Proc.devRef .tc main_arg15) = (rargs m d).a15 := by
  show StableHlo.after (wS1_2 (F := Ideal)) (U16 m d) (Proc.devRef .tc main_arg15) = _
  after_results
  exact L16_main_arg15 m d

theorem L17_main_arg16 (d : Dev nD) : U17 m d (Proc.devRef .tc main_arg16) = (rargs m d).a16 := by
  show StableHlo.after (wS1_2 (F := Ideal)) (U16 m d) (Proc.devRef .tc main_arg16) = _
  after_results
  exact L16_main_arg16 m d

theorem L17_main_v1 (d : Dev nD) : U17 m d (Proc.devRef .tc main_v1) = src (rargs m d) := by
  show StableHlo.after (wS1_2 (F := Ideal)) (U16 m d) (Proc.devRef .tc main_v1) = _
  after_results
  exact L16_main_v1 m d

theorem L17_main_v3 (d : Dev nD) : U17 m d (Proc.devRef .tc main_v3) = dst (rargs m d) := by
  show StableHlo.after (wS1_2 (F := Ideal)) (U16 m d) (Proc.devRef .tc main_v3) = _
  after_results
  exact L16_main_v3 m d

theorem L17_main_v318 (d : Dev nD) : U17 m d (Proc.devRef .tc main_v318) = (fun e : S400000.Idx => R_2 (rargs m d) (ix2 (e 0 : Fin 400000) (0 : Fin 1))) := by
  show StableHlo.after (wS1_2 (F := Ideal)) (U16 m d) (Proc.devRef .tc main_v318) = _
  after_results
  exact L16_main_v318 m d

theorem L17_main_v321 (d : Dev nD) : U17 m d (Proc.devRef .tc main_v321) = (fun n : S50000.Idx => D_2 (rargs m d) (ix2 (n 0 : Fin 50000) (0 : Fin 1))) := by
  show StableHlo.after (wS1_2 (F := Ideal)) (U16 m d) (Proc.devRef .tc main_v321) = _
  after_results
  exact L16_main_v321 m d

set_option maxHeartbeats 2000000 in
theorem L17_main_v358 (d : Dev nD) : U17 m d (Proc.devRef .tc main_v358) = V1_2 (rargs m d) := by
  show StableHlo.after (wS1_2 (F := Ideal)) (U16 m d) (Proc.devRef .tc main_v358) = _
  after_results_simp
  simp only [L16_main_v321 m d, L16_main_v282 m d, L16_main_arg4 m d, L16_main_v3 m d, L16_main_v318 m d, L16_main_v1 m d, L16_main_arg9 m d, L16_main_arg10 m d]
  exact Cert.RefBridge.ref_stepV _ _ _ _ _ _ _ _ _

set_option maxHeartbeats 2000000 in
theorem L17_main_v361 (d : Dev nD) : U17 m d (Proc.devRef .tc main_v361) = X1_2 (rargs m d) := by
  show StableHlo.after (wS1_2 (F := Ideal)) (U16 m d) (Proc.devRef .tc main_v361) = _
  after_results_simp
  simp only [L16_main_v282 m d, L16_main_v321 m d, L16_main_arg4 m d, L16_main_v3 m d, L16_main_v318 m d, L16_main_v1 m d, L16_main_arg9 m d, L16_main_arg10 m d]
  exact Cert.RefBridge.ref_stepX _ _ _ _ _ _ _ _ _

end Cert.RChain

end
-- ==== Proof.RChain3.lean ====
/- What each buffer of the reference program holds at each boundary between the windows of its operation list, while a
   later window still reads it: the named value of Model.lean. A window's result is its operations applied to what the
   window finds, read as the Model's function by the host-side lemmas (a product against a transposed weight is the
   linear layer; the 1-D resistances and degrees are the columns the Model carries; products commute); a buffer the
   window does not write keeps its contents. -/
import proofs.«107783_j24189255811079_1_alg».proof.Proof.RChain2

set_option maxRecDepth 16384

noncomputable section

namespace Cert.RChain

open Idealize.ShloMosaic Idealize.ShloMosaic.TcCoe Idealize.SL.Sem Idealize.ShloMosaic.ValueIdx Cert.ReferenceIdeal Cert.ReferenceIdeal.RefRun Cert.Model

variable (m : (ℓ : Loc nD τ sig) → Buf (Elt Ideal) ℓ)

theorem L18_main_arg0 (d : Dev nD) : U18 m d (Proc.devRef .tc main_arg0) = (rargs m d).a0 := by
  show StableHlo.after (wS2_2 (F := Ideal)) (U17 m d) (Proc.devRef .tc main_arg0) = _
  after_results
  exact L17_main_arg0 m d

theorem L18_main_arg1 (d : Dev nD) : U18 m d (Proc.devRef .tc main_arg1) = (rargs m d).a1 := by
  show StableHlo.after (wS2_2 (F := Ideal)) (U17 m d) (Proc.devRef .tc main_arg1) = _
  after_results
  exact L17_main_arg1 m d

theorem L18_main_arg2 (d : Dev nD) : U18 m d (Proc.devRef .tc main_arg2) = (rargs m d).a2 := by
  show StableHlo.after (wS2_2 (F := Ideal)) (U17 m d) (Proc.devRef .tc main_arg2) = _
  after_results
  exact L17_main_arg2 m d

theorem L18_main_arg3 (d : Dev nD) : U18 m d (Proc.devRef .tc main_arg3) = (rargs m d).a3 := by
  show StableHlo.after (wS2_2 (F := Ideal)) (U17 m d) (Proc.devRef .tc main_arg3) = _
  after_results
  exact L17_main_arg3 m d

theorem L18_main_arg4 (d : Dev nD) : U18 m d (Proc.devRef .tc main_arg4) = (rargs m d).a4 := by
  show StableHlo.after (wS2_2 (F := Ideal)) (U17 m d) (Proc.devRef .tc main_arg4) = _
  after_results
  exact L17_main_arg4 m d

theorem L18_main_arg5 (d : Dev nD) : U18 m d (Proc.devRef .tc main_arg5) = (rargs m d).a5 := by
  show StableHlo.after (wS2_2 (F := Ideal)) (U17 m d) (Proc.devRef .tc main_arg5) = _
  after_results
  exact L17_main_arg5 m d

theorem L18_main_arg6 (d : Dev nD) : U18 m d (Proc.devRef .tc main_arg6) = (rargs m d).a6 := by
  show StableHlo.after (wS2_2 (F := Ideal)) (U17 m d) (Proc.devRef .tc main_arg6) = _
  after_results
  exact L17_main_arg6 m d

theorem L18_main_arg7 (d : Dev nD) : U18 m d (Proc.devRef .tc main_arg7) = (rargs m d).a7 := by
  show StableHlo.after (wS2_2 (F := Ideal)) (U17 m d) (Proc.devRef .tc main_arg7) = _
  after_results
  exact L17_main_arg7 m d

theorem L18_main_arg8 (d : Dev nD) : U18 m d (Proc.devRef .tc main_arg8) = (rargs m d).a8 := by
  show StableHlo.after (wS2_2 (F := Ideal)) (U17 m d) (Proc.devRef .tc main_arg8) = _
  after_results
  exact L17_main_arg8 m d

theorem L18_main_arg9 (d : Dev nD) : U18 m d (Proc.devRef .tc main_arg9) = (rargs m d).a9 := by
  show StableHlo.after (wS2_2 (F := Ideal)) (U17 m d) (Proc.devRef .tc main_arg9) = _
  after_results
  exact L17_main_arg9 m d

theorem L18_main_arg10 (d : Dev nD) : U18 m d (Proc.devRef .tc main_arg10) = (rargs m d).a10 := by
  show StableHlo.after (wS2_2 (F := Ideal)) (U17 m d) (Proc.devRef .tc main_arg10) = _
  after_results
  exact L17_main_arg10 m d

theorem L18_main_arg11 (d : Dev nD) : U18 m d (Proc.devRef .tc main_arg11) = (rargs m d).a11 := by
  show StableHlo.after (wS2_2 (F := Ideal)) (U17 m d) (Proc.devRef .tc main_arg11) = _
  after_results
  exact L17_main_arg11 m d

theorem L18_main_arg12 (d : Dev nD) : U18 m d (Proc.devRef .tc main_arg12) = (rargs m d).a12 := by
  show StableHlo.after (wS2_2 (F := Ideal)) (U17 m d) (Proc.devRef .tc main_arg12) = _
  after_results
  exact L17_main_arg12 m d

theorem L18_main_arg13 (d : Dev nD) : U18 m d (Proc.devRef .tc main_arg13) = (rargs m d).a13 := by
  show StableHlo.after (wS2_2 (F := Ideal)) (U17 m d) (Proc.devRef .tc main_arg13) = _
  after_results
  exact L17_main_arg13 m d

theorem L18_main_arg14 (d : Dev nD) : U18 m d (Proc.devRef .tc main_arg14) = (rargs m d).a14 := by
  show StableHlo.after (wS2_2 (F := Ideal)) (U17 m d) (Proc.devRef .tc main_arg14) = _
  after_results
  exact L17_main_arg14 m d

theorem L18_main_arg15 (d : Dev nD) : U18 m d (Proc.devRef .tc main_arg15) = (rargs m d).a15 := by
  show StableHlo.after (wS2_2 (F := Ideal)) (U17 m d) (Proc.devRef .tc main_arg15) = _
  after_results
  exact L17_main_arg15 m d

theorem L18_main_arg16 (d : Dev nD) : U18 m d (Proc.devRef .tc main_arg16) = (rargs m d).a16 := by
  show StableHlo.after (wS2_2 (F := Ideal)) (U17 m d) (Proc.devRef .tc main_arg16) = _
  after_results
  exact L17_main_arg16 m d

set_option maxHeartbeats 2000000 in
theorem L18_main_v400 (d : Dev nD) : U18 m d (Proc.devRef .tc main_v400) = X2_2 (rargs m d) := by
  show StableHlo.after (wS2_2 (F := Ideal)) (U17 m d) (Proc.devRef .tc main_v400) = _
  after_results_simp
  simp only [L17_main_v361 m d, L17_main_v358 m d, L17_main_v321 m d, L17_main_arg4 m d, L17_main_v3 m d, L17_main_v318 m d, L17_main_v1 m d, L17_main_arg9 m d, L17_main_arg10 m d]
  exact Cert.RefBridge.ref_stepX _ _ _ _ _ _ _ _ _

theorem L19_main_arg0 (d : Dev nD) : U19 m d (Proc.devRef .tc main_arg0) = (rargs m d).a0 := by
  show StableHlo.after (wM2 (F := Ideal)) (U18 m d) (Proc.devRef .tc main_arg0) = _
  after_results
  exact L18_main_arg0 m d

theorem L19_main_arg1 (d : Dev nD) : U19 m d (Proc.devRef .tc main_arg1) = (rargs m d).a1 := by
  show StableHlo.after (wM2 (F := Ideal)) (U18 m d) (Proc.devRef .tc main_arg1) = _
  after_results
  exact L18_main_arg1 m d

theorem L19_main_arg2 (d : Dev nD) : U19 m d (Proc.devRef .tc main_arg2) = (rargs m d).a2 := by
  show StableHlo.after (wM2 (F := Ideal)) (U18 m d) (Proc.devRef .tc main_arg2) = _
  after_results
  exact L18_main_arg2 m d

theorem L19_main_arg3 (d : Dev nD) : U19 m d (Proc.devRef .tc main_arg3) = (rargs m d).a3 := by
  show StableHlo.after (wM2 (F := Ideal)) (U18 m d) (Proc.devRef .tc main_arg3) = _
  after_results
  exact L18_main_arg3 m d

theorem L19_main_arg4 (d : Dev nD) : U19 m d (Proc.devRef .tc main_arg4) = (rargs m d).a4 := by
  show StableHlo.after (wM2 (F := Ideal)) (U18 m d) (Proc.devRef .tc main_arg4) = _
  after_results
  exact L18_main_arg4 m d

theorem L19_main_arg5 (d : Dev nD) : U19 m d (Proc.devRef .tc main_arg5) = (rargs m d).a5 := by
  show StableHlo.after (wM2 (F := Ideal)) (U18 m d) (Proc.devRef .tc main_arg5) = _
  after_results
  exact L18_main_arg5 m d

theorem L19_main_arg6 (d : Dev nD) : U19 m d (Proc.devRef .tc main_arg6) = (rargs m d).a6 := by
  show StableHlo.after (wM2 (F := Ideal)) (U18 m d) (Proc.devRef .tc main_arg6) = _
  after_results
  exact L18_main_arg6 m d

theorem L19_main_arg7 (d : Dev nD) : U19 m d (Proc.devRef .tc main_arg7) = (rargs m d).a7 := by
  show StableHlo.after (wM2 (F := Ideal)) (U18 m d) (Proc.devRef .tc main_arg7) = _
  after_results
  exact L18_main_arg7 m d

theorem L19_main_arg8 (d : Dev nD) : U19 m d (Proc.devRef .tc main_arg8) = (rargs m d).a8 := by
  show StableHlo.after (wM2 (F := Ideal)) (U18 m d) (Proc.devRef .tc main_arg8) = _
  after_results
  exact L18_main_arg8 m d

theorem L19_main_arg9 (d : Dev nD) : U19 m d (Proc.devRef .tc main_arg9) = (rargs m d).a9 := by
  show StableHlo.after (wM2 (F := Ideal)) (U18 m d) (Proc.devRef .tc main_arg9) = _
  after_results
  exact L18_main_arg9 m d

theorem L19_main_arg10 (d : Dev nD) : U19 m d (Proc.devRef .tc main_arg10) = (rargs m d).a10 := by
  show StableHlo.after (wM2 (F := Ideal)) (U18 m d) (Proc.devRef .tc main_arg10) = _
  after_results
  exact L18_main_arg10 m d

theorem L19_main_arg11 (d : Dev nD) : U19 m d (Proc.devRef .tc main_arg11) = (rargs m d).a11 := by
  show StableHlo.after (wM2 (F := Ideal)) (U18 m d) (Proc.devRef .tc main_arg11) = _
  after_results
  exact L18_main_arg11 m d

theorem L19_main_arg12 (d : Dev nD) : U19 m d (Proc.devRef .tc main_arg12) = (rargs m d).a12 := by
  show StableHlo.after (wM2 (F := Ideal)) (U18 m d) (Proc.devRef .tc main_arg12) = _
  after_results
  exact L18_main_arg12 m d

theorem L19_main_arg13 (d : Dev nD) : U19 m d (Proc.devRef .tc main_arg13) = (rargs m d).a13 := by
  show StableHlo.after (wM2 (F := Ideal)) (U18 m d) (Proc.devRef .tc main_arg13) = _
  after_results
  exact L18_main_arg13 m d

theorem L19_main_arg14 (d : Dev nD) : U19 m d (Proc.devRef .tc main_arg14) = (rargs m d).a14 := by
  show StableHlo.after (wM2 (F := Ideal)) (U18 m d) (Proc.devRef .tc main_arg14) = _
  after_results
  exact L18_main_arg14 m d

theorem L19_main_arg15 (d : Dev nD) : U19 m d (Proc.devRef .tc main_arg15) = (rargs m d).a15 := by
  show StableHlo.after (wM2 (F := Ideal)) (U18 m d) (Proc.devRef .tc main_arg15) = _
  after_results
  exact L18_main_arg15 m d

theorem L19_main_arg16 (d : Dev nD) : U19 m d (Proc.devRef .tc main_arg16) = (rargs m d).a16 := by
  show StableHlo.after (wM2 (F := Ideal)) (U18 m d) (Proc.devRef .tc main_arg16) = _
  after_results
  exact L18_main_arg16 m d

set_option maxHeartbeats 2000000 in
theorem L19_main_v419 (d : Dev nD) : U19 m d (Proc.devRef .tc main_v419) = XOUT_2 (rargs m d) := by
  show StableHlo.after (wM2 (F := Ideal)) (U18 m d) (Proc.devRef .tc main_v419) = _
  after_results_simp
  rw [L18_main_v400 m d, L18_main_arg11 m d, L18_main_arg12 m d, L18_main_arg13 m d, L18_main_arg14 m d]
  exact Cert.RefBridge.ref_mlp _ _ _ _ _

theorem L20_main_arg0 (d : Dev nD) : U20 m d (Proc.devRef .tc main_arg0) = (rargs m d).a0 := by
  show StableHlo.after (wRO (F := Ideal)) (U19 m d) (Proc.devRef .tc main_arg0) = _
  after_results
  exact L19_main_arg0 m d

theorem L20_main_arg1 (d : Dev nD) : U20 m d (Proc.devRef .tc main_arg1) = (rargs m d).a1 := by
  show StableHlo.after (wRO (F := Ideal)) (U19 m d) (Proc.devRef .tc main_arg1) = _
  after_results
  exact L19_main_arg1 m d

theorem L20_main_arg2 (d : Dev nD) : U20 m d (Proc.devRef .tc main_arg2) = (rargs m d).a2 := by
  show StableHlo.after (wRO (F := Ideal)) (U19 m d) (Proc.devRef .tc main_arg2) = _
  after_results
  exact L19_main_arg2 m d

theorem L20_main_arg3 (d : Dev nD) : U20 m d (Proc.devRef .tc main_arg3) = (rargs m d).a3 := by
  show StableHlo.after (wRO (F := Ideal)) (U19 m d) (Proc.devRef .tc main_arg3) = _
  after_results
  exact L19_main_arg3 m d

theorem L20_main_arg4 (d : Dev nD) : U20 m d (Proc.devRef .tc main_arg4) = (rargs m d).a4 := by
  show StableHlo.after (wRO (F := Ideal)) (U19 m d) (Proc.devRef .tc main_arg4) = _
  after_results
  exact L19_main_arg4 m d

theorem L20_main_arg5 (d : Dev nD) : U20 m d (Proc.devRef .tc main_arg5) = (rargs m d).a5 := by
  show StableHlo.after (wRO (F := Ideal)) (U19 m d) (Proc.devRef .tc main_arg5) = _
  after_results
  exact L19_main_arg5 m d

theorem L20_main_arg6 (d : Dev nD) : U20 m d (Proc.devRef .tc main_arg6) = (rargs m d).a6 := by
  show StableHlo.after (wRO (F := Ideal)) (U19 m d) (Proc.devRef .tc main_arg6) = _
  after_results
  exact L19_main_arg6 m d

theorem L20_main_arg7 (d : Dev nD) : U20 m d (Proc.devRef .tc main_arg7) = (rargs m d).a7 := by
  show StableHlo.after (wRO (F := Ideal)) (U19 m d) (Proc.devRef .tc main_arg7) = _
  after_results
  exact L19_main_arg7 m d

theorem L20_main_arg8 (d : Dev nD) : U20 m d (Proc.devRef .tc main_arg8) = (rargs m d).a8 := by
  show StableHlo.after (wRO (F := Ideal)) (U19 m d) (Proc.devRef .tc main_arg8) = _
  after_results
  exact L19_main_arg8 m d

theorem L20_main_arg9 (d : Dev nD) : U20 m d (Proc.devRef .tc main_arg9) = (rargs m d).a9 := by
  show StableHlo.after (wRO (F := Ideal)) (U19 m d) (Proc.devRef .tc main_arg9) = _
  after_results
  exact L19_main_arg9 m d

theorem L20_main_arg10 (d : Dev nD) : U20 m d (Proc.devRef .tc main_arg10) = (rargs m d).a10 := by
  show StableHlo.after (wRO (F := Ideal)) (U19 m d) (Proc.devRef .tc main_arg10) = _
  after_results
  exact L19_main_arg10 m d

theorem L20_main_arg11 (d : Dev nD) : U20 m d (Proc.devRef .tc main_arg11) = (rargs m d).a11 := by
  show StableHlo.after (wRO (F := Ideal)) (U19 m d) (Proc.devRef .tc main_arg11) = _
  after_results
  exact L19_main_arg11 m d

theorem L20_main_arg12 (d : Dev nD) : U20 m d (Proc.devRef .tc main_arg12) = (rargs m d).a12 := by
  show StableHlo.after (wRO (F := Ideal)) (U19 m d) (Proc.devRef .tc main_arg12) = _
  after_results
  exact L19_main_arg12 m d

theorem L20_main_arg13 (d : Dev nD) : U20 m d (Proc.devRef .tc main_arg13) = (rargs m d).a13 := by
  show StableHlo.after (wRO (F := Ideal)) (U19 m d) (Proc.devRef .tc main_arg13) = _
  after_results
  exact L19_main_arg13 m d

theorem L20_main_arg14 (d : Dev nD) : U20 m d (Proc.devRef .tc main_arg14) = (rargs m d).a14 := by
  show StableHlo.after (wRO (F := Ideal)) (U19 m d) (Proc.devRef .tc main_arg14) = _
  after_results
  exact L19_main_arg14 m d

theorem L20_main_arg15 (d : Dev nD) : U20 m d (Proc.devRef .tc main_arg15) = (rargs m d).a15 := by
  show StableHlo.after (wRO (F := Ideal)) (U19 m d) (Proc.devRef .tc main_arg15) = _
  after_results
  exact L19_main_arg15 m d

theorem L20_main_arg16 (d : Dev nD) : U20 m d (Proc.devRef .tc main_arg16) = (rargs m d).a16 := by
  show StableHlo.after (wRO (F := Ideal)) (U19 m d) (Proc.devRef .tc main_arg16) = _
  after_results
  exact L19_main_arg16 m d

set_option maxHeartbeats 2000000 in
theorem L20_main_v424 (d : Dev nD) : U20 m d (Proc.devRef .tc main_v424) = OUT (rargs m d) := by
  show StableHlo.after (wRO (F := Ideal)) (U19 m d) (Proc.devRef .tc main_v424) = _
  after_results_simp
  rw [L19_main_v419 m d, L19_main_arg15 m d, L19_main_arg16 m d]
  exact Cert.LinHost.host_lin64 _ _ _

end Cert.RChain

end
-- ==== Proof.lean ====
/-
  The certificate's five claims for the three-block message-passing network.

  Frames: the word-level kernel program and its idealization run through their 29 pallas regions and the host
  stretches between them with the argument arrays untouched (the generated frame certificates); the reference
  is a straight line of host operations, none of which writes an argument.
  Preservation: the idealization rewrote nothing.
  Equality at the extended reals: both programs end holding `Cert.Model.OUT` of the seventeen argument arrays —
  the kernel program because each region writes back, block by block, the whole-array function of Spec.lean of
  its input arrays and each host stretch applies the same gathers and scatter-adds the Model names
  (KChain0 … KChain3); the reference because each of its dense pieces is the same function read index by index
  (a matrix product against a transposed weight, a broadcast bias, `max · 0`, `tanh`, the elementwise update),
  its degree vector is the kernel program's degree column (one scatter-add in two layouts), and products commute
  (RChain0 … RChain3).
-/
import proofs.«107783_j24189255811079_1_alg».proof.Defs
import proofs.«107783_j24189255811079_1_alg».proof.Proof.Gen.Kernel
import proofs.«107783_j24189255811079_1_alg».proof.Proof.Gen.Kernel.Frame
import proofs.«107783_j24189255811079_1_alg».proof.Proof.Gen.KernelIdeal
import proofs.«107783_j24189255811079_1_alg».proof.Proof.Gen.KernelIdeal.Frame
import proofs.«107783_j24189255811079_1_alg».proof.Proof.Gen.ReferenceIdeal
import proofs.«107783_j24189255811079_1_alg».proof.Proof.Gen.Pre_finite_inputs
import proofs.«107783_j24189255811079_1_alg».proof.Proof.KernelRun
import proofs.«107783_j24189255811079_1_alg».proof.Proof.KChain3
import proofs.«107783_j24189255811079_1_alg».proof.Proof.RChain3

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference writes no argument: each argument buffer holds its launch contents after the last operation. -/
theorem frame_ri : Cert.frame_ReferenceIdeal := fun m ρ _ =>
  (θ_run Cert.ReferenceIdeal.defs _ _).mono (fun r h c =>
    ⟨(h c Cert.ReferenceIdeal.main_arg0).trans (Cert.RChain.L20_main_arg0 m c),
     (h c Cert.ReferenceIdeal.main_arg1).trans (Cert.RChain.L20_main_arg1 m c),
     (h c Cert.ReferenceIdeal.main_arg2).trans (Cert.RChain.L20_main_arg2 m c),
     (h c Cert.ReferenceIdeal.main_arg3).trans (Cert.RChain.L20_main_arg3 m c),
     (h c Cert.ReferenceIdeal.main_arg4).trans (Cert.RChain.L20_main_arg4 m c),
     (h c Cert.ReferenceIdeal.main_arg5).trans (Cert.RChain.L20_main_arg5 m c),
     (h c Cert.ReferenceIdeal.main_arg6).trans (Cert.RChain.L20_main_arg6 m c),
     (h c Cert.ReferenceIdeal.main_arg7).trans (Cert.RChain.L20_main_arg7 m c),
     (h c Cert.ReferenceIdeal.main_arg8).trans (Cert.RChain.L20_main_arg8 m c),
     (h c Cert.ReferenceIdeal.main_arg9).trans (Cert.RChain.L20_main_arg9 m c),
     (h c Cert.ReferenceIdeal.main_arg10).trans (Cert.RChain.L20_main_arg10 m c),
     (h c Cert.ReferenceIdeal.main_arg11).trans (Cert.RChain.L20_main_arg11 m c),
     (h c Cert.ReferenceIdeal.main_arg12).trans (Cert.RChain.L20_main_arg12 m c),
     (h c Cert.ReferenceIdeal.main_arg13).trans (Cert.RChain.L20_main_arg13 m c),
     (h c Cert.ReferenceIdeal.main_arg14).trans (Cert.RChain.L20_main_arg14 m c),
     (h c Cert.ReferenceIdeal.main_arg15).trans (Cert.RChain.L20_main_arg15 m c),
     (h c Cert.ReferenceIdeal.main_arg16).trans (Cert.RChain.L20_main_arg16 m c)⟩)
    (Cert.ReferenceIdeal.RefRun.run_U (F := Ideal) m ρ)

theorem preserves : Cert.preserves_Kernel_KernelIdeal := trivial

/-- Both programs end at `Cert.Model.OUT` of the argument arrays, which the two launch memories agree on. -/
theorem algebraic : Cert.algebraic_KernelIdeal_ReferenceIdeal := by
  intro m ρ m' ρ' _ hagree
  refine ⟨fun c => Cert.Model.OUT (Cert.KChain.kargs m c), ?_, ?_⟩
  · exact (θ_run Cert.KernelIdeal.defs _ _).mono
      (fun r h c => ⟨(h c).1.trans (Cert.KChain.L57_main_v243 m ρ c), (h c).2⟩)
      (Cert.KernelIdeal.Gen.run_val (F := Ideal) m ρ)
  · refine (θ_run Cert.ReferenceIdeal.defs _ _).mono (fun r h c => ⟨?_,
     (h c Cert.ReferenceIdeal.main_arg0).trans (Cert.RChain.L20_main_arg0 m' c),
     (h c Cert.ReferenceIdeal.main_arg1).trans (Cert.RChain.L20_main_arg1 m' c),
     (h c Cert.ReferenceIdeal.main_arg2).trans (Cert.RChain.L20_main_arg2 m' c),
     (h c Cert.ReferenceIdeal.main_arg3).trans (Cert.RChain.L20_main_arg3 m' c),
     (h c Cert.ReferenceIdeal.main_arg4).trans (Cert.RChain.L20_main_arg4 m' c),
     (h c Cert.ReferenceIdeal.main_arg5).trans (Cert.RChain.L20_main_arg5 m' c),
     (h c Cert.ReferenceIdeal.main_arg6).trans (Cert.RChain.L20_main_arg6 m' c),
     (h c Cert.ReferenceIdeal.main_arg7).trans (Cert.RChain.L20_main_arg7 m' c),
     (h c Cert.ReferenceIdeal.main_arg8).trans (Cert.RChain.L20_main_arg8 m' c),
     (h c Cert.ReferenceIdeal.main_arg9).trans (Cert.RChain.L20_main_arg9 m' c),
     (h c Cert.ReferenceIdeal.main_arg10).trans (Cert.RChain.L20_main_arg10 m' c),
     (h c Cert.ReferenceIdeal.main_arg11).trans (Cert.RChain.L20_main_arg11 m' c),
     (h c Cert.ReferenceIdeal.main_arg12).trans (Cert.RChain.L20_main_arg12 m' c),
     (h c Cert.ReferenceIdeal.main_arg13).trans (Cert.RChain.L20_main_arg13 m' c),
     (h c Cert.ReferenceIdeal.main_arg14).trans (Cert.RChain.L20_main_arg14 m' c),
     (h c Cert.ReferenceIdeal.main_arg15).trans (Cert.RChain.L20_main_arg15 m' c),
     (h c Cert.ReferenceIdeal.main_arg16).trans (Cert.RChain.L20_main_arg16 m' c)⟩)
      (Cert.ReferenceIdeal.RefRun.run_U (F := Ideal) m' ρ')
    have hA : Cert.RChain.rargs m' c = Cert.KChain.kargs m c := by
      obtain ⟨e0, e1, e2, e3, e4, e5, e6, e7, e8, e9, e10, e11, e12, e13, e14, e15, e16⟩ := hagree c
      unfold Cert.RChain.rargs Cert.KChain.kargs
      rw [e0, e1, e2, e3, e4, e5, e6, e7, e8, e9, e10, e11, e12, e13, e14, e15, e16]
    exact ((h c Cert.ReferenceIdeal.main_v424).trans (Cert.RChain.L20_main_v424 m' c)).trans (congrArg Cert.Model.OUT hA)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
